-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v212)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v212) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v294) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S4x64x64 : Shape := ⟨3, ![4, 64, 64]⟩
abbrev S4x64 : Shape := ⟨2, ![4, 64]⟩
abbrev S5x64 : Shape := ⟨2, ![5, 64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_
  bcast_S_S5x64 : S_.BroadcastsInDim S5x64 (![] : Fin 0 → Fin S5x64.rank)
  reducesTo_S5x64_S_d0_1 : S5x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part4 {F : FTy → Type} [FloatOps F] (main_arg16 : FVec F S32 .f32) (main_v63 : IVec S_ 1) (main_v67 : IVec S_ 1) : IVec S_ 1 :=
  let main_v68 : IVec S_ 1 := andi main_v63 main_v67
  let main_v69 : FVec F S32 .f32 := Host.absf main_arg16
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  main_v73

def fn_part3 {F : FTy → Type} [FloatOps F] (main_arg13 : FVec F S64x64 .f32) (main_arg14 : FVec F S64 .f32) (main_arg15 : FVec F S64x32 .f32) (main_arg16 : FVec F S32 .f32) (main_v48 : IVec S_ 1) (main_v49 : FVec F S5x64 .f32) (main_v50 : FVec F S5x64 .f32) : IVec S_ 1 :=
  let main_v51 : IVec S5x64 1 := cmpf .olt main_v49 main_v50
  let main_c_19 : IVec S_ 1 := constantI S_ 1 1#1
  let main_v52 : IVec S_ 1 := (fun x v => Host.reduce IntOp.andi x v reducesTo_S5x64_S_d0_1 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x32 .f32 := Host.absf main_arg15
  let main_cst_24 : FVec F S_ .f32 := constant S_ .f32 0x7F800000#32
  let main_v65 : FVec F S64x32 .f32 := broadcastInDim S64x32 ![] bcast_S_S64x32 main_cst_24
  let main_v66 : IVec S64x32 1 := cmpf .olt main_v64 main_v65
  let main_c_25 : IVec S_ 1 := constantI S_ 1 1#1
  let main_v67 : IVec S_ 1 := (fun x v => Host.reduce IntOp.andi x v reducesTo_S64x32_S_d0_1 h_S_) main_v66 main_c_25
  fn_part4 (F := F) main_arg16 main_v63 main_v67

def fn_part2 {F : FTy → Type} [FloatOps F] (main_arg9 : FVec F S4x64x64 .f32) (main_arg10 : FVec F S4x64 .f32) (main_arg11 : FVec F S5x64 .f32) (main_arg12 : FVec F S5x64 .f32) (main_arg13 : FVec F S64x64 .f32) (main_arg14 : FVec F S64 .f32) (main_arg15 : FVec F S64x32 .f32) (main_arg16 : FVec F S32 .f32) (main_v33 : IVec S_ 1) : IVec S_ 1 :=
  let main_v34 : FVec F S4x64x64 .f32 := Host.absf main_arg9
  let main_cst_12 : FVec F S_ .f32 := constant S_ .f32 0x7F800000#32
  let main_v35 : FVec F S4x64x64 .f32 := broadcastInDim S4x64x64 ![] bcast_S_S4x64x64 main_cst_12
  let main_v36 : IVec S4x64x64 1 := cmpf .olt main_v34 main_v35
  let main_c_13 : IVec S_ 1 := constantI S_ 1 1#1
  let main_v37 : IVec S_ 1 := (fun x v => Host.reduce IntOp.andi x v reducesTo_S4x64x64_S_d0_1_2 h_S_) main_v36 main_c_13
  let main_v38 : IVec S_ 1 := andi main_v33 main_v37
  let main_v39 : FVec F S4x64 .f32 := Host.absf main_arg10
  let main_cst_14 : FVec F S_ .f32 := constant S_ .f32 0x7F800000#32
  let main_v40 : FVec F S4x64 .f32 := broadcastInDim S4x64 ![] bcast_S_S4x64 main_cst_14
  let main_v41 : IVec S4x64 1 := cmpf .olt main_v39 main_v40
  let main_c_15 : IVec S_ 1 := constantI S_ 1 1#1
  let main_v42 : IVec S_ 1 := (fun x v => Host.reduce IntOp.andi x v reducesTo_S4x64_S_d0_1 h_S_) main_v41 main_c_15
  let main_v43 : IVec S_ 1 := andi main_v38 main_v42
  let main_v44 : FVec F S5x64 .f32 := Host.absf main_arg11
  let main_cst_16 : FVec F S_ .f32 := constant S_ .f32 0x7F800000#32
  let main_v45 : FVec F S5x64 .f32 := broadcastInDim S5x64 ![] bcast_S_S5x64 main_cst_16
  let main_v46 : IVec S5x64 1 := cmpf .olt main_v44 main_v45
  let main_c_17 : IVec S_ 1 := constantI S_ 1 1#1
  let main_v47 : IVec S_ 1 := (fun x v => Host.reduce IntOp.andi x v reducesTo_S5x64_S_d0_1 h_S_) main_v46 main_c_17
  let main_v48 : IVec S_ 1 := andi main_v43 main_v47
  let main_v49 : FVec F S5x64 .f32 := Host.absf main_arg12
  let main_cst_18 : FVec F S_ .f32 := constant S_ .f32 0x7F800000#32
  let main_v50 : FVec F S5x64 .f32 := broadcastInDim S5x64 ![] bcast_S_S5x64 main_cst_18
  fn_part3 (F := F) main_arg13 main_arg14 main_arg15 main_arg16 main_v48 main_v49 main_v50

def fn_part1 {F : FTy → Type} [FloatOps F] (main_arg6 : FVec F S64 .f32) (main_arg7 : FVec F S4x64x64 .f32) (main_arg8 : FVec F S4x64 .f32) (main_arg9 : FVec F S4x64x64 .f32) (main_arg10 : FVec F S4x64 .f32) (main_arg11 : FVec F S5x64 .f32) (main_arg12 : FVec F S5x64 .f32) (main_arg13 : FVec F S64x64 .f32) (main_arg14 : FVec F S64 .f32) (main_arg15 : FVec F S64x32 .f32) (main_arg16 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S4x64x64 .f32 := Host.absf main_arg7
  let main_cst_8 : FVec F S_ .f32 := constant S_ .f32 0x7F800000#32
  let main_v25 : FVec F S4x64x64 .f32 := broadcastInDim S4x64x64 ![] bcast_S_S4x64x64 main_cst_8
  let main_v26 : IVec S4x64x64 1 := cmpf .olt main_v24 main_v25
  let main_c_9 : IVec S_ 1 := constantI S_ 1 1#1
  let main_v27 : IVec S_ 1 := (fun x v => Host.reduce IntOp.andi x v reducesTo_S4x64x64_S_d0_1_2 h_S_) main_v26 main_c_9
  let main_v28 : IVec S_ 1 := andi main_v23 main_v27
  let main_v29 : FVec F S4x64 .f32 := Host.absf main_arg8
  let main_cst_10 : FVec F S_ .f32 := constant S_ .f32 0x7F800000#32
  let main_v30 : FVec F S4x64 .f32 := broadcastInDim S4x64 ![] bcast_S_S4x64 main_cst_10
  let main_v31 : IVec S4x64 1 := cmpf .olt main_v29 main_v30
  let main_c_11 : IVec S_ 1 := constantI S_ 1 1#1
  let main_v32 : IVec S_ 1 := (fun x v => Host.reduce IntOp.andi x v reducesTo_S4x64_S_d0_1 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x128 .f32) (main_arg1 : IVec S2x1600000 32) (main_arg2 : IVec S100000 32) (main_arg3 : FVec F S128x64 .f32) (main_arg4 : FVec F S64 .f32) (main_arg5 : FVec F S64x64 .f32) (main_arg6 : FVec F S64 .f32) (main_arg7 : FVec F S4x64x64 .f32) (main_arg8 : FVec F S4x64 .f32) (main_arg9 : FVec F S4x64x64 .f32) (main_arg10 : FVec F S4x64 .f32) (main_arg11 : FVec F S5x64 .f32) (main_arg12 : FVec F S5x64 .f32) (main_arg13 : FVec F S64x64 .f32) (main_arg14 : FVec F S64 .f32) (main_arg15 : FVec F S64x32 .f32) (main_arg16 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S4x64x64 : Shape := ⟨3, ![4, 64, 64]⟩
abbrev S4x64 : Shape := ⟨2, ![4, 64]⟩
abbrev S5x64 : Shape := ⟨2, ![5, 64]⟩
abbrev S64x32 : Shape := ⟨2, ![64, 32]⟩
abbrev S32 : Shape := ⟨1, ![32]⟩
abbrev S1x64 : Shape := ⟨2, ![1, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x64 : Shape := ⟨2, ![100000, 64]⟩
abbrev S5000x128 : Shape := ⟨2, ![5000, 128]⟩
abbrev S5000x64 : Shape := ⟨2, ![5000, 64]⟩
abbrev S1x64x64 : Shape := ⟨3, ![1, 64, 64]⟩
abbrev S1600000x64 : Shape := ⟨2, ![1600000, 64]⟩
abbrev S2048x64 : Shape := ⟨2, ![2048, 64]⟩
abbrev S100000x1 : Shape := ⟨2, ![100000, 1]⟩
abbrev S1x32 : Shape := ⟨2, ![1, 32]⟩
abbrev S2048x32 : Shape := ⟨2, ![2048, 32]⟩
abbrev S512x64 : Shape := ⟨2, ![512, 64]⟩
abbrev S512x32 : Shape := ⟨2, ![512, 32]⟩

abbrev nBuf : Space → Nat
  | .hbm => 266
  | .vmem => 98
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S4x64x64, .f32⟩
  | 8 => ⟨S4x64, .f32⟩
  | 9 => ⟨S4x64x64, .f32⟩
  | 10 => ⟨S4x64, .f32⟩
  | 11 => ⟨S5x64, .f32⟩
  | 12 => ⟨S5x64, .f32⟩
  | 13 => ⟨S64x64, .f32⟩
  | 14 => ⟨S64, .f32⟩
  | 15 => ⟨S64x32, .f32⟩
  | 16 => ⟨S32, .f32⟩
  | 17 => ⟨S1x64, .f32⟩
  | 18 => ⟨S64, .f32⟩
  | 19 => ⟨S1x64, .f32⟩
  | 20 => ⟨S64, .f32⟩
  | 21 => ⟨S1x1600000, .i32⟩
  | 22 => ⟨S1600000, .i32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x128, .f32⟩
  | 32 => ⟨S1x1600000, .i32⟩
  | 33 => ⟨S1600000, .i32⟩
  | 34 => ⟨S_, .f32⟩
  | 35 => ⟨S100000x128, .f32⟩
  | 36 => ⟨S1600000x1, .i32⟩
  | 37 => ⟨S100000x128, .f32⟩
  | 38 => ⟨S100000x128, .f32⟩
  | 39 => ⟨S1x64, .f32⟩
  | 40 => ⟨S1x64, .f32⟩
  | 41 => ⟨S100000x64, .f32⟩
  | 42 => ⟨S1x64, .f32⟩
  | 43 => ⟨S1x64, .f32⟩
  | 44 => ⟨S64, .f32⟩
  | 45 => ⟨S_, .f32⟩
  | 46 => ⟨S64, .f32⟩
  | 47 => ⟨S64, .f32⟩
  | 48 => ⟨S64, .f32⟩
  | 49 => ⟨S_, .f32⟩
  | 50 => ⟨S64, .f32⟩
  | 51 => ⟨S64, .f32⟩
  | 52 => ⟨S64, .f32⟩
  | 53 => ⟨S64, .f32⟩
  | 54 => ⟨S1x64, .f32⟩
  | 55 => ⟨S1x64, .f32⟩
  | 56 => ⟨S1x64, .f32⟩
  | 57 => ⟨S1x64, .f32⟩
  | 58 => ⟨S100000x64, .f32⟩
  | 59 => ⟨S1x64x64, .f32⟩
  | 60 => ⟨S64x64, .f32⟩
  | 61 => ⟨S1x64, .f32⟩
  | 62 => ⟨S64, .f32⟩
  | 63 => ⟨S1x64x64, .f32⟩
  | 64 => ⟨S64x64, .f32⟩
  | 65 => ⟨S1x64, .f32⟩
  | 66 => ⟨S64, .f32⟩
  | 67 => ⟨S1x64, .f32⟩
  | 68 => ⟨S64, .f32⟩
  | 69 => ⟨S1x64, .f32⟩
  | 70 => ⟨S64, .f32⟩
  | 71 => ⟨S1x1600000, .i32⟩
  | 72 => ⟨S1600000, .i32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x64, .f32⟩
  | 82 => ⟨S1x1600000, .i32⟩
  | 83 => ⟨S1600000, .i32⟩
  | 84 => ⟨S_, .f32⟩
  | 85 => ⟨S100000x64, .f32⟩
  | 86 => ⟨S1600000x1, .i32⟩
  | 87 => ⟨S100000x64, .f32⟩
  | 88 => ⟨S100000x64, .f32⟩
  | 89 => ⟨S1x64, .f32⟩
  | 90 => ⟨S1x64, .f32⟩
  | 91 => ⟨S100000x64, .f32⟩
  | 92 => ⟨S1x64, .f32⟩
  | 93 => ⟨S1x64, .f32⟩
  | 94 => ⟨S64, .f32⟩
  | 95 => ⟨S_, .f32⟩
  | 96 => ⟨S64, .f32⟩
  | 97 => ⟨S64, .f32⟩
  | 98 => ⟨S64, .f32⟩
  | 99 => ⟨S_, .f32⟩
  | 100 => ⟨S64, .f32⟩
  | 101 => ⟨S64, .f32⟩
  | 102 => ⟨S64, .f32⟩
  | 103 => ⟨S64, .f32⟩
  | 104 => ⟨S1x64, .f32⟩
  | 105 => ⟨S1x64, .f32⟩
  | 106 => ⟨S1x64, .f32⟩
  | 107 => ⟨S1x64, .f32⟩
  | 108 => ⟨S100000x64, .f32⟩
  | 109 => ⟨S1x64x64, .f32⟩
  | 110 => ⟨S64x64, .f32⟩
  | 111 => ⟨S1x64, .f32⟩
  | 112 => ⟨S64, .f32⟩
  | 113 => ⟨S1x64x64, .f32⟩
  | 114 => ⟨S64x64, .f32⟩
  | 115 => ⟨S1x64, .f32⟩
  | 116 => ⟨S64, .f32⟩
  | 117 => ⟨S1x64, .f32⟩
  | 118 => ⟨S64, .f32⟩
  | 119 => ⟨S1x64, .f32⟩
  | 120 => ⟨S64, .f32⟩
  | 121 => ⟨S1x1600000, .i32⟩
  | 122 => ⟨S1600000, .i32⟩
  | 123 => ⟨S_, .i32⟩
  | 124 => ⟨S1600000, .i32⟩
  | 125 => ⟨S1600000, .i1⟩
  | 126 => ⟨S_, .i32⟩
  | 127 => ⟨S1600000, .i32⟩
  | _ => ⟨S100000x128, .f32⟩

abbrev hbmTy0_1 (i : Nat) : BufTy := match i % 128 with
  | 0 => ⟨S1600000, .i32⟩
  | 1 => ⟨S1600000, .i32⟩
  | 2 => ⟨S1600000x1, .i32⟩
  | 3 => ⟨S1600000x64, .f32⟩
  | 4 => ⟨S1x1600000, .i32⟩
  | 5 => ⟨S1600000, .i32⟩
  | 6 => ⟨S_, .f32⟩
  | 7 => ⟨S100000x64, .f32⟩
  | 8 => ⟨S1600000x1, .i32⟩
  | 9 => ⟨S100000x64, .f32⟩
  | 10 => ⟨S100000x64, .f32⟩
  | 11 => ⟨S1x64, .f32⟩
  | 12 => ⟨S1x64, .f32⟩
  | 13 => ⟨S100000x64, .f32⟩
  | 14 => ⟨S1x64, .f32⟩
  | 15 => ⟨S1x64, .f32⟩
  | 16 => ⟨S64, .f32⟩
  | 17 => ⟨S_, .f32⟩
  | 18 => ⟨S64, .f32⟩
  | 19 => ⟨S64, .f32⟩
  | 20 => ⟨S64, .f32⟩
  | 21 => ⟨S_, .f32⟩
  | 22 => ⟨S64, .f32⟩
  | 23 => ⟨S64, .f32⟩
  | 24 => ⟨S64, .f32⟩
  | 25 => ⟨S64, .f32⟩
  | 26 => ⟨S1x64, .f32⟩
  | 27 => ⟨S1x64, .f32⟩
  | 28 => ⟨S1x64, .f32⟩
  | 29 => ⟨S1x64, .f32⟩
  | 30 => ⟨S100000x64, .f32⟩
  | 31 => ⟨S1x64x64, .f32⟩
  | 32 => ⟨S64x64, .f32⟩
  | 33 => ⟨S1x64, .f32⟩
  | 34 => ⟨S64, .f32⟩
  | 35 => ⟨S1x64x64, .f32⟩
  | 36 => ⟨S64x64, .f32⟩
  | 37 => ⟨S1x64, .f32⟩
  | 38 => ⟨S64, .f32⟩
  | 39 => ⟨S1x64, .f32⟩
  | 40 => ⟨S64, .f32⟩
  | 41 => ⟨S1x64, .f32⟩
  | 42 => ⟨S64, .f32⟩
  | 43 => ⟨S1x1600000, .i32⟩
  | 44 => ⟨S1600000, .i32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x64, .f32⟩
  | 54 => ⟨S1x1600000, .i32⟩
  | 55 => ⟨S1600000, .i32⟩
  | 56 => ⟨S_, .f32⟩
  | 57 => ⟨S100000x64, .f32⟩
  | 58 => ⟨S1600000x1, .i32⟩
  | 59 => ⟨S100000x64, .f32⟩
  | 60 => ⟨S100000x64, .f32⟩
  | 61 => ⟨S1x64, .f32⟩
  | 62 => ⟨S1x64, .f32⟩
  | 63 => ⟨S100000x64, .f32⟩
  | 64 => ⟨S1x64, .f32⟩
  | 65 => ⟨S1x64, .f32⟩
  | 66 => ⟨S64, .f32⟩
  | 67 => ⟨S_, .f32⟩
  | 68 => ⟨S64, .f32⟩
  | 69 => ⟨S64, .f32⟩
  | 70 => ⟨S64, .f32⟩
  | 71 => ⟨S_, .f32⟩
  | 72 => ⟨S64, .f32⟩
  | 73 => ⟨S64, .f32⟩
  | 74 => ⟨S64, .f32⟩
  | 75 => ⟨S64, .f32⟩
  | 76 => ⟨S1x64, .f32⟩
  | 77 => ⟨S1x64, .f32⟩
  | 78 => ⟨S1x64, .f32⟩
  | 79 => ⟨S1x64, .f32⟩
  | 80 => ⟨S100000x64, .f32⟩
  | 81 => ⟨S1x64x64, .f32⟩
  | 82 => ⟨S64x64, .f32⟩
  | 83 => ⟨S1x64, .f32⟩
  | 84 => ⟨S64, .f32⟩
  | 85 => ⟨S1x64x64, .f32⟩
  | 86 => ⟨S64x64, .f32⟩
  | 87 => ⟨S1x64, .f32⟩
  | 88 => ⟨S64, .f32⟩
  | 89 => ⟨S1x64, .f32⟩
  | 90 => ⟨S64, .f32⟩
  | 91 => ⟨S1x64, .f32⟩
  | 92 => ⟨S64, .f32⟩
  | 93 => ⟨S1x1600000, .i32⟩
  | 94 => ⟨S1600000, .i32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x64, .f32⟩
  | 104 => ⟨S1x1600000, .i32⟩
  | 105 => ⟨S1600000, .i32⟩
  | 106 => ⟨S_, .f32⟩
  | 107 => ⟨S100000x64, .f32⟩
  | 108 => ⟨S1600000x1, .i32⟩
  | 109 => ⟨S100000x64, .f32⟩
  | 110 => ⟨S100000x64, .f32⟩
  | 111 => ⟨S1x64, .f32⟩
  | 112 => ⟨S1x64, .f32⟩
  | 113 => ⟨S100000x64, .f32⟩
  | 114 => ⟨S1x64, .f32⟩
  | 115 => ⟨S1x64, .f32⟩
  | 116 => ⟨S64, .f32⟩
  | 117 => ⟨S_, .f32⟩
  | 118 => ⟨S64, .f32⟩
  | 119 => ⟨S64, .f32⟩
  | 120 => ⟨S64, .f32⟩
  | 121 => ⟨S_, .f32⟩
  | 122 => ⟨S64, .f32⟩
  | 123 => ⟨S64, .f32⟩
  | 124 => ⟨S64, .f32⟩
  | 125 => ⟨S64, .f32⟩
  | 126 => ⟨S1x64, .f32⟩
  | 127 => ⟨S1x64, .f32⟩
  | _ => ⟨S100000x128, .f32⟩

abbrev hbmTy0_2 (i : Nat) : BufTy := match i % 128 with
  | 0 => ⟨S1x64, .f32⟩
  | 1 => ⟨S1x64, .f32⟩
  | 2 => ⟨S100000x64, .f32⟩
  | 3 => ⟨S_, .f32⟩
  | 4 => ⟨S2048x64, .f32⟩
  | 5 => ⟨S100000x1, .i32⟩
  | 6 => ⟨S2048x64, .f32⟩
  | 7 => ⟨S1x64, .f32⟩
  | 8 => ⟨S1x32, .f32⟩
  | 9 => ⟨S2048x32, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S1x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x64, .f32⟩
  | .local _ .vmem, ⟨21, _⟩ => ⟨S1x64, .f32⟩
  | .local _ .vmem, ⟨22, _⟩ => ⟨S64x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | .local _ .vmem, ⟨26, _⟩ => ⟨S1x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S64x64, .f32⟩
  | .local _ .vmem, ⟨39, _⟩ => ⟨S1x64, .f32⟩
  | .local _ .vmem, ⟨40, _⟩ => ⟨S64x64, .f32⟩
  | .local _ .vmem, ⟨41, _⟩ => ⟨S1x64, .f32⟩
  | .local _ .vmem, ⟨42, _⟩ => ⟨S5000x64, .f32⟩
  | .local _ .vmem, ⟨43, _⟩ => ⟨S5000x64, .f32⟩
  | .local _ .vmem, ⟨44, _⟩ => ⟨S1x64, .f32⟩
  | .local _ .vmem, ⟨45, _⟩ => ⟨S1x64, .f32⟩
  | .local _ .vmem, ⟨46, _⟩ => ⟨S5000x64, .f32⟩
  | .local _ .vmem, ⟨47, _⟩ => ⟨S5000x64, .f32⟩
  | .local _ .vmem, ⟨48, _⟩ => ⟨S1x64, .f32⟩
  | .local _ .vmem, ⟨49, _⟩ => ⟨S1x64, .f32⟩
  | .local _ .vmem, ⟨50, _⟩ => ⟨S1x64, .f32⟩
  | .local _ .vmem, ⟨51, _⟩ => ⟨S1x64, .f32⟩
  | .local _ .vmem, ⟨52, _⟩ => ⟨S5000x64, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S64x64, .f32⟩
  | .local _ .vmem, ⟨57, _⟩ => ⟨S1x64, .f32⟩
  | .local _ .vmem, ⟨58, _⟩ => ⟨S64x64, .f32⟩
  | .local _ .vmem, ⟨59, _⟩ => ⟨S1x64, .f32⟩
  | .local _ .vmem, ⟨60, _⟩ => ⟨S5000x64, .f32⟩
  | .local _ .vmem, ⟨61, _⟩ => ⟨S5000x64, .f32⟩
  | .local _ .vmem, ⟨62, _⟩ => ⟨S1x64, .f32⟩
  | .local _ .vmem, ⟨63, _⟩ => ⟨S1x64, .f32⟩
  | .local _ .vmem, ⟨64, _⟩ => ⟨S5000x64, .f32⟩
  | .local _ .vmem, ⟨65, _⟩ => ⟨S5000x64, .f32⟩
  | .local _ .vmem, ⟨66, _⟩ => ⟨S1x64, .f32⟩
  | .local _ .vmem, ⟨67, _⟩ => ⟨S1x64, .f32⟩
  | .local _ .vmem, ⟨68, _⟩ => ⟨S1x64, .f32⟩
  | .local _ .vmem, ⟨69, _⟩ => ⟨S1x64, .f32⟩
  | .local _ .vmem, ⟨70, _⟩ => ⟨S5000x64, .f32⟩
  | .local _ .vmem, ⟨71, _⟩ => ⟨S5000x64, .f32⟩
  | .local _ .vmem, ⟨72, _⟩ => ⟨S5000x64, .f32⟩
  | .local _ .vmem, ⟨73, _⟩ => ⟨S5000x64, .f32⟩
  | .local _ .vmem, ⟨74, _⟩ => ⟨S64x64, .f32⟩
  | .local _ .vmem, ⟨75, _⟩ => ⟨S1x64, .f32⟩
  | .local _ .vmem, ⟨76, _⟩ => ⟨S64x64, .f32⟩
  | .local _ .vmem, ⟨77, _⟩ => ⟨S1x64, .f32⟩
  | .local _ .vmem, ⟨78, _⟩ => ⟨S5000x64, .f32⟩
  | .local _ .vmem, ⟨79, _⟩ => ⟨S5000x64, .f32⟩
  | .local _ .vmem, ⟨80, _⟩ => ⟨S1x64, .f32⟩
  | .local _ .vmem, ⟨81, _⟩ => ⟨S1x64, .f32⟩
  | .local _ .vmem, ⟨82, _⟩ => ⟨S5000x64, .f32⟩
  | .local _ .vmem, ⟨83, _⟩ => ⟨S5000x64, .f32⟩
  | .local _ .vmem, ⟨84, _⟩ => ⟨S1x64, .f32⟩
  | .local _ .vmem, ⟨85, _⟩ => ⟨S1x64, .f32⟩
  | .local _ .vmem, ⟨86, _⟩ => ⟨S1x64, .f32⟩
  | .local _ .vmem, ⟨87, _⟩ => ⟨S1x64, .f32⟩
  | .local _ .vmem, ⟨88, _⟩ => ⟨S5000x64, .f32⟩
  | .local _ .vmem, ⟨89, _⟩ => ⟨S5000x64, .f32⟩
  | .local _ .vmem, ⟨90, _⟩ => ⟨S512x64, .f32⟩
  | .local _ .vmem, ⟨91, _⟩ => ⟨S512x64, .f32⟩
  | .local _ .vmem, ⟨92, _⟩ => ⟨S64x64, .f32⟩
  | .local _ .vmem, ⟨93, _⟩ => ⟨S1x64, .f32⟩
  | .local _ .vmem, ⟨94, _⟩ => ⟨S64x32, .f32⟩
  | .local _ .vmem, ⟨95, _⟩ => ⟨S1x32, .f32⟩
  | .local _ .vmem, ⟨96, _⟩ => ⟨S512x32, .f32⟩
  | .local _ .vmem, ⟨97, _⟩ => ⟨S512x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | _, _ => false

abbrev semScoped : Fin 0 → Bool
  | ⟨_, h⟩ => absurd h (Nat.not_lt_zero _)

abbrev dmaSemScoped : Fin 98 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | _ => false

abbrev sig : RefSig :=
  ofTc nBuf bufTy 0 98 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_c : Ref sig .tc := ⟨.hbm, 23, rfl⟩
abbrev main_v6 : Ref sig .tc := ⟨.hbm, 24, rfl⟩
abbrev main_v7 : Ref sig .tc := ⟨.hbm, 25, rfl⟩
abbrev main_c_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21_0 : Ref sig .tc := ⟨.hbm, 41, rfl⟩
abbrev main_v21_1 : Ref sig .tc := ⟨.hbm, 42, rfl⟩
abbrev main_v21_2 : Ref sig .tc := ⟨.hbm, 43, rfl⟩
abbrev main_v22 : Ref sig .tc := ⟨.hbm, 44, rfl⟩
abbrev main_cst_1 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_2 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_c_3 : Ref sig .tc := ⟨.hbm, 73, rfl⟩
abbrev main_v49 : Ref sig .tc := ⟨.hbm, 74, rfl⟩
abbrev main_v50 : Ref sig .tc := ⟨.hbm, 75, rfl⟩
abbrev main_c_4 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_5 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64_0 : Ref sig .tc := ⟨.hbm, 91, rfl⟩
abbrev main_v64_1 : Ref sig .tc := ⟨.hbm, 92, rfl⟩
abbrev main_v64_2 : Ref sig .tc := ⟨.hbm, 93, rfl⟩
abbrev main_v65 : Ref sig .tc := ⟨.hbm, 94, rfl⟩
abbrev main_cst_6 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_7 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_c_8 : Ref sig .tc := ⟨.hbm, 123, rfl⟩
abbrev main_v92 : Ref sig .tc := ⟨.hbm, 124, rfl⟩
abbrev main_v93 : Ref sig .tc := ⟨.hbm, 125, rfl⟩
abbrev main_c_9 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_cst_10 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107_0 : Ref sig .tc := ⟨.hbm, 141, rfl⟩
abbrev main_v107_1 : Ref sig .tc := ⟨.hbm, 142, rfl⟩
abbrev main_v107_2 : Ref sig .tc := ⟨.hbm, 143, rfl⟩
abbrev main_v108 : Ref sig .tc := ⟨.hbm, 144, rfl⟩
abbrev main_cst_11 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_cst_12 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_c_13 : Ref sig .tc := ⟨.hbm, 173, rfl⟩
abbrev main_v135 : Ref sig .tc := ⟨.hbm, 174, rfl⟩
abbrev main_v136 : Ref sig .tc := ⟨.hbm, 175, rfl⟩
abbrev main_c_14 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_cst_15 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150_0 : Ref sig .tc := ⟨.hbm, 191, rfl⟩
abbrev main_v150_1 : Ref sig .tc := ⟨.hbm, 192, rfl⟩
abbrev main_v150_2 : Ref sig .tc := ⟨.hbm, 193, rfl⟩
abbrev main_v151 : Ref sig .tc := ⟨.hbm, 194, rfl⟩
abbrev main_cst_16 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_cst_17 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_c_18 : Ref sig .tc := ⟨.hbm, 223, rfl⟩
abbrev main_v178 : Ref sig .tc := ⟨.hbm, 224, rfl⟩
abbrev main_v179 : Ref sig .tc := ⟨.hbm, 225, rfl⟩
abbrev main_c_19 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_cst_20 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193_0 : Ref sig .tc := ⟨.hbm, 241, rfl⟩
abbrev main_v193_1 : Ref sig .tc := ⟨.hbm, 242, rfl⟩
abbrev main_v193_2 : Ref sig .tc := ⟨.hbm, 243, rfl⟩
abbrev main_v194 : Ref sig .tc := ⟨.hbm, 244, rfl⟩
abbrev main_cst_21 : Ref sig .tc := ⟨.hbm, 245, rfl⟩
abbrev main_v195 : Ref sig .tc := ⟨.hbm, 246, rfl⟩
abbrev main_v196 : Ref sig .tc := ⟨.hbm, 247, rfl⟩
abbrev main_v197 : Ref sig .tc := ⟨.hbm, 248, rfl⟩
abbrev main_cst_22 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_v201 : Ref sig .tc := ⟨.hbm, 253, rfl⟩
abbrev main_v202 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_v206 : Ref sig .tc := ⟨.hbm, 258, rfl⟩
abbrev main_cst_23 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg7_0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg5_1 : Ref sig .tc := ⟨.vmem, 43, rfl⟩
abbrev cc4_stg6_0 : Ref sig .tc := ⟨.vmem, 44, rfl⟩
abbrev cc4_stg7_0 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg3_0 : Ref sig .tc := ⟨.vmem, 58, rfl⟩
abbrev cc6_stg4_0 : Ref sig .tc := ⟨.vmem, 59, rfl⟩
abbrev cc6_stg5_0 : Ref sig .tc := ⟨.vmem, 60, rfl⟩
abbrev cc6_stg5_1 : Ref sig .tc := ⟨.vmem, 61, rfl⟩
abbrev cc6_stg6_0 : Ref sig .tc := ⟨.vmem, 62, rfl⟩
abbrev cc6_stg7_0 : Ref sig .tc := ⟨.vmem, 63, rfl⟩
abbrev cc7_stg0_0 : Ref sig .tc := ⟨.vmem, 64, rfl⟩
abbrev cc7_stg0_1 : Ref sig .tc := ⟨.vmem, 65, rfl⟩
abbrev cc7_stg1_0 : Ref sig .tc := ⟨.vmem, 66, rfl⟩
abbrev cc7_stg2_0 : Ref sig .tc := ⟨.vmem, 67, rfl⟩
abbrev cc7_stg3_0 : Ref sig .tc := ⟨.vmem, 68, rfl⟩
abbrev cc7_stg4_0 : Ref sig .tc := ⟨.vmem, 69, rfl⟩
abbrev cc7_stg5_0 : Ref sig .tc := ⟨.vmem, 70, rfl⟩
abbrev cc7_stg5_1 : Ref sig .tc := ⟨.vmem, 71, rfl⟩
abbrev cc8_stg0_0 : Ref sig .tc := ⟨.vmem, 72, rfl⟩
abbrev cc8_stg0_1 : Ref sig .tc := ⟨.vmem, 73, rfl⟩
abbrev cc8_stg1_0 : Ref sig .tc := ⟨.vmem, 74, rfl⟩
abbrev cc8_stg2_0 : Ref sig .tc := ⟨.vmem, 75, rfl⟩
abbrev cc8_stg3_0 : Ref sig .tc := ⟨.vmem, 76, rfl⟩
abbrev cc8_stg4_0 : Ref sig .tc := ⟨.vmem, 77, rfl⟩
abbrev cc8_stg5_0 : Ref sig .tc := ⟨.vmem, 78, rfl⟩
abbrev cc8_stg5_1 : Ref sig .tc := ⟨.vmem, 79, rfl⟩
abbrev cc8_stg6_0 : Ref sig .tc := ⟨.vmem, 80, rfl⟩
abbrev cc8_stg7_0 : Ref sig .tc := ⟨.vmem, 81, rfl⟩
abbrev cc9_stg0_0 : Ref sig .tc := ⟨.vmem, 82, rfl⟩
abbrev cc9_stg0_1 : Ref sig .tc := ⟨.vmem, 83, rfl⟩
abbrev cc9_stg1_0 : Ref sig .tc := ⟨.vmem, 84, rfl⟩
abbrev cc9_stg2_0 : Ref sig .tc := ⟨.vmem, 85, rfl⟩
abbrev cc9_stg3_0 : Ref sig .tc := ⟨.vmem, 86, rfl⟩
abbrev cc9_stg4_0 : Ref sig .tc := ⟨.vmem, 87, rfl⟩
abbrev cc9_stg5_0 : Ref sig .tc := ⟨.vmem, 88, rfl⟩
abbrev cc9_stg5_1 : Ref sig .tc := ⟨.vmem, 89, rfl⟩
abbrev cc10_stg0_0 : Ref sig .tc := ⟨.vmem, 90, rfl⟩
abbrev cc10_stg0_1 : Ref sig .tc := ⟨.vmem, 91, rfl⟩
abbrev cc10_stg1_0 : Ref sig .tc := ⟨.vmem, 92, rfl⟩
abbrev cc10_stg2_0 : Ref sig .tc := ⟨.vmem, 93, rfl⟩
abbrev cc10_stg3_0 : Ref sig .tc := ⟨.vmem, 94, rfl⟩
abbrev cc10_stg4_0 : Ref sig .tc := ⟨.vmem, 95, rfl⟩
abbrev cc10_stg5_0 : Ref sig .tc := ⟨.vmem, 96, rfl⟩
abbrev cc10_stg5_1 : Ref sig .tc := ⟨.vmem, 97, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc2_sem6_0 : DmaSem sig := 26
abbrev cc2_sem7_0 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem5_1 : DmaSem sig := 43
abbrev cc4_sem6_0 : DmaSem sig := 44
abbrev cc4_sem7_0 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem3_0 : DmaSem sig := 58
abbrev cc6_sem4_0 : DmaSem sig := 59
abbrev cc6_sem5_0 : DmaSem sig := 60
abbrev cc6_sem5_1 : DmaSem sig := 61
abbrev cc6_sem6_0 : DmaSem sig := 62
abbrev cc6_sem7_0 : DmaSem sig := 63
abbrev cc7_sem0_0 : DmaSem sig := 64
abbrev cc7_sem0_1 : DmaSem sig := 65
abbrev cc7_sem1_0 : DmaSem sig := 66
abbrev cc7_sem2_0 : DmaSem sig := 67
abbrev cc7_sem3_0 : DmaSem sig := 68
abbrev cc7_sem4_0 : DmaSem sig := 69
abbrev cc7_sem5_0 : DmaSem sig := 70
abbrev cc7_sem5_1 : DmaSem sig := 71
abbrev cc8_sem0_0 : DmaSem sig := 72
abbrev cc8_sem0_1 : DmaSem sig := 73
abbrev cc8_sem1_0 : DmaSem sig := 74
abbrev cc8_sem2_0 : DmaSem sig := 75
abbrev cc8_sem3_0 : DmaSem sig := 76
abbrev cc8_sem4_0 : DmaSem sig := 77
abbrev cc8_sem5_0 : DmaSem sig := 78
abbrev cc8_sem5_1 : DmaSem sig := 79
abbrev cc8_sem6_0 : DmaSem sig := 80
abbrev cc8_sem7_0 : DmaSem sig := 81
abbrev cc9_sem0_0 : DmaSem sig := 82
abbrev cc9_sem0_1 : DmaSem sig := 83
abbrev cc9_sem1_0 : DmaSem sig := 84
abbrev cc9_sem2_0 : DmaSem sig := 85
abbrev cc9_sem3_0 : DmaSem sig := 86
abbrev cc9_sem4_0 : DmaSem sig := 87
abbrev cc9_sem5_0 : DmaSem sig := 88
abbrev cc9_sem5_1 : DmaSem sig := 89
abbrev cc10_sem0_0 : DmaSem sig := 90
abbrev cc10_sem0_1 : DmaSem sig := 91
abbrev cc10_sem1_0 : DmaSem sig := 92
abbrev cc10_sem2_0 : DmaSem sig := 93
abbrev cc10_sem3_0 : DmaSem sig := 94
abbrev cc10_sem4_0 : DmaSem sig := 95
abbrev cc10_sem5_0 : DmaSem sig := 96
abbrev cc10_sem5_1 : DmaSem sig := 97

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 1 → Memref sig .tc .vmem S1x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x64 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S64x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 1 → Memref sig .tc .vmem S1x64 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S1x64 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x64 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![4], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S512x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S64x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S64x32 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x32 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S512x32 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

class Facts₀ : Prop where
  slices_S5x64_S1x64_0_0 : S5x64.Slices ![0, 0] S1x64
  shapeCasts_S1x64_S64 : S1x64.ShapeCasts S64
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S2x1600000_S1x1600000_1_0 : S2x1600000.Slices ![1, 0] S1x1600000
  bcast_S_S100000x128 : S_.BroadcastsInDim S100000x128 (![] : Fin 0 → Fin S100000x128.rank)
  shapeCasts_S64_S1x64 : S64.ShapeCasts S1x64
  inb_S1x64_S1x64_0_0 : ∀ a, (![0, 0] : Fin 2 → Nat) a + S1x64.size a ≤ S1x64.size a
  h_S1x64 : 0 < S1x64.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  reduces_S5000x64_S64 : S5000x64.Reduces [0] S64
  bcast_S_S64 : S_.BroadcastsInDim S64 (![] : Fin 0 → Fin S64.rank)
  shapeCasts_S5000x64_S5000x64 : S5000x64.ShapeCasts S5000x64
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  slices_S5x64_S1x64_1_0 : S5x64.Slices ![1, 0] S1x64
  bcast_S_S100000x64 : S_.BroadcastsInDim S100000x64 (![] : Fin 0 → Fin S100000x64.rank)
  shapeCasts_S64x64_S64x64 : S64x64.ShapeCasts S64x64
  slices_S4x64x64_S1x64x64_1_0_0 : S4x64x64.Slices ![1, 0, 0] S1x64x64
  slices_S4x64_S1x64_1_0 : S4x64.Slices ![1, 0] S1x64
  slices_S5x64_S1x64_2_0 : S5x64.Slices ![2, 0] S1x64
  slices_S4x64x64_S1x64x64_2_0_0 : S4x64x64.Slices ![2, 0, 0] S1x64x64
  slices_S4x64_S1x64_2_0 : S4x64.Slices ![2, 0] S1x64
  slices_S5x64_S1x64_3_0 : S5x64.Slices ![3, 0] S1x64
  slices_S4x64x64_S1x64x64_3_0_0 : S4x64x64.Slices ![3, 0, 0] S1x64x64
  slices_S4x64_S1x64_3_0 : S4x64.Slices ![3, 0] S1x64
  slices_S5x64_S1x64_4_0 : S5x64.Slices ![4, 0] S1x64
  bcast_S_S2048x64 : S_.BroadcastsInDim S2048x64 (![] : Fin 0 → Fin S2048x64.rank)
  bcast_S100000_S100000x1_0 : S100000.BroadcastsInDim S100000x1 (![0] : Fin 1 → Fin S100000x1.rank)
  shapeCasts_S32_S1x32 : S32.ShapeCasts S1x32
  inb_S512x64_S512x64_0_0 : ∀ a, (![0, 0] : Fin 2 → Nat) a + S512x64.size a ≤ S512x64.size a
  h_S512x64 : 0 < S512x64.numel
  shapeCasts_S512x64_S512x64 : S512x64.ShapeCasts S512x64
  broadcasts_S1x64_S512x64 : S1x64.Broadcasts S512x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S512x32 : S1x32.Broadcasts S512x32
  inb_S512x32_S512x32_0_0 : ∀ a, (![0, 0] : Fin 2 → Nat) a + S512x32.size a ≤ S512x32.size a
  h_S512x32 : 0 < S512x32.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S2048x64_S100000x1_S100000x64_1_0_0_1_wf : ScatterDims.WF S2048x64 S100000x1 S100000x64 [1] [0] [0] 1
  dot_S512x64_S64x64_S512x64_1_0_0_1_n_n_wf : DotDims.WF S512x64 S64x64 S512x64 [1] [0] [0] [1] [] []
  dot_S512x64_S64x32_S512x32_1_0_0_1_n_n_wf : DotDims.WF S512x64 S64x32 S512x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S100000x64.size a
  hwx4_5 : ∀ i : grid4.Coords, EltTy.bits .f32 = 32 ∨ (Rect.block (s := S100000x64) S5000x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x64.size a ≤ S1x64.size a
  hwx4_7 : ∀ i : grid4.Coords, EltTy.bits .f32 = 32 ∨ (Rect.block (s := S1x64) S1x64.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S100000x64.size a
  hwx5_5 : ∀ i : grid5.Coords, EltTy.bits .f32 = 32 ∨ (Rect.block (s := S100000x64) S5000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x64.size a ≤ S100000x64.size a
  hwx6_5 : ∀ i : grid6.Coords, EltTy.bits .f32 = 32 ∨ (Rect.block (s := S100000x64) S5000x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x64.size a ≤ S1x64.size a
  hwx6_6 : ∀ i : grid6.Coords, EltTy.bits .f32 = 32 ∨ (Rect.block (s := S1x64) S1x64.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x64.size a ≤ S1x64.size a
  hwx6_7 : ∀ i : grid6.Coords, EltTy.bits .f32 = 32 ∨ (Rect.block (s := S1x64) S1x64.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x64.size a ≤ S100000x64.size a
  hwx7_5 : ∀ i : grid7.Coords, EltTy.bits .f32 = 32 ∨ (Rect.block (s := S100000x64) S5000x64.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S100000x64.size a
  hwx8_0 : ∀ i : grid8.Coords, EltTy.bits .f32 = 32 ∨ (Rect.block (s := S100000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x64.size a ≤ S64x64.size a
  hwx8_1 : ∀ i : grid8.Coords, EltTy.bits .f32 = 32 ∨ (Rect.block (s := S64x64) S64x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S64x64.size a ≤ S64x64.size a
  hwx8_3 : ∀ i : grid8.Coords, EltTy.bits .f32 = 32 ∨ (Rect.block (s := S64x64) S64x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x64.size a ≤ S100000x64.size a
  hwx8_5 : ∀ i : grid8.Coords, EltTy.bits .f32 = 32 ∨ (Rect.block (s := S100000x64) S5000x64.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x64.size a ≤ S1x64.size a
  hwx8_6 : ∀ i : grid8.Coords, EltTy.bits .f32 = 32 ∨ (Rect.block (s := S1x64) S1x64.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S1x64.size a ≤ S1x64.size a
  hwx8_7 : ∀ i : grid8.Coords, EltTy.bits .f32 = 32 ∨ (Rect.block (s := S1x64) S1x64.size (cc8_transform_7 i) (hinb8_7 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S100000x64.size a
  hwx9_0 : ∀ i : grid9.Coords, EltTy.bits .f32 = 32 ∨ (Rect.block (s := S100000x64) S5000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x64.size a ≤ S1x64.size a
  hwx9_1 : ∀ i : grid9.Coords, EltTy.bits .f32 = 32 ∨ (Rect.block (s := S1x64) S1x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x64.size a ≤ S1x64.size a
  hwx9_3 : ∀ i : grid9.Coords, EltTy.bits .f32 = 32 ∨ (Rect.block (s := S1x64) S1x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x64.size a ≤ S1x64.size a
  hwx9_4 : ∀ i : grid9.Coords, EltTy.bits .f32 = 32 ∨ (Rect.block (s := S1x64) S1x64.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x64.size a ≤ S100000x64.size a
  hwx9_5 : ∀ i : grid9.Coords, EltTy.bits .f32 = 32 ∨ (Rect.block (s := S100000x64) S5000x64.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S512x64.size a ≤ S2048x64.size a
  hwx10_0 : ∀ i : grid10.Coords, EltTy.bits .f32 = 32 ∨ (Rect.block (s := S2048x64) S512x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S64x64.size a ≤ S64x64.size a
  hwx10_1 : ∀ i : grid10.Coords, EltTy.bits .f32 = 32 ∨ (Rect.block (s := S64x64) S64x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x64.size a ≤ S1x64.size a
  hwx10_2 : ∀ i : grid10.Coords, EltTy.bits .f32 = 32 ∨ (Rect.block (s := S1x64) S1x64.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S64x32.size a ≤ S64x32.size a
  hwx10_3 : ∀ i : grid10.Coords, EltTy.bits .f32 = 32 ∨ (Rect.block (s := S64x32) S64x32.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x32.size a ≤ S1x32.size a
  hwx10_4 : ∀ i : grid10.Coords, EltTy.bits .f32 = 32 ∨ (Rect.block (s := S1x32) S1x32.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S512x32.size a ≤ S2048x32.size a
  hwx10_5 : ∀ i : grid10.Coords, EltTy.bits .f32 = 32 ∨ (Rect.block (s := S2048x32) S512x32.size (cc10_transform_5 i) (hinb10_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S2048x64_S100000x1_S100000x64_1_0_0_1 : ScatterDims S2048x64 S100000x1 S100000x64 where
  updateWindowDims := [1]
  insertedWindowDims := [0]
  scatterDimsToOperandDims := [0]
  indexVectorDim := 1
  wf := scatter_S2048x64_S100000x1_S100000x64_1_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf

abbrev win0_0 : Pipeline.Window sig grid0 :=
  Pipeline.Window.ofSpec (Memref.whole main_v18) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21_0) S5000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v21_1) S1x64.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21_2) S1x64.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v21_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v61) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v64_0) S5000x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v64_1) S1x64.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v64_2) S1x64.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v64_0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v73) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v74) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v75) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v76) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v77) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v104) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v79) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v105) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v83) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v106) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v107_0) S5000x64.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v107_1) S1x64.size cc4_transform_6 reads4_6 true true 1 stage4_6 sem4_6
    hrank4 hreads4_6 hinb4_6 nbuf4_6 (Memref.isWhole_whole _) hwx4_6 hstage4_6

abbrev win4_7 : Pipeline.Window sig grid4 :=
  Pipeline.Window.ofSpec (Memref.whole main_v107_2) S1x64.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v107_0) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v116) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v117) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v118) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v119) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v120) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v147) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v122) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v148) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v126) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v149) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v150_0) S5000x64.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v150_1) S1x64.size cc6_transform_6 reads6_6 true true 1 stage6_6 sem6_6
    hrank6 hreads6_6 hinb6_6 nbuf6_6 (Memref.isWhole_whole _) hwx6_6 hstage6_6

abbrev win6_7 : Pipeline.Window sig grid6 :=
  Pipeline.Window.ofSpec (Memref.whole main_v150_2) S1x64.size cc6_transform_7 reads6_7 true true 1 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v150_0) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v159) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v160) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v161) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v162) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v163) S5000x64.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v190) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v165) S64x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v191) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v169) S64x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v192) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v193_0) S5000x64.size cc8_transform_5 reads8_5 true false 2 stage8_5 sem8_5
    hrank8 hreads8_5 hinb8_5 nbuf8_5 (Memref.isWhole_whole _) hwx8_5 hstage8_5

abbrev win8_6 : Pipeline.Window sig grid8 :=
  Pipeline.Window.ofSpec (Memref.whole main_v193_1) S1x64.size cc8_transform_6 reads8_6 true true 1 stage8_6 sem8_6
    hrank8 hreads8_6 hinb8_6 nbuf8_6 (Memref.isWhole_whole _) hwx8_6 hstage8_6

abbrev win8_7 : Pipeline.Window sig grid8 :=
  Pipeline.Window.ofSpec (Memref.whole main_v193_2) S1x64.size cc8_transform_7 reads8_7 true true 1 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

abbrev win9_0 : Pipeline.Window sig grid9 :=
  Pipeline.Window.ofSpec (Memref.whole main_v193_0) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v202) S1x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v203) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v204) S1x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v205) S1x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v206) S5000x64.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v209) S512x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg13) S64x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v210) S1x64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_arg15) S64x32.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v211) S1x32.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v212) S512x32.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S4x64x64 : Shape := ⟨3, ![4, 64, 64]⟩
abbrev S4x64 : Shape := ⟨2, ![4, 64]⟩
abbrev S5x64 : Shape := ⟨2, ![5, 64]⟩
abbrev S64x32 : Shape := ⟨2, ![64, 32]⟩
abbrev S32 : Shape := ⟨1, ![32]⟩
abbrev S1x64 : Shape := ⟨2, ![1, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x64 : Shape := ⟨2, ![100000, 64]⟩
abbrev S1x64x64 : Shape := ⟨3, ![1, 64, 64]⟩
abbrev S1600000x64 : Shape := ⟨2, ![1600000, 64]⟩
abbrev S2048x64 : Shape := ⟨2, ![2048, 64]⟩
abbrev S100000x1 : Shape := ⟨2, ![100000, 1]⟩
abbrev S2048x32 : Shape := ⟨2, ![2048, 32]⟩
abbrev S1x32 : Shape := ⟨2, ![1, 32]⟩

abbrev nBuf : Space → Nat
  | .hbm => 464
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S4x64x64, .f32⟩
  | 8 => ⟨S4x64, .f32⟩
  | 9 => ⟨S4x64x64, .f32⟩
  | 10 => ⟨S4x64, .f32⟩
  | 11 => ⟨S5x64, .f32⟩
  | 12 => ⟨S5x64, .f32⟩
  | 13 => ⟨S64x64, .f32⟩
  | 14 => ⟨S64, .f32⟩
  | 15 => ⟨S64x32, .f32⟩
  | 16 => ⟨S32, .f32⟩
  | 17 => ⟨S1x64, .f32⟩
  | 18 => ⟨S64, .f32⟩
  | 19 => ⟨S1x64, .f32⟩
  | 20 => ⟨S64, .f32⟩
  | 21 => ⟨S1x1600000, .i32⟩
  | 22 => ⟨S1600000, .i32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x128, .f32⟩
  | 32 => ⟨S1x1600000, .i32⟩
  | 33 => ⟨S1600000, .i32⟩
  | 34 => ⟨S_, .f32⟩
  | 35 => ⟨S100000x128, .f32⟩
  | 36 => ⟨S1600000x1, .i32⟩
  | 37 => ⟨S100000x128, .f32⟩
  | 38 => ⟨S100000x128, .f32⟩
  | 39 => ⟨S100000x64, .f32⟩
  | 40 => ⟨S1x64, .f32⟩
  | 41 => ⟨S100000x64, .f32⟩
  | 42 => ⟨S100000x64, .f32⟩
  | 43 => ⟨S_, .f32⟩
  | 44 => ⟨S100000x64, .f32⟩
  | 45 => ⟨S100000x64, .f32⟩
  | 46 => ⟨S100000x64, .f32⟩
  | 47 => ⟨S1x64, .f32⟩
  | 48 => ⟨S100000x64, .f32⟩
  | 49 => ⟨S100000x64, .f32⟩
  | 50 => ⟨S_, .f32⟩
  | 51 => ⟨S100000x64, .f32⟩
  | 52 => ⟨S100000x64, .f32⟩
  | 53 => ⟨S_, .f32⟩
  | 54 => ⟨S64, .f32⟩
  | 55 => ⟨S_, .f32⟩
  | 56 => ⟨S64, .f32⟩
  | 57 => ⟨S64, .f32⟩
  | 58 => ⟨S_, .i32⟩
  | 59 => ⟨S_, .f32⟩
  | 60 => ⟨S64, .f32⟩
  | 61 => ⟨S1x64, .f32⟩
  | 62 => ⟨S_, .f32⟩
  | 63 => ⟨S1x64, .f32⟩
  | 64 => ⟨S1x64, .f32⟩
  | 65 => ⟨S100000x64, .f32⟩
  | 66 => ⟨S100000x64, .f32⟩
  | 67 => ⟨S100000x64, .f32⟩
  | 68 => ⟨S_, .f32⟩
  | 69 => ⟨S_, .f32⟩
  | 70 => ⟨S_, .f32⟩
  | 71 => ⟨S_, .f32⟩
  | 72 => ⟨S64, .f32⟩
  | 73 => ⟨S64, .f32⟩
  | 74 => ⟨S64, .f32⟩
  | 75 => ⟨S_, .f32⟩
  | 76 => ⟨S_, .i1⟩
  | 77 => ⟨S_, .f32⟩
  | 78 => ⟨S_, .f32⟩
  | 79 => ⟨S64, .f32⟩
  | 80 => ⟨S64, .f32⟩
  | 81 => ⟨S1x64, .f32⟩
  | 82 => ⟨S100000x64, .f32⟩
  | 83 => ⟨S100000x64, .f32⟩
  | 84 => ⟨S1x64, .f32⟩
  | 85 => ⟨S100000x64, .f32⟩
  | 86 => ⟨S100000x64, .f32⟩
  | 87 => ⟨S_, .f32⟩
  | 88 => ⟨S64, .f32⟩
  | 89 => ⟨S64, .f32⟩
  | 90 => ⟨S64, .f32⟩
  | 91 => ⟨S1x64, .f32⟩
  | 92 => ⟨S100000x64, .f32⟩
  | 93 => ⟨S100000x64, .f32⟩
  | 94 => ⟨S1x64, .f32⟩
  | 95 => ⟨S100000x64, .f32⟩
  | 96 => ⟨S100000x64, .f32⟩
  | 97 => ⟨S1x64x64, .f32⟩
  | 98 => ⟨S64x64, .f32⟩
  | 99 => ⟨S1x64, .f32⟩
  | 100 => ⟨S64, .f32⟩
  | 101 => ⟨S1x64x64, .f32⟩
  | 102 => ⟨S64x64, .f32⟩
  | 103 => ⟨S1x64, .f32⟩
  | 104 => ⟨S64, .f32⟩
  | 105 => ⟨S1x64, .f32⟩
  | 106 => ⟨S64, .f32⟩
  | 107 => ⟨S1x64, .f32⟩
  | 108 => ⟨S64, .f32⟩
  | 109 => ⟨S1x1600000, .i32⟩
  | 110 => ⟨S1600000, .i32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000x64, .f32⟩
  | 120 => ⟨S1x1600000, .i32⟩
  | 121 => ⟨S1600000, .i32⟩
  | 122 => ⟨S_, .f32⟩
  | 123 => ⟨S100000x64, .f32⟩
  | 124 => ⟨S1600000x1, .i32⟩
  | 125 => ⟨S100000x64, .f32⟩
  | 126 => ⟨S100000x64, .f32⟩
  | 127 => ⟨S100000x64, .f32⟩
  | _ => ⟨S100000x128, .f32⟩

abbrev hbmTy0_1 (i : Nat) : BufTy := match i % 128 with
  | 0 => ⟨S1x64, .f32⟩
  | 1 => ⟨S100000x64, .f32⟩
  | 2 => ⟨S100000x64, .f32⟩
  | 3 => ⟨S_, .f32⟩
  | 4 => ⟨S100000x64, .f32⟩
  | 5 => ⟨S100000x64, .f32⟩
  | 6 => ⟨S100000x64, .f32⟩
  | 7 => ⟨S1x64, .f32⟩
  | 8 => ⟨S100000x64, .f32⟩
  | 9 => ⟨S100000x64, .f32⟩
  | 10 => ⟨S_, .f32⟩
  | 11 => ⟨S100000x64, .f32⟩
  | 12 => ⟨S100000x64, .f32⟩
  | 13 => ⟨S_, .f32⟩
  | 14 => ⟨S64, .f32⟩
  | 15 => ⟨S_, .f32⟩
  | 16 => ⟨S64, .f32⟩
  | 17 => ⟨S64, .f32⟩
  | 18 => ⟨S_, .i32⟩
  | 19 => ⟨S_, .f32⟩
  | 20 => ⟨S64, .f32⟩
  | 21 => ⟨S1x64, .f32⟩
  | 22 => ⟨S_, .f32⟩
  | 23 => ⟨S1x64, .f32⟩
  | 24 => ⟨S1x64, .f32⟩
  | 25 => ⟨S100000x64, .f32⟩
  | 26 => ⟨S100000x64, .f32⟩
  | 27 => ⟨S100000x64, .f32⟩
  | 28 => ⟨S_, .f32⟩
  | 29 => ⟨S_, .f32⟩
  | 30 => ⟨S_, .f32⟩
  | 31 => ⟨S_, .f32⟩
  | 32 => ⟨S64, .f32⟩
  | 33 => ⟨S64, .f32⟩
  | 34 => ⟨S64, .f32⟩
  | 35 => ⟨S_, .f32⟩
  | 36 => ⟨S_, .i1⟩
  | 37 => ⟨S_, .f32⟩
  | 38 => ⟨S_, .f32⟩
  | 39 => ⟨S64, .f32⟩
  | 40 => ⟨S64, .f32⟩
  | 41 => ⟨S1x64, .f32⟩
  | 42 => ⟨S100000x64, .f32⟩
  | 43 => ⟨S100000x64, .f32⟩
  | 44 => ⟨S1x64, .f32⟩
  | 45 => ⟨S100000x64, .f32⟩
  | 46 => ⟨S100000x64, .f32⟩
  | 47 => ⟨S_, .f32⟩
  | 48 => ⟨S64, .f32⟩
  | 49 => ⟨S64, .f32⟩
  | 50 => ⟨S64, .f32⟩
  | 51 => ⟨S1x64, .f32⟩
  | 52 => ⟨S100000x64, .f32⟩
  | 53 => ⟨S100000x64, .f32⟩
  | 54 => ⟨S1x64, .f32⟩
  | 55 => ⟨S100000x64, .f32⟩
  | 56 => ⟨S100000x64, .f32⟩
  | 57 => ⟨S1x64x64, .f32⟩
  | 58 => ⟨S64x64, .f32⟩
  | 59 => ⟨S1x64, .f32⟩
  | 60 => ⟨S64, .f32⟩
  | 61 => ⟨S1x64x64, .f32⟩
  | 62 => ⟨S64x64, .f32⟩
  | 63 => ⟨S1x64, .f32⟩
  | 64 => ⟨S64, .f32⟩
  | 65 => ⟨S1x64, .f32⟩
  | 66 => ⟨S64, .f32⟩
  | 67 => ⟨S1x64, .f32⟩
  | 68 => ⟨S64, .f32⟩
  | 69 => ⟨S1x1600000, .i32⟩
  | 70 => ⟨S1600000, .i32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x64, .f32⟩
  | 80 => ⟨S1x1600000, .i32⟩
  | 81 => ⟨S1600000, .i32⟩
  | 82 => ⟨S_, .f32⟩
  | 83 => ⟨S100000x64, .f32⟩
  | 84 => ⟨S1600000x1, .i32⟩
  | 85 => ⟨S100000x64, .f32⟩
  | 86 => ⟨S100000x64, .f32⟩
  | 87 => ⟨S100000x64, .f32⟩
  | 88 => ⟨S1x64, .f32⟩
  | 89 => ⟨S100000x64, .f32⟩
  | 90 => ⟨S100000x64, .f32⟩
  | 91 => ⟨S_, .f32⟩
  | 92 => ⟨S100000x64, .f32⟩
  | 93 => ⟨S100000x64, .f32⟩
  | 94 => ⟨S100000x64, .f32⟩
  | 95 => ⟨S1x64, .f32⟩
  | 96 => ⟨S100000x64, .f32⟩
  | 97 => ⟨S100000x64, .f32⟩
  | 98 => ⟨S_, .f32⟩
  | 99 => ⟨S100000x64, .f32⟩
  | 100 => ⟨S100000x64, .f32⟩
  | 101 => ⟨S_, .f32⟩
  | 102 => ⟨S64, .f32⟩
  | 103 => ⟨S_, .f32⟩
  | 104 => ⟨S64, .f32⟩
  | 105 => ⟨S64, .f32⟩
  | 106 => ⟨S_, .i32⟩
  | 107 => ⟨S_, .f32⟩
  | 108 => ⟨S64, .f32⟩
  | 109 => ⟨S1x64, .f32⟩
  | 110 => ⟨S_, .f32⟩
  | 111 => ⟨S1x64, .f32⟩
  | 112 => ⟨S1x64, .f32⟩
  | 113 => ⟨S100000x64, .f32⟩
  | 114 => ⟨S100000x64, .f32⟩
  | 115 => ⟨S100000x64, .f32⟩
  | 116 => ⟨S_, .f32⟩
  | 117 => ⟨S_, .f32⟩
  | 118 => ⟨S_, .f32⟩
  | 119 => ⟨S_, .f32⟩
  | 120 => ⟨S64, .f32⟩
  | 121 => ⟨S64, .f32⟩
  | 122 => ⟨S64, .f32⟩
  | 123 => ⟨S_, .f32⟩
  | 124 => ⟨S_, .i1⟩
  | 125 => ⟨S_, .f32⟩
  | 126 => ⟨S_, .f32⟩
  | 127 => ⟨S64, .f32⟩
  | _ => ⟨S100000x128, .f32⟩

abbrev hbmTy0_2 (i : Nat) : BufTy := match i % 128 with
  | 0 => ⟨S64, .f32⟩
  | 1 => ⟨S1x64, .f32⟩
  | 2 => ⟨S100000x64, .f32⟩
  | 3 => ⟨S100000x64, .f32⟩
  | 4 => ⟨S1x64, .f32⟩
  | 5 => ⟨S100000x64, .f32⟩
  | 6 => ⟨S100000x64, .f32⟩
  | 7 => ⟨S_, .f32⟩
  | 8 => ⟨S64, .f32⟩
  | 9 => ⟨S64, .f32⟩
  | 10 => ⟨S64, .f32⟩
  | 11 => ⟨S1x64, .f32⟩
  | 12 => ⟨S100000x64, .f32⟩
  | 13 => ⟨S100000x64, .f32⟩
  | 14 => ⟨S1x64, .f32⟩
  | 15 => ⟨S100000x64, .f32⟩
  | 16 => ⟨S100000x64, .f32⟩
  | 17 => ⟨S1x64x64, .f32⟩
  | 18 => ⟨S64x64, .f32⟩
  | 19 => ⟨S1x64, .f32⟩
  | 20 => ⟨S64, .f32⟩
  | 21 => ⟨S1x64x64, .f32⟩
  | 22 => ⟨S64x64, .f32⟩
  | 23 => ⟨S1x64, .f32⟩
  | 24 => ⟨S64, .f32⟩
  | 25 => ⟨S1x64, .f32⟩
  | 26 => ⟨S64, .f32⟩
  | 27 => ⟨S1x64, .f32⟩
  | 28 => ⟨S64, .f32⟩
  | 29 => ⟨S1x1600000, .i32⟩
  | 30 => ⟨S1600000, .i32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x64, .f32⟩
  | 40 => ⟨S1x1600000, .i32⟩
  | 41 => ⟨S1600000, .i32⟩
  | 42 => ⟨S_, .f32⟩
  | 43 => ⟨S100000x64, .f32⟩
  | 44 => ⟨S1600000x1, .i32⟩
  | 45 => ⟨S100000x64, .f32⟩
  | 46 => ⟨S100000x64, .f32⟩
  | 47 => ⟨S100000x64, .f32⟩
  | 48 => ⟨S1x64, .f32⟩
  | 49 => ⟨S100000x64, .f32⟩
  | 50 => ⟨S100000x64, .f32⟩
  | 51 => ⟨S_, .f32⟩
  | 52 => ⟨S100000x64, .f32⟩
  | 53 => ⟨S100000x64, .f32⟩
  | 54 => ⟨S100000x64, .f32⟩
  | 55 => ⟨S1x64, .f32⟩
  | 56 => ⟨S100000x64, .f32⟩
  | 57 => ⟨S100000x64, .f32⟩
  | 58 => ⟨S_, .f32⟩
  | 59 => ⟨S100000x64, .f32⟩
  | 60 => ⟨S100000x64, .f32⟩
  | 61 => ⟨S_, .f32⟩
  | 62 => ⟨S64, .f32⟩
  | 63 => ⟨S_, .f32⟩
  | 64 => ⟨S64, .f32⟩
  | 65 => ⟨S64, .f32⟩
  | 66 => ⟨S_, .i32⟩
  | 67 => ⟨S_, .f32⟩
  | 68 => ⟨S64, .f32⟩
  | 69 => ⟨S1x64, .f32⟩
  | 70 => ⟨S_, .f32⟩
  | 71 => ⟨S1x64, .f32⟩
  | 72 => ⟨S1x64, .f32⟩
  | 73 => ⟨S100000x64, .f32⟩
  | 74 => ⟨S100000x64, .f32⟩
  | 75 => ⟨S100000x64, .f32⟩
  | 76 => ⟨S_, .f32⟩
  | 77 => ⟨S_, .f32⟩
  | 78 => ⟨S_, .f32⟩
  | 79 => ⟨S_, .f32⟩
  | 80 => ⟨S64, .f32⟩
  | 81 => ⟨S64, .f32⟩
  | 82 => ⟨S64, .f32⟩
  | 83 => ⟨S_, .f32⟩
  | 84 => ⟨S_, .i1⟩
  | 85 => ⟨S_, .f32⟩
  | 86 => ⟨S_, .f32⟩
  | 87 => ⟨S64, .f32⟩
  | 88 => ⟨S64, .f32⟩
  | 89 => ⟨S1x64, .f32⟩
  | 90 => ⟨S100000x64, .f32⟩
  | 91 => ⟨S100000x64, .f32⟩
  | 92 => ⟨S1x64, .f32⟩
  | 93 => ⟨S100000x64, .f32⟩
  | 94 => ⟨S100000x64, .f32⟩
  | 95 => ⟨S_, .f32⟩
  | 96 => ⟨S64, .f32⟩
  | 97 => ⟨S64, .f32⟩
  | 98 => ⟨S64, .f32⟩
  | 99 => ⟨S1x64, .f32⟩
  | 100 => ⟨S100000x64, .f32⟩
  | 101 => ⟨S100000x64, .f32⟩
  | 102 => ⟨S1x64, .f32⟩
  | 103 => ⟨S100000x64, .f32⟩
  | 104 => ⟨S100000x64, .f32⟩
  | 105 => ⟨S1x64x64, .f32⟩
  | 106 => ⟨S64x64, .f32⟩
  | 107 => ⟨S1x64, .f32⟩
  | 108 => ⟨S64, .f32⟩
  | 109 => ⟨S1x64x64, .f32⟩
  | 110 => ⟨S64x64, .f32⟩
  | 111 => ⟨S1x64, .f32⟩
  | 112 => ⟨S64, .f32⟩
  | 113 => ⟨S1x64, .f32⟩
  | 114 => ⟨S64, .f32⟩
  | 115 => ⟨S1x64, .f32⟩
  | 116 => ⟨S64, .f32⟩
  | 117 => ⟨S1x1600000, .i32⟩
  | 118 => ⟨S1600000, .i32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000x64, .f32⟩
  | _ => ⟨S100000x128, .f32⟩

abbrev hbmTy0_3 (i : Nat) : BufTy := match i % 128 with
  | 0 => ⟨S1x1600000, .i32⟩
  | 1 => ⟨S1600000, .i32⟩
  | 2 => ⟨S_, .f32⟩
  | 3 => ⟨S100000x64, .f32⟩
  | 4 => ⟨S1600000x1, .i32⟩
  | 5 => ⟨S100000x64, .f32⟩
  | 6 => ⟨S100000x64, .f32⟩
  | 7 => ⟨S100000x64, .f32⟩
  | 8 => ⟨S1x64, .f32⟩
  | 9 => ⟨S100000x64, .f32⟩
  | 10 => ⟨S100000x64, .f32⟩
  | 11 => ⟨S_, .f32⟩
  | 12 => ⟨S100000x64, .f32⟩
  | 13 => ⟨S100000x64, .f32⟩
  | 14 => ⟨S100000x64, .f32⟩
  | 15 => ⟨S1x64, .f32⟩
  | 16 => ⟨S100000x64, .f32⟩
  | 17 => ⟨S100000x64, .f32⟩
  | 18 => ⟨S_, .f32⟩
  | 19 => ⟨S100000x64, .f32⟩
  | 20 => ⟨S100000x64, .f32⟩
  | 21 => ⟨S_, .f32⟩
  | 22 => ⟨S64, .f32⟩
  | 23 => ⟨S_, .f32⟩
  | 24 => ⟨S64, .f32⟩
  | 25 => ⟨S64, .f32⟩
  | 26 => ⟨S_, .i32⟩
  | 27 => ⟨S_, .f32⟩
  | 28 => ⟨S64, .f32⟩
  | 29 => ⟨S1x64, .f32⟩
  | 30 => ⟨S_, .f32⟩
  | 31 => ⟨S1x64, .f32⟩
  | 32 => ⟨S1x64, .f32⟩
  | 33 => ⟨S100000x64, .f32⟩
  | 34 => ⟨S100000x64, .f32⟩
  | 35 => ⟨S100000x64, .f32⟩
  | 36 => ⟨S_, .f32⟩
  | 37 => ⟨S_, .f32⟩
  | 38 => ⟨S_, .f32⟩
  | 39 => ⟨S_, .f32⟩
  | 40 => ⟨S64, .f32⟩
  | 41 => ⟨S64, .f32⟩
  | 42 => ⟨S64, .f32⟩
  | 43 => ⟨S_, .f32⟩
  | 44 => ⟨S_, .i1⟩
  | 45 => ⟨S_, .f32⟩
  | 46 => ⟨S_, .f32⟩
  | 47 => ⟨S64, .f32⟩
  | 48 => ⟨S64, .f32⟩
  | 49 => ⟨S1x64, .f32⟩
  | 50 => ⟨S100000x64, .f32⟩
  | 51 => ⟨S100000x64, .f32⟩
  | 52 => ⟨S1x64, .f32⟩
  | 53 => ⟨S100000x64, .f32⟩
  | 54 => ⟨S100000x64, .f32⟩
  | 55 => ⟨S_, .f32⟩
  | 56 => ⟨S64, .f32⟩
  | 57 => ⟨S64, .f32⟩
  | 58 => ⟨S64, .f32⟩
  | 59 => ⟨S1x64, .f32⟩
  | 60 => ⟨S100000x64, .f32⟩
  | 61 => ⟨S100000x64, .f32⟩
  | 62 => ⟨S1x64, .f32⟩
  | 63 => ⟨S100000x64, .f32⟩
  | 64 => ⟨S100000x64, .f32⟩
  | 65 => ⟨S_, .f32⟩
  | 66 => ⟨S2048x64, .f32⟩
  | 67 => ⟨S100000x1, .i32⟩
  | 68 => ⟨S2048x64, .f32⟩
  | 69 => ⟨S2048x64, .f32⟩
  | 70 => ⟨S1x64, .f32⟩
  | 71 => ⟨S2048x64, .f32⟩
  | 72 => ⟨S2048x64, .f32⟩
  | 73 => ⟨S_, .f32⟩
  | 74 => ⟨S2048x64, .f32⟩
  | 75 => ⟨S2048x64, .f32⟩
  | 76 => ⟨S2048x32, .f32⟩
  | 77 => ⟨S1x32, .f32⟩
  | 78 => ⟨S2048x32, .f32⟩
  | 79 => ⟨S2048x32, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_c : Ref sig .tc := ⟨.hbm, 23, rfl⟩
abbrev main_v6 : Ref sig .tc := ⟨.hbm, 24, rfl⟩
abbrev main_v7 : Ref sig .tc := ⟨.hbm, 25, rfl⟩
abbrev main_c_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_1 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_2 : Ref sig .tc := ⟨.hbm, 50, rfl⟩
abbrev main_v29 : Ref sig .tc := ⟨.hbm, 51, rfl⟩
abbrev main_v30 : Ref sig .tc := ⟨.hbm, 52, rfl⟩
abbrev main_cst_3 : Ref sig .tc := ⟨.hbm, 53, rfl⟩
abbrev main_v31 : Ref sig .tc := ⟨.hbm, 54, rfl⟩
abbrev main_cst_4 : Ref sig .tc := ⟨.hbm, 55, rfl⟩
abbrev main_v32 : Ref sig .tc := ⟨.hbm, 56, rfl⟩
abbrev main_v33 : Ref sig .tc := ⟨.hbm, 57, rfl⟩
abbrev main_c_5 : Ref sig .tc := ⟨.hbm, 58, rfl⟩
abbrev main_call0_cst : Ref sig .tc := ⟨.hbm, 59, rfl⟩
abbrev main_call0_v0 : Ref sig .tc := ⟨.hbm, 60, rfl⟩
abbrev main_call0_v1 : Ref sig .tc := ⟨.hbm, 61, rfl⟩
abbrev main_call0_cst_0 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_v5 : Ref sig .tc := ⟨.hbm, 66, rfl⟩
abbrev main_call0_v6 : Ref sig .tc := ⟨.hbm, 67, rfl⟩
abbrev main_call0_v7 : Ref sig .tc := ⟨.hbm, 68, rfl⟩
abbrev main_call0_cst_1 : Ref sig .tc := ⟨.hbm, 69, rfl⟩
abbrev main_call0_v8 : Ref sig .tc := ⟨.hbm, 70, rfl⟩
abbrev main_call0_cst_2 : Ref sig .tc := ⟨.hbm, 71, rfl⟩
abbrev main_call0_v9 : Ref sig .tc := ⟨.hbm, 72, rfl⟩
abbrev main_call0_v10 : Ref sig .tc := ⟨.hbm, 73, rfl⟩
abbrev main_call0_v11 : Ref sig .tc := ⟨.hbm, 74, rfl⟩
abbrev main_call0_cst_3 : Ref sig .tc := ⟨.hbm, 75, rfl⟩
abbrev main_call0_v12 : Ref sig .tc := ⟨.hbm, 76, rfl⟩
abbrev main_call0_cst_4 : Ref sig .tc := ⟨.hbm, 77, rfl⟩
abbrev main_call0_call0_v0 : Ref sig .tc := ⟨.hbm, 78, rfl⟩
abbrev main_call0_call0_v1 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_cst_6 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_c_7 : Ref sig .tc := ⟨.hbm, 111, rfl⟩
abbrev main_v64 : Ref sig .tc := ⟨.hbm, 112, rfl⟩
abbrev main_v65 : Ref sig .tc := ⟨.hbm, 113, rfl⟩
abbrev main_c_8 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_cst_9 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_cst_10 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_cst_11 : Ref sig .tc := ⟨.hbm, 138, rfl⟩
abbrev main_v87 : Ref sig .tc := ⟨.hbm, 139, rfl⟩
abbrev main_v88 : Ref sig .tc := ⟨.hbm, 140, rfl⟩
abbrev main_cst_12 : Ref sig .tc := ⟨.hbm, 141, rfl⟩
abbrev main_v89 : Ref sig .tc := ⟨.hbm, 142, rfl⟩
abbrev main_cst_13 : Ref sig .tc := ⟨.hbm, 143, rfl⟩
abbrev main_v90 : Ref sig .tc := ⟨.hbm, 144, rfl⟩
abbrev main_v91 : Ref sig .tc := ⟨.hbm, 145, rfl⟩
abbrev main_c_14 : Ref sig .tc := ⟨.hbm, 146, rfl⟩
abbrev main_call1_cst : Ref sig .tc := ⟨.hbm, 147, rfl⟩
abbrev main_call1_v0 : Ref sig .tc := ⟨.hbm, 148, rfl⟩
abbrev main_call1_v1 : Ref sig .tc := ⟨.hbm, 149, rfl⟩
abbrev main_call1_cst_0 : Ref sig .tc := ⟨.hbm, 150, rfl⟩
abbrev main_call1_v2 : Ref sig .tc := ⟨.hbm, 151, rfl⟩
abbrev main_call1_v3 : Ref sig .tc := ⟨.hbm, 152, rfl⟩
abbrev main_call1_v4 : Ref sig .tc := ⟨.hbm, 153, rfl⟩
abbrev main_call1_v5 : Ref sig .tc := ⟨.hbm, 154, rfl⟩
abbrev main_call1_v6 : Ref sig .tc := ⟨.hbm, 155, rfl⟩
abbrev main_call1_v7 : Ref sig .tc := ⟨.hbm, 156, rfl⟩
abbrev main_call1_cst_1 : Ref sig .tc := ⟨.hbm, 157, rfl⟩
abbrev main_call1_v8 : Ref sig .tc := ⟨.hbm, 158, rfl⟩
abbrev main_call1_cst_2 : Ref sig .tc := ⟨.hbm, 159, rfl⟩
abbrev main_call1_v9 : Ref sig .tc := ⟨.hbm, 160, rfl⟩
abbrev main_call1_v10 : Ref sig .tc := ⟨.hbm, 161, rfl⟩
abbrev main_call1_v11 : Ref sig .tc := ⟨.hbm, 162, rfl⟩
abbrev main_call1_cst_3 : Ref sig .tc := ⟨.hbm, 163, rfl⟩
abbrev main_call1_v12 : Ref sig .tc := ⟨.hbm, 164, rfl⟩
abbrev main_call1_cst_4 : Ref sig .tc := ⟨.hbm, 165, rfl⟩
abbrev main_call1_call0_v0 : Ref sig .tc := ⟨.hbm, 166, rfl⟩
abbrev main_call1_call0_v1 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_cst_15 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_v107 : Ref sig .tc := ⟨.hbm, 184, rfl⟩
abbrev main_v108 : Ref sig .tc := ⟨.hbm, 185, rfl⟩
abbrev main_v109 : Ref sig .tc := ⟨.hbm, 186, rfl⟩
abbrev main_v110 : Ref sig .tc := ⟨.hbm, 187, rfl⟩
abbrev main_v111 : Ref sig .tc := ⟨.hbm, 188, rfl⟩
abbrev main_v112 : Ref sig .tc := ⟨.hbm, 189, rfl⟩
abbrev main_v113 : Ref sig .tc := ⟨.hbm, 190, rfl⟩
abbrev main_v114 : Ref sig .tc := ⟨.hbm, 191, rfl⟩
abbrev main_v115 : Ref sig .tc := ⟨.hbm, 192, rfl⟩
abbrev main_v116 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_c_16 : Ref sig .tc := ⟨.hbm, 199, rfl⟩
abbrev main_v122 : Ref sig .tc := ⟨.hbm, 200, rfl⟩
abbrev main_v123 : Ref sig .tc := ⟨.hbm, 201, rfl⟩
abbrev main_c_17 : Ref sig .tc := ⟨.hbm, 202, rfl⟩
abbrev main_v124 : Ref sig .tc := ⟨.hbm, 203, rfl⟩
abbrev main_v125 : Ref sig .tc := ⟨.hbm, 204, rfl⟩
abbrev main_v126 : Ref sig .tc := ⟨.hbm, 205, rfl⟩
abbrev main_v127 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_cst_18 : Ref sig .tc := ⟨.hbm, 210, rfl⟩
abbrev main_v131 : Ref sig .tc := ⟨.hbm, 211, rfl⟩
abbrev main_v132 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_cst_19 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_v144 : Ref sig .tc := ⟨.hbm, 225, rfl⟩
abbrev main_cst_20 : Ref sig .tc := ⟨.hbm, 226, rfl⟩
abbrev main_v145 : Ref sig .tc := ⟨.hbm, 227, rfl⟩
abbrev main_v146 : Ref sig .tc := ⟨.hbm, 228, rfl⟩
abbrev main_cst_21 : Ref sig .tc := ⟨.hbm, 229, rfl⟩
abbrev main_v147 : Ref sig .tc := ⟨.hbm, 230, rfl⟩
abbrev main_cst_22 : Ref sig .tc := ⟨.hbm, 231, rfl⟩
abbrev main_v148 : Ref sig .tc := ⟨.hbm, 232, rfl⟩
abbrev main_v149 : Ref sig .tc := ⟨.hbm, 233, rfl⟩
abbrev main_c_23 : Ref sig .tc := ⟨.hbm, 234, rfl⟩
abbrev main_call2_cst : Ref sig .tc := ⟨.hbm, 235, rfl⟩
abbrev main_call2_v0 : Ref sig .tc := ⟨.hbm, 236, rfl⟩
abbrev main_call2_v1 : Ref sig .tc := ⟨.hbm, 237, rfl⟩
abbrev main_call2_cst_0 : Ref sig .tc := ⟨.hbm, 238, rfl⟩
abbrev main_call2_v2 : Ref sig .tc := ⟨.hbm, 239, rfl⟩
abbrev main_call2_v3 : Ref sig .tc := ⟨.hbm, 240, rfl⟩
abbrev main_call2_v4 : Ref sig .tc := ⟨.hbm, 241, rfl⟩
abbrev main_call2_v5 : Ref sig .tc := ⟨.hbm, 242, rfl⟩
abbrev main_call2_v6 : Ref sig .tc := ⟨.hbm, 243, rfl⟩
abbrev main_call2_v7 : Ref sig .tc := ⟨.hbm, 244, rfl⟩
abbrev main_call2_cst_1 : Ref sig .tc := ⟨.hbm, 245, rfl⟩
abbrev main_call2_v8 : Ref sig .tc := ⟨.hbm, 246, rfl⟩
abbrev main_call2_cst_2 : Ref sig .tc := ⟨.hbm, 247, rfl⟩
abbrev main_call2_v9 : Ref sig .tc := ⟨.hbm, 248, rfl⟩
abbrev main_call2_v10 : Ref sig .tc := ⟨.hbm, 249, rfl⟩
abbrev main_call2_v11 : Ref sig .tc := ⟨.hbm, 250, rfl⟩
abbrev main_call2_cst_3 : Ref sig .tc := ⟨.hbm, 251, rfl⟩
abbrev main_call2_v12 : Ref sig .tc := ⟨.hbm, 252, rfl⟩
abbrev main_call2_cst_4 : Ref sig .tc := ⟨.hbm, 253, rfl⟩
abbrev main_call2_call0_v0 : Ref sig .tc := ⟨.hbm, 254, rfl⟩
abbrev main_call2_call0_v1 : Ref sig .tc := ⟨.hbm, 255, rfl⟩
abbrev main_v150 : Ref sig .tc := ⟨.hbm, 256, rfl⟩
abbrev main_v151 : Ref sig .tc := ⟨.hbm, 257, rfl⟩
abbrev main_v152 : Ref sig .tc := ⟨.hbm, 258, rfl⟩
abbrev main_v153 : Ref sig .tc := ⟨.hbm, 259, rfl⟩
abbrev main_v154 : Ref sig .tc := ⟨.hbm, 260, rfl⟩
abbrev main_v155 : Ref sig .tc := ⟨.hbm, 261, rfl⟩
abbrev main_v156 : Ref sig .tc := ⟨.hbm, 262, rfl⟩
abbrev main_cst_24 : Ref sig .tc := ⟨.hbm, 263, rfl⟩
abbrev main_v157 : Ref sig .tc := ⟨.hbm, 264, rfl⟩
abbrev main_v158 : Ref sig .tc := ⟨.hbm, 265, rfl⟩
abbrev main_v159 : Ref sig .tc := ⟨.hbm, 266, rfl⟩
abbrev main_v160 : Ref sig .tc := ⟨.hbm, 267, rfl⟩
abbrev main_v161 : Ref sig .tc := ⟨.hbm, 268, rfl⟩
abbrev main_v162 : Ref sig .tc := ⟨.hbm, 269, rfl⟩
abbrev main_v163 : Ref sig .tc := ⟨.hbm, 270, rfl⟩
abbrev main_v164 : Ref sig .tc := ⟨.hbm, 271, rfl⟩
abbrev main_v165 : Ref sig .tc := ⟨.hbm, 272, rfl⟩
abbrev main_v166 : Ref sig .tc := ⟨.hbm, 273, rfl⟩
abbrev main_v167 : Ref sig .tc := ⟨.hbm, 274, rfl⟩
abbrev main_v168 : Ref sig .tc := ⟨.hbm, 275, rfl⟩
abbrev main_v169 : Ref sig .tc := ⟨.hbm, 276, rfl⟩
abbrev main_v170 : Ref sig .tc := ⟨.hbm, 277, rfl⟩
abbrev main_v171 : Ref sig .tc := ⟨.hbm, 278, rfl⟩
abbrev main_v172 : Ref sig .tc := ⟨.hbm, 279, rfl⟩
abbrev main_v173 : Ref sig .tc := ⟨.hbm, 280, rfl⟩
abbrev main_v174 : Ref sig .tc := ⟨.hbm, 281, rfl⟩
abbrev main_v175 : Ref sig .tc := ⟨.hbm, 282, rfl⟩
abbrev main_v176 : Ref sig .tc := ⟨.hbm, 283, rfl⟩
abbrev main_v177 : Ref sig .tc := ⟨.hbm, 284, rfl⟩
abbrev main_v178 : Ref sig .tc := ⟨.hbm, 285, rfl⟩
abbrev main_v179 : Ref sig .tc := ⟨.hbm, 286, rfl⟩
abbrev main_c_25 : Ref sig .tc := ⟨.hbm, 287, rfl⟩
abbrev main_v180 : Ref sig .tc := ⟨.hbm, 288, rfl⟩
abbrev main_v181 : Ref sig .tc := ⟨.hbm, 289, rfl⟩
abbrev main_c_26 : Ref sig .tc := ⟨.hbm, 290, rfl⟩
abbrev main_v182 : Ref sig .tc := ⟨.hbm, 291, rfl⟩
abbrev main_v183 : Ref sig .tc := ⟨.hbm, 292, rfl⟩
abbrev main_v184 : Ref sig .tc := ⟨.hbm, 293, rfl⟩
abbrev main_v185 : Ref sig .tc := ⟨.hbm, 294, rfl⟩
abbrev main_v186 : Ref sig .tc := ⟨.hbm, 295, rfl⟩
abbrev main_v187 : Ref sig .tc := ⟨.hbm, 296, rfl⟩
abbrev main_v188 : Ref sig .tc := ⟨.hbm, 297, rfl⟩
abbrev main_cst_27 : Ref sig .tc := ⟨.hbm, 298, rfl⟩
abbrev main_v189 : Ref sig .tc := ⟨.hbm, 299, rfl⟩
abbrev main_v190 : Ref sig .tc := ⟨.hbm, 300, rfl⟩
abbrev main_v191 : Ref sig .tc := ⟨.hbm, 301, rfl⟩
abbrev main_v192 : Ref sig .tc := ⟨.hbm, 302, rfl⟩
abbrev main_v193 : Ref sig .tc := ⟨.hbm, 303, rfl⟩
abbrev main_v194 : Ref sig .tc := ⟨.hbm, 304, rfl⟩
abbrev main_v195 : Ref sig .tc := ⟨.hbm, 305, rfl⟩
abbrev main_v196 : Ref sig .tc := ⟨.hbm, 306, rfl⟩
abbrev main_cst_28 : Ref sig .tc := ⟨.hbm, 307, rfl⟩
abbrev main_v197 : Ref sig .tc := ⟨.hbm, 308, rfl⟩
abbrev main_v198 : Ref sig .tc := ⟨.hbm, 309, rfl⟩
abbrev main_v199 : Ref sig .tc := ⟨.hbm, 310, rfl⟩
abbrev main_v200 : Ref sig .tc := ⟨.hbm, 311, rfl⟩
abbrev main_v201 : Ref sig .tc := ⟨.hbm, 312, rfl⟩
abbrev main_v202 : Ref sig .tc := ⟨.hbm, 313, rfl⟩
abbrev main_cst_29 : Ref sig .tc := ⟨.hbm, 314, rfl⟩
abbrev main_v203 : Ref sig .tc := ⟨.hbm, 315, rfl⟩
abbrev main_v204 : Ref sig .tc := ⟨.hbm, 316, rfl⟩
abbrev main_cst_30 : Ref sig .tc := ⟨.hbm, 317, rfl⟩
abbrev main_v205 : Ref sig .tc := ⟨.hbm, 318, rfl⟩
abbrev main_cst_31 : Ref sig .tc := ⟨.hbm, 319, rfl⟩
abbrev main_v206 : Ref sig .tc := ⟨.hbm, 320, rfl⟩
abbrev main_v207 : Ref sig .tc := ⟨.hbm, 321, rfl⟩
abbrev main_c_32 : Ref sig .tc := ⟨.hbm, 322, rfl⟩
abbrev main_call3_cst : Ref sig .tc := ⟨.hbm, 323, rfl⟩
abbrev main_call3_v0 : Ref sig .tc := ⟨.hbm, 324, rfl⟩
abbrev main_call3_v1 : Ref sig .tc := ⟨.hbm, 325, rfl⟩
abbrev main_call3_cst_0 : Ref sig .tc := ⟨.hbm, 326, rfl⟩
abbrev main_call3_v2 : Ref sig .tc := ⟨.hbm, 327, rfl⟩
abbrev main_call3_v3 : Ref sig .tc := ⟨.hbm, 328, rfl⟩
abbrev main_call3_v4 : Ref sig .tc := ⟨.hbm, 329, rfl⟩
abbrev main_call3_v5 : Ref sig .tc := ⟨.hbm, 330, rfl⟩
abbrev main_call3_v6 : Ref sig .tc := ⟨.hbm, 331, rfl⟩
abbrev main_call3_v7 : Ref sig .tc := ⟨.hbm, 332, rfl⟩
abbrev main_call3_cst_1 : Ref sig .tc := ⟨.hbm, 333, rfl⟩
abbrev main_call3_v8 : Ref sig .tc := ⟨.hbm, 334, rfl⟩
abbrev main_call3_cst_2 : Ref sig .tc := ⟨.hbm, 335, rfl⟩
abbrev main_call3_v9 : Ref sig .tc := ⟨.hbm, 336, rfl⟩
abbrev main_call3_v10 : Ref sig .tc := ⟨.hbm, 337, rfl⟩
abbrev main_call3_v11 : Ref sig .tc := ⟨.hbm, 338, rfl⟩
abbrev main_call3_cst_3 : Ref sig .tc := ⟨.hbm, 339, rfl⟩
abbrev main_call3_v12 : Ref sig .tc := ⟨.hbm, 340, rfl⟩
abbrev main_call3_cst_4 : Ref sig .tc := ⟨.hbm, 341, rfl⟩
abbrev main_call3_call0_v0 : Ref sig .tc := ⟨.hbm, 342, rfl⟩
abbrev main_call3_call0_v1 : Ref sig .tc := ⟨.hbm, 343, rfl⟩
abbrev main_v208 : Ref sig .tc := ⟨.hbm, 344, rfl⟩
abbrev main_v209 : Ref sig .tc := ⟨.hbm, 345, rfl⟩
abbrev main_v210 : Ref sig .tc := ⟨.hbm, 346, rfl⟩
abbrev main_v211 : Ref sig .tc := ⟨.hbm, 347, rfl⟩
abbrev main_v212 : Ref sig .tc := ⟨.hbm, 348, rfl⟩
abbrev main_v213 : Ref sig .tc := ⟨.hbm, 349, rfl⟩
abbrev main_v214 : Ref sig .tc := ⟨.hbm, 350, rfl⟩
abbrev main_cst_33 : Ref sig .tc := ⟨.hbm, 351, rfl⟩
abbrev main_v215 : Ref sig .tc := ⟨.hbm, 352, rfl⟩
abbrev main_v216 : Ref sig .tc := ⟨.hbm, 353, rfl⟩
abbrev main_v217 : Ref sig .tc := ⟨.hbm, 354, rfl⟩
abbrev main_v218 : Ref sig .tc := ⟨.hbm, 355, rfl⟩
abbrev main_v219 : Ref sig .tc := ⟨.hbm, 356, rfl⟩
abbrev main_v220 : Ref sig .tc := ⟨.hbm, 357, rfl⟩
abbrev main_v221 : Ref sig .tc := ⟨.hbm, 358, rfl⟩
abbrev main_v222 : Ref sig .tc := ⟨.hbm, 359, rfl⟩
abbrev main_v223 : Ref sig .tc := ⟨.hbm, 360, rfl⟩
abbrev main_v224 : Ref sig .tc := ⟨.hbm, 361, rfl⟩
abbrev main_v225 : Ref sig .tc := ⟨.hbm, 362, rfl⟩
abbrev main_v226 : Ref sig .tc := ⟨.hbm, 363, rfl⟩
abbrev main_v227 : Ref sig .tc := ⟨.hbm, 364, rfl⟩
abbrev main_v228 : Ref sig .tc := ⟨.hbm, 365, rfl⟩
abbrev main_v229 : Ref sig .tc := ⟨.hbm, 366, rfl⟩
abbrev main_v230 : Ref sig .tc := ⟨.hbm, 367, rfl⟩
abbrev main_v231 : Ref sig .tc := ⟨.hbm, 368, rfl⟩
abbrev main_v232 : Ref sig .tc := ⟨.hbm, 369, rfl⟩
abbrev main_v233 : Ref sig .tc := ⟨.hbm, 370, rfl⟩
abbrev main_v234 : Ref sig .tc := ⟨.hbm, 371, rfl⟩
abbrev main_v235 : Ref sig .tc := ⟨.hbm, 372, rfl⟩
abbrev main_v236 : Ref sig .tc := ⟨.hbm, 373, rfl⟩
abbrev main_v237 : Ref sig .tc := ⟨.hbm, 374, rfl⟩
abbrev main_c_34 : Ref sig .tc := ⟨.hbm, 375, rfl⟩
abbrev main_v238 : Ref sig .tc := ⟨.hbm, 376, rfl⟩
abbrev main_v239 : Ref sig .tc := ⟨.hbm, 377, rfl⟩
abbrev main_c_35 : Ref sig .tc := ⟨.hbm, 378, rfl⟩
abbrev main_v240 : Ref sig .tc := ⟨.hbm, 379, rfl⟩
abbrev main_v241 : Ref sig .tc := ⟨.hbm, 380, rfl⟩
abbrev main_v242 : Ref sig .tc := ⟨.hbm, 381, rfl⟩
abbrev main_v243 : Ref sig .tc := ⟨.hbm, 382, rfl⟩
abbrev main_v244 : Ref sig .tc := ⟨.hbm, 383, rfl⟩
abbrev main_v245 : Ref sig .tc := ⟨.hbm, 384, rfl⟩
abbrev main_v246 : Ref sig .tc := ⟨.hbm, 385, rfl⟩
abbrev main_cst_36 : Ref sig .tc := ⟨.hbm, 386, rfl⟩
abbrev main_v247 : Ref sig .tc := ⟨.hbm, 387, rfl⟩
abbrev main_v248 : Ref sig .tc := ⟨.hbm, 388, rfl⟩
abbrev main_v249 : Ref sig .tc := ⟨.hbm, 389, rfl⟩
abbrev main_v250 : Ref sig .tc := ⟨.hbm, 390, rfl⟩
abbrev main_v251 : Ref sig .tc := ⟨.hbm, 391, rfl⟩
abbrev main_v252 : Ref sig .tc := ⟨.hbm, 392, rfl⟩
abbrev main_v253 : Ref sig .tc := ⟨.hbm, 393, rfl⟩
abbrev main_v254 : Ref sig .tc := ⟨.hbm, 394, rfl⟩
abbrev main_cst_37 : Ref sig .tc := ⟨.hbm, 395, rfl⟩
abbrev main_v255 : Ref sig .tc := ⟨.hbm, 396, rfl⟩
abbrev main_v256 : Ref sig .tc := ⟨.hbm, 397, rfl⟩
abbrev main_v257 : Ref sig .tc := ⟨.hbm, 398, rfl⟩
abbrev main_v258 : Ref sig .tc := ⟨.hbm, 399, rfl⟩
abbrev main_v259 : Ref sig .tc := ⟨.hbm, 400, rfl⟩
abbrev main_v260 : Ref sig .tc := ⟨.hbm, 401, rfl⟩
abbrev main_cst_38 : Ref sig .tc := ⟨.hbm, 402, rfl⟩
abbrev main_v261 : Ref sig .tc := ⟨.hbm, 403, rfl⟩
abbrev main_v262 : Ref sig .tc := ⟨.hbm, 404, rfl⟩
abbrev main_cst_39 : Ref sig .tc := ⟨.hbm, 405, rfl⟩
abbrev main_v263 : Ref sig .tc := ⟨.hbm, 406, rfl⟩
abbrev main_cst_40 : Ref sig .tc := ⟨.hbm, 407, rfl⟩
abbrev main_v264 : Ref sig .tc := ⟨.hbm, 408, rfl⟩
abbrev main_v265 : Ref sig .tc := ⟨.hbm, 409, rfl⟩
abbrev main_c_41 : Ref sig .tc := ⟨.hbm, 410, rfl⟩
abbrev main_call4_cst : Ref sig .tc := ⟨.hbm, 411, rfl⟩
abbrev main_call4_v0 : Ref sig .tc := ⟨.hbm, 412, rfl⟩
abbrev main_call4_v1 : Ref sig .tc := ⟨.hbm, 413, rfl⟩
abbrev main_call4_cst_0 : Ref sig .tc := ⟨.hbm, 414, rfl⟩
abbrev main_call4_v2 : Ref sig .tc := ⟨.hbm, 415, rfl⟩
abbrev main_call4_v3 : Ref sig .tc := ⟨.hbm, 416, rfl⟩
abbrev main_call4_v4 : Ref sig .tc := ⟨.hbm, 417, rfl⟩
abbrev main_call4_v5 : Ref sig .tc := ⟨.hbm, 418, rfl⟩
abbrev main_call4_v6 : Ref sig .tc := ⟨.hbm, 419, rfl⟩
abbrev main_call4_v7 : Ref sig .tc := ⟨.hbm, 420, rfl⟩
abbrev main_call4_cst_1 : Ref sig .tc := ⟨.hbm, 421, rfl⟩
abbrev main_call4_v8 : Ref sig .tc := ⟨.hbm, 422, rfl⟩
abbrev main_call4_cst_2 : Ref sig .tc := ⟨.hbm, 423, rfl⟩
abbrev main_call4_v9 : Ref sig .tc := ⟨.hbm, 424, rfl⟩
abbrev main_call4_v10 : Ref sig .tc := ⟨.hbm, 425, rfl⟩
abbrev main_call4_v11 : Ref sig .tc := ⟨.hbm, 426, rfl⟩
abbrev main_call4_cst_3 : Ref sig .tc := ⟨.hbm, 427, rfl⟩
abbrev main_call4_v12 : Ref sig .tc := ⟨.hbm, 428, rfl⟩
abbrev main_call4_cst_4 : Ref sig .tc := ⟨.hbm, 429, rfl⟩
abbrev main_call4_call0_v0 : Ref sig .tc := ⟨.hbm, 430, rfl⟩
abbrev main_call4_call0_v1 : Ref sig .tc := ⟨.hbm, 431, rfl⟩
abbrev main_v266 : Ref sig .tc := ⟨.hbm, 432, rfl⟩
abbrev main_v267 : Ref sig .tc := ⟨.hbm, 433, rfl⟩
abbrev main_v268 : Ref sig .tc := ⟨.hbm, 434, rfl⟩
abbrev main_v269 : Ref sig .tc := ⟨.hbm, 435, rfl⟩
abbrev main_v270 : Ref sig .tc := ⟨.hbm, 436, rfl⟩
abbrev main_v271 : Ref sig .tc := ⟨.hbm, 437, rfl⟩
abbrev main_v272 : Ref sig .tc := ⟨.hbm, 438, rfl⟩
abbrev main_cst_42 : Ref sig .tc := ⟨.hbm, 439, rfl⟩
abbrev main_v273 : Ref sig .tc := ⟨.hbm, 440, rfl⟩
abbrev main_v274 : Ref sig .tc := ⟨.hbm, 441, rfl⟩
abbrev main_v275 : Ref sig .tc := ⟨.hbm, 442, rfl⟩
abbrev main_v276 : Ref sig .tc := ⟨.hbm, 443, rfl⟩
abbrev main_v277 : Ref sig .tc := ⟨.hbm, 444, rfl⟩
abbrev main_v278 : Ref sig .tc := ⟨.hbm, 445, rfl⟩
abbrev main_v279 : Ref sig .tc := ⟨.hbm, 446, rfl⟩
abbrev main_v280 : Ref sig .tc := ⟨.hbm, 447, rfl⟩
abbrev main_v281 : Ref sig .tc := ⟨.hbm, 448, rfl⟩
abbrev main_cst_43 : Ref sig .tc := ⟨.hbm, 449, rfl⟩
abbrev main_v282 : Ref sig .tc := ⟨.hbm, 450, rfl⟩
abbrev main_v283 : Ref sig .tc := ⟨.hbm, 451, rfl⟩
abbrev main_v284 : Ref sig .tc := ⟨.hbm, 452, rfl⟩
abbrev main_v285 : Ref sig .tc := ⟨.hbm, 453, rfl⟩
abbrev main_v286 : Ref sig .tc := ⟨.hbm, 454, rfl⟩
abbrev main_v287 : Ref sig .tc := ⟨.hbm, 455, rfl⟩
abbrev main_v288 : Ref sig .tc := ⟨.hbm, 456, rfl⟩
abbrev main_cst_44 : Ref sig .tc := ⟨.hbm, 457, rfl⟩
abbrev main_v289 : Ref sig .tc := ⟨.hbm, 458, rfl⟩
abbrev main_v290 : Ref sig .tc := ⟨.hbm, 459, rfl⟩
abbrev main_v291 : Ref sig .tc := ⟨.hbm, 460, rfl⟩
abbrev main_v292 : Ref sig .tc := ⟨.hbm, 461, rfl⟩
abbrev main_v293 : Ref sig .tc := ⟨.hbm, 462, rfl⟩
abbrev main_v294 : Ref sig .tc := ⟨.hbm, 463, rfl⟩

abbrev nD : Nat := 1
abbrev τ : Topo := Topo.v7x

variable {F : FTy → Type} [FloatOps F]

class Facts₀ : Prop where
  slices_S5x64_S1x64_0_0 : S5x64.Slices ![0, 0] S1x64
  shapeCasts_S1x64_S64 : S1x64.ShapeCasts S64
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S2x1600000_S1x1600000_1_0 : S2x1600000.Slices ![1, 0] S1x1600000
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  slices_S5x64_S1x64_1_0 : S5x64.Slices ![1, 0] S1x64
  slices_S4x64x64_S1x64x64_1_0_0 : S4x64x64.Slices ![1, 0, 0] S1x64x64
  slices_S4x64_S1x64_1_0 : S4x64.Slices ![1, 0] S1x64
  slices_S5x64_S1x64_2_0 : S5x64.Slices ![2, 0] S1x64
  slices_S4x64x64_S1x64x64_2_0_0 : S4x64x64.Slices ![2, 0, 0] S1x64x64
  slices_S4x64_S1x64_2_0 : S4x64.Slices ![2, 0] S1x64
  slices_S5x64_S1x64_3_0 : S5x64.Slices ![3, 0] S1x64
  slices_S4x64x64_S1x64x64_3_0_0 : S4x64x64.Slices ![3, 0, 0] S1x64x64
  slices_S4x64_S1x64_3_0 : S4x64.Slices ![3, 0] S1x64
  slices_S5x64_S1x64_4_0 : S5x64.Slices ![4, 0] S1x64
  bcast_S_S2048x64 : S_.BroadcastsInDim S2048x64 (![] : Fin 0 → Fin S2048x64.rank)
  bcast_S100000_S100000x1_0 : S100000.BroadcastsInDim S100000x1 (![0] : Fin 1 → Fin S100000x1.rank)
  bcast_S1x64_S2048x64_0_1 : S1x64.BroadcastsInDim S2048x64 (![0, 1] : Fin 2 → Fin S2048x64.rank)
  bcast_S32_S1x32_1 : S32.BroadcastsInDim S1x32 (![1] : Fin 1 → Fin S1x32.rank)
  bcast_S1x32_S2048x32_0_1 : S1x32.BroadcastsInDim S2048x32 (![0, 1] : Fin 2 → Fin S2048x32.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S2048x64_S100000x1_S100000x64_1_0_0_1_wf : ScatterDims.WF S2048x64 S100000x1 S100000x64 [1] [0] [0] 1
  dot_S2048x64_S64x64_S2048x64_1_0_0_1_n_n_wf : DotDims.WF S2048x64 S64x64 S2048x64 [1] [0] [0] [1] [] []
  dot_S2048x64_S64x32_S2048x32_1_0_0_1_n_n_wf : DotDims.WF S2048x64 S64x32 S2048x32 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S2048x64_S100000x1_S100000x64_1_0_0_1 : ScatterDims S2048x64 S100000x1 S100000x64 where
  updateWindowDims := [1]
  insertedWindowDims := [0]
  scatterDimsToOperandDims := [0]
  indexVectorDim := 1
  wf := scatter_S2048x64_S100000x1_S100000x64_1_0_0_1_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf

class Facts : Prop extends Facts₀ where

variable [Facts]
-- ==== Proof.KernelOut.lean ====
/-
  The idealized kernel's run with its result kept: every weakly fair execution of @main terminates, the seventeen
  argument arrays end as launched, and the result buffer ends at the contents the last region's write-backs leave,
  the fold W22 of the host stretches and the regions' final arrays over the launch memory.
-/
import proofs.«169884_j31009663877671_1_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_out : θ_run defs (onTc (τ := τ) (main (F := F))) ⟨m, fun _ => 0, ρ⟩ (fun r => ∀ c : Dev nD,
      r.2.mem ((c.tc : Thread nD τ).loc main_v212) = W22 m ρ c (Proc.devRef .tc main_v212)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c =>
      ⟨h c _ (mem_uc main_v212 (by decide)),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c),
       (h c _ (mem_uc main_arg4 (by decide))).trans (W22_main_arg4 m ρ c),
       (h c _ (mem_uc main_arg5 (by decide))).trans (W22_main_arg5 m ρ c),
       (h c _ (mem_uc main_arg6 (by decide))).trans (W22_main_arg6 m ρ c),
       (h c _ (mem_uc main_arg7 (by decide))).trans (W22_main_arg7 m ρ c),
       (h c _ (mem_uc main_arg8 (by decide))).trans (W22_main_arg8 m ρ c),
       (h c _ (mem_uc main_arg9 (by decide))).trans (W22_main_arg9 m ρ c),
       (h c _ (mem_uc main_arg10 (by decide))).trans (W22_main_arg10 m ρ c),
       (h c _ (mem_uc main_arg11 (by decide))).trans (W22_main_arg11 m ρ c),
       (h c _ (mem_uc main_arg12 (by decide))).trans (W22_main_arg12 m ρ c),
       (h c _ (mem_uc main_arg13 (by decide))).trans (W22_main_arg13 m ρ c),
       (h c _ (mem_uc main_arg14 (by decide))).trans (W22_main_arg14 m ρ c),
       (h c _ (mem_uc main_arg15 (by decide))).trans (W22_main_arg15 m ρ c),
       (h c _ (mem_uc main_arg16 (by decide))).trans (W22_main_arg16 m ρ c)⟩)

end Cert.KernelIdeal.Out

end
-- ==== Proof.Stats0Val.lean ====
/-
  What each case of the statistics kernel's body leaves in its three output buffers, as values: the block of features,
  and the two running rows (column sums of the features and of their squares) — started from zero at the first grid
  point, continued from what the point before left otherwise.
-/
import proofs.«169884_j31009663877671_1_alg».proof.Proof.Gen.KernelIdeal.Frame
import Idealize.ShloMosaic.Lib.Pipeline.Value
import Idealize.ShloMosaic.Lib.Tactic

noncomputable section

namespace Cert.KernelIdeal.Stats0

open Cert.KernelIdeal Cert.KernelIdeal.Gen
open Idealize.ShloMosaic Idealize.ShloMosaic.TcCoe Idealize.SL.Sem

variable {F : FTy → Type} [FloatOps F]

theorem hz : (![0, 0] : Fin 2 → Nat) = fun _ => 0 := funext fun a => by fin_cases a <;> rfl

theorem outA5 (c : Dev nD) (i : grid0.Coords) (a1 : Memref sig .tc .vmem S5000x128 .f32) (h1 : a1.IsWhole) (a2 : Memref sig .tc .vmem S128x64 .f32) (h2 : a2.IsWhole) (a3 : Memref sig .tc .vmem S1x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : cond0_0 i) (x0 : Vec F S5000x128 .f32) (x1 : Vec F S128x64 .f32) (x2 : Vec F S1x64 .f32) (x3 : Vec F S64x64 .f32) (x4 : Vec F S1x64 .f32) :
    out0_A_5 c i a1 h1 a2 h2 a3 h3 a4 h4 a5 h5 a6 h6 a7 h7 a8 h8 hc x0 x1 x2 x3 x4 = k0_pay4 x0 x1 x2 x3 x4 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  try sl_unfold_words
  first
    | rw [View.canon_cons_unit_zero (S := S1x64) hz, View.readCov_unit_zero (S := S1x64) _ hz]
    | rw [View.canon_unit_zero hz]
  simp only [View.readAt_eq_ld, h1.read_unread, h2.read_unread, h3.read_unread, h4.read_unread, h5.read_unread,
    h6.read_unread, h7.read_unread, h8.read_unread, View.ld_unit_zero (S := S5000x128) hz, View.ld_unit_zero (S := S128x64) hz,
    View.ld_unit_zero (S := S1x64) hz, View.ld_unit_zero (S := S64x64) hz, View.ld_unit_zero (S := S5000x64) hz]

theorem outA6 (c : Dev nD) (i : grid0.Coords) (a1 : Memref sig .tc .vmem S5000x128 .f32) (h1 : a1.IsWhole) (a2 : Memref sig .tc .vmem S128x64 .f32) (h2 : a2.IsWhole) (a3 : Memref sig .tc .vmem S1x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : cond0_0 i) (x0 : Vec F S5000x128 .f32) (x1 : Vec F S128x64 .f32) (x2 : Vec F S1x64 .f32) (x3 : Vec F S64x64 .f32) (x4 : Vec F S1x64 .f32) :
    out0_A_6 c i a1 h1 a2 h2 a3 h3 a4 h4 a5 h5 a6 h6 a7 h7 a8 h8 hc x0 x1 x2 x3 x4 = k0_pay5 x0 x1 x2 x3 x4 k0_pay2 := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  try sl_unfold_words
  first
    | rw [View.canon_cons_unit_zero (S := S1x64) hz, View.readCov_unit_zero (S := S1x64) _ hz]
    | rw [View.canon_unit_zero hz]
  simp only [View.readAt_eq_ld, h1.read_unread, h2.read_unread, h3.read_unread, h4.read_unread, h5.read_unread,
    h6.read_unread, h7.read_unread, h8.read_unread, View.ld_unit_zero (S := S5000x128) hz, View.ld_unit_zero (S := S128x64) hz,
    View.ld_unit_zero (S := S1x64) hz, View.ld_unit_zero (S := S64x64) hz, View.ld_unit_zero (S := S5000x64) hz]

theorem outA7 (c : Dev nD) (i : grid0.Coords) (a1 : Memref sig .tc .vmem S5000x128 .f32) (h1 : a1.IsWhole) (a2 : Memref sig .tc .vmem S128x64 .f32) (h2 : a2.IsWhole) (a3 : Memref sig .tc .vmem S1x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : cond0_0 i) (x0 : Vec F S5000x128 .f32) (x1 : Vec F S128x64 .f32) (x2 : Vec F S1x64 .f32) (x3 : Vec F S64x64 .f32) (x4 : Vec F S1x64 .f32) :
    out0_A_7 c i a1 h1 a2 h2 a3 h3 a4 h4 a5 h5 a6 h6 a7 h7 a8 h8 hc x0 x1 x2 x3 x4 = k0_pay1 (k0_pay4 x0 x1 x2 x3 x4) k0_pay3 := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  try sl_unfold_words
  first
    | rw [View.canon_cons_unit_zero (S := S1x64) hz, View.readCov_unit_zero (S := S1x64) _ hz]
    | rw [View.canon_unit_zero hz]
  simp only [View.readAt_eq_ld, h1.read_unread, h2.read_unread, h3.read_unread, h4.read_unread, h5.read_unread,
    h6.read_unread, h7.read_unread, h8.read_unread, View.ld_unit_zero (S := S5000x128) hz, View.ld_unit_zero (S := S128x64) hz,
    View.ld_unit_zero (S := S1x64) hz, View.ld_unit_zero (S := S64x64) hz, View.ld_unit_zero (S := S5000x64) hz]

theorem outB5 (c : Dev nD) (i : grid0.Coords) (a1 : Memref sig .tc .vmem S5000x128 .f32) (h1 : a1.IsWhole) (a2 : Memref sig .tc .vmem S128x64 .f32) (h2 : a2.IsWhole) (a3 : Memref sig .tc .vmem S1x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : ¬cond0_0 i) (x0 : Vec F S5000x128 .f32) (x1 : Vec F S128x64 .f32) (x2 : Vec F S1x64 .f32) (x3 : Vec F S64x64 .f32) (x4 : Vec F S1x64 .f32) (p6 p7 : Vec F S1x64 .f32) :
    out0_B_5 c i a1 h1 a2 h2 a3 h3 a4 h4 a5 h5 a6 h6 a7 h7 a8 h8 hc x0 x1 x2 x3 x4 p6 p7 = k0_pay4 x0 x1 x2 x3 x4 := by
  unfold out0_B_5
  rw [View.read_writes_eq_canon _ _ _ (cover0_B_5 c i a1 h1 a2 h2 a3 h3 a4 h4 a5 h5 a6 h6 a7 h7 a8 h8 hc x0 x1 x2 x3 x4 p6 p7)]
  unfold kernelRun0_B
  dsimp only
  try sl_unfold_words
  first
    | rw [View.canon_cons_unit_zero (S := S1x64) hz, View.readCov_unit_zero (S := S1x64) _ hz]
    | rw [View.canon_unit_zero hz]
  simp only [View.readAt_eq_ld, h1.read_unread, h2.read_unread, h3.read_unread, h4.read_unread, h5.read_unread,
    h6.read_unread, h7.read_unread, h8.read_unread, View.ld_unit_zero (S := S5000x128) hz, View.ld_unit_zero (S := S128x64) hz,
    View.ld_unit_zero (S := S1x64) hz, View.ld_unit_zero (S := S64x64) hz, View.ld_unit_zero (S := S5000x64) hz]

theorem outB6 (c : Dev nD) (i : grid0.Coords) (a1 : Memref sig .tc .vmem S5000x128 .f32) (h1 : a1.IsWhole) (a2 : Memref sig .tc .vmem S128x64 .f32) (h2 : a2.IsWhole) (a3 : Memref sig .tc .vmem S1x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : ¬cond0_0 i) (x0 : Vec F S5000x128 .f32) (x1 : Vec F S128x64 .f32) (x2 : Vec F S1x64 .f32) (x3 : Vec F S64x64 .f32) (x4 : Vec F S1x64 .f32) (p6 p7 : Vec F S1x64 .f32) :
    out0_B_6 c i a1 h1 a2 h2 a3 h3 a4 h4 a5 h5 a6 h6 a7 h7 a8 h8 hc x0 x1 x2 x3 x4 p6 p7 = k0_pay5 x0 x1 x2 x3 x4 p6 := by
  unfold out0_B_6
  rw [View.read_writes_eq_canon _ _ _ (cover0_B_6 c i a1 h1 a2 h2 a3 h3 a4 h4 a5 h5 a6 h6 a7 h7 a8 h8 hc x0 x1 x2 x3 x4 p6 p7)]
  unfold kernelRun0_B
  dsimp only
  try sl_unfold_words
  first
    | rw [View.canon_cons_unit_zero (S := S1x64) hz, View.readCov_unit_zero (S := S1x64) _ hz]
    | rw [View.canon_unit_zero hz]
  simp only [View.readAt_eq_ld, h1.read_unread, h2.read_unread, h3.read_unread, h4.read_unread, h5.read_unread,
    h6.read_unread, h7.read_unread, h8.read_unread, View.ld_unit_zero (S := S5000x128) hz, View.ld_unit_zero (S := S128x64) hz,
    View.ld_unit_zero (S := S1x64) hz, View.ld_unit_zero (S := S64x64) hz, View.ld_unit_zero (S := S5000x64) hz]

theorem outB7 (c : Dev nD) (i : grid0.Coords) (a1 : Memref sig .tc .vmem S5000x128 .f32) (h1 : a1.IsWhole) (a2 : Memref sig .tc .vmem S128x64 .f32) (h2 : a2.IsWhole) (a3 : Memref sig .tc .vmem S1x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : ¬cond0_0 i) (x0 : Vec F S5000x128 .f32) (x1 : Vec F S128x64 .f32) (x2 : Vec F S1x64 .f32) (x3 : Vec F S64x64 .f32) (x4 : Vec F S1x64 .f32) (p6 p7 : Vec F S1x64 .f32) :
    out0_B_7 c i a1 h1 a2 h2 a3 h3 a4 h4 a5 h5 a6 h6 a7 h7 a8 h8 hc x0 x1 x2 x3 x4 p6 p7 = k0_pay1 (k0_pay4 x0 x1 x2 x3 x4) p7 := by
  unfold out0_B_7
  rw [View.read_writes_eq_canon _ _ _ (cover0_B_7 c i a1 h1 a2 h2 a3 h3 a4 h4 a5 h5 a6 h6 a7 h7 a8 h8 hc x0 x1 x2 x3 x4 p6 p7)]
  unfold kernelRun0_B
  dsimp only
  try sl_unfold_words
  first
    | rw [View.canon_cons_unit_zero (S := S1x64) hz, View.readCov_unit_zero (S := S1x64) _ hz]
    | rw [View.canon_unit_zero hz]
  simp only [View.readAt_eq_ld, h1.read_unread, h2.read_unread, h3.read_unread, h4.read_unread, h5.read_unread,
    h6.read_unread, h7.read_unread, h8.read_unread, View.ld_unit_zero (S := S5000x128) hz, View.ld_unit_zero (S := S128x64) hz,
    View.ld_unit_zero (S := S1x64) hz, View.ld_unit_zero (S := S64x64) hz, View.ld_unit_zero (S := S5000x64) hz]

end Cert.KernelIdeal.Stats0

end
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.LibRowVector.lean ====
/-
  A length-n vector laid out as a 1×n row, and a 1×n row copied to every row of an R×n matrix, read at an entry.

  * `broadcastTo_row`: a 1×n row broadcast to R×n holds, at (p, k), the row's entry (0, k) — for n ≠ 1
    (a unit axis of the operand is the one that is copied; a length-1 last axis would be copied too).
  * `shapeCast_row`: a length-n vector reshaped to a 1×n row holds, at (0, k), the vector's entry k: both sit at
    row-major position k.
-/
import Idealize.ShloMosaic.Lib.Pipeline.Value
import Idealize.ShloMosaic.Lib.ValueIdx

noncomputable section

namespace Cert.RowVector

open Idealize.ShloMosaic Idealize.ShloMosaic.ValueIdx

variable {α : Type} {R n : Nat}

/-- A 1×n row copied to every row of an R×n matrix, at (p, k): the row at (0, k). -/
theorem broadcastTo_row (hn : n ≠ 1) (v : (⟨2, ![1, n]⟩ : Shape).Idx → α)
    (h : (⟨2, ![1, n]⟩ : Shape).Broadcasts ⟨2, ![R, n]⟩) (p : Fin R) (k : Fin n) :
    broadcastTo ⟨2, ![R, n]⟩ v h (ix2 p k) = v (ix2 0 k) :=
  broadcastTo_apply v h (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

/-- A length-n vector reshaped to a 1×n row, at (0, k): the vector at k. -/
theorem shapeCast_row (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]
    show k.val = 0 * n + k.val
    omega)

end Cert.RowVector

end
-- ==== Proof.LibRowInDim.lean ====
/-
  A 1×n row copied to every row of an R×n matrix by a host broadcast along both axes, read at an entry.

  `broadcast_in_dim` with dims = [0, 1] from 1×n to R×n copies along the operand's unit axis 0 and keeps axis 1
  (for n ≠ 1, where axis 1 is not itself a unit axis): entry (p, k) of the result is the row's entry (0, k).
-/
import Idealize.ShloMosaic.Lib.Pipeline.Value
import Idealize.ShloMosaic.Lib.ValueIdx

noncomputable section

namespace Cert.RowInDim

open Idealize.ShloMosaic Idealize.ShloMosaic.ValueIdx

variable {α : Type} {R n : Nat}

/-- The row broadcast along both axes into R×n, at (p, k): the row at (0, k). -/
theorem broadcastInDim_rows (hn : n ≠ 1) (v : (⟨2, ![1, n]⟩ : Shape).Idx → α)
    (h : (⟨2, ![1, n]⟩ : Shape).BroadcastsInDim ⟨2, ![R, n]⟩ (![0, 1] : Fin 2 → Fin 2)) (p : Fin R) (k : Fin n) :
    broadcastInDim ⟨2, ![R, n]⟩ ![0, 1] h v (ix2 p k) = v (ix2 0 k) :=
  broadcastInDim_apply _ h v (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

end Cert.RowInDim

end
-- ==== Proof.LibRowOfVector.lean ====
/-
  Two spellings of a length-n vector laid out as a 1×n row.

  A reshape of the vector to 1×n and a broadcast of it along axis 1 into a 1×n array are the same array: both hold,
  at (0, k), the vector's entry k (for n ≠ 1, where the broadcast does not copy along the vector's own axis).
-/
import Idealize.ShloMosaic.Lib.Pipeline.Value
import Idealize.ShloMosaic.Lib.ValueIdx

noncomputable section

namespace Cert.RowOfVector

open Idealize.ShloMosaic Idealize.ShloMosaic.ValueIdx

variable {α : Type} {n : Nat}

/-- The vector broadcast along axis 1 into a 1×n row, at (0, k): the vector at k. -/
theorem broadcastInDim_row (hn : n ≠ 1) (x : (⟨1, ![n]⟩ : Shape).Idx → α)
    (h : (⟨1, ![n]⟩ : Shape).BroadcastsInDim ⟨2, ![1, n]⟩ (![1] : Fin 1 → Fin 2)) (z : Fin 1) (k : Fin n) :
    broadcastInDim ⟨2, ![1, n]⟩ ![1] h x (ix2 z k) = x (ix1 k) :=
  broadcastInDim_apply _ h x (ix2 z k) (ix1 k) (fun a => match a with
    | ⟨0, _⟩ => by
      show k.val = if n = 1 then 0 else k.val
      rw [if_neg hn])

/-- The vector reshaped to a 1×n row, at (0, k): the vector at k. -/
theorem shapeCast_row (x : (⟨1, ![n]⟩ : Shape).Idx → α)
    (h : (⟨1, ![n]⟩ : Shape).ShapeCasts ⟨2, ![1, n]⟩) (z : Fin 1) (k : Fin n) :
    shapeCast ⟨2, ![1, n]⟩ x h (ix2 z k) = x (ix1 k) :=
  shapeCast_apply x h (ix2 z k) (ix1 k) (by
    rw [Shape.rowMajor_val_two, Shape.rowMajor_val_one]
    show k.val = z.val * n + k.val
    have hz : z.val = 0 := by have := z.isLt; omega
    rw [hz]; omega)

/-- So the reshape and the broadcast are one array. -/
theorem shapeCast_eq_broadcastInDim (hn : n ≠ 1) (x : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ x h = broadcastInDim ⟨2, ![1, n]⟩ ![1] h' x := by
  funext j
  obtain ⟨z, k, rfl⟩ : ∃ (z : Fin 1) (k : Fin n), j = ix2 z k := ⟨j 0, j 1, eq_ix2 j⟩
  rw [shapeCast_row, broadcastInDim_row hn]

end Cert.RowOfVector

end
-- ==== Proof.LibHostRead.lean ====
/-
  GENERAL LEMMAS: host layout operations read at an index.

  * a host operation of three operands whose function is given as a function of the three contents leaves that
    function of the three operands' contents in its result buffer;
  * a matrix (or vector) padded on the high side only reads, inside the original extents, the operand at the same
    index, and outside them the padding value;
  * three equal-shape blocks joined along the lanes of a matrix (or along a vector) read, at position
    w·g + r of the joined axis, block g at position r.
  Nothing here depends on a program.
-/
import Idealize.ShloMosaic.Lib.StableHlo.Run
import Idealize.ShloMosaic.Lib.Pipeline.Value
import Idealize.ShloMosaic.Lib.ValueIdx

noncomputable section

namespace Cert.HostRead

open Idealize.ShloMosaic Idealize.ShloMosaic.ValueIdx Idealize.ShloMosaic.StableHlo Idealize.SL.Sem

/-- A three-operand host operation whose function is `g` of the three contents: its result buffer holds `g` of the
    operands' contents. -/
theorem nary3_result {τ : Topo} {sig : RefSig} {Val : EltTy → Type} {x a b y : Ref sig .tc}
    (g : x.ty.Contents Val → a.ty.Contents Val → b.ty.Contents Val → y.ty.Contents Val) (hxs hy)
    (F : Valuation τ sig Val) :
    (nary (τ := τ) ![x, a, b] y (fun u => g (u 0) (u 1) (u 2)) hxs hy).result F (no_index (Proc.devRef .tc y))
      = g (F (Proc.devRef .tc x)) (F (Proc.devRef .tc a)) (F (Proc.devRef .tc b)) :=
  nary_result ![x, a, b] y _ hxs hy F

variable {α : Type}

/-- A matrix padded on the high side of both axes, read inside the original extents. -/
theorem pad2_inside {a b A B ha hb : Nat} (X : (⟨2, ![a, b]⟩ : Shape).Idx → α) {u : Shape} (v : u.Idx → α)
    (h : (⟨2, ![a, b]⟩ : Shape).Pads ![0, 0] ![ha, hb] ![0, 0] ⟨2, ![A, B]⟩) (hu : 0 < u.numel)
    (i : Fin A) (j : Fin B) (hi : i.val < a) (hj : j.val < b) :
    pad ⟨2, ![A, B]⟩ ![0, 0] ![ha, hb] ![0, 0] X v h hu (ix2 i j) = X (ix2 ⟨i.val, hi⟩ ⟨j.val, hj⟩) := by
  unfold pad
  rw [dif_pos (fun ax => match ax with
    | ⟨0, _⟩ => ⟨Nat.zero_le _, Nat.mod_one _, by show (i.val - 0) / (0 + 1) < a; simpa using hi⟩
    | ⟨1, _⟩ => ⟨Nat.zero_le _, Nat.mod_one _, by show (j.val - 0) / (0 + 1) < b; simpa using hj⟩)]
  refine congrArg X (funext fun ax => Fin.ext ?_)
  match ax with
  | ⟨0, _⟩ => show (i.val - 0) / (0 + 1) = i.val; simp
  | ⟨1, _⟩ => show (j.val - 0) / (0 + 1) = j.val; simp

/-- A matrix padded on the high side, read at a row past the original rows: the padding value. -/
theorem pad2_past_rows {a b A B ha hb : Nat} (X : (⟨2, ![a, b]⟩ : Shape).Idx → α) {u : Shape} (v : u.Idx → α)
    (h : (⟨2, ![a, b]⟩ : Shape).Pads ![0, 0] ![ha, hb] ![0, 0] ⟨2, ![A, B]⟩) (hu : 0 < u.numel)
    (i : Fin A) (j : Fin B) (hi : a ≤ i.val) :
    pad ⟨2, ![A, B]⟩ ![0, 0] ![ha, hb] ![0, 0] X v h hu (ix2 i j) = v (Shape.Idx.first hu) := by
  unfold pad
  rw [dif_neg]
  intro hin
  have h0 : (i.val - 0) / (0 + 1) < a := (hin (0 : Fin 2)).2.2
  simp at h0
  omega

/-- A vector padded on the high side, read inside the original extent. -/
theorem pad1_inside {a A ha : Nat} (x : (⟨1, ![a]⟩ : Shape).Idx → α) {u : Shape} (v : u.Idx → α)
    (h : (⟨1, ![a]⟩ : Shape).Pads ![0] ![ha] ![0] ⟨1, ![A]⟩) (hu : 0 < u.numel) (i : Fin A) (hi : i.val < a) :
    pad ⟨1, ![A]⟩ ![0] ![ha] ![0] x v h hu (ix1 i) = x (ix1 ⟨i.val, hi⟩) := by
  unfold pad
  rw [dif_pos (fun ax => match ax with
    | ⟨0, _⟩ => ⟨Nat.zero_le _, Nat.mod_one _, by show (i.val - 0) / (0 + 1) < a; simpa using hi⟩)]
  refine congrArg x (funext fun ax => Fin.ext ?_)
  match ax with
  | ⟨0, _⟩ => show (i.val - 0) / (0 + 1) = i.val; simp

/-- Three K×w blocks joined along the lanes, read at lane w·g + r: block g at lane r. -/
theorem join3_lanes {K w n : Nat} (A0 A1 A2 : (⟨2, ![K, w]⟩ : Shape).Idx → α)
    (h : Shape.Concatenates [(⟨2, ![K, w]⟩ : Shape), ⟨2, ![K, w]⟩, ⟨2, ![K, w]⟩] ⟨2, ![K, n]⟩ 1) (k : Fin K) (r : Fin w) (l : Fin n) :
    (l.val = r.val → concatenate ⟨2, ![K, n]⟩ 1 [⟨⟨2, ![K, w]⟩, A0⟩, ⟨⟨2, ![K, w]⟩, A1⟩, ⟨⟨2, ![K, w]⟩, A2⟩] h (ix2 k l) = A0 (ix2 k r))
    ∧ (l.val = w + r.val → concatenate ⟨2, ![K, n]⟩ 1 [⟨⟨2, ![K, w]⟩, A0⟩, ⟨⟨2, ![K, w]⟩, A1⟩, ⟨⟨2, ![K, w]⟩, A2⟩] h (ix2 k l) = A1 (ix2 k r))
    ∧ (l.val = w + w + r.val → concatenate ⟨2, ![K, n]⟩ 1 [⟨⟨2, ![K, w]⟩, A0⟩, ⟨⟨2, ![K, w]⟩, A1⟩, ⟨⟨2, ![K, w]⟩, A2⟩] h (ix2 k l) = A2 (ix2 k r)) := by
  have hi : ∀ b : Fin 2, b.cast (rfl : (2 : Nat) = 2) ≠ (1 : Fin 2) → ((ix2 k r : (⟨2, ![K, w]⟩ : Shape).Idx) b).val = ((ix2 k l : (⟨2, ![K, n]⟩ : Shape).Idx) (b.cast rfl)).val :=
    fun b hb => match b with
      | ⟨0, _⟩ => rfl
      | ⟨1, _⟩ => absurd rfl hb
  refine ⟨fun hl => ?_, fun hl => ?_, fun hl => ?_⟩
  · exact concatenate_apply_piece (t := ⟨2, ![K, n]⟩) (1 : Fin 2) [⟨⟨2, ![K, w]⟩, A0⟩, ⟨⟨2, ![K, w]⟩, A1⟩, ⟨⟨2, ![K, w]⟩, A2⟩] h (ix2 k l) 0 (by show 0 < 3; omega) _ A0 rfl rfl 0 (by simp) (ix2 k r) hi (by show 0 + r.val = l.val; omega)
  · exact concatenate_apply_piece (t := ⟨2, ![K, n]⟩) (1 : Fin 2) [⟨⟨2, ![K, w]⟩, A0⟩, ⟨⟨2, ![K, w]⟩, A1⟩, ⟨⟨2, ![K, w]⟩, A2⟩] h (ix2 k l) 1 (by show 1 < 3; omega) _ A1 rfl rfl w (by simp) (ix2 k r) hi (by show w + r.val = l.val; omega)
  · exact concatenate_apply_piece (t := ⟨2, ![K, n]⟩) (1 : Fin 2) [⟨⟨2, ![K, w]⟩, A0⟩, ⟨⟨2, ![K, w]⟩, A1⟩, ⟨⟨2, ![K, w]⟩, A2⟩] h (ix2 k l) 2 (by show 2 < 3; omega) _ A2 rfl rfl (w + w) (by simp) (ix2 k r) hi (by show w + w + r.val = l.val; omega)

/-- Three length-w vectors joined end to end, read at position w·g + r: vector g at position r. -/
theorem join3_vec {w n : Nat} (a0 a1 a2 : (⟨1, ![w]⟩ : Shape).Idx → α)
    (h : Shape.Concatenates [(⟨1, ![w]⟩ : Shape), ⟨1, ![w]⟩, ⟨1, ![w]⟩] ⟨1, ![n]⟩ 0) (r : Fin w) (l : Fin n) :
    (l.val = r.val → concatenate ⟨1, ![n]⟩ 0 [⟨⟨1, ![w]⟩, a0⟩, ⟨⟨1, ![w]⟩, a1⟩, ⟨⟨1, ![w]⟩, a2⟩] h (ix1 l) = a0 (ix1 r))
    ∧ (l.val = w + r.val → concatenate ⟨1, ![n]⟩ 0 [⟨⟨1, ![w]⟩, a0⟩, ⟨⟨1, ![w]⟩, a1⟩, ⟨⟨1, ![w]⟩, a2⟩] h (ix1 l) = a1 (ix1 r))
    ∧ (l.val = w + w + r.val → concatenate ⟨1, ![n]⟩ 0 [⟨⟨1, ![w]⟩, a0⟩, ⟨⟨1, ![w]⟩, a1⟩, ⟨⟨1, ![w]⟩, a2⟩] h (ix1 l) = a2 (ix1 r)) := by
  have hi : ∀ b : Fin 1, b.cast (rfl : (1 : Nat) = 1) ≠ (0 : Fin 1) → ((ix1 r : (⟨1, ![w]⟩ : Shape).Idx) b).val = ((ix1 l : (⟨1, ![n]⟩ : Shape).Idx) (b.cast rfl)).val :=
    fun b hb => match b with
      | ⟨0, _⟩ => absurd rfl hb
  refine ⟨fun hl => ?_, fun hl => ?_, fun hl => ?_⟩
  · exact concatenate_apply_piece (t := ⟨1, ![n]⟩) (0 : Fin 1) [⟨⟨1, ![w]⟩, a0⟩, ⟨⟨1, ![w]⟩, a1⟩, ⟨⟨1, ![w]⟩, a2⟩] h (ix1 l) 0 (by show 0 < 3; omega) _ a0 rfl rfl 0 (by simp) (ix1 r) hi (by show 0 + r.val = l.val; omega)
  · exact concatenate_apply_piece (t := ⟨1, ![n]⟩) (0 : Fin 1) [⟨⟨1, ![w]⟩, a0⟩, ⟨⟨1, ![w]⟩, a1⟩, ⟨⟨1, ![w]⟩, a2⟩] h (ix1 l) 1 (by show 1 < 3; omega) _ a1 rfl rfl w (by simp) (ix1 r) hi (by show w + r.val = l.val; omega)
  · exact concatenate_apply_piece (t := ⟨1, ![n]⟩) (0 : Fin 1) [⟨⟨1, ![w]⟩, a0⟩, ⟨⟨1, ![w]⟩, a1⟩, ⟨⟨1, ![w]⟩, a2⟩] h (ix1 l) 2 (by show 2 < 3; omega) _ a2 rfl rfl (w + w) (by simp) (ix1 r) hi (by show w + w + r.val = l.val; omega)

end Cert.HostRead

end
-- ==== Proof.LibLinear.lean ====
/-
  An affine layer read at one entry, at the ideal values.

  For an R×K matrix X, a K×N matrix W and a length-N vector b the layer is the array

      dense X W b (i, j) = (∑ c, X(i, c) · W(c, j)) + b(j)

  in the extended reals. Two spellings of it are read here at an entry (p, q), with no finiteness asked, since
  each is that sum by definition once the contraction index is renamed by its one coordinate:

    * a kernel's: the product on the matrix unit into the zero accumulator of the two operands after a change of
      float format (the identity on ideal values), the left operand first re-cast to its own shape; the vector
      laid out as a 1×N row, copied to every row and added;
    * a host's: the general dot product with the plain dimension numbers; the vector broadcast to a 1×N row and
      then to every row, and added.

  Row i of the layer depends on row i of X alone. So rows appended below X (a padding of any value) change nothing
  in the first rows: the layer of the padded matrix, cut back to the original rows, is the layer of X
  (`slice_dense_pad`).

  The dimension record of either product may be any record equal to the plain one (for a record written out with
  those lists the equality is `rfl`); N ≠ 1 so that the row's own axis is not one that a broadcast copies.
-/
import Idealize.ShloMosaic.PureOps.Ideal.Laws
import Idealize.ShloMosaic.Lib.Pipeline.Value
import Idealize.ShloMosaic.Lib.ValueIdx
import proofs.«169884_j31009663877671_1_alg».proof.Proof.LibPlainDot
import proofs.«169884_j31009663877671_1_alg».proof.Proof.LibRowVector
import proofs.«169884_j31009663877671_1_alg».proof.Proof.LibRowInDim
import proofs.«169884_j31009663877671_1_alg».proof.Proof.LibRowOfVector
import proofs.«169884_j31009663877671_1_alg».proof.Proof.LibHostRead

noncomputable section

open scoped BigOperators

namespace Cert.Linear

open Idealize.ShloMosaic Idealize.ShloMosaic.ValueIdx

variable {R K N : Nat}

/-- The affine layer X · W + b as one array, entry by entry. -/
def dense (X : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  fun i => (∑ c : Fin K, X (ix2 (i 0) c) * W (ix2 c (i 1))) + b (ix1 (i 1))

/-- The layer at entry (p, q). -/
theorem dense_apply (X : (⟨2, ![R, K]⟩ : Shape).Idx → EReal) (W : (⟨2, ![K, N]⟩ : Shape).Idx → EReal)
    (b : (⟨1, ![N]⟩ : Shape).Idx → EReal) (p : Fin R) (q : Fin N) :
    dense X W b (ix2 p q) = (∑ c : Fin K, X (ix2 p c) * W (ix2 c q)) + b (ix1 q) := rfl

/-- A kernel's spelling of the layer, at entry (p, q). -/
theorem kernel_apply (D : DotDims ⟨2, ![R, K]⟩ ⟨2, ![K, N]⟩ ⟨2, ![R, N]⟩) (hD : D = DotDims.plain R K N) (hN : N ≠ 1)
    (prec : Option ContractPrecision) (X : FVec Ideal ⟨2, ![R, K]⟩ .f32) (W : FVec Ideal ⟨2, ![K, N]⟩ .f32)
    (b : FVec Ideal ⟨1, ![N]⟩ .f32)
    (hX : (⟨2, ![R, K]⟩ : Shape).ShapeCasts ⟨2, ![R, K]⟩) (hb : (⟨1, ![N]⟩ : Shape).ShapeCasts ⟨2, ![1, N]⟩)
    (hbc : (⟨2, ![1, N]⟩ : Shape).Broadcasts ⟨2, ![R, N]⟩) (hlt : FTy.bf16.bits < FTy.f32.bits)
    (p : Fin R) (q : Fin N) :
    addf (matmul D prec (truncf .bf16 (shapeCast ⟨2, ![R, K]⟩ X hX) hlt) (truncf .bf16 W hlt)
          (constant (F := Ideal) ⟨2, ![R, N]⟩ .f32 0x00000000#32))
        (broadcastTo ⟨2, ![R, N]⟩ (shapeCast ⟨2, ![1, N]⟩ b hb) hbc) (ix2 p q)
      = dense X W b (ix2 p q) := by
  show matmul D prec (truncf .bf16 (shapeCast ⟨2, ![R, K]⟩ X hX) hlt) (truncf .bf16 W hlt)
        (constant (F := Ideal) ⟨2, ![R, N]⟩ .f32 0x00000000#32) (ix2 p q)
      + broadcastTo ⟨2, ![R, N]⟩ (shapeCast ⟨2, ![1, N]⟩ b hb) hbc (ix2 p q) = _
  rw [RowVector.broadcastTo_row hN, RowVector.shapeCast_row, dense_apply]
  refine congrArg (· + b (ix1 q))
    ((PlainDot.matmul_zero_apply D hD prec (truncf .bf16 (shapeCast ⟨2, ![R, K]⟩ X hX) hlt) (truncf .bf16 W hlt) p q).trans ?_)
  refine Finset.sum_congr rfl fun c _ => ?_
  show shapeCast ⟨2, ![R, K]⟩ X hX (ix2 p c) * W (ix2 c q) = _
  rw [shapeCast_self]

/-- A host's spelling of the layer, at entry (r, c). -/
theorem host_apply (D : DotDims ⟨2, ![R, K]⟩ ⟨2, ![K, N]⟩ ⟨2, ![R, N]⟩) (hD : D = DotDims.plain R K N) (hN : N ≠ 1)
    (prec : Option ContractPrecision) (X : FVec Ideal ⟨2, ![R, K]⟩ .f32) (W : FVec Ideal ⟨2, ![K, N]⟩ .f32)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2)) (r : Fin R) (c : Fin N) :
    addf (Host.dotGeneral D prec X W)
        (broadcastInDim ⟨2, ![R, N]⟩ ![0, 1] h2 (broadcastInDim ⟨2, ![1, N]⟩ ![1] h1 b)) (ix2 r c)
      = dense X W b (ix2 r c) := by
  show FloatOps.dotGeneral D prec .single X W (ix2 r c)
      + broadcastInDim ⟨2, ![R, N]⟩ ![0, 1] h2 (broadcastInDim ⟨2, ![1, N]⟩ ![1] h1 b) (ix2 r c) = _
  rw [RowInDim.broadcastInDim_rows hN, PlainDot.dotGeneral_apply D hD, RowOfVector.broadcastInDim_row hN, dense_apply]

/-- So a host's spelling of the layer IS the layer. -/
theorem host_eq (D : DotDims ⟨2, ![R, K]⟩ ⟨2, ![K, N]⟩ ⟨2, ![R, N]⟩) (hD : D = DotDims.plain R K N) (hN : N ≠ 1)
    (prec : Option ContractPrecision) (X : FVec Ideal ⟨2, ![R, K]⟩ .f32) (W : FVec Ideal ⟨2, ![K, N]⟩ .f32)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2)) :
    addf (Host.dotGeneral D prec X W)
        (broadcastInDim ⟨2, ![R, N]⟩ ![0, 1] h2 (broadcastInDim ⟨2, ![1, N]⟩ ![1] h1 b))
      = dense X W b := by
  funext j
  obtain ⟨r, c, rfl⟩ : ∃ (r : Fin R) (c : Fin N), j = ix2 r c := ⟨j 0, j 1, eq_ix2 j⟩
  exact host_apply D hD hN prec X W b h1 h2 r c

/-- Rows appended below a matrix do not reach the rows above them: the layer of a matrix padded with extra rows,
    cut back to the original rows, is the layer of the matrix. -/
theorem slice_dense_pad {a A ha : Nat} (X : (⟨2, ![a, K]⟩ : Shape).Idx → EReal) {u : Shape} (v : u.Idx → EReal)
    (W : (⟨2, ![K, N]⟩ : Shape).Idx → EReal) (b : (⟨1, ![N]⟩ : Shape).Idx → EReal)
    (hp : (⟨2, ![a, K]⟩ : Shape).Pads ![0, 0] ![ha, 0] ![0, 0] ⟨2, ![A, K]⟩) (hu : 0 < u.numel)
    (hs : (⟨2, ![A, N]⟩ : Shape).Slices ![0, 0] ⟨2, ![a, N]⟩) (haA : a ≤ A) :
    extractStridedSlice ⟨2, ![a, N]⟩ ![0, 0] (dense (pad ⟨2, ![A, K]⟩ ![0, 0] ![ha, 0] ![0, 0] X v hp hu) W b) hs
      = dense X W b := by
  funext j
  obtain ⟨r, q, rfl⟩ : ∃ (r : Fin a) (q : Fin N), j = ix2 r q := ⟨j 0, j 1, eq_ix2 j⟩
  have hr : r.val < A := lt_of_lt_of_le r.isLt haA
  rw [extractStridedSlice_apply ![0, 0] _ hs (ix2 r q) (ix2 ⟨r.val, hr⟩ q) (fun ax => match ax with
      | ⟨0, _⟩ => by show r.val = 0 + r.val; omega
      | ⟨1, _⟩ => by show q.val = 0 + q.val; omega),
    dense_apply, dense_apply]
  refine congrArg (· + b (ix1 q)) (Finset.sum_congr rfl fun c _ => ?_)
  rw [HostRead.pad2_inside X v hp hu ⟨r.val, hr⟩ c r.isLt c.isLt]

end Cert.Linear

end
-- ==== Proof.LibRowAffine.lean ====
/-
  An affine layer whose bias arrives laid out as a 1×N row, read at one entry at the ideal values.

  For an R×K matrix X, a K×N matrix W and a 1×N row B the layer is the array

      rowAffine X W B (i, j) = (∑ c, X(i, c) · W(c, j)) + B(0, j)

  in the extended reals. Read here, with no finiteness asked:

    * a kernel block's spelling: the product on the matrix unit into the zero accumulator of the two operands after a
      change of float format (the identity on ideal values), the row copied to every row of the block and added — with
      the operands first re-cast to their own shapes, or not;
    * a host's spelling with a length-N bias vector broadcast to a 1×N row and then to every row: the layer at the
      vector reshaped to a 1×N row (a reshape and a broadcast of a vector into a row are one array);
    * a host's plain product with no bias at all: the layer at the reshaped splat of the zero word, since x + 0 = x
      for every extended real x.

  The dimension record of either product may be any record equal to the plain one; N ≠ 1 so that the row's own
  axis is not one that a broadcast copies.
-/
import Idealize.ShloMosaic.PureOps.Ideal.Laws
import Idealize.ShloMosaic.Lib.Pipeline.Value
import Idealize.ShloMosaic.Lib.ValueIdx
import proofs.«169884_j31009663877671_1_alg».proof.Proof.LibPlainDot
import proofs.«169884_j31009663877671_1_alg».proof.Proof.LibRowVector
import proofs.«169884_j31009663877671_1_alg».proof.Proof.LibLinear

noncomputable section

open scoped BigOperators

namespace Cert.RowAffine

open Idealize.ShloMosaic Idealize.ShloMosaic.ValueIdx

variable {R K N : Nat}

/-- The affine layer X · W + B with B a 1×N row, entry by entry. -/
def rowAffine (X : (⟨2, ![R, K]⟩ : Shape).Idx → EReal) (W : (⟨2, ![K, N]⟩ : Shape).Idx → EReal)
    (B : (⟨2, ![1, N]⟩ : Shape).Idx → EReal) : (⟨2, ![R, N]⟩ : Shape).Idx → EReal :=
  fun i => (∑ c : Fin K, X (ix2 (i 0) c) * W (ix2 c (i 1))) + B (ix2 0 (i 1))

/-- The layer at entry (p, q). -/
theorem rowAffine_apply (X : (⟨2, ![R, K]⟩ : Shape).Idx → EReal) (W : (⟨2, ![K, N]⟩ : Shape).Idx → EReal)
    (B : (⟨2, ![1, N]⟩ : Shape).Idx → EReal) (p : Fin R) (q : Fin N) :
    rowAffine X W B (ix2 p q) = (∑ c : Fin K, X (ix2 p c) * W (ix2 c q)) + B (ix2 0 q) := rfl

/-- A kernel block's spelling of the layer, the operands used as loaded, at entry (p, q). -/
theorem kernel_apply (D : DotDims ⟨2, ![R, K]⟩ ⟨2, ![K, N]⟩ ⟨2, ![R, N]⟩) (hD : D = DotDims.plain R K N) (hN : N ≠ 1)
    (prec : Option ContractPrecision) (X : FVec Ideal ⟨2, ![R, K]⟩ .f32) (W : FVec Ideal ⟨2, ![K, N]⟩ .f32)
    (B : FVec Ideal ⟨2, ![1, N]⟩ .f32)
    (hB : (⟨2, ![1, N]⟩ : Shape).ShapeCasts ⟨2, ![1, N]⟩)
    (hbc : (⟨2, ![1, N]⟩ : Shape).Broadcasts ⟨2, ![R, N]⟩) (hlt : FTy.bf16.bits < FTy.f32.bits)
    (p : Fin R) (q : Fin N) :
    addf (matmul D prec (truncf .bf16 X hlt) (truncf .bf16 W hlt)
          (constant (F := Ideal) ⟨2, ![R, N]⟩ .f32 0x00000000#32))
        (broadcastTo ⟨2, ![R, N]⟩ (shapeCast ⟨2, ![1, N]⟩ B hB) hbc) (ix2 p q)
      = rowAffine X W B (ix2 p q) := by
  show matmul D prec (truncf .bf16 X hlt) (truncf .bf16 W hlt)
        (constant (F := Ideal) ⟨2, ![R, N]⟩ .f32 0x00000000#32) (ix2 p q)
      + broadcastTo ⟨2, ![R, N]⟩ (shapeCast ⟨2, ![1, N]⟩ B hB) hbc (ix2 p q) = _
  rw [RowVector.broadcastTo_row hN, shapeCast_self, rowAffine_apply]
  exact congrArg (· + B (ix2 0 q))
    (PlainDot.matmul_zero_apply D hD prec (truncf .bf16 X hlt) (truncf .bf16 W hlt) p q)

/-- A kernel block's spelling of the layer, both operands first re-cast to their own shapes, at entry (p, q). -/
theorem kernel_cast_apply (D : DotDims ⟨2, ![R, K]⟩ ⟨2, ![K, N]⟩ ⟨2, ![R, N]⟩) (hD : D = DotDims.plain R K N) (hN : N ≠ 1)
    (prec : Option ContractPrecision) (X : FVec Ideal ⟨2, ![R, K]⟩ .f32) (W : FVec Ideal ⟨2, ![K, N]⟩ .f32)
    (B : FVec Ideal ⟨2, ![1, N]⟩ .f32)
    (hX : (⟨2, ![R, K]⟩ : Shape).ShapeCasts ⟨2, ![R, K]⟩) (hW : (⟨2, ![K, N]⟩ : Shape).ShapeCasts ⟨2, ![K, N]⟩)
    (hB : (⟨2, ![1, N]⟩ : Shape).ShapeCasts ⟨2, ![1, N]⟩)
    (hbc : (⟨2, ![1, N]⟩ : Shape).Broadcasts ⟨2, ![R, N]⟩) (hlt : FTy.bf16.bits < FTy.f32.bits)
    (p : Fin R) (q : Fin N) :
    addf (matmul D prec (truncf .bf16 (shapeCast ⟨2, ![R, K]⟩ X hX) hlt) (truncf .bf16 (shapeCast ⟨2, ![K, N]⟩ W hW) hlt)
          (constant (F := Ideal) ⟨2, ![R, N]⟩ .f32 0x00000000#32))
        (broadcastTo ⟨2, ![R, N]⟩ (shapeCast ⟨2, ![1, N]⟩ B hB) hbc) (ix2 p q)
      = rowAffine X W B (ix2 p q) := by
  rw [shapeCast_self X hX, shapeCast_self W hW]
  exact kernel_apply D hD hN prec X W B hB hbc hlt p q

/-- The layer at a vector reshaped to a row is the layer with that vector as its bias. -/
theorem rowAffine_shapeCast (X : (⟨2, ![R, K]⟩ : Shape).Idx → EReal) (W : (⟨2, ![K, N]⟩ : Shape).Idx → EReal)
    (b : (⟨1, ![N]⟩ : Shape).Idx → EReal) (hb : (⟨1, ![N]⟩ : Shape).ShapeCasts ⟨2, ![1, N]⟩) :
    rowAffine X W (shapeCast ⟨2, ![1, N]⟩ b hb) = Linear.dense X W b := by
  funext j
  obtain ⟨r, c, rfl⟩ : ∃ (r : Fin R) (c : Fin N), j = ix2 r c := ⟨j 0, j 1, eq_ix2 j⟩
  rw [rowAffine_apply, Linear.dense_apply, RowVector.shapeCast_row]

/-- A host's spelling of the layer with a bias vector IS the layer at the vector reshaped to a row. -/
theorem host_eq (D : DotDims ⟨2, ![R, K]⟩ ⟨2, ![K, N]⟩ ⟨2, ![R, N]⟩) (hD : D = DotDims.plain R K N) (hN : N ≠ 1)
    (prec : Option ContractPrecision) (X : FVec Ideal ⟨2, ![R, K]⟩ .f32) (W : FVec Ideal ⟨2, ![K, N]⟩ .f32)
    (b : FVec Ideal ⟨1, ![N]⟩ .f32) (hb : (⟨1, ![N]⟩ : Shape).ShapeCasts ⟨2, ![1, N]⟩)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2)) :
    addf (Host.dotGeneral D prec X W)
        (broadcastInDim ⟨2, ![R, N]⟩ ![0, 1] h2 (broadcastInDim ⟨2, ![1, N]⟩ ![1] h1 b))
      = rowAffine X W (shapeCast ⟨2, ![1, N]⟩ b hb) :=
  (Linear.host_eq D hD hN prec X W b h1 h2).trans (rowAffine_shapeCast X W b hb).symm

/-- A host's plain product with no bias IS the layer at the reshaped splat of the zero word. -/
theorem host_nobias_eq (D : DotDims ⟨2, ![R, K]⟩ ⟨2, ![K, N]⟩ ⟨2, ![R, N]⟩) (hD : D = DotDims.plain R K N)
    (prec : Option ContractPrecision) (X : FVec Ideal ⟨2, ![R, K]⟩ .f32) (W : FVec Ideal ⟨2, ![K, N]⟩ .f32)
    (hb : (⟨1, ![N]⟩ : Shape).ShapeCasts ⟨2, ![1, N]⟩)
    (h0 : (⟨0, ![]⟩ : Shape).BroadcastsInDim ⟨1, ![N]⟩ (![] : Fin 0 → Fin 1)) :
    Host.dotGeneral D prec X W
      = rowAffine X W (shapeCast ⟨2, ![1, N]⟩
          (broadcastInDim ⟨1, ![N]⟩ ![] h0 (constant (F := Ideal) ⟨0, ![]⟩ .f32 0x00000000#32)) hb) := by
  funext j
  obtain ⟨r, c, rfl⟩ : ∃ (r : Fin R) (c : Fin N), j = ix2 r c := ⟨j 0, j 1, eq_ix2 j⟩
  rw [rowAffine_apply, RowVector.shapeCast_row,
    broadcastInDim_apply _ h0 _ (ix1 c) (fun a => a.elim0) (fun a => a.elim0),
    constant_apply, Ideal.ofBits_zero_f32, add_zero]
  exact PlainDot.dotGeneral_apply D hD prec .single X W r c

end Cert.RowAffine

end
-- ==== Proof.LibBatchNorm.lean ====
/-
  Batch statistics over the extended reals.

  For finitely many REAL data t i (i in a finite type of n > 0 members, N the real number n):
  the mean is (sum t)/N, and the variance can be spelt two ways,

    "mean of squares minus square of mean":  (sum t*t)/N - mean*mean,
    "mean of squared deviations":            (sum (t - mean)*(t - mean))/N.

  Over the reals they are one number (expand the square; sum (t - mean) = 0), it is nonnegative,
  and so adding a positive real and taking the reciprocal square root stays a real number.
  The statements below say this for extended reals that are coercions of reals, in the spelling
  of the float operations at the ideal instance (quotient = Ideal.div, x + y, x - y, x * y).
-/
import Idealize.ShloMosaic.PureOps.Ideal

noncomputable section

namespace Cert.Lib.BatchNorm

open Idealize.ShloMosaic

variable {ι : Type} [Fintype ι]

/-- The coercion of a finite real sum is the sum of the coercions. -/
theorem coe_sum (f : ι → ℝ) : ((∑ i, f i : ℝ) : EReal) = ∑ i, (f i : EReal) := by
  classical
  induction (Finset.univ : Finset ι) using Finset.induction_on with
  | empty => simp
  | insert a s ha ih => rw [Finset.sum_insert ha, Finset.sum_insert ha, EReal.coe_add, ih]

/-- The real mean. -/
def meanR (N : ℝ) (t : ι → ℝ) : ℝ := (∑ i, t i) / N

/-- The real variance, as the mean of the squared deviations. -/
def varR (N : ℝ) (t : ι → ℝ) : ℝ := (∑ i, (t i - meanR N t) * (t i - meanR N t)) / N

/-- Mean of squares minus square of the mean is the mean of the squared deviations, when N is the
    number of data. -/
theorem var_two_forms (N : ℝ) (hN : N ≠ 0) (hcard : (Fintype.card ι : ℝ) = N) (t : ι → ℝ) :
    (∑ i, t i * t i) / N - meanR N t * meanR N t = varR N t := by
  unfold varR
  have h1 : ∑ i, (t i - meanR N t) * (t i - meanR N t)
      = (∑ i, t i * t i) - 2 * meanR N t * (∑ i, t i) + N * (meanR N t * meanR N t) := by
    have : ∀ i, (t i - meanR N t) * (t i - meanR N t)
        = t i * t i - 2 * meanR N t * t i + meanR N t * meanR N t := fun i => by ring
    simp only [this, Finset.sum_add_distrib, Finset.sum_sub_distrib, ← Finset.mul_sum,
      Finset.sum_const, Finset.card_univ, nsmul_eq_mul, hcard]
    ring
  rw [h1]
  have hs : (∑ i, t i) = N * meanR N t := by unfold meanR; field_simp
  rw [hs]; field_simp; ring

/-- The variance is nonnegative for a positive count. -/
theorem varR_nonneg (N : ℝ) (hN : 0 < N) (t : ι → ℝ) : 0 ≤ varR N t := by
  unfold varR
  exact div_nonneg (Finset.sum_nonneg fun i _ => mul_self_nonneg _) hN.le

/-- A quotient of reals by a nonzero real, in the ideal instance's spelling. -/
theorem div_real (x : ℝ) {y : ℝ} (hy : y ≠ 0) : Ideal.div (x : EReal) (y : EReal) = ((x / y : ℝ) : EReal) := by
  rw [Ideal.div_coe hy, ← EReal.coe_mul]; congr 1; ring

/-- The mean in the float spelling: (sum of the data) / N. -/
theorem mean_eq (N : ℝ) (hN : N ≠ 0) (t : ι → ℝ) :
    Ideal.div (∑ i, (t i : EReal)) (N : EReal) = ((meanR N t : ℝ) : EReal) := by
  rw [← coe_sum, div_real _ hN]; rfl

/-- The variance spelt "mean of squares minus square of mean", from sums of the data and of their
    squares, is the real variance. -/
theorem var_of_sums (N : ℝ) (hN : N ≠ 0) (hcard : (Fintype.card ι : ℝ) = N) (t : ι → ℝ) :
    Ideal.div (∑ i, (t i : EReal) * (t i : EReal)) (N : EReal)
        - Ideal.div (∑ i, (t i : EReal)) (N : EReal) * Ideal.div (∑ i, (t i : EReal)) (N : EReal)
      = ((varR N t : ℝ) : EReal) := by
  rw [mean_eq N hN t]
  simp only [← EReal.coe_mul]
  rw [← coe_sum, div_real _ hN, ← EReal.coe_sub, var_two_forms N hN hcard t]

/-- The variance spelt "mean of squared deviations from the mean" is the real variance. -/
theorem var_of_deviations (N : ℝ) (hN : N ≠ 0) (t : ι → ℝ) :
    Ideal.div (∑ i, ((t i : EReal) - Ideal.div (∑ j, (t j : EReal)) (N : EReal))
          * ((t i : EReal) - Ideal.div (∑ j, (t j : EReal)) (N : EReal))) (N : EReal)
      = ((varR N t : ℝ) : EReal) := by
  rw [mean_eq N hN t]
  simp only [← EReal.coe_sub, ← EReal.coe_mul]
  rw [← coe_sum, div_real _ hN]; rfl

/-- The two spellings of the variance agree on real data. -/
theorem var_spellings_agree (N : ℝ) (hN : N ≠ 0) (hcard : (Fintype.card ι : ℝ) = N) (t : ι → ℝ) :
    Ideal.div (∑ i, (t i : EReal) * (t i : EReal)) (N : EReal)
        - Ideal.div (∑ i, (t i : EReal)) (N : EReal) * Ideal.div (∑ i, (t i : EReal)) (N : EReal)
      = Ideal.div (∑ i, ((t i : EReal) - Ideal.div (∑ j, (t j : EReal)) (N : EReal))
          * ((t i : EReal) - Ideal.div (∑ j, (t j : EReal)) (N : EReal))) (N : EReal) :=
  (var_of_sums N hN hcard t).trans (var_of_deviations N hN t).symm

/-- The reciprocal square root of a positive real is a real number. -/
theorem rsqrt_pos_real {r : ℝ} (hr : 0 < r) : Ideal.rsqrt (r : EReal) = (((Real.sqrt r)⁻¹ : ℝ) : EReal) := by
  rw [Ideal.rsqrt_coe, if_neg (not_lt.mpr hr.le), if_neg hr.ne']

/-- Variance plus a positive real, under the reciprocal square root, is a real number. -/
theorem rsqrt_var_add_eps (N : ℝ) (hN : 0 < N) (t : ι → ℝ) {e : ℝ} (he : 0 < e) :
    Ideal.rsqrt (((varR N t : ℝ) : EReal) + (e : EReal)) = (((Real.sqrt (varR N t + e))⁻¹ : ℝ) : EReal) := by
  rw [← EReal.coe_add]
  exact rsqrt_pos_real (add_pos_of_nonneg_of_pos (varR_nonneg N hN t) he)

/-! ## A batch-normalised array, in the two spellings of the variance -/

section Layer

variable {κ : Type}

/-- An array of extended reals that is the coercion of a real array. -/
def IsRealArr {α : Type} (T : α → EReal) : Prop := ∃ g : α → ℝ, T = fun a => (g a : EReal)

/-- Normalisation with the variance as "mean of squares minus square of the mean" (column sums s and ss of the
    data and of their squares): γ * (T - mean) * rsqrt (var + ε) + β. -/
def normSums (T : ι → κ → EReal) (γ β : κ → EReal) (ε N : EReal) (r : ι) (j : κ) : EReal :=
  γ j * (T r j - Ideal.div (∑ i, T i j) N)
      * Ideal.rsqrt ((Ideal.div (∑ i, T i j * T i j) N - Ideal.div (∑ i, T i j) N * Ideal.div (∑ i, T i j) N) + ε)
    + β j

/-- Normalisation with the variance as the mean of the squared deviations from the mean. -/
def normDevs (T : ι → κ → EReal) (γ β : κ → EReal) (ε N : EReal) (r : ι) (j : κ) : EReal :=
  γ j * (T r j - Ideal.div (∑ i, T i j) N)
      * Ideal.rsqrt (Ideal.div (∑ i, (T i j - Ideal.div (∑ k, T k j) N) * (T i j - Ideal.div (∑ k, T k j) N)) N + ε)
    + β j

/-- On real data the two normalisations are one array. -/
theorem normSums_eq_normDevs (N : ℝ) (hN : N ≠ 0) (hcard : (Fintype.card ι : ℝ) = N)
    (T : ι → κ → ℝ) (γ β : κ → EReal) (ε : EReal) (r : ι) (j : κ) :
    normSums (fun i k => (T i k : EReal)) γ β ε (N : EReal) r j
      = normDevs (fun i k => (T i k : EReal)) γ β ε (N : EReal) r j := by
  unfold normSums normDevs
  rw [var_spellings_agree N hN hcard (fun i => T i j)]

/-- On real data, with real scale and shift and a positive real ε, the normalised entry is a real number. -/
theorem normDevs_real (N : ℝ) (hN : 0 < N) (T : ι → κ → ℝ) (γ β : κ → ℝ) {e : ℝ} (he : 0 < e) (r : ι) (j : κ) :
    normDevs (fun i k => (T i k : EReal)) (fun k => (γ k : EReal)) (fun k => (β k : EReal)) (e : EReal) (N : EReal) r j
      = ((γ j * (T r j - meanR N (fun i => T i j)) * (Real.sqrt (varR N (fun i => T i j) + e))⁻¹ + β j : ℝ) : EReal) := by
  unfold normDevs
  rw [var_of_deviations N hN.ne' (fun i => T i j), mean_eq N hN.ne' (fun i => T i j), rsqrt_var_add_eps N hN _ he]
  simp only [← EReal.coe_sub, ← EReal.coe_mul, ← EReal.coe_add]

end Layer

end Cert.Lib.BatchNorm

end
-- ==== Proof.GinSpec.lean ====
/-
  The arithmetic of one graph-isomorphism block on the extended reals, and what keeps real data real.

  A block sends node features h to  norm (relu (relu (a · W1 + b1) · W2 + b2))  with a = h + (neighbour sum of h),
  the clamp relu y = max y 0 entrywise, and norm the batch normalisation over the nodes (LibBatchNorm.lean).
  Here: the clamp, the two-layer perceptron as one array over the row-affine layer, a row of the perceptron depends
  only on the same row of its input (so a row block of the output is the perceptron of the row block), and the
  closure facts "coercion of a real array" for the affine layer, the clamp, a sum over finitely many landing
  updates and a re-indexing.
-/
import Idealize.ShloMosaic.PureOps.Ideal.Laws
import Idealize.ShloMosaic.Lib.Pipeline.Value
import Idealize.ShloMosaic.Lib.ValueIdx
import proofs.«169884_j31009663877671_1_alg».proof.Proof.LibRowAffine
import proofs.«169884_j31009663877671_1_alg».proof.Proof.LibBatchNorm

noncomputable section

open scoped BigOperators

namespace Cert.Gin

open Idealize.ShloMosaic Idealize.ShloMosaic.ValueIdx Cert.RowAffine Cert.Lib.BatchNorm

variable {R R' K N M : Nat}

/-- The clamp at zero, entrywise. -/
def relu {s : Shape} (Y : s.Idx → EReal) : s.Idx → EReal := fun i => max (Y i) 0

theorem relu_apply {s : Shape} (Y : s.Idx → EReal) (i : s.Idx) : relu Y i = max (Y i) 0 := rfl

/-- The two-layer perceptron with both clamps: relu (relu (X · W1 + B1) · W2 + B2), the biases 1×N rows. -/
def mlp (X : (⟨2, ![R, K]⟩ : Shape).Idx → EReal) (W1 : (⟨2, ![K, N]⟩ : Shape).Idx → EReal)
    (B1 : (⟨2, ![1, N]⟩ : Shape).Idx → EReal) (W2 : (⟨2, ![N, M]⟩ : Shape).Idx → EReal)
    (B2 : (⟨2, ![1, M]⟩ : Shape).Idx → EReal) : (⟨2, ![R, M]⟩ : Shape).Idx → EReal :=
  relu (rowAffine (relu (rowAffine X W1 B1)) W2 B2)

/-- The head: relu (X · W1 + B1) · W2 + B2, no clamp at the end. -/
def head (X : (⟨2, ![R, K]⟩ : Shape).Idx → EReal) (W1 : (⟨2, ![K, N]⟩ : Shape).Idx → EReal)
    (B1 : (⟨2, ![1, N]⟩ : Shape).Idx → EReal) (W2 : (⟨2, ![N, M]⟩ : Shape).Idx → EReal)
    (B2 : (⟨2, ![1, M]⟩ : Shape).Idx → EReal) : (⟨2, ![R, M]⟩ : Shape).Idx → EReal :=
  rowAffine (relu (rowAffine X W1 B1)) W2 B2

/-- A row of the affine layer reads only the same row of its input. -/
theorem rowAffine_row_congr (X : (⟨2, ![R, K]⟩ : Shape).Idx → EReal) (X' : (⟨2, ![R', K]⟩ : Shape).Idx → EReal)
    (W : (⟨2, ![K, N]⟩ : Shape).Idx → EReal) (B : (⟨2, ![1, N]⟩ : Shape).Idx → EReal) (p : Fin R) (p' : Fin R')
    (h : ∀ c : Fin K, X (ix2 p c) = X' (ix2 p' c)) (q : Fin N) :
    rowAffine X W B (ix2 p q) = rowAffine X' W B (ix2 p' q) := by
  rw [rowAffine_apply, rowAffine_apply]
  exact congrArg (· + B (ix2 0 q)) (Finset.sum_congr rfl fun c _ => by rw [h c])

/-- A row of the perceptron reads only the same row of its input. -/
theorem mlp_row_congr (X : (⟨2, ![R, K]⟩ : Shape).Idx → EReal) (X' : (⟨2, ![R', K]⟩ : Shape).Idx → EReal)
    (W1 : (⟨2, ![K, N]⟩ : Shape).Idx → EReal) (B1 : (⟨2, ![1, N]⟩ : Shape).Idx → EReal)
    (W2 : (⟨2, ![N, M]⟩ : Shape).Idx → EReal) (B2 : (⟨2, ![1, M]⟩ : Shape).Idx → EReal) (p : Fin R) (p' : Fin R')
    (h : ∀ c : Fin K, X (ix2 p c) = X' (ix2 p' c)) (q : Fin M) :
    mlp X W1 B1 W2 B2 (ix2 p q) = mlp X' W1 B1 W2 B2 (ix2 p' q) := by
  unfold mlp
  rw [relu_apply, relu_apply]
  refine congrArg (max · 0) ?_
  refine rowAffine_row_congr _ _ W2 B2 p p' (fun c => ?_) q
  rw [relu_apply, relu_apply]
  exact congrArg (max · 0) (rowAffine_row_congr X X' W1 B1 p p' h c)

/-- The same for the head. -/
theorem head_row_congr (X : (⟨2, ![R, K]⟩ : Shape).Idx → EReal) (X' : (⟨2, ![R', K]⟩ : Shape).Idx → EReal)
    (W1 : (⟨2, ![K, N]⟩ : Shape).Idx → EReal) (B1 : (⟨2, ![1, N]⟩ : Shape).Idx → EReal)
    (W2 : (⟨2, ![N, M]⟩ : Shape).Idx → EReal) (B2 : (⟨2, ![1, M]⟩ : Shape).Idx → EReal) (p : Fin R) (p' : Fin R')
    (h : ∀ c : Fin K, X (ix2 p c) = X' (ix2 p' c)) (q : Fin M) :
    head X W1 B1 W2 B2 (ix2 p q) = head X' W1 B1 W2 B2 (ix2 p' q) := by
  unfold head
  refine rowAffine_row_congr _ _ W2 B2 p p' (fun c => ?_) q
  rw [relu_apply, relu_apply]
  exact congrArg (max · 0) (rowAffine_row_congr X X' W1 B1 p p' h c)

/-- The normalisation a block applies with given row statistics: γ * (T - mean) * rsqrt (var + ε) + β, the statistics,
    scale and shift 1×N rows. -/
def normRows (T : (⟨2, ![R, N]⟩ : Shape).Idx → EReal) (mean var γ β : (⟨2, ![1, N]⟩ : Shape).Idx → EReal) (ε : EReal) :
    (⟨2, ![R, N]⟩ : Shape).Idx → EReal :=
  fun i => γ (ix2 0 (i 1)) * (T i - mean (ix2 0 (i 1))) * Ideal.rsqrt (var (ix2 0 (i 1)) + ε) + β (ix2 0 (i 1))

theorem normRows_apply (T : (⟨2, ![R, N]⟩ : Shape).Idx → EReal) (mean var γ β : (⟨2, ![1, N]⟩ : Shape).Idx → EReal) (ε : EReal)
    (p : Fin R) (q : Fin N) :
    normRows T mean var γ β ε (ix2 p q)
      = γ (ix2 0 q) * (T (ix2 p q) - mean (ix2 0 q)) * Ideal.rsqrt (var (ix2 0 q) + ε) + β (ix2 0 q) := rfl

/-- The column sums of an array, as a 1×N row. -/
def colSumRow (T : (⟨2, ![R, N]⟩ : Shape).Idx → EReal) : (⟨2, ![1, N]⟩ : Shape).Idx → EReal :=
  fun i => ∑ r : Fin R, T (ix2 r (i 1))

/-- The column sums of the squares, as a 1×N row. -/
def colSqRow (T : (⟨2, ![R, N]⟩ : Shape).Idx → EReal) : (⟨2, ![1, N]⟩ : Shape).Idx → EReal :=
  fun i => ∑ r : Fin R, T (ix2 r (i 1)) * T (ix2 r (i 1))

theorem colSumRow_apply (T : (⟨2, ![R, N]⟩ : Shape).Idx → EReal) (q : Fin N) :
    colSumRow T (ix2 0 q) = ∑ r : Fin R, T (ix2 r q) := rfl

theorem colSqRow_apply (T : (⟨2, ![R, N]⟩ : Shape).Idx → EReal) (q : Fin N) :
    colSqRow T (ix2 0 q) = ∑ r : Fin R, T (ix2 r q) * T (ix2 r q) := rfl

/-! ## Real data stay real -/

theorem isReal_comp {α β : Type} {T : α → EReal} (h : IsRealArr T) (f : β → α) : IsRealArr (fun b => T (f b)) := by
  obtain ⟨g, rfl⟩ := h; exact ⟨fun b => g (f b), rfl⟩

theorem isReal_relu {s : Shape} {Y : s.Idx → EReal} (h : IsRealArr Y) : IsRealArr (relu Y) := by
  obtain ⟨g, rfl⟩ := h
  exact ⟨fun i => max (g i) 0, funext fun i => by
    rw [relu_apply, ← EReal.coe_zero, ← EReal.coe_strictMono.monotone.map_max]⟩

theorem isReal_rowAffine {X : (⟨2, ![R, K]⟩ : Shape).Idx → EReal} {W : (⟨2, ![K, N]⟩ : Shape).Idx → EReal}
    {B : (⟨2, ![1, N]⟩ : Shape).Idx → EReal} (hX : IsRealArr X) (hW : IsRealArr W) (hB : IsRealArr B) :
    IsRealArr (rowAffine X W B) := by
  obtain ⟨x, rfl⟩ := hX; obtain ⟨w, rfl⟩ := hW; obtain ⟨b, rfl⟩ := hB
  refine ⟨fun i => (∑ c : Fin K, x (ix2 (i 0) c) * w (ix2 c (i 1))) + b (ix2 0 (i 1)), funext fun i => ?_⟩
  show (∑ c : Fin K, (x (ix2 (i 0) c) : EReal) * (w (ix2 c (i 1)) : EReal)) + (b (ix2 0 (i 1)) : EReal) = _
  simp only [← EReal.coe_mul]
  rw [← coe_sum, ← EReal.coe_add]

theorem isReal_mlp {X : (⟨2, ![R, K]⟩ : Shape).Idx → EReal} {W1 : (⟨2, ![K, N]⟩ : Shape).Idx → EReal}
    {B1 : (⟨2, ![1, N]⟩ : Shape).Idx → EReal} {W2 : (⟨2, ![N, M]⟩ : Shape).Idx → EReal}
    {B2 : (⟨2, ![1, M]⟩ : Shape).Idx → EReal} (hX : IsRealArr X) (hW1 : IsRealArr W1) (hB1 : IsRealArr B1)
    (hW2 : IsRealArr W2) (hB2 : IsRealArr B2) : IsRealArr (mlp X W1 B1 W2 B2) :=
  isReal_relu (isReal_rowAffine (isReal_relu (isReal_rowAffine hX hW1 hB1)) hW2 hB2)

/-- An entry plus a sum of real data over any finite set of positions is real. -/
theorem isReal_add_sum {α β : Type} {x : α → EReal} {u : β → EReal} (hx : IsRealArr x) (hu : IsRealArr u)
    (S : α → Finset β) : IsRealArr (fun i => x i + ∑ j ∈ S i, u j) := by
  obtain ⟨g, rfl⟩ := hx; obtain ⟨v, rfl⟩ := hu
  refine ⟨fun i => g i + ∑ j ∈ S i, v j, funext fun i => ?_⟩
  have : ((∑ j ∈ S i, v j : ℝ) : EReal) = ∑ j ∈ S i, (v j : EReal) := by
    classical
    induction S i using Finset.induction_on with
    | empty => simp
    | insert a s ha ih => rw [Finset.sum_insert ha, Finset.sum_insert ha, EReal.coe_add, ih]
  rw [EReal.coe_add, this]

theorem isReal_add {α : Type} {x y : α → EReal} (hx : IsRealArr x) (hy : IsRealArr y) : IsRealArr (fun i => x i + y i) := by
  obtain ⟨g, rfl⟩ := hx; obtain ⟨v, rfl⟩ := hy
  exact ⟨fun i => g i + v i, funext fun i => (EReal.coe_add _ _)⟩

end Cert.Gin

end
-- ==== Proof.LibColReduce.lean ====
/-
  Reductions DOWN the rows of a matrix, and a single cell spread over a column, read at an index: a reduction over the
  first axis of an `[a, b]` array, read at column `u`, puts the dropped coordinate back as the row, so a column
  maximum is the fold of `max` over the column's entries and a column sum is the sum over them; a `[1, 1]` cell
  broadcast to an `[a, 1]` column reads the cell at every row.
-/
import Idealize.ShloMosaic.Lib.Pipeline.Value
import Idealize.ShloMosaic.Lib.ValueIdx
import Idealize.ShloMosaic.PureOps.Ideal.Laws

noncomputable section

namespace ColReduce

open Idealize.ShloMosaic Idealize.ShloMosaic.ValueIdx

variable {α : Type}

/-- The reduced index `u` with the first-axis coordinate `k` put back is (k, u). -/
theorem lift_col {a b : ℕ} (h : (⟨2, ![a, b]⟩ : Shape).Reduces [0] (⟨1, ![b]⟩ : Shape)) (u : Fin b)
    (k : Fin ((⟨2, ![a, b]⟩ : Shape).size 0)) : h.lift (ix1 u) k = ix2 (⟨k.val, k.isLt⟩ : Fin a) u := by
  funext c; apply Fin.ext
  fin_cases c <;> rfl

/-- A maximum over the first axis, at column `u`: the fold of `max`, from the accumulator's value, down the column. -/
theorem colMax_apply {a b : ℕ} (src : FVec Ideal ⟨2, ![a, b]⟩ .f32) (acc : BitVec 32)
    (h : (⟨2, ![a, b]⟩ : Shape).Reduces [0] (⟨1, ![b]⟩ : Shape)) (hφ : FKind.Formats .f32)
    (hacc : acc = FKind.maximumf.neutral .f32 hφ) (u : Fin b) :
    multiReduction .maximumf [0] ⟨1, ![b]⟩ src acc h hφ hacc (ix1 u)
      = (Finset.univ : Finset (Fin a)).fold max (Ideal.ofBits .f32 acc) (fun k => src (ix2 k u)) := by
  refine (Ideal.multiReduction_maximumf_single src acc h hφ hacc (ix1 u)).trans ?_
  have hf : (src ∘ h.lift (ix1 u)) = fun k : Fin a => src (ix2 k u) := funext fun k => congrArg src (lift_col h u k)
  exact congrArg (fun f => Finset.fold max (Ideal.ofBits .f32 acc) f (Finset.univ : Finset (Fin a))) hf

/-- A sum over the first axis, at column `u`: the sum down the column. -/
theorem colSum_apply {a b : ℕ} (src : FVec Ideal ⟨2, ![a, b]⟩ .f32) (acc : BitVec 32)
    (h : (⟨2, ![a, b]⟩ : Shape).Reduces [0] (⟨1, ![b]⟩ : Shape)) (hφ : FKind.Formats .f32)
    (hacc : acc = FKind.add.neutral .f32 hφ) (u : Fin b) :
    multiReduction .add [0] ⟨1, ![b]⟩ src acc h hφ hacc (ix1 u) = ∑ k : Fin a, src (ix2 k u) := by
  refine (Ideal.multiReduction_add_single src acc h hφ hacc (ix1 u)).trans ?_
  exact Finset.sum_congr rfl fun k _ => congrArg src (lift_col h u k)

/-- A `[1, 1]` cell broadcast to an `[a, 1]` column reads, at every row, the cell. -/
theorem broadcastTo_cell_col_apply {a : ℕ} (v : (⟨2, ![1, 1]⟩ : Shape).Idx → α)
    (h : (⟨2, ![1, 1]⟩ : Shape).Broadcasts ⟨2, ![a, 1]⟩) (p : Fin a) (u : Fin 1) :
    broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => rfl
  | ⟨1, _⟩ => rfl

end ColReduce

end
-- ==== Proof.Stats0Pay.lean ====
/-
  The statistics kernel's stored values at an entry: the block of features is the two-layer perceptron (two matrix
  products into a zero accumulator, each plus a bias row, each clamped at zero) of the loaded row block, and each running
  row is what it held plus the column sums of the block.
-/
import proofs.«169884_j31009663877671_1_alg».proof.Proof.Gen.KernelIdeal.Skeleton
import proofs.«169884_j31009663877671_1_alg».proof.Proof.GinSpec
import proofs.«169884_j31009663877671_1_alg».proof.Proof.LibColReduce
import Idealize.ShloMosaic.Lib.Pipeline.Value
import Idealize.ShloMosaic.Lib.ValueIdx

noncomputable section

namespace Cert.KernelIdeal.Stats0

open Cert.KernelIdeal Cert.KernelIdeal.Gen Cert.Gin Cert.RowAffine
open Idealize.ShloMosaic Idealize.ShloMosaic.TcCoe Idealize.SL.Sem Idealize.ShloMosaic.ValueIdx

/-- The zero word is zero. -/
theorem zero_word : (Scalar.ofBits (F := Ideal) .f32 0x00000000#32 : EReal) = 0 := Ideal.ofBits_zero_f32

/-- The body's stored block of features: the two-layer perceptron of the loaded row block. -/
theorem payT_eq (x0 : Vec Ideal S5000x128 .f32) (x1 : Vec Ideal S128x64 .f32) (x2 : Vec Ideal S1x64 .f32)
    (x3 : Vec Ideal S64x64 .f32) (x4 : Vec Ideal S1x64 .f32) :
    k0_pay4 (F := Ideal) x0 x1 x2 x3 x4 = mlp x0 x1 x2 x3 x4 := by
  funext j
  obtain ⟨p, q, rfl⟩ : ∃ (p : Fin 5000) (q : Fin 64), j = ix2 p q := ⟨j 0, j 1, eq_ix2 j⟩
  unfold k0_pay4
  rw [shapeCast_self x0, maximumf_apply, broadcast_apply, zero_word]
  unfold mlp
  rw [relu_apply]
  refine congrArg (max · 0) ?_
  refine (RowAffine.kernel_apply _ rfl (by decide) none _ x3 x4 _ _ _ p q).trans ?_
  refine rowAffine_row_congr _ _ x3 x4 p p (fun c => ?_) q
  rw [maximumf_apply, broadcast_apply, relu_apply]
  exact congrArg (max · 0) (RowAffine.kernel_apply _ rfl (by decide) none x0 x1 x2 _ _ _ p c)

/-- A length-64 vector viewed as a 1×64 row, at (0, q). -/
theorem row_of_vec (v : Vec Ideal S64 .f32) (q : Fin 64) :
    shapeCast S1x64 v shapeCasts_S64_S1x64 (ix2 0 q) = v (ix1 q) := RowVector.shapeCast_row v _ q

/-- The running column sums after a block: what was there plus the block's column sums. -/
theorem paySum_apply (T : Vec Ideal S5000x64 .f32) (acc : Vec Ideal S1x64 .f32) (q : Fin 64) :
    addf (shapeCast S1x64 acc shapeCasts_S1x64_S1x64)
        (shapeCast S1x64 (multiReduction (F := Ideal) .add [0] S64 T 0x00000000#32 reduces_S5000x64_S64 (.inl rfl) rfl) shapeCasts_S64_S1x64)
        (ix2 0 q)
      = acc (ix2 0 q) + ∑ p : Fin 5000, T (ix2 p q) := by
  rw [addf_apply, shapeCast_self, row_of_vec]
  exact congrArg (acc (ix2 0 q) + ·) (ColReduce.colSum_apply T 0x00000000#32 _ _ _ q)

end Cert.KernelIdeal.Stats0

end
-- ==== Proof.LibBlockSums.lean ====
/-
  Sums taken block by block.

  For f on the first M naturals (as Fin M), the partial sum over the first k positions; all M positions give the whole
  sum, and b more positions add the sum over the next block of b. So an accumulator that starts at the first block's
  sum and adds each later block's sum ends, after the last block, at the whole sum. No finiteness is involved: these
  are regroupings of a finite sum in a commutative monoid.
-/
import Mathlib.Algebra.BigOperators.Fin
import Mathlib.Algebra.BigOperators.Intervals

open scoped BigOperators

namespace Cert.Lib.BlockSums

variable {α : Type} [AddCommMonoid α] {M : ℕ}

/-- f extended by zero to all naturals. -/
def ext (f : Fin M → α) (r : ℕ) : α := if h : r < M then f ⟨r, h⟩ else 0

/-- The sum of f over the first k positions. -/
def psum (f : Fin M → α) (k : ℕ) : α := ∑ r ∈ Finset.range k, ext f r

theorem psum_zero (f : Fin M → α) : psum f 0 = 0 := by simp [psum]

/-- All M positions: the whole sum. -/
theorem psum_full (f : Fin M → α) : psum f M = ∑ r : Fin M, f r := by
  unfold psum
  rw [Finset.sum_range]
  exact Finset.sum_congr rfl fun r _ => by unfold ext; rw [dif_pos r.isLt]

/-- b more positions add the next block's sum. -/
theorem psum_add (f : Fin M → α) (k b : ℕ) (h : k + b ≤ M) :
    psum f (k + b) = psum f k + ∑ p : Fin b, f ⟨k + p.val, by have := p.isLt; omega⟩ := by
  unfold psum
  rw [Finset.sum_range_add]
  refine congrArg (_ + ·) ?_
  rw [Finset.sum_range]
  refine Finset.sum_congr rfl fun p _ => ?_
  unfold ext
  rw [dif_pos (by have := p.isLt; omega)]

/-- The first block alone. -/
theorem psum_first (f : Fin M → α) (b : ℕ) (h : b ≤ M) :
    psum f b = ∑ p : Fin b, f ⟨p.val, by have := p.isLt; omega⟩ := by
  unfold psum
  rw [Finset.sum_range]
  refine Finset.sum_congr rfl fun p _ => ?_
  unfold ext
  rw [dif_pos (by have := p.isLt; omega)]

end Cert.Lib.BlockSums
-- ==== Proof.Stats0Acc.lean ====
/-
  The statistics kernel over its twenty grid points: after point n the feature block is the perceptron of row block n,
  and the two running rows hold the column sums of the features, and of their squares, over the first 5000 (n + 1) rows.
-/
import proofs.«169884_j31009663877671_1_alg».proof.Proof.Gen.KernelIdeal.Frame
import proofs.«169884_j31009663877671_1_alg».proof.Proof.Stats0Val
import proofs.«169884_j31009663877671_1_alg».proof.Proof.Stats0Pay
import proofs.«169884_j31009663877671_1_alg».proof.Proof.LibBlockSums
import Idealize.ShloMosaic.Lib.Pipeline.Value
import Idealize.ShloMosaic.Lib.ValueIdx

noncomputable section

namespace Cert.KernelIdeal.Stats0

open Cert.KernelIdeal Cert.KernelIdeal.Gen Cert.Gin Cert.RowAffine Cert.Lib.BlockSums
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps over the grid: the two row windows move with the point, every other window stays. -/
theorem idx_facts : ∀ t : Fin cfg0.N, win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

theorem lt_rows (t : Fin cfg0.N) (p : Fin 5000) : 5000 * t.val + p.val < 100000 := by
  have hN : cfg0.N = 20 := N_0
  have := t.isLt; have := p.isLt; omega

/-- Row block t of the aggregated features, read at (p, k). -/
theorem rdA (c : Dev nD) (t : Fin cfg0.N) (p : Fin 5000) (k : Fin 128) :
    iblk0 V c 0 t (ix2 p k) = (V c (Pipeline.arrRef spec0 0) : S100000x128.Idx → EReal) (ix2 ⟨5000 * t.val + p.val, lt_rows t p⟩ k) := by
  obtain ⟨e0, e1, -⟩ := idx_facts t
  unfold iblk0
  rw [View.read_apply]
  refine congrArg (V c (Pipeline.arrRef spec0 0)) ?_
  funext a; apply Fin.ext
  match a with
  | ⟨0, _⟩ => show win0_0.index t (0 : Fin 2) * 5000 + 1 * p.val = 5000 * t.val + p.val; omega
  | ⟨1, _⟩ => show win0_0.index t (1 : Fin 2) * 128 + 1 * k.val = k.val; omega

theorem rdW1 (c : Dev nD) (t : Fin cfg0.N) : iblk0 V c 1 t = (V c (Pipeline.arrRef spec0 1) : S128x64.Idx → EReal) := by
  obtain ⟨-, -, -, -, e0, e1, -⟩ := idx_facts t
  funext j
  unfold iblk0
  rw [View.read_apply]
  refine congrArg (V c (Pipeline.arrRef spec0 1)) ?_
  funext a; apply Fin.ext
  match a with
  | ⟨0, _⟩ => show win0_1.index t (0 : Fin 2) * 128 + 1 * (j 0).val = (j 0).val; omega
  | ⟨1, _⟩ => show win0_1.index t (1 : Fin 2) * 64 + 1 * (j 1).val = (j 1).val; omega

theorem rdB1 (c : Dev nD) (t : Fin cfg0.N) : iblk0 V c 2 t = (V c (Pipeline.arrRef spec0 2) : S1x64.Idx → EReal) := by
  obtain ⟨-, -, -, -, -, -, e0, e1, -⟩ := idx_facts t
  funext j
  unfold iblk0
  rw [View.read_apply]
  refine congrArg (V c (Pipeline.arrRef spec0 2)) ?_
  funext a; apply Fin.ext
  match a with
  | ⟨0, _⟩ => show win0_2.index t (0 : Fin 2) * 1 + 1 * (j 0).val = (j 0).val; omega
  | ⟨1, _⟩ => show win0_2.index t (1 : Fin 2) * 64 + 1 * (j 1).val = (j 1).val; omega

theorem rdW2 (c : Dev nD) (t : Fin cfg0.N) : iblk0 V c 3 t = (V c (Pipeline.arrRef spec0 3) : S64x64.Idx → EReal) := by
  obtain ⟨-, -, -, -, -, -, -, -, e0, e1, -⟩ := idx_facts t
  funext j
  unfold iblk0
  rw [View.read_apply]
  refine congrArg (V c (Pipeline.arrRef spec0 3)) ?_
  funext a; apply Fin.ext
  match a with
  | ⟨0, _⟩ => show win0_3.index t (0 : Fin 2) * 64 + 1 * (j 0).val = (j 0).val; omega
  | ⟨1, _⟩ => show win0_3.index t (1 : Fin 2) * 64 + 1 * (j 1).val = (j 1).val; omega

theorem rdB2 (c : Dev nD) (t : Fin cfg0.N) : iblk0 V c 4 t = (V c (Pipeline.arrRef spec0 4) : S1x64.Idx → EReal) := by
  obtain ⟨-, -, -, -, -, -, -, -, -, -, e0, e1, -⟩ := idx_facts t
  funext j
  unfold iblk0
  rw [View.read_apply]
  refine congrArg (V c (Pipeline.arrRef spec0 4)) ?_
  funext a; apply Fin.ext
  match a with
  | ⟨0, _⟩ => show win0_4.index t (0 : Fin 2) * 1 + 1 * (j 0).val = (j 0).val; omega
  | ⟨1, _⟩ => show win0_4.index t (1 : Fin 2) * 64 + 1 * (j 1).val = (j 1).val; omega

/-- The feature array: the perceptron of the aggregated features, row by row. -/
def Tfull (c : Dev nD) : S100000x64.Idx → EReal :=
  mlp (V c (Pipeline.arrRef spec0 0) : S100000x128.Idx → EReal) (V c (Pipeline.arrRef spec0 1) : S128x64.Idx → EReal)
    (V c (Pipeline.arrRef spec0 2) : S1x64.Idx → EReal) (V c (Pipeline.arrRef spec0 3) : S64x64.Idx → EReal)
    (V c (Pipeline.arrRef spec0 4) : S1x64.Idx → EReal)

/-- The block of features point t stores. -/
def Tblk (c : Dev nD) (t : Fin cfg0.N) : S5000x64.Idx → EReal :=
  k0_pay4 (F := Ideal) (iblk0 V c 0 t) (iblk0 V c 1 t) (iblk0 V c 2 t) (iblk0 V c 3 t) (iblk0 V c 4 t)

/-- It is row block t of the feature array. -/
theorem Tblk_apply (c : Dev nD) (t : Fin cfg0.N) (p : Fin 5000) (q : Fin 64) :
    Tblk V c t (ix2 p q) = Tfull V c (ix2 ⟨5000 * t.val + p.val, lt_rows t p⟩ q) := by
  unfold Tblk Tfull
  refine (congrFun (payT_eq _ _ _ _ _) _).trans ?_
  rw [rdW1 V c t, rdB1 V c t, rdW2 V c t, rdB2 V c t]
  exact mlp_row_congr _ _ _ _ _ _ p ⟨5000 * t.val + p.val, lt_rows t p⟩ (fun k => rdA V c t p k) q

/-- Column sums of the features over the first k rows, as a 1×64 row. -/
def Srow (c : Dev nD) (k : ℕ) : S1x64.Idx → EReal :=
  fun i => psum (fun r : Fin 100000 => Tfull V c (ix2 r (i 1))) k

/-- Column sums of the squared features over the first k rows, as a 1×64 row. -/
def Qrow (c : Dev nD) (k : ℕ) : S1x64.Idx → EReal :=
  fun i => psum (fun r : Fin 100000 => Tfull V c (ix2 r (i 1)) * Tfull V c (ix2 r (i 1))) k

theorem Srow_apply (c : Dev nD) (k : ℕ) (q : Fin 64) :
    Srow V c k (ix2 0 q) = psum (fun r : Fin 100000 => Tfull V c (ix2 r q)) k := rfl

theorem Qrow_apply (c : Dev nD) (k : ℕ) (q : Fin 64) :
    Qrow V c k (ix2 0 q) = psum (fun r : Fin 100000 => Tfull V c (ix2 r q) * Tfull V c (ix2 r q)) k := rfl

theorem row_idx (i : S1x64.Idx) : ∃ q : Fin 64, i = ix2 0 q := by
  obtain ⟨z, q, rfl⟩ : ∃ (z : Fin 1) (q : Fin 64), i = ix2 z q := ⟨i 0, i 1, eq_ix2 i⟩
  obtain rfl : z = 0 := Subsingleton.elim _ _
  exact ⟨q, rfl⟩

/-- The running sum row after a point: what was there plus the column sums of the point's feature block. -/
theorem sumRow_apply (c : Dev nD) (t : Fin cfg0.N) (acc : Vec Ideal S1x64 .f32) (q : Fin 64) :
    k0_pay5 (F := Ideal) (iblk0 V c 0 t) (iblk0 V c 1 t) (iblk0 V c 2 t) (iblk0 V c 3 t) (iblk0 V c 4 t) acc (ix2 0 q)
      = acc (ix2 0 q) + ∑ p : Fin 5000, Tfull V c (ix2 ⟨5000 * t.val + p.val, lt_rows t p⟩ q) := by
  unfold k0_pay5
  refine (paySum_apply _ _ q).trans ?_
  exact congrArg (acc (ix2 0 q) + ·) (Finset.sum_congr rfl fun p _ => Tblk_apply V c t p q)

/-- The running sum-of-squares row after a point. -/
theorem sqRow_apply (c : Dev nD) (t : Fin cfg0.N) (acc : Vec Ideal S1x64 .f32) (q : Fin 64) :
    k0_pay1 (F := Ideal) (k0_pay4 (iblk0 V c 0 t) (iblk0 V c 1 t) (iblk0 V c 2 t) (iblk0 V c 3 t) (iblk0 V c 4 t)) acc (ix2 0 q)
      = acc (ix2 0 q) + ∑ p : Fin 5000, Tfull V c (ix2 ⟨5000 * t.val + p.val, lt_rows t p⟩ q)
          * Tfull V c (ix2 ⟨5000 * t.val + p.val, lt_rows t p⟩ q) := by
  unfold k0_pay1
  refine (paySum_apply _ _ q).trans ?_
  refine congrArg (acc (ix2 0 q) + ·) (Finset.sum_congr rfl fun p _ => ?_)
  rw [mulf_apply]
  exact congrArg (fun z => z * z) (Tblk_apply V c t p q)

/-- After point n: the feature block of row block n, and the two rows summed over the first 5000 (n + 1) rows. -/
theorem outsAt_eq (c : Dev nD) : ∀ (n : ℕ) (h : n < cfg0.N),
    outsAt0 V c n h = (Tblk V c ⟨n, h⟩, Srow V c (5000 * (n + 1)), Qrow V c (5000 * (n + 1)))
  | 0, h => by
    rw [outsAt0_A V c ⟨0, h⟩ rfl, outA5, outA6, outA7]
    refine Prod.ext rfl (Prod.ext ?_ ?_) <;> dsimp only
    · funext i
      obtain ⟨q, rfl⟩ := row_idx i
      refine (sumRow_apply V c ⟨0, h⟩ _ q).trans ?_
      unfold k0_pay2
      rw [broadcast_apply, zero_word, zero_add, Srow_apply, show 5000 * (0 + 1) = 5000 from by norm_num,
        psum_first _ 5000 (by norm_num)]
      exact Finset.sum_congr rfl fun p _ => congrArg (fun r => Tfull V c (ix2 r q)) (Fin.ext (by simp))
    · funext i
      obtain ⟨q, rfl⟩ := row_idx i
      refine (sqRow_apply V c ⟨0, h⟩ _ q).trans ?_
      unfold k0_pay3
      rw [broadcast_apply, zero_word, zero_add, Qrow_apply, show 5000 * (0 + 1) = 5000 from by norm_num,
        psum_first _ 5000 (by norm_num)]
      exact Finset.sum_congr rfl fun p _ =>
        congrArg (fun r => Tfull V c (ix2 r q) * Tfull V c (ix2 r q)) (Fin.ext (by simp))
  | n + 1, h => by
    have hN : cfg0.N = 20 := N_0
    have hB : ¬(⟨n + 1, h⟩ : Fin cfg0.N).val % 20 = 0 := by dsimp only; omega
    have hp : outsAt0 V c ((⟨n + 1, h⟩ : Fin cfg0.N).val - 1) (Nat.lt_of_le_of_lt (Nat.sub_le _ _) h)
        = (Tblk V c ⟨n, Nat.lt_of_succ_lt h⟩, Srow V c (5000 * (n + 1)), Qrow V c (5000 * (n + 1))) :=
      outsAt_eq c n (Nat.lt_of_succ_lt h)
    rw [outsAt0_B V c ⟨n + 1, h⟩ hB, hp, outB5, outB6, outB7]
    refine Prod.ext rfl (Prod.ext ?_ ?_) <;> dsimp only
    · funext i
      obtain ⟨q, rfl⟩ := row_idx i
      refine (sumRow_apply V c ⟨n + 1, h⟩ _ q).trans ?_
      rw [Srow_apply, Srow_apply, show 5000 * (n + 1 + 1) = 5000 * (n + 1) + 5000 from by ring,
        psum_add _ _ 5000 (by omega)]
    · funext i
      obtain ⟨q, rfl⟩ := row_idx i
      refine (sqRow_apply V c ⟨n + 1, h⟩ _ q).trans ?_
      rw [Qrow_apply, Qrow_apply, show 5000 * (n + 1 + 1) = 5000 * (n + 1) + 5000 from by ring,
        psum_add _ _ 5000 (by omega)]

end Cert.KernelIdeal.Stats0

end
-- ==== Proof.Stats0Fin.lean ====
/-
  The three arrays the statistics region leaves: the features (the perceptron of the aggregated features, all rows),
  and the two 1×64 rows of column sums of the features and of their squares over all rows.
-/
import proofs.«169884_j31009663877671_1_alg».proof.Proof.Stats0Acc

noncomputable section

namespace Cert.KernelIdeal.Stats0

open Cert.KernelIdeal Cert.KernelIdeal.Gen Cert.Gin Cert.RowAffine Cert.Lib.BlockSums
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The column sums of the features over all rows, as a 1×64 row. -/
def Ssum (c : Dev nD) : S1x64.Idx → EReal := colSumRow (Tfull V c)

/-- The column sums of the squared features over all rows, as a 1×64 row. -/
def Qsum (c : Dev nD) : S1x64.Idx → EReal := colSqRow (Tfull V c)

theorem Ssum_apply (c : Dev nD) (q : Fin 64) : Ssum V c (ix2 0 q) = ∑ r : Fin 100000, Tfull V c (ix2 r q) := rfl
theorem Qsum_apply (c : Dev nD) (q : Fin 64) :
    Qsum V c (ix2 0 q) = ∑ r : Fin 100000, Tfull V c (ix2 r q) * Tfull V c (ix2 r q) := rfl

/-- What point t writes back for the features is row block t of the feature array. -/
theorem flushed_eq5 (c : Dev nD) (t : Fin cfg0.N) :
    (dat0 V c).flushed 5 t = ((cfg0.win 5).blk t).view.read (Elt Ideal) (Tfull V c) := by
  show (cfg0.win 5).cut (grid0.coords t) ((dat0 V c).after 5 t) = _
  rw [after0_5, outsAt_eq V c t.val t.isLt]
  dsimp only
  obtain ⟨-, -, e2, e3, -⟩ := idx_facts t
  funext j
  obtain ⟨p, q, rfl⟩ : ∃ (p : Fin 5000) (q : Fin 64), j = ix2 p q := ⟨j 0, j 1, eq_ix2 j⟩
  have he : ((cfg0.win 5).blk t).view.emb (ix2 p q) = (ix2 ⟨5000 * t.val + p.val, lt_rows t p⟩ q : S100000x64.Idx) := by
    funext a; apply Fin.ext
    match a with
    | ⟨0, _⟩ => show win0_5.index t (0 : Fin 2) * 5000 + 1 * p.val = 5000 * t.val + p.val; omega
    | ⟨1, _⟩ => show win0_5.index t (1 : Fin 2) * 64 + 1 * q.val = q.val; omega
  rw [View.read_apply, he]
  exact (Tblk_apply V c t p q).trans (cast_eq _ _).symm

theorem mem_blk5 (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v21_0).slice (win0_5.rect t)).set ↔ _
  rw [View.set_slice_whole, Rect.mem_set_unit]
  exact Iff.rfl

/-- The feature array after the region. -/
theorem final5 (c : Dev nD) : (dat0 V c).arrAt 5 cfg0.N = Tfull V c :=
  (dat0 V c).arrAt_eq_of_cover 5 (Tfull V c) (fun t _ => flushed_eq5 V c t) fun i => by
    have hN : cfg0.N = 20 := N_0
    have hi0 : (i 0).val < 100000 := (i 0).isLt
    have hi1 : (i 1).val < 64 := (i 1).isLt
    refine ⟨⟨(i 0).val / 5000, by omega⟩, flush0_5 _, ?_⟩
    rw [mem_blk5]
    obtain ⟨-, -, e2, e3, -⟩ := idx_facts ⟨(i 0).val / 5000, by omega⟩
    intro a
    match a with
    | ⟨0, _⟩ => show win0_5.index _ (0 : Fin 2) * 5000 ≤ (i 0).val ∧ (i 0).val < win0_5.index _ (0 : Fin 2) * 5000 + 5000; rw [e2]; dsimp only; omega
    | ⟨1, _⟩ => show win0_5.index _ (1 : Fin 2) * 64 ≤ (i 1).val ∧ (i 1).val < win0_5.index _ (1 : Fin 2) * 64 + 64; rw [e3]; omega

/-- What the last point writes back for window 6: the whole row of the column sums of the features. -/
theorem flushed_eq6 (c : Dev nD) (t : Fin cfg0.N) (hf : (cfg0.win 6).flush t = true) :
    (dat0 V c).flushed 6 t = ((cfg0.win 6).blk t).view.read (Elt Ideal) (Ssum V c) := by
  have hN : cfg0.N = 20 := N_0
  have h19 : t.val = 19 := by have := (flush0_6 t).mp hf; have := t.isLt; omega
  show (cfg0.win 6).cut (grid0.coords t) ((dat0 V c).after 6 t) = _
  rw [after0_6, outsAt_eq V c t.val t.isLt]
  dsimp only
  obtain ⟨-, -, -, -, -, -, -, -, -, -, -, -, e0, e1, -⟩ := idx_facts t
  funext j
  obtain ⟨q, rfl⟩ := row_idx j
  have he : ((cfg0.win 6).blk t).view.emb (ix2 0 q) = (ix2 0 q : S1x64.Idx) := by
    funext a; apply Fin.ext
    match a with
    | ⟨0, _⟩ => show win0_6.index t (0 : Fin 2) * 1 + 1 * 0 = 0; omega
    | ⟨1, _⟩ => show win0_6.index t (1 : Fin 2) * 64 + 1 * q.val = q.val; omega
  rw [View.read_apply, he]
  refine Eq.trans ?_ (cast_eq _ _).symm
  show Srow V c (5000 * (t.val + 1)) (ix2 0 q) = Ssum V c (ix2 0 q)
  rw [Srow_apply, Ssum_apply, h19, show 5000 * (19 + 1) = 100000 from by norm_num, psum_full]

theorem mem_blk6 (t : Fin cfg0.N) (i : S1x64.Idx) :
    i ∈ ((cfg0.win 6).blk t).view.set ↔ ∀ a : Fin 2, win0_6.index t a * S1x64.size a ≤ (i a).val ∧ (i a).val < win0_6.index t a * S1x64.size a + S1x64.size a := by
  show i ∈ ((View.whole main_v21_1).slice (win0_6.rect t)).set ↔ _
  rw [View.set_slice_whole, Rect.mem_set_unit]
  exact Iff.rfl

/-- The row after the region: the column sums of the features. -/
theorem final6 (c : Dev nD) : (dat0 V c).arrAt 6 cfg0.N = Ssum V c :=
  (dat0 V c).arrAt_eq_of_cover 6 (Ssum V c) (fun t hf => flushed_eq6 V c t hf) fun i => by
    have hN : cfg0.N = 20 := N_0
    have hi0 : (i 0).val < 1 := (i 0).isLt
    have hi1 : (i 1).val < 64 := (i 1).isLt
    refine ⟨⟨19, by omega⟩, (flush0_6 _).mpr rfl, ?_⟩
    rw [mem_blk6]
    obtain ⟨-, -, -, -, -, -, -, -, -, -, -, -, e0, e1, -⟩ := idx_facts ⟨19, by omega⟩
    intro a
    match a with
    | ⟨0, _⟩ => show win0_6.index _ (0 : Fin 2) * 1 ≤ (i 0).val ∧ (i 0).val < win0_6.index _ (0 : Fin 2) * 1 + 1; rw [e0]; omega
    | ⟨1, _⟩ => show win0_6.index _ (1 : Fin 2) * 64 ≤ (i 1).val ∧ (i 1).val < win0_6.index _ (1 : Fin 2) * 64 + 64; rw [e1]; omega

/-- What the last point writes back for window 7: the whole row of the column sums of the squared features. -/
theorem flushed_eq7 (c : Dev nD) (t : Fin cfg0.N) (hf : (cfg0.win 7).flush t = true) :
    (dat0 V c).flushed 7 t = ((cfg0.win 7).blk t).view.read (Elt Ideal) (Qsum V c) := by
  have hN : cfg0.N = 20 := N_0
  have h19 : t.val = 19 := by have := (flush0_7 t).mp hf; have := t.isLt; omega
  show (cfg0.win 7).cut (grid0.coords t) ((dat0 V c).after 7 t) = _
  rw [after0_7, outsAt_eq V c t.val t.isLt]
  dsimp only
  obtain ⟨-, -, -, -, -, -, -, -, -, -, -, -, -, -, e0, e1⟩ := idx_facts t
  funext j
  obtain ⟨q, rfl⟩ := row_idx j
  have he : ((cfg0.win 7).blk t).view.emb (ix2 0 q) = (ix2 0 q : S1x64.Idx) := by
    funext a; apply Fin.ext
    match a with
    | ⟨0, _⟩ => show win0_7.index t (0 : Fin 2) * 1 + 1 * 0 = 0; omega
    | ⟨1, _⟩ => show win0_7.index t (1 : Fin 2) * 64 + 1 * q.val = q.val; omega
  rw [View.read_apply, he]
  refine Eq.trans ?_ (cast_eq _ _).symm
  show Qrow V c (5000 * (t.val + 1)) (ix2 0 q) = Qsum V c (ix2 0 q)
  rw [Qrow_apply, Qsum_apply, h19, show 5000 * (19 + 1) = 100000 from by norm_num, psum_full]

theorem mem_blk7 (t : Fin cfg0.N) (i : S1x64.Idx) :
    i ∈ ((cfg0.win 7).blk t).view.set ↔ ∀ a : Fin 2, win0_7.index t a * S1x64.size a ≤ (i a).val ∧ (i a).val < win0_7.index t a * S1x64.size a + S1x64.size a := by
  show i ∈ ((View.whole main_v21_2).slice (win0_7.rect t)).set ↔ _
  rw [View.set_slice_whole, Rect.mem_set_unit]
  exact Iff.rfl

/-- The row after the region: the column sums of the squared features. -/
theorem final7 (c : Dev nD) : (dat0 V c).arrAt 7 cfg0.N = Qsum V c :=
  (dat0 V c).arrAt_eq_of_cover 7 (Qsum V c) (fun t hf => flushed_eq7 V c t hf) fun i => by
    have hN : cfg0.N = 20 := N_0
    have hi0 : (i 0).val < 1 := (i 0).isLt
    have hi1 : (i 1).val < 64 := (i 1).isLt
    refine ⟨⟨19, by omega⟩, (flush0_7 _).mpr rfl, ?_⟩
    rw [mem_blk7]
    obtain ⟨-, -, -, -, -, -, -, -, -, -, -, -, -, -, e0, e1⟩ := idx_facts ⟨19, by omega⟩
    intro a
    match a with
    | ⟨0, _⟩ => show win0_7.index _ (0 : Fin 2) * 1 ≤ (i 0).val ∧ (i 0).val < win0_7.index _ (0 : Fin 2) * 1 + 1; rw [e0]; omega
    | ⟨1, _⟩ => show win0_7.index _ (1 : Fin 2) * 64 ≤ (i 1).val ∧ (i 1).val < win0_7.index _ (1 : Fin 2) * 64 + 64; rw [e1]; omega

end Cert.KernelIdeal.Stats0

end
-- ==== Proof.Norm1.lean ====
/-
  The normalisation region: every block of 5000 rows is sent to γ * (t - mean) * rsqrt (var + ε) + β with the four 1×64
  rows the same at every grid point, and the twenty blocks tile the array; so the array the region leaves is that
  normalisation of the whole feature array, entry by entry.
-/
import proofs.«169884_j31009663877671_1_alg».proof.Proof.Gen.KernelIdeal.Frame
import proofs.«169884_j31009663877671_1_alg».proof.Proof.GinSpec
import Idealize.ShloMosaic.Lib.Pipeline.Value
import Idealize.ShloMosaic.Lib.ValueIdx

noncomputable section

namespace Cert.KernelIdeal.Norm1

open Cert.KernelIdeal Cert.KernelIdeal.Gen Cert.Gin
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- The body's one store at an entry. -/
theorem pay_apply (x : Vec Ideal S5000x64 .f32) (var γ mean β : Vec Ideal S1x64 .f32) (p : Fin 5000) (q : Fin 64) :
    k1_pay1 (F := Ideal) x var γ mean β (ix2 p q)
      = normRows x mean var γ β (Ideal.ofBits .f32 0x3727C5AC#32) (ix2 p q) := by
  unfold k1_pay1
  simp only [shapeCast_self]
  rw [normRows_apply, addf_apply, mulf_apply, mulf_apply, subf_apply]
  rw [RowVector.broadcastTo_row (by decide), RowVector.broadcastTo_row (by decide), RowVector.broadcastTo_row (by decide),
    RowVector.broadcastTo_row (by decide)]
  rfl

variable (V : (c : Dev nD) → (b : Ref sig .tc) → Buf (Elt Ideal) ((c : Thread nD τ).loc b))

/-- The printed index maps over the grid: the row windows move with the point, the 1×64 rows stay. -/
theorem idx_facts : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

theorem lt_rows (t : Fin cfg1.N) (p : Fin 5000) : 5000 * t.val + p.val < 100000 := by
  have hN : cfg1.N = 20 := N_1
  have := t.isLt; have := p.isLt; omega

/-- Row block t of the data window, read at (p, q). -/
theorem rd0 (c : Dev nD) (t : Fin cfg1.N) (p : Fin 5000) (q : Fin 64) :
    iblk1 V c 0 t (ix2 p q) = (V c (Pipeline.arrRef spec1 0) : S100000x64.Idx → EReal) (ix2 ⟨5000 * t.val + p.val, lt_rows t p⟩ q) := by
  obtain ⟨e0, e1, -⟩ := idx_facts t
  unfold iblk1
  rw [View.read_apply]
  refine congrArg (V c (Pipeline.arrRef spec1 0)) ?_
  funext a; apply Fin.ext
  match a with
  | ⟨0, _⟩ => show win1_0.index t (0 : Fin 2) * 5000 + 1 * p.val = 5000 * t.val + p.val; omega
  | ⟨1, _⟩ => show win1_0.index t (1 : Fin 2) * 64 + 1 * q.val = q.val; omega

/-- The 1×64 row of window 1, read at (0, q): the whole row is the block at every point. -/
theorem rd1 (c : Dev nD) (t : Fin cfg1.N) (q : Fin 64) :
    iblk1 V c 1 t (ix2 0 q) = (V c (Pipeline.arrRef spec1 1) : S1x64.Idx → EReal) (ix2 0 q) := by
  obtain ⟨-, -, -, -, e0, e1, -⟩ := idx_facts t
  unfold iblk1
  rw [View.read_apply]
  refine congrArg (V c (Pipeline.arrRef spec1 1)) ?_
  funext a; apply Fin.ext
  match a with
  | ⟨0, _⟩ => show win1_1.index t (0 : Fin 2) * 1 + 1 * 0 = 0; omega
  | ⟨1, _⟩ => show win1_1.index t (1 : Fin 2) * 64 + 1 * q.val = q.val; omega

/-- The 1×64 row of window 2, read at (0, q): the whole row is the block at every point. -/
theorem rd2 (c : Dev nD) (t : Fin cfg1.N) (q : Fin 64) :
    iblk1 V c 2 t (ix2 0 q) = (V c (Pipeline.arrRef spec1 2) : S1x64.Idx → EReal) (ix2 0 q) := by
  obtain ⟨-, -, -, -, -, -, e0, e1, -⟩ := idx_facts t
  unfold iblk1
  rw [View.read_apply]
  refine congrArg (V c (Pipeline.arrRef spec1 2)) ?_
  funext a; apply Fin.ext
  match a with
  | ⟨0, _⟩ => show win1_2.index t (0 : Fin 2) * 1 + 1 * 0 = 0; omega
  | ⟨1, _⟩ => show win1_2.index t (1 : Fin 2) * 64 + 1 * q.val = q.val; omega

/-- The 1×64 row of window 3, read at (0, q): the whole row is the block at every point. -/
theorem rd3 (c : Dev nD) (t : Fin cfg1.N) (q : Fin 64) :
    iblk1 V c 3 t (ix2 0 q) = (V c (Pipeline.arrRef spec1 3) : S1x64.Idx → EReal) (ix2 0 q) := by
  obtain ⟨-, -, -, -, -, -, -, -, e0, e1, -⟩ := idx_facts t
  unfold iblk1
  rw [View.read_apply]
  refine congrArg (V c (Pipeline.arrRef spec1 3)) ?_
  funext a; apply Fin.ext
  match a with
  | ⟨0, _⟩ => show win1_3.index t (0 : Fin 2) * 1 + 1 * 0 = 0; omega
  | ⟨1, _⟩ => show win1_3.index t (1 : Fin 2) * 64 + 1 * q.val = q.val; omega

/-- The 1×64 row of window 4, read at (0, q): the whole row is the block at every point. -/
theorem rd4 (c : Dev nD) (t : Fin cfg1.N) (q : Fin 64) :
    iblk1 V c 4 t (ix2 0 q) = (V c (Pipeline.arrRef spec1 4) : S1x64.Idx → EReal) (ix2 0 q) := by
  obtain ⟨-, -, -, -, -, -, -, -, -, -, e0, e1⟩ := idx_facts t
  unfold iblk1
  rw [View.read_apply]
  refine congrArg (V c (Pipeline.arrRef spec1 4)) ?_
  funext a; apply Fin.ext
  match a with
  | ⟨0, _⟩ => show win1_4.index t (0 : Fin 2) * 1 + 1 * 0 = 0; omega
  | ⟨1, _⟩ => show win1_4.index t (1 : Fin 2) * 64 + 1 * q.val = q.val; omega

/-- The array the region leaves in its output window where covered: the normalisation of the data array by the
    four rows, entry by entry. -/
abbrev G (c : Dev nD) : S100000x64.Idx → EReal :=
  normRows (V c (Pipeline.arrRef spec1 0)) (V c (Pipeline.arrRef spec1 1)) (V c (Pipeline.arrRef spec1 2))
    (V c (Pipeline.arrRef spec1 3)) (V c (Pipeline.arrRef spec1 4)) (Ideal.ofBits .f32 0x3727C5AC#32)

/-- What point t writes back is block t of that array. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x64) hz, View.ld_unit_zero (S := S1x64) hz]
  funext j
  obtain ⟨p, q, rfl⟩ : ∃ (p : Fin 5000) (q : Fin 64), j = ix2 p q := ⟨j 0, j 1, eq_ix2 j⟩
  refine (pay_apply _ _ _ _ _ p q).trans ?_
  obtain ⟨-, -, e2, e3, -⟩ := idx_facts t
  have he : ((cfg1.win 5).blk t).view.emb (ix2 p q) = (ix2 ⟨5000 * t.val + p.val, lt_rows t p⟩ q : S100000x64.Idx) := by
    funext a; apply Fin.ext
    match a with
    | ⟨0, _⟩ => show win1_5.index t (0 : Fin 2) * 5000 + 1 * p.val = 5000 * t.val + p.val; omega
    | ⟨1, _⟩ => show win1_5.index t (1 : Fin 2) * 64 + 1 * q.val = q.val; omega
  rw [View.read_apply, he, normRows_apply, rd0, rd1, rd2, rd3, rd4]
  exact (cast_eq _ _).symm

/-- An index of the array is in point t's block iff each coordinate is in the block's range on its axis. -/
theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v34).slice (win1_5.rect t)).set ↔ _
  rw [View.set_slice_whole, Rect.mem_set_unit]
  exact Iff.rfl

/-- The array after the region: the twenty row blocks tile it, so it is the normalisation everywhere. -/
theorem final (c : Dev nD) : (dat1 V c).arrAt 5 cfg1.N = G V c :=
  (dat1 V c).arrAt_eq_of_cover 5 (G V c) (fun t _ => flushed_eq V c t) fun i => by
    have hN : cfg1.N = 20 := N_1
    have hi0 : (i 0).val < 100000 := (i 0).isLt
    have hi1 : (i 1).val < 64 := (i 1).isLt
    refine ⟨⟨(i 0).val / 5000, by omega⟩, flush1_5 _, ?_⟩
    rw [mem_blk]
    obtain ⟨-, -, e2, e3, -⟩ := idx_facts ⟨(i 0).val / 5000, by omega⟩
    intro a
    match a with
    | ⟨0, _⟩ => show win1_5.index _ (0 : Fin 2) * 5000 ≤ (i 0).val ∧ (i 0).val < win1_5.index _ (0 : Fin 2) * 5000 + 5000; rw [e2]; dsimp only; omega
    | ⟨1, _⟩ => show win1_5.index _ (1 : Fin 2) * 64 ≤ (i 1).val ∧ (i 1).val < win1_5.index _ (1 : Fin 2) * 64 + 64; rw [e3]; omega

end Cert.KernelIdeal.Norm1

end
-- ==== Proof.HostForms.lean ====
/-
  The host operations of one graph-isomorphism block as functions of arrays, in the spelling the programs' host lines have:
  the neighbour aggregation (index normalisation, gather of source rows, scatter-add by target, plus the features), the
  two-layer perceptron with its clamps, the column mean, jnp's variance (mean of squared deviations, guarded by a count
  test), the normalisation, and the slices that pick one block's parameters out of the stacked arrays.
-/
import proofs.«169884_j31009663877671_1_alg».proof.Proof.Gen.ReferenceIdeal
import Idealize.ShloMosaic.PureOps.Ideal.Laws

noncomputable section

namespace Cert.ReferenceIdeal.Forms

open Cert.ReferenceIdeal Idealize.ShloMosaic
open Facts₀ Facts

abbrev zeroW : FVec Ideal S_ .f32 := constant (F := Ideal) S_ .f32 0x00000000#32
abbrev countW : FVec Ideal S_ .f32 := constant (F := Ideal) S_ .f32 0x47C35000#32

/-- The source-row indices: row 0 of the edge list, a negative index wrapped by adding the node count. -/
def srcIdx (ei : IVec S2x1600000 32) : IVec S1600000x1 32 :=
  broadcastInDim S1600000x1 ![0] bcast_S1600000_S1600000x1_0
    (select (cmpi .slt (shapeCast S1600000 (extractStridedSlice S1x1600000 ![0, 0] ei slices_S2x1600000_S1x1600000_0_0) shapeCasts_S1x1600000_S1600000)
        (broadcastInDim S1600000 ![] bcast_S_S1600000 (constantI S_ 32 0#32)))
      (addi (shapeCast S1600000 (extractStridedSlice S1x1600000 ![0, 0] ei slices_S2x1600000_S1x1600000_0_0) shapeCasts_S1x1600000_S1600000)
        (broadcastInDim S1600000 ![] bcast_S_S1600000 (constantI S_ 32 100000#32)))
      (shapeCast S1600000 (extractStridedSlice S1x1600000 ![0, 0] ei slices_S2x1600000_S1x1600000_0_0) shapeCasts_S1x1600000_S1600000))

/-- The target-row indices: row 1 of the edge list. -/
def dstIdx (ei : IVec S2x1600000 32) : IVec S1600000x1 32 :=
  broadcastInDim S1600000x1 ![0] bcast_S1600000_S1600000x1_0
    (shapeCast S1600000 (extractStridedSlice S1x1600000 ![1, 0] ei slices_S2x1600000_S1x1600000_1_0) shapeCasts_S1x1600000_S1600000)

/-- Features plus the sum of the neighbours' features, 128 lanes. -/
def agg128 (h : FVec Ideal S100000x128 .f32) (ei : IVec S2x1600000 32) : FVec Ideal S100000x128 .f32 :=
  addf h (Host.scatterAdd scatter_S100000x128_S1600000x1_S1600000x128_1_0_0_1
    (broadcastInDim S100000x128 ![] bcast_S_S100000x128 zeroW) (dstIdx ei)
    (Host.gather gather_S100000x128_S1600000x1_S1600000x128_1_0_n_n_0_1_1128 h (srcIdx ei)))

/-- Features plus the sum of the neighbours' features, 64 lanes. -/
def agg64 (h : FVec Ideal S100000x64 .f32) (ei : IVec S2x1600000 32) : FVec Ideal S100000x64 .f32 :=
  addf h (Host.scatterAdd scatter_S100000x64_S1600000x1_S1600000x64_1_0_0_1
    (broadcastInDim S100000x64 ![] bcast_S_S100000x64 zeroW) (dstIdx ei)
    (Host.gather gather_S100000x64_S1600000x1_S1600000x64_1_0_n_n_0_1_164 h (srcIdx ei)))

/-- A length-64 vector on every row. -/
def rows (b : FVec Ideal S64 .f32) : FVec Ideal S100000x64 .f32 :=
  broadcastInDim S100000x64 ![0, 1] bcast_S1x64_S100000x64_0_1 (broadcastInDim S1x64 ![1] bcast_S64_S1x64_1 b)

abbrev zeros : FVec Ideal S100000x64 .f32 := broadcastInDim S100000x64 ![] bcast_S_S100000x64 zeroW

/-- The perceptron on 128-lane inputs, the host's spelling. -/
def mlpH128 (a : FVec Ideal S100000x128 .f32) (W1 : FVec Ideal S128x64 .f32) (b1 : FVec Ideal S64 .f32)
    (W2 : FVec Ideal S64x64 .f32) (b2 : FVec Ideal S64 .f32) : FVec Ideal S100000x64 .f32 :=
  maximumf (addf (Host.dotGeneral dot_S100000x64_S64x64_S100000x64_1_0_0_1_n_n none
    (maximumf (addf (Host.dotGeneral dot_S100000x128_S128x64_S100000x64_1_0_0_1_n_n none a W1) (rows b1)) zeros) W2) (rows b2)) zeros

/-- The perceptron on 64-lane inputs, the host's spelling. -/
def mlpH64 (a : FVec Ideal S100000x64 .f32) (W1 : FVec Ideal S64x64 .f32) (b1 : FVec Ideal S64 .f32)
    (W2 : FVec Ideal S64x64 .f32) (b2 : FVec Ideal S64 .f32) : FVec Ideal S100000x64 .f32 :=
  maximumf (addf (Host.dotGeneral dot_S100000x64_S64x64_S100000x64_1_0_0_1_n_n none
    (maximumf (addf (Host.dotGeneral dot_S100000x64_S64x64_S100000x64_1_0_0_1_n_n none a W1) (rows b1)) zeros) W2) (rows b2)) zeros

/-- The column sums. -/
def colSums (t : FVec Ideal S100000x64 .f32) : FVec Ideal S64 .f32 :=
  Host.reduceAdd t zeroW reducesTo_S100000x64_S64_d0 h_S_

/-- The column means. -/
def meanH (t : FVec Ideal S100000x64 .f32) : FVec Ideal S64 .f32 :=
  Host.divf (colSums t) (broadcastInDim S64 ![] bcast_S_S64 countW)

/-- The count jnp's variance divides by: the number of rows minus the (zero) correction. -/
abbrev dofW : FVec Ideal S_ .f32 := subf countW (sitofp .f32 (constantI S_ 32 0#32))

/-- jnp's variance over the rows: the mean of the squared deviations, kept when the count is positive. -/
def varH (t : FVec Ideal S100000x64 .f32) : FVec Ideal S64 .f32 :=
  select (broadcastInDim S64 ![] bcast_S_S64 (cmpf .ogt dofW zeroW))
    (Host.divf
      (colSums (mulf
        (subf t (broadcastInDim S100000x64 ![0, 1] bcast_S1x64_S100000x64_0_1
          (Host.divf (broadcastInDim S1x64 ![1] bcast_S64_S1x64_1 (colSums t)) (broadcastInDim S1x64 ![] bcast_S_S1x64 countW))))
        (subf t (broadcastInDim S100000x64 ![0, 1] bcast_S1x64_S100000x64_0_1
          (Host.divf (broadcastInDim S1x64 ![1] bcast_S64_S1x64_1 (colSums t)) (broadcastInDim S1x64 ![] bcast_S_S1x64 countW))))))
      (broadcastInDim S64 ![] bcast_S_S64 dofW))
    (broadcastInDim S64 ![] bcast_S_S64 (id (constant (F := Ideal) S_ .f32 0x7FC00000#32)))

/-- The normalisation, the host's spelling. -/
def normH (t : FVec Ideal S100000x64 .f32) (mean var γ β : FVec Ideal S64 .f32) : FVec Ideal S100000x64 .f32 :=
  addf (mulf (mulf (rows γ) (subf t (rows mean)))
      (rows (Host.rsqrt (addf var (broadcastInDim S64 ![] bcast_S_S64 (constant (F := Ideal) S_ .f32 0x3727C5AC#32))))))
    (rows β)

/-- One block after the aggregation. -/
def bnOf (t : FVec Ideal S100000x64 .f32) (γ β : FVec Ideal S64 .f32) : FVec Ideal S100000x64 .f32 :=
  normH t (meanH t) (varH t) γ β

/-- The sum of the node features of each graph. -/
def poolH (h : FVec Ideal S100000x64 .f32) (batch : IVec S100000 32) : FVec Ideal S2048x64 .f32 :=
  Host.scatterAdd scatter_S2048x64_S100000x1_S100000x64_1_0_0_1 (broadcastInDim S2048x64 ![] bcast_S_S2048x64 zeroW)
    (broadcastInDim S100000x1 ![0] bcast_S100000_S100000x1_0 batch) h

/-- The head on the pooled features, the host's spelling. -/
def headH (g : FVec Ideal S2048x64 .f32) (W1 : FVec Ideal S64x64 .f32) (b1 : FVec Ideal S64 .f32)
    (W2 : FVec Ideal S64x32 .f32) (b2 : FVec Ideal S32 .f32) : FVec Ideal S2048x32 .f32 :=
  addf (Host.dotGeneral dot_S2048x64_S64x32_S2048x32_1_0_0_1_n_n none
      (maximumf (addf (Host.dotGeneral dot_S2048x64_S64x64_S2048x64_1_0_0_1_n_n none g W1)
          (broadcastInDim S2048x64 ![0, 1] bcast_S1x64_S2048x64_0_1 (broadcastInDim S1x64 ![1] bcast_S64_S1x64_1 b1)))
        (broadcastInDim S2048x64 ![] bcast_S_S2048x64 zeroW)) W2)
    (broadcastInDim S2048x32 ![0, 1] bcast_S1x32_S2048x32_0_1 (broadcastInDim S1x32 ![1] bcast_S32_S1x32_1 b2))

/-- Slab k of a stack of four 64×64 matrices. -/
abbrev slab (W : FVec Ideal S4x64x64 .f32) (off : Fin 3 → Nat) (h : S4x64x64.Slices off S1x64x64) : FVec Ideal S64x64 .f32 :=
  shapeCast S64x64 (extractStridedSlice S1x64x64 off W h) shapeCasts_S1x64x64_S64x64

/-- Row k of a stack of four length-64 vectors. -/
abbrev row4 (B : FVec Ideal S4x64 .f32) (off : Fin 2 → Nat) (h : S4x64.Slices off S1x64) : FVec Ideal S64 .f32 :=
  shapeCast S64 (extractStridedSlice S1x64 off B h) shapeCasts_S1x64_S64

/-- Row k of a stack of five length-64 vectors. -/
abbrev row5 (B : FVec Ideal S5x64 .f32) (off : Fin 2 → Nat) (h : S5x64.Slices off S1x64) : FVec Ideal S64 .f32 :=
  shapeCast S64 (extractStridedSlice S1x64 off B h) shapeCasts_S1x64_S64

/-- The first block: 128-lane inputs, its own parameter arrays, row 0 of the stacked scales and shifts. -/
def blk1 (x : FVec Ideal S100000x128 .f32) (ei : IVec S2x1600000 32) (W1 : FVec Ideal S128x64 .f32) (b1 : FVec Ideal S64 .f32)
    (W2 : FVec Ideal S64x64 .f32) (b2 : FVec Ideal S64 .f32) (G B : FVec Ideal S5x64 .f32) : FVec Ideal S100000x64 .f32 :=
  bnOf (mlpH128 (agg128 x ei) W1 b1 W2 b2) (row5 G ![0, 0] slices_S5x64_S1x64_0_0) (row5 B ![0, 0] slices_S5x64_S1x64_0_0)

/-- A later block: 64-lane inputs, slab and rows picked out of the stacked parameter arrays at the given offsets. -/
def blkN (h : FVec Ideal S100000x64 .f32) (ei : IVec S2x1600000 32) (W1s : FVec Ideal S4x64x64 .f32) (B1s : FVec Ideal S4x64 .f32)
    (W2s : FVec Ideal S4x64x64 .f32) (B2s : FVec Ideal S4x64 .f32) (G B : FVec Ideal S5x64 .f32)
    (o3 : Fin 3 → Nat) (h3 : S4x64x64.Slices o3 S1x64x64) (o2 : Fin 2 → Nat) (h2 : S4x64.Slices o2 S1x64)
    (o5 : Fin 2 → Nat) (h5 : S5x64.Slices o5 S1x64) : FVec Ideal S100000x64 .f32 :=
  bnOf (mlpH64 (agg64 h ei) (slab W1s o3 h3) (row4 B1s o2 h2) (slab W2s o3 h3) (row4 B2s o2 h2)) (row5 G o5 h5) (row5 B o5 h5)

end Cert.ReferenceIdeal.Forms

end
-- ==== Proof.KerForms.lean ====
/-
  The kernel's program as one function of its arguments: a block computes the perceptron on the aggregated features, the
  column sums of the features and of their squares, from them the mean and "mean of squares minus square of the mean", and
  normalises with these; five blocks, the pooling, the head.
-/
import proofs.«169884_j31009663877671_1_alg».proof.Proof.HostForms
import proofs.«169884_j31009663877671_1_alg».proof.Proof.GinSpec

noncomputable section

namespace Cert.ReferenceIdeal.Forms

open Cert.ReferenceIdeal Idealize.ShloMosaic Idealize.ShloMosaic.ValueIdx Cert.Gin
open Facts₀ Facts

theorem sc64 : S64.ShapeCasts S1x64 := by decide
theorem sc32 : S32.ShapeCasts S1x32 := by decide
theorem sc64' : S1x64.ShapeCasts S64 := by decide

/-- A length-64 vector as a 1×64 row. -/
abbrev asRow (v : FVec Ideal S64 .f32) : FVec Ideal S1x64 .f32 := shapeCast S1x64 v sc64

/-- The column sums of an array as a 1×64 row. -/
abbrev sumRow (T : FVec Ideal S100000x64 .f32) : FVec Ideal S1x64 .f32 := colSumRow T

/-- The column sums of the squares as a 1×64 row. -/
abbrev sqRow (T : FVec Ideal S100000x64 .f32) : FVec Ideal S1x64 .f32 := colSqRow T

/-- The mean from the row of sums: the sums divided by the count. -/
def meanK (S : FVec Ideal S1x64 .f32) : FVec Ideal S64 .f32 :=
  Host.divf (shapeCast S64 S sc64') (broadcastInDim S64 ![] bcast_S_S64 countW)

/-- The variance from the two rows of sums: mean of squares minus square of the mean. -/
def varK (S Q : FVec Ideal S1x64 .f32) : FVec Ideal S64 .f32 :=
  subf (Host.divf (shapeCast S64 Q sc64') (broadcastInDim S64 ![] bcast_S_S64 countW)) (mulf (meanK S) (meanK S))

/-- The normalisation of a feature array by its own column statistics, the kernel's way. -/
def normK (T : FVec Ideal S100000x64 .f32) (γ β : FVec Ideal S64 .f32) : FVec Ideal S100000x64 .f32 :=
  normRows T (asRow (meanK (sumRow T))) (asRow (varK (sumRow T) (sqRow T))) (asRow γ) (asRow β) (Ideal.ofBits .f32 0x3727C5AC#32)

/-- The kernel's first block. -/
def kblk1 (x : FVec Ideal S100000x128 .f32) (ei : IVec S2x1600000 32) (W1 : FVec Ideal S128x64 .f32) (b1 : FVec Ideal S64 .f32)
    (W2 : FVec Ideal S64x64 .f32) (b2 : FVec Ideal S64 .f32) (G B : FVec Ideal S5x64 .f32) : FVec Ideal S100000x64 .f32 :=
  normK (mlp (agg128 x ei) W1 (asRow b1) W2 (asRow b2)) (row5 G ![0, 0] slices_S5x64_S1x64_0_0) (row5 B ![0, 0] slices_S5x64_S1x64_0_0)

/-- A later block of the kernel. -/
def kblkN (h : FVec Ideal S100000x64 .f32) (ei : IVec S2x1600000 32) (W1s : FVec Ideal S4x64x64 .f32) (B1s : FVec Ideal S4x64 .f32)
    (W2s : FVec Ideal S4x64x64 .f32) (B2s : FVec Ideal S4x64 .f32) (G B : FVec Ideal S5x64 .f32)
    (o3 : Fin 3 → Nat) (h3 : S4x64x64.Slices o3 S1x64x64) (o2 : Fin 2 → Nat) (h2 : S4x64.Slices o2 S1x64)
    (o5 : Fin 2 → Nat) (h5 : S5x64.Slices o5 S1x64) : FVec Ideal S100000x64 .f32 :=
  normK (mlp (agg64 h ei) (slab W1s o3 h3) (asRow (row4 B1s o2 h2)) (slab W2s o3 h3) (asRow (row4 B2s o2 h2))) (row5 G o5 h5) (row5 B o5 h5)

/-- The kernel's five blocks nested. -/
def knet (x : FVec Ideal S100000x128 .f32) (ei : IVec S2x1600000 32) (w1 : FVec Ideal S128x64 .f32) (b1 : FVec Ideal S64 .f32)
    (w2 : FVec Ideal S64x64 .f32) (b2 : FVec Ideal S64 .f32) (W1s : FVec Ideal S4x64x64 .f32) (B1s : FVec Ideal S4x64 .f32)
    (W2s : FVec Ideal S4x64x64 .f32) (B2s : FVec Ideal S4x64 .f32) (G B : FVec Ideal S5x64 .f32) : FVec Ideal S100000x64 .f32 :=
  kblkN (kblkN (kblkN (kblkN (kblk1 x ei w1 b1 w2 b2 G B) ei W1s B1s W2s B2s G B
          ![0, 0, 0] slices_S4x64x64_S1x64x64_0_0_0 ![0, 0] slices_S4x64_S1x64_0_0 ![1, 0] slices_S5x64_S1x64_1_0) ei W1s B1s W2s B2s G B
        ![1, 0, 0] slices_S4x64x64_S1x64x64_1_0_0 ![1, 0] slices_S4x64_S1x64_1_0 ![2, 0] slices_S5x64_S1x64_2_0) ei W1s B1s W2s B2s G B
      ![2, 0, 0] slices_S4x64x64_S1x64x64_2_0_0 ![2, 0] slices_S4x64_S1x64_2_0 ![3, 0] slices_S5x64_S1x64_3_0) ei W1s B1s W2s B2s G B
    ![3, 0, 0] slices_S4x64x64_S1x64x64_3_0_0 ![3, 0] slices_S4x64_S1x64_3_0 ![4, 0] slices_S5x64_S1x64_4_0

/-- The kernel's head on the pooled features. -/
def khead (g : FVec Ideal S2048x64 .f32) (W1 : FVec Ideal S64x64 .f32) (b1 : FVec Ideal S64 .f32)
    (W2 : FVec Ideal S64x32 .f32) (b2 : FVec Ideal S32 .f32) : FVec Ideal S2048x32 .f32 :=
  head g W1 (asRow b1) W2 (shapeCast S1x32 b2 sc32)

end Cert.ReferenceIdeal.Forms

end
-- ==== Proof.KChain1.lean ====
/-
  The kernel's program read boundary by boundary: each stretch of host operations from what the region before left, each
  region's arrays from the stretch before it, so that every block's output is the kernel's block function of the block's
  input and of the argument arrays, and the argument arrays are found unchanged at every boundary.
-/
import proofs.«169884_j31009663877671_1_alg».proof.Proof.Gen.KernelIdeal.Frame
import proofs.«169884_j31009663877671_1_alg».proof.Proof.Stats0Fin
import proofs.«169884_j31009663877671_1_alg».proof.Proof.Norm1
import proofs.«169884_j31009663877671_1_alg».proof.Proof.KerForms
import Idealize.ShloMosaic.Lib.StableHlo.Run

set_option maxRecDepth 16384

noncomputable section

namespace Cert.KernelIdeal.Chain

open Cert.KernelIdeal Cert.KernelIdeal.Gen Cert.Gin Cert.ReferenceIdeal.Forms
open Idealize.ShloMosaic Idealize.ShloMosaic.TcCoe Idealize.SL.Sem Idealize.ShloMosaic.ValueIdx

variable (m : (ℓ : Loc nD τ sig) → Buf (Elt Ideal) ℓ) (ρ : Dev nD → PrngReg)

/-! ## Block 1 -/

set_option maxHeartbeats 4000000 in
theorem b1_agg (c : Dev nD) : W1 m ρ c (Proc.devRef .tc main_v18) = agg128 (W0 m ρ c (Proc.devRef .tc main_arg0)) (W0 m ρ c (Proc.devRef .tc main_arg1)) := by
  show StableHlo.after hostOps0 (W0 m ρ c) (Proc.devRef .tc main_v18) = _
  after_results_simp
  rfl

set_option maxHeartbeats 4000000 in
theorem b1_W1 (c : Dev nD) : W1 m ρ c (Proc.devRef .tc main_arg3) = (W0 m ρ c (Proc.devRef .tc main_arg3)) := by
  show StableHlo.after hostOps0 (W0 m ρ c) (Proc.devRef .tc main_arg3) = _
  after_results_simp

set_option maxHeartbeats 4000000 in
theorem b1_b1 (c : Dev nD) : W1 m ρ c (Proc.devRef .tc main_v19) = asRow (W0 m ρ c (Proc.devRef .tc main_arg4)) := by
  show StableHlo.after hostOps0 (W0 m ρ c) (Proc.devRef .tc main_v19) = _
  after_results_simp
  rfl

set_option maxHeartbeats 4000000 in
theorem b1_W2 (c : Dev nD) : W1 m ρ c (Proc.devRef .tc main_arg5) = (W0 m ρ c (Proc.devRef .tc main_arg5)) := by
  show StableHlo.after hostOps0 (W0 m ρ c) (Proc.devRef .tc main_arg5) = _
  after_results_simp

set_option maxHeartbeats 4000000 in
theorem b1_b2 (c : Dev nD) : W1 m ρ c (Proc.devRef .tc main_v20) = asRow (W0 m ρ c (Proc.devRef .tc main_arg6)) := by
  show StableHlo.after hostOps0 (W0 m ρ c) (Proc.devRef .tc main_v20) = _
  after_results_simp
  rfl

set_option maxHeartbeats 4000000 in
theorem b1_g (c : Dev nD) : W1 m ρ c (Proc.devRef .tc main_v1) = row5 (W0 m ρ c (Proc.devRef .tc main_arg11)) ![0, 0] Cert.ReferenceIdeal.Facts₀.slices_S5x64_S1x64_0_0 := by
  show StableHlo.after hostOps0 (W0 m ρ c) (Proc.devRef .tc main_v1) = _
  after_results_simp
  rfl

set_option maxHeartbeats 4000000 in
theorem b1_b (c : Dev nD) : W1 m ρ c (Proc.devRef .tc main_v3) = row5 (W0 m ρ c (Proc.devRef .tc main_arg12)) ![0, 0] Cert.ReferenceIdeal.Facts₀.slices_S5x64_S1x64_0_0 := by
  show StableHlo.after hostOps0 (W0 m ρ c) (Proc.devRef .tc main_v3) = _
  after_results_simp
  rfl

/-- The feature array of block 1. -/
abbrev T1 (c : Dev nD) : FVec Ideal Cert.ReferenceIdeal.S100000x64 .f32 :=
  mlp (agg128 (W0 m ρ c (Proc.devRef .tc main_arg0)) (W0 m ρ c (Proc.devRef .tc main_arg1))) ((W0 m ρ c (Proc.devRef .tc main_arg3))) (asRow (W0 m ρ c (Proc.devRef .tc main_arg4))) ((W0 m ρ c (Proc.devRef .tc main_arg5))) (asRow (W0 m ρ c (Proc.devRef .tc main_arg6)))

theorem b1_Tf (c : Dev nD) : Stats0.Tfull (V1 m ρ) c = T1 m ρ c := by
  show mlp (W1 m ρ c (Proc.devRef .tc main_v18)) (W1 m ρ c (Proc.devRef .tc main_arg3)) (W1 m ρ c (Proc.devRef .tc main_v19)) (W1 m ρ c (Proc.devRef .tc main_arg5)) (W1 m ρ c (Proc.devRef .tc main_v20)) = _
  rw [b1_agg, b1_W1, b1_b1, b1_W2, b1_b2]

theorem b1_T (c : Dev nD) : W2 m ρ c (Proc.devRef .tc main_v21_0) = T1 m ρ c :=
  ((hF0 m ρ c 5).symm.trans (Stats0.final5 (V1 m ρ) c)).trans (b1_Tf m ρ c)

theorem b1_S (c : Dev nD) : W2 m ρ c (Proc.devRef .tc main_v21_1) = sumRow (T1 m ρ c) :=
  ((hF0 m ρ c 6).symm.trans (Stats0.final6 (V1 m ρ) c)).trans (congrArg colSumRow (b1_Tf m ρ c))

theorem b1_Q (c : Dev nD) : W2 m ρ c (Proc.devRef .tc main_v21_2) = sqRow (T1 m ρ c) :=
  ((hF0 m ρ c 7).symm.trans (Stats0.final7 (V1 m ρ) c)).trans (congrArg colSqRow (b1_Tf m ρ c))

theorem b1_g' (c : Dev nD) : W2 m ρ c (Proc.devRef .tc main_v1) = row5 (W0 m ρ c (Proc.devRef .tc main_arg11)) ![0, 0] Cert.ReferenceIdeal.Facts₀.slices_S5x64_S1x64_0_0 :=
  (W2_of_ne m ρ c main_v1 (by decide)).trans (b1_g m ρ c)

theorem b1_b' (c : Dev nD) : W2 m ρ c (Proc.devRef .tc main_v3) = row5 (W0 m ρ c (Proc.devRef .tc main_arg12)) ![0, 0] Cert.ReferenceIdeal.Facts₀.slices_S5x64_S1x64_0_0 :=
  (W2_of_ne m ρ c main_v3 (by decide)).trans (b1_b m ρ c)

set_option maxHeartbeats 4000000 in
theorem b1_Tk (c : Dev nD) : W3 m ρ c (Proc.devRef .tc main_v21_0) = W2 m ρ c (Proc.devRef .tc main_v21_0) := by
  show StableHlo.after hostOps1 (W2 m ρ c) (Proc.devRef .tc main_v21_0) = _
  after_results_simp

set_option maxHeartbeats 4000000 in
theorem b1_mean (c : Dev nD) : W3 m ρ c (Proc.devRef .tc main_v30) = asRow (meanK (W2 m ρ c (Proc.devRef .tc main_v21_1))) := by
  show StableHlo.after hostOps1 (W2 m ρ c) (Proc.devRef .tc main_v30) = _
  after_results_simp
  rfl

set_option maxHeartbeats 4000000 in
theorem b1_var (c : Dev nD) : W3 m ρ c (Proc.devRef .tc main_v31) = asRow (varK (W2 m ρ c (Proc.devRef .tc main_v21_1)) (W2 m ρ c (Proc.devRef .tc main_v21_2))) := by
  show StableHlo.after hostOps1 (W2 m ρ c) (Proc.devRef .tc main_v31) = _
  after_results_simp
  rfl

set_option maxHeartbeats 4000000 in
theorem b1_grow (c : Dev nD) : W3 m ρ c (Proc.devRef .tc main_v32) = asRow (W2 m ρ c (Proc.devRef .tc main_v1)) := by
  show StableHlo.after hostOps1 (W2 m ρ c) (Proc.devRef .tc main_v32) = _
  after_results_simp
  rfl

set_option maxHeartbeats 4000000 in
theorem b1_brow (c : Dev nD) : W3 m ρ c (Proc.devRef .tc main_v33) = asRow (W2 m ρ c (Proc.devRef .tc main_v3)) := by
  show StableHlo.after hostOps1 (W2 m ρ c) (Proc.devRef .tc main_v33) = _
  after_results_simp
  rfl

/-- What block 1 leaves: the kernel's block function of what it found. -/
theorem b1_out (c : Dev nD) : W4 m ρ c (Proc.devRef .tc main_v34)
      = kblk1 (W0 m ρ c (Proc.devRef .tc main_arg0)) (W0 m ρ c (Proc.devRef .tc main_arg1)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg11)) (W0 m ρ c (Proc.devRef .tc main_arg12)) := by
  refine ((hF1 m ρ c 5).symm.trans (Norm1.final (V3 m ρ) c)).trans ?_
  show normRows (W3 m ρ c (Proc.devRef .tc main_v21_0)) (W3 m ρ c (Proc.devRef .tc main_v30)) (W3 m ρ c (Proc.devRef .tc main_v31)) (W3 m ρ c (Proc.devRef .tc main_v32)) (W3 m ρ c (Proc.devRef .tc main_v33)) (Ideal.ofBits .f32 0x3727C5AC#32) = _
  rw [b1_Tk, b1_mean, b1_var, b1_grow, b1_brow, b1_T, b1_S, b1_Q, b1_g', b1_b']
  rfl

theorem k1_main_arg1 (c : Dev nD) : W4 m ρ c (Proc.devRef .tc main_arg1) = W0 m ρ c (Proc.devRef .tc main_arg1) :=
  calc W4 m ρ c (Proc.devRef .tc main_arg1)
    _ = W3 m ρ c (Proc.devRef .tc main_arg1) := W4_of_ne m ρ c main_arg1 (by decide)
    _ = W2 m ρ c (Proc.devRef .tc main_arg1) := by show StableHlo.after hostOps1 (W2 m ρ c) (Proc.devRef .tc main_arg1) = _; after_results_simp
    _ = W1 m ρ c (Proc.devRef .tc main_arg1) := W2_of_ne m ρ c main_arg1 (by decide)
    _ = W0 m ρ c (Proc.devRef .tc main_arg1) := by show StableHlo.after hostOps0 (W0 m ρ c) (Proc.devRef .tc main_arg1) = _; after_results_simp

theorem k1_main_arg2 (c : Dev nD) : W4 m ρ c (Proc.devRef .tc main_arg2) = W0 m ρ c (Proc.devRef .tc main_arg2) :=
  calc W4 m ρ c (Proc.devRef .tc main_arg2)
    _ = W3 m ρ c (Proc.devRef .tc main_arg2) := W4_of_ne m ρ c main_arg2 (by decide)
    _ = W2 m ρ c (Proc.devRef .tc main_arg2) := by show StableHlo.after hostOps1 (W2 m ρ c) (Proc.devRef .tc main_arg2) = _; after_results_simp
    _ = W1 m ρ c (Proc.devRef .tc main_arg2) := W2_of_ne m ρ c main_arg2 (by decide)
    _ = W0 m ρ c (Proc.devRef .tc main_arg2) := by show StableHlo.after hostOps0 (W0 m ρ c) (Proc.devRef .tc main_arg2) = _; after_results_simp

theorem k1_main_arg7 (c : Dev nD) : W4 m ρ c (Proc.devRef .tc main_arg7) = W0 m ρ c (Proc.devRef .tc main_arg7) :=
  calc W4 m ρ c (Proc.devRef .tc main_arg7)
    _ = W3 m ρ c (Proc.devRef .tc main_arg7) := W4_of_ne m ρ c main_arg7 (by decide)
    _ = W2 m ρ c (Proc.devRef .tc main_arg7) := by show StableHlo.after hostOps1 (W2 m ρ c) (Proc.devRef .tc main_arg7) = _; after_results_simp
    _ = W1 m ρ c (Proc.devRef .tc main_arg7) := W2_of_ne m ρ c main_arg7 (by decide)
    _ = W0 m ρ c (Proc.devRef .tc main_arg7) := by show StableHlo.after hostOps0 (W0 m ρ c) (Proc.devRef .tc main_arg7) = _; after_results_simp

theorem k1_main_arg8 (c : Dev nD) : W4 m ρ c (Proc.devRef .tc main_arg8) = W0 m ρ c (Proc.devRef .tc main_arg8) :=
  calc W4 m ρ c (Proc.devRef .tc main_arg8)
    _ = W3 m ρ c (Proc.devRef .tc main_arg8) := W4_of_ne m ρ c main_arg8 (by decide)
    _ = W2 m ρ c (Proc.devRef .tc main_arg8) := by show StableHlo.after hostOps1 (W2 m ρ c) (Proc.devRef .tc main_arg8) = _; after_results_simp
    _ = W1 m ρ c (Proc.devRef .tc main_arg8) := W2_of_ne m ρ c main_arg8 (by decide)
    _ = W0 m ρ c (Proc.devRef .tc main_arg8) := by show StableHlo.after hostOps0 (W0 m ρ c) (Proc.devRef .tc main_arg8) = _; after_results_simp

theorem k1_main_arg9 (c : Dev nD) : W4 m ρ c (Proc.devRef .tc main_arg9) = W0 m ρ c (Proc.devRef .tc main_arg9) :=
  calc W4 m ρ c (Proc.devRef .tc main_arg9)
    _ = W3 m ρ c (Proc.devRef .tc main_arg9) := W4_of_ne m ρ c main_arg9 (by decide)
    _ = W2 m ρ c (Proc.devRef .tc main_arg9) := by show StableHlo.after hostOps1 (W2 m ρ c) (Proc.devRef .tc main_arg9) = _; after_results_simp
    _ = W1 m ρ c (Proc.devRef .tc main_arg9) := W2_of_ne m ρ c main_arg9 (by decide)
    _ = W0 m ρ c (Proc.devRef .tc main_arg9) := by show StableHlo.after hostOps0 (W0 m ρ c) (Proc.devRef .tc main_arg9) = _; after_results_simp

theorem k1_main_arg10 (c : Dev nD) : W4 m ρ c (Proc.devRef .tc main_arg10) = W0 m ρ c (Proc.devRef .tc main_arg10) :=
  calc W4 m ρ c (Proc.devRef .tc main_arg10)
    _ = W3 m ρ c (Proc.devRef .tc main_arg10) := W4_of_ne m ρ c main_arg10 (by decide)
    _ = W2 m ρ c (Proc.devRef .tc main_arg10) := by show StableHlo.after hostOps1 (W2 m ρ c) (Proc.devRef .tc main_arg10) = _; after_results_simp
    _ = W1 m ρ c (Proc.devRef .tc main_arg10) := W2_of_ne m ρ c main_arg10 (by decide)
    _ = W0 m ρ c (Proc.devRef .tc main_arg10) := by show StableHlo.after hostOps0 (W0 m ρ c) (Proc.devRef .tc main_arg10) = _; after_results_simp

theorem k1_main_arg11 (c : Dev nD) : W4 m ρ c (Proc.devRef .tc main_arg11) = W0 m ρ c (Proc.devRef .tc main_arg11) :=
  calc W4 m ρ c (Proc.devRef .tc main_arg11)
    _ = W3 m ρ c (Proc.devRef .tc main_arg11) := W4_of_ne m ρ c main_arg11 (by decide)
    _ = W2 m ρ c (Proc.devRef .tc main_arg11) := by show StableHlo.after hostOps1 (W2 m ρ c) (Proc.devRef .tc main_arg11) = _; after_results_simp
    _ = W1 m ρ c (Proc.devRef .tc main_arg11) := W2_of_ne m ρ c main_arg11 (by decide)
    _ = W0 m ρ c (Proc.devRef .tc main_arg11) := by show StableHlo.after hostOps0 (W0 m ρ c) (Proc.devRef .tc main_arg11) = _; after_results_simp

theorem k1_main_arg12 (c : Dev nD) : W4 m ρ c (Proc.devRef .tc main_arg12) = W0 m ρ c (Proc.devRef .tc main_arg12) :=
  calc W4 m ρ c (Proc.devRef .tc main_arg12)
    _ = W3 m ρ c (Proc.devRef .tc main_arg12) := W4_of_ne m ρ c main_arg12 (by decide)
    _ = W2 m ρ c (Proc.devRef .tc main_arg12) := by show StableHlo.after hostOps1 (W2 m ρ c) (Proc.devRef .tc main_arg12) = _; after_results_simp
    _ = W1 m ρ c (Proc.devRef .tc main_arg12) := W2_of_ne m ρ c main_arg12 (by decide)
    _ = W0 m ρ c (Proc.devRef .tc main_arg12) := by show StableHlo.after hostOps0 (W0 m ρ c) (Proc.devRef .tc main_arg12) = _; after_results_simp

theorem k1_main_arg13 (c : Dev nD) : W4 m ρ c (Proc.devRef .tc main_arg13) = W0 m ρ c (Proc.devRef .tc main_arg13) :=
  calc W4 m ρ c (Proc.devRef .tc main_arg13)
    _ = W3 m ρ c (Proc.devRef .tc main_arg13) := W4_of_ne m ρ c main_arg13 (by decide)
    _ = W2 m ρ c (Proc.devRef .tc main_arg13) := by show StableHlo.after hostOps1 (W2 m ρ c) (Proc.devRef .tc main_arg13) = _; after_results_simp
    _ = W1 m ρ c (Proc.devRef .tc main_arg13) := W2_of_ne m ρ c main_arg13 (by decide)
    _ = W0 m ρ c (Proc.devRef .tc main_arg13) := by show StableHlo.after hostOps0 (W0 m ρ c) (Proc.devRef .tc main_arg13) = _; after_results_simp

theorem k1_main_arg14 (c : Dev nD) : W4 m ρ c (Proc.devRef .tc main_arg14) = W0 m ρ c (Proc.devRef .tc main_arg14) :=
  calc W4 m ρ c (Proc.devRef .tc main_arg14)
    _ = W3 m ρ c (Proc.devRef .tc main_arg14) := W4_of_ne m ρ c main_arg14 (by decide)
    _ = W2 m ρ c (Proc.devRef .tc main_arg14) := by show StableHlo.after hostOps1 (W2 m ρ c) (Proc.devRef .tc main_arg14) = _; after_results_simp
    _ = W1 m ρ c (Proc.devRef .tc main_arg14) := W2_of_ne m ρ c main_arg14 (by decide)
    _ = W0 m ρ c (Proc.devRef .tc main_arg14) := by show StableHlo.after hostOps0 (W0 m ρ c) (Proc.devRef .tc main_arg14) = _; after_results_simp

theorem k1_main_arg15 (c : Dev nD) : W4 m ρ c (Proc.devRef .tc main_arg15) = W0 m ρ c (Proc.devRef .tc main_arg15) :=
  calc W4 m ρ c (Proc.devRef .tc main_arg15)
    _ = W3 m ρ c (Proc.devRef .tc main_arg15) := W4_of_ne m ρ c main_arg15 (by decide)
    _ = W2 m ρ c (Proc.devRef .tc main_arg15) := by show StableHlo.after hostOps1 (W2 m ρ c) (Proc.devRef .tc main_arg15) = _; after_results_simp
    _ = W1 m ρ c (Proc.devRef .tc main_arg15) := W2_of_ne m ρ c main_arg15 (by decide)
    _ = W0 m ρ c (Proc.devRef .tc main_arg15) := by show StableHlo.after hostOps0 (W0 m ρ c) (Proc.devRef .tc main_arg15) = _; after_results_simp

theorem k1_main_arg16 (c : Dev nD) : W4 m ρ c (Proc.devRef .tc main_arg16) = W0 m ρ c (Proc.devRef .tc main_arg16) :=
  calc W4 m ρ c (Proc.devRef .tc main_arg16)
    _ = W3 m ρ c (Proc.devRef .tc main_arg16) := W4_of_ne m ρ c main_arg16 (by decide)
    _ = W2 m ρ c (Proc.devRef .tc main_arg16) := by show StableHlo.after hostOps1 (W2 m ρ c) (Proc.devRef .tc main_arg16) = _; after_results_simp
    _ = W1 m ρ c (Proc.devRef .tc main_arg16) := W2_of_ne m ρ c main_arg16 (by decide)
    _ = W0 m ρ c (Proc.devRef .tc main_arg16) := by show StableHlo.after hostOps0 (W0 m ρ c) (Proc.devRef .tc main_arg16) = _; after_results_simp

end Cert.KernelIdeal.Chain

end
-- ==== Proof.Stats2Val.lean ====
/-
  What each case of the statistics kernel's body leaves in its three output buffers, as values: the block of features,
  and the two running rows (column sums of the features and of their squares) — started from zero at the first grid
  point, continued from what the point before left otherwise.
-/
import proofs.«169884_j31009663877671_1_alg».proof.Proof.Gen.KernelIdeal.Frame
import Idealize.ShloMosaic.Lib.Pipeline.Value
import Idealize.ShloMosaic.Lib.Tactic

noncomputable section

namespace Cert.KernelIdeal.Stats2

open Cert.KernelIdeal Cert.KernelIdeal.Gen
open Idealize.ShloMosaic Idealize.ShloMosaic.TcCoe Idealize.SL.Sem

variable {F : FTy → Type} [FloatOps F]

theorem hz : (![0, 0] : Fin 2 → Nat) = fun _ => 0 := funext fun a => by fin_cases a <;> rfl

theorem outA5 (c : Dev nD) (i : grid2.Coords) (a1 : Memref sig .tc .vmem S5000x64 .f32) (h1 : a1.IsWhole) (a2 : Memref sig .tc .vmem S64x64 .f32) (h2 : a2.IsWhole) (a3 : Memref sig .tc .vmem S1x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : cond2_0 i) (x0 : Vec F S5000x64 .f32) (x1 : Vec F S64x64 .f32) (x2 : Vec F S1x64 .f32) (x3 : Vec F S64x64 .f32) (x4 : Vec F S1x64 .f32) :
    out2_A_5 c i a1 h1 a2 h2 a3 h3 a4 h4 a5 h5 a6 h6 a7 h7 a8 h8 hc x0 x1 x2 x3 x4 = k2_pay4 x0 x1 x2 x3 x4 := by
  unfold out2_A_5
  rw [View.read_writes_eq_canon _ _ _ (cover2_A_5 c i a1 h1 a2 h2 a3 h3 a4 h4 a5 h5 a6 h6 a7 h7 a8 h8 hc x0 x1 x2 x3 x4)]
  unfold kernelRun2_A
  dsimp only
  try sl_unfold_words
  first
    | rw [View.canon_cons_unit_zero (S := S1x64) hz, View.readCov_unit_zero (S := S1x64) _ hz]
    | rw [View.canon_unit_zero hz]
  simp only [View.readAt_eq_ld, h1.read_unread, h2.read_unread, h3.read_unread, h4.read_unread, h5.read_unread,
    h6.read_unread, h7.read_unread, h8.read_unread, View.ld_unit_zero (S := S5000x64) hz, View.ld_unit_zero (S := S64x64) hz,
    View.ld_unit_zero (S := S1x64) hz, View.ld_unit_zero (S := S64x64) hz, View.ld_unit_zero (S := S5000x64) hz]

theorem outA6 (c : Dev nD) (i : grid2.Coords) (a1 : Memref sig .tc .vmem S5000x64 .f32) (h1 : a1.IsWhole) (a2 : Memref sig .tc .vmem S64x64 .f32) (h2 : a2.IsWhole) (a3 : Memref sig .tc .vmem S1x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : cond2_0 i) (x0 : Vec F S5000x64 .f32) (x1 : Vec F S64x64 .f32) (x2 : Vec F S1x64 .f32) (x3 : Vec F S64x64 .f32) (x4 : Vec F S1x64 .f32) :
    out2_A_6 c i a1 h1 a2 h2 a3 h3 a4 h4 a5 h5 a6 h6 a7 h7 a8 h8 hc x0 x1 x2 x3 x4 = k2_pay5 x0 x1 x2 x3 x4 k2_pay2 := by
  unfold out2_A_6
  rw [View.read_writes_eq_canon _ _ _ (cover2_A_6 c i a1 h1 a2 h2 a3 h3 a4 h4 a5 h5 a6 h6 a7 h7 a8 h8 hc x0 x1 x2 x3 x4)]
  unfold kernelRun2_A
  dsimp only
  try sl_unfold_words
  first
    | rw [View.canon_cons_unit_zero (S := S1x64) hz, View.readCov_unit_zero (S := S1x64) _ hz]
    | rw [View.canon_unit_zero hz]
  simp only [View.readAt_eq_ld, h1.read_unread, h2.read_unread, h3.read_unread, h4.read_unread, h5.read_unread,
    h6.read_unread, h7.read_unread, h8.read_unread, View.ld_unit_zero (S := S5000x64) hz, View.ld_unit_zero (S := S64x64) hz,
    View.ld_unit_zero (S := S1x64) hz, View.ld_unit_zero (S := S64x64) hz, View.ld_unit_zero (S := S5000x64) hz]

theorem outA7 (c : Dev nD) (i : grid2.Coords) (a1 : Memref sig .tc .vmem S5000x64 .f32) (h1 : a1.IsWhole) (a2 : Memref sig .tc .vmem S64x64 .f32) (h2 : a2.IsWhole) (a3 : Memref sig .tc .vmem S1x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : cond2_0 i) (x0 : Vec F S5000x64 .f32) (x1 : Vec F S64x64 .f32) (x2 : Vec F S1x64 .f32) (x3 : Vec F S64x64 .f32) (x4 : Vec F S1x64 .f32) :
    out2_A_7 c i a1 h1 a2 h2 a3 h3 a4 h4 a5 h5 a6 h6 a7 h7 a8 h8 hc x0 x1 x2 x3 x4 = k2_pay1 (k2_pay4 x0 x1 x2 x3 x4) k2_pay3 := by
  unfold out2_A_7
  rw [View.read_writes_eq_canon _ _ _ (cover2_A_7 c i a1 h1 a2 h2 a3 h3 a4 h4 a5 h5 a6 h6 a7 h7 a8 h8 hc x0 x1 x2 x3 x4)]
  unfold kernelRun2_A
  dsimp only
  try sl_unfold_words
  first
    | rw [View.canon_cons_unit_zero (S := S1x64) hz, View.readCov_unit_zero (S := S1x64) _ hz]
    | rw [View.canon_unit_zero hz]
  simp only [View.readAt_eq_ld, h1.read_unread, h2.read_unread, h3.read_unread, h4.read_unread, h5.read_unread,
    h6.read_unread, h7.read_unread, h8.read_unread, View.ld_unit_zero (S := S5000x64) hz, View.ld_unit_zero (S := S64x64) hz,
    View.ld_unit_zero (S := S1x64) hz, View.ld_unit_zero (S := S64x64) hz, View.ld_unit_zero (S := S5000x64) hz]

theorem outB5 (c : Dev nD) (i : grid2.Coords) (a1 : Memref sig .tc .vmem S5000x64 .f32) (h1 : a1.IsWhole) (a2 : Memref sig .tc .vmem S64x64 .f32) (h2 : a2.IsWhole) (a3 : Memref sig .tc .vmem S1x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : ¬cond2_0 i) (x0 : Vec F S5000x64 .f32) (x1 : Vec F S64x64 .f32) (x2 : Vec F S1x64 .f32) (x3 : Vec F S64x64 .f32) (x4 : Vec F S1x64 .f32) (p6 p7 : Vec F S1x64 .f32) :
    out2_B_5 c i a1 h1 a2 h2 a3 h3 a4 h4 a5 h5 a6 h6 a7 h7 a8 h8 hc x0 x1 x2 x3 x4 p6 p7 = k2_pay4 x0 x1 x2 x3 x4 := by
  unfold out2_B_5
  rw [View.read_writes_eq_canon _ _ _ (cover2_B_5 c i a1 h1 a2 h2 a3 h3 a4 h4 a5 h5 a6 h6 a7 h7 a8 h8 hc x0 x1 x2 x3 x4 p6 p7)]
  unfold kernelRun2_B
  dsimp only
  try sl_unfold_words
  first
    | rw [View.canon_cons_unit_zero (S := S1x64) hz, View.readCov_unit_zero (S := S1x64) _ hz]
    | rw [View.canon_unit_zero hz]
  simp only [View.readAt_eq_ld, h1.read_unread, h2.read_unread, h3.read_unread, h4.read_unread, h5.read_unread,
    h6.read_unread, h7.read_unread, h8.read_unread, View.ld_unit_zero (S := S5000x64) hz, View.ld_unit_zero (S := S64x64) hz,
    View.ld_unit_zero (S := S1x64) hz, View.ld_unit_zero (S := S64x64) hz, View.ld_unit_zero (S := S5000x64) hz]

theorem outB6 (c : Dev nD) (i : grid2.Coords) (a1 : Memref sig .tc .vmem S5000x64 .f32) (h1 : a1.IsWhole) (a2 : Memref sig .tc .vmem S64x64 .f32) (h2 : a2.IsWhole) (a3 : Memref sig .tc .vmem S1x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : ¬cond2_0 i) (x0 : Vec F S5000x64 .f32) (x1 : Vec F S64x64 .f32) (x2 : Vec F S1x64 .f32) (x3 : Vec F S64x64 .f32) (x4 : Vec F S1x64 .f32) (p6 p7 : Vec F S1x64 .f32) :
    out2_B_6 c i a1 h1 a2 h2 a3 h3 a4 h4 a5 h5 a6 h6 a7 h7 a8 h8 hc x0 x1 x2 x3 x4 p6 p7 = k2_pay5 x0 x1 x2 x3 x4 p6 := by
  unfold out2_B_6
  rw [View.read_writes_eq_canon _ _ _ (cover2_B_6 c i a1 h1 a2 h2 a3 h3 a4 h4 a5 h5 a6 h6 a7 h7 a8 h8 hc x0 x1 x2 x3 x4 p6 p7)]
  unfold kernelRun2_B
  dsimp only
  try sl_unfold_words
  first
    | rw [View.canon_cons_unit_zero (S := S1x64) hz, View.readCov_unit_zero (S := S1x64) _ hz]
    | rw [View.canon_unit_zero hz]
  simp only [View.readAt_eq_ld, h1.read_unread, h2.read_unread, h3.read_unread, h4.read_unread, h5.read_unread,
    h6.read_unread, h7.read_unread, h8.read_unread, View.ld_unit_zero (S := S5000x64) hz, View.ld_unit_zero (S := S64x64) hz,
    View.ld_unit_zero (S := S1x64) hz, View.ld_unit_zero (S := S64x64) hz, View.ld_unit_zero (S := S5000x64) hz]

theorem outB7 (c : Dev nD) (i : grid2.Coords) (a1 : Memref sig .tc .vmem S5000x64 .f32) (h1 : a1.IsWhole) (a2 : Memref sig .tc .vmem S64x64 .f32) (h2 : a2.IsWhole) (a3 : Memref sig .tc .vmem S1x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : ¬cond2_0 i) (x0 : Vec F S5000x64 .f32) (x1 : Vec F S64x64 .f32) (x2 : Vec F S1x64 .f32) (x3 : Vec F S64x64 .f32) (x4 : Vec F S1x64 .f32) (p6 p7 : Vec F S1x64 .f32) :
    out2_B_7 c i a1 h1 a2 h2 a3 h3 a4 h4 a5 h5 a6 h6 a7 h7 a8 h8 hc x0 x1 x2 x3 x4 p6 p7 = k2_pay1 (k2_pay4 x0 x1 x2 x3 x4) p7 := by
  unfold out2_B_7
  rw [View.read_writes_eq_canon _ _ _ (cover2_B_7 c i a1 h1 a2 h2 a3 h3 a4 h4 a5 h5 a6 h6 a7 h7 a8 h8 hc x0 x1 x2 x3 x4 p6 p7)]
  unfold kernelRun2_B
  dsimp only
  try sl_unfold_words
  first
    | rw [View.canon_cons_unit_zero (S := S1x64) hz, View.readCov_unit_zero (S := S1x64) _ hz]
    | rw [View.canon_unit_zero hz]
  simp only [View.readAt_eq_ld, h1.read_unread, h2.read_unread, h3.read_unread, h4.read_unread, h5.read_unread,
    h6.read_unread, h7.read_unread, h8.read_unread, View.ld_unit_zero (S := S5000x64) hz, View.ld_unit_zero (S := S64x64) hz,
    View.ld_unit_zero (S := S1x64) hz, View.ld_unit_zero (S := S64x64) hz, View.ld_unit_zero (S := S5000x64) hz]

end Cert.KernelIdeal.Stats2

end
-- ==== Proof.Stats2Pay.lean ====
/-
  The statistics kernel's stored values at an entry: the block of features is the two-layer perceptron (two matrix
  products into a zero accumulator, each plus a bias row, each clamped at zero) of the loaded row block, and each running
  row is what it held plus the column sums of the block.
-/
import proofs.«169884_j31009663877671_1_alg».proof.Proof.Gen.KernelIdeal.Skeleton
import proofs.«169884_j31009663877671_1_alg».proof.Proof.GinSpec
import proofs.«169884_j31009663877671_1_alg».proof.Proof.LibColReduce
import Idealize.ShloMosaic.Lib.Pipeline.Value
import Idealize.ShloMosaic.Lib.ValueIdx

noncomputable section

namespace Cert.KernelIdeal.Stats2

open Cert.KernelIdeal Cert.KernelIdeal.Gen Cert.Gin Cert.RowAffine
open Idealize.ShloMosaic Idealize.ShloMosaic.TcCoe Idealize.SL.Sem Idealize.ShloMosaic.ValueIdx

/-- The zero word is zero. -/
theorem zero_word : (Scalar.ofBits (F := Ideal) .f32 0x00000000#32 : EReal) = 0 := Ideal.ofBits_zero_f32

/-- The body's stored block of features: the two-layer perceptron of the loaded row block. -/
theorem payT_eq (x0 : Vec Ideal S5000x64 .f32) (x1 : Vec Ideal S64x64 .f32) (x2 : Vec Ideal S1x64 .f32)
    (x3 : Vec Ideal S64x64 .f32) (x4 : Vec Ideal S1x64 .f32) :
    k2_pay4 (F := Ideal) x0 x1 x2 x3 x4 = mlp x0 x1 x2 x3 x4 := by
  funext j
  obtain ⟨p, q, rfl⟩ : ∃ (p : Fin 5000) (q : Fin 64), j = ix2 p q := ⟨j 0, j 1, eq_ix2 j⟩
  unfold k2_pay4
  rw [shapeCast_self x0, shapeCast_self x1, shapeCast_self x3, maximumf_apply, broadcast_apply, zero_word]
  unfold mlp
  rw [relu_apply]
  refine congrArg (max · 0) ?_
  refine (RowAffine.kernel_apply _ rfl (by decide) none _ x3 x4 _ _ _ p q).trans ?_
  refine rowAffine_row_congr _ _ x3 x4 p p (fun c => ?_) q
  rw [maximumf_apply, broadcast_apply, relu_apply]
  exact congrArg (max · 0) (RowAffine.kernel_apply _ rfl (by decide) none x0 x1 x2 _ _ _ p c)

/-- A length-64 vector viewed as a 1×64 row, at (0, q). -/
theorem row_of_vec (v : Vec Ideal S64 .f32) (q : Fin 64) :
    shapeCast S1x64 v shapeCasts_S64_S1x64 (ix2 0 q) = v (ix1 q) := RowVector.shapeCast_row v _ q

/-- The running column sums after a block: what was there plus the block's column sums. -/
theorem paySum_apply (T : Vec Ideal S5000x64 .f32) (acc : Vec Ideal S1x64 .f32) (q : Fin 64) :
    addf (shapeCast S1x64 acc shapeCasts_S1x64_S1x64)
        (shapeCast S1x64 (multiReduction (F := Ideal) .add [0] S64 T 0x00000000#32 reduces_S5000x64_S64 (.inl rfl) rfl) shapeCasts_S64_S1x64)
        (ix2 0 q)
      = acc (ix2 0 q) + ∑ p : Fin 5000, T (ix2 p q) := by
  rw [addf_apply, shapeCast_self, row_of_vec]
  exact congrArg (acc (ix2 0 q) + ·) (ColReduce.colSum_apply T 0x00000000#32 _ _ _ q)

end Cert.KernelIdeal.Stats2

end
-- ==== Proof.Stats2Acc.lean ====
/-
  The statistics kernel over its twenty grid points: after point n the feature block is the perceptron of row block n,
  and the two running rows hold the column sums of the features, and of their squares, over the first 5000 (n + 1) rows.
-/
import proofs.«169884_j31009663877671_1_alg».proof.Proof.Gen.KernelIdeal.Frame
import proofs.«169884_j31009663877671_1_alg».proof.Proof.Stats2Val
import proofs.«169884_j31009663877671_1_alg».proof.Proof.Stats2Pay
import proofs.«169884_j31009663877671_1_alg».proof.Proof.LibBlockSums
import Idealize.ShloMosaic.Lib.Pipeline.Value
import Idealize.ShloMosaic.Lib.ValueIdx

noncomputable section

namespace Cert.KernelIdeal.Stats2

open Cert.KernelIdeal Cert.KernelIdeal.Gen Cert.Gin Cert.RowAffine Cert.Lib.BlockSums
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps over the grid: the two row windows move with the point, every other window stays. -/
theorem idx_facts : ∀ t : Fin cfg2.N, win2_0.index t (0 : Fin 2) = t.val ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

theorem lt_rows (t : Fin cfg2.N) (p : Fin 5000) : 5000 * t.val + p.val < 100000 := by
  have hN : cfg2.N = 20 := N_2
  have := t.isLt; have := p.isLt; omega

/-- Row block t of the aggregated features, read at (p, k). -/
theorem rdA (c : Dev nD) (t : Fin cfg2.N) (p : Fin 5000) (k : Fin 64) :
    iblk2 V c 0 t (ix2 p k) = (V c (Pipeline.arrRef spec2 0) : S100000x64.Idx → EReal) (ix2 ⟨5000 * t.val + p.val, lt_rows t p⟩ k) := by
  obtain ⟨e0, e1, -⟩ := idx_facts t
  unfold iblk2
  rw [View.read_apply]
  refine congrArg (V c (Pipeline.arrRef spec2 0)) ?_
  funext a; apply Fin.ext
  match a with
  | ⟨0, _⟩ => show win2_0.index t (0 : Fin 2) * 5000 + 1 * p.val = 5000 * t.val + p.val; omega
  | ⟨1, _⟩ => show win2_0.index t (1 : Fin 2) * 64 + 1 * k.val = k.val; omega

theorem rdW1 (c : Dev nD) (t : Fin cfg2.N) : iblk2 V c 1 t = (V c (Pipeline.arrRef spec2 1) : S64x64.Idx → EReal) := by
  obtain ⟨-, -, -, -, e0, e1, -⟩ := idx_facts t
  funext j
  unfold iblk2
  rw [View.read_apply]
  refine congrArg (V c (Pipeline.arrRef spec2 1)) ?_
  funext a; apply Fin.ext
  match a with
  | ⟨0, _⟩ => show win2_1.index t (0 : Fin 2) * 64 + 1 * (j 0).val = (j 0).val; omega
  | ⟨1, _⟩ => show win2_1.index t (1 : Fin 2) * 64 + 1 * (j 1).val = (j 1).val; omega

theorem rdB1 (c : Dev nD) (t : Fin cfg2.N) : iblk2 V c 2 t = (V c (Pipeline.arrRef spec2 2) : S1x64.Idx → EReal) := by
  obtain ⟨-, -, -, -, -, -, e0, e1, -⟩ := idx_facts t
  funext j
  unfold iblk2
  rw [View.read_apply]
  refine congrArg (V c (Pipeline.arrRef spec2 2)) ?_
  funext a; apply Fin.ext
  match a with
  | ⟨0, _⟩ => show win2_2.index t (0 : Fin 2) * 1 + 1 * (j 0).val = (j 0).val; omega
  | ⟨1, _⟩ => show win2_2.index t (1 : Fin 2) * 64 + 1 * (j 1).val = (j 1).val; omega

theorem rdW2 (c : Dev nD) (t : Fin cfg2.N) : iblk2 V c 3 t = (V c (Pipeline.arrRef spec2 3) : S64x64.Idx → EReal) := by
  obtain ⟨-, -, -, -, -, -, -, -, e0, e1, -⟩ := idx_facts t
  funext j
  unfold iblk2
  rw [View.read_apply]
  refine congrArg (V c (Pipeline.arrRef spec2 3)) ?_
  funext a; apply Fin.ext
  match a with
  | ⟨0, _⟩ => show win2_3.index t (0 : Fin 2) * 64 + 1 * (j 0).val = (j 0).val; omega
  | ⟨1, _⟩ => show win2_3.index t (1 : Fin 2) * 64 + 1 * (j 1).val = (j 1).val; omega

theorem rdB2 (c : Dev nD) (t : Fin cfg2.N) : iblk2 V c 4 t = (V c (Pipeline.arrRef spec2 4) : S1x64.Idx → EReal) := by
  obtain ⟨-, -, -, -, -, -, -, -, -, -, e0, e1, -⟩ := idx_facts t
  funext j
  unfold iblk2
  rw [View.read_apply]
  refine congrArg (V c (Pipeline.arrRef spec2 4)) ?_
  funext a; apply Fin.ext
  match a with
  | ⟨0, _⟩ => show win2_4.index t (0 : Fin 2) * 1 + 1 * (j 0).val = (j 0).val; omega
  | ⟨1, _⟩ => show win2_4.index t (1 : Fin 2) * 64 + 1 * (j 1).val = (j 1).val; omega

/-- The feature array: the perceptron of the aggregated features, row by row. -/
def Tfull (c : Dev nD) : S100000x64.Idx → EReal :=
  mlp (V c (Pipeline.arrRef spec2 0) : S100000x64.Idx → EReal) (V c (Pipeline.arrRef spec2 1) : S64x64.Idx → EReal)
    (V c (Pipeline.arrRef spec2 2) : S1x64.Idx → EReal) (V c (Pipeline.arrRef spec2 3) : S64x64.Idx → EReal)
    (V c (Pipeline.arrRef spec2 4) : S1x64.Idx → EReal)

/-- The block of features point t stores. -/
def Tblk (c : Dev nD) (t : Fin cfg2.N) : S5000x64.Idx → EReal :=
  k2_pay4 (F := Ideal) (iblk2 V c 0 t) (iblk2 V c 1 t) (iblk2 V c 2 t) (iblk2 V c 3 t) (iblk2 V c 4 t)

/-- It is row block t of the feature array. -/
theorem Tblk_apply (c : Dev nD) (t : Fin cfg2.N) (p : Fin 5000) (q : Fin 64) :
    Tblk V c t (ix2 p q) = Tfull V c (ix2 ⟨5000 * t.val + p.val, lt_rows t p⟩ q) := by
  unfold Tblk Tfull
  refine (congrFun (payT_eq _ _ _ _ _) _).trans ?_
  rw [rdW1 V c t, rdB1 V c t, rdW2 V c t, rdB2 V c t]
  exact mlp_row_congr _ _ _ _ _ _ p ⟨5000 * t.val + p.val, lt_rows t p⟩ (fun k => rdA V c t p k) q

/-- Column sums of the features over the first k rows, as a 1×64 row. -/
def Srow (c : Dev nD) (k : ℕ) : S1x64.Idx → EReal :=
  fun i => psum (fun r : Fin 100000 => Tfull V c (ix2 r (i 1))) k

/-- Column sums of the squared features over the first k rows, as a 1×64 row. -/
def Qrow (c : Dev nD) (k : ℕ) : S1x64.Idx → EReal :=
  fun i => psum (fun r : Fin 100000 => Tfull V c (ix2 r (i 1)) * Tfull V c (ix2 r (i 1))) k

theorem Srow_apply (c : Dev nD) (k : ℕ) (q : Fin 64) :
    Srow V c k (ix2 0 q) = psum (fun r : Fin 100000 => Tfull V c (ix2 r q)) k := rfl

theorem Qrow_apply (c : Dev nD) (k : ℕ) (q : Fin 64) :
    Qrow V c k (ix2 0 q) = psum (fun r : Fin 100000 => Tfull V c (ix2 r q) * Tfull V c (ix2 r q)) k := rfl

theorem row_idx (i : S1x64.Idx) : ∃ q : Fin 64, i = ix2 0 q := by
  obtain ⟨z, q, rfl⟩ : ∃ (z : Fin 1) (q : Fin 64), i = ix2 z q := ⟨i 0, i 1, eq_ix2 i⟩
  obtain rfl : z = 0 := Subsingleton.elim _ _
  exact ⟨q, rfl⟩

/-- The running sum row after a point: what was there plus the column sums of the point's feature block. -/
theorem sumRow_apply (c : Dev nD) (t : Fin cfg2.N) (acc : Vec Ideal S1x64 .f32) (q : Fin 64) :
    k2_pay5 (F := Ideal) (iblk2 V c 0 t) (iblk2 V c 1 t) (iblk2 V c 2 t) (iblk2 V c 3 t) (iblk2 V c 4 t) acc (ix2 0 q)
      = acc (ix2 0 q) + ∑ p : Fin 5000, Tfull V c (ix2 ⟨5000 * t.val + p.val, lt_rows t p⟩ q) := by
  unfold k2_pay5
  refine (paySum_apply _ _ q).trans ?_
  exact congrArg (acc (ix2 0 q) + ·) (Finset.sum_congr rfl fun p _ => Tblk_apply V c t p q)

/-- The running sum-of-squares row after a point. -/
theorem sqRow_apply (c : Dev nD) (t : Fin cfg2.N) (acc : Vec Ideal S1x64 .f32) (q : Fin 64) :
    k2_pay1 (F := Ideal) (k2_pay4 (iblk2 V c 0 t) (iblk2 V c 1 t) (iblk2 V c 2 t) (iblk2 V c 3 t) (iblk2 V c 4 t)) acc (ix2 0 q)
      = acc (ix2 0 q) + ∑ p : Fin 5000, Tfull V c (ix2 ⟨5000 * t.val + p.val, lt_rows t p⟩ q)
          * Tfull V c (ix2 ⟨5000 * t.val + p.val, lt_rows t p⟩ q) := by
  unfold k2_pay1
  refine (paySum_apply _ _ q).trans ?_
  refine congrArg (acc (ix2 0 q) + ·) (Finset.sum_congr rfl fun p _ => ?_)
  rw [mulf_apply]
  exact congrArg (fun z => z * z) (Tblk_apply V c t p q)

/-- After point n: the feature block of row block n, and the two rows summed over the first 5000 (n + 1) rows. -/
theorem outsAt_eq (c : Dev nD) : ∀ (n : ℕ) (h : n < cfg2.N),
    outsAt2 V c n h = (Tblk V c ⟨n, h⟩, Srow V c (5000 * (n + 1)), Qrow V c (5000 * (n + 1)))
  | 0, h => by
    rw [outsAt2_A V c ⟨0, h⟩ rfl, outA5, outA6, outA7]
    refine Prod.ext rfl (Prod.ext ?_ ?_) <;> dsimp only
    · funext i
      obtain ⟨q, rfl⟩ := row_idx i
      refine (sumRow_apply V c ⟨0, h⟩ _ q).trans ?_
      unfold k2_pay2
      rw [broadcast_apply, zero_word, zero_add, Srow_apply, show 5000 * (0 + 1) = 5000 from by norm_num,
        psum_first _ 5000 (by norm_num)]
      exact Finset.sum_congr rfl fun p _ => congrArg (fun r => Tfull V c (ix2 r q)) (Fin.ext (by simp))
    · funext i
      obtain ⟨q, rfl⟩ := row_idx i
      refine (sqRow_apply V c ⟨0, h⟩ _ q).trans ?_
      unfold k2_pay3
      rw [broadcast_apply, zero_word, zero_add, Qrow_apply, show 5000 * (0 + 1) = 5000 from by norm_num,
        psum_first _ 5000 (by norm_num)]
      exact Finset.sum_congr rfl fun p _ =>
        congrArg (fun r => Tfull V c (ix2 r q) * Tfull V c (ix2 r q)) (Fin.ext (by simp))
  | n + 1, h => by
    have hN : cfg2.N = 20 := N_2
    have hB : ¬(⟨n + 1, h⟩ : Fin cfg2.N).val % 20 = 0 := by dsimp only; omega
    have hp : outsAt2 V c ((⟨n + 1, h⟩ : Fin cfg2.N).val - 1) (Nat.lt_of_le_of_lt (Nat.sub_le _ _) h)
        = (Tblk V c ⟨n, Nat.lt_of_succ_lt h⟩, Srow V c (5000 * (n + 1)), Qrow V c (5000 * (n + 1))) :=
      outsAt_eq c n (Nat.lt_of_succ_lt h)
    rw [outsAt2_B V c ⟨n + 1, h⟩ hB, hp, outB5, outB6, outB7]
    refine Prod.ext rfl (Prod.ext ?_ ?_) <;> dsimp only
    · funext i
      obtain ⟨q, rfl⟩ := row_idx i
      refine (sumRow_apply V c ⟨n + 1, h⟩ _ q).trans ?_
      rw [Srow_apply, Srow_apply, show 5000 * (n + 1 + 1) = 5000 * (n + 1) + 5000 from by ring,
        psum_add _ _ 5000 (by omega)]
    · funext i
      obtain ⟨q, rfl⟩ := row_idx i
      refine (sqRow_apply V c ⟨n + 1, h⟩ _ q).trans ?_
      rw [Qrow_apply, Qrow_apply, show 5000 * (n + 1 + 1) = 5000 * (n + 1) + 5000 from by ring,
        psum_add _ _ 5000 (by omega)]

end Cert.KernelIdeal.Stats2

end
-- ==== Proof.Stats2Fin.lean ====
/-
  The three arrays the statistics region leaves: the features (the perceptron of the aggregated features, all rows),
  and the two 1×64 rows of column sums of the features and of their squares over all rows.
-/
import proofs.«169884_j31009663877671_1_alg».proof.Proof.Stats2Acc

noncomputable section

namespace Cert.KernelIdeal.Stats2

open Cert.KernelIdeal Cert.KernelIdeal.Gen Cert.Gin Cert.RowAffine Cert.Lib.BlockSums
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The column sums of the features over all rows, as a 1×64 row. -/
def Ssum (c : Dev nD) : S1x64.Idx → EReal := colSumRow (Tfull V c)

/-- The column sums of the squared features over all rows, as a 1×64 row. -/
def Qsum (c : Dev nD) : S1x64.Idx → EReal := colSqRow (Tfull V c)

theorem Ssum_apply (c : Dev nD) (q : Fin 64) : Ssum V c (ix2 0 q) = ∑ r : Fin 100000, Tfull V c (ix2 r q) := rfl
theorem Qsum_apply (c : Dev nD) (q : Fin 64) :
    Qsum V c (ix2 0 q) = ∑ r : Fin 100000, Tfull V c (ix2 r q) * Tfull V c (ix2 r q) := rfl

/-- What point t writes back for the features is row block t of the feature array. -/
theorem flushed_eq5 (c : Dev nD) (t : Fin cfg2.N) :
    (dat2 V c).flushed 5 t = ((cfg2.win 5).blk t).view.read (Elt Ideal) (Tfull V c) := by
  show (cfg2.win 5).cut (grid2.coords t) ((dat2 V c).after 5 t) = _
  rw [after2_5, outsAt_eq V c t.val t.isLt]
  dsimp only
  obtain ⟨-, -, e2, e3, -⟩ := idx_facts t
  funext j
  obtain ⟨p, q, rfl⟩ : ∃ (p : Fin 5000) (q : Fin 64), j = ix2 p q := ⟨j 0, j 1, eq_ix2 j⟩
  have he : ((cfg2.win 5).blk t).view.emb (ix2 p q) = (ix2 ⟨5000 * t.val + p.val, lt_rows t p⟩ q : S100000x64.Idx) := by
    funext a; apply Fin.ext
    match a with
    | ⟨0, _⟩ => show win2_5.index t (0 : Fin 2) * 5000 + 1 * p.val = 5000 * t.val + p.val; omega
    | ⟨1, _⟩ => show win2_5.index t (1 : Fin 2) * 64 + 1 * q.val = q.val; omega
  rw [View.read_apply, he]
  exact (Tblk_apply V c t p q).trans (cast_eq _ _).symm

theorem mem_blk5 (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v64_0).slice (win2_5.rect t)).set ↔ _
  rw [View.set_slice_whole, Rect.mem_set_unit]
  exact Iff.rfl

/-- The feature array after the region. -/
theorem final5 (c : Dev nD) : (dat2 V c).arrAt 5 cfg2.N = Tfull V c :=
  (dat2 V c).arrAt_eq_of_cover 5 (Tfull V c) (fun t _ => flushed_eq5 V c t) fun i => by
    have hN : cfg2.N = 20 := N_2
    have hi0 : (i 0).val < 100000 := (i 0).isLt
    have hi1 : (i 1).val < 64 := (i 1).isLt
    refine ⟨⟨(i 0).val / 5000, by omega⟩, flush2_5 _, ?_⟩
    rw [mem_blk5]
    obtain ⟨-, -, e2, e3, -⟩ := idx_facts ⟨(i 0).val / 5000, by omega⟩
    intro a
    match a with
    | ⟨0, _⟩ => show win2_5.index _ (0 : Fin 2) * 5000 ≤ (i 0).val ∧ (i 0).val < win2_5.index _ (0 : Fin 2) * 5000 + 5000; rw [e2]; dsimp only; omega
    | ⟨1, _⟩ => show win2_5.index _ (1 : Fin 2) * 64 ≤ (i 1).val ∧ (i 1).val < win2_5.index _ (1 : Fin 2) * 64 + 64; rw [e3]; omega

/-- What the last point writes back for window 6: the whole row of the column sums of the features. -/
theorem flushed_eq6 (c : Dev nD) (t : Fin cfg2.N) (hf : (cfg2.win 6).flush t = true) :
    (dat2 V c).flushed 6 t = ((cfg2.win 6).blk t).view.read (Elt Ideal) (Ssum V c) := by
  have hN : cfg2.N = 20 := N_2
  have h19 : t.val = 19 := by have := (flush2_6 t).mp hf; have := t.isLt; omega
  show (cfg2.win 6).cut (grid2.coords t) ((dat2 V c).after 6 t) = _
  rw [after2_6, outsAt_eq V c t.val t.isLt]
  dsimp only
  obtain ⟨-, -, -, -, -, -, -, -, -, -, -, -, e0, e1, -⟩ := idx_facts t
  funext j
  obtain ⟨q, rfl⟩ := row_idx j
  have he : ((cfg2.win 6).blk t).view.emb (ix2 0 q) = (ix2 0 q : S1x64.Idx) := by
    funext a; apply Fin.ext
    match a with
    | ⟨0, _⟩ => show win2_6.index t (0 : Fin 2) * 1 + 1 * 0 = 0; omega
    | ⟨1, _⟩ => show win2_6.index t (1 : Fin 2) * 64 + 1 * q.val = q.val; omega
  rw [View.read_apply, he]
  refine Eq.trans ?_ (cast_eq _ _).symm
  show Srow V c (5000 * (t.val + 1)) (ix2 0 q) = Ssum V c (ix2 0 q)
  rw [Srow_apply, Ssum_apply, h19, show 5000 * (19 + 1) = 100000 from by norm_num, psum_full]

theorem mem_blk6 (t : Fin cfg2.N) (i : S1x64.Idx) :
    i ∈ ((cfg2.win 6).blk t).view.set ↔ ∀ a : Fin 2, win2_6.index t a * S1x64.size a ≤ (i a).val ∧ (i a).val < win2_6.index t a * S1x64.size a + S1x64.size a := by
  show i ∈ ((View.whole main_v64_1).slice (win2_6.rect t)).set ↔ _
  rw [View.set_slice_whole, Rect.mem_set_unit]
  exact Iff.rfl

/-- The row after the region: the column sums of the features. -/
theorem final6 (c : Dev nD) : (dat2 V c).arrAt 6 cfg2.N = Ssum V c :=
  (dat2 V c).arrAt_eq_of_cover 6 (Ssum V c) (fun t hf => flushed_eq6 V c t hf) fun i => by
    have hN : cfg2.N = 20 := N_2
    have hi0 : (i 0).val < 1 := (i 0).isLt
    have hi1 : (i 1).val < 64 := (i 1).isLt
    refine ⟨⟨19, by omega⟩, (flush2_6 _).mpr rfl, ?_⟩
    rw [mem_blk6]
    obtain ⟨-, -, -, -, -, -, -, -, -, -, -, -, e0, e1, -⟩ := idx_facts ⟨19, by omega⟩
    intro a
    match a with
    | ⟨0, _⟩ => show win2_6.index _ (0 : Fin 2) * 1 ≤ (i 0).val ∧ (i 0).val < win2_6.index _ (0 : Fin 2) * 1 + 1; rw [e0]; omega
    | ⟨1, _⟩ => show win2_6.index _ (1 : Fin 2) * 64 ≤ (i 1).val ∧ (i 1).val < win2_6.index _ (1 : Fin 2) * 64 + 64; rw [e1]; omega

/-- What the last point writes back for window 7: the whole row of the column sums of the squared features. -/
theorem flushed_eq7 (c : Dev nD) (t : Fin cfg2.N) (hf : (cfg2.win 7).flush t = true) :
    (dat2 V c).flushed 7 t = ((cfg2.win 7).blk t).view.read (Elt Ideal) (Qsum V c) := by
  have hN : cfg2.N = 20 := N_2
  have h19 : t.val = 19 := by have := (flush2_7 t).mp hf; have := t.isLt; omega
  show (cfg2.win 7).cut (grid2.coords t) ((dat2 V c).after 7 t) = _
  rw [after2_7, outsAt_eq V c t.val t.isLt]
  dsimp only
  obtain ⟨-, -, -, -, -, -, -, -, -, -, -, -, -, -, e0, e1⟩ := idx_facts t
  funext j
  obtain ⟨q, rfl⟩ := row_idx j
  have he : ((cfg2.win 7).blk t).view.emb (ix2 0 q) = (ix2 0 q : S1x64.Idx) := by
    funext a; apply Fin.ext
    match a with
    | ⟨0, _⟩ => show win2_7.index t (0 : Fin 2) * 1 + 1 * 0 = 0; omega
    | ⟨1, _⟩ => show win2_7.index t (1 : Fin 2) * 64 + 1 * q.val = q.val; omega
  rw [View.read_apply, he]
  refine Eq.trans ?_ (cast_eq _ _).symm
  show Qrow V c (5000 * (t.val + 1)) (ix2 0 q) = Qsum V c (ix2 0 q)
  rw [Qrow_apply, Qsum_apply, h19, show 5000 * (19 + 1) = 100000 from by norm_num, psum_full]

theorem mem_blk7 (t : Fin cfg2.N) (i : S1x64.Idx) :
    i ∈ ((cfg2.win 7).blk t).view.set ↔ ∀ a : Fin 2, win2_7.index t a * S1x64.size a ≤ (i a).val ∧ (i a).val < win2_7.index t a * S1x64.size a + S1x64.size a := by
  show i ∈ ((View.whole main_v64_2).slice (win2_7.rect t)).set ↔ _
  rw [View.set_slice_whole, Rect.mem_set_unit]
  exact Iff.rfl

/-- The row after the region: the column sums of the squared features. -/
theorem final7 (c : Dev nD) : (dat2 V c).arrAt 7 cfg2.N = Qsum V c :=
  (dat2 V c).arrAt_eq_of_cover 7 (Qsum V c) (fun t hf => flushed_eq7 V c t hf) fun i => by
    have hN : cfg2.N = 20 := N_2
    have hi0 : (i 0).val < 1 := (i 0).isLt
    have hi1 : (i 1).val < 64 := (i 1).isLt
    refine ⟨⟨19, by omega⟩, (flush2_7 _).mpr rfl, ?_⟩
    rw [mem_blk7]
    obtain ⟨-, -, -, -, -, -, -, -, -, -, -, -, -, -, e0, e1⟩ := idx_facts ⟨19, by omega⟩
    intro a
    match a with
    | ⟨0, _⟩ => show win2_7.index _ (0 : Fin 2) * 1 ≤ (i 0).val ∧ (i 0).val < win2_7.index _ (0 : Fin 2) * 1 + 1; rw [e0]; omega
    | ⟨1, _⟩ => show win2_7.index _ (1 : Fin 2) * 64 ≤ (i 1).val ∧ (i 1).val < win2_7.index _ (1 : Fin 2) * 64 + 64; rw [e1]; omega

end Cert.KernelIdeal.Stats2

end
-- ==== Proof.Norm3.lean ====
/-
  The normalisation region: every block of 5000 rows is sent to γ * (t - mean) * rsqrt (var + ε) + β with the four 1×64
  rows the same at every grid point, and the twenty blocks tile the array; so the array the region leaves is that
  normalisation of the whole feature array, entry by entry.
-/
import proofs.«169884_j31009663877671_1_alg».proof.Proof.Gen.KernelIdeal.Frame
import proofs.«169884_j31009663877671_1_alg».proof.Proof.GinSpec
import Idealize.ShloMosaic.Lib.Pipeline.Value
import Idealize.ShloMosaic.Lib.ValueIdx

noncomputable section

namespace Cert.KernelIdeal.Norm3

open Cert.KernelIdeal Cert.KernelIdeal.Gen Cert.Gin
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- The body's one store at an entry. -/
theorem pay_apply (x : Vec Ideal S5000x64 .f32) (var γ mean β : Vec Ideal S1x64 .f32) (p : Fin 5000) (q : Fin 64) :
    k3_pay1 (F := Ideal) x var γ mean β (ix2 p q)
      = normRows x mean var γ β (Ideal.ofBits .f32 0x3727C5AC#32) (ix2 p q) := by
  unfold k3_pay1
  simp only [shapeCast_self]
  rw [normRows_apply, addf_apply, mulf_apply, mulf_apply, subf_apply]
  rw [RowVector.broadcastTo_row (by decide), RowVector.broadcastTo_row (by decide), RowVector.broadcastTo_row (by decide),
    RowVector.broadcastTo_row (by decide)]
  rfl

variable (V : (c : Dev nD) → (b : Ref sig .tc) → Buf (Elt Ideal) ((c : Thread nD τ).loc b))

/-- The printed index maps over the grid: the row windows move with the point, the 1×64 rows stay. -/
theorem idx_facts : ∀ t : Fin cfg3.N, win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

theorem lt_rows (t : Fin cfg3.N) (p : Fin 5000) : 5000 * t.val + p.val < 100000 := by
  have hN : cfg3.N = 20 := N_3
  have := t.isLt; have := p.isLt; omega

/-- Row block t of the data window, read at (p, q). -/
theorem rd0 (c : Dev nD) (t : Fin cfg3.N) (p : Fin 5000) (q : Fin 64) :
    iblk3 V c 0 t (ix2 p q) = (V c (Pipeline.arrRef spec3 0) : S100000x64.Idx → EReal) (ix2 ⟨5000 * t.val + p.val, lt_rows t p⟩ q) := by
  obtain ⟨e0, e1, -⟩ := idx_facts t
  unfold iblk3
  rw [View.read_apply]
  refine congrArg (V c (Pipeline.arrRef spec3 0)) ?_
  funext a; apply Fin.ext
  match a with
  | ⟨0, _⟩ => show win3_0.index t (0 : Fin 2) * 5000 + 1 * p.val = 5000 * t.val + p.val; omega
  | ⟨1, _⟩ => show win3_0.index t (1 : Fin 2) * 64 + 1 * q.val = q.val; omega

/-- The 1×64 row of window 1, read at (0, q): the whole row is the block at every point. -/
theorem rd1 (c : Dev nD) (t : Fin cfg3.N) (q : Fin 64) :
    iblk3 V c 1 t (ix2 0 q) = (V c (Pipeline.arrRef spec3 1) : S1x64.Idx → EReal) (ix2 0 q) := by
  obtain ⟨-, -, -, -, e0, e1, -⟩ := idx_facts t
  unfold iblk3
  rw [View.read_apply]
  refine congrArg (V c (Pipeline.arrRef spec3 1)) ?_
  funext a; apply Fin.ext
  match a with
  | ⟨0, _⟩ => show win3_1.index t (0 : Fin 2) * 1 + 1 * 0 = 0; omega
  | ⟨1, _⟩ => show win3_1.index t (1 : Fin 2) * 64 + 1 * q.val = q.val; omega

/-- The 1×64 row of window 2, read at (0, q): the whole row is the block at every point. -/
theorem rd2 (c : Dev nD) (t : Fin cfg3.N) (q : Fin 64) :
    iblk3 V c 2 t (ix2 0 q) = (V c (Pipeline.arrRef spec3 2) : S1x64.Idx → EReal) (ix2 0 q) := by
  obtain ⟨-, -, -, -, -, -, e0, e1, -⟩ := idx_facts t
  unfold iblk3
  rw [View.read_apply]
  refine congrArg (V c (Pipeline.arrRef spec3 2)) ?_
  funext a; apply Fin.ext
  match a with
  | ⟨0, _⟩ => show win3_2.index t (0 : Fin 2) * 1 + 1 * 0 = 0; omega
  | ⟨1, _⟩ => show win3_2.index t (1 : Fin 2) * 64 + 1 * q.val = q.val; omega

/-- The 1×64 row of window 3, read at (0, q): the whole row is the block at every point. -/
theorem rd3 (c : Dev nD) (t : Fin cfg3.N) (q : Fin 64) :
    iblk3 V c 3 t (ix2 0 q) = (V c (Pipeline.arrRef spec3 3) : S1x64.Idx → EReal) (ix2 0 q) := by
  obtain ⟨-, -, -, -, -, -, -, -, e0, e1, -⟩ := idx_facts t
  unfold iblk3
  rw [View.read_apply]
  refine congrArg (V c (Pipeline.arrRef spec3 3)) ?_
  funext a; apply Fin.ext
  match a with
  | ⟨0, _⟩ => show win3_3.index t (0 : Fin 2) * 1 + 1 * 0 = 0; omega
  | ⟨1, _⟩ => show win3_3.index t (1 : Fin 2) * 64 + 1 * q.val = q.val; omega

/-- The 1×64 row of window 4, read at (0, q): the whole row is the block at every point. -/
theorem rd4 (c : Dev nD) (t : Fin cfg3.N) (q : Fin 64) :
    iblk3 V c 4 t (ix2 0 q) = (V c (Pipeline.arrRef spec3 4) : S1x64.Idx → EReal) (ix2 0 q) := by
  obtain ⟨-, -, -, -, -, -, -, -, -, -, e0, e1⟩ := idx_facts t
  unfold iblk3
  rw [View.read_apply]
  refine congrArg (V c (Pipeline.arrRef spec3 4)) ?_
  funext a; apply Fin.ext
  match a with
  | ⟨0, _⟩ => show win3_4.index t (0 : Fin 2) * 1 + 1 * 0 = 0; omega
  | ⟨1, _⟩ => show win3_4.index t (1 : Fin 2) * 64 + 1 * q.val = q.val; omega

/-- The array the region leaves in its output window where covered: the normalisation of the data array by the
    four rows, entry by entry. -/
abbrev G (c : Dev nD) : S100000x64.Idx → EReal :=
  normRows (V c (Pipeline.arrRef spec3 0)) (V c (Pipeline.arrRef spec3 1)) (V c (Pipeline.arrRef spec3 2))
    (V c (Pipeline.arrRef spec3 3)) (V c (Pipeline.arrRef spec3 4)) (Ideal.ofBits .f32 0x3727C5AC#32)

/-- What point t writes back is block t of that array. -/
theorem flushed_eq (c : Dev nD) (t : Fin cfg3.N) :
    (dat3 V c).flushed 5 t = ((cfg3.win 5).blk t).view.read (Elt Ideal) (G V c) := by
  show (cfg3.win 5).cut (grid3.coords t) ((dat3 V c).after 5 t) = _
  rw [after3_5]
  unfold out3_5
  rw [View.canon_unit_zero hz]
  simp only [View.ld_unit_zero (S := S5000x64) hz, View.ld_unit_zero (S := S1x64) hz]
  funext j
  obtain ⟨p, q, rfl⟩ : ∃ (p : Fin 5000) (q : Fin 64), j = ix2 p q := ⟨j 0, j 1, eq_ix2 j⟩
  refine (pay_apply _ _ _ _ _ p q).trans ?_
  obtain ⟨-, -, e2, e3, -⟩ := idx_facts t
  have he : ((cfg3.win 5).blk t).view.emb (ix2 p q) = (ix2 ⟨5000 * t.val + p.val, lt_rows t p⟩ q : S100000x64.Idx) := by
    funext a; apply Fin.ext
    match a with
    | ⟨0, _⟩ => show win3_5.index t (0 : Fin 2) * 5000 + 1 * p.val = 5000 * t.val + p.val; omega
    | ⟨1, _⟩ => show win3_5.index t (1 : Fin 2) * 64 + 1 * q.val = q.val; omega
  rw [View.read_apply, he, normRows_apply, rd0, rd1, rd2, rd3, rd4]
  exact (cast_eq _ _).symm

/-- An index of the array is in point t's block iff each coordinate is in the block's range on its axis. -/
theorem mem_blk (t : Fin cfg3.N) (i : S100000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v77).slice (win3_5.rect t)).set ↔ _
  rw [View.set_slice_whole, Rect.mem_set_unit]
  exact Iff.rfl

/-- The array after the region: the twenty row blocks tile it, so it is the normalisation everywhere. -/
theorem final (c : Dev nD) : (dat3 V c).arrAt 5 cfg3.N = G V c :=
  (dat3 V c).arrAt_eq_of_cover 5 (G V c) (fun t _ => flushed_eq V c t) fun i => by
    have hN : cfg3.N = 20 := N_3
    have hi0 : (i 0).val < 100000 := (i 0).isLt
    have hi1 : (i 1).val < 64 := (i 1).isLt
    refine ⟨⟨(i 0).val / 5000, by omega⟩, flush3_5 _, ?_⟩
    rw [mem_blk]
    obtain ⟨-, -, e2, e3, -⟩ := idx_facts ⟨(i 0).val / 5000, by omega⟩
    intro a
    match a with
    | ⟨0, _⟩ => show win3_5.index _ (0 : Fin 2) * 5000 ≤ (i 0).val ∧ (i 0).val < win3_5.index _ (0 : Fin 2) * 5000 + 5000; rw [e2]; dsimp only; omega
    | ⟨1, _⟩ => show win3_5.index _ (1 : Fin 2) * 64 ≤ (i 1).val ∧ (i 1).val < win3_5.index _ (1 : Fin 2) * 64 + 64; rw [e3]; omega

end Cert.KernelIdeal.Norm3

end
-- ==== Proof.KChain2.lean ====
/-
  The kernel's program read boundary by boundary: each stretch of host operations from what the region before left, each
  region's arrays from the stretch before it, so that every block's output is the kernel's block function of the block's
  input and of the argument arrays, and the argument arrays are found unchanged at every boundary.
-/
import proofs.«169884_j31009663877671_1_alg».proof.Proof.Gen.KernelIdeal.Frame
import proofs.«169884_j31009663877671_1_alg».proof.Proof.Stats2Fin
import proofs.«169884_j31009663877671_1_alg».proof.Proof.Norm3
import proofs.«169884_j31009663877671_1_alg».proof.Proof.KerForms
import Idealize.ShloMosaic.Lib.StableHlo.Run

set_option maxRecDepth 16384

noncomputable section

namespace Cert.KernelIdeal.Chain

open Cert.KernelIdeal Cert.KernelIdeal.Gen Cert.Gin Cert.ReferenceIdeal.Forms
open Idealize.ShloMosaic Idealize.ShloMosaic.TcCoe Idealize.SL.Sem Idealize.ShloMosaic.ValueIdx

variable (m : (ℓ : Loc nD τ sig) → Buf (Elt Ideal) ℓ) (ρ : Dev nD → PrngReg)

/-! ## Block 2 -/

set_option maxHeartbeats 4000000 in
theorem b2_agg (c : Dev nD) : W5 m ρ c (Proc.devRef .tc main_v61) = agg64 (W4 m ρ c (Proc.devRef .tc main_v34)) (W4 m ρ c (Proc.devRef .tc main_arg1)) := by
  show StableHlo.after hostOps2 (W4 m ρ c) (Proc.devRef .tc main_v61) = _
  after_results_simp
  rfl

set_option maxHeartbeats 4000000 in
theorem b2_W1 (c : Dev nD) : W5 m ρ c (Proc.devRef .tc main_v36) = slab (W4 m ρ c (Proc.devRef .tc main_arg7)) ![0, 0, 0] Cert.ReferenceIdeal.Facts₀.slices_S4x64x64_S1x64x64_0_0_0 := by
  show StableHlo.after hostOps2 (W4 m ρ c) (Proc.devRef .tc main_v36) = _
  after_results_simp
  rfl

set_option maxHeartbeats 4000000 in
theorem b2_b1 (c : Dev nD) : W5 m ρ c (Proc.devRef .tc main_v62) = asRow (row4 (W4 m ρ c (Proc.devRef .tc main_arg8)) ![0, 0] Cert.ReferenceIdeal.Facts₀.slices_S4x64_S1x64_0_0) := by
  show StableHlo.after hostOps2 (W4 m ρ c) (Proc.devRef .tc main_v62) = _
  after_results_simp
  rfl

set_option maxHeartbeats 4000000 in
theorem b2_W2 (c : Dev nD) : W5 m ρ c (Proc.devRef .tc main_v40) = slab (W4 m ρ c (Proc.devRef .tc main_arg9)) ![0, 0, 0] Cert.ReferenceIdeal.Facts₀.slices_S4x64x64_S1x64x64_0_0_0 := by
  show StableHlo.after hostOps2 (W4 m ρ c) (Proc.devRef .tc main_v40) = _
  after_results_simp
  rfl

set_option maxHeartbeats 4000000 in
theorem b2_b2 (c : Dev nD) : W5 m ρ c (Proc.devRef .tc main_v63) = asRow (row4 (W4 m ρ c (Proc.devRef .tc main_arg10)) ![0, 0] Cert.ReferenceIdeal.Facts₀.slices_S4x64_S1x64_0_0) := by
  show StableHlo.after hostOps2 (W4 m ρ c) (Proc.devRef .tc main_v63) = _
  after_results_simp
  rfl

set_option maxHeartbeats 4000000 in
theorem b2_g (c : Dev nD) : W5 m ρ c (Proc.devRef .tc main_v44) = row5 (W4 m ρ c (Proc.devRef .tc main_arg11)) ![1, 0] Cert.ReferenceIdeal.Facts₀.slices_S5x64_S1x64_1_0 := by
  show StableHlo.after hostOps2 (W4 m ρ c) (Proc.devRef .tc main_v44) = _
  after_results_simp
  rfl

set_option maxHeartbeats 4000000 in
theorem b2_b (c : Dev nD) : W5 m ρ c (Proc.devRef .tc main_v46) = row5 (W4 m ρ c (Proc.devRef .tc main_arg12)) ![1, 0] Cert.ReferenceIdeal.Facts₀.slices_S5x64_S1x64_1_0 := by
  show StableHlo.after hostOps2 (W4 m ρ c) (Proc.devRef .tc main_v46) = _
  after_results_simp
  rfl

/-- The feature array of block 2. -/
abbrev T2 (c : Dev nD) : FVec Ideal Cert.ReferenceIdeal.S100000x64 .f32 :=
  mlp (agg64 (W4 m ρ c (Proc.devRef .tc main_v34)) (W4 m ρ c (Proc.devRef .tc main_arg1))) (slab (W4 m ρ c (Proc.devRef .tc main_arg7)) ![0, 0, 0] Cert.ReferenceIdeal.Facts₀.slices_S4x64x64_S1x64x64_0_0_0) (asRow (row4 (W4 m ρ c (Proc.devRef .tc main_arg8)) ![0, 0] Cert.ReferenceIdeal.Facts₀.slices_S4x64_S1x64_0_0)) (slab (W4 m ρ c (Proc.devRef .tc main_arg9)) ![0, 0, 0] Cert.ReferenceIdeal.Facts₀.slices_S4x64x64_S1x64x64_0_0_0) (asRow (row4 (W4 m ρ c (Proc.devRef .tc main_arg10)) ![0, 0] Cert.ReferenceIdeal.Facts₀.slices_S4x64_S1x64_0_0))

theorem b2_Tf (c : Dev nD) : Stats2.Tfull (V5 m ρ) c = T2 m ρ c := by
  show mlp (W5 m ρ c (Proc.devRef .tc main_v61)) (W5 m ρ c (Proc.devRef .tc main_v36)) (W5 m ρ c (Proc.devRef .tc main_v62)) (W5 m ρ c (Proc.devRef .tc main_v40)) (W5 m ρ c (Proc.devRef .tc main_v63)) = _
  rw [b2_agg, b2_W1, b2_b1, b2_W2, b2_b2]

theorem b2_T (c : Dev nD) : W6 m ρ c (Proc.devRef .tc main_v64_0) = T2 m ρ c :=
  ((hF2 m ρ c 5).symm.trans (Stats2.final5 (V5 m ρ) c)).trans (b2_Tf m ρ c)

theorem b2_S (c : Dev nD) : W6 m ρ c (Proc.devRef .tc main_v64_1) = sumRow (T2 m ρ c) :=
  ((hF2 m ρ c 6).symm.trans (Stats2.final6 (V5 m ρ) c)).trans (congrArg colSumRow (b2_Tf m ρ c))

theorem b2_Q (c : Dev nD) : W6 m ρ c (Proc.devRef .tc main_v64_2) = sqRow (T2 m ρ c) :=
  ((hF2 m ρ c 7).symm.trans (Stats2.final7 (V5 m ρ) c)).trans (congrArg colSqRow (b2_Tf m ρ c))

theorem b2_g' (c : Dev nD) : W6 m ρ c (Proc.devRef .tc main_v44) = row5 (W4 m ρ c (Proc.devRef .tc main_arg11)) ![1, 0] Cert.ReferenceIdeal.Facts₀.slices_S5x64_S1x64_1_0 :=
  (W6_of_ne m ρ c main_v44 (by decide)).trans (b2_g m ρ c)

theorem b2_b' (c : Dev nD) : W6 m ρ c (Proc.devRef .tc main_v46) = row5 (W4 m ρ c (Proc.devRef .tc main_arg12)) ![1, 0] Cert.ReferenceIdeal.Facts₀.slices_S5x64_S1x64_1_0 :=
  (W6_of_ne m ρ c main_v46 (by decide)).trans (b2_b m ρ c)

set_option maxHeartbeats 4000000 in
theorem b2_Tk (c : Dev nD) : W7 m ρ c (Proc.devRef .tc main_v64_0) = W6 m ρ c (Proc.devRef .tc main_v64_0) := by
  show StableHlo.after hostOps3 (W6 m ρ c) (Proc.devRef .tc main_v64_0) = _
  after_results_simp

set_option maxHeartbeats 4000000 in
theorem b2_mean (c : Dev nD) : W7 m ρ c (Proc.devRef .tc main_v73) = asRow (meanK (W6 m ρ c (Proc.devRef .tc main_v64_1))) := by
  show StableHlo.after hostOps3 (W6 m ρ c) (Proc.devRef .tc main_v73) = _
  after_results_simp
  rfl

set_option maxHeartbeats 4000000 in
theorem b2_var (c : Dev nD) : W7 m ρ c (Proc.devRef .tc main_v74) = asRow (varK (W6 m ρ c (Proc.devRef .tc main_v64_1)) (W6 m ρ c (Proc.devRef .tc main_v64_2))) := by
  show StableHlo.after hostOps3 (W6 m ρ c) (Proc.devRef .tc main_v74) = _
  after_results_simp
  rfl

set_option maxHeartbeats 4000000 in
theorem b2_grow (c : Dev nD) : W7 m ρ c (Proc.devRef .tc main_v75) = asRow (W6 m ρ c (Proc.devRef .tc main_v44)) := by
  show StableHlo.after hostOps3 (W6 m ρ c) (Proc.devRef .tc main_v75) = _
  after_results_simp
  rfl

set_option maxHeartbeats 4000000 in
theorem b2_brow (c : Dev nD) : W7 m ρ c (Proc.devRef .tc main_v76) = asRow (W6 m ρ c (Proc.devRef .tc main_v46)) := by
  show StableHlo.after hostOps3 (W6 m ρ c) (Proc.devRef .tc main_v76) = _
  after_results_simp
  rfl

/-- What block 2 leaves: the kernel's block function of what it found. -/
theorem b2_out (c : Dev nD) : W8 m ρ c (Proc.devRef .tc main_v77)
      = kblkN (W4 m ρ c (Proc.devRef .tc main_v34)) (W4 m ρ c (Proc.devRef .tc main_arg1)) (W4 m ρ c (Proc.devRef .tc main_arg7)) (W4 m ρ c (Proc.devRef .tc main_arg8)) (W4 m ρ c (Proc.devRef .tc main_arg9)) (W4 m ρ c (Proc.devRef .tc main_arg10)) (W4 m ρ c (Proc.devRef .tc main_arg11)) (W4 m ρ c (Proc.devRef .tc main_arg12))
        ![0, 0, 0] Cert.ReferenceIdeal.Facts₀.slices_S4x64x64_S1x64x64_0_0_0 ![0, 0] Cert.ReferenceIdeal.Facts₀.slices_S4x64_S1x64_0_0 ![1, 0] Cert.ReferenceIdeal.Facts₀.slices_S5x64_S1x64_1_0 := by
  refine ((hF3 m ρ c 5).symm.trans (Norm3.final (V7 m ρ) c)).trans ?_
  show normRows (W7 m ρ c (Proc.devRef .tc main_v64_0)) (W7 m ρ c (Proc.devRef .tc main_v73)) (W7 m ρ c (Proc.devRef .tc main_v74)) (W7 m ρ c (Proc.devRef .tc main_v75)) (W7 m ρ c (Proc.devRef .tc main_v76)) (Ideal.ofBits .f32 0x3727C5AC#32) = _
  rw [b2_Tk, b2_mean, b2_var, b2_grow, b2_brow, b2_T, b2_S, b2_Q, b2_g', b2_b']
  rfl

theorem k2_main_arg1 (c : Dev nD) : W8 m ρ c (Proc.devRef .tc main_arg1) = W4 m ρ c (Proc.devRef .tc main_arg1) :=
  calc W8 m ρ c (Proc.devRef .tc main_arg1)
    _ = W7 m ρ c (Proc.devRef .tc main_arg1) := W8_of_ne m ρ c main_arg1 (by decide)
    _ = W6 m ρ c (Proc.devRef .tc main_arg1) := by show StableHlo.after hostOps3 (W6 m ρ c) (Proc.devRef .tc main_arg1) = _; after_results_simp
    _ = W5 m ρ c (Proc.devRef .tc main_arg1) := W6_of_ne m ρ c main_arg1 (by decide)
    _ = W4 m ρ c (Proc.devRef .tc main_arg1) := by show StableHlo.after hostOps2 (W4 m ρ c) (Proc.devRef .tc main_arg1) = _; after_results_simp

theorem k2_main_arg2 (c : Dev nD) : W8 m ρ c (Proc.devRef .tc main_arg2) = W4 m ρ c (Proc.devRef .tc main_arg2) :=
  calc W8 m ρ c (Proc.devRef .tc main_arg2)
    _ = W7 m ρ c (Proc.devRef .tc main_arg2) := W8_of_ne m ρ c main_arg2 (by decide)
    _ = W6 m ρ c (Proc.devRef .tc main_arg2) := by show StableHlo.after hostOps3 (W6 m ρ c) (Proc.devRef .tc main_arg2) = _; after_results_simp
    _ = W5 m ρ c (Proc.devRef .tc main_arg2) := W6_of_ne m ρ c main_arg2 (by decide)
    _ = W4 m ρ c (Proc.devRef .tc main_arg2) := by show StableHlo.after hostOps2 (W4 m ρ c) (Proc.devRef .tc main_arg2) = _; after_results_simp

theorem k2_main_arg7 (c : Dev nD) : W8 m ρ c (Proc.devRef .tc main_arg7) = W4 m ρ c (Proc.devRef .tc main_arg7) :=
  calc W8 m ρ c (Proc.devRef .tc main_arg7)
    _ = W7 m ρ c (Proc.devRef .tc main_arg7) := W8_of_ne m ρ c main_arg7 (by decide)
    _ = W6 m ρ c (Proc.devRef .tc main_arg7) := by show StableHlo.after hostOps3 (W6 m ρ c) (Proc.devRef .tc main_arg7) = _; after_results_simp
    _ = W5 m ρ c (Proc.devRef .tc main_arg7) := W6_of_ne m ρ c main_arg7 (by decide)
    _ = W4 m ρ c (Proc.devRef .tc main_arg7) := by show StableHlo.after hostOps2 (W4 m ρ c) (Proc.devRef .tc main_arg7) = _; after_results_simp

theorem k2_main_arg8 (c : Dev nD) : W8 m ρ c (Proc.devRef .tc main_arg8) = W4 m ρ c (Proc.devRef .tc main_arg8) :=
  calc W8 m ρ c (Proc.devRef .tc main_arg8)
    _ = W7 m ρ c (Proc.devRef .tc main_arg8) := W8_of_ne m ρ c main_arg8 (by decide)
    _ = W6 m ρ c (Proc.devRef .tc main_arg8) := by show StableHlo.after hostOps3 (W6 m ρ c) (Proc.devRef .tc main_arg8) = _; after_results_simp
    _ = W5 m ρ c (Proc.devRef .tc main_arg8) := W6_of_ne m ρ c main_arg8 (by decide)
    _ = W4 m ρ c (Proc.devRef .tc main_arg8) := by show StableHlo.after hostOps2 (W4 m ρ c) (Proc.devRef .tc main_arg8) = _; after_results_simp

theorem k2_main_arg9 (c : Dev nD) : W8 m ρ c (Proc.devRef .tc main_arg9) = W4 m ρ c (Proc.devRef .tc main_arg9) :=
  calc W8 m ρ c (Proc.devRef .tc main_arg9)
    _ = W7 m ρ c (Proc.devRef .tc main_arg9) := W8_of_ne m ρ c main_arg9 (by decide)
    _ = W6 m ρ c (Proc.devRef .tc main_arg9) := by show StableHlo.after hostOps3 (W6 m ρ c) (Proc.devRef .tc main_arg9) = _; after_results_simp
    _ = W5 m ρ c (Proc.devRef .tc main_arg9) := W6_of_ne m ρ c main_arg9 (by decide)
    _ = W4 m ρ c (Proc.devRef .tc main_arg9) := by show StableHlo.after hostOps2 (W4 m ρ c) (Proc.devRef .tc main_arg9) = _; after_results_simp

theorem k2_main_arg10 (c : Dev nD) : W8 m ρ c (Proc.devRef .tc main_arg10) = W4 m ρ c (Proc.devRef .tc main_arg10) :=
  calc W8 m ρ c (Proc.devRef .tc main_arg10)
    _ = W7 m ρ c (Proc.devRef .tc main_arg10) := W8_of_ne m ρ c main_arg10 (by decide)
    _ = W6 m ρ c (Proc.devRef .tc main_arg10) := by show StableHlo.after hostOps3 (W6 m ρ c) (Proc.devRef .tc main_arg10) = _; after_results_simp
    _ = W5 m ρ c (Proc.devRef .tc main_arg10) := W6_of_ne m ρ c main_arg10 (by decide)
    _ = W4 m ρ c (Proc.devRef .tc main_arg10) := by show StableHlo.after hostOps2 (W4 m ρ c) (Proc.devRef .tc main_arg10) = _; after_results_simp

theorem k2_main_arg11 (c : Dev nD) : W8 m ρ c (Proc.devRef .tc main_arg11) = W4 m ρ c (Proc.devRef .tc main_arg11) :=
  calc W8 m ρ c (Proc.devRef .tc main_arg11)
    _ = W7 m ρ c (Proc.devRef .tc main_arg11) := W8_of_ne m ρ c main_arg11 (by decide)
    _ = W6 m ρ c (Proc.devRef .tc main_arg11) := by show StableHlo.after hostOps3 (W6 m ρ c) (Proc.devRef .tc main_arg11) = _; after_results_simp
    _ = W5 m ρ c (Proc.devRef .tc main_arg11) := W6_of_ne m ρ c main_arg11 (by decide)
    _ = W4 m ρ c (Proc.devRef .tc main_arg11) := by show StableHlo.after hostOps2 (W4 m ρ c) (Proc.devRef .tc main_arg11) = _; after_results_simp

theorem k2_main_arg12 (c : Dev nD) : W8 m ρ c (Proc.devRef .tc main_arg12) = W4 m ρ c (Proc.devRef .tc main_arg12) :=
  calc W8 m ρ c (Proc.devRef .tc main_arg12)
    _ = W7 m ρ c (Proc.devRef .tc main_arg12) := W8_of_ne m ρ c main_arg12 (by decide)
    _ = W6 m ρ c (Proc.devRef .tc main_arg12) := by show StableHlo.after hostOps3 (W6 m ρ c) (Proc.devRef .tc main_arg12) = _; after_results_simp
    _ = W5 m ρ c (Proc.devRef .tc main_arg12) := W6_of_ne m ρ c main_arg12 (by decide)
    _ = W4 m ρ c (Proc.devRef .tc main_arg12) := by show StableHlo.after hostOps2 (W4 m ρ c) (Proc.devRef .tc main_arg12) = _; after_results_simp

theorem k2_main_arg13 (c : Dev nD) : W8 m ρ c (Proc.devRef .tc main_arg13) = W4 m ρ c (Proc.devRef .tc main_arg13) :=
  calc W8 m ρ c (Proc.devRef .tc main_arg13)
    _ = W7 m ρ c (Proc.devRef .tc main_arg13) := W8_of_ne m ρ c main_arg13 (by decide)
    _ = W6 m ρ c (Proc.devRef .tc main_arg13) := by show StableHlo.after hostOps3 (W6 m ρ c) (Proc.devRef .tc main_arg13) = _; after_results_simp
    _ = W5 m ρ c (Proc.devRef .tc main_arg13) := W6_of_ne m ρ c main_arg13 (by decide)
    _ = W4 m ρ c (Proc.devRef .tc main_arg13) := by show StableHlo.after hostOps2 (W4 m ρ c) (Proc.devRef .tc main_arg13) = _; after_results_simp

theorem k2_main_arg14 (c : Dev nD) : W8 m ρ c (Proc.devRef .tc main_arg14) = W4 m ρ c (Proc.devRef .tc main_arg14) :=
  calc W8 m ρ c (Proc.devRef .tc main_arg14)
    _ = W7 m ρ c (Proc.devRef .tc main_arg14) := W8_of_ne m ρ c main_arg14 (by decide)
    _ = W6 m ρ c (Proc.devRef .tc main_arg14) := by show StableHlo.after hostOps3 (W6 m ρ c) (Proc.devRef .tc main_arg14) = _; after_results_simp
    _ = W5 m ρ c (Proc.devRef .tc main_arg14) := W6_of_ne m ρ c main_arg14 (by decide)
    _ = W4 m ρ c (Proc.devRef .tc main_arg14) := by show StableHlo.after hostOps2 (W4 m ρ c) (Proc.devRef .tc main_arg14) = _; after_results_simp

theorem k2_main_arg15 (c : Dev nD) : W8 m ρ c (Proc.devRef .tc main_arg15) = W4 m ρ c (Proc.devRef .tc main_arg15) :=
  calc W8 m ρ c (Proc.devRef .tc main_arg15)
    _ = W7 m ρ c (Proc.devRef .tc main_arg15) := W8_of_ne m ρ c main_arg15 (by decide)
    _ = W6 m ρ c (Proc.devRef .tc main_arg15) := by show StableHlo.after hostOps3 (W6 m ρ c) (Proc.devRef .tc main_arg15) = _; after_results_simp
    _ = W5 m ρ c (Proc.devRef .tc main_arg15) := W6_of_ne m ρ c main_arg15 (by decide)
    _ = W4 m ρ c (Proc.devRef .tc main_arg15) := by show StableHlo.after hostOps2 (W4 m ρ c) (Proc.devRef .tc main_arg15) = _; after_results_simp

theorem k2_main_arg16 (c : Dev nD) : W8 m ρ c (Proc.devRef .tc main_arg16) = W4 m ρ c (Proc.devRef .tc main_arg16) :=
  calc W8 m ρ c (Proc.devRef .tc main_arg16)
    _ = W7 m ρ c (Proc.devRef .tc main_arg16) := W8_of_ne m ρ c main_arg16 (by decide)
    _ = W6 m ρ c (Proc.devRef .tc main_arg16) := by show StableHlo.after hostOps3 (W6 m ρ c) (Proc.devRef .tc main_arg16) = _; after_results_simp
    _ = W5 m ρ c (Proc.devRef .tc main_arg16) := W6_of_ne m ρ c main_arg16 (by decide)
    _ = W4 m ρ c (Proc.devRef .tc main_arg16) := by show StableHlo.after hostOps2 (W4 m ρ c) (Proc.devRef .tc main_arg16) = _; after_results_simp

end Cert.KernelIdeal.Chain

end
-- ==== Proof.Stats4Val.lean ====
/-
  What each case of the statistics kernel's body leaves in its three output buffers, as values: the block of features,
  and the two running rows (column sums of the features and of their squares) — started from zero at the first grid
  point, continued from what the point before left otherwise.
-/
import proofs.«169884_j31009663877671_1_alg».proof.Proof.Gen.KernelIdeal.Frame
import Idealize.ShloMosaic.Lib.Pipeline.Value
import Idealize.ShloMosaic.Lib.Tactic

noncomputable section

namespace Cert.KernelIdeal.Stats4

open Cert.KernelIdeal Cert.KernelIdeal.Gen
open Idealize.ShloMosaic Idealize.ShloMosaic.TcCoe Idealize.SL.Sem

variable {F : FTy → Type} [FloatOps F]

theorem hz : (![0, 0] : Fin 2 → Nat) = fun _ => 0 := funext fun a => by fin_cases a <;> rfl

theorem outA5 (c : Dev nD) (i : grid4.Coords) (a1 : Memref sig .tc .vmem S5000x64 .f32) (h1 : a1.IsWhole) (a2 : Memref sig .tc .vmem S64x64 .f32) (h2 : a2.IsWhole) (a3 : Memref sig .tc .vmem S1x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : cond4_0 i) (x0 : Vec F S5000x64 .f32) (x1 : Vec F S64x64 .f32) (x2 : Vec F S1x64 .f32) (x3 : Vec F S64x64 .f32) (x4 : Vec F S1x64 .f32) :
    out4_A_5 c i a1 h1 a2 h2 a3 h3 a4 h4 a5 h5 a6 h6 a7 h7 a8 h8 hc x0 x1 x2 x3 x4 = k4_pay4 x0 x1 x2 x3 x4 := by
  unfold out4_A_5
  rw [View.read_writes_eq_canon _ _ _ (cover4_A_5 c i a1 h1 a2 h2 a3 h3 a4 h4 a5 h5 a6 h6 a7 h7 a8 h8 hc x0 x1 x2 x3 x4)]
  unfold kernelRun4_A
  dsimp only
  try sl_unfold_words
  first
    | rw [View.canon_cons_unit_zero (S := S1x64) hz, View.readCov_unit_zero (S := S1x64) _ hz]
    | rw [View.canon_unit_zero hz]
  simp only [View.readAt_eq_ld, h1.read_unread, h2.read_unread, h3.read_unread, h4.read_unread, h5.read_unread,
    h6.read_unread, h7.read_unread, h8.read_unread, View.ld_unit_zero (S := S5000x64) hz, View.ld_unit_zero (S := S64x64) hz,
    View.ld_unit_zero (S := S1x64) hz, View.ld_unit_zero (S := S64x64) hz, View.ld_unit_zero (S := S5000x64) hz]

theorem outA6 (c : Dev nD) (i : grid4.Coords) (a1 : Memref sig .tc .vmem S5000x64 .f32) (h1 : a1.IsWhole) (a2 : Memref sig .tc .vmem S64x64 .f32) (h2 : a2.IsWhole) (a3 : Memref sig .tc .vmem S1x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : cond4_0 i) (x0 : Vec F S5000x64 .f32) (x1 : Vec F S64x64 .f32) (x2 : Vec F S1x64 .f32) (x3 : Vec F S64x64 .f32) (x4 : Vec F S1x64 .f32) :
    out4_A_6 c i a1 h1 a2 h2 a3 h3 a4 h4 a5 h5 a6 h6 a7 h7 a8 h8 hc x0 x1 x2 x3 x4 = k4_pay5 x0 x1 x2 x3 x4 k4_pay2 := by
  unfold out4_A_6
  rw [View.read_writes_eq_canon _ _ _ (cover4_A_6 c i a1 h1 a2 h2 a3 h3 a4 h4 a5 h5 a6 h6 a7 h7 a8 h8 hc x0 x1 x2 x3 x4)]
  unfold kernelRun4_A
  dsimp only
  try sl_unfold_words
  first
    | rw [View.canon_cons_unit_zero (S := S1x64) hz, View.readCov_unit_zero (S := S1x64) _ hz]
    | rw [View.canon_unit_zero hz]
  simp only [View.readAt_eq_ld, h1.read_unread, h2.read_unread, h3.read_unread, h4.read_unread, h5.read_unread,
    h6.read_unread, h7.read_unread, h8.read_unread, View.ld_unit_zero (S := S5000x64) hz, View.ld_unit_zero (S := S64x64) hz,
    View.ld_unit_zero (S := S1x64) hz, View.ld_unit_zero (S := S64x64) hz, View.ld_unit_zero (S := S5000x64) hz]

theorem outA7 (c : Dev nD) (i : grid4.Coords) (a1 : Memref sig .tc .vmem S5000x64 .f32) (h1 : a1.IsWhole) (a2 : Memref sig .tc .vmem S64x64 .f32) (h2 : a2.IsWhole) (a3 : Memref sig .tc .vmem S1x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : cond4_0 i) (x0 : Vec F S5000x64 .f32) (x1 : Vec F S64x64 .f32) (x2 : Vec F S1x64 .f32) (x3 : Vec F S64x64 .f32) (x4 : Vec F S1x64 .f32) :
    out4_A_7 c i a1 h1 a2 h2 a3 h3 a4 h4 a5 h5 a6 h6 a7 h7 a8 h8 hc x0 x1 x2 x3 x4 = k4_pay1 (k4_pay4 x0 x1 x2 x3 x4) k4_pay3 := by
  unfold out4_A_7
  rw [View.read_writes_eq_canon _ _ _ (cover4_A_7 c i a1 h1 a2 h2 a3 h3 a4 h4 a5 h5 a6 h6 a7 h7 a8 h8 hc x0 x1 x2 x3 x4)]
  unfold kernelRun4_A
  dsimp only
  try sl_unfold_words
  first
    | rw [View.canon_cons_unit_zero (S := S1x64) hz, View.readCov_unit_zero (S := S1x64) _ hz]
    | rw [View.canon_unit_zero hz]
  simp only [View.readAt_eq_ld, h1.read_unread, h2.read_unread, h3.read_unread, h4.read_unread, h5.read_unread,
    h6.read_unread, h7.read_unread, h8.read_unread, View.ld_unit_zero (S := S5000x64) hz, View.ld_unit_zero (S := S64x64) hz,
    View.ld_unit_zero (S := S1x64) hz, View.ld_unit_zero (S := S64x64) hz, View.ld_unit_zero (S := S5000x64) hz]

theorem outB5 (c : Dev nD) (i : grid4.Coords) (a1 : Memref sig .tc .vmem S5000x64 .f32) (h1 : a1.IsWhole) (a2 : Memref sig .tc .vmem S64x64 .f32) (h2 : a2.IsWhole) (a3 : Memref sig .tc .vmem S1x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : ¬cond4_0 i) (x0 : Vec F S5000x64 .f32) (x1 : Vec F S64x64 .f32) (x2 : Vec F S1x64 .f32) (x3 : Vec F S64x64 .f32) (x4 : Vec F S1x64 .f32) (p6 p7 : Vec F S1x64 .f32) :
    out4_B_5 c i a1 h1 a2 h2 a3 h3 a4 h4 a5 h5 a6 h6 a7 h7 a8 h8 hc x0 x1 x2 x3 x4 p6 p7 = k4_pay4 x0 x1 x2 x3 x4 := by
  unfold out4_B_5
  rw [View.read_writes_eq_canon _ _ _ (cover4_B_5 c i a1 h1 a2 h2 a3 h3 a4 h4 a5 h5 a6 h6 a7 h7 a8 h8 hc x0 x1 x2 x3 x4 p6 p7)]
  unfold kernelRun4_B
  dsimp only
  try sl_unfold_words
  first
    | rw [View.canon_cons_unit_zero (S := S1x64) hz, View.readCov_unit_zero (S := S1x64) _ hz]
    | rw [View.canon_unit_zero hz]
  simp only [View.readAt_eq_ld, h1.read_unread, h2.read_unread, h3.read_unread, h4.read_unread, h5.read_unread,
    h6.read_unread, h7.read_unread, h8.read_unread, View.ld_unit_zero (S := S5000x64) hz, View.ld_unit_zero (S := S64x64) hz,
    View.ld_unit_zero (S := S1x64) hz, View.ld_unit_zero (S := S64x64) hz, View.ld_unit_zero (S := S5000x64) hz]

theorem outB6 (c : Dev nD) (i : grid4.Coords) (a1 : Memref sig .tc .vmem S5000x64 .f32) (h1 : a1.IsWhole) (a2 : Memref sig .tc .vmem S64x64 .f32) (h2 : a2.IsWhole) (a3 : Memref sig .tc .vmem S1x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : ¬cond4_0 i) (x0 : Vec F S5000x64 .f32) (x1 : Vec F S64x64 .f32) (x2 : Vec F S1x64 .f32) (x3 : Vec F S64x64 .f32) (x4 : Vec F S1x64 .f32) (p6 p7 : Vec F S1x64 .f32) :
    out4_B_6 c i a1 h1 a2 h2 a3 h3 a4 h4 a5 h5 a6 h6 a7 h7 a8 h8 hc x0 x1 x2 x3 x4 p6 p7 = k4_pay5 x0 x1 x2 x3 x4 p6 := by
  unfold out4_B_6
  rw [View.read_writes_eq_canon _ _ _ (cover4_B_6 c i a1 h1 a2 h2 a3 h3 a4 h4 a5 h5 a6 h6 a7 h7 a8 h8 hc x0 x1 x2 x3 x4 p6 p7)]
  unfold kernelRun4_B
  dsimp only
  try sl_unfold_words
  first
    | rw [View.canon_cons_unit_zero (S := S1x64) hz, View.readCov_unit_zero (S := S1x64) _ hz]
    | rw [View.canon_unit_zero hz]
  simp only [View.readAt_eq_ld, h1.read_unread, h2.read_unread, h3.read_unread, h4.read_unread, h5.read_unread,
    h6.read_unread, h7.read_unread, h8.read_unread, View.ld_unit_zero (S := S5000x64) hz, View.ld_unit_zero (S := S64x64) hz,
    View.ld_unit_zero (S := S1x64) hz, View.ld_unit_zero (S := S64x64) hz, View.ld_unit_zero (S := S5000x64) hz]

theorem outB7 (c : Dev nD) (i : grid4.Coords) (a1 : Memref sig .tc .vmem S5000x64 .f32) (h1 : a1.IsWhole) (a2 : Memref sig .tc .vmem S64x64 .f32) (h2 : a2.IsWhole) (a3 : Memref sig .tc .vmem S1x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : ¬cond4_0 i) (x0 : Vec F S5000x64 .f32) (x1 : Vec F S64x64 .f32) (x2 : Vec F S1x64 .f32) (x3 : Vec F S64x64 .f32) (x4 : Vec F S1x64 .f32) (p6 p7 : Vec F S1x64 .f32) :
    out4_B_7 c i a1 h1 a2 h2 a3 h3 a4 h4 a5 h5 a6 h6 a7 h7 a8 h8 hc x0 x1 x2 x3 x4 p6 p7 = k4_pay1 (k4_pay4 x0 x1 x2 x3 x4) p7 := by
  unfold out4_B_7
  rw [View.read_writes_eq_canon _ _ _ (cover4_B_7 c i a1 h1 a2 h2 a3 h3 a4 h4 a5 h5 a6 h6 a7 h7 a8 h8 hc x0 x1 x2 x3 x4 p6 p7)]
  unfold kernelRun4_B
  dsimp only
  try sl_unfold_words
  first
    | rw [View.canon_cons_unit_zero (S := S1x64) hz, View.readCov_unit_zero (S := S1x64) _ hz]
    | rw [View.canon_unit_zero hz]
  simp only [View.readAt_eq_ld, h1.read_unread, h2.read_unread, h3.read_unread, h4.read_unread, h5.read_unread,
    h6.read_unread, h7.read_unread, h8.read_unread, View.ld_unit_zero (S := S5000x64) hz, View.ld_unit_zero (S := S64x64) hz,
    View.ld_unit_zero (S := S1x64) hz, View.ld_unit_zero (S := S64x64) hz, View.ld_unit_zero (S := S5000x64) hz]

end Cert.KernelIdeal.Stats4

end
-- ==== Proof.Stats4Pay.lean ====
/-
  The statistics kernel's stored values at an entry: the block of features is the two-layer perceptron (two matrix
  products into a zero accumulator, each plus a bias row, each clamped at zero) of the loaded row block, and each running
  row is what it held plus the column sums of the block.
-/
import proofs.«169884_j31009663877671_1_alg».proof.Proof.Gen.KernelIdeal.Skeleton
import proofs.«169884_j31009663877671_1_alg».proof.Proof.GinSpec
import proofs.«169884_j31009663877671_1_alg».proof.Proof.LibColReduce
import Idealize.ShloMosaic.Lib.Pipeline.Value
import Idealize.ShloMosaic.Lib.ValueIdx

noncomputable section

namespace Cert.KernelIdeal.Stats4

open Cert.KernelIdeal Cert.KernelIdeal.Gen Cert.Gin Cert.RowAffine
open Idealize.ShloMosaic Idealize.ShloMosaic.TcCoe Idealize.SL.Sem Idealize.ShloMosaic.ValueIdx

/-- The zero word is zero. -/
theorem zero_word : (Scalar.ofBits (F := Ideal) .f32 0x00000000#32 : EReal) = 0 := Ideal.ofBits_zero_f32

/-- The body's stored block of features: the two-layer perceptron of the loaded row block. -/
theorem payT_eq (x0 : Vec Ideal S5000x64 .f32) (x1 : Vec Ideal S64x64 .f32) (x2 : Vec Ideal S1x64 .f32)
    (x3 : Vec Ideal S64x64 .f32) (x4 : Vec Ideal S1x64 .f32) :
    k4_pay4 (F := Ideal) x0 x1 x2 x3 x4 = mlp x0 x1 x2 x3 x4 := by
  funext j
  obtain ⟨p, q, rfl⟩ : ∃ (p : Fin 5000) (q : Fin 64), j = ix2 p q := ⟨j 0, j 1, eq_ix2 j⟩
  unfold k4_pay4
  rw [shapeCast_self x0, shapeCast_self x1, shapeCast_self x3, maximumf_apply, broadcast_apply, zero_word]
  unfold mlp
  rw [relu_apply]
  refine congrArg (max · 0) ?_
  refine (RowAffine.kernel_apply _ rfl (by decide) none _ x3 x4 _ _ _ p q).trans ?_
  refine rowAffine_row_congr _ _ x3 x4 p p (fun c => ?_) q
  rw [maximumf_apply, broadcast_apply, relu_apply]
  exact congrArg (max · 0) (RowAffine.kernel_apply _ rfl (by decide) none x0 x1 x2 _ _ _ p c)

/-- A length-64 vector viewed as a 1×64 row, at (0, q). -/
theorem row_of_vec (v : Vec Ideal S64 .f32) (q : Fin 64) :
    shapeCast S1x64 v shapeCasts_S64_S1x64 (ix2 0 q) = v (ix1 q) := RowVector.shapeCast_row v _ q

/-- The running column sums after a block: what was there plus the block's column sums. -/
theorem paySum_apply (T : Vec Ideal S5000x64 .f32) (acc : Vec Ideal S1x64 .f32) (q : Fin 64) :
    addf (shapeCast S1x64 acc shapeCasts_S1x64_S1x64)
        (shapeCast S1x64 (multiReduction (F := Ideal) .add [0] S64 T 0x00000000#32 reduces_S5000x64_S64 (.inl rfl) rfl) shapeCasts_S64_S1x64)
        (ix2 0 q)
      = acc (ix2 0 q) + ∑ p : Fin 5000, T (ix2 p q) := by
  rw [addf_apply, shapeCast_self, row_of_vec]
  exact congrArg (acc (ix2 0 q) + ·) (ColReduce.colSum_apply T 0x00000000#32 _ _ _ q)

end Cert.KernelIdeal.Stats4

end
-- ==== Proof.Stats4Acc.lean ====
/-
  The statistics kernel over its twenty grid points: after point n the feature block is the perceptron of row block n,
  and the two running rows hold the column sums of the features, and of their squares, over the first 5000 (n + 1) rows.
-/
import proofs.«169884_j31009663877671_1_alg».proof.Proof.Gen.KernelIdeal.Frame
import proofs.«169884_j31009663877671_1_alg».proof.Proof.Stats4Val
import proofs.«169884_j31009663877671_1_alg».proof.Proof.Stats4Pay
import proofs.«169884_j31009663877671_1_alg».proof.Proof.LibBlockSums
import Idealize.ShloMosaic.Lib.Pipeline.Value
import Idealize.ShloMosaic.Lib.ValueIdx

noncomputable section

namespace Cert.KernelIdeal.Stats4

open Cert.KernelIdeal Cert.KernelIdeal.Gen Cert.Gin Cert.RowAffine Cert.Lib.BlockSums
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps over the grid: the two row windows move with the point, every other window stays. -/
theorem idx_facts : ∀ t : Fin cfg4.N, win4_0.index t (0 : Fin 2) = t.val ∧ win4_0.index t (1 : Fin 2) = 0
    ∧ win4_5.index t (0 : Fin 2) = t.val ∧ win4_5.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_6.index t (0 : Fin 2) = 0 ∧ win4_6.index t (1 : Fin 2) = 0
    ∧ win4_7.index t (0 : Fin 2) = 0 ∧ win4_7.index t (1 : Fin 2) = 0 :=
  (by decide +kernel : ∀ t : Fin grid4.N, _)

theorem lt_rows (t : Fin cfg4.N) (p : Fin 5000) : 5000 * t.val + p.val < 100000 := by
  have hN : cfg4.N = 20 := N_4
  have := t.isLt; have := p.isLt; omega

/-- Row block t of the aggregated features, read at (p, k). -/
theorem rdA (c : Dev nD) (t : Fin cfg4.N) (p : Fin 5000) (k : Fin 64) :
    iblk4 V c 0 t (ix2 p k) = (V c (Pipeline.arrRef spec4 0) : S100000x64.Idx → EReal) (ix2 ⟨5000 * t.val + p.val, lt_rows t p⟩ k) := by
  obtain ⟨e0, e1, -⟩ := idx_facts t
  unfold iblk4
  rw [View.read_apply]
  refine congrArg (V c (Pipeline.arrRef spec4 0)) ?_
  funext a; apply Fin.ext
  match a with
  | ⟨0, _⟩ => show win4_0.index t (0 : Fin 2) * 5000 + 1 * p.val = 5000 * t.val + p.val; omega
  | ⟨1, _⟩ => show win4_0.index t (1 : Fin 2) * 64 + 1 * k.val = k.val; omega

theorem rdW1 (c : Dev nD) (t : Fin cfg4.N) : iblk4 V c 1 t = (V c (Pipeline.arrRef spec4 1) : S64x64.Idx → EReal) := by
  obtain ⟨-, -, -, -, e0, e1, -⟩ := idx_facts t
  funext j
  unfold iblk4
  rw [View.read_apply]
  refine congrArg (V c (Pipeline.arrRef spec4 1)) ?_
  funext a; apply Fin.ext
  match a with
  | ⟨0, _⟩ => show win4_1.index t (0 : Fin 2) * 64 + 1 * (j 0).val = (j 0).val; omega
  | ⟨1, _⟩ => show win4_1.index t (1 : Fin 2) * 64 + 1 * (j 1).val = (j 1).val; omega

theorem rdB1 (c : Dev nD) (t : Fin cfg4.N) : iblk4 V c 2 t = (V c (Pipeline.arrRef spec4 2) : S1x64.Idx → EReal) := by
  obtain ⟨-, -, -, -, -, -, e0, e1, -⟩ := idx_facts t
  funext j
  unfold iblk4
  rw [View.read_apply]
  refine congrArg (V c (Pipeline.arrRef spec4 2)) ?_
  funext a; apply Fin.ext
  match a with
  | ⟨0, _⟩ => show win4_2.index t (0 : Fin 2) * 1 + 1 * (j 0).val = (j 0).val; omega
  | ⟨1, _⟩ => show win4_2.index t (1 : Fin 2) * 64 + 1 * (j 1).val = (j 1).val; omega

theorem rdW2 (c : Dev nD) (t : Fin cfg4.N) : iblk4 V c 3 t = (V c (Pipeline.arrRef spec4 3) : S64x64.Idx → EReal) := by
  obtain ⟨-, -, -, -, -, -, -, -, e0, e1, -⟩ := idx_facts t
  funext j
  unfold iblk4
  rw [View.read_apply]
  refine congrArg (V c (Pipeline.arrRef spec4 3)) ?_
  funext a; apply Fin.ext
  match a with
  | ⟨0, _⟩ => show win4_3.index t (0 : Fin 2) * 64 + 1 * (j 0).val = (j 0).val; omega
  | ⟨1, _⟩ => show win4_3.index t (1 : Fin 2) * 64 + 1 * (j 1).val = (j 1).val; omega

theorem rdB2 (c : Dev nD) (t : Fin cfg4.N) : iblk4 V c 4 t = (V c (Pipeline.arrRef spec4 4) : S1x64.Idx → EReal) := by
  obtain ⟨-, -, -, -, -, -, -, -, -, -, e0, e1, -⟩ := idx_facts t
  funext j
  unfold iblk4
  rw [View.read_apply]
  refine congrArg (V c (Pipeline.arrRef spec4 4)) ?_
  funext a; apply Fin.ext
  match a with
  | ⟨0, _⟩ => show win4_4.index t (0 : Fin 2) * 1 + 1 * (j 0).val = (j 0).val; omega
  | ⟨1, _⟩ => show win4_4.index t (1 : Fin 2) * 64 + 1 * (j 1).val = (j 1).val; omega

/-- The feature array: the perceptron of the aggregated features, row by row. -/
def Tfull (c : Dev nD) : S100000x64.Idx → EReal :=
  mlp (V c (Pipeline.arrRef spec4 0) : S100000x64.Idx → EReal) (V c (Pipeline.arrRef spec4 1) : S64x64.Idx → EReal)
    (V c (Pipeline.arrRef spec4 2) : S1x64.Idx → EReal) (V c (Pipeline.arrRef spec4 3) : S64x64.Idx → EReal)
    (V c (Pipeline.arrRef spec4 4) : S1x64.Idx → EReal)

/-- The block of features point t stores. -/
def Tblk (c : Dev nD) (t : Fin cfg4.N) : S5000x64.Idx → EReal :=
  k4_pay4 (F := Ideal) (iblk4 V c 0 t) (iblk4 V c 1 t) (iblk4 V c 2 t) (iblk4 V c 3 t) (iblk4 V c 4 t)

/-- It is row block t of the feature array. -/
theorem Tblk_apply (c : Dev nD) (t : Fin cfg4.N) (p : Fin 5000) (q : Fin 64) :
    Tblk V c t (ix2 p q) = Tfull V c (ix2 ⟨5000 * t.val + p.val, lt_rows t p⟩ q) := by
  unfold Tblk Tfull
  refine (congrFun (payT_eq _ _ _ _ _) _).trans ?_
  rw [rdW1 V c t, rdB1 V c t, rdW2 V c t, rdB2 V c t]
  exact mlp_row_congr _ _ _ _ _ _ p ⟨5000 * t.val + p.val, lt_rows t p⟩ (fun k => rdA V c t p k) q

/-- Column sums of the features over the first k rows, as a 1×64 row. -/
def Srow (c : Dev nD) (k : ℕ) : S1x64.Idx → EReal :=
  fun i => psum (fun r : Fin 100000 => Tfull V c (ix2 r (i 1))) k

/-- Column sums of the squared features over the first k rows, as a 1×64 row. -/
def Qrow (c : Dev nD) (k : ℕ) : S1x64.Idx → EReal :=
  fun i => psum (fun r : Fin 100000 => Tfull V c (ix2 r (i 1)) * Tfull V c (ix2 r (i 1))) k

theorem Srow_apply (c : Dev nD) (k : ℕ) (q : Fin 64) :
    Srow V c k (ix2 0 q) = psum (fun r : Fin 100000 => Tfull V c (ix2 r q)) k := rfl

theorem Qrow_apply (c : Dev nD) (k : ℕ) (q : Fin 64) :
    Qrow V c k (ix2 0 q) = psum (fun r : Fin 100000 => Tfull V c (ix2 r q) * Tfull V c (ix2 r q)) k := rfl

theorem row_idx (i : S1x64.Idx) : ∃ q : Fin 64, i = ix2 0 q := by
  obtain ⟨z, q, rfl⟩ : ∃ (z : Fin 1) (q : Fin 64), i = ix2 z q := ⟨i 0, i 1, eq_ix2 i⟩
  obtain rfl : z = 0 := Subsingleton.elim _ _
  exact ⟨q, rfl⟩

/-- The running sum row after a point: what was there plus the column sums of the point's feature block. -/
theorem sumRow_apply (c : Dev nD) (t : Fin cfg4.N) (acc : Vec Ideal S1x64 .f32) (q : Fin 64) :
    k4_pay5 (F := Ideal) (iblk4 V c 0 t) (iblk4 V c 1 t) (iblk4 V c 2 t) (iblk4 V c 3 t) (iblk4 V c 4 t) acc (ix2 0 q)
      = acc (ix2 0 q) + ∑ p : Fin 5000, Tfull V c (ix2 ⟨5000 * t.val + p.val, lt_rows t p⟩ q) := by
  unfold k4_pay5
  refine (paySum_apply _ _ q).trans ?_
  exact congrArg (acc (ix2 0 q) + ·) (Finset.sum_congr rfl fun p _ => Tblk_apply V c t p q)

/-- The running sum-of-squares row after a point. -/
theorem sqRow_apply (c : Dev nD) (t : Fin cfg4.N) (acc : Vec Ideal S1x64 .f32) (q : Fin 64) :
    k4_pay1 (F := Ideal) (k4_pay4 (iblk4 V c 0 t) (iblk4 V c 1 t) (iblk4 V c 2 t) (iblk4 V c 3 t) (iblk4 V c 4 t)) acc (ix2 0 q)
      = acc (ix2 0 q) + ∑ p : Fin 5000, Tfull V c (ix2 ⟨5000 * t.val + p.val, lt_rows t p⟩ q)
          * Tfull V c (ix2 ⟨5000 * t.val + p.val, lt_rows t p⟩ q) := by
  unfold k4_pay1
  refine (paySum_apply _ _ q).trans ?_
  refine congrArg (acc (ix2 0 q) + ·) (Finset.sum_congr rfl fun p _ => ?_)
  rw [mulf_apply]
  exact congrArg (fun z => z * z) (Tblk_apply V c t p q)

/-- After point n: the feature block of row block n, and the two rows summed over the first 5000 (n + 1) rows. -/
theorem outsAt_eq (c : Dev nD) : ∀ (n : ℕ) (h : n < cfg4.N),
    outsAt4 V c n h = (Tblk V c ⟨n, h⟩, Srow V c (5000 * (n + 1)), Qrow V c (5000 * (n + 1)))
  | 0, h => by
    rw [outsAt4_A V c ⟨0, h⟩ rfl, outA5, outA6, outA7]
    refine Prod.ext rfl (Prod.ext ?_ ?_) <;> dsimp only
    · funext i
      obtain ⟨q, rfl⟩ := row_idx i
      refine (sumRow_apply V c ⟨0, h⟩ _ q).trans ?_
      unfold k4_pay2
      rw [broadcast_apply, zero_word, zero_add, Srow_apply, show 5000 * (0 + 1) = 5000 from by norm_num,
        psum_first _ 5000 (by norm_num)]
      exact Finset.sum_congr rfl fun p _ => congrArg (fun r => Tfull V c (ix2 r q)) (Fin.ext (by simp))
    · funext i
      obtain ⟨q, rfl⟩ := row_idx i
      refine (sqRow_apply V c ⟨0, h⟩ _ q).trans ?_
      unfold k4_pay3
      rw [broadcast_apply, zero_word, zero_add, Qrow_apply, show 5000 * (0 + 1) = 5000 from by norm_num,
        psum_first _ 5000 (by norm_num)]
      exact Finset.sum_congr rfl fun p _ =>
        congrArg (fun r => Tfull V c (ix2 r q) * Tfull V c (ix2 r q)) (Fin.ext (by simp))
  | n + 1, h => by
    have hN : cfg4.N = 20 := N_4
    have hB : ¬(⟨n + 1, h⟩ : Fin cfg4.N).val % 20 = 0 := by dsimp only; omega
    have hp : outsAt4 V c ((⟨n + 1, h⟩ : Fin cfg4.N).val - 1) (Nat.lt_of_le_of_lt (Nat.sub_le _ _) h)
        = (Tblk V c ⟨n, Nat.lt_of_succ_lt h⟩, Srow V c (5000 * (n + 1)), Qrow V c (5000 * (n + 1))) :=
      outsAt_eq c n (Nat.lt_of_succ_lt h)
    rw [outsAt4_B V c ⟨n + 1, h⟩ hB, hp, outB5, outB6, outB7]
    refine Prod.ext rfl (Prod.ext ?_ ?_) <;> dsimp only
    · funext i
      obtain ⟨q, rfl⟩ := row_idx i
      refine (sumRow_apply V c ⟨n + 1, h⟩ _ q).trans ?_
      rw [Srow_apply, Srow_apply, show 5000 * (n + 1 + 1) = 5000 * (n + 1) + 5000 from by ring,
        psum_add _ _ 5000 (by omega)]
    · funext i
      obtain ⟨q, rfl⟩ := row_idx i
      refine (sqRow_apply V c ⟨n + 1, h⟩ _ q).trans ?_
      rw [Qrow_apply, Qrow_apply, show 5000 * (n + 1 + 1) = 5000 * (n + 1) + 5000 from by ring,
        psum_add _ _ 5000 (by omega)]

end Cert.KernelIdeal.Stats4

end
-- ==== Proof.Stats4Fin.lean ====
/-
  The three arrays the statistics region leaves: the features (the perceptron of the aggregated features, all rows),
  and the two 1×64 rows of column sums of the features and of their squares over all rows.
-/
import proofs.«169884_j31009663877671_1_alg».proof.Proof.Stats4Acc

noncomputable section

namespace Cert.KernelIdeal.Stats4

open Cert.KernelIdeal Cert.KernelIdeal.Gen Cert.Gin Cert.RowAffine Cert.Lib.BlockSums
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The column sums of the features over all rows, as a 1×64 row. -/
def Ssum (c : Dev nD) : S1x64.Idx → EReal := colSumRow (Tfull V c)

/-- The column sums of the squared features over all rows, as a 1×64 row. -/
def Qsum (c : Dev nD) : S1x64.Idx → EReal := colSqRow (Tfull V c)

theorem Ssum_apply (c : Dev nD) (q : Fin 64) : Ssum V c (ix2 0 q) = ∑ r : Fin 100000, Tfull V c (ix2 r q) := rfl
theorem Qsum_apply (c : Dev nD) (q : Fin 64) :
    Qsum V c (ix2 0 q) = ∑ r : Fin 100000, Tfull V c (ix2 r q) * Tfull V c (ix2 r q) := rfl

/-- What point t writes back for the features is row block t of the feature array. -/
theorem flushed_eq5 (c : Dev nD) (t : Fin cfg4.N) :
    (dat4 V c).flushed 5 t = ((cfg4.win 5).blk t).view.read (Elt Ideal) (Tfull V c) := by
  show (cfg4.win 5).cut (grid4.coords t) ((dat4 V c).after 5 t) = _
  rw [after4_5, outsAt_eq V c t.val t.isLt]
  dsimp only
  obtain ⟨-, -, e2, e3, -⟩ := idx_facts t
  funext j
  obtain ⟨p, q, rfl⟩ : ∃ (p : Fin 5000) (q : Fin 64), j = ix2 p q := ⟨j 0, j 1, eq_ix2 j⟩
  have he : ((cfg4.win 5).blk t).view.emb (ix2 p q) = (ix2 ⟨5000 * t.val + p.val, lt_rows t p⟩ q : S100000x64.Idx) := by
    funext a; apply Fin.ext
    match a with
    | ⟨0, _⟩ => show win4_5.index t (0 : Fin 2) * 5000 + 1 * p.val = 5000 * t.val + p.val; omega
    | ⟨1, _⟩ => show win4_5.index t (1 : Fin 2) * 64 + 1 * q.val = q.val; omega
  rw [View.read_apply, he]
  exact (Tblk_apply V c t p q).trans (cast_eq _ _).symm

theorem mem_blk5 (t : Fin cfg4.N) (i : S100000x64.Idx) :
    i ∈ ((cfg4.win 5).blk t).view.set ↔ ∀ a : Fin 2, win4_5.index t a * S5000x64.size a ≤ (i a).val ∧ (i a).val < win4_5.index t a * S5000x64.size a + S5000x64.size a := by
  show i ∈ ((View.whole main_v107_0).slice (win4_5.rect t)).set ↔ _
  rw [View.set_slice_whole, Rect.mem_set_unit]
  exact Iff.rfl

/-- The feature array after the region. -/
theorem final5 (c : Dev nD) : (dat4 V c).arrAt 5 cfg4.N = Tfull V c :=
  (dat4 V c).arrAt_eq_of_cover 5 (Tfull V c) (fun t _ => flushed_eq5 V c t) fun i => by
    have hN : cfg4.N = 20 := N_4
    have hi0 : (i 0).val < 100000 := (i 0).isLt
    have hi1 : (i 1).val < 64 := (i 1).isLt
    refine ⟨⟨(i 0).val / 5000, by omega⟩, flush4_5 _, ?_⟩
    rw [mem_blk5]
    obtain ⟨-, -, e2, e3, -⟩ := idx_facts ⟨(i 0).val / 5000, by omega⟩
    intro a
    match a with
    | ⟨0, _⟩ => show win4_5.index _ (0 : Fin 2) * 5000 ≤ (i 0).val ∧ (i 0).val < win4_5.index _ (0 : Fin 2) * 5000 + 5000; rw [e2]; dsimp only; omega
    | ⟨1, _⟩ => show win4_5.index _ (1 : Fin 2) * 64 ≤ (i 1).val ∧ (i 1).val < win4_5.index _ (1 : Fin 2) * 64 + 64; rw [e3]; omega

/-- What the last point writes back for window 6: the whole row of the column sums of the features. -/
theorem flushed_eq6 (c : Dev nD) (t : Fin cfg4.N) (hf : (cfg4.win 6).flush t = true) :
    (dat4 V c).flushed 6 t = ((cfg4.win 6).blk t).view.read (Elt Ideal) (Ssum V c) := by
  have hN : cfg4.N = 20 := N_4
  have h19 : t.val = 19 := by have := (flush4_6 t).mp hf; have := t.isLt; omega
  show (cfg4.win 6).cut (grid4.coords t) ((dat4 V c).after 6 t) = _
  rw [after4_6, outsAt_eq V c t.val t.isLt]
  dsimp only
  obtain ⟨-, -, -, -, -, -, -, -, -, -, -, -, e0, e1, -⟩ := idx_facts t
  funext j
  obtain ⟨q, rfl⟩ := row_idx j
  have he : ((cfg4.win 6).blk t).view.emb (ix2 0 q) = (ix2 0 q : S1x64.Idx) := by
    funext a; apply Fin.ext
    match a with
    | ⟨0, _⟩ => show win4_6.index t (0 : Fin 2) * 1 + 1 * 0 = 0; omega
    | ⟨1, _⟩ => show win4_6.index t (1 : Fin 2) * 64 + 1 * q.val = q.val; omega
  rw [View.read_apply, he]
  refine Eq.trans ?_ (cast_eq _ _).symm
  show Srow V c (5000 * (t.val + 1)) (ix2 0 q) = Ssum V c (ix2 0 q)
  rw [Srow_apply, Ssum_apply, h19, show 5000 * (19 + 1) = 100000 from by norm_num, psum_full]

theorem mem_blk6 (t : Fin cfg4.N) (i : S1x64.Idx) :
    i ∈ ((cfg4.win 6).blk t).view.set ↔ ∀ a : Fin 2, win4_6.index t a * S1x64.size a ≤ (i a).val ∧ (i a).val < win4_6.index t a * S1x64.size a + S1x64.size a := by
  show i ∈ ((View.whole main_v107_1).slice (win4_6.rect t)).set ↔ _
  rw [View.set_slice_whole, Rect.mem_set_unit]
  exact Iff.rfl

/-- The row after the region: the column sums of the features. -/
theorem final6 (c : Dev nD) : (dat4 V c).arrAt 6 cfg4.N = Ssum V c :=
  (dat4 V c).arrAt_eq_of_cover 6 (Ssum V c) (fun t hf => flushed_eq6 V c t hf) fun i => by
    have hN : cfg4.N = 20 := N_4
    have hi0 : (i 0).val < 1 := (i 0).isLt
    have hi1 : (i 1).val < 64 := (i 1).isLt
    refine ⟨⟨19, by omega⟩, (flush4_6 _).mpr rfl, ?_⟩
    rw [mem_blk6]
    obtain ⟨-, -, -, -, -, -, -, -, -, -, -, -, e0, e1, -⟩ := idx_facts ⟨19, by omega⟩
    intro a
    match a with
    | ⟨0, _⟩ => show win4_6.index _ (0 : Fin 2) * 1 ≤ (i 0).val ∧ (i 0).val < win4_6.index _ (0 : Fin 2) * 1 + 1; rw [e0]; omega
    | ⟨1, _⟩ => show win4_6.index _ (1 : Fin 2) * 64 ≤ (i 1).val ∧ (i 1).val < win4_6.index _ (1 : Fin 2) * 64 + 64; rw [e1]; omega

/-- What the last point writes back for window 7: the whole row of the column sums of the squared features. -/
theorem flushed_eq7 (c : Dev nD) (t : Fin cfg4.N) (hf : (cfg4.win 7).flush t = true) :
    (dat4 V c).flushed 7 t = ((cfg4.win 7).blk t).view.read (Elt Ideal) (Qsum V c) := by
  have hN : cfg4.N = 20 := N_4
  have h19 : t.val = 19 := by have := (flush4_7 t).mp hf; have := t.isLt; omega
  show (cfg4.win 7).cut (grid4.coords t) ((dat4 V c).after 7 t) = _
  rw [after4_7, outsAt_eq V c t.val t.isLt]
  dsimp only
  obtain ⟨-, -, -, -, -, -, -, -, -, -, -, -, -, -, e0, e1⟩ := idx_facts t
  funext j
  obtain ⟨q, rfl⟩ := row_idx j
  have he : ((cfg4.win 7).blk t).view.emb (ix2 0 q) = (ix2 0 q : S1x64.Idx) := by
    funext a; apply Fin.ext
    match a with
    | ⟨0, _⟩ => show win4_7.index t (0 : Fin 2) * 1 + 1 * 0 = 0; omega
    | ⟨1, _⟩ => show win4_7.index t (1 : Fin 2) * 64 + 1 * q.val = q.val; omega
  rw [View.read_apply, he]
  refine Eq.trans ?_ (cast_eq _ _).symm
  show Qrow V c (5000 * (t.val + 1)) (ix2 0 q) = Qsum V c (ix2 0 q)
  rw [Qrow_apply, Qsum_apply, h19, show 5000 * (19 + 1) = 100000 from by norm_num, psum_full]

theorem mem_blk7 (t : Fin cfg4.N) (i : S1x64.Idx) :
    i ∈ ((cfg4.win 7).blk t).view.set ↔ ∀ a : Fin 2, win4_7.index t a * S1x64.size a ≤ (i a).val ∧ (i a).val < win4_7.index t a * S1x64.size a + S1x64.size a := by
  show i ∈ ((View.whole main_v107_2).slice (win4_7.rect t)).set ↔ _
  rw [View.set_slice_whole, Rect.mem_set_unit]
  exact Iff.rfl

/-- The row after the region: the column sums of the squared features. -/
theorem final7 (c : Dev nD) : (dat4 V c).arrAt 7 cfg4.N = Qsum V c :=
  (dat4 V c).arrAt_eq_of_cover 7 (Qsum V c) (fun t hf => flushed_eq7 V c t hf) fun i => by
    have hN : cfg4.N = 20 := N_4
    have hi0 : (i 0).val < 1 := (i 0).isLt
    have hi1 : (i 1).val < 64 := (i 1).isLt
    refine ⟨⟨19, by omega⟩, (flush4_7 _).mpr rfl, ?_⟩
    rw [mem_blk7]
    obtain ⟨-, -, -, -, -, -, -, -, -, -, -, -, -, -, e0, e1⟩ := idx_facts ⟨19, by omega⟩
    intro a
    match a with
    | ⟨0, _⟩ => show win4_7.index _ (0 : Fin 2) * 1 ≤ (i 0).val ∧ (i 0).val < win4_7.index _ (0 : Fin 2) * 1 + 1; rw [e0]; omega
    | ⟨1, _⟩ => show win4_7.index _ (1 : Fin 2) * 64 ≤ (i 1).val ∧ (i 1).val < win4_7.index _ (1 : Fin 2) * 64 + 64; rw [e1]; omega

end Cert.KernelIdeal.Stats4

end
-- ==== Proof.Norm5.lean ====
/-
  The normalisation region: every block of 5000 rows is sent to γ * (t - mean) * rsqrt (var + ε) + β with the four 1×64
  rows the same at every grid point, and the twenty blocks tile the array; so the array the region leaves is that
  normalisation of the whole feature array, entry by entry.
-/
import proofs.«169884_j31009663877671_1_alg».proof.Proof.Gen.KernelIdeal.Frame
import proofs.«169884_j31009663877671_1_alg».proof.Proof.GinSpec
import Idealize.ShloMosaic.Lib.Pipeline.Value
import Idealize.ShloMosaic.Lib.ValueIdx

noncomputable section

namespace Cert.KernelIdeal.Norm5

open Cert.KernelIdeal Cert.KernelIdeal.Gen Cert.Gin
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- The body's one store at an entry. -/
theorem pay_apply (x : Vec Ideal S5000x64 .f32) (var γ mean β : Vec Ideal S1x64 .f32) (p : Fin 5000) (q : Fin 64) :
    k5_pay1 (F := Ideal) x var γ mean β (ix2 p q)
      = normRows x mean var γ β (Ideal.ofBits .f32 0x3727C5AC#32) (ix2 p q) := by
  unfold k5_pay1
  simp only [shapeCast_self]
  rw [normRows_apply, addf_apply, mulf_apply, mulf_apply, subf_apply]
  rw [RowVector.broadcastTo_row (by decide), RowVector.broadcastTo_row (by decide), RowVector.broadcastTo_row (by decide),
    RowVector.broadcastTo_row (by decide)]
  rfl

variable (V : (c : Dev nD) → (b : Ref sig .tc) → Buf (Elt Ideal) ((c : Thread nD τ).loc b))

/-- The printed index maps over the grid: the row windows move with the point, the 1×64 rows stay. -/
theorem idx_facts : ∀ t : Fin cfg5.N, win5_0.index t (0 : Fin 2) = t.val ∧ win5_0.index t (1 : Fin 2) = 0
    ∧ win5_5.index t (0 : Fin 2) = t.val ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

theorem lt_rows (t : Fin cfg5.N) (p : Fin 5000) : 5000 * t.val + p.val < 100000 := by
  have hN : cfg5.N = 20 := N_5
  have := t.isLt; have := p.isLt; omega

/-- Row block t of the data window, read at (p, q). -/
theorem rd0 (c : Dev nD) (t : Fin cfg5.N) (p : Fin 5000) (q : Fin 64) :
    iblk5 V c 0 t (ix2 p q) = (V c (Pipeline.arrRef spec5 0) : S100000x64.Idx → EReal) (ix2 ⟨5000 * t.val + p.val, lt_rows t p⟩ q) := by
  obtain ⟨e0, e1, -⟩ := idx_facts t
  unfold iblk5
  rw [View.read_apply]
  refine congrArg (V c (Pipeline.arrRef spec5 0)) ?_
  funext a; apply Fin.ext
  match a with
  | ⟨0, _⟩ => show win5_0.index t (0 : Fin 2) * 5000 + 1 * p.val = 5000 * t.val + p.val; omega
  | ⟨1, _⟩ => show win5_0.index t (1 : Fin 2) * 64 + 1 * q.val = q.val; omega

/-- The 1×64 row of window 1, read at (0, q): the whole row is the block at every point. -/
theorem rd1 (c : Dev nD) (t : Fin cfg5.N) (q : Fin 64) :
    iblk5 V c 1 t (ix2 0 q) = (V c (Pipeline.arrRef spec5 1) : S1x64.Idx → EReal) (ix2 0 q) := by
  obtain ⟨-, -, -, -, e0, e1, -⟩ := idx_facts t
  unfold iblk5
  rw [View.read_apply]
  refine congrArg (V c (Pipeline.arrRef spec5 1)) ?_
  funext a; apply Fin.ext
  match a with
  | ⟨0, _⟩ => show win5_1.index t (0 : Fin 2) * 1 + 1 * 0 = 0; omega
  | ⟨1, _⟩ => show win5_1.index t (1 : Fin 2) * 64 + 1 * q.val = q.val; omega

/-- The 1×64 row of window 2, read at (0, q): the whole row is the block at every point. -/
theorem rd2 (c : Dev nD) (t : Fin cfg5.N) (q : Fin 64) :
    iblk5 V c 2 t (ix2 0 q) = (V c (Pipeline.arrRef spec5 2) : S1x64.Idx → EReal) (ix2 0 q) := by
  obtain ⟨-, -, -, -, -, -, e0, e1, -⟩ := idx_facts t
  unfold iblk5
  rw [View.read_apply]
  refine congrArg (V c (Pipeline.arrRef spec5 2)) ?_
  funext a; apply Fin.ext
  match a with
  | ⟨0, _⟩ => show win5_2.index t (0 : Fin 2) * 1 + 1 * 0 = 0; omega
  | ⟨1, _⟩ => show win5_2.index t (1 : Fin 2) * 64 + 1 * q.val = q.val; omega

/-- The 1×64 row of window 3, read at (0, q): the whole row is the block at every point. -/
theorem rd3 (c : Dev nD) (t : Fin cfg5.N) (q : Fin 64) :
    iblk5 V c 3 t (ix2 0 q) = (V c (Pipeline.arrRef spec5 3) : S1x64.Idx → EReal) (ix2 0 q) := by
  obtain ⟨-, -, -, -, -, -, -, -, e0, e1, -⟩ := idx_facts t
  unfold iblk5
  rw [View.read_apply]
  refine congrArg (V c (Pipeline.arrRef spec5 3)) ?_
  funext a; apply Fin.ext
  match a with
  | ⟨0, _⟩ => show win5_3.index t (0 : Fin 2) * 1 + 1 * 0 = 0; omega
  | ⟨1, _⟩ => show win5_3.index t (1 : Fin 2) * 64 + 1 * q.val = q.val; omega

/-- The 1×64 row of window 4, read at (0, q): the whole row is the block at every point. -/
theorem rd4 (c : Dev nD) (t : Fin cfg5.N) (q : Fin 64) :
    iblk5 V c 4 t (ix2 0 q) = (V c (Pipeline.arrRef spec5 4) : S1x64.Idx → EReal) (ix2 0 q) := by
  obtain ⟨-, -, -, -, -, -, -, -, -, -, e0, e1⟩ := idx_facts t
  unfold iblk5
  rw [View.read_apply]
  refine congrArg (V c (Pipeline.arrRef spec5 4)) ?_
  funext a; apply Fin.ext
  match a with
  | ⟨0, _⟩ => show win5_4.index t (0 : Fin 2) * 1 + 1 * 0 = 0; omega
  | ⟨1, _⟩ => show win5_4.index t (1 : Fin 2) * 64 + 1 * q.val = q.val; omega

/-- The array the region leaves in its output window where covered: the normalisation of the data array by the
    four rows, entry by entry. -/
abbrev G (c : Dev nD) : S100000x64.Idx → EReal :=
  normRows (V c (Pipeline.arrRef spec5 0)) (V c (Pipeline.arrRef spec5 1)) (V c (Pipeline.arrRef spec5 2))
    (V c (Pipeline.arrRef spec5 3)) (V c (Pipeline.arrRef spec5 4)) (Ideal.ofBits .f32 0x3727C5AC#32)

/-- What point t writes back is block t of that array. -/
theorem flushed_eq (c : Dev nD) (t : Fin cfg5.N) :
    (dat5 V c).flushed 5 t = ((cfg5.win 5).blk t).view.read (Elt Ideal) (G V c) := by
  show (cfg5.win 5).cut (grid5.coords t) ((dat5 V c).after 5 t) = _
  rw [after5_5]
  unfold out5_5
  rw [View.canon_unit_zero hz]
  simp only [View.ld_unit_zero (S := S5000x64) hz, View.ld_unit_zero (S := S1x64) hz]
  funext j
  obtain ⟨p, q, rfl⟩ : ∃ (p : Fin 5000) (q : Fin 64), j = ix2 p q := ⟨j 0, j 1, eq_ix2 j⟩
  refine (pay_apply _ _ _ _ _ p q).trans ?_
  obtain ⟨-, -, e2, e3, -⟩ := idx_facts t
  have he : ((cfg5.win 5).blk t).view.emb (ix2 p q) = (ix2 ⟨5000 * t.val + p.val, lt_rows t p⟩ q : S100000x64.Idx) := by
    funext a; apply Fin.ext
    match a with
    | ⟨0, _⟩ => show win5_5.index t (0 : Fin 2) * 5000 + 1 * p.val = 5000 * t.val + p.val; omega
    | ⟨1, _⟩ => show win5_5.index t (1 : Fin 2) * 64 + 1 * q.val = q.val; omega
  rw [View.read_apply, he, normRows_apply, rd0, rd1, rd2, rd3, rd4]
  exact (cast_eq _ _).symm

/-- An index of the array is in point t's block iff each coordinate is in the block's range on its axis. -/
theorem mem_blk (t : Fin cfg5.N) (i : S100000x64.Idx) :
    i ∈ ((cfg5.win 5).blk t).view.set ↔ ∀ a : Fin 2, win5_5.index t a * S5000x64.size a ≤ (i a).val ∧ (i a).val < win5_5.index t a * S5000x64.size a + S5000x64.size a := by
  show i ∈ ((View.whole main_v120).slice (win5_5.rect t)).set ↔ _
  rw [View.set_slice_whole, Rect.mem_set_unit]
  exact Iff.rfl

/-- The array after the region: the twenty row blocks tile it, so it is the normalisation everywhere. -/
theorem final (c : Dev nD) : (dat5 V c).arrAt 5 cfg5.N = G V c :=
  (dat5 V c).arrAt_eq_of_cover 5 (G V c) (fun t _ => flushed_eq V c t) fun i => by
    have hN : cfg5.N = 20 := N_5
    have hi0 : (i 0).val < 100000 := (i 0).isLt
    have hi1 : (i 1).val < 64 := (i 1).isLt
    refine ⟨⟨(i 0).val / 5000, by omega⟩, flush5_5 _, ?_⟩
    rw [mem_blk]
    obtain ⟨-, -, e2, e3, -⟩ := idx_facts ⟨(i 0).val / 5000, by omega⟩
    intro a
    match a with
    | ⟨0, _⟩ => show win5_5.index _ (0 : Fin 2) * 5000 ≤ (i 0).val ∧ (i 0).val < win5_5.index _ (0 : Fin 2) * 5000 + 5000; rw [e2]; dsimp only; omega
    | ⟨1, _⟩ => show win5_5.index _ (1 : Fin 2) * 64 ≤ (i 1).val ∧ (i 1).val < win5_5.index _ (1 : Fin 2) * 64 + 64; rw [e3]; omega

end Cert.KernelIdeal.Norm5

end
-- ==== Proof.KChain3.lean ====
/-
  The kernel's program read boundary by boundary: each stretch of host operations from what the region before left, each
  region's arrays from the stretch before it, so that every block's output is the kernel's block function of the block's
  input and of the argument arrays, and the argument arrays are found unchanged at every boundary.
-/
import proofs.«169884_j31009663877671_1_alg».proof.Proof.Gen.KernelIdeal.Frame
import proofs.«169884_j31009663877671_1_alg».proof.Proof.Stats4Fin
import proofs.«169884_j31009663877671_1_alg».proof.Proof.Norm5
import proofs.«169884_j31009663877671_1_alg».proof.Proof.KerForms
import Idealize.ShloMosaic.Lib.StableHlo.Run

set_option maxRecDepth 16384

noncomputable section

namespace Cert.KernelIdeal.Chain

open Cert.KernelIdeal Cert.KernelIdeal.Gen Cert.Gin Cert.ReferenceIdeal.Forms
open Idealize.ShloMosaic Idealize.ShloMosaic.TcCoe Idealize.SL.Sem Idealize.ShloMosaic.ValueIdx

variable (m : (ℓ : Loc nD τ sig) → Buf (Elt Ideal) ℓ) (ρ : Dev nD → PrngReg)

/-! ## Block 3 -/

set_option maxHeartbeats 4000000 in
theorem b3_agg (c : Dev nD) : W9 m ρ c (Proc.devRef .tc main_v104) = agg64 (W8 m ρ c (Proc.devRef .tc main_v77)) (W8 m ρ c (Proc.devRef .tc main_arg1)) := by
  show StableHlo.after hostOps4 (W8 m ρ c) (Proc.devRef .tc main_v104) = _
  after_results_simp
  rfl

set_option maxHeartbeats 4000000 in
theorem b3_W1 (c : Dev nD) : W9 m ρ c (Proc.devRef .tc main_v79) = slab (W8 m ρ c (Proc.devRef .tc main_arg7)) ![1, 0, 0] Cert.ReferenceIdeal.Facts₀.slices_S4x64x64_S1x64x64_1_0_0 := by
  show StableHlo.after hostOps4 (W8 m ρ c) (Proc.devRef .tc main_v79) = _
  after_results_simp
  rfl

set_option maxHeartbeats 4000000 in
theorem b3_b1 (c : Dev nD) : W9 m ρ c (Proc.devRef .tc main_v105) = asRow (row4 (W8 m ρ c (Proc.devRef .tc main_arg8)) ![1, 0] Cert.ReferenceIdeal.Facts₀.slices_S4x64_S1x64_1_0) := by
  show StableHlo.after hostOps4 (W8 m ρ c) (Proc.devRef .tc main_v105) = _
  after_results_simp
  rfl

set_option maxHeartbeats 4000000 in
theorem b3_W2 (c : Dev nD) : W9 m ρ c (Proc.devRef .tc main_v83) = slab (W8 m ρ c (Proc.devRef .tc main_arg9)) ![1, 0, 0] Cert.ReferenceIdeal.Facts₀.slices_S4x64x64_S1x64x64_1_0_0 := by
  show StableHlo.after hostOps4 (W8 m ρ c) (Proc.devRef .tc main_v83) = _
  after_results_simp
  rfl

set_option maxHeartbeats 4000000 in
theorem b3_b2 (c : Dev nD) : W9 m ρ c (Proc.devRef .tc main_v106) = asRow (row4 (W8 m ρ c (Proc.devRef .tc main_arg10)) ![1, 0] Cert.ReferenceIdeal.Facts₀.slices_S4x64_S1x64_1_0) := by
  show StableHlo.after hostOps4 (W8 m ρ c) (Proc.devRef .tc main_v106) = _
  after_results_simp
  rfl

set_option maxHeartbeats 4000000 in
theorem b3_g (c : Dev nD) : W9 m ρ c (Proc.devRef .tc main_v87) = row5 (W8 m ρ c (Proc.devRef .tc main_arg11)) ![2, 0] Cert.ReferenceIdeal.Facts₀.slices_S5x64_S1x64_2_0 := by
  show StableHlo.after hostOps4 (W8 m ρ c) (Proc.devRef .tc main_v87) = _
  after_results_simp
  rfl

set_option maxHeartbeats 4000000 in
theorem b3_b (c : Dev nD) : W9 m ρ c (Proc.devRef .tc main_v89) = row5 (W8 m ρ c (Proc.devRef .tc main_arg12)) ![2, 0] Cert.ReferenceIdeal.Facts₀.slices_S5x64_S1x64_2_0 := by
  show StableHlo.after hostOps4 (W8 m ρ c) (Proc.devRef .tc main_v89) = _
  after_results_simp
  rfl

/-- The feature array of block 3. -/
abbrev T3 (c : Dev nD) : FVec Ideal Cert.ReferenceIdeal.S100000x64 .f32 :=
  mlp (agg64 (W8 m ρ c (Proc.devRef .tc main_v77)) (W8 m ρ c (Proc.devRef .tc main_arg1))) (slab (W8 m ρ c (Proc.devRef .tc main_arg7)) ![1, 0, 0] Cert.ReferenceIdeal.Facts₀.slices_S4x64x64_S1x64x64_1_0_0) (asRow (row4 (W8 m ρ c (Proc.devRef .tc main_arg8)) ![1, 0] Cert.ReferenceIdeal.Facts₀.slices_S4x64_S1x64_1_0)) (slab (W8 m ρ c (Proc.devRef .tc main_arg9)) ![1, 0, 0] Cert.ReferenceIdeal.Facts₀.slices_S4x64x64_S1x64x64_1_0_0) (asRow (row4 (W8 m ρ c (Proc.devRef .tc main_arg10)) ![1, 0] Cert.ReferenceIdeal.Facts₀.slices_S4x64_S1x64_1_0))

theorem b3_Tf (c : Dev nD) : Stats4.Tfull (V9 m ρ) c = T3 m ρ c := by
  show mlp (W9 m ρ c (Proc.devRef .tc main_v104)) (W9 m ρ c (Proc.devRef .tc main_v79)) (W9 m ρ c (Proc.devRef .tc main_v105)) (W9 m ρ c (Proc.devRef .tc main_v83)) (W9 m ρ c (Proc.devRef .tc main_v106)) = _
  rw [b3_agg, b3_W1, b3_b1, b3_W2, b3_b2]

theorem b3_T (c : Dev nD) : W10 m ρ c (Proc.devRef .tc main_v107_0) = T3 m ρ c :=
  ((hF4 m ρ c 5).symm.trans (Stats4.final5 (V9 m ρ) c)).trans (b3_Tf m ρ c)

theorem b3_S (c : Dev nD) : W10 m ρ c (Proc.devRef .tc main_v107_1) = sumRow (T3 m ρ c) :=
  ((hF4 m ρ c 6).symm.trans (Stats4.final6 (V9 m ρ) c)).trans (congrArg colSumRow (b3_Tf m ρ c))

theorem b3_Q (c : Dev nD) : W10 m ρ c (Proc.devRef .tc main_v107_2) = sqRow (T3 m ρ c) :=
  ((hF4 m ρ c 7).symm.trans (Stats4.final7 (V9 m ρ) c)).trans (congrArg colSqRow (b3_Tf m ρ c))

theorem b3_g' (c : Dev nD) : W10 m ρ c (Proc.devRef .tc main_v87) = row5 (W8 m ρ c (Proc.devRef .tc main_arg11)) ![2, 0] Cert.ReferenceIdeal.Facts₀.slices_S5x64_S1x64_2_0 :=
  (W10_of_ne m ρ c main_v87 (by decide)).trans (b3_g m ρ c)

theorem b3_b' (c : Dev nD) : W10 m ρ c (Proc.devRef .tc main_v89) = row5 (W8 m ρ c (Proc.devRef .tc main_arg12)) ![2, 0] Cert.ReferenceIdeal.Facts₀.slices_S5x64_S1x64_2_0 :=
  (W10_of_ne m ρ c main_v89 (by decide)).trans (b3_b m ρ c)

set_option maxHeartbeats 4000000 in
theorem b3_Tk (c : Dev nD) : W11 m ρ c (Proc.devRef .tc main_v107_0) = W10 m ρ c (Proc.devRef .tc main_v107_0) := by
  show StableHlo.after hostOps5 (W10 m ρ c) (Proc.devRef .tc main_v107_0) = _
  after_results_simp

set_option maxHeartbeats 4000000 in
theorem b3_mean (c : Dev nD) : W11 m ρ c (Proc.devRef .tc main_v116) = asRow (meanK (W10 m ρ c (Proc.devRef .tc main_v107_1))) := by
  show StableHlo.after hostOps5 (W10 m ρ c) (Proc.devRef .tc main_v116) = _
  after_results_simp
  rfl

set_option maxHeartbeats 4000000 in
theorem b3_var (c : Dev nD) : W11 m ρ c (Proc.devRef .tc main_v117) = asRow (varK (W10 m ρ c (Proc.devRef .tc main_v107_1)) (W10 m ρ c (Proc.devRef .tc main_v107_2))) := by
  show StableHlo.after hostOps5 (W10 m ρ c) (Proc.devRef .tc main_v117) = _
  after_results_simp
  rfl

set_option maxHeartbeats 4000000 in
theorem b3_grow (c : Dev nD) : W11 m ρ c (Proc.devRef .tc main_v118) = asRow (W10 m ρ c (Proc.devRef .tc main_v87)) := by
  show StableHlo.after hostOps5 (W10 m ρ c) (Proc.devRef .tc main_v118) = _
  after_results_simp
  rfl

set_option maxHeartbeats 4000000 in
theorem b3_brow (c : Dev nD) : W11 m ρ c (Proc.devRef .tc main_v119) = asRow (W10 m ρ c (Proc.devRef .tc main_v89)) := by
  show StableHlo.after hostOps5 (W10 m ρ c) (Proc.devRef .tc main_v119) = _
  after_results_simp
  rfl

/-- What block 3 leaves: the kernel's block function of what it found. -/
theorem b3_out (c : Dev nD) : W12 m ρ c (Proc.devRef .tc main_v120)
      = kblkN (W8 m ρ c (Proc.devRef .tc main_v77)) (W8 m ρ c (Proc.devRef .tc main_arg1)) (W8 m ρ c (Proc.devRef .tc main_arg7)) (W8 m ρ c (Proc.devRef .tc main_arg8)) (W8 m ρ c (Proc.devRef .tc main_arg9)) (W8 m ρ c (Proc.devRef .tc main_arg10)) (W8 m ρ c (Proc.devRef .tc main_arg11)) (W8 m ρ c (Proc.devRef .tc main_arg12))
        ![1, 0, 0] Cert.ReferenceIdeal.Facts₀.slices_S4x64x64_S1x64x64_1_0_0 ![1, 0] Cert.ReferenceIdeal.Facts₀.slices_S4x64_S1x64_1_0 ![2, 0] Cert.ReferenceIdeal.Facts₀.slices_S5x64_S1x64_2_0 := by
  refine ((hF5 m ρ c 5).symm.trans (Norm5.final (V11 m ρ) c)).trans ?_
  show normRows (W11 m ρ c (Proc.devRef .tc main_v107_0)) (W11 m ρ c (Proc.devRef .tc main_v116)) (W11 m ρ c (Proc.devRef .tc main_v117)) (W11 m ρ c (Proc.devRef .tc main_v118)) (W11 m ρ c (Proc.devRef .tc main_v119)) (Ideal.ofBits .f32 0x3727C5AC#32) = _
  rw [b3_Tk, b3_mean, b3_var, b3_grow, b3_brow, b3_T, b3_S, b3_Q, b3_g', b3_b']
  rfl

theorem k3_main_arg1 (c : Dev nD) : W12 m ρ c (Proc.devRef .tc main_arg1) = W8 m ρ c (Proc.devRef .tc main_arg1) :=
  calc W12 m ρ c (Proc.devRef .tc main_arg1)
    _ = W11 m ρ c (Proc.devRef .tc main_arg1) := W12_of_ne m ρ c main_arg1 (by decide)
    _ = W10 m ρ c (Proc.devRef .tc main_arg1) := by show StableHlo.after hostOps5 (W10 m ρ c) (Proc.devRef .tc main_arg1) = _; after_results_simp
    _ = W9 m ρ c (Proc.devRef .tc main_arg1) := W10_of_ne m ρ c main_arg1 (by decide)
    _ = W8 m ρ c (Proc.devRef .tc main_arg1) := by show StableHlo.after hostOps4 (W8 m ρ c) (Proc.devRef .tc main_arg1) = _; after_results_simp

theorem k3_main_arg2 (c : Dev nD) : W12 m ρ c (Proc.devRef .tc main_arg2) = W8 m ρ c (Proc.devRef .tc main_arg2) :=
  calc W12 m ρ c (Proc.devRef .tc main_arg2)
    _ = W11 m ρ c (Proc.devRef .tc main_arg2) := W12_of_ne m ρ c main_arg2 (by decide)
    _ = W10 m ρ c (Proc.devRef .tc main_arg2) := by show StableHlo.after hostOps5 (W10 m ρ c) (Proc.devRef .tc main_arg2) = _; after_results_simp
    _ = W9 m ρ c (Proc.devRef .tc main_arg2) := W10_of_ne m ρ c main_arg2 (by decide)
    _ = W8 m ρ c (Proc.devRef .tc main_arg2) := by show StableHlo.after hostOps4 (W8 m ρ c) (Proc.devRef .tc main_arg2) = _; after_results_simp

theorem k3_main_arg7 (c : Dev nD) : W12 m ρ c (Proc.devRef .tc main_arg7) = W8 m ρ c (Proc.devRef .tc main_arg7) :=
  calc W12 m ρ c (Proc.devRef .tc main_arg7)
    _ = W11 m ρ c (Proc.devRef .tc main_arg7) := W12_of_ne m ρ c main_arg7 (by decide)
    _ = W10 m ρ c (Proc.devRef .tc main_arg7) := by show StableHlo.after hostOps5 (W10 m ρ c) (Proc.devRef .tc main_arg7) = _; after_results_simp
    _ = W9 m ρ c (Proc.devRef .tc main_arg7) := W10_of_ne m ρ c main_arg7 (by decide)
    _ = W8 m ρ c (Proc.devRef .tc main_arg7) := by show StableHlo.after hostOps4 (W8 m ρ c) (Proc.devRef .tc main_arg7) = _; after_results_simp

theorem k3_main_arg8 (c : Dev nD) : W12 m ρ c (Proc.devRef .tc main_arg8) = W8 m ρ c (Proc.devRef .tc main_arg8) :=
  calc W12 m ρ c (Proc.devRef .tc main_arg8)
    _ = W11 m ρ c (Proc.devRef .tc main_arg8) := W12_of_ne m ρ c main_arg8 (by decide)
    _ = W10 m ρ c (Proc.devRef .tc main_arg8) := by show StableHlo.after hostOps5 (W10 m ρ c) (Proc.devRef .tc main_arg8) = _; after_results_simp
    _ = W9 m ρ c (Proc.devRef .tc main_arg8) := W10_of_ne m ρ c main_arg8 (by decide)
    _ = W8 m ρ c (Proc.devRef .tc main_arg8) := by show StableHlo.after hostOps4 (W8 m ρ c) (Proc.devRef .tc main_arg8) = _; after_results_simp

theorem k3_main_arg9 (c : Dev nD) : W12 m ρ c (Proc.devRef .tc main_arg9) = W8 m ρ c (Proc.devRef .tc main_arg9) :=
  calc W12 m ρ c (Proc.devRef .tc main_arg9)
    _ = W11 m ρ c (Proc.devRef .tc main_arg9) := W12_of_ne m ρ c main_arg9 (by decide)
    _ = W10 m ρ c (Proc.devRef .tc main_arg9) := by show StableHlo.after hostOps5 (W10 m ρ c) (Proc.devRef .tc main_arg9) = _; after_results_simp
    _ = W9 m ρ c (Proc.devRef .tc main_arg9) := W10_of_ne m ρ c main_arg9 (by decide)
    _ = W8 m ρ c (Proc.devRef .tc main_arg9) := by show StableHlo.after hostOps4 (W8 m ρ c) (Proc.devRef .tc main_arg9) = _; after_results_simp

theorem k3_main_arg10 (c : Dev nD) : W12 m ρ c (Proc.devRef .tc main_arg10) = W8 m ρ c (Proc.devRef .tc main_arg10) :=
  calc W12 m ρ c (Proc.devRef .tc main_arg10)
    _ = W11 m ρ c (Proc.devRef .tc main_arg10) := W12_of_ne m ρ c main_arg10 (by decide)
    _ = W10 m ρ c (Proc.devRef .tc main_arg10) := by show StableHlo.after hostOps5 (W10 m ρ c) (Proc.devRef .tc main_arg10) = _; after_results_simp
    _ = W9 m ρ c (Proc.devRef .tc main_arg10) := W10_of_ne m ρ c main_arg10 (by decide)
    _ = W8 m ρ c (Proc.devRef .tc main_arg10) := by show StableHlo.after hostOps4 (W8 m ρ c) (Proc.devRef .tc main_arg10) = _; after_results_simp

theorem k3_main_arg11 (c : Dev nD) : W12 m ρ c (Proc.devRef .tc main_arg11) = W8 m ρ c (Proc.devRef .tc main_arg11) :=
  calc W12 m ρ c (Proc.devRef .tc main_arg11)
    _ = W11 m ρ c (Proc.devRef .tc main_arg11) := W12_of_ne m ρ c main_arg11 (by decide)
    _ = W10 m ρ c (Proc.devRef .tc main_arg11) := by show StableHlo.after hostOps5 (W10 m ρ c) (Proc.devRef .tc main_arg11) = _; after_results_simp
    _ = W9 m ρ c (Proc.devRef .tc main_arg11) := W10_of_ne m ρ c main_arg11 (by decide)
    _ = W8 m ρ c (Proc.devRef .tc main_arg11) := by show StableHlo.after hostOps4 (W8 m ρ c) (Proc.devRef .tc main_arg11) = _; after_results_simp

theorem k3_main_arg12 (c : Dev nD) : W12 m ρ c (Proc.devRef .tc main_arg12) = W8 m ρ c (Proc.devRef .tc main_arg12) :=
  calc W12 m ρ c (Proc.devRef .tc main_arg12)
    _ = W11 m ρ c (Proc.devRef .tc main_arg12) := W12_of_ne m ρ c main_arg12 (by decide)
    _ = W10 m ρ c (Proc.devRef .tc main_arg12) := by show StableHlo.after hostOps5 (W10 m ρ c) (Proc.devRef .tc main_arg12) = _; after_results_simp
    _ = W9 m ρ c (Proc.devRef .tc main_arg12) := W10_of_ne m ρ c main_arg12 (by decide)
    _ = W8 m ρ c (Proc.devRef .tc main_arg12) := by show StableHlo.after hostOps4 (W8 m ρ c) (Proc.devRef .tc main_arg12) = _; after_results_simp

theorem k3_main_arg13 (c : Dev nD) : W12 m ρ c (Proc.devRef .tc main_arg13) = W8 m ρ c (Proc.devRef .tc main_arg13) :=
  calc W12 m ρ c (Proc.devRef .tc main_arg13)
    _ = W11 m ρ c (Proc.devRef .tc main_arg13) := W12_of_ne m ρ c main_arg13 (by decide)
    _ = W10 m ρ c (Proc.devRef .tc main_arg13) := by show StableHlo.after hostOps5 (W10 m ρ c) (Proc.devRef .tc main_arg13) = _; after_results_simp
    _ = W9 m ρ c (Proc.devRef .tc main_arg13) := W10_of_ne m ρ c main_arg13 (by decide)
    _ = W8 m ρ c (Proc.devRef .tc main_arg13) := by show StableHlo.after hostOps4 (W8 m ρ c) (Proc.devRef .tc main_arg13) = _; after_results_simp

theorem k3_main_arg14 (c : Dev nD) : W12 m ρ c (Proc.devRef .tc main_arg14) = W8 m ρ c (Proc.devRef .tc main_arg14) :=
  calc W12 m ρ c (Proc.devRef .tc main_arg14)
    _ = W11 m ρ c (Proc.devRef .tc main_arg14) := W12_of_ne m ρ c main_arg14 (by decide)
    _ = W10 m ρ c (Proc.devRef .tc main_arg14) := by show StableHlo.after hostOps5 (W10 m ρ c) (Proc.devRef .tc main_arg14) = _; after_results_simp
    _ = W9 m ρ c (Proc.devRef .tc main_arg14) := W10_of_ne m ρ c main_arg14 (by decide)
    _ = W8 m ρ c (Proc.devRef .tc main_arg14) := by show StableHlo.after hostOps4 (W8 m ρ c) (Proc.devRef .tc main_arg14) = _; after_results_simp

theorem k3_main_arg15 (c : Dev nD) : W12 m ρ c (Proc.devRef .tc main_arg15) = W8 m ρ c (Proc.devRef .tc main_arg15) :=
  calc W12 m ρ c (Proc.devRef .tc main_arg15)
    _ = W11 m ρ c (Proc.devRef .tc main_arg15) := W12_of_ne m ρ c main_arg15 (by decide)
    _ = W10 m ρ c (Proc.devRef .tc main_arg15) := by show StableHlo.after hostOps5 (W10 m ρ c) (Proc.devRef .tc main_arg15) = _; after_results_simp
    _ = W9 m ρ c (Proc.devRef .tc main_arg15) := W10_of_ne m ρ c main_arg15 (by decide)
    _ = W8 m ρ c (Proc.devRef .tc main_arg15) := by show StableHlo.after hostOps4 (W8 m ρ c) (Proc.devRef .tc main_arg15) = _; after_results_simp

theorem k3_main_arg16 (c : Dev nD) : W12 m ρ c (Proc.devRef .tc main_arg16) = W8 m ρ c (Proc.devRef .tc main_arg16) :=
  calc W12 m ρ c (Proc.devRef .tc main_arg16)
    _ = W11 m ρ c (Proc.devRef .tc main_arg16) := W12_of_ne m ρ c main_arg16 (by decide)
    _ = W10 m ρ c (Proc.devRef .tc main_arg16) := by show StableHlo.after hostOps5 (W10 m ρ c) (Proc.devRef .tc main_arg16) = _; after_results_simp
    _ = W9 m ρ c (Proc.devRef .tc main_arg16) := W10_of_ne m ρ c main_arg16 (by decide)
    _ = W8 m ρ c (Proc.devRef .tc main_arg16) := by show StableHlo.after hostOps4 (W8 m ρ c) (Proc.devRef .tc main_arg16) = _; after_results_simp

end Cert.KernelIdeal.Chain

end
-- ==== Proof.Stats6Val.lean ====
/-
  What each case of the statistics kernel's body leaves in its three output buffers, as values: the block of features,
  and the two running rows (column sums of the features and of their squares) — started from zero at the first grid
  point, continued from what the point before left otherwise.
-/
import proofs.«169884_j31009663877671_1_alg».proof.Proof.Gen.KernelIdeal.Frame
import Idealize.ShloMosaic.Lib.Pipeline.Value
import Idealize.ShloMosaic.Lib.Tactic

noncomputable section

namespace Cert.KernelIdeal.Stats6

open Cert.KernelIdeal Cert.KernelIdeal.Gen
open Idealize.ShloMosaic Idealize.ShloMosaic.TcCoe Idealize.SL.Sem

variable {F : FTy → Type} [FloatOps F]

theorem hz : (![0, 0] : Fin 2 → Nat) = fun _ => 0 := funext fun a => by fin_cases a <;> rfl

theorem outA5 (c : Dev nD) (i : grid6.Coords) (a1 : Memref sig .tc .vmem S5000x64 .f32) (h1 : a1.IsWhole) (a2 : Memref sig .tc .vmem S64x64 .f32) (h2 : a2.IsWhole) (a3 : Memref sig .tc .vmem S1x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : cond6_0 i) (x0 : Vec F S5000x64 .f32) (x1 : Vec F S64x64 .f32) (x2 : Vec F S1x64 .f32) (x3 : Vec F S64x64 .f32) (x4 : Vec F S1x64 .f32) :
    out6_A_5 c i a1 h1 a2 h2 a3 h3 a4 h4 a5 h5 a6 h6 a7 h7 a8 h8 hc x0 x1 x2 x3 x4 = k6_pay4 x0 x1 x2 x3 x4 := by
  unfold out6_A_5
  rw [View.read_writes_eq_canon _ _ _ (cover6_A_5 c i a1 h1 a2 h2 a3 h3 a4 h4 a5 h5 a6 h6 a7 h7 a8 h8 hc x0 x1 x2 x3 x4)]
  unfold kernelRun6_A
  dsimp only
  try sl_unfold_words
  first
    | rw [View.canon_cons_unit_zero (S := S1x64) hz, View.readCov_unit_zero (S := S1x64) _ hz]
    | rw [View.canon_unit_zero hz]
  simp only [View.readAt_eq_ld, h1.read_unread, h2.read_unread, h3.read_unread, h4.read_unread, h5.read_unread,
    h6.read_unread, h7.read_unread, h8.read_unread, View.ld_unit_zero (S := S5000x64) hz, View.ld_unit_zero (S := S64x64) hz,
    View.ld_unit_zero (S := S1x64) hz, View.ld_unit_zero (S := S64x64) hz, View.ld_unit_zero (S := S5000x64) hz]

theorem outA6 (c : Dev nD) (i : grid6.Coords) (a1 : Memref sig .tc .vmem S5000x64 .f32) (h1 : a1.IsWhole) (a2 : Memref sig .tc .vmem S64x64 .f32) (h2 : a2.IsWhole) (a3 : Memref sig .tc .vmem S1x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : cond6_0 i) (x0 : Vec F S5000x64 .f32) (x1 : Vec F S64x64 .f32) (x2 : Vec F S1x64 .f32) (x3 : Vec F S64x64 .f32) (x4 : Vec F S1x64 .f32) :
    out6_A_6 c i a1 h1 a2 h2 a3 h3 a4 h4 a5 h5 a6 h6 a7 h7 a8 h8 hc x0 x1 x2 x3 x4 = k6_pay5 x0 x1 x2 x3 x4 k6_pay2 := by
  unfold out6_A_6
  rw [View.read_writes_eq_canon _ _ _ (cover6_A_6 c i a1 h1 a2 h2 a3 h3 a4 h4 a5 h5 a6 h6 a7 h7 a8 h8 hc x0 x1 x2 x3 x4)]
  unfold kernelRun6_A
  dsimp only
  try sl_unfold_words
  first
    | rw [View.canon_cons_unit_zero (S := S1x64) hz, View.readCov_unit_zero (S := S1x64) _ hz]
    | rw [View.canon_unit_zero hz]
  simp only [View.readAt_eq_ld, h1.read_unread, h2.read_unread, h3.read_unread, h4.read_unread, h5.read_unread,
    h6.read_unread, h7.read_unread, h8.read_unread, View.ld_unit_zero (S := S5000x64) hz, View.ld_unit_zero (S := S64x64) hz,
    View.ld_unit_zero (S := S1x64) hz, View.ld_unit_zero (S := S64x64) hz, View.ld_unit_zero (S := S5000x64) hz]

theorem outA7 (c : Dev nD) (i : grid6.Coords) (a1 : Memref sig .tc .vmem S5000x64 .f32) (h1 : a1.IsWhole) (a2 : Memref sig .tc .vmem S64x64 .f32) (h2 : a2.IsWhole) (a3 : Memref sig .tc .vmem S1x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : cond6_0 i) (x0 : Vec F S5000x64 .f32) (x1 : Vec F S64x64 .f32) (x2 : Vec F S1x64 .f32) (x3 : Vec F S64x64 .f32) (x4 : Vec F S1x64 .f32) :
    out6_A_7 c i a1 h1 a2 h2 a3 h3 a4 h4 a5 h5 a6 h6 a7 h7 a8 h8 hc x0 x1 x2 x3 x4 = k6_pay1 (k6_pay4 x0 x1 x2 x3 x4) k6_pay3 := by
  unfold out6_A_7
  rw [View.read_writes_eq_canon _ _ _ (cover6_A_7 c i a1 h1 a2 h2 a3 h3 a4 h4 a5 h5 a6 h6 a7 h7 a8 h8 hc x0 x1 x2 x3 x4)]
  unfold kernelRun6_A
  dsimp only
  try sl_unfold_words
  first
    | rw [View.canon_cons_unit_zero (S := S1x64) hz, View.readCov_unit_zero (S := S1x64) _ hz]
    | rw [View.canon_unit_zero hz]
  simp only [View.readAt_eq_ld, h1.read_unread, h2.read_unread, h3.read_unread, h4.read_unread, h5.read_unread,
    h6.read_unread, h7.read_unread, h8.read_unread, View.ld_unit_zero (S := S5000x64) hz, View.ld_unit_zero (S := S64x64) hz,
    View.ld_unit_zero (S := S1x64) hz, View.ld_unit_zero (S := S64x64) hz, View.ld_unit_zero (S := S5000x64) hz]

theorem outB5 (c : Dev nD) (i : grid6.Coords) (a1 : Memref sig .tc .vmem S5000x64 .f32) (h1 : a1.IsWhole) (a2 : Memref sig .tc .vmem S64x64 .f32) (h2 : a2.IsWhole) (a3 : Memref sig .tc .vmem S1x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : ¬cond6_0 i) (x0 : Vec F S5000x64 .f32) (x1 : Vec F S64x64 .f32) (x2 : Vec F S1x64 .f32) (x3 : Vec F S64x64 .f32) (x4 : Vec F S1x64 .f32) (p6 p7 : Vec F S1x64 .f32) :
    out6_B_5 c i a1 h1 a2 h2 a3 h3 a4 h4 a5 h5 a6 h6 a7 h7 a8 h8 hc x0 x1 x2 x3 x4 p6 p7 = k6_pay4 x0 x1 x2 x3 x4 := by
  unfold out6_B_5
  rw [View.read_writes_eq_canon _ _ _ (cover6_B_5 c i a1 h1 a2 h2 a3 h3 a4 h4 a5 h5 a6 h6 a7 h7 a8 h8 hc x0 x1 x2 x3 x4 p6 p7)]
  unfold kernelRun6_B
  dsimp only
  try sl_unfold_words
  first
    | rw [View.canon_cons_unit_zero (S := S1x64) hz, View.readCov_unit_zero (S := S1x64) _ hz]
    | rw [View.canon_unit_zero hz]
  simp only [View.readAt_eq_ld, h1.read_unread, h2.read_unread, h3.read_unread, h4.read_unread, h5.read_unread,
    h6.read_unread, h7.read_unread, h8.read_unread, View.ld_unit_zero (S := S5000x64) hz, View.ld_unit_zero (S := S64x64) hz,
    View.ld_unit_zero (S := S1x64) hz, View.ld_unit_zero (S := S64x64) hz, View.ld_unit_zero (S := S5000x64) hz]

theorem outB6 (c : Dev nD) (i : grid6.Coords) (a1 : Memref sig .tc .vmem S5000x64 .f32) (h1 : a1.IsWhole) (a2 : Memref sig .tc .vmem S64x64 .f32) (h2 : a2.IsWhole) (a3 : Memref sig .tc .vmem S1x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : ¬cond6_0 i) (x0 : Vec F S5000x64 .f32) (x1 : Vec F S64x64 .f32) (x2 : Vec F S1x64 .f32) (x3 : Vec F S64x64 .f32) (x4 : Vec F S1x64 .f32) (p6 p7 : Vec F S1x64 .f32) :
    out6_B_6 c i a1 h1 a2 h2 a3 h3 a4 h4 a5 h5 a6 h6 a7 h7 a8 h8 hc x0 x1 x2 x3 x4 p6 p7 = k6_pay5 x0 x1 x2 x3 x4 p6 := by
  unfold out6_B_6
  rw [View.read_writes_eq_canon _ _ _ (cover6_B_6 c i a1 h1 a2 h2 a3 h3 a4 h4 a5 h5 a6 h6 a7 h7 a8 h8 hc x0 x1 x2 x3 x4 p6 p7)]
  unfold kernelRun6_B
  dsimp only
  try sl_unfold_words
  first
    | rw [View.canon_cons_unit_zero (S := S1x64) hz, View.readCov_unit_zero (S := S1x64) _ hz]
    | rw [View.canon_unit_zero hz]
  simp only [View.readAt_eq_ld, h1.read_unread, h2.read_unread, h3.read_unread, h4.read_unread, h5.read_unread,
    h6.read_unread, h7.read_unread, h8.read_unread, View.ld_unit_zero (S := S5000x64) hz, View.ld_unit_zero (S := S64x64) hz,
    View.ld_unit_zero (S := S1x64) hz, View.ld_unit_zero (S := S64x64) hz, View.ld_unit_zero (S := S5000x64) hz]

theorem outB7 (c : Dev nD) (i : grid6.Coords) (a1 : Memref sig .tc .vmem S5000x64 .f32) (h1 : a1.IsWhole) (a2 : Memref sig .tc .vmem S64x64 .f32) (h2 : a2.IsWhole) (a3 : Memref sig .tc .vmem S1x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : ¬cond6_0 i) (x0 : Vec F S5000x64 .f32) (x1 : Vec F S64x64 .f32) (x2 : Vec F S1x64 .f32) (x3 : Vec F S64x64 .f32) (x4 : Vec F S1x64 .f32) (p6 p7 : Vec F S1x64 .f32) :
    out6_B_7 c i a1 h1 a2 h2 a3 h3 a4 h4 a5 h5 a6 h6 a7 h7 a8 h8 hc x0 x1 x2 x3 x4 p6 p7 = k6_pay1 (k6_pay4 x0 x1 x2 x3 x4) p7 := by
  unfold out6_B_7
  rw [View.read_writes_eq_canon _ _ _ (cover6_B_7 c i a1 h1 a2 h2 a3 h3 a4 h4 a5 h5 a6 h6 a7 h7 a8 h8 hc x0 x1 x2 x3 x4 p6 p7)]
  unfold kernelRun6_B
  dsimp only
  try sl_unfold_words
  first
    | rw [View.canon_cons_unit_zero (S := S1x64) hz, View.readCov_unit_zero (S := S1x64) _ hz]
    | rw [View.canon_unit_zero hz]
  simp only [View.readAt_eq_ld, h1.read_unread, h2.read_unread, h3.read_unread, h4.read_unread, h5.read_unread,
    h6.read_unread, h7.read_unread, h8.read_unread, View.ld_unit_zero (S := S5000x64) hz, View.ld_unit_zero (S := S64x64) hz,
    View.ld_unit_zero (S := S1x64) hz, View.ld_unit_zero (S := S64x64) hz, View.ld_unit_zero (S := S5000x64) hz]

end Cert.KernelIdeal.Stats6

end
-- ==== Proof.Stats6Pay.lean ====
/-
  The statistics kernel's stored values at an entry: the block of features is the two-layer perceptron (two matrix
  products into a zero accumulator, each plus a bias row, each clamped at zero) of the loaded row block, and each running
  row is what it held plus the column sums of the block.
-/
import proofs.«169884_j31009663877671_1_alg».proof.Proof.Gen.KernelIdeal.Skeleton
import proofs.«169884_j31009663877671_1_alg».proof.Proof.GinSpec
import proofs.«169884_j31009663877671_1_alg».proof.Proof.LibColReduce
import Idealize.ShloMosaic.Lib.Pipeline.Value
import Idealize.ShloMosaic.Lib.ValueIdx

noncomputable section

namespace Cert.KernelIdeal.Stats6

open Cert.KernelIdeal Cert.KernelIdeal.Gen Cert.Gin Cert.RowAffine
open Idealize.ShloMosaic Idealize.ShloMosaic.TcCoe Idealize.SL.Sem Idealize.ShloMosaic.ValueIdx

/-- The zero word is zero. -/
theorem zero_word : (Scalar.ofBits (F := Ideal) .f32 0x00000000#32 : EReal) = 0 := Ideal.ofBits_zero_f32

/-- The body's stored block of features: the two-layer perceptron of the loaded row block. -/
theorem payT_eq (x0 : Vec Ideal S5000x64 .f32) (x1 : Vec Ideal S64x64 .f32) (x2 : Vec Ideal S1x64 .f32)
    (x3 : Vec Ideal S64x64 .f32) (x4 : Vec Ideal S1x64 .f32) :
    k6_pay4 (F := Ideal) x0 x1 x2 x3 x4 = mlp x0 x1 x2 x3 x4 := by
  funext j
  obtain ⟨p, q, rfl⟩ : ∃ (p : Fin 5000) (q : Fin 64), j = ix2 p q := ⟨j 0, j 1, eq_ix2 j⟩
  unfold k6_pay4
  rw [shapeCast_self x0, shapeCast_self x1, shapeCast_self x3, maximumf_apply, broadcast_apply, zero_word]
  unfold mlp
  rw [relu_apply]
  refine congrArg (max · 0) ?_
  refine (RowAffine.kernel_apply _ rfl (by decide) none _ x3 x4 _ _ _ p q).trans ?_
  refine rowAffine_row_congr _ _ x3 x4 p p (fun c => ?_) q
  rw [maximumf_apply, broadcast_apply, relu_apply]
  exact congrArg (max · 0) (RowAffine.kernel_apply _ rfl (by decide) none x0 x1 x2 _ _ _ p c)

/-- A length-64 vector viewed as a 1×64 row, at (0, q). -/
theorem row_of_vec (v : Vec Ideal S64 .f32) (q : Fin 64) :
    shapeCast S1x64 v shapeCasts_S64_S1x64 (ix2 0 q) = v (ix1 q) := RowVector.shapeCast_row v _ q

/-- The running column sums after a block: what was there plus the block's column sums. -/
theorem paySum_apply (T : Vec Ideal S5000x64 .f32) (acc : Vec Ideal S1x64 .f32) (q : Fin 64) :
    addf (shapeCast S1x64 acc shapeCasts_S1x64_S1x64)
        (shapeCast S1x64 (multiReduction (F := Ideal) .add [0] S64 T 0x00000000#32 reduces_S5000x64_S64 (.inl rfl) rfl) shapeCasts_S64_S1x64)
        (ix2 0 q)
      = acc (ix2 0 q) + ∑ p : Fin 5000, T (ix2 p q) := by
  rw [addf_apply, shapeCast_self, row_of_vec]
  exact congrArg (acc (ix2 0 q) + ·) (ColReduce.colSum_apply T 0x00000000#32 _ _ _ q)

end Cert.KernelIdeal.Stats6

end
-- ==== Proof.Stats6Acc.lean ====
/-
  The statistics kernel over its twenty grid points: after point n the feature block is the perceptron of row block n,
  and the two running rows hold the column sums of the features, and of their squares, over the first 5000 (n + 1) rows.
-/
import proofs.«169884_j31009663877671_1_alg».proof.Proof.Gen.KernelIdeal.Frame
import proofs.«169884_j31009663877671_1_alg».proof.Proof.Stats6Val
import proofs.«169884_j31009663877671_1_alg».proof.Proof.Stats6Pay
import proofs.«169884_j31009663877671_1_alg».proof.Proof.LibBlockSums
import Idealize.ShloMosaic.Lib.Pipeline.Value
import Idealize.ShloMosaic.Lib.ValueIdx

noncomputable section

namespace Cert.KernelIdeal.Stats6

open Cert.KernelIdeal Cert.KernelIdeal.Gen Cert.Gin Cert.RowAffine Cert.Lib.BlockSums
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps over the grid: the two row windows move with the point, every other window stays. -/
theorem idx_facts : ∀ t : Fin cfg6.N, win6_0.index t (0 : Fin 2) = t.val ∧ win6_0.index t (1 : Fin 2) = 0
    ∧ win6_5.index t (0 : Fin 2) = t.val ∧ win6_5.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_6.index t (0 : Fin 2) = 0 ∧ win6_6.index t (1 : Fin 2) = 0
    ∧ win6_7.index t (0 : Fin 2) = 0 ∧ win6_7.index t (1 : Fin 2) = 0 :=
  (by decide +kernel : ∀ t : Fin grid6.N, _)

theorem lt_rows (t : Fin cfg6.N) (p : Fin 5000) : 5000 * t.val + p.val < 100000 := by
  have hN : cfg6.N = 20 := N_6
  have := t.isLt; have := p.isLt; omega

/-- Row block t of the aggregated features, read at (p, k). -/
theorem rdA (c : Dev nD) (t : Fin cfg6.N) (p : Fin 5000) (k : Fin 64) :
    iblk6 V c 0 t (ix2 p k) = (V c (Pipeline.arrRef spec6 0) : S100000x64.Idx → EReal) (ix2 ⟨5000 * t.val + p.val, lt_rows t p⟩ k) := by
  obtain ⟨e0, e1, -⟩ := idx_facts t
  unfold iblk6
  rw [View.read_apply]
  refine congrArg (V c (Pipeline.arrRef spec6 0)) ?_
  funext a; apply Fin.ext
  match a with
  | ⟨0, _⟩ => show win6_0.index t (0 : Fin 2) * 5000 + 1 * p.val = 5000 * t.val + p.val; omega
  | ⟨1, _⟩ => show win6_0.index t (1 : Fin 2) * 64 + 1 * k.val = k.val; omega

theorem rdW1 (c : Dev nD) (t : Fin cfg6.N) : iblk6 V c 1 t = (V c (Pipeline.arrRef spec6 1) : S64x64.Idx → EReal) := by
  obtain ⟨-, -, -, -, e0, e1, -⟩ := idx_facts t
  funext j
  unfold iblk6
  rw [View.read_apply]
  refine congrArg (V c (Pipeline.arrRef spec6 1)) ?_
  funext a; apply Fin.ext
  match a with
  | ⟨0, _⟩ => show win6_1.index t (0 : Fin 2) * 64 + 1 * (j 0).val = (j 0).val; omega
  | ⟨1, _⟩ => show win6_1.index t (1 : Fin 2) * 64 + 1 * (j 1).val = (j 1).val; omega

theorem rdB1 (c : Dev nD) (t : Fin cfg6.N) : iblk6 V c 2 t = (V c (Pipeline.arrRef spec6 2) : S1x64.Idx → EReal) := by
  obtain ⟨-, -, -, -, -, -, e0, e1, -⟩ := idx_facts t
  funext j
  unfold iblk6
  rw [View.read_apply]
  refine congrArg (V c (Pipeline.arrRef spec6 2)) ?_
  funext a; apply Fin.ext
  match a with
  | ⟨0, _⟩ => show win6_2.index t (0 : Fin 2) * 1 + 1 * (j 0).val = (j 0).val; omega
  | ⟨1, _⟩ => show win6_2.index t (1 : Fin 2) * 64 + 1 * (j 1).val = (j 1).val; omega

theorem rdW2 (c : Dev nD) (t : Fin cfg6.N) : iblk6 V c 3 t = (V c (Pipeline.arrRef spec6 3) : S64x64.Idx → EReal) := by
  obtain ⟨-, -, -, -, -, -, -, -, e0, e1, -⟩ := idx_facts t
  funext j
  unfold iblk6
  rw [View.read_apply]
  refine congrArg (V c (Pipeline.arrRef spec6 3)) ?_
  funext a; apply Fin.ext
  match a with
  | ⟨0, _⟩ => show win6_3.index t (0 : Fin 2) * 64 + 1 * (j 0).val = (j 0).val; omega
  | ⟨1, _⟩ => show win6_3.index t (1 : Fin 2) * 64 + 1 * (j 1).val = (j 1).val; omega

theorem rdB2 (c : Dev nD) (t : Fin cfg6.N) : iblk6 V c 4 t = (V c (Pipeline.arrRef spec6 4) : S1x64.Idx → EReal) := by
  obtain ⟨-, -, -, -, -, -, -, -, -, -, e0, e1, -⟩ := idx_facts t
  funext j
  unfold iblk6
  rw [View.read_apply]
  refine congrArg (V c (Pipeline.arrRef spec6 4)) ?_
  funext a; apply Fin.ext
  match a with
  | ⟨0, _⟩ => show win6_4.index t (0 : Fin 2) * 1 + 1 * (j 0).val = (j 0).val; omega
  | ⟨1, _⟩ => show win6_4.index t (1 : Fin 2) * 64 + 1 * (j 1).val = (j 1).val; omega

/-- The feature array: the perceptron of the aggregated features, row by row. -/
def Tfull (c : Dev nD) : S100000x64.Idx → EReal :=
  mlp (V c (Pipeline.arrRef spec6 0) : S100000x64.Idx → EReal) (V c (Pipeline.arrRef spec6 1) : S64x64.Idx → EReal)
    (V c (Pipeline.arrRef spec6 2) : S1x64.Idx → EReal) (V c (Pipeline.arrRef spec6 3) : S64x64.Idx → EReal)
    (V c (Pipeline.arrRef spec6 4) : S1x64.Idx → EReal)

/-- The block of features point t stores. -/
def Tblk (c : Dev nD) (t : Fin cfg6.N) : S5000x64.Idx → EReal :=
  k6_pay4 (F := Ideal) (iblk6 V c 0 t) (iblk6 V c 1 t) (iblk6 V c 2 t) (iblk6 V c 3 t) (iblk6 V c 4 t)

/-- It is row block t of the feature array. -/
theorem Tblk_apply (c : Dev nD) (t : Fin cfg6.N) (p : Fin 5000) (q : Fin 64) :
    Tblk V c t (ix2 p q) = Tfull V c (ix2 ⟨5000 * t.val + p.val, lt_rows t p⟩ q) := by
  unfold Tblk Tfull
  refine (congrFun (payT_eq _ _ _ _ _) _).trans ?_
  rw [rdW1 V c t, rdB1 V c t, rdW2 V c t, rdB2 V c t]
  exact mlp_row_congr _ _ _ _ _ _ p ⟨5000 * t.val + p.val, lt_rows t p⟩ (fun k => rdA V c t p k) q

/-- Column sums of the features over the first k rows, as a 1×64 row. -/
def Srow (c : Dev nD) (k : ℕ) : S1x64.Idx → EReal :=
  fun i => psum (fun r : Fin 100000 => Tfull V c (ix2 r (i 1))) k

/-- Column sums of the squared features over the first k rows, as a 1×64 row. -/
def Qrow (c : Dev nD) (k : ℕ) : S1x64.Idx → EReal :=
  fun i => psum (fun r : Fin 100000 => Tfull V c (ix2 r (i 1)) * Tfull V c (ix2 r (i 1))) k

theorem Srow_apply (c : Dev nD) (k : ℕ) (q : Fin 64) :
    Srow V c k (ix2 0 q) = psum (fun r : Fin 100000 => Tfull V c (ix2 r q)) k := rfl

theorem Qrow_apply (c : Dev nD) (k : ℕ) (q : Fin 64) :
    Qrow V c k (ix2 0 q) = psum (fun r : Fin 100000 => Tfull V c (ix2 r q) * Tfull V c (ix2 r q)) k := rfl

theorem row_idx (i : S1x64.Idx) : ∃ q : Fin 64, i = ix2 0 q := by
  obtain ⟨z, q, rfl⟩ : ∃ (z : Fin 1) (q : Fin 64), i = ix2 z q := ⟨i 0, i 1, eq_ix2 i⟩
  obtain rfl : z = 0 := Subsingleton.elim _ _
  exact ⟨q, rfl⟩

/-- The running sum row after a point: what was there plus the column sums of the point's feature block. -/
theorem sumRow_apply (c : Dev nD) (t : Fin cfg6.N) (acc : Vec Ideal S1x64 .f32) (q : Fin 64) :
    k6_pay5 (F := Ideal) (iblk6 V c 0 t) (iblk6 V c 1 t) (iblk6 V c 2 t) (iblk6 V c 3 t) (iblk6 V c 4 t) acc (ix2 0 q)
      = acc (ix2 0 q) + ∑ p : Fin 5000, Tfull V c (ix2 ⟨5000 * t.val + p.val, lt_rows t p⟩ q) := by
  unfold k6_pay5
  refine (paySum_apply _ _ q).trans ?_
  exact congrArg (acc (ix2 0 q) + ·) (Finset.sum_congr rfl fun p _ => Tblk_apply V c t p q)

/-- The running sum-of-squares row after a point. -/
theorem sqRow_apply (c : Dev nD) (t : Fin cfg6.N) (acc : Vec Ideal S1x64 .f32) (q : Fin 64) :
    k6_pay1 (F := Ideal) (k6_pay4 (iblk6 V c 0 t) (iblk6 V c 1 t) (iblk6 V c 2 t) (iblk6 V c 3 t) (iblk6 V c 4 t)) acc (ix2 0 q)
      = acc (ix2 0 q) + ∑ p : Fin 5000, Tfull V c (ix2 ⟨5000 * t.val + p.val, lt_rows t p⟩ q)
          * Tfull V c (ix2 ⟨5000 * t.val + p.val, lt_rows t p⟩ q) := by
  unfold k6_pay1
  refine (paySum_apply _ _ q).trans ?_
  refine congrArg (acc (ix2 0 q) + ·) (Finset.sum_congr rfl fun p _ => ?_)
  rw [mulf_apply]
  exact congrArg (fun z => z * z) (Tblk_apply V c t p q)

/-- After point n: the feature block of row block n, and the two rows summed over the first 5000 (n + 1) rows. -/
theorem outsAt_eq (c : Dev nD) : ∀ (n : ℕ) (h : n < cfg6.N),
    outsAt6 V c n h = (Tblk V c ⟨n, h⟩, Srow V c (5000 * (n + 1)), Qrow V c (5000 * (n + 1)))
  | 0, h => by
    rw [outsAt6_A V c ⟨0, h⟩ rfl, outA5, outA6, outA7]
    refine Prod.ext rfl (Prod.ext ?_ ?_) <;> dsimp only
    · funext i
      obtain ⟨q, rfl⟩ := row_idx i
      refine (sumRow_apply V c ⟨0, h⟩ _ q).trans ?_
      unfold k6_pay2
      rw [broadcast_apply, zero_word, zero_add, Srow_apply, show 5000 * (0 + 1) = 5000 from by norm_num,
        psum_first _ 5000 (by norm_num)]
      exact Finset.sum_congr rfl fun p _ => congrArg (fun r => Tfull V c (ix2 r q)) (Fin.ext (by simp))
    · funext i
      obtain ⟨q, rfl⟩ := row_idx i
      refine (sqRow_apply V c ⟨0, h⟩ _ q).trans ?_
      unfold k6_pay3
      rw [broadcast_apply, zero_word, zero_add, Qrow_apply, show 5000 * (0 + 1) = 5000 from by norm_num,
        psum_first _ 5000 (by norm_num)]
      exact Finset.sum_congr rfl fun p _ =>
        congrArg (fun r => Tfull V c (ix2 r q) * Tfull V c (ix2 r q)) (Fin.ext (by simp))
  | n + 1, h => by
    have hN : cfg6.N = 20 := N_6
    have hB : ¬(⟨n + 1, h⟩ : Fin cfg6.N).val % 20 = 0 := by dsimp only; omega
    have hp : outsAt6 V c ((⟨n + 1, h⟩ : Fin cfg6.N).val - 1) (Nat.lt_of_le_of_lt (Nat.sub_le _ _) h)
        = (Tblk V c ⟨n, Nat.lt_of_succ_lt h⟩, Srow V c (5000 * (n + 1)), Qrow V c (5000 * (n + 1))) :=
      outsAt_eq c n (Nat.lt_of_succ_lt h)
    rw [outsAt6_B V c ⟨n + 1, h⟩ hB, hp, outB5, outB6, outB7]
    refine Prod.ext rfl (Prod.ext ?_ ?_) <;> dsimp only
    · funext i
      obtain ⟨q, rfl⟩ := row_idx i
      refine (sumRow_apply V c ⟨n + 1, h⟩ _ q).trans ?_
      rw [Srow_apply, Srow_apply, show 5000 * (n + 1 + 1) = 5000 * (n + 1) + 5000 from by ring,
        psum_add _ _ 5000 (by omega)]
    · funext i
      obtain ⟨q, rfl⟩ := row_idx i
      refine (sqRow_apply V c ⟨n + 1, h⟩ _ q).trans ?_
      rw [Qrow_apply, Qrow_apply, show 5000 * (n + 1 + 1) = 5000 * (n + 1) + 5000 from by ring,
        psum_add _ _ 5000 (by omega)]

end Cert.KernelIdeal.Stats6

end
-- ==== Proof.Stats6Fin.lean ====
/-
  The three arrays the statistics region leaves: the features (the perceptron of the aggregated features, all rows),
  and the two 1×64 rows of column sums of the features and of their squares over all rows.
-/
import proofs.«169884_j31009663877671_1_alg».proof.Proof.Stats6Acc

noncomputable section

namespace Cert.KernelIdeal.Stats6

open Cert.KernelIdeal Cert.KernelIdeal.Gen Cert.Gin Cert.RowAffine Cert.Lib.BlockSums
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The column sums of the features over all rows, as a 1×64 row. -/
def Ssum (c : Dev nD) : S1x64.Idx → EReal := colSumRow (Tfull V c)

/-- The column sums of the squared features over all rows, as a 1×64 row. -/
def Qsum (c : Dev nD) : S1x64.Idx → EReal := colSqRow (Tfull V c)

theorem Ssum_apply (c : Dev nD) (q : Fin 64) : Ssum V c (ix2 0 q) = ∑ r : Fin 100000, Tfull V c (ix2 r q) := rfl
theorem Qsum_apply (c : Dev nD) (q : Fin 64) :
    Qsum V c (ix2 0 q) = ∑ r : Fin 100000, Tfull V c (ix2 r q) * Tfull V c (ix2 r q) := rfl

/-- What point t writes back for the features is row block t of the feature array. -/
theorem flushed_eq5 (c : Dev nD) (t : Fin cfg6.N) :
    (dat6 V c).flushed 5 t = ((cfg6.win 5).blk t).view.read (Elt Ideal) (Tfull V c) := by
  show (cfg6.win 5).cut (grid6.coords t) ((dat6 V c).after 5 t) = _
  rw [after6_5, outsAt_eq V c t.val t.isLt]
  dsimp only
  obtain ⟨-, -, e2, e3, -⟩ := idx_facts t
  funext j
  obtain ⟨p, q, rfl⟩ : ∃ (p : Fin 5000) (q : Fin 64), j = ix2 p q := ⟨j 0, j 1, eq_ix2 j⟩
  have he : ((cfg6.win 5).blk t).view.emb (ix2 p q) = (ix2 ⟨5000 * t.val + p.val, lt_rows t p⟩ q : S100000x64.Idx) := by
    funext a; apply Fin.ext
    match a with
    | ⟨0, _⟩ => show win6_5.index t (0 : Fin 2) * 5000 + 1 * p.val = 5000 * t.val + p.val; omega
    | ⟨1, _⟩ => show win6_5.index t (1 : Fin 2) * 64 + 1 * q.val = q.val; omega
  rw [View.read_apply, he]
  exact (Tblk_apply V c t p q).trans (cast_eq _ _).symm

theorem mem_blk5 (t : Fin cfg6.N) (i : S100000x64.Idx) :
    i ∈ ((cfg6.win 5).blk t).view.set ↔ ∀ a : Fin 2, win6_5.index t a * S5000x64.size a ≤ (i a).val ∧ (i a).val < win6_5.index t a * S5000x64.size a + S5000x64.size a := by
  show i ∈ ((View.whole main_v150_0).slice (win6_5.rect t)).set ↔ _
  rw [View.set_slice_whole, Rect.mem_set_unit]
  exact Iff.rfl

/-- The feature array after the region. -/
theorem final5 (c : Dev nD) : (dat6 V c).arrAt 5 cfg6.N = Tfull V c :=
  (dat6 V c).arrAt_eq_of_cover 5 (Tfull V c) (fun t _ => flushed_eq5 V c t) fun i => by
    have hN : cfg6.N = 20 := N_6
    have hi0 : (i 0).val < 100000 := (i 0).isLt
    have hi1 : (i 1).val < 64 := (i 1).isLt
    refine ⟨⟨(i 0).val / 5000, by omega⟩, flush6_5 _, ?_⟩
    rw [mem_blk5]
    obtain ⟨-, -, e2, e3, -⟩ := idx_facts ⟨(i 0).val / 5000, by omega⟩
    intro a
    match a with
    | ⟨0, _⟩ => show win6_5.index _ (0 : Fin 2) * 5000 ≤ (i 0).val ∧ (i 0).val < win6_5.index _ (0 : Fin 2) * 5000 + 5000; rw [e2]; dsimp only; omega
    | ⟨1, _⟩ => show win6_5.index _ (1 : Fin 2) * 64 ≤ (i 1).val ∧ (i 1).val < win6_5.index _ (1 : Fin 2) * 64 + 64; rw [e3]; omega

/-- What the last point writes back for window 6: the whole row of the column sums of the features. -/
theorem flushed_eq6 (c : Dev nD) (t : Fin cfg6.N) (hf : (cfg6.win 6).flush t = true) :
    (dat6 V c).flushed 6 t = ((cfg6.win 6).blk t).view.read (Elt Ideal) (Ssum V c) := by
  have hN : cfg6.N = 20 := N_6
  have h19 : t.val = 19 := by have := (flush6_6 t).mp hf; have := t.isLt; omega
  show (cfg6.win 6).cut (grid6.coords t) ((dat6 V c).after 6 t) = _
  rw [after6_6, outsAt_eq V c t.val t.isLt]
  dsimp only
  obtain ⟨-, -, -, -, -, -, -, -, -, -, -, -, e0, e1, -⟩ := idx_facts t
  funext j
  obtain ⟨q, rfl⟩ := row_idx j
  have he : ((cfg6.win 6).blk t).view.emb (ix2 0 q) = (ix2 0 q : S1x64.Idx) := by
    funext a; apply Fin.ext
    match a with
    | ⟨0, _⟩ => show win6_6.index t (0 : Fin 2) * 1 + 1 * 0 = 0; omega
    | ⟨1, _⟩ => show win6_6.index t (1 : Fin 2) * 64 + 1 * q.val = q.val; omega
  rw [View.read_apply, he]
  refine Eq.trans ?_ (cast_eq _ _).symm
  show Srow V c (5000 * (t.val + 1)) (ix2 0 q) = Ssum V c (ix2 0 q)
  rw [Srow_apply, Ssum_apply, h19, show 5000 * (19 + 1) = 100000 from by norm_num, psum_full]

theorem mem_blk6 (t : Fin cfg6.N) (i : S1x64.Idx) :
    i ∈ ((cfg6.win 6).blk t).view.set ↔ ∀ a : Fin 2, win6_6.index t a * S1x64.size a ≤ (i a).val ∧ (i a).val < win6_6.index t a * S1x64.size a + S1x64.size a := by
  show i ∈ ((View.whole main_v150_1).slice (win6_6.rect t)).set ↔ _
  rw [View.set_slice_whole, Rect.mem_set_unit]
  exact Iff.rfl

/-- The row after the region: the column sums of the features. -/
theorem final6 (c : Dev nD) : (dat6 V c).arrAt 6 cfg6.N = Ssum V c :=
  (dat6 V c).arrAt_eq_of_cover 6 (Ssum V c) (fun t hf => flushed_eq6 V c t hf) fun i => by
    have hN : cfg6.N = 20 := N_6
    have hi0 : (i 0).val < 1 := (i 0).isLt
    have hi1 : (i 1).val < 64 := (i 1).isLt
    refine ⟨⟨19, by omega⟩, (flush6_6 _).mpr rfl, ?_⟩
    rw [mem_blk6]
    obtain ⟨-, -, -, -, -, -, -, -, -, -, -, -, e0, e1, -⟩ := idx_facts ⟨19, by omega⟩
    intro a
    match a with
    | ⟨0, _⟩ => show win6_6.index _ (0 : Fin 2) * 1 ≤ (i 0).val ∧ (i 0).val < win6_6.index _ (0 : Fin 2) * 1 + 1; rw [e0]; omega
    | ⟨1, _⟩ => show win6_6.index _ (1 : Fin 2) * 64 ≤ (i 1).val ∧ (i 1).val < win6_6.index _ (1 : Fin 2) * 64 + 64; rw [e1]; omega

/-- What the last point writes back for window 7: the whole row of the column sums of the squared features. -/
theorem flushed_eq7 (c : Dev nD) (t : Fin cfg6.N) (hf : (cfg6.win 7).flush t = true) :
    (dat6 V c).flushed 7 t = ((cfg6.win 7).blk t).view.read (Elt Ideal) (Qsum V c) := by
  have hN : cfg6.N = 20 := N_6
  have h19 : t.val = 19 := by have := (flush6_7 t).mp hf; have := t.isLt; omega
  show (cfg6.win 7).cut (grid6.coords t) ((dat6 V c).after 7 t) = _
  rw [after6_7, outsAt_eq V c t.val t.isLt]
  dsimp only
  obtain ⟨-, -, -, -, -, -, -, -, -, -, -, -, -, -, e0, e1⟩ := idx_facts t
  funext j
  obtain ⟨q, rfl⟩ := row_idx j
  have he : ((cfg6.win 7).blk t).view.emb (ix2 0 q) = (ix2 0 q : S1x64.Idx) := by
    funext a; apply Fin.ext
    match a with
    | ⟨0, _⟩ => show win6_7.index t (0 : Fin 2) * 1 + 1 * 0 = 0; omega
    | ⟨1, _⟩ => show win6_7.index t (1 : Fin 2) * 64 + 1 * q.val = q.val; omega
  rw [View.read_apply, he]
  refine Eq.trans ?_ (cast_eq _ _).symm
  show Qrow V c (5000 * (t.val + 1)) (ix2 0 q) = Qsum V c (ix2 0 q)
  rw [Qrow_apply, Qsum_apply, h19, show 5000 * (19 + 1) = 100000 from by norm_num, psum_full]

theorem mem_blk7 (t : Fin cfg6.N) (i : S1x64.Idx) :
    i ∈ ((cfg6.win 7).blk t).view.set ↔ ∀ a : Fin 2, win6_7.index t a * S1x64.size a ≤ (i a).val ∧ (i a).val < win6_7.index t a * S1x64.size a + S1x64.size a := by
  show i ∈ ((View.whole main_v150_2).slice (win6_7.rect t)).set ↔ _
  rw [View.set_slice_whole, Rect.mem_set_unit]
  exact Iff.rfl

/-- The row after the region: the column sums of the squared features. -/
theorem final7 (c : Dev nD) : (dat6 V c).arrAt 7 cfg6.N = Qsum V c :=
  (dat6 V c).arrAt_eq_of_cover 7 (Qsum V c) (fun t hf => flushed_eq7 V c t hf) fun i => by
    have hN : cfg6.N = 20 := N_6
    have hi0 : (i 0).val < 1 := (i 0).isLt
    have hi1 : (i 1).val < 64 := (i 1).isLt
    refine ⟨⟨19, by omega⟩, (flush6_7 _).mpr rfl, ?_⟩
    rw [mem_blk7]
    obtain ⟨-, -, -, -, -, -, -, -, -, -, -, -, -, -, e0, e1⟩ := idx_facts ⟨19, by omega⟩
    intro a
    match a with
    | ⟨0, _⟩ => show win6_7.index _ (0 : Fin 2) * 1 ≤ (i 0).val ∧ (i 0).val < win6_7.index _ (0 : Fin 2) * 1 + 1; rw [e0]; omega
    | ⟨1, _⟩ => show win6_7.index _ (1 : Fin 2) * 64 ≤ (i 1).val ∧ (i 1).val < win6_7.index _ (1 : Fin 2) * 64 + 64; rw [e1]; omega

end Cert.KernelIdeal.Stats6

end
-- ==== Proof.Norm7.lean ====
/-
  The normalisation region: every block of 5000 rows is sent to γ * (t - mean) * rsqrt (var + ε) + β with the four 1×64
  rows the same at every grid point, and the twenty blocks tile the array; so the array the region leaves is that
  normalisation of the whole feature array, entry by entry.
-/
import proofs.«169884_j31009663877671_1_alg».proof.Proof.Gen.KernelIdeal.Frame
import proofs.«169884_j31009663877671_1_alg».proof.Proof.GinSpec
import Idealize.ShloMosaic.Lib.Pipeline.Value
import Idealize.ShloMosaic.Lib.ValueIdx

noncomputable section

namespace Cert.KernelIdeal.Norm7

open Cert.KernelIdeal Cert.KernelIdeal.Gen Cert.Gin
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- The body's one store at an entry. -/
theorem pay_apply (x : Vec Ideal S5000x64 .f32) (var γ mean β : Vec Ideal S1x64 .f32) (p : Fin 5000) (q : Fin 64) :
    k7_pay1 (F := Ideal) x var γ mean β (ix2 p q)
      = normRows x mean var γ β (Ideal.ofBits .f32 0x3727C5AC#32) (ix2 p q) := by
  unfold k7_pay1
  simp only [shapeCast_self]
  rw [normRows_apply, addf_apply, mulf_apply, mulf_apply, subf_apply]
  rw [RowVector.broadcastTo_row (by decide), RowVector.broadcastTo_row (by decide), RowVector.broadcastTo_row (by decide),
    RowVector.broadcastTo_row (by decide)]
  rfl

variable (V : (c : Dev nD) → (b : Ref sig .tc) → Buf (Elt Ideal) ((c : Thread nD τ).loc b))

/-- The printed index maps over the grid: the row windows move with the point, the 1×64 rows stay. -/
theorem idx_facts : ∀ t : Fin cfg7.N, win7_0.index t (0 : Fin 2) = t.val ∧ win7_0.index t (1 : Fin 2) = 0
    ∧ win7_5.index t (0 : Fin 2) = t.val ∧ win7_5.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0 :=
  (by decide +kernel : ∀ t : Fin grid7.N, _)

theorem lt_rows (t : Fin cfg7.N) (p : Fin 5000) : 5000 * t.val + p.val < 100000 := by
  have hN : cfg7.N = 20 := N_7
  have := t.isLt; have := p.isLt; omega

/-- Row block t of the data window, read at (p, q). -/
theorem rd0 (c : Dev nD) (t : Fin cfg7.N) (p : Fin 5000) (q : Fin 64) :
    iblk7 V c 0 t (ix2 p q) = (V c (Pipeline.arrRef spec7 0) : S100000x64.Idx → EReal) (ix2 ⟨5000 * t.val + p.val, lt_rows t p⟩ q) := by
  obtain ⟨e0, e1, -⟩ := idx_facts t
  unfold iblk7
  rw [View.read_apply]
  refine congrArg (V c (Pipeline.arrRef spec7 0)) ?_
  funext a; apply Fin.ext
  match a with
  | ⟨0, _⟩ => show win7_0.index t (0 : Fin 2) * 5000 + 1 * p.val = 5000 * t.val + p.val; omega
  | ⟨1, _⟩ => show win7_0.index t (1 : Fin 2) * 64 + 1 * q.val = q.val; omega

/-- The 1×64 row of window 1, read at (0, q): the whole row is the block at every point. -/
theorem rd1 (c : Dev nD) (t : Fin cfg7.N) (q : Fin 64) :
    iblk7 V c 1 t (ix2 0 q) = (V c (Pipeline.arrRef spec7 1) : S1x64.Idx → EReal) (ix2 0 q) := by
  obtain ⟨-, -, -, -, e0, e1, -⟩ := idx_facts t
  unfold iblk7
  rw [View.read_apply]
  refine congrArg (V c (Pipeline.arrRef spec7 1)) ?_
  funext a; apply Fin.ext
  match a with
  | ⟨0, _⟩ => show win7_1.index t (0 : Fin 2) * 1 + 1 * 0 = 0; omega
  | ⟨1, _⟩ => show win7_1.index t (1 : Fin 2) * 64 + 1 * q.val = q.val; omega

/-- The 1×64 row of window 2, read at (0, q): the whole row is the block at every point. -/
theorem rd2 (c : Dev nD) (t : Fin cfg7.N) (q : Fin 64) :
    iblk7 V c 2 t (ix2 0 q) = (V c (Pipeline.arrRef spec7 2) : S1x64.Idx → EReal) (ix2 0 q) := by
  obtain ⟨-, -, -, -, -, -, e0, e1, -⟩ := idx_facts t
  unfold iblk7
  rw [View.read_apply]
  refine congrArg (V c (Pipeline.arrRef spec7 2)) ?_
  funext a; apply Fin.ext
  match a with
  | ⟨0, _⟩ => show win7_2.index t (0 : Fin 2) * 1 + 1 * 0 = 0; omega
  | ⟨1, _⟩ => show win7_2.index t (1 : Fin 2) * 64 + 1 * q.val = q.val; omega

/-- The 1×64 row of window 3, read at (0, q): the whole row is the block at every point. -/
theorem rd3 (c : Dev nD) (t : Fin cfg7.N) (q : Fin 64) :
    iblk7 V c 3 t (ix2 0 q) = (V c (Pipeline.arrRef spec7 3) : S1x64.Idx → EReal) (ix2 0 q) := by
  obtain ⟨-, -, -, -, -, -, -, -, e0, e1, -⟩ := idx_facts t
  unfold iblk7
  rw [View.read_apply]
  refine congrArg (V c (Pipeline.arrRef spec7 3)) ?_
  funext a; apply Fin.ext
  match a with
  | ⟨0, _⟩ => show win7_3.index t (0 : Fin 2) * 1 + 1 * 0 = 0; omega
  | ⟨1, _⟩ => show win7_3.index t (1 : Fin 2) * 64 + 1 * q.val = q.val; omega

/-- The 1×64 row of window 4, read at (0, q): the whole row is the block at every point. -/
theorem rd4 (c : Dev nD) (t : Fin cfg7.N) (q : Fin 64) :
    iblk7 V c 4 t (ix2 0 q) = (V c (Pipeline.arrRef spec7 4) : S1x64.Idx → EReal) (ix2 0 q) := by
  obtain ⟨-, -, -, -, -, -, -, -, -, -, e0, e1⟩ := idx_facts t
  unfold iblk7
  rw [View.read_apply]
  refine congrArg (V c (Pipeline.arrRef spec7 4)) ?_
  funext a; apply Fin.ext
  match a with
  | ⟨0, _⟩ => show win7_4.index t (0 : Fin 2) * 1 + 1 * 0 = 0; omega
  | ⟨1, _⟩ => show win7_4.index t (1 : Fin 2) * 64 + 1 * q.val = q.val; omega

/-- The array the region leaves in its output window where covered: the normalisation of the data array by the
    four rows, entry by entry. -/
abbrev G (c : Dev nD) : S100000x64.Idx → EReal :=
  normRows (V c (Pipeline.arrRef spec7 0)) (V c (Pipeline.arrRef spec7 1)) (V c (Pipeline.arrRef spec7 2))
    (V c (Pipeline.arrRef spec7 3)) (V c (Pipeline.arrRef spec7 4)) (Ideal.ofBits .f32 0x3727C5AC#32)

/-- What point t writes back is block t of that array. -/
theorem flushed_eq (c : Dev nD) (t : Fin cfg7.N) :
    (dat7 V c).flushed 5 t = ((cfg7.win 5).blk t).view.read (Elt Ideal) (G V c) := by
  show (cfg7.win 5).cut (grid7.coords t) ((dat7 V c).after 5 t) = _
  rw [after7_5]
  unfold out7_5
  rw [View.canon_unit_zero hz]
  simp only [View.ld_unit_zero (S := S5000x64) hz, View.ld_unit_zero (S := S1x64) hz]
  funext j
  obtain ⟨p, q, rfl⟩ : ∃ (p : Fin 5000) (q : Fin 64), j = ix2 p q := ⟨j 0, j 1, eq_ix2 j⟩
  refine (pay_apply _ _ _ _ _ p q).trans ?_
  obtain ⟨-, -, e2, e3, -⟩ := idx_facts t
  have he : ((cfg7.win 5).blk t).view.emb (ix2 p q) = (ix2 ⟨5000 * t.val + p.val, lt_rows t p⟩ q : S100000x64.Idx) := by
    funext a; apply Fin.ext
    match a with
    | ⟨0, _⟩ => show win7_5.index t (0 : Fin 2) * 5000 + 1 * p.val = 5000 * t.val + p.val; omega
    | ⟨1, _⟩ => show win7_5.index t (1 : Fin 2) * 64 + 1 * q.val = q.val; omega
  rw [View.read_apply, he, normRows_apply, rd0, rd1, rd2, rd3, rd4]
  exact (cast_eq _ _).symm

/-- An index of the array is in point t's block iff each coordinate is in the block's range on its axis. -/
theorem mem_blk (t : Fin cfg7.N) (i : S100000x64.Idx) :
    i ∈ ((cfg7.win 5).blk t).view.set ↔ ∀ a : Fin 2, win7_5.index t a * S5000x64.size a ≤ (i a).val ∧ (i a).val < win7_5.index t a * S5000x64.size a + S5000x64.size a := by
  show i ∈ ((View.whole main_v163).slice (win7_5.rect t)).set ↔ _
  rw [View.set_slice_whole, Rect.mem_set_unit]
  exact Iff.rfl

/-- The array after the region: the twenty row blocks tile it, so it is the normalisation everywhere. -/
theorem final (c : Dev nD) : (dat7 V c).arrAt 5 cfg7.N = G V c :=
  (dat7 V c).arrAt_eq_of_cover 5 (G V c) (fun t _ => flushed_eq V c t) fun i => by
    have hN : cfg7.N = 20 := N_7
    have hi0 : (i 0).val < 100000 := (i 0).isLt
    have hi1 : (i 1).val < 64 := (i 1).isLt
    refine ⟨⟨(i 0).val / 5000, by omega⟩, flush7_5 _, ?_⟩
    rw [mem_blk]
    obtain ⟨-, -, e2, e3, -⟩ := idx_facts ⟨(i 0).val / 5000, by omega⟩
    intro a
    match a with
    | ⟨0, _⟩ => show win7_5.index _ (0 : Fin 2) * 5000 ≤ (i 0).val ∧ (i 0).val < win7_5.index _ (0 : Fin 2) * 5000 + 5000; rw [e2]; dsimp only; omega
    | ⟨1, _⟩ => show win7_5.index _ (1 : Fin 2) * 64 ≤ (i 1).val ∧ (i 1).val < win7_5.index _ (1 : Fin 2) * 64 + 64; rw [e3]; omega

end Cert.KernelIdeal.Norm7

end
-- ==== Proof.KChain4.lean ====
/-
  The kernel's program read boundary by boundary: each stretch of host operations from what the region before left, each
  region's arrays from the stretch before it, so that every block's output is the kernel's block function of the block's
  input and of the argument arrays, and the argument arrays are found unchanged at every boundary.
-/
import proofs.«169884_j31009663877671_1_alg».proof.Proof.Gen.KernelIdeal.Frame
import proofs.«169884_j31009663877671_1_alg».proof.Proof.Stats6Fin
import proofs.«169884_j31009663877671_1_alg».proof.Proof.Norm7
import proofs.«169884_j31009663877671_1_alg».proof.Proof.KerForms
import Idealize.ShloMosaic.Lib.StableHlo.Run

set_option maxRecDepth 16384

noncomputable section

namespace Cert.KernelIdeal.Chain

open Cert.KernelIdeal Cert.KernelIdeal.Gen Cert.Gin Cert.ReferenceIdeal.Forms
open Idealize.ShloMosaic Idealize.ShloMosaic.TcCoe Idealize.SL.Sem Idealize.ShloMosaic.ValueIdx

variable (m : (ℓ : Loc nD τ sig) → Buf (Elt Ideal) ℓ) (ρ : Dev nD → PrngReg)

/-! ## Block 4 -/

set_option maxHeartbeats 4000000 in
theorem b4_agg (c : Dev nD) : W13 m ρ c (Proc.devRef .tc main_v147) = agg64 (W12 m ρ c (Proc.devRef .tc main_v120)) (W12 m ρ c (Proc.devRef .tc main_arg1)) := by
  show StableHlo.after hostOps6 (W12 m ρ c) (Proc.devRef .tc main_v147) = _
  after_results_simp
  rfl

set_option maxHeartbeats 4000000 in
theorem b4_W1 (c : Dev nD) : W13 m ρ c (Proc.devRef .tc main_v122) = slab (W12 m ρ c (Proc.devRef .tc main_arg7)) ![2, 0, 0] Cert.ReferenceIdeal.Facts₀.slices_S4x64x64_S1x64x64_2_0_0 := by
  show StableHlo.after hostOps6 (W12 m ρ c) (Proc.devRef .tc main_v122) = _
  after_results_simp
  rfl

set_option maxHeartbeats 4000000 in
theorem b4_b1 (c : Dev nD) : W13 m ρ c (Proc.devRef .tc main_v148) = asRow (row4 (W12 m ρ c (Proc.devRef .tc main_arg8)) ![2, 0] Cert.ReferenceIdeal.Facts₀.slices_S4x64_S1x64_2_0) := by
  show StableHlo.after hostOps6 (W12 m ρ c) (Proc.devRef .tc main_v148) = _
  after_results_simp
  rfl

set_option maxHeartbeats 4000000 in
theorem b4_W2 (c : Dev nD) : W13 m ρ c (Proc.devRef .tc main_v126) = slab (W12 m ρ c (Proc.devRef .tc main_arg9)) ![2, 0, 0] Cert.ReferenceIdeal.Facts₀.slices_S4x64x64_S1x64x64_2_0_0 := by
  show StableHlo.after hostOps6 (W12 m ρ c) (Proc.devRef .tc main_v126) = _
  after_results_simp
  rfl

set_option maxHeartbeats 4000000 in
theorem b4_b2 (c : Dev nD) : W13 m ρ c (Proc.devRef .tc main_v149) = asRow (row4 (W12 m ρ c (Proc.devRef .tc main_arg10)) ![2, 0] Cert.ReferenceIdeal.Facts₀.slices_S4x64_S1x64_2_0) := by
  show StableHlo.after hostOps6 (W12 m ρ c) (Proc.devRef .tc main_v149) = _
  after_results_simp
  rfl

set_option maxHeartbeats 4000000 in
theorem b4_g (c : Dev nD) : W13 m ρ c (Proc.devRef .tc main_v130) = row5 (W12 m ρ c (Proc.devRef .tc main_arg11)) ![3, 0] Cert.ReferenceIdeal.Facts₀.slices_S5x64_S1x64_3_0 := by
  show StableHlo.after hostOps6 (W12 m ρ c) (Proc.devRef .tc main_v130) = _
  after_results_simp
  rfl

set_option maxHeartbeats 4000000 in
theorem b4_b (c : Dev nD) : W13 m ρ c (Proc.devRef .tc main_v132) = row5 (W12 m ρ c (Proc.devRef .tc main_arg12)) ![3, 0] Cert.ReferenceIdeal.Facts₀.slices_S5x64_S1x64_3_0 := by
  show StableHlo.after hostOps6 (W12 m ρ c) (Proc.devRef .tc main_v132) = _
  after_results_simp
  rfl

/-- The feature array of block 4. -/
abbrev T4 (c : Dev nD) : FVec Ideal Cert.ReferenceIdeal.S100000x64 .f32 :=
  mlp (agg64 (W12 m ρ c (Proc.devRef .tc main_v120)) (W12 m ρ c (Proc.devRef .tc main_arg1))) (slab (W12 m ρ c (Proc.devRef .tc main_arg7)) ![2, 0, 0] Cert.ReferenceIdeal.Facts₀.slices_S4x64x64_S1x64x64_2_0_0) (asRow (row4 (W12 m ρ c (Proc.devRef .tc main_arg8)) ![2, 0] Cert.ReferenceIdeal.Facts₀.slices_S4x64_S1x64_2_0)) (slab (W12 m ρ c (Proc.devRef .tc main_arg9)) ![2, 0, 0] Cert.ReferenceIdeal.Facts₀.slices_S4x64x64_S1x64x64_2_0_0) (asRow (row4 (W12 m ρ c (Proc.devRef .tc main_arg10)) ![2, 0] Cert.ReferenceIdeal.Facts₀.slices_S4x64_S1x64_2_0))

theorem b4_Tf (c : Dev nD) : Stats6.Tfull (V13 m ρ) c = T4 m ρ c := by
  show mlp (W13 m ρ c (Proc.devRef .tc main_v147)) (W13 m ρ c (Proc.devRef .tc main_v122)) (W13 m ρ c (Proc.devRef .tc main_v148)) (W13 m ρ c (Proc.devRef .tc main_v126)) (W13 m ρ c (Proc.devRef .tc main_v149)) = _
  rw [b4_agg, b4_W1, b4_b1, b4_W2, b4_b2]

theorem b4_T (c : Dev nD) : W14 m ρ c (Proc.devRef .tc main_v150_0) = T4 m ρ c :=
  ((hF6 m ρ c 5).symm.trans (Stats6.final5 (V13 m ρ) c)).trans (b4_Tf m ρ c)

theorem b4_S (c : Dev nD) : W14 m ρ c (Proc.devRef .tc main_v150_1) = sumRow (T4 m ρ c) :=
  ((hF6 m ρ c 6).symm.trans (Stats6.final6 (V13 m ρ) c)).trans (congrArg colSumRow (b4_Tf m ρ c))

theorem b4_Q (c : Dev nD) : W14 m ρ c (Proc.devRef .tc main_v150_2) = sqRow (T4 m ρ c) :=
  ((hF6 m ρ c 7).symm.trans (Stats6.final7 (V13 m ρ) c)).trans (congrArg colSqRow (b4_Tf m ρ c))

theorem b4_g' (c : Dev nD) : W14 m ρ c (Proc.devRef .tc main_v130) = row5 (W12 m ρ c (Proc.devRef .tc main_arg11)) ![3, 0] Cert.ReferenceIdeal.Facts₀.slices_S5x64_S1x64_3_0 :=
  (W14_of_ne m ρ c main_v130 (by decide)).trans (b4_g m ρ c)

theorem b4_b' (c : Dev nD) : W14 m ρ c (Proc.devRef .tc main_v132) = row5 (W12 m ρ c (Proc.devRef .tc main_arg12)) ![3, 0] Cert.ReferenceIdeal.Facts₀.slices_S5x64_S1x64_3_0 :=
  (W14_of_ne m ρ c main_v132 (by decide)).trans (b4_b m ρ c)

set_option maxHeartbeats 4000000 in
theorem b4_Tk (c : Dev nD) : W15 m ρ c (Proc.devRef .tc main_v150_0) = W14 m ρ c (Proc.devRef .tc main_v150_0) := by
  show StableHlo.after hostOps7 (W14 m ρ c) (Proc.devRef .tc main_v150_0) = _
  after_results_simp

set_option maxHeartbeats 4000000 in
theorem b4_mean (c : Dev nD) : W15 m ρ c (Proc.devRef .tc main_v159) = asRow (meanK (W14 m ρ c (Proc.devRef .tc main_v150_1))) := by
  show StableHlo.after hostOps7 (W14 m ρ c) (Proc.devRef .tc main_v159) = _
  after_results_simp
  rfl

set_option maxHeartbeats 4000000 in
theorem b4_var (c : Dev nD) : W15 m ρ c (Proc.devRef .tc main_v160) = asRow (varK (W14 m ρ c (Proc.devRef .tc main_v150_1)) (W14 m ρ c (Proc.devRef .tc main_v150_2))) := by
  show StableHlo.after hostOps7 (W14 m ρ c) (Proc.devRef .tc main_v160) = _
  after_results_simp
  rfl

set_option maxHeartbeats 4000000 in
theorem b4_grow (c : Dev nD) : W15 m ρ c (Proc.devRef .tc main_v161) = asRow (W14 m ρ c (Proc.devRef .tc main_v130)) := by
  show StableHlo.after hostOps7 (W14 m ρ c) (Proc.devRef .tc main_v161) = _
  after_results_simp
  rfl

set_option maxHeartbeats 4000000 in
theorem b4_brow (c : Dev nD) : W15 m ρ c (Proc.devRef .tc main_v162) = asRow (W14 m ρ c (Proc.devRef .tc main_v132)) := by
  show StableHlo.after hostOps7 (W14 m ρ c) (Proc.devRef .tc main_v162) = _
  after_results_simp
  rfl

/-- What block 4 leaves: the kernel's block function of what it found. -/
theorem b4_out (c : Dev nD) : W16 m ρ c (Proc.devRef .tc main_v163)
      = kblkN (W12 m ρ c (Proc.devRef .tc main_v120)) (W12 m ρ c (Proc.devRef .tc main_arg1)) (W12 m ρ c (Proc.devRef .tc main_arg7)) (W12 m ρ c (Proc.devRef .tc main_arg8)) (W12 m ρ c (Proc.devRef .tc main_arg9)) (W12 m ρ c (Proc.devRef .tc main_arg10)) (W12 m ρ c (Proc.devRef .tc main_arg11)) (W12 m ρ c (Proc.devRef .tc main_arg12))
        ![2, 0, 0] Cert.ReferenceIdeal.Facts₀.slices_S4x64x64_S1x64x64_2_0_0 ![2, 0] Cert.ReferenceIdeal.Facts₀.slices_S4x64_S1x64_2_0 ![3, 0] Cert.ReferenceIdeal.Facts₀.slices_S5x64_S1x64_3_0 := by
  refine ((hF7 m ρ c 5).symm.trans (Norm7.final (V15 m ρ) c)).trans ?_
  show normRows (W15 m ρ c (Proc.devRef .tc main_v150_0)) (W15 m ρ c (Proc.devRef .tc main_v159)) (W15 m ρ c (Proc.devRef .tc main_v160)) (W15 m ρ c (Proc.devRef .tc main_v161)) (W15 m ρ c (Proc.devRef .tc main_v162)) (Ideal.ofBits .f32 0x3727C5AC#32) = _
  rw [b4_Tk, b4_mean, b4_var, b4_grow, b4_brow, b4_T, b4_S, b4_Q, b4_g', b4_b']
  rfl

theorem k4_main_arg1 (c : Dev nD) : W16 m ρ c (Proc.devRef .tc main_arg1) = W12 m ρ c (Proc.devRef .tc main_arg1) :=
  calc W16 m ρ c (Proc.devRef .tc main_arg1)
    _ = W15 m ρ c (Proc.devRef .tc main_arg1) := W16_of_ne m ρ c main_arg1 (by decide)
    _ = W14 m ρ c (Proc.devRef .tc main_arg1) := by show StableHlo.after hostOps7 (W14 m ρ c) (Proc.devRef .tc main_arg1) = _; after_results_simp
    _ = W13 m ρ c (Proc.devRef .tc main_arg1) := W14_of_ne m ρ c main_arg1 (by decide)
    _ = W12 m ρ c (Proc.devRef .tc main_arg1) := by show StableHlo.after hostOps6 (W12 m ρ c) (Proc.devRef .tc main_arg1) = _; after_results_simp

theorem k4_main_arg2 (c : Dev nD) : W16 m ρ c (Proc.devRef .tc main_arg2) = W12 m ρ c (Proc.devRef .tc main_arg2) :=
  calc W16 m ρ c (Proc.devRef .tc main_arg2)
    _ = W15 m ρ c (Proc.devRef .tc main_arg2) := W16_of_ne m ρ c main_arg2 (by decide)
    _ = W14 m ρ c (Proc.devRef .tc main_arg2) := by show StableHlo.after hostOps7 (W14 m ρ c) (Proc.devRef .tc main_arg2) = _; after_results_simp
    _ = W13 m ρ c (Proc.devRef .tc main_arg2) := W14_of_ne m ρ c main_arg2 (by decide)
    _ = W12 m ρ c (Proc.devRef .tc main_arg2) := by show StableHlo.after hostOps6 (W12 m ρ c) (Proc.devRef .tc main_arg2) = _; after_results_simp

theorem k4_main_arg7 (c : Dev nD) : W16 m ρ c (Proc.devRef .tc main_arg7) = W12 m ρ c (Proc.devRef .tc main_arg7) :=
  calc W16 m ρ c (Proc.devRef .tc main_arg7)
    _ = W15 m ρ c (Proc.devRef .tc main_arg7) := W16_of_ne m ρ c main_arg7 (by decide)
    _ = W14 m ρ c (Proc.devRef .tc main_arg7) := by show StableHlo.after hostOps7 (W14 m ρ c) (Proc.devRef .tc main_arg7) = _; after_results_simp
    _ = W13 m ρ c (Proc.devRef .tc main_arg7) := W14_of_ne m ρ c main_arg7 (by decide)
    _ = W12 m ρ c (Proc.devRef .tc main_arg7) := by show StableHlo.after hostOps6 (W12 m ρ c) (Proc.devRef .tc main_arg7) = _; after_results_simp

theorem k4_main_arg8 (c : Dev nD) : W16 m ρ c (Proc.devRef .tc main_arg8) = W12 m ρ c (Proc.devRef .tc main_arg8) :=
  calc W16 m ρ c (Proc.devRef .tc main_arg8)
    _ = W15 m ρ c (Proc.devRef .tc main_arg8) := W16_of_ne m ρ c main_arg8 (by decide)
    _ = W14 m ρ c (Proc.devRef .tc main_arg8) := by show StableHlo.after hostOps7 (W14 m ρ c) (Proc.devRef .tc main_arg8) = _; after_results_simp
    _ = W13 m ρ c (Proc.devRef .tc main_arg8) := W14_of_ne m ρ c main_arg8 (by decide)
    _ = W12 m ρ c (Proc.devRef .tc main_arg8) := by show StableHlo.after hostOps6 (W12 m ρ c) (Proc.devRef .tc main_arg8) = _; after_results_simp

theorem k4_main_arg9 (c : Dev nD) : W16 m ρ c (Proc.devRef .tc main_arg9) = W12 m ρ c (Proc.devRef .tc main_arg9) :=
  calc W16 m ρ c (Proc.devRef .tc main_arg9)
    _ = W15 m ρ c (Proc.devRef .tc main_arg9) := W16_of_ne m ρ c main_arg9 (by decide)
    _ = W14 m ρ c (Proc.devRef .tc main_arg9) := by show StableHlo.after hostOps7 (W14 m ρ c) (Proc.devRef .tc main_arg9) = _; after_results_simp
    _ = W13 m ρ c (Proc.devRef .tc main_arg9) := W14_of_ne m ρ c main_arg9 (by decide)
    _ = W12 m ρ c (Proc.devRef .tc main_arg9) := by show StableHlo.after hostOps6 (W12 m ρ c) (Proc.devRef .tc main_arg9) = _; after_results_simp

theorem k4_main_arg10 (c : Dev nD) : W16 m ρ c (Proc.devRef .tc main_arg10) = W12 m ρ c (Proc.devRef .tc main_arg10) :=
  calc W16 m ρ c (Proc.devRef .tc main_arg10)
    _ = W15 m ρ c (Proc.devRef .tc main_arg10) := W16_of_ne m ρ c main_arg10 (by decide)
    _ = W14 m ρ c (Proc.devRef .tc main_arg10) := by show StableHlo.after hostOps7 (W14 m ρ c) (Proc.devRef .tc main_arg10) = _; after_results_simp
    _ = W13 m ρ c (Proc.devRef .tc main_arg10) := W14_of_ne m ρ c main_arg10 (by decide)
    _ = W12 m ρ c (Proc.devRef .tc main_arg10) := by show StableHlo.after hostOps6 (W12 m ρ c) (Proc.devRef .tc main_arg10) = _; after_results_simp

theorem k4_main_arg11 (c : Dev nD) : W16 m ρ c (Proc.devRef .tc main_arg11) = W12 m ρ c (Proc.devRef .tc main_arg11) :=
  calc W16 m ρ c (Proc.devRef .tc main_arg11)
    _ = W15 m ρ c (Proc.devRef .tc main_arg11) := W16_of_ne m ρ c main_arg11 (by decide)
    _ = W14 m ρ c (Proc.devRef .tc main_arg11) := by show StableHlo.after hostOps7 (W14 m ρ c) (Proc.devRef .tc main_arg11) = _; after_results_simp
    _ = W13 m ρ c (Proc.devRef .tc main_arg11) := W14_of_ne m ρ c main_arg11 (by decide)
    _ = W12 m ρ c (Proc.devRef .tc main_arg11) := by show StableHlo.after hostOps6 (W12 m ρ c) (Proc.devRef .tc main_arg11) = _; after_results_simp

theorem k4_main_arg12 (c : Dev nD) : W16 m ρ c (Proc.devRef .tc main_arg12) = W12 m ρ c (Proc.devRef .tc main_arg12) :=
  calc W16 m ρ c (Proc.devRef .tc main_arg12)
    _ = W15 m ρ c (Proc.devRef .tc main_arg12) := W16_of_ne m ρ c main_arg12 (by decide)
    _ = W14 m ρ c (Proc.devRef .tc main_arg12) := by show StableHlo.after hostOps7 (W14 m ρ c) (Proc.devRef .tc main_arg12) = _; after_results_simp
    _ = W13 m ρ c (Proc.devRef .tc main_arg12) := W14_of_ne m ρ c main_arg12 (by decide)
    _ = W12 m ρ c (Proc.devRef .tc main_arg12) := by show StableHlo.after hostOps6 (W12 m ρ c) (Proc.devRef .tc main_arg12) = _; after_results_simp

theorem k4_main_arg13 (c : Dev nD) : W16 m ρ c (Proc.devRef .tc main_arg13) = W12 m ρ c (Proc.devRef .tc main_arg13) :=
  calc W16 m ρ c (Proc.devRef .tc main_arg13)
    _ = W15 m ρ c (Proc.devRef .tc main_arg13) := W16_of_ne m ρ c main_arg13 (by decide)
    _ = W14 m ρ c (Proc.devRef .tc main_arg13) := by show StableHlo.after hostOps7 (W14 m ρ c) (Proc.devRef .tc main_arg13) = _; after_results_simp
    _ = W13 m ρ c (Proc.devRef .tc main_arg13) := W14_of_ne m ρ c main_arg13 (by decide)
    _ = W12 m ρ c (Proc.devRef .tc main_arg13) := by show StableHlo.after hostOps6 (W12 m ρ c) (Proc.devRef .tc main_arg13) = _; after_results_simp

theorem k4_main_arg14 (c : Dev nD) : W16 m ρ c (Proc.devRef .tc main_arg14) = W12 m ρ c (Proc.devRef .tc main_arg14) :=
  calc W16 m ρ c (Proc.devRef .tc main_arg14)
    _ = W15 m ρ c (Proc.devRef .tc main_arg14) := W16_of_ne m ρ c main_arg14 (by decide)
    _ = W14 m ρ c (Proc.devRef .tc main_arg14) := by show StableHlo.after hostOps7 (W14 m ρ c) (Proc.devRef .tc main_arg14) = _; after_results_simp
    _ = W13 m ρ c (Proc.devRef .tc main_arg14) := W14_of_ne m ρ c main_arg14 (by decide)
    _ = W12 m ρ c (Proc.devRef .tc main_arg14) := by show StableHlo.after hostOps6 (W12 m ρ c) (Proc.devRef .tc main_arg14) = _; after_results_simp

theorem k4_main_arg15 (c : Dev nD) : W16 m ρ c (Proc.devRef .tc main_arg15) = W12 m ρ c (Proc.devRef .tc main_arg15) :=
  calc W16 m ρ c (Proc.devRef .tc main_arg15)
    _ = W15 m ρ c (Proc.devRef .tc main_arg15) := W16_of_ne m ρ c main_arg15 (by decide)
    _ = W14 m ρ c (Proc.devRef .tc main_arg15) := by show StableHlo.after hostOps7 (W14 m ρ c) (Proc.devRef .tc main_arg15) = _; after_results_simp
    _ = W13 m ρ c (Proc.devRef .tc main_arg15) := W14_of_ne m ρ c main_arg15 (by decide)
    _ = W12 m ρ c (Proc.devRef .tc main_arg15) := by show StableHlo.after hostOps6 (W12 m ρ c) (Proc.devRef .tc main_arg15) = _; after_results_simp

theorem k4_main_arg16 (c : Dev nD) : W16 m ρ c (Proc.devRef .tc main_arg16) = W12 m ρ c (Proc.devRef .tc main_arg16) :=
  calc W16 m ρ c (Proc.devRef .tc main_arg16)
    _ = W15 m ρ c (Proc.devRef .tc main_arg16) := W16_of_ne m ρ c main_arg16 (by decide)
    _ = W14 m ρ c (Proc.devRef .tc main_arg16) := by show StableHlo.after hostOps7 (W14 m ρ c) (Proc.devRef .tc main_arg16) = _; after_results_simp
    _ = W13 m ρ c (Proc.devRef .tc main_arg16) := W14_of_ne m ρ c main_arg16 (by decide)
    _ = W12 m ρ c (Proc.devRef .tc main_arg16) := by show StableHlo.after hostOps6 (W12 m ρ c) (Proc.devRef .tc main_arg16) = _; after_results_simp

end Cert.KernelIdeal.Chain

end
-- ==== Proof.Stats8Val.lean ====
/-
  What each case of the statistics kernel's body leaves in its three output buffers, as values: the block of features,
  and the two running rows (column sums of the features and of their squares) — started from zero at the first grid
  point, continued from what the point before left otherwise.
-/
import proofs.«169884_j31009663877671_1_alg».proof.Proof.Gen.KernelIdeal.Frame
import Idealize.ShloMosaic.Lib.Pipeline.Value
import Idealize.ShloMosaic.Lib.Tactic

noncomputable section

namespace Cert.KernelIdeal.Stats8

open Cert.KernelIdeal Cert.KernelIdeal.Gen
open Idealize.ShloMosaic Idealize.ShloMosaic.TcCoe Idealize.SL.Sem

variable {F : FTy → Type} [FloatOps F]

theorem hz : (![0, 0] : Fin 2 → Nat) = fun _ => 0 := funext fun a => by fin_cases a <;> rfl

theorem outA5 (c : Dev nD) (i : grid8.Coords) (a1 : Memref sig .tc .vmem S5000x64 .f32) (h1 : a1.IsWhole) (a2 : Memref sig .tc .vmem S64x64 .f32) (h2 : a2.IsWhole) (a3 : Memref sig .tc .vmem S1x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : cond8_0 i) (x0 : Vec F S5000x64 .f32) (x1 : Vec F S64x64 .f32) (x2 : Vec F S1x64 .f32) (x3 : Vec F S64x64 .f32) (x4 : Vec F S1x64 .f32) :
    out8_A_5 c i a1 h1 a2 h2 a3 h3 a4 h4 a5 h5 a6 h6 a7 h7 a8 h8 hc x0 x1 x2 x3 x4 = k8_pay4 x0 x1 x2 x3 x4 := by
  unfold out8_A_5
  rw [View.read_writes_eq_canon _ _ _ (cover8_A_5 c i a1 h1 a2 h2 a3 h3 a4 h4 a5 h5 a6 h6 a7 h7 a8 h8 hc x0 x1 x2 x3 x4)]
  unfold kernelRun8_A
  dsimp only
  try sl_unfold_words
  first
    | rw [View.canon_cons_unit_zero (S := S1x64) hz, View.readCov_unit_zero (S := S1x64) _ hz]
    | rw [View.canon_unit_zero hz]
  simp only [View.readAt_eq_ld, h1.read_unread, h2.read_unread, h3.read_unread, h4.read_unread, h5.read_unread,
    h6.read_unread, h7.read_unread, h8.read_unread, View.ld_unit_zero (S := S5000x64) hz, View.ld_unit_zero (S := S64x64) hz,
    View.ld_unit_zero (S := S1x64) hz, View.ld_unit_zero (S := S64x64) hz, View.ld_unit_zero (S := S5000x64) hz]

theorem outA6 (c : Dev nD) (i : grid8.Coords) (a1 : Memref sig .tc .vmem S5000x64 .f32) (h1 : a1.IsWhole) (a2 : Memref sig .tc .vmem S64x64 .f32) (h2 : a2.IsWhole) (a3 : Memref sig .tc .vmem S1x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : cond8_0 i) (x0 : Vec F S5000x64 .f32) (x1 : Vec F S64x64 .f32) (x2 : Vec F S1x64 .f32) (x3 : Vec F S64x64 .f32) (x4 : Vec F S1x64 .f32) :
    out8_A_6 c i a1 h1 a2 h2 a3 h3 a4 h4 a5 h5 a6 h6 a7 h7 a8 h8 hc x0 x1 x2 x3 x4 = k8_pay5 x0 x1 x2 x3 x4 k8_pay2 := by
  unfold out8_A_6
  rw [View.read_writes_eq_canon _ _ _ (cover8_A_6 c i a1 h1 a2 h2 a3 h3 a4 h4 a5 h5 a6 h6 a7 h7 a8 h8 hc x0 x1 x2 x3 x4)]
  unfold kernelRun8_A
  dsimp only
  try sl_unfold_words
  first
    | rw [View.canon_cons_unit_zero (S := S1x64) hz, View.readCov_unit_zero (S := S1x64) _ hz]
    | rw [View.canon_unit_zero hz]
  simp only [View.readAt_eq_ld, h1.read_unread, h2.read_unread, h3.read_unread, h4.read_unread, h5.read_unread,
    h6.read_unread, h7.read_unread, h8.read_unread, View.ld_unit_zero (S := S5000x64) hz, View.ld_unit_zero (S := S64x64) hz,
    View.ld_unit_zero (S := S1x64) hz, View.ld_unit_zero (S := S64x64) hz, View.ld_unit_zero (S := S5000x64) hz]

theorem outA7 (c : Dev nD) (i : grid8.Coords) (a1 : Memref sig .tc .vmem S5000x64 .f32) (h1 : a1.IsWhole) (a2 : Memref sig .tc .vmem S64x64 .f32) (h2 : a2.IsWhole) (a3 : Memref sig .tc .vmem S1x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : cond8_0 i) (x0 : Vec F S5000x64 .f32) (x1 : Vec F S64x64 .f32) (x2 : Vec F S1x64 .f32) (x3 : Vec F S64x64 .f32) (x4 : Vec F S1x64 .f32) :
    out8_A_7 c i a1 h1 a2 h2 a3 h3 a4 h4 a5 h5 a6 h6 a7 h7 a8 h8 hc x0 x1 x2 x3 x4 = k8_pay1 (k8_pay4 x0 x1 x2 x3 x4) k8_pay3 := by
  unfold out8_A_7
  rw [View.read_writes_eq_canon _ _ _ (cover8_A_7 c i a1 h1 a2 h2 a3 h3 a4 h4 a5 h5 a6 h6 a7 h7 a8 h8 hc x0 x1 x2 x3 x4)]
  unfold kernelRun8_A
  dsimp only
  try sl_unfold_words
  first
    | rw [View.canon_cons_unit_zero (S := S1x64) hz, View.readCov_unit_zero (S := S1x64) _ hz]
    | rw [View.canon_unit_zero hz]
  simp only [View.readAt_eq_ld, h1.read_unread, h2.read_unread, h3.read_unread, h4.read_unread, h5.read_unread,
    h6.read_unread, h7.read_unread, h8.read_unread, View.ld_unit_zero (S := S5000x64) hz, View.ld_unit_zero (S := S64x64) hz,
    View.ld_unit_zero (S := S1x64) hz, View.ld_unit_zero (S := S64x64) hz, View.ld_unit_zero (S := S5000x64) hz]

theorem outB5 (c : Dev nD) (i : grid8.Coords) (a1 : Memref sig .tc .vmem S5000x64 .f32) (h1 : a1.IsWhole) (a2 : Memref sig .tc .vmem S64x64 .f32) (h2 : a2.IsWhole) (a3 : Memref sig .tc .vmem S1x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : ¬cond8_0 i) (x0 : Vec F S5000x64 .f32) (x1 : Vec F S64x64 .f32) (x2 : Vec F S1x64 .f32) (x3 : Vec F S64x64 .f32) (x4 : Vec F S1x64 .f32) (p6 p7 : Vec F S1x64 .f32) :
    out8_B_5 c i a1 h1 a2 h2 a3 h3 a4 h4 a5 h5 a6 h6 a7 h7 a8 h8 hc x0 x1 x2 x3 x4 p6 p7 = k8_pay4 x0 x1 x2 x3 x4 := by
  unfold out8_B_5
  rw [View.read_writes_eq_canon _ _ _ (cover8_B_5 c i a1 h1 a2 h2 a3 h3 a4 h4 a5 h5 a6 h6 a7 h7 a8 h8 hc x0 x1 x2 x3 x4 p6 p7)]
  unfold kernelRun8_B
  dsimp only
  try sl_unfold_words
  first
    | rw [View.canon_cons_unit_zero (S := S1x64) hz, View.readCov_unit_zero (S := S1x64) _ hz]
    | rw [View.canon_unit_zero hz]
  simp only [View.readAt_eq_ld, h1.read_unread, h2.read_unread, h3.read_unread, h4.read_unread, h5.read_unread,
    h6.read_unread, h7.read_unread, h8.read_unread, View.ld_unit_zero (S := S5000x64) hz, View.ld_unit_zero (S := S64x64) hz,
    View.ld_unit_zero (S := S1x64) hz, View.ld_unit_zero (S := S64x64) hz, View.ld_unit_zero (S := S5000x64) hz]

theorem outB6 (c : Dev nD) (i : grid8.Coords) (a1 : Memref sig .tc .vmem S5000x64 .f32) (h1 : a1.IsWhole) (a2 : Memref sig .tc .vmem S64x64 .f32) (h2 : a2.IsWhole) (a3 : Memref sig .tc .vmem S1x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : ¬cond8_0 i) (x0 : Vec F S5000x64 .f32) (x1 : Vec F S64x64 .f32) (x2 : Vec F S1x64 .f32) (x3 : Vec F S64x64 .f32) (x4 : Vec F S1x64 .f32) (p6 p7 : Vec F S1x64 .f32) :
    out8_B_6 c i a1 h1 a2 h2 a3 h3 a4 h4 a5 h5 a6 h6 a7 h7 a8 h8 hc x0 x1 x2 x3 x4 p6 p7 = k8_pay5 x0 x1 x2 x3 x4 p6 := by
  unfold out8_B_6
  rw [View.read_writes_eq_canon _ _ _ (cover8_B_6 c i a1 h1 a2 h2 a3 h3 a4 h4 a5 h5 a6 h6 a7 h7 a8 h8 hc x0 x1 x2 x3 x4 p6 p7)]
  unfold kernelRun8_B
  dsimp only
  try sl_unfold_words
  first
    | rw [View.canon_cons_unit_zero (S := S1x64) hz, View.readCov_unit_zero (S := S1x64) _ hz]
    | rw [View.canon_unit_zero hz]
  simp only [View.readAt_eq_ld, h1.read_unread, h2.read_unread, h3.read_unread, h4.read_unread, h5.read_unread,
    h6.read_unread, h7.read_unread, h8.read_unread, View.ld_unit_zero (S := S5000x64) hz, View.ld_unit_zero (S := S64x64) hz,
    View.ld_unit_zero (S := S1x64) hz, View.ld_unit_zero (S := S64x64) hz, View.ld_unit_zero (S := S5000x64) hz]

theorem outB7 (c : Dev nD) (i : grid8.Coords) (a1 : Memref sig .tc .vmem S5000x64 .f32) (h1 : a1.IsWhole) (a2 : Memref sig .tc .vmem S64x64 .f32) (h2 : a2.IsWhole) (a3 : Memref sig .tc .vmem S1x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : ¬cond8_0 i) (x0 : Vec F S5000x64 .f32) (x1 : Vec F S64x64 .f32) (x2 : Vec F S1x64 .f32) (x3 : Vec F S64x64 .f32) (x4 : Vec F S1x64 .f32) (p6 p7 : Vec F S1x64 .f32) :
    out8_B_7 c i a1 h1 a2 h2 a3 h3 a4 h4 a5 h5 a6 h6 a7 h7 a8 h8 hc x0 x1 x2 x3 x4 p6 p7 = k8_pay1 (k8_pay4 x0 x1 x2 x3 x4) p7 := by
  unfold out8_B_7
  rw [View.read_writes_eq_canon _ _ _ (cover8_B_7 c i a1 h1 a2 h2 a3 h3 a4 h4 a5 h5 a6 h6 a7 h7 a8 h8 hc x0 x1 x2 x3 x4 p6 p7)]
  unfold kernelRun8_B
  dsimp only
  try sl_unfold_words
  first
    | rw [View.canon_cons_unit_zero (S := S1x64) hz, View.readCov_unit_zero (S := S1x64) _ hz]
    | rw [View.canon_unit_zero hz]
  simp only [View.readAt_eq_ld, h1.read_unread, h2.read_unread, h3.read_unread, h4.read_unread, h5.read_unread,
    h6.read_unread, h7.read_unread, h8.read_unread, View.ld_unit_zero (S := S5000x64) hz, View.ld_unit_zero (S := S64x64) hz,
    View.ld_unit_zero (S := S1x64) hz, View.ld_unit_zero (S := S64x64) hz, View.ld_unit_zero (S := S5000x64) hz]

end Cert.KernelIdeal.Stats8

end
-- ==== Proof.Stats8Pay.lean ====
/-
  The statistics kernel's stored values at an entry: the block of features is the two-layer perceptron (two matrix
  products into a zero accumulator, each plus a bias row, each clamped at zero) of the loaded row block, and each running
  row is what it held plus the column sums of the block.
-/
import proofs.«169884_j31009663877671_1_alg».proof.Proof.Gen.KernelIdeal.Skeleton
import proofs.«169884_j31009663877671_1_alg».proof.Proof.GinSpec
import proofs.«169884_j31009663877671_1_alg».proof.Proof.LibColReduce
import Idealize.ShloMosaic.Lib.Pipeline.Value
import Idealize.ShloMosaic.Lib.ValueIdx

noncomputable section

namespace Cert.KernelIdeal.Stats8

open Cert.KernelIdeal Cert.KernelIdeal.Gen Cert.Gin Cert.RowAffine
open Idealize.ShloMosaic Idealize.ShloMosaic.TcCoe Idealize.SL.Sem Idealize.ShloMosaic.ValueIdx

/-- The zero word is zero. -/
theorem zero_word : (Scalar.ofBits (F := Ideal) .f32 0x00000000#32 : EReal) = 0 := Ideal.ofBits_zero_f32

/-- The body's stored block of features: the two-layer perceptron of the loaded row block. -/
theorem payT_eq (x0 : Vec Ideal S5000x64 .f32) (x1 : Vec Ideal S64x64 .f32) (x2 : Vec Ideal S1x64 .f32)
    (x3 : Vec Ideal S64x64 .f32) (x4 : Vec Ideal S1x64 .f32) :
    k8_pay4 (F := Ideal) x0 x1 x2 x3 x4 = mlp x0 x1 x2 x3 x4 := by
  funext j
  obtain ⟨p, q, rfl⟩ : ∃ (p : Fin 5000) (q : Fin 64), j = ix2 p q := ⟨j 0, j 1, eq_ix2 j⟩
  unfold k8_pay4
  rw [shapeCast_self x0, shapeCast_self x1, shapeCast_self x3, maximumf_apply, broadcast_apply, zero_word]
  unfold mlp
  rw [relu_apply]
  refine congrArg (max · 0) ?_
  refine (RowAffine.kernel_apply _ rfl (by decide) none _ x3 x4 _ _ _ p q).trans ?_
  refine rowAffine_row_congr _ _ x3 x4 p p (fun c => ?_) q
  rw [maximumf_apply, broadcast_apply, relu_apply]
  exact congrArg (max · 0) (RowAffine.kernel_apply _ rfl (by decide) none x0 x1 x2 _ _ _ p c)

/-- A length-64 vector viewed as a 1×64 row, at (0, q). -/
theorem row_of_vec (v : Vec Ideal S64 .f32) (q : Fin 64) :
    shapeCast S1x64 v shapeCasts_S64_S1x64 (ix2 0 q) = v (ix1 q) := RowVector.shapeCast_row v _ q

/-- The running column sums after a block: what was there plus the block's column sums. -/
theorem paySum_apply (T : Vec Ideal S5000x64 .f32) (acc : Vec Ideal S1x64 .f32) (q : Fin 64) :
    addf (shapeCast S1x64 acc shapeCasts_S1x64_S1x64)
        (shapeCast S1x64 (multiReduction (F := Ideal) .add [0] S64 T 0x00000000#32 reduces_S5000x64_S64 (.inl rfl) rfl) shapeCasts_S64_S1x64)
        (ix2 0 q)
      = acc (ix2 0 q) + ∑ p : Fin 5000, T (ix2 p q) := by
  rw [addf_apply, shapeCast_self, row_of_vec]
  exact congrArg (acc (ix2 0 q) + ·) (ColReduce.colSum_apply T 0x00000000#32 _ _ _ q)

end Cert.KernelIdeal.Stats8

end
-- ==== Proof.Stats8Acc.lean ====
/-
  The statistics kernel over its twenty grid points: after point n the feature block is the perceptron of row block n,
  and the two running rows hold the column sums of the features, and of their squares, over the first 5000 (n + 1) rows.
-/
import proofs.«169884_j31009663877671_1_alg».proof.Proof.Gen.KernelIdeal.Frame
import proofs.«169884_j31009663877671_1_alg».proof.Proof.Stats8Val
import proofs.«169884_j31009663877671_1_alg».proof.Proof.Stats8Pay
import proofs.«169884_j31009663877671_1_alg».proof.Proof.LibBlockSums
import Idealize.ShloMosaic.Lib.Pipeline.Value
import Idealize.ShloMosaic.Lib.ValueIdx

noncomputable section

namespace Cert.KernelIdeal.Stats8

open Cert.KernelIdeal Cert.KernelIdeal.Gen Cert.Gin Cert.RowAffine Cert.Lib.BlockSums
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps over the grid: the two row windows move with the point, every other window stays. -/
theorem idx_facts : ∀ t : Fin cfg8.N, win8_0.index t (0 : Fin 2) = t.val ∧ win8_0.index t (1 : Fin 2) = 0
    ∧ win8_5.index t (0 : Fin 2) = t.val ∧ win8_5.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_6.index t (0 : Fin 2) = 0 ∧ win8_6.index t (1 : Fin 2) = 0
    ∧ win8_7.index t (0 : Fin 2) = 0 ∧ win8_7.index t (1 : Fin 2) = 0 :=
  (by decide +kernel : ∀ t : Fin grid8.N, _)

theorem lt_rows (t : Fin cfg8.N) (p : Fin 5000) : 5000 * t.val + p.val < 100000 := by
  have hN : cfg8.N = 20 := N_8
  have := t.isLt; have := p.isLt; omega

/-- Row block t of the aggregated features, read at (p, k). -/
theorem rdA (c : Dev nD) (t : Fin cfg8.N) (p : Fin 5000) (k : Fin 64) :
    iblk8 V c 0 t (ix2 p k) = (V c (Pipeline.arrRef spec8 0) : S100000x64.Idx → EReal) (ix2 ⟨5000 * t.val + p.val, lt_rows t p⟩ k) := by
  obtain ⟨e0, e1, -⟩ := idx_facts t
  unfold iblk8
  rw [View.read_apply]
  refine congrArg (V c (Pipeline.arrRef spec8 0)) ?_
  funext a; apply Fin.ext
  match a with
  | ⟨0, _⟩ => show win8_0.index t (0 : Fin 2) * 5000 + 1 * p.val = 5000 * t.val + p.val; omega
  | ⟨1, _⟩ => show win8_0.index t (1 : Fin 2) * 64 + 1 * k.val = k.val; omega

theorem rdW1 (c : Dev nD) (t : Fin cfg8.N) : iblk8 V c 1 t = (V c (Pipeline.arrRef spec8 1) : S64x64.Idx → EReal) := by
  obtain ⟨-, -, -, -, e0, e1, -⟩ := idx_facts t
  funext j
  unfold iblk8
  rw [View.read_apply]
  refine congrArg (V c (Pipeline.arrRef spec8 1)) ?_
  funext a; apply Fin.ext
  match a with
  | ⟨0, _⟩ => show win8_1.index t (0 : Fin 2) * 64 + 1 * (j 0).val = (j 0).val; omega
  | ⟨1, _⟩ => show win8_1.index t (1 : Fin 2) * 64 + 1 * (j 1).val = (j 1).val; omega

theorem rdB1 (c : Dev nD) (t : Fin cfg8.N) : iblk8 V c 2 t = (V c (Pipeline.arrRef spec8 2) : S1x64.Idx → EReal) := by
  obtain ⟨-, -, -, -, -, -, e0, e1, -⟩ := idx_facts t
  funext j
  unfold iblk8
  rw [View.read_apply]
  refine congrArg (V c (Pipeline.arrRef spec8 2)) ?_
  funext a; apply Fin.ext
  match a with
  | ⟨0, _⟩ => show win8_2.index t (0 : Fin 2) * 1 + 1 * (j 0).val = (j 0).val; omega
  | ⟨1, _⟩ => show win8_2.index t (1 : Fin 2) * 64 + 1 * (j 1).val = (j 1).val; omega

theorem rdW2 (c : Dev nD) (t : Fin cfg8.N) : iblk8 V c 3 t = (V c (Pipeline.arrRef spec8 3) : S64x64.Idx → EReal) := by
  obtain ⟨-, -, -, -, -, -, -, -, e0, e1, -⟩ := idx_facts t
  funext j
  unfold iblk8
  rw [View.read_apply]
  refine congrArg (V c (Pipeline.arrRef spec8 3)) ?_
  funext a; apply Fin.ext
  match a with
  | ⟨0, _⟩ => show win8_3.index t (0 : Fin 2) * 64 + 1 * (j 0).val = (j 0).val; omega
  | ⟨1, _⟩ => show win8_3.index t (1 : Fin 2) * 64 + 1 * (j 1).val = (j 1).val; omega

theorem rdB2 (c : Dev nD) (t : Fin cfg8.N) : iblk8 V c 4 t = (V c (Pipeline.arrRef spec8 4) : S1x64.Idx → EReal) := by
  obtain ⟨-, -, -, -, -, -, -, -, -, -, e0, e1, -⟩ := idx_facts t
  funext j
  unfold iblk8
  rw [View.read_apply]
  refine congrArg (V c (Pipeline.arrRef spec8 4)) ?_
  funext a; apply Fin.ext
  match a with
  | ⟨0, _⟩ => show win8_4.index t (0 : Fin 2) * 1 + 1 * (j 0).val = (j 0).val; omega
  | ⟨1, _⟩ => show win8_4.index t (1 : Fin 2) * 64 + 1 * (j 1).val = (j 1).val; omega

/-- The feature array: the perceptron of the aggregated features, row by row. -/
def Tfull (c : Dev nD) : S100000x64.Idx → EReal :=
  mlp (V c (Pipeline.arrRef spec8 0) : S100000x64.Idx → EReal) (V c (Pipeline.arrRef spec8 1) : S64x64.Idx → EReal)
    (V c (Pipeline.arrRef spec8 2) : S1x64.Idx → EReal) (V c (Pipeline.arrRef spec8 3) : S64x64.Idx → EReal)
    (V c (Pipeline.arrRef spec8 4) : S1x64.Idx → EReal)

/-- The block of features point t stores. -/
def Tblk (c : Dev nD) (t : Fin cfg8.N) : S5000x64.Idx → EReal :=
  k8_pay4 (F := Ideal) (iblk8 V c 0 t) (iblk8 V c 1 t) (iblk8 V c 2 t) (iblk8 V c 3 t) (iblk8 V c 4 t)

/-- It is row block t of the feature array. -/
theorem Tblk_apply (c : Dev nD) (t : Fin cfg8.N) (p : Fin 5000) (q : Fin 64) :
    Tblk V c t (ix2 p q) = Tfull V c (ix2 ⟨5000 * t.val + p.val, lt_rows t p⟩ q) := by
  unfold Tblk Tfull
  refine (congrFun (payT_eq _ _ _ _ _) _).trans ?_
  rw [rdW1 V c t, rdB1 V c t, rdW2 V c t, rdB2 V c t]
  exact mlp_row_congr _ _ _ _ _ _ p ⟨5000 * t.val + p.val, lt_rows t p⟩ (fun k => rdA V c t p k) q

/-- Column sums of the features over the first k rows, as a 1×64 row. -/
def Srow (c : Dev nD) (k : ℕ) : S1x64.Idx → EReal :=
  fun i => psum (fun r : Fin 100000 => Tfull V c (ix2 r (i 1))) k

/-- Column sums of the squared features over the first k rows, as a 1×64 row. -/
def Qrow (c : Dev nD) (k : ℕ) : S1x64.Idx → EReal :=
  fun i => psum (fun r : Fin 100000 => Tfull V c (ix2 r (i 1)) * Tfull V c (ix2 r (i 1))) k

theorem Srow_apply (c : Dev nD) (k : ℕ) (q : Fin 64) :
    Srow V c k (ix2 0 q) = psum (fun r : Fin 100000 => Tfull V c (ix2 r q)) k := rfl

theorem Qrow_apply (c : Dev nD) (k : ℕ) (q : Fin 64) :
    Qrow V c k (ix2 0 q) = psum (fun r : Fin 100000 => Tfull V c (ix2 r q) * Tfull V c (ix2 r q)) k := rfl

theorem row_idx (i : S1x64.Idx) : ∃ q : Fin 64, i = ix2 0 q := by
  obtain ⟨z, q, rfl⟩ : ∃ (z : Fin 1) (q : Fin 64), i = ix2 z q := ⟨i 0, i 1, eq_ix2 i⟩
  obtain rfl : z = 0 := Subsingleton.elim _ _
  exact ⟨q, rfl⟩

/-- The running sum row after a point: what was there plus the column sums of the point's feature block. -/
theorem sumRow_apply (c : Dev nD) (t : Fin cfg8.N) (acc : Vec Ideal S1x64 .f32) (q : Fin 64) :
    k8_pay5 (F := Ideal) (iblk8 V c 0 t) (iblk8 V c 1 t) (iblk8 V c 2 t) (iblk8 V c 3 t) (iblk8 V c 4 t) acc (ix2 0 q)
      = acc (ix2 0 q) + ∑ p : Fin 5000, Tfull V c (ix2 ⟨5000 * t.val + p.val, lt_rows t p⟩ q) := by
  unfold k8_pay5
  refine (paySum_apply _ _ q).trans ?_
  exact congrArg (acc (ix2 0 q) + ·) (Finset.sum_congr rfl fun p _ => Tblk_apply V c t p q)

/-- The running sum-of-squares row after a point. -/
theorem sqRow_apply (c : Dev nD) (t : Fin cfg8.N) (acc : Vec Ideal S1x64 .f32) (q : Fin 64) :
    k8_pay1 (F := Ideal) (k8_pay4 (iblk8 V c 0 t) (iblk8 V c 1 t) (iblk8 V c 2 t) (iblk8 V c 3 t) (iblk8 V c 4 t)) acc (ix2 0 q)
      = acc (ix2 0 q) + ∑ p : Fin 5000, Tfull V c (ix2 ⟨5000 * t.val + p.val, lt_rows t p⟩ q)
          * Tfull V c (ix2 ⟨5000 * t.val + p.val, lt_rows t p⟩ q) := by
  unfold k8_pay1
  refine (paySum_apply _ _ q).trans ?_
  refine congrArg (acc (ix2 0 q) + ·) (Finset.sum_congr rfl fun p _ => ?_)
  rw [mulf_apply]
  exact congrArg (fun z => z * z) (Tblk_apply V c t p q)

/-- After point n: the feature block of row block n, and the two rows summed over the first 5000 (n + 1) rows. -/
theorem outsAt_eq (c : Dev nD) : ∀ (n : ℕ) (h : n < cfg8.N),
    outsAt8 V c n h = (Tblk V c ⟨n, h⟩, Srow V c (5000 * (n + 1)), Qrow V c (5000 * (n + 1)))
  | 0, h => by
    rw [outsAt8_A V c ⟨0, h⟩ rfl, outA5, outA6, outA7]
    refine Prod.ext rfl (Prod.ext ?_ ?_) <;> dsimp only
    · funext i
      obtain ⟨q, rfl⟩ := row_idx i
      refine (sumRow_apply V c ⟨0, h⟩ _ q).trans ?_
      unfold k8_pay2
      rw [broadcast_apply, zero_word, zero_add, Srow_apply, show 5000 * (0 + 1) = 5000 from by norm_num,
        psum_first _ 5000 (by norm_num)]
      exact Finset.sum_congr rfl fun p _ => congrArg (fun r => Tfull V c (ix2 r q)) (Fin.ext (by simp))
    · funext i
      obtain ⟨q, rfl⟩ := row_idx i
      refine (sqRow_apply V c ⟨0, h⟩ _ q).trans ?_
      unfold k8_pay3
      rw [broadcast_apply, zero_word, zero_add, Qrow_apply, show 5000 * (0 + 1) = 5000 from by norm_num,
        psum_first _ 5000 (by norm_num)]
      exact Finset.sum_congr rfl fun p _ =>
        congrArg (fun r => Tfull V c (ix2 r q) * Tfull V c (ix2 r q)) (Fin.ext (by simp))
  | n + 1, h => by
    have hN : cfg8.N = 20 := N_8
    have hB : ¬(⟨n + 1, h⟩ : Fin cfg8.N).val % 20 = 0 := by dsimp only; omega
    have hp : outsAt8 V c ((⟨n + 1, h⟩ : Fin cfg8.N).val - 1) (Nat.lt_of_le_of_lt (Nat.sub_le _ _) h)
        = (Tblk V c ⟨n, Nat.lt_of_succ_lt h⟩, Srow V c (5000 * (n + 1)), Qrow V c (5000 * (n + 1))) :=
      outsAt_eq c n (Nat.lt_of_succ_lt h)
    rw [outsAt8_B V c ⟨n + 1, h⟩ hB, hp, outB5, outB6, outB7]
    refine Prod.ext rfl (Prod.ext ?_ ?_) <;> dsimp only
    · funext i
      obtain ⟨q, rfl⟩ := row_idx i
      refine (sumRow_apply V c ⟨n + 1, h⟩ _ q).trans ?_
      rw [Srow_apply, Srow_apply, show 5000 * (n + 1 + 1) = 5000 * (n + 1) + 5000 from by ring,
        psum_add _ _ 5000 (by omega)]
    · funext i
      obtain ⟨q, rfl⟩ := row_idx i
      refine (sqRow_apply V c ⟨n + 1, h⟩ _ q).trans ?_
      rw [Qrow_apply, Qrow_apply, show 5000 * (n + 1 + 1) = 5000 * (n + 1) + 5000 from by ring,
        psum_add _ _ 5000 (by omega)]

end Cert.KernelIdeal.Stats8

end
-- ==== Proof.Stats8Fin.lean ====
/-
  The three arrays the statistics region leaves: the features (the perceptron of the aggregated features, all rows),
  and the two 1×64 rows of column sums of the features and of their squares over all rows.
-/
import proofs.«169884_j31009663877671_1_alg».proof.Proof.Stats8Acc

noncomputable section

namespace Cert.KernelIdeal.Stats8

open Cert.KernelIdeal Cert.KernelIdeal.Gen Cert.Gin Cert.RowAffine Cert.Lib.BlockSums
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The column sums of the features over all rows, as a 1×64 row. -/
def Ssum (c : Dev nD) : S1x64.Idx → EReal := colSumRow (Tfull V c)

/-- The column sums of the squared features over all rows, as a 1×64 row. -/
def Qsum (c : Dev nD) : S1x64.Idx → EReal := colSqRow (Tfull V c)

theorem Ssum_apply (c : Dev nD) (q : Fin 64) : Ssum V c (ix2 0 q) = ∑ r : Fin 100000, Tfull V c (ix2 r q) := rfl
theorem Qsum_apply (c : Dev nD) (q : Fin 64) :
    Qsum V c (ix2 0 q) = ∑ r : Fin 100000, Tfull V c (ix2 r q) * Tfull V c (ix2 r q) := rfl

/-- What point t writes back for the features is row block t of the feature array. -/
theorem flushed_eq5 (c : Dev nD) (t : Fin cfg8.N) :
    (dat8 V c).flushed 5 t = ((cfg8.win 5).blk t).view.read (Elt Ideal) (Tfull V c) := by
  show (cfg8.win 5).cut (grid8.coords t) ((dat8 V c).after 5 t) = _
  rw [after8_5, outsAt_eq V c t.val t.isLt]
  dsimp only
  obtain ⟨-, -, e2, e3, -⟩ := idx_facts t
  funext j
  obtain ⟨p, q, rfl⟩ : ∃ (p : Fin 5000) (q : Fin 64), j = ix2 p q := ⟨j 0, j 1, eq_ix2 j⟩
  have he : ((cfg8.win 5).blk t).view.emb (ix2 p q) = (ix2 ⟨5000 * t.val + p.val, lt_rows t p⟩ q : S100000x64.Idx) := by
    funext a; apply Fin.ext
    match a with
    | ⟨0, _⟩ => show win8_5.index t (0 : Fin 2) * 5000 + 1 * p.val = 5000 * t.val + p.val; omega
    | ⟨1, _⟩ => show win8_5.index t (1 : Fin 2) * 64 + 1 * q.val = q.val; omega
  rw [View.read_apply, he]
  exact (Tblk_apply V c t p q).trans (cast_eq _ _).symm

theorem mem_blk5 (t : Fin cfg8.N) (i : S100000x64.Idx) :
    i ∈ ((cfg8.win 5).blk t).view.set ↔ ∀ a : Fin 2, win8_5.index t a * S5000x64.size a ≤ (i a).val ∧ (i a).val < win8_5.index t a * S5000x64.size a + S5000x64.size a := by
  show i ∈ ((View.whole main_v193_0).slice (win8_5.rect t)).set ↔ _
  rw [View.set_slice_whole, Rect.mem_set_unit]
  exact Iff.rfl

/-- The feature array after the region. -/
theorem final5 (c : Dev nD) : (dat8 V c).arrAt 5 cfg8.N = Tfull V c :=
  (dat8 V c).arrAt_eq_of_cover 5 (Tfull V c) (fun t _ => flushed_eq5 V c t) fun i => by
    have hN : cfg8.N = 20 := N_8
    have hi0 : (i 0).val < 100000 := (i 0).isLt
    have hi1 : (i 1).val < 64 := (i 1).isLt
    refine ⟨⟨(i 0).val / 5000, by omega⟩, flush8_5 _, ?_⟩
    rw [mem_blk5]
    obtain ⟨-, -, e2, e3, -⟩ := idx_facts ⟨(i 0).val / 5000, by omega⟩
    intro a
    match a with
    | ⟨0, _⟩ => show win8_5.index _ (0 : Fin 2) * 5000 ≤ (i 0).val ∧ (i 0).val < win8_5.index _ (0 : Fin 2) * 5000 + 5000; rw [e2]; dsimp only; omega
    | ⟨1, _⟩ => show win8_5.index _ (1 : Fin 2) * 64 ≤ (i 1).val ∧ (i 1).val < win8_5.index _ (1 : Fin 2) * 64 + 64; rw [e3]; omega

/-- What the last point writes back for window 6: the whole row of the column sums of the features. -/
theorem flushed_eq6 (c : Dev nD) (t : Fin cfg8.N) (hf : (cfg8.win 6).flush t = true) :
    (dat8 V c).flushed 6 t = ((cfg8.win 6).blk t).view.read (Elt Ideal) (Ssum V c) := by
  have hN : cfg8.N = 20 := N_8
  have h19 : t.val = 19 := by have := (flush8_6 t).mp hf; have := t.isLt; omega
  show (cfg8.win 6).cut (grid8.coords t) ((dat8 V c).after 6 t) = _
  rw [after8_6, outsAt_eq V c t.val t.isLt]
  dsimp only
  obtain ⟨-, -, -, -, -, -, -, -, -, -, -, -, e0, e1, -⟩ := idx_facts t
  funext j
  obtain ⟨q, rfl⟩ := row_idx j
  have he : ((cfg8.win 6).blk t).view.emb (ix2 0 q) = (ix2 0 q : S1x64.Idx) := by
    funext a; apply Fin.ext
    match a with
    | ⟨0, _⟩ => show win8_6.index t (0 : Fin 2) * 1 + 1 * 0 = 0; omega
    | ⟨1, _⟩ => show win8_6.index t (1 : Fin 2) * 64 + 1 * q.val = q.val; omega
  rw [View.read_apply, he]
  refine Eq.trans ?_ (cast_eq _ _).symm
  show Srow V c (5000 * (t.val + 1)) (ix2 0 q) = Ssum V c (ix2 0 q)
  rw [Srow_apply, Ssum_apply, h19, show 5000 * (19 + 1) = 100000 from by norm_num, psum_full]

theorem mem_blk6 (t : Fin cfg8.N) (i : S1x64.Idx) :
    i ∈ ((cfg8.win 6).blk t).view.set ↔ ∀ a : Fin 2, win8_6.index t a * S1x64.size a ≤ (i a).val ∧ (i a).val < win8_6.index t a * S1x64.size a + S1x64.size a := by
  show i ∈ ((View.whole main_v193_1).slice (win8_6.rect t)).set ↔ _
  rw [View.set_slice_whole, Rect.mem_set_unit]
  exact Iff.rfl

/-- The row after the region: the column sums of the features. -/
theorem final6 (c : Dev nD) : (dat8 V c).arrAt 6 cfg8.N = Ssum V c :=
  (dat8 V c).arrAt_eq_of_cover 6 (Ssum V c) (fun t hf => flushed_eq6 V c t hf) fun i => by
    have hN : cfg8.N = 20 := N_8
    have hi0 : (i 0).val < 1 := (i 0).isLt
    have hi1 : (i 1).val < 64 := (i 1).isLt
    refine ⟨⟨19, by omega⟩, (flush8_6 _).mpr rfl, ?_⟩
    rw [mem_blk6]
    obtain ⟨-, -, -, -, -, -, -, -, -, -, -, -, e0, e1, -⟩ := idx_facts ⟨19, by omega⟩
    intro a
    match a with
    | ⟨0, _⟩ => show win8_6.index _ (0 : Fin 2) * 1 ≤ (i 0).val ∧ (i 0).val < win8_6.index _ (0 : Fin 2) * 1 + 1; rw [e0]; omega
    | ⟨1, _⟩ => show win8_6.index _ (1 : Fin 2) * 64 ≤ (i 1).val ∧ (i 1).val < win8_6.index _ (1 : Fin 2) * 64 + 64; rw [e1]; omega

/-- What the last point writes back for window 7: the whole row of the column sums of the squared features. -/
theorem flushed_eq7 (c : Dev nD) (t : Fin cfg8.N) (hf : (cfg8.win 7).flush t = true) :
    (dat8 V c).flushed 7 t = ((cfg8.win 7).blk t).view.read (Elt Ideal) (Qsum V c) := by
  have hN : cfg8.N = 20 := N_8
  have h19 : t.val = 19 := by have := (flush8_7 t).mp hf; have := t.isLt; omega
  show (cfg8.win 7).cut (grid8.coords t) ((dat8 V c).after 7 t) = _
  rw [after8_7, outsAt_eq V c t.val t.isLt]
  dsimp only
  obtain ⟨-, -, -, -, -, -, -, -, -, -, -, -, -, -, e0, e1⟩ := idx_facts t
  funext j
  obtain ⟨q, rfl⟩ := row_idx j
  have he : ((cfg8.win 7).blk t).view.emb (ix2 0 q) = (ix2 0 q : S1x64.Idx) := by
    funext a; apply Fin.ext
    match a with
    | ⟨0, _⟩ => show win8_7.index t (0 : Fin 2) * 1 + 1 * 0 = 0; omega
    | ⟨1, _⟩ => show win8_7.index t (1 : Fin 2) * 64 + 1 * q.val = q.val; omega
  rw [View.read_apply, he]
  refine Eq.trans ?_ (cast_eq _ _).symm
  show Qrow V c (5000 * (t.val + 1)) (ix2 0 q) = Qsum V c (ix2 0 q)
  rw [Qrow_apply, Qsum_apply, h19, show 5000 * (19 + 1) = 100000 from by norm_num, psum_full]

theorem mem_blk7 (t : Fin cfg8.N) (i : S1x64.Idx) :
    i ∈ ((cfg8.win 7).blk t).view.set ↔ ∀ a : Fin 2, win8_7.index t a * S1x64.size a ≤ (i a).val ∧ (i a).val < win8_7.index t a * S1x64.size a + S1x64.size a := by
  show i ∈ ((View.whole main_v193_2).slice (win8_7.rect t)).set ↔ _
  rw [View.set_slice_whole, Rect.mem_set_unit]
  exact Iff.rfl

/-- The row after the region: the column sums of the squared features. -/
theorem final7 (c : Dev nD) : (dat8 V c).arrAt 7 cfg8.N = Qsum V c :=
  (dat8 V c).arrAt_eq_of_cover 7 (Qsum V c) (fun t hf => flushed_eq7 V c t hf) fun i => by
    have hN : cfg8.N = 20 := N_8
    have hi0 : (i 0).val < 1 := (i 0).isLt
    have hi1 : (i 1).val < 64 := (i 1).isLt
    refine ⟨⟨19, by omega⟩, (flush8_7 _).mpr rfl, ?_⟩
    rw [mem_blk7]
    obtain ⟨-, -, -, -, -, -, -, -, -, -, -, -, -, -, e0, e1⟩ := idx_facts ⟨19, by omega⟩
    intro a
    match a with
    | ⟨0, _⟩ => show win8_7.index _ (0 : Fin 2) * 1 ≤ (i 0).val ∧ (i 0).val < win8_7.index _ (0 : Fin 2) * 1 + 1; rw [e0]; omega
    | ⟨1, _⟩ => show win8_7.index _ (1 : Fin 2) * 64 ≤ (i 1).val ∧ (i 1).val < win8_7.index _ (1 : Fin 2) * 64 + 64; rw [e1]; omega

end Cert.KernelIdeal.Stats8

end
-- ==== Proof.Norm9.lean ====
/-
  The normalisation region: every block of 5000 rows is sent to γ * (t - mean) * rsqrt (var + ε) + β with the four 1×64
  rows the same at every grid point, and the twenty blocks tile the array; so the array the region leaves is that
  normalisation of the whole feature array, entry by entry.
-/
import proofs.«169884_j31009663877671_1_alg».proof.Proof.Gen.KernelIdeal.Frame
import proofs.«169884_j31009663877671_1_alg».proof.Proof.GinSpec
import Idealize.ShloMosaic.Lib.Pipeline.Value
import Idealize.ShloMosaic.Lib.ValueIdx

noncomputable section

namespace Cert.KernelIdeal.Norm9

open Cert.KernelIdeal Cert.KernelIdeal.Gen Cert.Gin
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- The body's one store at an entry. -/
theorem pay_apply (x : Vec Ideal S5000x64 .f32) (var γ mean β : Vec Ideal S1x64 .f32) (p : Fin 5000) (q : Fin 64) :
    k9_pay1 (F := Ideal) x var γ mean β (ix2 p q)
      = normRows x mean var γ β (Ideal.ofBits .f32 0x3727C5AC#32) (ix2 p q) := by
  unfold k9_pay1
  simp only [shapeCast_self]
  rw [normRows_apply, addf_apply, mulf_apply, mulf_apply, subf_apply]
  rw [RowVector.broadcastTo_row (by decide), RowVector.broadcastTo_row (by decide), RowVector.broadcastTo_row (by decide),
    RowVector.broadcastTo_row (by decide)]
  rfl

variable (V : (c : Dev nD) → (b : Ref sig .tc) → Buf (Elt Ideal) ((c : Thread nD τ).loc b))

/-- The printed index maps over the grid: the row windows move with the point, the 1×64 rows stay. -/
theorem idx_facts : ∀ t : Fin cfg9.N, win9_0.index t (0 : Fin 2) = t.val ∧ win9_0.index t (1 : Fin 2) = 0
    ∧ win9_5.index t (0 : Fin 2) = t.val ∧ win9_5.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0 :=
  (by decide +kernel : ∀ t : Fin grid9.N, _)

theorem lt_rows (t : Fin cfg9.N) (p : Fin 5000) : 5000 * t.val + p.val < 100000 := by
  have hN : cfg9.N = 20 := N_9
  have := t.isLt; have := p.isLt; omega

/-- Row block t of the data window, read at (p, q). -/
theorem rd0 (c : Dev nD) (t : Fin cfg9.N) (p : Fin 5000) (q : Fin 64) :
    iblk9 V c 0 t (ix2 p q) = (V c (Pipeline.arrRef spec9 0) : S100000x64.Idx → EReal) (ix2 ⟨5000 * t.val + p.val, lt_rows t p⟩ q) := by
  obtain ⟨e0, e1, -⟩ := idx_facts t
  unfold iblk9
  rw [View.read_apply]
  refine congrArg (V c (Pipeline.arrRef spec9 0)) ?_
  funext a; apply Fin.ext
  match a with
  | ⟨0, _⟩ => show win9_0.index t (0 : Fin 2) * 5000 + 1 * p.val = 5000 * t.val + p.val; omega
  | ⟨1, _⟩ => show win9_0.index t (1 : Fin 2) * 64 + 1 * q.val = q.val; omega

/-- The 1×64 row of window 1, read at (0, q): the whole row is the block at every point. -/
theorem rd1 (c : Dev nD) (t : Fin cfg9.N) (q : Fin 64) :
    iblk9 V c 1 t (ix2 0 q) = (V c (Pipeline.arrRef spec9 1) : S1x64.Idx → EReal) (ix2 0 q) := by
  obtain ⟨-, -, -, -, e0, e1, -⟩ := idx_facts t
  unfold iblk9
  rw [View.read_apply]
  refine congrArg (V c (Pipeline.arrRef spec9 1)) ?_
  funext a; apply Fin.ext
  match a with
  | ⟨0, _⟩ => show win9_1.index t (0 : Fin 2) * 1 + 1 * 0 = 0; omega
  | ⟨1, _⟩ => show win9_1.index t (1 : Fin 2) * 64 + 1 * q.val = q.val; omega

/-- The 1×64 row of window 2, read at (0, q): the whole row is the block at every point. -/
theorem rd2 (c : Dev nD) (t : Fin cfg9.N) (q : Fin 64) :
    iblk9 V c 2 t (ix2 0 q) = (V c (Pipeline.arrRef spec9 2) : S1x64.Idx → EReal) (ix2 0 q) := by
  obtain ⟨-, -, -, -, -, -, e0, e1, -⟩ := idx_facts t
  unfold iblk9
  rw [View.read_apply]
  refine congrArg (V c (Pipeline.arrRef spec9 2)) ?_
  funext a; apply Fin.ext
  match a with
  | ⟨0, _⟩ => show win9_2.index t (0 : Fin 2) * 1 + 1 * 0 = 0; omega
  | ⟨1, _⟩ => show win9_2.index t (1 : Fin 2) * 64 + 1 * q.val = q.val; omega

/-- The 1×64 row of window 3, read at (0, q): the whole row is the block at every point. -/
theorem rd3 (c : Dev nD) (t : Fin cfg9.N) (q : Fin 64) :
    iblk9 V c 3 t (ix2 0 q) = (V c (Pipeline.arrRef spec9 3) : S1x64.Idx → EReal) (ix2 0 q) := by
  obtain ⟨-, -, -, -, -, -, -, -, e0, e1, -⟩ := idx_facts t
  unfold iblk9
  rw [View.read_apply]
  refine congrArg (V c (Pipeline.arrRef spec9 3)) ?_
  funext a; apply Fin.ext
  match a with
  | ⟨0, _⟩ => show win9_3.index t (0 : Fin 2) * 1 + 1 * 0 = 0; omega
  | ⟨1, _⟩ => show win9_3.index t (1 : Fin 2) * 64 + 1 * q.val = q.val; omega

/-- The 1×64 row of window 4, read at (0, q): the whole row is the block at every point. -/
theorem rd4 (c : Dev nD) (t : Fin cfg9.N) (q : Fin 64) :
    iblk9 V c 4 t (ix2 0 q) = (V c (Pipeline.arrRef spec9 4) : S1x64.Idx → EReal) (ix2 0 q) := by
  obtain ⟨-, -, -, -, -, -, -, -, -, -, e0, e1⟩ := idx_facts t
  unfold iblk9
  rw [View.read_apply]
  refine congrArg (V c (Pipeline.arrRef spec9 4)) ?_
  funext a; apply Fin.ext
  match a with
  | ⟨0, _⟩ => show win9_4.index t (0 : Fin 2) * 1 + 1 * 0 = 0; omega
  | ⟨1, _⟩ => show win9_4.index t (1 : Fin 2) * 64 + 1 * q.val = q.val; omega

/-- The array the region leaves in its output window where covered: the normalisation of the data array by the
    four rows, entry by entry. -/
abbrev G (c : Dev nD) : S100000x64.Idx → EReal :=
  normRows (V c (Pipeline.arrRef spec9 0)) (V c (Pipeline.arrRef spec9 1)) (V c (Pipeline.arrRef spec9 2))
    (V c (Pipeline.arrRef spec9 3)) (V c (Pipeline.arrRef spec9 4)) (Ideal.ofBits .f32 0x3727C5AC#32)

/-- What point t writes back is block t of that array. -/
theorem flushed_eq (c : Dev nD) (t : Fin cfg9.N) :
    (dat9 V c).flushed 5 t = ((cfg9.win 5).blk t).view.read (Elt Ideal) (G V c) := by
  show (cfg9.win 5).cut (grid9.coords t) ((dat9 V c).after 5 t) = _
  rw [after9_5]
  unfold out9_5
  rw [View.canon_unit_zero hz]
  simp only [View.ld_unit_zero (S := S5000x64) hz, View.ld_unit_zero (S := S1x64) hz]
  funext j
  obtain ⟨p, q, rfl⟩ : ∃ (p : Fin 5000) (q : Fin 64), j = ix2 p q := ⟨j 0, j 1, eq_ix2 j⟩
  refine (pay_apply _ _ _ _ _ p q).trans ?_
  obtain ⟨-, -, e2, e3, -⟩ := idx_facts t
  have he : ((cfg9.win 5).blk t).view.emb (ix2 p q) = (ix2 ⟨5000 * t.val + p.val, lt_rows t p⟩ q : S100000x64.Idx) := by
    funext a; apply Fin.ext
    match a with
    | ⟨0, _⟩ => show win9_5.index t (0 : Fin 2) * 5000 + 1 * p.val = 5000 * t.val + p.val; omega
    | ⟨1, _⟩ => show win9_5.index t (1 : Fin 2) * 64 + 1 * q.val = q.val; omega
  rw [View.read_apply, he, normRows_apply, rd0, rd1, rd2, rd3, rd4]
  exact (cast_eq _ _).symm

/-- An index of the array is in point t's block iff each coordinate is in the block's range on its axis. -/
theorem mem_blk (t : Fin cfg9.N) (i : S100000x64.Idx) :
    i ∈ ((cfg9.win 5).blk t).view.set ↔ ∀ a : Fin 2, win9_5.index t a * S5000x64.size a ≤ (i a).val ∧ (i a).val < win9_5.index t a * S5000x64.size a + S5000x64.size a := by
  show i ∈ ((View.whole main_v206).slice (win9_5.rect t)).set ↔ _
  rw [View.set_slice_whole, Rect.mem_set_unit]
  exact Iff.rfl

/-- The array after the region: the twenty row blocks tile it, so it is the normalisation everywhere. -/
theorem final (c : Dev nD) : (dat9 V c).arrAt 5 cfg9.N = G V c :=
  (dat9 V c).arrAt_eq_of_cover 5 (G V c) (fun t _ => flushed_eq V c t) fun i => by
    have hN : cfg9.N = 20 := N_9
    have hi0 : (i 0).val < 100000 := (i 0).isLt
    have hi1 : (i 1).val < 64 := (i 1).isLt
    refine ⟨⟨(i 0).val / 5000, by omega⟩, flush9_5 _, ?_⟩
    rw [mem_blk]
    obtain ⟨-, -, e2, e3, -⟩ := idx_facts ⟨(i 0).val / 5000, by omega⟩
    intro a
    match a with
    | ⟨0, _⟩ => show win9_5.index _ (0 : Fin 2) * 5000 ≤ (i 0).val ∧ (i 0).val < win9_5.index _ (0 : Fin 2) * 5000 + 5000; rw [e2]; dsimp only; omega
    | ⟨1, _⟩ => show win9_5.index _ (1 : Fin 2) * 64 ≤ (i 1).val ∧ (i 1).val < win9_5.index _ (1 : Fin 2) * 64 + 64; rw [e3]; omega

end Cert.KernelIdeal.Norm9

end
-- ==== Proof.KChain5.lean ====
/-
  The kernel's program read boundary by boundary: each stretch of host operations from what the region before left, each
  region's arrays from the stretch before it, so that every block's output is the kernel's block function of the block's
  input and of the argument arrays, and the argument arrays are found unchanged at every boundary.
-/
import proofs.«169884_j31009663877671_1_alg».proof.Proof.Gen.KernelIdeal.Frame
import proofs.«169884_j31009663877671_1_alg».proof.Proof.Stats8Fin
import proofs.«169884_j31009663877671_1_alg».proof.Proof.Norm9
import proofs.«169884_j31009663877671_1_alg».proof.Proof.KerForms
import Idealize.ShloMosaic.Lib.StableHlo.Run

set_option maxRecDepth 16384

noncomputable section

namespace Cert.KernelIdeal.Chain

open Cert.KernelIdeal Cert.KernelIdeal.Gen Cert.Gin Cert.ReferenceIdeal.Forms
open Idealize.ShloMosaic Idealize.ShloMosaic.TcCoe Idealize.SL.Sem Idealize.ShloMosaic.ValueIdx

variable (m : (ℓ : Loc nD τ sig) → Buf (Elt Ideal) ℓ) (ρ : Dev nD → PrngReg)

/-! ## Block 5 -/

set_option maxHeartbeats 4000000 in
theorem b5_agg (c : Dev nD) : W17 m ρ c (Proc.devRef .tc main_v190) = agg64 (W16 m ρ c (Proc.devRef .tc main_v163)) (W16 m ρ c (Proc.devRef .tc main_arg1)) := by
  show StableHlo.after hostOps8 (W16 m ρ c) (Proc.devRef .tc main_v190) = _
  after_results_simp
  rfl

set_option maxHeartbeats 4000000 in
theorem b5_W1 (c : Dev nD) : W17 m ρ c (Proc.devRef .tc main_v165) = slab (W16 m ρ c (Proc.devRef .tc main_arg7)) ![3, 0, 0] Cert.ReferenceIdeal.Facts₀.slices_S4x64x64_S1x64x64_3_0_0 := by
  show StableHlo.after hostOps8 (W16 m ρ c) (Proc.devRef .tc main_v165) = _
  after_results_simp
  rfl

set_option maxHeartbeats 4000000 in
theorem b5_b1 (c : Dev nD) : W17 m ρ c (Proc.devRef .tc main_v191) = asRow (row4 (W16 m ρ c (Proc.devRef .tc main_arg8)) ![3, 0] Cert.ReferenceIdeal.Facts₀.slices_S4x64_S1x64_3_0) := by
  show StableHlo.after hostOps8 (W16 m ρ c) (Proc.devRef .tc main_v191) = _
  after_results_simp
  rfl

set_option maxHeartbeats 4000000 in
theorem b5_W2 (c : Dev nD) : W17 m ρ c (Proc.devRef .tc main_v169) = slab (W16 m ρ c (Proc.devRef .tc main_arg9)) ![3, 0, 0] Cert.ReferenceIdeal.Facts₀.slices_S4x64x64_S1x64x64_3_0_0 := by
  show StableHlo.after hostOps8 (W16 m ρ c) (Proc.devRef .tc main_v169) = _
  after_results_simp
  rfl

set_option maxHeartbeats 4000000 in
theorem b5_b2 (c : Dev nD) : W17 m ρ c (Proc.devRef .tc main_v192) = asRow (row4 (W16 m ρ c (Proc.devRef .tc main_arg10)) ![3, 0] Cert.ReferenceIdeal.Facts₀.slices_S4x64_S1x64_3_0) := by
  show StableHlo.after hostOps8 (W16 m ρ c) (Proc.devRef .tc main_v192) = _
  after_results_simp
  rfl

set_option maxHeartbeats 4000000 in
theorem b5_g (c : Dev nD) : W17 m ρ c (Proc.devRef .tc main_v173) = row5 (W16 m ρ c (Proc.devRef .tc main_arg11)) ![4, 0] Cert.ReferenceIdeal.Facts₀.slices_S5x64_S1x64_4_0 := by
  show StableHlo.after hostOps8 (W16 m ρ c) (Proc.devRef .tc main_v173) = _
  after_results_simp
  rfl

set_option maxHeartbeats 4000000 in
theorem b5_b (c : Dev nD) : W17 m ρ c (Proc.devRef .tc main_v175) = row5 (W16 m ρ c (Proc.devRef .tc main_arg12)) ![4, 0] Cert.ReferenceIdeal.Facts₀.slices_S5x64_S1x64_4_0 := by
  show StableHlo.after hostOps8 (W16 m ρ c) (Proc.devRef .tc main_v175) = _
  after_results_simp
  rfl

/-- The feature array of block 5. -/
abbrev T5 (c : Dev nD) : FVec Ideal Cert.ReferenceIdeal.S100000x64 .f32 :=
  mlp (agg64 (W16 m ρ c (Proc.devRef .tc main_v163)) (W16 m ρ c (Proc.devRef .tc main_arg1))) (slab (W16 m ρ c (Proc.devRef .tc main_arg7)) ![3, 0, 0] Cert.ReferenceIdeal.Facts₀.slices_S4x64x64_S1x64x64_3_0_0) (asRow (row4 (W16 m ρ c (Proc.devRef .tc main_arg8)) ![3, 0] Cert.ReferenceIdeal.Facts₀.slices_S4x64_S1x64_3_0)) (slab (W16 m ρ c (Proc.devRef .tc main_arg9)) ![3, 0, 0] Cert.ReferenceIdeal.Facts₀.slices_S4x64x64_S1x64x64_3_0_0) (asRow (row4 (W16 m ρ c (Proc.devRef .tc main_arg10)) ![3, 0] Cert.ReferenceIdeal.Facts₀.slices_S4x64_S1x64_3_0))

theorem b5_Tf (c : Dev nD) : Stats8.Tfull (V17 m ρ) c = T5 m ρ c := by
  show mlp (W17 m ρ c (Proc.devRef .tc main_v190)) (W17 m ρ c (Proc.devRef .tc main_v165)) (W17 m ρ c (Proc.devRef .tc main_v191)) (W17 m ρ c (Proc.devRef .tc main_v169)) (W17 m ρ c (Proc.devRef .tc main_v192)) = _
  rw [b5_agg, b5_W1, b5_b1, b5_W2, b5_b2]

theorem b5_T (c : Dev nD) : W18 m ρ c (Proc.devRef .tc main_v193_0) = T5 m ρ c :=
  ((hF8 m ρ c 5).symm.trans (Stats8.final5 (V17 m ρ) c)).trans (b5_Tf m ρ c)

theorem b5_S (c : Dev nD) : W18 m ρ c (Proc.devRef .tc main_v193_1) = sumRow (T5 m ρ c) :=
  ((hF8 m ρ c 6).symm.trans (Stats8.final6 (V17 m ρ) c)).trans (congrArg colSumRow (b5_Tf m ρ c))

theorem b5_Q (c : Dev nD) : W18 m ρ c (Proc.devRef .tc main_v193_2) = sqRow (T5 m ρ c) :=
  ((hF8 m ρ c 7).symm.trans (Stats8.final7 (V17 m ρ) c)).trans (congrArg colSqRow (b5_Tf m ρ c))

theorem b5_g' (c : Dev nD) : W18 m ρ c (Proc.devRef .tc main_v173) = row5 (W16 m ρ c (Proc.devRef .tc main_arg11)) ![4, 0] Cert.ReferenceIdeal.Facts₀.slices_S5x64_S1x64_4_0 :=
  (W18_of_ne m ρ c main_v173 (by decide)).trans (b5_g m ρ c)

theorem b5_b' (c : Dev nD) : W18 m ρ c (Proc.devRef .tc main_v175) = row5 (W16 m ρ c (Proc.devRef .tc main_arg12)) ![4, 0] Cert.ReferenceIdeal.Facts₀.slices_S5x64_S1x64_4_0 :=
  (W18_of_ne m ρ c main_v175 (by decide)).trans (b5_b m ρ c)

set_option maxHeartbeats 4000000 in
theorem b5_Tk (c : Dev nD) : W19 m ρ c (Proc.devRef .tc main_v193_0) = W18 m ρ c (Proc.devRef .tc main_v193_0) := by
  show StableHlo.after hostOps9 (W18 m ρ c) (Proc.devRef .tc main_v193_0) = _
  after_results_simp

set_option maxHeartbeats 4000000 in
theorem b5_mean (c : Dev nD) : W19 m ρ c (Proc.devRef .tc main_v202) = asRow (meanK (W18 m ρ c (Proc.devRef .tc main_v193_1))) := by
  show StableHlo.after hostOps9 (W18 m ρ c) (Proc.devRef .tc main_v202) = _
  after_results_simp
  rfl

set_option maxHeartbeats 4000000 in
theorem b5_var (c : Dev nD) : W19 m ρ c (Proc.devRef .tc main_v203) = asRow (varK (W18 m ρ c (Proc.devRef .tc main_v193_1)) (W18 m ρ c (Proc.devRef .tc main_v193_2))) := by
  show StableHlo.after hostOps9 (W18 m ρ c) (Proc.devRef .tc main_v203) = _
  after_results_simp
  rfl

set_option maxHeartbeats 4000000 in
theorem b5_grow (c : Dev nD) : W19 m ρ c (Proc.devRef .tc main_v204) = asRow (W18 m ρ c (Proc.devRef .tc main_v173)) := by
  show StableHlo.after hostOps9 (W18 m ρ c) (Proc.devRef .tc main_v204) = _
  after_results_simp
  rfl

set_option maxHeartbeats 4000000 in
theorem b5_brow (c : Dev nD) : W19 m ρ c (Proc.devRef .tc main_v205) = asRow (W18 m ρ c (Proc.devRef .tc main_v175)) := by
  show StableHlo.after hostOps9 (W18 m ρ c) (Proc.devRef .tc main_v205) = _
  after_results_simp
  rfl

/-- What block 5 leaves: the kernel's block function of what it found. -/
theorem b5_out (c : Dev nD) : W20 m ρ c (Proc.devRef .tc main_v206)
      = kblkN (W16 m ρ c (Proc.devRef .tc main_v163)) (W16 m ρ c (Proc.devRef .tc main_arg1)) (W16 m ρ c (Proc.devRef .tc main_arg7)) (W16 m ρ c (Proc.devRef .tc main_arg8)) (W16 m ρ c (Proc.devRef .tc main_arg9)) (W16 m ρ c (Proc.devRef .tc main_arg10)) (W16 m ρ c (Proc.devRef .tc main_arg11)) (W16 m ρ c (Proc.devRef .tc main_arg12))
        ![3, 0, 0] Cert.ReferenceIdeal.Facts₀.slices_S4x64x64_S1x64x64_3_0_0 ![3, 0] Cert.ReferenceIdeal.Facts₀.slices_S4x64_S1x64_3_0 ![4, 0] Cert.ReferenceIdeal.Facts₀.slices_S5x64_S1x64_4_0 := by
  refine ((hF9 m ρ c 5).symm.trans (Norm9.final (V19 m ρ) c)).trans ?_
  show normRows (W19 m ρ c (Proc.devRef .tc main_v193_0)) (W19 m ρ c (Proc.devRef .tc main_v202)) (W19 m ρ c (Proc.devRef .tc main_v203)) (W19 m ρ c (Proc.devRef .tc main_v204)) (W19 m ρ c (Proc.devRef .tc main_v205)) (Ideal.ofBits .f32 0x3727C5AC#32) = _
  rw [b5_Tk, b5_mean, b5_var, b5_grow, b5_brow, b5_T, b5_S, b5_Q, b5_g', b5_b']
  rfl

theorem k5_main_arg1 (c : Dev nD) : W20 m ρ c (Proc.devRef .tc main_arg1) = W16 m ρ c (Proc.devRef .tc main_arg1) :=
  calc W20 m ρ c (Proc.devRef .tc main_arg1)
    _ = W19 m ρ c (Proc.devRef .tc main_arg1) := W20_of_ne m ρ c main_arg1 (by decide)
    _ = W18 m ρ c (Proc.devRef .tc main_arg1) := by show StableHlo.after hostOps9 (W18 m ρ c) (Proc.devRef .tc main_arg1) = _; after_results_simp
    _ = W17 m ρ c (Proc.devRef .tc main_arg1) := W18_of_ne m ρ c main_arg1 (by decide)
    _ = W16 m ρ c (Proc.devRef .tc main_arg1) := by show StableHlo.after hostOps8 (W16 m ρ c) (Proc.devRef .tc main_arg1) = _; after_results_simp

theorem k5_main_arg2 (c : Dev nD) : W20 m ρ c (Proc.devRef .tc main_arg2) = W16 m ρ c (Proc.devRef .tc main_arg2) :=
  calc W20 m ρ c (Proc.devRef .tc main_arg2)
    _ = W19 m ρ c (Proc.devRef .tc main_arg2) := W20_of_ne m ρ c main_arg2 (by decide)
    _ = W18 m ρ c (Proc.devRef .tc main_arg2) := by show StableHlo.after hostOps9 (W18 m ρ c) (Proc.devRef .tc main_arg2) = _; after_results_simp
    _ = W17 m ρ c (Proc.devRef .tc main_arg2) := W18_of_ne m ρ c main_arg2 (by decide)
    _ = W16 m ρ c (Proc.devRef .tc main_arg2) := by show StableHlo.after hostOps8 (W16 m ρ c) (Proc.devRef .tc main_arg2) = _; after_results_simp

theorem k5_main_arg7 (c : Dev nD) : W20 m ρ c (Proc.devRef .tc main_arg7) = W16 m ρ c (Proc.devRef .tc main_arg7) :=
  calc W20 m ρ c (Proc.devRef .tc main_arg7)
    _ = W19 m ρ c (Proc.devRef .tc main_arg7) := W20_of_ne m ρ c main_arg7 (by decide)
    _ = W18 m ρ c (Proc.devRef .tc main_arg7) := by show StableHlo.after hostOps9 (W18 m ρ c) (Proc.devRef .tc main_arg7) = _; after_results_simp
    _ = W17 m ρ c (Proc.devRef .tc main_arg7) := W18_of_ne m ρ c main_arg7 (by decide)
    _ = W16 m ρ c (Proc.devRef .tc main_arg7) := by show StableHlo.after hostOps8 (W16 m ρ c) (Proc.devRef .tc main_arg7) = _; after_results_simp

theorem k5_main_arg8 (c : Dev nD) : W20 m ρ c (Proc.devRef .tc main_arg8) = W16 m ρ c (Proc.devRef .tc main_arg8) :=
  calc W20 m ρ c (Proc.devRef .tc main_arg8)
    _ = W19 m ρ c (Proc.devRef .tc main_arg8) := W20_of_ne m ρ c main_arg8 (by decide)
    _ = W18 m ρ c (Proc.devRef .tc main_arg8) := by show StableHlo.after hostOps9 (W18 m ρ c) (Proc.devRef .tc main_arg8) = _; after_results_simp
    _ = W17 m ρ c (Proc.devRef .tc main_arg8) := W18_of_ne m ρ c main_arg8 (by decide)
    _ = W16 m ρ c (Proc.devRef .tc main_arg8) := by show StableHlo.after hostOps8 (W16 m ρ c) (Proc.devRef .tc main_arg8) = _; after_results_simp

theorem k5_main_arg9 (c : Dev nD) : W20 m ρ c (Proc.devRef .tc main_arg9) = W16 m ρ c (Proc.devRef .tc main_arg9) :=
  calc W20 m ρ c (Proc.devRef .tc main_arg9)
    _ = W19 m ρ c (Proc.devRef .tc main_arg9) := W20_of_ne m ρ c main_arg9 (by decide)
    _ = W18 m ρ c (Proc.devRef .tc main_arg9) := by show StableHlo.after hostOps9 (W18 m ρ c) (Proc.devRef .tc main_arg9) = _; after_results_simp
    _ = W17 m ρ c (Proc.devRef .tc main_arg9) := W18_of_ne m ρ c main_arg9 (by decide)
    _ = W16 m ρ c (Proc.devRef .tc main_arg9) := by show StableHlo.after hostOps8 (W16 m ρ c) (Proc.devRef .tc main_arg9) = _; after_results_simp

theorem k5_main_arg10 (c : Dev nD) : W20 m ρ c (Proc.devRef .tc main_arg10) = W16 m ρ c (Proc.devRef .tc main_arg10) :=
  calc W20 m ρ c (Proc.devRef .tc main_arg10)
    _ = W19 m ρ c (Proc.devRef .tc main_arg10) := W20_of_ne m ρ c main_arg10 (by decide)
    _ = W18 m ρ c (Proc.devRef .tc main_arg10) := by show StableHlo.after hostOps9 (W18 m ρ c) (Proc.devRef .tc main_arg10) = _; after_results_simp
    _ = W17 m ρ c (Proc.devRef .tc main_arg10) := W18_of_ne m ρ c main_arg10 (by decide)
    _ = W16 m ρ c (Proc.devRef .tc main_arg10) := by show StableHlo.after hostOps8 (W16 m ρ c) (Proc.devRef .tc main_arg10) = _; after_results_simp

theorem k5_main_arg11 (c : Dev nD) : W20 m ρ c (Proc.devRef .tc main_arg11) = W16 m ρ c (Proc.devRef .tc main_arg11) :=
  calc W20 m ρ c (Proc.devRef .tc main_arg11)
    _ = W19 m ρ c (Proc.devRef .tc main_arg11) := W20_of_ne m ρ c main_arg11 (by decide)
    _ = W18 m ρ c (Proc.devRef .tc main_arg11) := by show StableHlo.after hostOps9 (W18 m ρ c) (Proc.devRef .tc main_arg11) = _; after_results_simp
    _ = W17 m ρ c (Proc.devRef .tc main_arg11) := W18_of_ne m ρ c main_arg11 (by decide)
    _ = W16 m ρ c (Proc.devRef .tc main_arg11) := by show StableHlo.after hostOps8 (W16 m ρ c) (Proc.devRef .tc main_arg11) = _; after_results_simp

theorem k5_main_arg12 (c : Dev nD) : W20 m ρ c (Proc.devRef .tc main_arg12) = W16 m ρ c (Proc.devRef .tc main_arg12) :=
  calc W20 m ρ c (Proc.devRef .tc main_arg12)
    _ = W19 m ρ c (Proc.devRef .tc main_arg12) := W20_of_ne m ρ c main_arg12 (by decide)
    _ = W18 m ρ c (Proc.devRef .tc main_arg12) := by show StableHlo.after hostOps9 (W18 m ρ c) (Proc.devRef .tc main_arg12) = _; after_results_simp
    _ = W17 m ρ c (Proc.devRef .tc main_arg12) := W18_of_ne m ρ c main_arg12 (by decide)
    _ = W16 m ρ c (Proc.devRef .tc main_arg12) := by show StableHlo.after hostOps8 (W16 m ρ c) (Proc.devRef .tc main_arg12) = _; after_results_simp

theorem k5_main_arg13 (c : Dev nD) : W20 m ρ c (Proc.devRef .tc main_arg13) = W16 m ρ c (Proc.devRef .tc main_arg13) :=
  calc W20 m ρ c (Proc.devRef .tc main_arg13)
    _ = W19 m ρ c (Proc.devRef .tc main_arg13) := W20_of_ne m ρ c main_arg13 (by decide)
    _ = W18 m ρ c (Proc.devRef .tc main_arg13) := by show StableHlo.after hostOps9 (W18 m ρ c) (Proc.devRef .tc main_arg13) = _; after_results_simp
    _ = W17 m ρ c (Proc.devRef .tc main_arg13) := W18_of_ne m ρ c main_arg13 (by decide)
    _ = W16 m ρ c (Proc.devRef .tc main_arg13) := by show StableHlo.after hostOps8 (W16 m ρ c) (Proc.devRef .tc main_arg13) = _; after_results_simp

theorem k5_main_arg14 (c : Dev nD) : W20 m ρ c (Proc.devRef .tc main_arg14) = W16 m ρ c (Proc.devRef .tc main_arg14) :=
  calc W20 m ρ c (Proc.devRef .tc main_arg14)
    _ = W19 m ρ c (Proc.devRef .tc main_arg14) := W20_of_ne m ρ c main_arg14 (by decide)
    _ = W18 m ρ c (Proc.devRef .tc main_arg14) := by show StableHlo.after hostOps9 (W18 m ρ c) (Proc.devRef .tc main_arg14) = _; after_results_simp
    _ = W17 m ρ c (Proc.devRef .tc main_arg14) := W18_of_ne m ρ c main_arg14 (by decide)
    _ = W16 m ρ c (Proc.devRef .tc main_arg14) := by show StableHlo.after hostOps8 (W16 m ρ c) (Proc.devRef .tc main_arg14) = _; after_results_simp

theorem k5_main_arg15 (c : Dev nD) : W20 m ρ c (Proc.devRef .tc main_arg15) = W16 m ρ c (Proc.devRef .tc main_arg15) :=
  calc W20 m ρ c (Proc.devRef .tc main_arg15)
    _ = W19 m ρ c (Proc.devRef .tc main_arg15) := W20_of_ne m ρ c main_arg15 (by decide)
    _ = W18 m ρ c (Proc.devRef .tc main_arg15) := by show StableHlo.after hostOps9 (W18 m ρ c) (Proc.devRef .tc main_arg15) = _; after_results_simp
    _ = W17 m ρ c (Proc.devRef .tc main_arg15) := W18_of_ne m ρ c main_arg15 (by decide)
    _ = W16 m ρ c (Proc.devRef .tc main_arg15) := by show StableHlo.after hostOps8 (W16 m ρ c) (Proc.devRef .tc main_arg15) = _; after_results_simp

theorem k5_main_arg16 (c : Dev nD) : W20 m ρ c (Proc.devRef .tc main_arg16) = W16 m ρ c (Proc.devRef .tc main_arg16) :=
  calc W20 m ρ c (Proc.devRef .tc main_arg16)
    _ = W19 m ρ c (Proc.devRef .tc main_arg16) := W20_of_ne m ρ c main_arg16 (by decide)
    _ = W18 m ρ c (Proc.devRef .tc main_arg16) := by show StableHlo.after hostOps9 (W18 m ρ c) (Proc.devRef .tc main_arg16) = _; after_results_simp
    _ = W17 m ρ c (Proc.devRef .tc main_arg16) := W18_of_ne m ρ c main_arg16 (by decide)
    _ = W16 m ρ c (Proc.devRef .tc main_arg16) := by show StableHlo.after hostOps8 (W16 m ρ c) (Proc.devRef .tc main_arg16) = _; after_results_simp

end Cert.KernelIdeal.Chain

end
-- ==== Proof.Fc10.lean ====
/-
  The head region: every block of 512 pooled rows goes through relu (g · W1 + b1) · W2 + b2, so the array it leaves is the
  head of the whole pooled array, row by row.
-/
import proofs.«169884_j31009663877671_1_alg».proof.Proof.Gen.KernelIdeal.Frame
import proofs.«169884_j31009663877671_1_alg».proof.Proof.GinSpec
import Idealize.ShloMosaic.Lib.Pipeline.Value
import Idealize.ShloMosaic.Lib.ValueIdx

noncomputable section

namespace Cert.KernelIdeal.Fc10

open Cert.KernelIdeal Cert.KernelIdeal.Gen Cert.Gin Cert.RowAffine
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

theorem zero_word : (Scalar.ofBits (F := Ideal) .f32 0x00000000#32 : EReal) = 0 := Ideal.ofBits_zero_f32

/-- The body's one store: the head of the loaded block. -/
theorem pay_eq (x0 : Vec Ideal S512x64 .f32) (x1 : Vec Ideal S64x64 .f32) (x2 : Vec Ideal S1x64 .f32)
    (x3 : Vec Ideal S64x32 .f32) (x4 : Vec Ideal S1x32 .f32) :
    k10_pay1 (F := Ideal) x0 x1 x2 x3 x4 = head x0 x1 x2 x3 x4 := by
  funext j
  obtain ⟨p, q, rfl⟩ : ∃ (p : Fin 512) (q : Fin 32), j = ix2 p q := ⟨j 0, j 1, eq_ix2 j⟩
  unfold k10_pay1
  rw [shapeCast_self x0]
  unfold head
  refine (RowAffine.kernel_apply _ rfl (by decide) none _ x3 x4 _ _ _ p q).trans ?_
  refine rowAffine_row_congr _ _ x3 x4 p p (fun c => ?_) q
  rw [maximumf_apply, broadcast_apply, zero_word, relu_apply]
  exact congrArg (max · 0) (RowAffine.kernel_apply _ rfl (by decide) none x0 x1 x2 _ _ _ p c)

variable (V : (c : Dev nD) → (b : Ref sig .tc) → Buf (Elt Ideal) ((c : Thread nD τ).loc b))

theorem idx_facts : ∀ t : Fin cfg10.N, win10_0.index t (0 : Fin 2) = t.val ∧ win10_0.index t (1 : Fin 2) = 0
    ∧ win10_5.index t (0 : Fin 2) = t.val ∧ win10_5.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0 :=
  (by decide +kernel : ∀ t : Fin grid10.N, _)

theorem lt_rows (t : Fin cfg10.N) (p : Fin 512) : 512 * t.val + p.val < 2048 := by
  have hN : cfg10.N = 4 := N_10
  have := t.isLt; have := p.isLt; omega

theorem rd0 (c : Dev nD) (t : Fin cfg10.N) (p : Fin 512) (k : Fin 64) :
    iblk10 V c 0 t (ix2 p k) = (V c (Pipeline.arrRef spec10 0) : S2048x64.Idx → EReal) (ix2 ⟨512 * t.val + p.val, lt_rows t p⟩ k) := by
  obtain ⟨e0, e1, -⟩ := idx_facts t
  unfold iblk10
  rw [View.read_apply]
  refine congrArg (V c (Pipeline.arrRef spec10 0)) ?_
  funext a; apply Fin.ext
  match a with
  | ⟨0, _⟩ => show win10_0.index t (0 : Fin 2) * 512 + 1 * p.val = 512 * t.val + p.val; omega
  | ⟨1, _⟩ => show win10_0.index t (1 : Fin 2) * 64 + 1 * k.val = k.val; omega

theorem rdW1 (c : Dev nD) (t : Fin cfg10.N) : iblk10 V c 1 t = (V c (Pipeline.arrRef spec10 1) : S64x64.Idx → EReal) := by
  obtain ⟨-, -, -, -, e0, e1, -⟩ := idx_facts t
  funext j
  unfold iblk10
  rw [View.read_apply]
  refine congrArg (V c (Pipeline.arrRef spec10 1)) ?_
  funext a; apply Fin.ext
  match a with
  | ⟨0, _⟩ => show win10_1.index t (0 : Fin 2) * 64 + 1 * (j 0).val = (j 0).val; omega
  | ⟨1, _⟩ => show win10_1.index t (1 : Fin 2) * 64 + 1 * (j 1).val = (j 1).val; omega

theorem rdB1 (c : Dev nD) (t : Fin cfg10.N) : iblk10 V c 2 t = (V c (Pipeline.arrRef spec10 2) : S1x64.Idx → EReal) := by
  obtain ⟨-, -, -, -, -, -, e0, e1, -⟩ := idx_facts t
  funext j
  unfold iblk10
  rw [View.read_apply]
  refine congrArg (V c (Pipeline.arrRef spec10 2)) ?_
  funext a; apply Fin.ext
  match a with
  | ⟨0, _⟩ => show win10_2.index t (0 : Fin 2) * 1 + 1 * (j 0).val = (j 0).val; omega
  | ⟨1, _⟩ => show win10_2.index t (1 : Fin 2) * 64 + 1 * (j 1).val = (j 1).val; omega

theorem rdW2 (c : Dev nD) (t : Fin cfg10.N) : iblk10 V c 3 t = (V c (Pipeline.arrRef spec10 3) : S64x32.Idx → EReal) := by
  obtain ⟨-, -, -, -, -, -, -, -, e0, e1, -⟩ := idx_facts t
  funext j
  unfold iblk10
  rw [View.read_apply]
  refine congrArg (V c (Pipeline.arrRef spec10 3)) ?_
  funext a; apply Fin.ext
  match a with
  | ⟨0, _⟩ => show win10_3.index t (0 : Fin 2) * 64 + 1 * (j 0).val = (j 0).val; omega
  | ⟨1, _⟩ => show win10_3.index t (1 : Fin 2) * 32 + 1 * (j 1).val = (j 1).val; omega

theorem rdB2 (c : Dev nD) (t : Fin cfg10.N) : iblk10 V c 4 t = (V c (Pipeline.arrRef spec10 4) : S1x32.Idx → EReal) := by
  obtain ⟨-, -, -, -, -, -, -, -, -, -, e0, e1⟩ := idx_facts t
  funext j
  unfold iblk10
  rw [View.read_apply]
  refine congrArg (V c (Pipeline.arrRef spec10 4)) ?_
  funext a; apply Fin.ext
  match a with
  | ⟨0, _⟩ => show win10_4.index t (0 : Fin 2) * 1 + 1 * (j 0).val = (j 0).val; omega
  | ⟨1, _⟩ => show win10_4.index t (1 : Fin 2) * 32 + 1 * (j 1).val = (j 1).val; omega

/-- The array the region leaves: the head of the pooled array. -/
def G (c : Dev nD) : S2048x32.Idx → EReal :=
  head (V c (Pipeline.arrRef spec10 0) : S2048x64.Idx → EReal) (V c (Pipeline.arrRef spec10 1) : S64x64.Idx → EReal)
    (V c (Pipeline.arrRef spec10 2) : S1x64.Idx → EReal) (V c (Pipeline.arrRef spec10 3) : S64x32.Idx → EReal)
    (V c (Pipeline.arrRef spec10 4) : S1x32.Idx → EReal)

theorem flushed_eq (c : Dev nD) (t : Fin cfg10.N) :
    (dat10 V c).flushed 5 t = ((cfg10.win 5).blk t).view.read (Elt Ideal) (G V c) := by
  show (cfg10.win 5).cut (grid10.coords t) ((dat10 V c).after 5 t) = _
  rw [after10_5]
  unfold out10_5
  rw [View.canon_unit_zero hz]
  simp only [View.ld_unit_zero (S := S512x64) hz, View.ld_unit_zero (S := S64x64) hz, View.ld_unit_zero (S := S1x64) hz,
    View.ld_unit_zero (S := S64x32) hz, View.ld_unit_zero (S := S1x32) hz]
  funext j
  obtain ⟨p, q, rfl⟩ : ∃ (p : Fin 512) (q : Fin 32), j = ix2 p q := ⟨j 0, j 1, eq_ix2 j⟩
  refine (congrFun (pay_eq _ _ _ _ _) _).trans ?_
  obtain ⟨-, -, e2, e3, -⟩ := idx_facts t
  have he : ((cfg10.win 5).blk t).view.emb (ix2 p q) = (ix2 ⟨512 * t.val + p.val, lt_rows t p⟩ q : S2048x32.Idx) := by
    funext a; apply Fin.ext
    match a with
    | ⟨0, _⟩ => show win10_5.index t (0 : Fin 2) * 512 + 1 * p.val = 512 * t.val + p.val; omega
    | ⟨1, _⟩ => show win10_5.index t (1 : Fin 2) * 32 + 1 * q.val = q.val; omega
  rw [View.read_apply, he, rdW1 V c t, rdB1 V c t, rdW2 V c t, rdB2 V c t]
  refine Eq.trans ?_ (cast_eq _ _).symm
  unfold G
  exact head_row_congr _ _ _ _ _ _ p ⟨512 * t.val + p.val, lt_rows t p⟩ (fun k => rd0 V c t p k) q

theorem mem_blk (t : Fin cfg10.N) (i : S2048x32.Idx) :
    i ∈ ((cfg10.win 5).blk t).view.set ↔ ∀ a : Fin 2, win10_5.index t a * S512x32.size a ≤ (i a).val ∧ (i a).val < win10_5.index t a * S512x32.size a + S512x32.size a := by
  show i ∈ ((View.whole main_v212).slice (win10_5.rect t)).set ↔ _
  rw [View.set_slice_whole, Rect.mem_set_unit]
  exact Iff.rfl

theorem final (c : Dev nD) : (dat10 V c).arrAt 5 cfg10.N = G V c :=
  (dat10 V c).arrAt_eq_of_cover 5 (G V c) (fun t _ => flushed_eq V c t) fun i => by
    have hN : cfg10.N = 4 := N_10
    have hi0 : (i 0).val < 2048 := (i 0).isLt
    have hi1 : (i 1).val < 32 := (i 1).isLt
    refine ⟨⟨(i 0).val / 512, by omega⟩, flush10_5 _, ?_⟩
    rw [mem_blk]
    obtain ⟨-, -, e2, e3, -⟩ := idx_facts ⟨(i 0).val / 512, by omega⟩
    intro a
    match a with
    | ⟨0, _⟩ => show win10_5.index _ (0 : Fin 2) * 512 ≤ (i 0).val ∧ (i 0).val < win10_5.index _ (0 : Fin 2) * 512 + 512; rw [e2]; dsimp only; omega
    | ⟨1, _⟩ => show win10_5.index _ (1 : Fin 2) * 32 ≤ (i 1).val ∧ (i 1).val < win10_5.index _ (1 : Fin 2) * 32 + 32; rw [e3]; omega

end Cert.KernelIdeal.Fc10

end
-- ==== Proof.KChain.lean ====
/-
  The kernel's program read boundary by boundary: each stretch of host operations from what the region before left, each
  region's arrays from the stretch before it, so that every block's output is the kernel's block function of the block's
  input and of the argument arrays, and the argument arrays are found unchanged at every boundary.
-/
import proofs.«169884_j31009663877671_1_alg».proof.Proof.KChain1
import proofs.«169884_j31009663877671_1_alg».proof.Proof.KChain2
import proofs.«169884_j31009663877671_1_alg».proof.Proof.KChain3
import proofs.«169884_j31009663877671_1_alg».proof.Proof.KChain4
import proofs.«169884_j31009663877671_1_alg».proof.Proof.KChain5
import proofs.«169884_j31009663877671_1_alg».proof.Proof.Fc10
import proofs.«169884_j31009663877671_1_alg».proof.Proof.KerForms
import Idealize.ShloMosaic.Lib.StableHlo.Run

set_option maxRecDepth 16384

noncomputable section

namespace Cert.KernelIdeal.Chain

open Cert.KernelIdeal Cert.KernelIdeal.Gen Cert.Gin Cert.ReferenceIdeal.Forms
open Idealize.ShloMosaic Idealize.ShloMosaic.TcCoe Idealize.SL.Sem Idealize.ShloMosaic.ValueIdx

variable (m : (ℓ : Loc nD τ sig) → Buf (Elt Ideal) ℓ) (ρ : Dev nD → PrngReg)

/-! ## The pooling and the head -/

set_option maxHeartbeats 4000000 in
theorem t_pool (c : Dev nD) : W21 m ρ c (Proc.devRef .tc main_v209) = poolH (W20 m ρ c (Proc.devRef .tc main_v206)) (W20 m ρ c (Proc.devRef .tc main_arg2)) := by
  show StableHlo.after hostOps10 (W20 m ρ c) (Proc.devRef .tc main_v209) = _
  after_results_simp
  rfl

set_option maxHeartbeats 4000000 in
theorem t_b1 (c : Dev nD) : W21 m ρ c (Proc.devRef .tc main_v210) = asRow (W20 m ρ c (Proc.devRef .tc main_arg14)) := by
  show StableHlo.after hostOps10 (W20 m ρ c) (Proc.devRef .tc main_v210) = _
  after_results_simp
  rfl

set_option maxHeartbeats 4000000 in
theorem t_b2 (c : Dev nD) : W21 m ρ c (Proc.devRef .tc main_v211) = shapeCast Cert.ReferenceIdeal.S1x32 (W20 m ρ c (Proc.devRef .tc main_arg16)) sc32 := by
  show StableHlo.after hostOps10 (W20 m ρ c) (Proc.devRef .tc main_v211) = _
  after_results_simp
  rfl

set_option maxHeartbeats 4000000 in
theorem t_w1 (c : Dev nD) : W21 m ρ c (Proc.devRef .tc main_arg13) = W20 m ρ c (Proc.devRef .tc main_arg13) := by
  show StableHlo.after hostOps10 (W20 m ρ c) (Proc.devRef .tc main_arg13) = _
  after_results_simp

set_option maxHeartbeats 4000000 in
theorem t_w2 (c : Dev nD) : W21 m ρ c (Proc.devRef .tc main_arg15) = W20 m ρ c (Proc.devRef .tc main_arg15) := by
  show StableHlo.after hostOps10 (W20 m ρ c) (Proc.devRef .tc main_arg15) = _
  after_results_simp

/-- The result buffer after the last region: the kernel's head of the pooled features. -/
theorem t_out (c : Dev nD) : W22 m ρ c (Proc.devRef .tc main_v212)
      = khead (poolH (W20 m ρ c (Proc.devRef .tc main_v206)) (W20 m ρ c (Proc.devRef .tc main_arg2))) (W20 m ρ c (Proc.devRef .tc main_arg13)) (W20 m ρ c (Proc.devRef .tc main_arg14)) (W20 m ρ c (Proc.devRef .tc main_arg15)) (W20 m ρ c (Proc.devRef .tc main_arg16)) := by
  refine ((hF10 m ρ c 5).symm.trans (Fc10.final (V21 m ρ) c)).trans ?_
  show head (W21 m ρ c (Proc.devRef .tc main_v209)) (W21 m ρ c (Proc.devRef .tc main_arg13)) (W21 m ρ c (Proc.devRef .tc main_v210)) (W21 m ρ c (Proc.devRef .tc main_arg15)) (W21 m ρ c (Proc.devRef .tc main_v211)) = _
  rw [t_pool, t_w1, t_b1, t_w2, t_b2]
  rfl

/-- The kernel's result buffer after the whole program, as one function of the launch contents of the arguments. -/
theorem kernel_value (c : Dev nD) : W22 m ρ c (Proc.devRef .tc main_v212)
      = khead (poolH (knet (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (m ((c : Thread nD τ).loc main_arg2))) (m ((c : Thread nD τ).loc main_arg13)) (m ((c : Thread nD τ).loc main_arg14)) (m ((c : Thread nD τ).loc main_arg15)) (m ((c : Thread nD τ).loc main_arg16)) := by
  rw [t_out, k5_main_arg2, k5_main_arg13, k5_main_arg14, k5_main_arg15, k5_main_arg16, b5_out,
    k4_main_arg1, k4_main_arg2, k4_main_arg7, k4_main_arg8, k4_main_arg9, k4_main_arg10, k4_main_arg11, k4_main_arg12, k4_main_arg13, k4_main_arg14, k4_main_arg15, k4_main_arg16, b4_out,
    k3_main_arg1, k3_main_arg2, k3_main_arg7, k3_main_arg8, k3_main_arg9, k3_main_arg10, k3_main_arg11, k3_main_arg12, k3_main_arg13, k3_main_arg14, k3_main_arg15, k3_main_arg16, b3_out,
    k2_main_arg1, k2_main_arg2, k2_main_arg7, k2_main_arg8, k2_main_arg9, k2_main_arg10, k2_main_arg11, k2_main_arg12, k2_main_arg13, k2_main_arg14, k2_main_arg15, k2_main_arg16, b2_out,
    k1_main_arg1, k1_main_arg2, k1_main_arg7, k1_main_arg8, k1_main_arg9, k1_main_arg10, k1_main_arg11, k1_main_arg12, k1_main_arg13, k1_main_arg14, k1_main_arg15, k1_main_arg16, b1_out]
  rfl

end Cert.KernelIdeal.Chain

end
-- ==== Proof.RefOps.lean ====
/- The reference's @main as lists of its host operations, one list per printed window, each call of the variance helper
   (and of the select helper inside it) written out at its call site over that call's buffers; the windows joined are @main.
   (Written by scratch/gen_refops.mjs from the printed program: a table, no argument.) -/
import proofs.«169884_j31009663877671_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 0 of @main: 81 operations. -/
abbrev ops0 : List (HloOp τ sig (Elt F)) :=
  [ StableHlo.unary main_arg11 main_v0 ((extractStridedSlice S1x64 ![0, 0] · slices_S5x64_S1x64_0_0) : (⟨S5x64, .f32⟩ : BufTy).Contents (Elt F) → (⟨S1x64, .f32⟩ : BufTy).Contents (Elt F)),
    StableHlo.reshape main_v0 main_v1 rfl shapeCasts_S1x64_S64,
    StableHlo.unary main_arg12 main_v2 ((extractStridedSlice S1x64 ![0, 0] · slices_S5x64_S1x64_0_0) : (⟨S5x64, .f32⟩ : BufTy).Contents (Elt F) → (⟨S1x64, .f32⟩ : BufTy).Contents (Elt F)),
    StableHlo.reshape main_v2 main_v3 rfl shapeCasts_S1x64_S64,
    StableHlo.unary main_arg1 main_v4 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v4 main_v5 rfl shapeCasts_S1x1600000_S1600000,
    StableHlo.nullary main_c (constantI S_ 32 0#32),
    StableHlo.unary main_c main_v6 (broadcastInDim S1600000 ![] bcast_S_S1600000 : (⟨S_, .i32⟩ : BufTy).Contents (Elt F) → (⟨S1600000, .i32⟩ : BufTy).Contents (Elt F)),
    StableHlo.binary main_v5 main_v6 main_v7 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v8 (broadcastInDim S1600000 ![] bcast_S_S1600000 : (⟨S_, .i32⟩ : BufTy).Contents (Elt F) → (⟨S1600000, .i32⟩ : BufTy).Contents (Elt F)),
    StableHlo.binary main_v5 main_v8 main_v9 (addi : (⟨S1600000, .i32⟩ : BufTy).Contents (Elt F) → (⟨S1600000, .i32⟩ : BufTy).Contents (Elt F) → (⟨S1600000, .i32⟩ : BufTy).Contents (Elt F)),
    StableHlo.ternary main_v7 main_v9 main_v5 main_v10 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v10 main_v11 (broadcastInDim S1600000x1 ![0] bcast_S1600000_S1600000x1_0 : (⟨S1600000, .i32⟩ : BufTy).Contents (Elt F) → (⟨S1600000x1, .i32⟩ : BufTy).Contents (Elt F)),
    StableHlo.binary main_arg0 main_v11 main_v12 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_arg1 main_v13 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v13 main_v14 rfl shapeCasts_S1x1600000_S1600000,
    StableHlo.nullary main_cst (constant S_ .f32 0x00000000#32),
    StableHlo.unary main_cst main_v15 (broadcastInDim S100000x128 ![] bcast_S_S100000x128 : (⟨S_, .f32⟩ : BufTy).Contents (Elt F) → (⟨S100000x128, .f32⟩ : BufTy).Contents (Elt F)),
    StableHlo.unary main_v14 main_v16 (broadcastInDim S1600000x1 ![0] bcast_S1600000_S1600000x1_0 : (⟨S1600000, .i32⟩ : BufTy).Contents (Elt F) → (⟨S1600000x1, .i32⟩ : BufTy).Contents (Elt F)),
    StableHlo.ternary main_v15 main_v16 main_v12 main_v17 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_arg0 main_v17 main_v18 (addf : (⟨S100000x128, .f32⟩ : BufTy).Contents (Elt F) → (⟨S100000x128, .f32⟩ : BufTy).Contents (Elt F) → (⟨S100000x128, .f32⟩ : BufTy).Contents (Elt F)),
    StableHlo.binary main_v18 main_arg3 main_v19 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg4 main_v20 (broadcastInDim S1x64 ![1] bcast_S64_S1x64_1 : (⟨S64, .f32⟩ : BufTy).Contents (Elt F) → (⟨S1x64, .f32⟩ : BufTy).Contents (Elt F)),
    StableHlo.unary main_v20 main_v21 (broadcastInDim S100000x64 ![0, 1] bcast_S1x64_S100000x64_0_1 : (⟨S1x64, .f32⟩ : BufTy).Contents (Elt F) → (⟨S100000x64, .f32⟩ : BufTy).Contents (Elt F)),
    StableHlo.binary main_v19 main_v21 main_v22 (addf : (⟨S100000x64, .f32⟩ : BufTy).Contents (Elt F) → (⟨S100000x64, .f32⟩ : BufTy).Contents (Elt F) → (⟨S100000x64, .f32⟩ : BufTy).Contents (Elt F)),
    StableHlo.nullary main_cst_1 (constant S_ .f32 0x00000000#32),
    StableHlo.unary main_cst_1 main_v23 (broadcastInDim S100000x64 ![] bcast_S_S100000x64 : (⟨S_, .f32⟩ : BufTy).Contents (Elt F) → (⟨S100000x64, .f32⟩ : BufTy).Contents (Elt F)),
    StableHlo.binary main_v22 main_v23 main_v24 (maximumf : (⟨S100000x64, .f32⟩ : BufTy).Contents (Elt F) → (⟨S100000x64, .f32⟩ : BufTy).Contents (Elt F) → (⟨S100000x64, .f32⟩ : BufTy).Contents (Elt F)),
    StableHlo.binary main_v24 main_arg5 main_v25 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg6 main_v26 (broadcastInDim S1x64 ![1] bcast_S64_S1x64_1 : (⟨S64, .f32⟩ : BufTy).Contents (Elt F) → (⟨S1x64, .f32⟩ : BufTy).Contents (Elt F)),
    StableHlo.unary main_v26 main_v27 (broadcastInDim S100000x64 ![0, 1] bcast_S1x64_S100000x64_0_1 : (⟨S1x64, .f32⟩ : BufTy).Contents (Elt F) → (⟨S100000x64, .f32⟩ : BufTy).Contents (Elt F)),
    StableHlo.binary main_v25 main_v27 main_v28 (addf : (⟨S100000x64, .f32⟩ : BufTy).Contents (Elt F) → (⟨S100000x64, .f32⟩ : BufTy).Contents (Elt F) → (⟨S100000x64, .f32⟩ : BufTy).Contents (Elt F)),
    StableHlo.nullary main_cst_2 (constant S_ .f32 0x00000000#32),
    StableHlo.unary main_cst_2 main_v29 (broadcastInDim S100000x64 ![] bcast_S_S100000x64 : (⟨S_, .f32⟩ : BufTy).Contents (Elt F) → (⟨S100000x64, .f32⟩ : BufTy).Contents (Elt F)),
    StableHlo.binary main_v28 main_v29 main_v30 (maximumf : (⟨S100000x64, .f32⟩ : BufTy).Contents (Elt F) → (⟨S100000x64, .f32⟩ : BufTy).Contents (Elt F) → (⟨S100000x64, .f32⟩ : BufTy).Contents (Elt F)),
    StableHlo.nullary main_cst_3 (constant S_ .f32 0x00000000#32),
    StableHlo.binary main_v30 main_cst_3 main_v31 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_4 (constant S_ .f32 0x47C35000#32),
    StableHlo.unary main_cst_4 main_v32 (broadcastInDim S64 ![] bcast_S_S64 : (⟨S_, .f32⟩ : BufTy).Contents (Elt F) → (⟨S64, .f32⟩ : BufTy).Contents (Elt F)),
    StableHlo.binary main_v31 main_v32 main_v33 (Host.divf : (⟨S64, .f32⟩ : BufTy).Contents (Elt F) → (⟨S64, .f32⟩ : BufTy).Contents (Elt F) → (⟨S64, .f32⟩ : BufTy).Contents (Elt F)),
    StableHlo.nullary main_c_5 (constantI S_ 32 0#32),
    StableHlo.TRef.nullary main_call0.cst (constant S_ .f32 0x00000000#32),
    StableHlo.TRef.binary (.of main_v30) main_call0.cst main_call0.v0 (fun x v => Host.reduceAdd x v reducesTo_S100000x64_S64_d0 h_S_),
    StableHlo.TRef.unary main_call0.v0 main_call0.v1 (broadcastInDim S1x64 ![1] bcast_S64_S1x64_1),
    StableHlo.TRef.nullary main_call0.cst_0 (constant S_ .f32 0x47C35000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S100000x64 ![0, 1] bcast_S1x64_S100000x64_0_1),
    StableHlo.TRef.binary (.of main_v30) main_call0.v4 main_call0.v5 subf,
    StableHlo.TRef.binary main_call0.v5 main_call0.v5 main_call0.v6 mulf,
    StableHlo.TRef.unary (.of main_c_5) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v33 main_v35 (broadcastInDim S1x64 ![1] bcast_S64_S1x64_1 : (⟨S64, .f32⟩ : BufTy).Contents (Elt F) → (⟨S1x64, .f32⟩ : BufTy).Contents (Elt F)),
    StableHlo.unary main_v35 main_v36 (broadcastInDim S100000x64 ![0, 1] bcast_S1x64_S100000x64_0_1 : (⟨S1x64, .f32⟩ : BufTy).Contents (Elt F) → (⟨S100000x64, .f32⟩ : BufTy).Contents (Elt F)),
    StableHlo.binary main_v30 main_v36 main_v37 (subf : (⟨S100000x64, .f32⟩ : BufTy).Contents (Elt F) → (⟨S100000x64, .f32⟩ : BufTy).Contents (Elt F) → (⟨S100000x64, .f32⟩ : BufTy).Contents (Elt F)),
    StableHlo.unary main_v1 main_v38 (broadcastInDim S1x64 ![1] bcast_S64_S1x64_1 : (⟨S64, .f32⟩ : BufTy).Contents (Elt F) → (⟨S1x64, .f32⟩ : BufTy).Contents (Elt F)),
    StableHlo.unary main_v38 main_v39 (broadcastInDim S100000x64 ![0, 1] bcast_S1x64_S100000x64_0_1 : (⟨S1x64, .f32⟩ : BufTy).Contents (Elt F) → (⟨S100000x64, .f32⟩ : BufTy).Contents (Elt F)),
    StableHlo.binary main_v39 main_v37 main_v40 (mulf : (⟨S100000x64, .f32⟩ : BufTy).Contents (Elt F) → (⟨S100000x64, .f32⟩ : BufTy).Contents (Elt F) → (⟨S100000x64, .f32⟩ : BufTy).Contents (Elt F)),
    StableHlo.nullary main_cst_6 (constant S_ .f32 0x3727C5AC#32),
    StableHlo.unary main_cst_6 main_v41 (broadcastInDim S64 ![] bcast_S_S64 : (⟨S_, .f32⟩ : BufTy).Contents (Elt F) → (⟨S64, .f32⟩ : BufTy).Contents (Elt F)),
    StableHlo.binary main_v34 main_v41 main_v42 (addf : (⟨S64, .f32⟩ : BufTy).Contents (Elt F) → (⟨S64, .f32⟩ : BufTy).Contents (Elt F) → (⟨S64, .f32⟩ : BufTy).Contents (Elt F)),
    StableHlo.unary main_v42 main_v43 (Host.rsqrt : (⟨S64, .f32⟩ : BufTy).Contents (Elt F) → (⟨S64, .f32⟩ : BufTy).Contents (Elt F)),
    StableHlo.unary main_v43 main_v44 (broadcastInDim S1x64 ![1] bcast_S64_S1x64_1 : (⟨S64, .f32⟩ : BufTy).Contents (Elt F) → (⟨S1x64, .f32⟩ : BufTy).Contents (Elt F)),
    StableHlo.unary main_v44 main_v45 (broadcastInDim S100000x64 ![0, 1] bcast_S1x64_S100000x64_0_1 : (⟨S1x64, .f32⟩ : BufTy).Contents (Elt F) → (⟨S100000x64, .f32⟩ : BufTy).Contents (Elt F)),
    StableHlo.binary main_v40 main_v45 main_v46 (mulf : (⟨S100000x64, .f32⟩ : BufTy).Contents (Elt F) → (⟨S100000x64, .f32⟩ : BufTy).Contents (Elt F) → (⟨S100000x64, .f32⟩ : BufTy).Contents (Elt F)),
    StableHlo.unary main_v3 main_v47 (broadcastInDim S1x64 ![1] bcast_S64_S1x64_1 : (⟨S64, .f32⟩ : BufTy).Contents (Elt F) → (⟨S1x64, .f32⟩ : BufTy).Contents (Elt F)),
    StableHlo.unary main_v47 main_v48 (broadcastInDim S100000x64 ![0, 1] bcast_S1x64_S100000x64_0_1 : (⟨S1x64, .f32⟩ : BufTy).Contents (Elt F) → (⟨S100000x64, .f32⟩ : BufTy).Contents (Elt F)),
    StableHlo.binary main_v46 main_v48 main_v49 (addf : (⟨S100000x64, .f32⟩ : BufTy).Contents (Elt F) → (⟨S100000x64, .f32⟩ : BufTy).Contents (Elt F) → (⟨S100000x64, .f32⟩ : BufTy).Contents (Elt F)),
    StableHlo.unary main_arg7 main_v50 ((extractStridedSlice S1x64x64 ![0, 0, 0] · slices_S4x64x64_S1x64x64_0_0_0) : (⟨S4x64x64, .f32⟩ : BufTy).Contents (Elt F) → (⟨S1x64x64, .f32⟩ : BufTy).Contents (Elt F)) ]

theorem ops0_sub : (ops0 : List (HloOp τ sig (Elt F))).Forall fun op => op.bufs ⊆ tcRefs τ sig :=
  ⟨unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub ..⟩

/-- Window 1 of @main: 81 operations. -/
abbrev ops1 : List (HloOp τ sig (Elt F)) :=
  [ StableHlo.reshape main_v50 main_v51 rfl shapeCasts_S1x64x64_S64x64,
    StableHlo.unary main_arg8 main_v52 ((extractStridedSlice S1x64 ![0, 0] · slices_S4x64_S1x64_0_0) : (⟨S4x64, .f32⟩ : BufTy).Contents (Elt F) → (⟨S1x64, .f32⟩ : BufTy).Contents (Elt F)),
    StableHlo.reshape main_v52 main_v53 rfl shapeCasts_S1x64_S64,
    StableHlo.unary main_arg9 main_v54 ((extractStridedSlice S1x64x64 ![0, 0, 0] · slices_S4x64x64_S1x64x64_0_0_0) : (⟨S4x64x64, .f32⟩ : BufTy).Contents (Elt F) → (⟨S1x64x64, .f32⟩ : BufTy).Contents (Elt F)),
    StableHlo.reshape main_v54 main_v55 rfl shapeCasts_S1x64x64_S64x64,
    StableHlo.unary main_arg10 main_v56 ((extractStridedSlice S1x64 ![0, 0] · slices_S4x64_S1x64_0_0) : (⟨S4x64, .f32⟩ : BufTy).Contents (Elt F) → (⟨S1x64, .f32⟩ : BufTy).Contents (Elt F)),
    StableHlo.reshape main_v56 main_v57 rfl shapeCasts_S1x64_S64,
    StableHlo.unary main_arg11 main_v58 ((extractStridedSlice S1x64 ![1, 0] · slices_S5x64_S1x64_1_0) : (⟨S5x64, .f32⟩ : BufTy).Contents (Elt F) → (⟨S1x64, .f32⟩ : BufTy).Contents (Elt F)),
    StableHlo.reshape main_v58 main_v59 rfl shapeCasts_S1x64_S64,
    StableHlo.unary main_arg12 main_v60 ((extractStridedSlice S1x64 ![1, 0] · slices_S5x64_S1x64_1_0) : (⟨S5x64, .f32⟩ : BufTy).Contents (Elt F) → (⟨S1x64, .f32⟩ : BufTy).Contents (Elt F)),
    StableHlo.reshape main_v60 main_v61 rfl shapeCasts_S1x64_S64,
    StableHlo.unary main_arg1 main_v62 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v62 main_v63 rfl shapeCasts_S1x1600000_S1600000,
    StableHlo.nullary main_c_7 (constantI S_ 32 0#32),
    StableHlo.unary main_c_7 main_v64 (broadcastInDim S1600000 ![] bcast_S_S1600000 : (⟨S_, .i32⟩ : BufTy).Contents (Elt F) → (⟨S1600000, .i32⟩ : BufTy).Contents (Elt F)),
    StableHlo.binary main_v63 main_v64 main_v65 (cmpi .slt : (⟨S1600000, .i32⟩ : BufTy).Contents (Elt F) → (⟨S1600000, .i32⟩ : BufTy).Contents (Elt F) → (⟨S1600000, .i1⟩ : BufTy).Contents (Elt F)),
    StableHlo.nullary main_c_8 (constantI S_ 32 100000#32),
    StableHlo.unary main_c_8 main_v66 (broadcastInDim S1600000 ![] bcast_S_S1600000 : (⟨S_, .i32⟩ : BufTy).Contents (Elt F) → (⟨S1600000, .i32⟩ : BufTy).Contents (Elt F)),
    StableHlo.binary main_v63 main_v66 main_v67 (addi : (⟨S1600000, .i32⟩ : BufTy).Contents (Elt F) → (⟨S1600000, .i32⟩ : BufTy).Contents (Elt F) → (⟨S1600000, .i32⟩ : BufTy).Contents (Elt F)),
    StableHlo.ternary main_v65 main_v67 main_v63 main_v68 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v68 main_v69 (broadcastInDim S1600000x1 ![0] bcast_S1600000_S1600000x1_0 : (⟨S1600000, .i32⟩ : BufTy).Contents (Elt F) → (⟨S1600000x1, .i32⟩ : BufTy).Contents (Elt F)),
    StableHlo.binary main_v49 main_v69 main_v70 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_arg1 main_v71 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v71 main_v72 rfl shapeCasts_S1x1600000_S1600000,
    StableHlo.nullary main_cst_9 (constant S_ .f32 0x00000000#32),
    StableHlo.unary main_cst_9 main_v73 (broadcastInDim S100000x64 ![] bcast_S_S100000x64 : (⟨S_, .f32⟩ : BufTy).Contents (Elt F) → (⟨S100000x64, .f32⟩ : BufTy).Contents (Elt F)),
    StableHlo.unary main_v72 main_v74 (broadcastInDim S1600000x1 ![0] bcast_S1600000_S1600000x1_0 : (⟨S1600000, .i32⟩ : BufTy).Contents (Elt F) → (⟨S1600000x1, .i32⟩ : BufTy).Contents (Elt F)),
    StableHlo.ternary main_v73 main_v74 main_v70 main_v75 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v49 main_v75 main_v76 (addf : (⟨S100000x64, .f32⟩ : BufTy).Contents (Elt F) → (⟨S100000x64, .f32⟩ : BufTy).Contents (Elt F) → (⟨S100000x64, .f32⟩ : BufTy).Contents (Elt F)),
    StableHlo.binary main_v76 main_v51 main_v77 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v53 main_v78 (broadcastInDim S1x64 ![1] bcast_S64_S1x64_1 : (⟨S64, .f32⟩ : BufTy).Contents (Elt F) → (⟨S1x64, .f32⟩ : BufTy).Contents (Elt F)),
    StableHlo.unary main_v78 main_v79 (broadcastInDim S100000x64 ![0, 1] bcast_S1x64_S100000x64_0_1 : (⟨S1x64, .f32⟩ : BufTy).Contents (Elt F) → (⟨S100000x64, .f32⟩ : BufTy).Contents (Elt F)),
    StableHlo.binary main_v77 main_v79 main_v80 (addf : (⟨S100000x64, .f32⟩ : BufTy).Contents (Elt F) → (⟨S100000x64, .f32⟩ : BufTy).Contents (Elt F) → (⟨S100000x64, .f32⟩ : BufTy).Contents (Elt F)),
    StableHlo.nullary main_cst_10 (constant S_ .f32 0x00000000#32),
    StableHlo.unary main_cst_10 main_v81 (broadcastInDim S100000x64 ![] bcast_S_S100000x64 : (⟨S_, .f32⟩ : BufTy).Contents (Elt F) → (⟨S100000x64, .f32⟩ : BufTy).Contents (Elt F)),
    StableHlo.binary main_v80 main_v81 main_v82 (maximumf : (⟨S100000x64, .f32⟩ : BufTy).Contents (Elt F) → (⟨S100000x64, .f32⟩ : BufTy).Contents (Elt F) → (⟨S100000x64, .f32⟩ : BufTy).Contents (Elt F)),
    StableHlo.binary main_v82 main_v55 main_v83 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v57 main_v84 (broadcastInDim S1x64 ![1] bcast_S64_S1x64_1 : (⟨S64, .f32⟩ : BufTy).Contents (Elt F) → (⟨S1x64, .f32⟩ : BufTy).Contents (Elt F)),
    StableHlo.unary main_v84 main_v85 (broadcastInDim S100000x64 ![0, 1] bcast_S1x64_S100000x64_0_1 : (⟨S1x64, .f32⟩ : BufTy).Contents (Elt F) → (⟨S100000x64, .f32⟩ : BufTy).Contents (Elt F)),
    StableHlo.binary main_v83 main_v85 main_v86 (addf : (⟨S100000x64, .f32⟩ : BufTy).Contents (Elt F) → (⟨S100000x64, .f32⟩ : BufTy).Contents (Elt F) → (⟨S100000x64, .f32⟩ : BufTy).Contents (Elt F)),
    StableHlo.nullary main_cst_11 (constant S_ .f32 0x00000000#32),
    StableHlo.unary main_cst_11 main_v87 (broadcastInDim S100000x64 ![] bcast_S_S100000x64 : (⟨S_, .f32⟩ : BufTy).Contents (Elt F) → (⟨S100000x64, .f32⟩ : BufTy).Contents (Elt F)),
    StableHlo.binary main_v86 main_v87 main_v88 (maximumf : (⟨S100000x64, .f32⟩ : BufTy).Contents (Elt F) → (⟨S100000x64, .f32⟩ : BufTy).Contents (Elt F) → (⟨S100000x64, .f32⟩ : BufTy).Contents (Elt F)),
    StableHlo.nullary main_cst_12 (constant S_ .f32 0x00000000#32),
    StableHlo.binary main_v88 main_cst_12 main_v89 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_13 (constant S_ .f32 0x47C35000#32),
    StableHlo.unary main_cst_13 main_v90 (broadcastInDim S64 ![] bcast_S_S64 : (⟨S_, .f32⟩ : BufTy).Contents (Elt F) → (⟨S64, .f32⟩ : BufTy).Contents (Elt F)),
    StableHlo.binary main_v89 main_v90 main_v91 (Host.divf : (⟨S64, .f32⟩ : BufTy).Contents (Elt F) → (⟨S64, .f32⟩ : BufTy).Contents (Elt F) → (⟨S64, .f32⟩ : BufTy).Contents (Elt F)),
    StableHlo.nullary main_c_14 (constantI S_ 32 0#32),
    StableHlo.TRef.nullary main_call1.cst (constant S_ .f32 0x00000000#32),
    StableHlo.TRef.binary (.of main_v88) main_call1.cst main_call1.v0 (fun x v => Host.reduceAdd x v reducesTo_S100000x64_S64_d0 h_S_),
    StableHlo.TRef.unary main_call1.v0 main_call1.v1 (broadcastInDim S1x64 ![1] bcast_S64_S1x64_1),
    StableHlo.TRef.nullary main_call1.cst_0 (constant S_ .f32 0x47C35000#32),
    StableHlo.TRef.unary main_call1.cst_0 main_call1.v2 (broadcastInDim S1x64 ![] bcast_S_S1x64),
    StableHlo.TRef.binary main_call1.v1 main_call1.v2 main_call1.v3 Host.divf,
    StableHlo.TRef.unary main_call1.v3 main_call1.v4 (broadcastInDim S100000x64 ![0, 1] bcast_S1x64_S100000x64_0_1),
    StableHlo.TRef.binary (.of main_v88) main_call1.v4 main_call1.v5 subf,
    StableHlo.TRef.binary main_call1.v5 main_call1.v5 main_call1.v6 mulf,
    StableHlo.TRef.unary (.of main_c_14) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x64_S64_d0 h_S_),
    StableHlo.TRef.unary main_call1.v8 main_call1.v10 (broadcastInDim S64 ![] bcast_S_S64),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S64 ![] bcast_S_S64),
    StableHlo.TRef.ternary main_call1.v12 main_call1.v11 main_call1.call0.v1 main_call1.call0.v2 (fun p a b => select (broadcastInDim S64 ![] bcast_S_S64 p) a b),
    StableHlo.unary main_v91 main_v93 (broadcastInDim S1x64 ![1] bcast_S64_S1x64_1 : (⟨S64, .f32⟩ : BufTy).Contents (Elt F) → (⟨S1x64, .f32⟩ : BufTy).Contents (Elt F)),
    StableHlo.unary main_v93 main_v94 (broadcastInDim S100000x64 ![0, 1] bcast_S1x64_S100000x64_0_1 : (⟨S1x64, .f32⟩ : BufTy).Contents (Elt F) → (⟨S100000x64, .f32⟩ : BufTy).Contents (Elt F)),
    StableHlo.binary main_v88 main_v94 main_v95 (subf : (⟨S100000x64, .f32⟩ : BufTy).Contents (Elt F) → (⟨S100000x64, .f32⟩ : BufTy).Contents (Elt F) → (⟨S100000x64, .f32⟩ : BufTy).Contents (Elt F)),
    StableHlo.unary main_v59 main_v96 (broadcastInDim S1x64 ![1] bcast_S64_S1x64_1 : (⟨S64, .f32⟩ : BufTy).Contents (Elt F) → (⟨S1x64, .f32⟩ : BufTy).Contents (Elt F)),
    StableHlo.unary main_v96 main_v97 (broadcastInDim S100000x64 ![0, 1] bcast_S1x64_S100000x64_0_1 : (⟨S1x64, .f32⟩ : BufTy).Contents (Elt F) → (⟨S100000x64, .f32⟩ : BufTy).Contents (Elt F)),
    StableHlo.binary main_v97 main_v95 main_v98 (mulf : (⟨S100000x64, .f32⟩ : BufTy).Contents (Elt F) → (⟨S100000x64, .f32⟩ : BufTy).Contents (Elt F) → (⟨S100000x64, .f32⟩ : BufTy).Contents (Elt F)),
    StableHlo.nullary main_cst_15 (constant S_ .f32 0x3727C5AC#32),
    StableHlo.unary main_cst_15 main_v99 (broadcastInDim S64 ![] bcast_S_S64 : (⟨S_, .f32⟩ : BufTy).Contents (Elt F) → (⟨S64, .f32⟩ : BufTy).Contents (Elt F)),
    StableHlo.binary main_v92 main_v99 main_v100 (addf : (⟨S64, .f32⟩ : BufTy).Contents (Elt F) → (⟨S64, .f32⟩ : BufTy).Contents (Elt F) → (⟨S64, .f32⟩ : BufTy).Contents (Elt F)),
    StableHlo.unary main_v100 main_v101 (Host.rsqrt : (⟨S64, .f32⟩ : BufTy).Contents (Elt F) → (⟨S64, .f32⟩ : BufTy).Contents (Elt F)) ]

theorem ops1_sub : (ops1 : List (HloOp τ sig (Elt F))).Forall fun op => op.bufs ⊆ tcRefs τ sig :=
  ⟨reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub ..⟩

/-- Window 2 of @main: 81 operations. -/
abbrev ops2 : List (HloOp τ sig (Elt F)) :=
  [ StableHlo.unary main_v101 main_v102 (broadcastInDim S1x64 ![1] bcast_S64_S1x64_1 : (⟨S64, .f32⟩ : BufTy).Contents (Elt F) → (⟨S1x64, .f32⟩ : BufTy).Contents (Elt F)),
    StableHlo.unary main_v102 main_v103 (broadcastInDim S100000x64 ![0, 1] bcast_S1x64_S100000x64_0_1 : (⟨S1x64, .f32⟩ : BufTy).Contents (Elt F) → (⟨S100000x64, .f32⟩ : BufTy).Contents (Elt F)),
    StableHlo.binary main_v98 main_v103 main_v104 (mulf : (⟨S100000x64, .f32⟩ : BufTy).Contents (Elt F) → (⟨S100000x64, .f32⟩ : BufTy).Contents (Elt F) → (⟨S100000x64, .f32⟩ : BufTy).Contents (Elt F)),
    StableHlo.unary main_v61 main_v105 (broadcastInDim S1x64 ![1] bcast_S64_S1x64_1 : (⟨S64, .f32⟩ : BufTy).Contents (Elt F) → (⟨S1x64, .f32⟩ : BufTy).Contents (Elt F)),
    StableHlo.unary main_v105 main_v106 (broadcastInDim S100000x64 ![0, 1] bcast_S1x64_S100000x64_0_1 : (⟨S1x64, .f32⟩ : BufTy).Contents (Elt F) → (⟨S100000x64, .f32⟩ : BufTy).Contents (Elt F)),
    StableHlo.binary main_v104 main_v106 main_v107 (addf : (⟨S100000x64, .f32⟩ : BufTy).Contents (Elt F) → (⟨S100000x64, .f32⟩ : BufTy).Contents (Elt F) → (⟨S100000x64, .f32⟩ : BufTy).Contents (Elt F)),
    StableHlo.unary main_arg7 main_v108 ((extractStridedSlice S1x64x64 ![1, 0, 0] · slices_S4x64x64_S1x64x64_1_0_0) : (⟨S4x64x64, .f32⟩ : BufTy).Contents (Elt F) → (⟨S1x64x64, .f32⟩ : BufTy).Contents (Elt F)),
    StableHlo.reshape main_v108 main_v109 rfl shapeCasts_S1x64x64_S64x64,
    StableHlo.unary main_arg8 main_v110 ((extractStridedSlice S1x64 ![1, 0] · slices_S4x64_S1x64_1_0) : (⟨S4x64, .f32⟩ : BufTy).Contents (Elt F) → (⟨S1x64, .f32⟩ : BufTy).Contents (Elt F)),
    StableHlo.reshape main_v110 main_v111 rfl shapeCasts_S1x64_S64,
    StableHlo.unary main_arg9 main_v112 ((extractStridedSlice S1x64x64 ![1, 0, 0] · slices_S4x64x64_S1x64x64_1_0_0) : (⟨S4x64x64, .f32⟩ : BufTy).Contents (Elt F) → (⟨S1x64x64, .f32⟩ : BufTy).Contents (Elt F)),
    StableHlo.reshape main_v112 main_v113 rfl shapeCasts_S1x64x64_S64x64,
    StableHlo.unary main_arg10 main_v114 ((extractStridedSlice S1x64 ![1, 0] · slices_S4x64_S1x64_1_0) : (⟨S4x64, .f32⟩ : BufTy).Contents (Elt F) → (⟨S1x64, .f32⟩ : BufTy).Contents (Elt F)),
    StableHlo.reshape main_v114 main_v115 rfl shapeCasts_S1x64_S64,
    StableHlo.unary main_arg11 main_v116 ((extractStridedSlice S1x64 ![2, 0] · slices_S5x64_S1x64_2_0) : (⟨S5x64, .f32⟩ : BufTy).Contents (Elt F) → (⟨S1x64, .f32⟩ : BufTy).Contents (Elt F)),
    StableHlo.reshape main_v116 main_v117 rfl shapeCasts_S1x64_S64,
    StableHlo.unary main_arg12 main_v118 ((extractStridedSlice S1x64 ![2, 0] · slices_S5x64_S1x64_2_0) : (⟨S5x64, .f32⟩ : BufTy).Contents (Elt F) → (⟨S1x64, .f32⟩ : BufTy).Contents (Elt F)),
    StableHlo.reshape main_v118 main_v119 rfl shapeCasts_S1x64_S64,
    StableHlo.unary main_arg1 main_v120 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v120 main_v121 rfl shapeCasts_S1x1600000_S1600000,
    StableHlo.nullary main_c_16 (constantI S_ 32 0#32),
    StableHlo.unary main_c_16 main_v122 (broadcastInDim S1600000 ![] bcast_S_S1600000 : (⟨S_, .i32⟩ : BufTy).Contents (Elt F) → (⟨S1600000, .i32⟩ : BufTy).Contents (Elt F)),
    StableHlo.binary main_v121 main_v122 main_v123 (cmpi .slt : (⟨S1600000, .i32⟩ : BufTy).Contents (Elt F) → (⟨S1600000, .i32⟩ : BufTy).Contents (Elt F) → (⟨S1600000, .i1⟩ : BufTy).Contents (Elt F)),
    StableHlo.nullary main_c_17 (constantI S_ 32 100000#32),
    StableHlo.unary main_c_17 main_v124 (broadcastInDim S1600000 ![] bcast_S_S1600000 : (⟨S_, .i32⟩ : BufTy).Contents (Elt F) → (⟨S1600000, .i32⟩ : BufTy).Contents (Elt F)),
    StableHlo.binary main_v121 main_v124 main_v125 (addi : (⟨S1600000, .i32⟩ : BufTy).Contents (Elt F) → (⟨S1600000, .i32⟩ : BufTy).Contents (Elt F) → (⟨S1600000, .i32⟩ : BufTy).Contents (Elt F)),
    StableHlo.ternary main_v123 main_v125 main_v121 main_v126 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v126 main_v127 (broadcastInDim S1600000x1 ![0] bcast_S1600000_S1600000x1_0 : (⟨S1600000, .i32⟩ : BufTy).Contents (Elt F) → (⟨S1600000x1, .i32⟩ : BufTy).Contents (Elt F)),
    StableHlo.binary main_v107 main_v127 main_v128 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_arg1 main_v129 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v129 main_v130 rfl shapeCasts_S1x1600000_S1600000,
    StableHlo.nullary main_cst_18 (constant S_ .f32 0x00000000#32),
    StableHlo.unary main_cst_18 main_v131 (broadcastInDim S100000x64 ![] bcast_S_S100000x64 : (⟨S_, .f32⟩ : BufTy).Contents (Elt F) → (⟨S100000x64, .f32⟩ : BufTy).Contents (Elt F)),
    StableHlo.unary main_v130 main_v132 (broadcastInDim S1600000x1 ![0] bcast_S1600000_S1600000x1_0 : (⟨S1600000, .i32⟩ : BufTy).Contents (Elt F) → (⟨S1600000x1, .i32⟩ : BufTy).Contents (Elt F)),
    StableHlo.ternary main_v131 main_v132 main_v128 main_v133 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v107 main_v133 main_v134 (addf : (⟨S100000x64, .f32⟩ : BufTy).Contents (Elt F) → (⟨S100000x64, .f32⟩ : BufTy).Contents (Elt F) → (⟨S100000x64, .f32⟩ : BufTy).Contents (Elt F)),
    StableHlo.binary main_v134 main_v109 main_v135 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v111 main_v136 (broadcastInDim S1x64 ![1] bcast_S64_S1x64_1 : (⟨S64, .f32⟩ : BufTy).Contents (Elt F) → (⟨S1x64, .f32⟩ : BufTy).Contents (Elt F)),
    StableHlo.unary main_v136 main_v137 (broadcastInDim S100000x64 ![0, 1] bcast_S1x64_S100000x64_0_1 : (⟨S1x64, .f32⟩ : BufTy).Contents (Elt F) → (⟨S100000x64, .f32⟩ : BufTy).Contents (Elt F)),
    StableHlo.binary main_v135 main_v137 main_v138 (addf : (⟨S100000x64, .f32⟩ : BufTy).Contents (Elt F) → (⟨S100000x64, .f32⟩ : BufTy).Contents (Elt F) → (⟨S100000x64, .f32⟩ : BufTy).Contents (Elt F)),
    StableHlo.nullary main_cst_19 (constant S_ .f32 0x00000000#32),
    StableHlo.unary main_cst_19 main_v139 (broadcastInDim S100000x64 ![] bcast_S_S100000x64 : (⟨S_, .f32⟩ : BufTy).Contents (Elt F) → (⟨S100000x64, .f32⟩ : BufTy).Contents (Elt F)),
    StableHlo.binary main_v138 main_v139 main_v140 (maximumf : (⟨S100000x64, .f32⟩ : BufTy).Contents (Elt F) → (⟨S100000x64, .f32⟩ : BufTy).Contents (Elt F) → (⟨S100000x64, .f32⟩ : BufTy).Contents (Elt F)),
    StableHlo.binary main_v140 main_v113 main_v141 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v115 main_v142 (broadcastInDim S1x64 ![1] bcast_S64_S1x64_1 : (⟨S64, .f32⟩ : BufTy).Contents (Elt F) → (⟨S1x64, .f32⟩ : BufTy).Contents (Elt F)),
    StableHlo.unary main_v142 main_v143 (broadcastInDim S100000x64 ![0, 1] bcast_S1x64_S100000x64_0_1 : (⟨S1x64, .f32⟩ : BufTy).Contents (Elt F) → (⟨S100000x64, .f32⟩ : BufTy).Contents (Elt F)),
    StableHlo.binary main_v141 main_v143 main_v144 (addf : (⟨S100000x64, .f32⟩ : BufTy).Contents (Elt F) → (⟨S100000x64, .f32⟩ : BufTy).Contents (Elt F) → (⟨S100000x64, .f32⟩ : BufTy).Contents (Elt F)),
    StableHlo.nullary main_cst_20 (constant S_ .f32 0x00000000#32),
    StableHlo.unary main_cst_20 main_v145 (broadcastInDim S100000x64 ![] bcast_S_S100000x64 : (⟨S_, .f32⟩ : BufTy).Contents (Elt F) → (⟨S100000x64, .f32⟩ : BufTy).Contents (Elt F)),
    StableHlo.binary main_v144 main_v145 main_v146 (maximumf : (⟨S100000x64, .f32⟩ : BufTy).Contents (Elt F) → (⟨S100000x64, .f32⟩ : BufTy).Contents (Elt F) → (⟨S100000x64, .f32⟩ : BufTy).Contents (Elt F)),
    StableHlo.nullary main_cst_21 (constant S_ .f32 0x00000000#32),
    StableHlo.binary main_v146 main_cst_21 main_v147 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_22 (constant S_ .f32 0x47C35000#32),
    StableHlo.unary main_cst_22 main_v148 (broadcastInDim S64 ![] bcast_S_S64 : (⟨S_, .f32⟩ : BufTy).Contents (Elt F) → (⟨S64, .f32⟩ : BufTy).Contents (Elt F)),
    StableHlo.binary main_v147 main_v148 main_v149 (Host.divf : (⟨S64, .f32⟩ : BufTy).Contents (Elt F) → (⟨S64, .f32⟩ : BufTy).Contents (Elt F) → (⟨S64, .f32⟩ : BufTy).Contents (Elt F)),
    StableHlo.nullary main_c_23 (constantI S_ 32 0#32),
    StableHlo.TRef.nullary main_call2.cst (constant S_ .f32 0x00000000#32),
    StableHlo.TRef.binary (.of main_v146) main_call2.cst main_call2.v0 (fun x v => Host.reduceAdd x v reducesTo_S100000x64_S64_d0 h_S_),
    StableHlo.TRef.unary main_call2.v0 main_call2.v1 (broadcastInDim S1x64 ![1] bcast_S64_S1x64_1),
    StableHlo.TRef.nullary main_call2.cst_0 (constant S_ .f32 0x47C35000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S100000x64 ![0, 1] bcast_S1x64_S100000x64_0_1),
    StableHlo.TRef.binary (.of main_v146) main_call2.v4 main_call2.v5 subf,
    StableHlo.TRef.binary main_call2.v5 main_call2.v5 main_call2.v6 mulf,
    StableHlo.TRef.unary (.of main_c_23) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v149 main_v151 (broadcastInDim S1x64 ![1] bcast_S64_S1x64_1 : (⟨S64, .f32⟩ : BufTy).Contents (Elt F) → (⟨S1x64, .f32⟩ : BufTy).Contents (Elt F)),
    StableHlo.unary main_v151 main_v152 (broadcastInDim S100000x64 ![0, 1] bcast_S1x64_S100000x64_0_1 : (⟨S1x64, .f32⟩ : BufTy).Contents (Elt F) → (⟨S100000x64, .f32⟩ : BufTy).Contents (Elt F)),
    StableHlo.binary main_v146 main_v152 main_v153 (subf : (⟨S100000x64, .f32⟩ : BufTy).Contents (Elt F) → (⟨S100000x64, .f32⟩ : BufTy).Contents (Elt F) → (⟨S100000x64, .f32⟩ : BufTy).Contents (Elt F)) ]

theorem ops2_sub : (ops2 : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub ..⟩

/-- Window 3 of @main: 60 operations. -/
abbrev ops3 : List (HloOp τ sig (Elt F)) :=
  [ StableHlo.unary main_v117 main_v154 (broadcastInDim S1x64 ![1] bcast_S64_S1x64_1 : (⟨S64, .f32⟩ : BufTy).Contents (Elt F) → (⟨S1x64, .f32⟩ : BufTy).Contents (Elt F)),
    StableHlo.unary main_v154 main_v155 (broadcastInDim S100000x64 ![0, 1] bcast_S1x64_S100000x64_0_1 : (⟨S1x64, .f32⟩ : BufTy).Contents (Elt F) → (⟨S100000x64, .f32⟩ : BufTy).Contents (Elt F)),
    StableHlo.binary main_v155 main_v153 main_v156 (mulf : (⟨S100000x64, .f32⟩ : BufTy).Contents (Elt F) → (⟨S100000x64, .f32⟩ : BufTy).Contents (Elt F) → (⟨S100000x64, .f32⟩ : BufTy).Contents (Elt F)),
    StableHlo.nullary main_cst_24 (constant S_ .f32 0x3727C5AC#32),
    StableHlo.unary main_cst_24 main_v157 (broadcastInDim S64 ![] bcast_S_S64 : (⟨S_, .f32⟩ : BufTy).Contents (Elt F) → (⟨S64, .f32⟩ : BufTy).Contents (Elt F)),
    StableHlo.binary main_v150 main_v157 main_v158 (addf : (⟨S64, .f32⟩ : BufTy).Contents (Elt F) → (⟨S64, .f32⟩ : BufTy).Contents (Elt F) → (⟨S64, .f32⟩ : BufTy).Contents (Elt F)),
    StableHlo.unary main_v158 main_v159 (Host.rsqrt : (⟨S64, .f32⟩ : BufTy).Contents (Elt F) → (⟨S64, .f32⟩ : BufTy).Contents (Elt F)),
    StableHlo.unary main_v159 main_v160 (broadcastInDim S1x64 ![1] bcast_S64_S1x64_1 : (⟨S64, .f32⟩ : BufTy).Contents (Elt F) → (⟨S1x64, .f32⟩ : BufTy).Contents (Elt F)),
    StableHlo.unary main_v160 main_v161 (broadcastInDim S100000x64 ![0, 1] bcast_S1x64_S100000x64_0_1 : (⟨S1x64, .f32⟩ : BufTy).Contents (Elt F) → (⟨S100000x64, .f32⟩ : BufTy).Contents (Elt F)),
    StableHlo.binary main_v156 main_v161 main_v162 (mulf : (⟨S100000x64, .f32⟩ : BufTy).Contents (Elt F) → (⟨S100000x64, .f32⟩ : BufTy).Contents (Elt F) → (⟨S100000x64, .f32⟩ : BufTy).Contents (Elt F)),
    StableHlo.unary main_v119 main_v163 (broadcastInDim S1x64 ![1] bcast_S64_S1x64_1 : (⟨S64, .f32⟩ : BufTy).Contents (Elt F) → (⟨S1x64, .f32⟩ : BufTy).Contents (Elt F)),
    StableHlo.unary main_v163 main_v164 (broadcastInDim S100000x64 ![0, 1] bcast_S1x64_S100000x64_0_1 : (⟨S1x64, .f32⟩ : BufTy).Contents (Elt F) → (⟨S100000x64, .f32⟩ : BufTy).Contents (Elt F)),
    StableHlo.binary main_v162 main_v164 main_v165 (addf : (⟨S100000x64, .f32⟩ : BufTy).Contents (Elt F) → (⟨S100000x64, .f32⟩ : BufTy).Contents (Elt F) → (⟨S100000x64, .f32⟩ : BufTy).Contents (Elt F)),
    StableHlo.unary main_arg7 main_v166 ((extractStridedSlice S1x64x64 ![2, 0, 0] · slices_S4x64x64_S1x64x64_2_0_0) : (⟨S4x64x64, .f32⟩ : BufTy).Contents (Elt F) → (⟨S1x64x64, .f32⟩ : BufTy).Contents (Elt F)),
    StableHlo.reshape main_v166 main_v167 rfl shapeCasts_S1x64x64_S64x64,
    StableHlo.unary main_arg8 main_v168 ((extractStridedSlice S1x64 ![2, 0] · slices_S4x64_S1x64_2_0) : (⟨S4x64, .f32⟩ : BufTy).Contents (Elt F) → (⟨S1x64, .f32⟩ : BufTy).Contents (Elt F)),
    StableHlo.reshape main_v168 main_v169 rfl shapeCasts_S1x64_S64,
    StableHlo.unary main_arg9 main_v170 ((extractStridedSlice S1x64x64 ![2, 0, 0] · slices_S4x64x64_S1x64x64_2_0_0) : (⟨S4x64x64, .f32⟩ : BufTy).Contents (Elt F) → (⟨S1x64x64, .f32⟩ : BufTy).Contents (Elt F)),
    StableHlo.reshape main_v170 main_v171 rfl shapeCasts_S1x64x64_S64x64,
    StableHlo.unary main_arg10 main_v172 ((extractStridedSlice S1x64 ![2, 0] · slices_S4x64_S1x64_2_0) : (⟨S4x64, .f32⟩ : BufTy).Contents (Elt F) → (⟨S1x64, .f32⟩ : BufTy).Contents (Elt F)),
    StableHlo.reshape main_v172 main_v173 rfl shapeCasts_S1x64_S64,
    StableHlo.unary main_arg11 main_v174 ((extractStridedSlice S1x64 ![3, 0] · slices_S5x64_S1x64_3_0) : (⟨S5x64, .f32⟩ : BufTy).Contents (Elt F) → (⟨S1x64, .f32⟩ : BufTy).Contents (Elt F)),
    StableHlo.reshape main_v174 main_v175 rfl shapeCasts_S1x64_S64,
    StableHlo.unary main_arg12 main_v176 ((extractStridedSlice S1x64 ![3, 0] · slices_S5x64_S1x64_3_0) : (⟨S5x64, .f32⟩ : BufTy).Contents (Elt F) → (⟨S1x64, .f32⟩ : BufTy).Contents (Elt F)),
    StableHlo.reshape main_v176 main_v177 rfl shapeCasts_S1x64_S64,
    StableHlo.unary main_arg1 main_v178 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v178 main_v179 rfl shapeCasts_S1x1600000_S1600000,
    StableHlo.nullary main_c_25 (constantI S_ 32 0#32),
    StableHlo.unary main_c_25 main_v180 (broadcastInDim S1600000 ![] bcast_S_S1600000 : (⟨S_, .i32⟩ : BufTy).Contents (Elt F) → (⟨S1600000, .i32⟩ : BufTy).Contents (Elt F)),
    StableHlo.binary main_v179 main_v180 main_v181 (cmpi .slt : (⟨S1600000, .i32⟩ : BufTy).Contents (Elt F) → (⟨S1600000, .i32⟩ : BufTy).Contents (Elt F) → (⟨S1600000, .i1⟩ : BufTy).Contents (Elt F)),
    StableHlo.nullary main_c_26 (constantI S_ 32 100000#32),
    StableHlo.unary main_c_26 main_v182 (broadcastInDim S1600000 ![] bcast_S_S1600000 : (⟨S_, .i32⟩ : BufTy).Contents (Elt F) → (⟨S1600000, .i32⟩ : BufTy).Contents (Elt F)),
    StableHlo.binary main_v179 main_v182 main_v183 (addi : (⟨S1600000, .i32⟩ : BufTy).Contents (Elt F) → (⟨S1600000, .i32⟩ : BufTy).Contents (Elt F) → (⟨S1600000, .i32⟩ : BufTy).Contents (Elt F)),
    StableHlo.ternary main_v181 main_v183 main_v179 main_v184 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v184 main_v185 (broadcastInDim S1600000x1 ![0] bcast_S1600000_S1600000x1_0 : (⟨S1600000, .i32⟩ : BufTy).Contents (Elt F) → (⟨S1600000x1, .i32⟩ : BufTy).Contents (Elt F)),
    StableHlo.binary main_v165 main_v185 main_v186 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_arg1 main_v187 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v187 main_v188 rfl shapeCasts_S1x1600000_S1600000,
    StableHlo.nullary main_cst_27 (constant S_ .f32 0x00000000#32),
    StableHlo.unary main_cst_27 main_v189 (broadcastInDim S100000x64 ![] bcast_S_S100000x64 : (⟨S_, .f32⟩ : BufTy).Contents (Elt F) → (⟨S100000x64, .f32⟩ : BufTy).Contents (Elt F)),
    StableHlo.unary main_v188 main_v190 (broadcastInDim S1600000x1 ![0] bcast_S1600000_S1600000x1_0 : (⟨S1600000, .i32⟩ : BufTy).Contents (Elt F) → (⟨S1600000x1, .i32⟩ : BufTy).Contents (Elt F)),
    StableHlo.ternary main_v189 main_v190 main_v186 main_v191 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v165 main_v191 main_v192 (addf : (⟨S100000x64, .f32⟩ : BufTy).Contents (Elt F) → (⟨S100000x64, .f32⟩ : BufTy).Contents (Elt F) → (⟨S100000x64, .f32⟩ : BufTy).Contents (Elt F)),
    StableHlo.binary main_v192 main_v167 main_v193 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v169 main_v194 (broadcastInDim S1x64 ![1] bcast_S64_S1x64_1 : (⟨S64, .f32⟩ : BufTy).Contents (Elt F) → (⟨S1x64, .f32⟩ : BufTy).Contents (Elt F)),
    StableHlo.unary main_v194 main_v195 (broadcastInDim S100000x64 ![0, 1] bcast_S1x64_S100000x64_0_1 : (⟨S1x64, .f32⟩ : BufTy).Contents (Elt F) → (⟨S100000x64, .f32⟩ : BufTy).Contents (Elt F)),
    StableHlo.binary main_v193 main_v195 main_v196 (addf : (⟨S100000x64, .f32⟩ : BufTy).Contents (Elt F) → (⟨S100000x64, .f32⟩ : BufTy).Contents (Elt F) → (⟨S100000x64, .f32⟩ : BufTy).Contents (Elt F)),
    StableHlo.nullary main_cst_28 (constant S_ .f32 0x00000000#32),
    StableHlo.unary main_cst_28 main_v197 (broadcastInDim S100000x64 ![] bcast_S_S100000x64 : (⟨S_, .f32⟩ : BufTy).Contents (Elt F) → (⟨S100000x64, .f32⟩ : BufTy).Contents (Elt F)),
    StableHlo.binary main_v196 main_v197 main_v198 (maximumf : (⟨S100000x64, .f32⟩ : BufTy).Contents (Elt F) → (⟨S100000x64, .f32⟩ : BufTy).Contents (Elt F) → (⟨S100000x64, .f32⟩ : BufTy).Contents (Elt F)),
    StableHlo.binary main_v198 main_v171 main_v199 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v173 main_v200 (broadcastInDim S1x64 ![1] bcast_S64_S1x64_1 : (⟨S64, .f32⟩ : BufTy).Contents (Elt F) → (⟨S1x64, .f32⟩ : BufTy).Contents (Elt F)),
    StableHlo.unary main_v200 main_v201 (broadcastInDim S100000x64 ![0, 1] bcast_S1x64_S100000x64_0_1 : (⟨S1x64, .f32⟩ : BufTy).Contents (Elt F) → (⟨S100000x64, .f32⟩ : BufTy).Contents (Elt F)),
    StableHlo.binary main_v199 main_v201 main_v202 (addf : (⟨S100000x64, .f32⟩ : BufTy).Contents (Elt F) → (⟨S100000x64, .f32⟩ : BufTy).Contents (Elt F) → (⟨S100000x64, .f32⟩ : BufTy).Contents (Elt F)),
    StableHlo.nullary main_cst_29 (constant S_ .f32 0x00000000#32),
    StableHlo.unary main_cst_29 main_v203 (broadcastInDim S100000x64 ![] bcast_S_S100000x64 : (⟨S_, .f32⟩ : BufTy).Contents (Elt F) → (⟨S100000x64, .f32⟩ : BufTy).Contents (Elt F)),
    StableHlo.binary main_v202 main_v203 main_v204 (maximumf : (⟨S100000x64, .f32⟩ : BufTy).Contents (Elt F) → (⟨S100000x64, .f32⟩ : BufTy).Contents (Elt F) → (⟨S100000x64, .f32⟩ : BufTy).Contents (Elt F)),
    StableHlo.nullary main_cst_30 (constant S_ .f32 0x00000000#32),
    StableHlo.binary main_v204 main_cst_30 main_v205 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_31 (constant S_ .f32 0x47C35000#32) ]

theorem ops3_sub : (ops3 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., binary_bufs_sub .., nullary_bufs_sub ..⟩

/-- Window 4 of @main: 81 operations. -/
abbrev ops4 : List (HloOp τ sig (Elt F)) :=
  [ StableHlo.unary main_cst_31 main_v206 (broadcastInDim S64 ![] bcast_S_S64 : (⟨S_, .f32⟩ : BufTy).Contents (Elt F) → (⟨S64, .f32⟩ : BufTy).Contents (Elt F)),
    StableHlo.binary main_v205 main_v206 main_v207 (Host.divf : (⟨S64, .f32⟩ : BufTy).Contents (Elt F) → (⟨S64, .f32⟩ : BufTy).Contents (Elt F) → (⟨S64, .f32⟩ : BufTy).Contents (Elt F)),
    StableHlo.nullary main_c_32 (constantI S_ 32 0#32),
    StableHlo.TRef.nullary main_call3.cst (constant S_ .f32 0x00000000#32),
    StableHlo.TRef.binary (.of main_v204) main_call3.cst main_call3.v0 (fun x v => Host.reduceAdd x v reducesTo_S100000x64_S64_d0 h_S_),
    StableHlo.TRef.unary main_call3.v0 main_call3.v1 (broadcastInDim S1x64 ![1] bcast_S64_S1x64_1),
    StableHlo.TRef.nullary main_call3.cst_0 (constant S_ .f32 0x47C35000#32),
    StableHlo.TRef.unary main_call3.cst_0 main_call3.v2 (broadcastInDim S1x64 ![] bcast_S_S1x64),
    StableHlo.TRef.binary main_call3.v1 main_call3.v2 main_call3.v3 Host.divf,
    StableHlo.TRef.unary main_call3.v3 main_call3.v4 (broadcastInDim S100000x64 ![0, 1] bcast_S1x64_S100000x64_0_1),
    StableHlo.TRef.binary (.of main_v204) main_call3.v4 main_call3.v5 subf,
    StableHlo.TRef.binary main_call3.v5 main_call3.v5 main_call3.v6 mulf,
    StableHlo.TRef.unary (.of main_c_32) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x64_S64_d0 h_S_),
    StableHlo.TRef.unary main_call3.v8 main_call3.v10 (broadcastInDim S64 ![] bcast_S_S64),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S64 ![] bcast_S_S64),
    StableHlo.TRef.ternary main_call3.v12 main_call3.v11 main_call3.call0.v1 main_call3.call0.v2 (fun p a b => select (broadcastInDim S64 ![] bcast_S_S64 p) a b),
    StableHlo.unary main_v207 main_v209 (broadcastInDim S1x64 ![1] bcast_S64_S1x64_1 : (⟨S64, .f32⟩ : BufTy).Contents (Elt F) → (⟨S1x64, .f32⟩ : BufTy).Contents (Elt F)),
    StableHlo.unary main_v209 main_v210 (broadcastInDim S100000x64 ![0, 1] bcast_S1x64_S100000x64_0_1 : (⟨S1x64, .f32⟩ : BufTy).Contents (Elt F) → (⟨S100000x64, .f32⟩ : BufTy).Contents (Elt F)),
    StableHlo.binary main_v204 main_v210 main_v211 (subf : (⟨S100000x64, .f32⟩ : BufTy).Contents (Elt F) → (⟨S100000x64, .f32⟩ : BufTy).Contents (Elt F) → (⟨S100000x64, .f32⟩ : BufTy).Contents (Elt F)),
    StableHlo.unary main_v175 main_v212 (broadcastInDim S1x64 ![1] bcast_S64_S1x64_1 : (⟨S64, .f32⟩ : BufTy).Contents (Elt F) → (⟨S1x64, .f32⟩ : BufTy).Contents (Elt F)),
    StableHlo.unary main_v212 main_v213 (broadcastInDim S100000x64 ![0, 1] bcast_S1x64_S100000x64_0_1 : (⟨S1x64, .f32⟩ : BufTy).Contents (Elt F) → (⟨S100000x64, .f32⟩ : BufTy).Contents (Elt F)),
    StableHlo.binary main_v213 main_v211 main_v214 (mulf : (⟨S100000x64, .f32⟩ : BufTy).Contents (Elt F) → (⟨S100000x64, .f32⟩ : BufTy).Contents (Elt F) → (⟨S100000x64, .f32⟩ : BufTy).Contents (Elt F)),
    StableHlo.nullary main_cst_33 (constant S_ .f32 0x3727C5AC#32),
    StableHlo.unary main_cst_33 main_v215 (broadcastInDim S64 ![] bcast_S_S64 : (⟨S_, .f32⟩ : BufTy).Contents (Elt F) → (⟨S64, .f32⟩ : BufTy).Contents (Elt F)),
    StableHlo.binary main_v208 main_v215 main_v216 (addf : (⟨S64, .f32⟩ : BufTy).Contents (Elt F) → (⟨S64, .f32⟩ : BufTy).Contents (Elt F) → (⟨S64, .f32⟩ : BufTy).Contents (Elt F)),
    StableHlo.unary main_v216 main_v217 (Host.rsqrt : (⟨S64, .f32⟩ : BufTy).Contents (Elt F) → (⟨S64, .f32⟩ : BufTy).Contents (Elt F)),
    StableHlo.unary main_v217 main_v218 (broadcastInDim S1x64 ![1] bcast_S64_S1x64_1 : (⟨S64, .f32⟩ : BufTy).Contents (Elt F) → (⟨S1x64, .f32⟩ : BufTy).Contents (Elt F)),
    StableHlo.unary main_v218 main_v219 (broadcastInDim S100000x64 ![0, 1] bcast_S1x64_S100000x64_0_1 : (⟨S1x64, .f32⟩ : BufTy).Contents (Elt F) → (⟨S100000x64, .f32⟩ : BufTy).Contents (Elt F)),
    StableHlo.binary main_v214 main_v219 main_v220 (mulf : (⟨S100000x64, .f32⟩ : BufTy).Contents (Elt F) → (⟨S100000x64, .f32⟩ : BufTy).Contents (Elt F) → (⟨S100000x64, .f32⟩ : BufTy).Contents (Elt F)),
    StableHlo.unary main_v177 main_v221 (broadcastInDim S1x64 ![1] bcast_S64_S1x64_1 : (⟨S64, .f32⟩ : BufTy).Contents (Elt F) → (⟨S1x64, .f32⟩ : BufTy).Contents (Elt F)),
    StableHlo.unary main_v221 main_v222 (broadcastInDim S100000x64 ![0, 1] bcast_S1x64_S100000x64_0_1 : (⟨S1x64, .f32⟩ : BufTy).Contents (Elt F) → (⟨S100000x64, .f32⟩ : BufTy).Contents (Elt F)),
    StableHlo.binary main_v220 main_v222 main_v223 (addf : (⟨S100000x64, .f32⟩ : BufTy).Contents (Elt F) → (⟨S100000x64, .f32⟩ : BufTy).Contents (Elt F) → (⟨S100000x64, .f32⟩ : BufTy).Contents (Elt F)),
    StableHlo.unary main_arg7 main_v224 ((extractStridedSlice S1x64x64 ![3, 0, 0] · slices_S4x64x64_S1x64x64_3_0_0) : (⟨S4x64x64, .f32⟩ : BufTy).Contents (Elt F) → (⟨S1x64x64, .f32⟩ : BufTy).Contents (Elt F)),
    StableHlo.reshape main_v224 main_v225 rfl shapeCasts_S1x64x64_S64x64,
    StableHlo.unary main_arg8 main_v226 ((extractStridedSlice S1x64 ![3, 0] · slices_S4x64_S1x64_3_0) : (⟨S4x64, .f32⟩ : BufTy).Contents (Elt F) → (⟨S1x64, .f32⟩ : BufTy).Contents (Elt F)),
    StableHlo.reshape main_v226 main_v227 rfl shapeCasts_S1x64_S64,
    StableHlo.unary main_arg9 main_v228 ((extractStridedSlice S1x64x64 ![3, 0, 0] · slices_S4x64x64_S1x64x64_3_0_0) : (⟨S4x64x64, .f32⟩ : BufTy).Contents (Elt F) → (⟨S1x64x64, .f32⟩ : BufTy).Contents (Elt F)),
    StableHlo.reshape main_v228 main_v229 rfl shapeCasts_S1x64x64_S64x64,
    StableHlo.unary main_arg10 main_v230 ((extractStridedSlice S1x64 ![3, 0] · slices_S4x64_S1x64_3_0) : (⟨S4x64, .f32⟩ : BufTy).Contents (Elt F) → (⟨S1x64, .f32⟩ : BufTy).Contents (Elt F)),
    StableHlo.reshape main_v230 main_v231 rfl shapeCasts_S1x64_S64,
    StableHlo.unary main_arg11 main_v232 ((extractStridedSlice S1x64 ![4, 0] · slices_S5x64_S1x64_4_0) : (⟨S5x64, .f32⟩ : BufTy).Contents (Elt F) → (⟨S1x64, .f32⟩ : BufTy).Contents (Elt F)),
    StableHlo.reshape main_v232 main_v233 rfl shapeCasts_S1x64_S64,
    StableHlo.unary main_arg12 main_v234 ((extractStridedSlice S1x64 ![4, 0] · slices_S5x64_S1x64_4_0) : (⟨S5x64, .f32⟩ : BufTy).Contents (Elt F) → (⟨S1x64, .f32⟩ : BufTy).Contents (Elt F)),
    StableHlo.reshape main_v234 main_v235 rfl shapeCasts_S1x64_S64,
    StableHlo.unary main_arg1 main_v236 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v236 main_v237 rfl shapeCasts_S1x1600000_S1600000,
    StableHlo.nullary main_c_34 (constantI S_ 32 0#32),
    StableHlo.unary main_c_34 main_v238 (broadcastInDim S1600000 ![] bcast_S_S1600000 : (⟨S_, .i32⟩ : BufTy).Contents (Elt F) → (⟨S1600000, .i32⟩ : BufTy).Contents (Elt F)),
    StableHlo.binary main_v237 main_v238 main_v239 (cmpi .slt : (⟨S1600000, .i32⟩ : BufTy).Contents (Elt F) → (⟨S1600000, .i32⟩ : BufTy).Contents (Elt F) → (⟨S1600000, .i1⟩ : BufTy).Contents (Elt F)),
    StableHlo.nullary main_c_35 (constantI S_ 32 100000#32),
    StableHlo.unary main_c_35 main_v240 (broadcastInDim S1600000 ![] bcast_S_S1600000 : (⟨S_, .i32⟩ : BufTy).Contents (Elt F) → (⟨S1600000, .i32⟩ : BufTy).Contents (Elt F)),
    StableHlo.binary main_v237 main_v240 main_v241 (addi : (⟨S1600000, .i32⟩ : BufTy).Contents (Elt F) → (⟨S1600000, .i32⟩ : BufTy).Contents (Elt F) → (⟨S1600000, .i32⟩ : BufTy).Contents (Elt F)),
    StableHlo.ternary main_v239 main_v241 main_v237 main_v242 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v242 main_v243 (broadcastInDim S1600000x1 ![0] bcast_S1600000_S1600000x1_0 : (⟨S1600000, .i32⟩ : BufTy).Contents (Elt F) → (⟨S1600000x1, .i32⟩ : BufTy).Contents (Elt F)),
    StableHlo.binary main_v223 main_v243 main_v244 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_arg1 main_v245 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v245 main_v246 rfl shapeCasts_S1x1600000_S1600000,
    StableHlo.nullary main_cst_36 (constant S_ .f32 0x00000000#32),
    StableHlo.unary main_cst_36 main_v247 (broadcastInDim S100000x64 ![] bcast_S_S100000x64 : (⟨S_, .f32⟩ : BufTy).Contents (Elt F) → (⟨S100000x64, .f32⟩ : BufTy).Contents (Elt F)),
    StableHlo.unary main_v246 main_v248 (broadcastInDim S1600000x1 ![0] bcast_S1600000_S1600000x1_0 : (⟨S1600000, .i32⟩ : BufTy).Contents (Elt F) → (⟨S1600000x1, .i32⟩ : BufTy).Contents (Elt F)),
    StableHlo.ternary main_v247 main_v248 main_v244 main_v249 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v223 main_v249 main_v250 (addf : (⟨S100000x64, .f32⟩ : BufTy).Contents (Elt F) → (⟨S100000x64, .f32⟩ : BufTy).Contents (Elt F) → (⟨S100000x64, .f32⟩ : BufTy).Contents (Elt F)),
    StableHlo.binary main_v250 main_v225 main_v251 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v227 main_v252 (broadcastInDim S1x64 ![1] bcast_S64_S1x64_1 : (⟨S64, .f32⟩ : BufTy).Contents (Elt F) → (⟨S1x64, .f32⟩ : BufTy).Contents (Elt F)),
    StableHlo.unary main_v252 main_v253 (broadcastInDim S100000x64 ![0, 1] bcast_S1x64_S100000x64_0_1 : (⟨S1x64, .f32⟩ : BufTy).Contents (Elt F) → (⟨S100000x64, .f32⟩ : BufTy).Contents (Elt F)),
    StableHlo.binary main_v251 main_v253 main_v254 (addf : (⟨S100000x64, .f32⟩ : BufTy).Contents (Elt F) → (⟨S100000x64, .f32⟩ : BufTy).Contents (Elt F) → (⟨S100000x64, .f32⟩ : BufTy).Contents (Elt F)),
    StableHlo.nullary main_cst_37 (constant S_ .f32 0x00000000#32),
    StableHlo.unary main_cst_37 main_v255 (broadcastInDim S100000x64 ![] bcast_S_S100000x64 : (⟨S_, .f32⟩ : BufTy).Contents (Elt F) → (⟨S100000x64, .f32⟩ : BufTy).Contents (Elt F)),
    StableHlo.binary main_v254 main_v255 main_v256 (maximumf : (⟨S100000x64, .f32⟩ : BufTy).Contents (Elt F) → (⟨S100000x64, .f32⟩ : BufTy).Contents (Elt F) → (⟨S100000x64, .f32⟩ : BufTy).Contents (Elt F)),
    StableHlo.binary main_v256 main_v229 main_v257 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v231 main_v258 (broadcastInDim S1x64 ![1] bcast_S64_S1x64_1 : (⟨S64, .f32⟩ : BufTy).Contents (Elt F) → (⟨S1x64, .f32⟩ : BufTy).Contents (Elt F)),
    StableHlo.unary main_v258 main_v259 (broadcastInDim S100000x64 ![0, 1] bcast_S1x64_S100000x64_0_1 : (⟨S1x64, .f32⟩ : BufTy).Contents (Elt F) → (⟨S100000x64, .f32⟩ : BufTy).Contents (Elt F)) ]

theorem ops4_sub : (ops4 : List (HloOp τ sig (Elt F))).Forall fun op => op.bufs ⊆ tcRefs τ sig :=
  ⟨unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub ..⟩

/-- Window 5 of @main: 63 operations. -/
abbrev ops5 : List (HloOp τ sig (Elt F)) :=
  [ StableHlo.binary main_v257 main_v259 main_v260 (addf : (⟨S100000x64, .f32⟩ : BufTy).Contents (Elt F) → (⟨S100000x64, .f32⟩ : BufTy).Contents (Elt F) → (⟨S100000x64, .f32⟩ : BufTy).Contents (Elt F)),
    StableHlo.nullary main_cst_38 (constant S_ .f32 0x00000000#32),
    StableHlo.unary main_cst_38 main_v261 (broadcastInDim S100000x64 ![] bcast_S_S100000x64 : (⟨S_, .f32⟩ : BufTy).Contents (Elt F) → (⟨S100000x64, .f32⟩ : BufTy).Contents (Elt F)),
    StableHlo.binary main_v260 main_v261 main_v262 (maximumf : (⟨S100000x64, .f32⟩ : BufTy).Contents (Elt F) → (⟨S100000x64, .f32⟩ : BufTy).Contents (Elt F) → (⟨S100000x64, .f32⟩ : BufTy).Contents (Elt F)),
    StableHlo.nullary main_cst_39 (constant S_ .f32 0x00000000#32),
    StableHlo.binary main_v262 main_cst_39 main_v263 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_40 (constant S_ .f32 0x47C35000#32),
    StableHlo.unary main_cst_40 main_v264 (broadcastInDim S64 ![] bcast_S_S64 : (⟨S_, .f32⟩ : BufTy).Contents (Elt F) → (⟨S64, .f32⟩ : BufTy).Contents (Elt F)),
    StableHlo.binary main_v263 main_v264 main_v265 (Host.divf : (⟨S64, .f32⟩ : BufTy).Contents (Elt F) → (⟨S64, .f32⟩ : BufTy).Contents (Elt F) → (⟨S64, .f32⟩ : BufTy).Contents (Elt F)),
    StableHlo.nullary main_c_41 (constantI S_ 32 0#32),
    StableHlo.TRef.nullary main_call4.cst (constant S_ .f32 0x00000000#32),
    StableHlo.TRef.binary (.of main_v262) main_call4.cst main_call4.v0 (fun x v => Host.reduceAdd x v reducesTo_S100000x64_S64_d0 h_S_),
    StableHlo.TRef.unary main_call4.v0 main_call4.v1 (broadcastInDim S1x64 ![1] bcast_S64_S1x64_1),
    StableHlo.TRef.nullary main_call4.cst_0 (constant S_ .f32 0x47C35000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S100000x64 ![0, 1] bcast_S1x64_S100000x64_0_1),
    StableHlo.TRef.binary (.of main_v262) main_call4.v4 main_call4.v5 subf,
    StableHlo.TRef.binary main_call4.v5 main_call4.v5 main_call4.v6 mulf,
    StableHlo.TRef.unary (.of main_c_41) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b),
    StableHlo.unary main_v265 main_v267 (broadcastInDim S1x64 ![1] bcast_S64_S1x64_1 : (⟨S64, .f32⟩ : BufTy).Contents (Elt F) → (⟨S1x64, .f32⟩ : BufTy).Contents (Elt F)),
    StableHlo.unary main_v267 main_v268 (broadcastInDim S100000x64 ![0, 1] bcast_S1x64_S100000x64_0_1 : (⟨S1x64, .f32⟩ : BufTy).Contents (Elt F) → (⟨S100000x64, .f32⟩ : BufTy).Contents (Elt F)),
    StableHlo.binary main_v262 main_v268 main_v269 (subf : (⟨S100000x64, .f32⟩ : BufTy).Contents (Elt F) → (⟨S100000x64, .f32⟩ : BufTy).Contents (Elt F) → (⟨S100000x64, .f32⟩ : BufTy).Contents (Elt F)),
    StableHlo.unary main_v233 main_v270 (broadcastInDim S1x64 ![1] bcast_S64_S1x64_1 : (⟨S64, .f32⟩ : BufTy).Contents (Elt F) → (⟨S1x64, .f32⟩ : BufTy).Contents (Elt F)),
    StableHlo.unary main_v270 main_v271 (broadcastInDim S100000x64 ![0, 1] bcast_S1x64_S100000x64_0_1 : (⟨S1x64, .f32⟩ : BufTy).Contents (Elt F) → (⟨S100000x64, .f32⟩ : BufTy).Contents (Elt F)),
    StableHlo.binary main_v271 main_v269 main_v272 (mulf : (⟨S100000x64, .f32⟩ : BufTy).Contents (Elt F) → (⟨S100000x64, .f32⟩ : BufTy).Contents (Elt F) → (⟨S100000x64, .f32⟩ : BufTy).Contents (Elt F)),
    StableHlo.nullary main_cst_42 (constant S_ .f32 0x3727C5AC#32),
    StableHlo.unary main_cst_42 main_v273 (broadcastInDim S64 ![] bcast_S_S64 : (⟨S_, .f32⟩ : BufTy).Contents (Elt F) → (⟨S64, .f32⟩ : BufTy).Contents (Elt F)),
    StableHlo.binary main_v266 main_v273 main_v274 (addf : (⟨S64, .f32⟩ : BufTy).Contents (Elt F) → (⟨S64, .f32⟩ : BufTy).Contents (Elt F) → (⟨S64, .f32⟩ : BufTy).Contents (Elt F)),
    StableHlo.unary main_v274 main_v275 (Host.rsqrt : (⟨S64, .f32⟩ : BufTy).Contents (Elt F) → (⟨S64, .f32⟩ : BufTy).Contents (Elt F)),
    StableHlo.unary main_v275 main_v276 (broadcastInDim S1x64 ![1] bcast_S64_S1x64_1 : (⟨S64, .f32⟩ : BufTy).Contents (Elt F) → (⟨S1x64, .f32⟩ : BufTy).Contents (Elt F)),
    StableHlo.unary main_v276 main_v277 (broadcastInDim S100000x64 ![0, 1] bcast_S1x64_S100000x64_0_1 : (⟨S1x64, .f32⟩ : BufTy).Contents (Elt F) → (⟨S100000x64, .f32⟩ : BufTy).Contents (Elt F)),
    StableHlo.binary main_v272 main_v277 main_v278 (mulf : (⟨S100000x64, .f32⟩ : BufTy).Contents (Elt F) → (⟨S100000x64, .f32⟩ : BufTy).Contents (Elt F) → (⟨S100000x64, .f32⟩ : BufTy).Contents (Elt F)),
    StableHlo.unary main_v235 main_v279 (broadcastInDim S1x64 ![1] bcast_S64_S1x64_1 : (⟨S64, .f32⟩ : BufTy).Contents (Elt F) → (⟨S1x64, .f32⟩ : BufTy).Contents (Elt F)),
    StableHlo.unary main_v279 main_v280 (broadcastInDim S100000x64 ![0, 1] bcast_S1x64_S100000x64_0_1 : (⟨S1x64, .f32⟩ : BufTy).Contents (Elt F) → (⟨S100000x64, .f32⟩ : BufTy).Contents (Elt F)),
    StableHlo.binary main_v278 main_v280 main_v281 (addf : (⟨S100000x64, .f32⟩ : BufTy).Contents (Elt F) → (⟨S100000x64, .f32⟩ : BufTy).Contents (Elt F) → (⟨S100000x64, .f32⟩ : BufTy).Contents (Elt F)),
    StableHlo.nullary main_cst_43 (constant S_ .f32 0x00000000#32),
    StableHlo.unary main_cst_43 main_v282 (broadcastInDim S2048x64 ![] bcast_S_S2048x64 : (⟨S_, .f32⟩ : BufTy).Contents (Elt F) → (⟨S2048x64, .f32⟩ : BufTy).Contents (Elt F)),
    StableHlo.unary main_arg2 main_v283 (broadcastInDim S100000x1 ![0] bcast_S100000_S100000x1_0 : (⟨S100000, .i32⟩ : BufTy).Contents (Elt F) → (⟨S100000x1, .i32⟩ : BufTy).Contents (Elt F)),
    StableHlo.ternary main_v282 main_v283 main_v281 main_v284 ((fun x i u => Host.scatterAdd scatter_S2048x64_S100000x1_S100000x64_1_0_0_1 x i u) : (⟨S2048x64, .f32⟩ : BufTy).Contents (Elt F) → (⟨S100000x1, .i32⟩ : BufTy).Contents (Elt F) → (⟨S100000x64, .f32⟩ : BufTy).Contents (Elt F) → (⟨S2048x64, .f32⟩ : BufTy).Contents (Elt F)),
    StableHlo.binary main_v284 main_arg13 main_v285 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    StableHlo.unary main_arg14 main_v286 (broadcastInDim S1x64 ![1] bcast_S64_S1x64_1 : (⟨S64, .f32⟩ : BufTy).Contents (Elt F) → (⟨S1x64, .f32⟩ : BufTy).Contents (Elt F)),
    StableHlo.unary main_v286 main_v287 (broadcastInDim S2048x64 ![0, 1] bcast_S1x64_S2048x64_0_1 : (⟨S1x64, .f32⟩ : BufTy).Contents (Elt F) → (⟨S2048x64, .f32⟩ : BufTy).Contents (Elt F)),
    StableHlo.binary main_v285 main_v287 main_v288 (addf : (⟨S2048x64, .f32⟩ : BufTy).Contents (Elt F) → (⟨S2048x64, .f32⟩ : BufTy).Contents (Elt F) → (⟨S2048x64, .f32⟩ : BufTy).Contents (Elt F)),
    StableHlo.nullary main_cst_44 (constant S_ .f32 0x00000000#32),
    StableHlo.unary main_cst_44 main_v289 (broadcastInDim S2048x64 ![] bcast_S_S2048x64 : (⟨S_, .f32⟩ : BufTy).Contents (Elt F) → (⟨S2048x64, .f32⟩ : BufTy).Contents (Elt F)),
    StableHlo.binary main_v288 main_v289 main_v290 (maximumf : (⟨S2048x64, .f32⟩ : BufTy).Contents (Elt F) → (⟨S2048x64, .f32⟩ : BufTy).Contents (Elt F) → (⟨S2048x64, .f32⟩ : BufTy).Contents (Elt F)),
    StableHlo.binary main_v290 main_arg15 main_v291 ((fun l r => Host.dotGeneral dot_S2048x64_S64x32_S2048x32_1_0_0_1_n_n none l r) : (⟨S2048x64, .f32⟩ : BufTy).Contents (Elt F) → (⟨S64x32, .f32⟩ : BufTy).Contents (Elt F) → (⟨S2048x32, .f32⟩ : BufTy).Contents (Elt F)),
    StableHlo.unary main_arg16 main_v292 (broadcastInDim S1x32 ![1] bcast_S32_S1x32_1 : (⟨S32, .f32⟩ : BufTy).Contents (Elt F) → (⟨S1x32, .f32⟩ : BufTy).Contents (Elt F)),
    StableHlo.unary main_v292 main_v293 (broadcastInDim S2048x32 ![0, 1] bcast_S1x32_S2048x32_0_1 : (⟨S1x32, .f32⟩ : BufTy).Contents (Elt F) → (⟨S2048x32, .f32⟩ : BufTy).Contents (Elt F)),
    StableHlo.binary main_v291 main_v293 main_v294 (addf : (⟨S2048x32, .f32⟩ : BufTy).Contents (Elt F) → (⟨S2048x32, .f32⟩ : BufTy).Contents (Elt F) → (⟨S2048x32, .f32⟩ : BufTy).Contents (Elt F)) ]

theorem ops5_sub : (ops5 : List (HloOp τ sig (Elt F))).Forall fun op => op.bufs ⊆ tcRefs τ sig :=
  ⟨binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

theorem ops0_fresh : (ops0 : List (HloOp τ sig (Elt F))).Forall fun op => op.fresh = ∅ := by
  simp only [List.Forall]; repeat' constructor

set_option maxRecDepth 16384 in
/-- Window 0 is its list run in order: the helpers' bodies unfolded at their calls, sequencing reassociated. -/
theorem part0_eq (c : Dev nD) : main_part0 (F := F) c = seq ops0 := by
  simp only [main_part0, fn_var.body, fn_where.body, seq, bind_assoc, pure_bind]
  rfl

theorem ops1_fresh : (ops1 : List (HloOp τ sig (Elt F))).Forall fun op => op.fresh = ∅ := by
  simp only [List.Forall]; repeat' constructor

set_option maxRecDepth 16384 in
/-- Window 1 is its list run in order: the helpers' bodies unfolded at their calls, sequencing reassociated. -/
theorem part1_eq (c : Dev nD) : main_part1 (F := F) c = seq ops1 := by
  simp only [main_part1, fn_var.body, fn_where.body, seq, bind_assoc, pure_bind]
  rfl

theorem ops2_fresh : (ops2 : List (HloOp τ sig (Elt F))).Forall fun op => op.fresh = ∅ := by
  simp only [List.Forall]; repeat' constructor

set_option maxRecDepth 16384 in
/-- Window 2 is its list run in order: the helpers' bodies unfolded at their calls, sequencing reassociated. -/
theorem part2_eq (c : Dev nD) : main_part2 (F := F) c = seq ops2 := by
  simp only [main_part2, fn_var.body, fn_where.body, seq, bind_assoc, pure_bind]
  rfl

theorem ops3_fresh : (ops3 : List (HloOp τ sig (Elt F))).Forall fun op => op.fresh = ∅ := by
  simp only [List.Forall]; repeat' constructor

set_option maxRecDepth 16384 in
/-- Window 3 is its list run in order: the helpers' bodies unfolded at their calls, sequencing reassociated. -/
theorem part3_eq (c : Dev nD) : main_part3 (F := F) c = seq ops3 := by
  simp only [main_part3, fn_var.body, fn_where.body, seq, bind_assoc, pure_bind]
  rfl

theorem ops4_fresh : (ops4 : List (HloOp τ sig (Elt F))).Forall fun op => op.fresh = ∅ := by
  simp only [List.Forall]; repeat' constructor

set_option maxRecDepth 16384 in
/-- Window 4 is its list run in order: the helpers' bodies unfolded at their calls, sequencing reassociated. -/
theorem part4_eq (c : Dev nD) : main_part4 (F := F) c = seq ops4 := by
  simp only [main_part4, fn_var.body, fn_where.body, seq, bind_assoc, pure_bind]
  rfl

theorem ops5_fresh : (ops5 : List (HloOp τ sig (Elt F))).Forall fun op => op.fresh = ∅ := by
  simp only [List.Forall]; repeat' constructor

set_option maxRecDepth 16384 in
/-- Window 5 is its list run in order: the helpers' bodies unfolded at their calls, sequencing reassociated. -/
theorem part5_eq (c : Dev nD) : main_part5 (F := F) c = seq ops5 := by
  simp only [main_part5, fn_var.body, fn_where.body, seq, bind_assoc, pure_bind]

/-- @main's 447 operations: the windows in order. -/
abbrev ops : List (HloOp τ sig (Elt F)) := ops0 ++ (ops1 ++ (ops2 ++ (ops3 ++ (ops4 ++ (ops5)))))

theorem main_eq (c : Dev nD) : main (F := F) c = seq ops := by
  unfold ops
  simp only [seq_append]
  rw [← part0_eq c, ← part1_eq c, ← part2_eq c, ← part3_eq c, ← part4_eq c, ← part5_eq c]
  rfl

theorem ops_sub : (ops : List (HloOp τ sig (Elt F))).Forall fun op => op.bufs ⊆ tcRefs τ sig := by
  rw [List.forall_iff_forall_mem]; intro op h
  simp only [ops, List.mem_append] at h
  rcases h with h | h | h | h | h | h
  exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h, List.forall_iff_forall_mem.mp ops5_sub op h]

theorem ops_fresh : ∀ op ∈ (ops : List (HloOp τ sig (Elt F))), op.fresh = ∅ := by
  intro op h
  simp only [ops, List.mem_append] at h
  rcases h with h | h | h | h | h | h
  exacts [List.forall_iff_forall_mem.mp ops0_fresh op h, List.forall_iff_forall_mem.mp ops1_fresh op h, List.forall_iff_forall_mem.mp ops2_fresh op h, List.forall_iff_forall_mem.mp ops3_fresh op h, List.forall_iff_forall_mem.mp ops4_fresh op h, List.forall_iff_forall_mem.mp ops5_fresh op h]

theorem scopedRefs_eq : (Finset.univ.filter fun b : Ref sig .tc => b.isScoped) = ∅ := by decide
theorem scopedSems_eq : (Finset.univ.filter fun sm : SemLoc sig => sm.isScoped .tc) = ∅ := by decide

/-- Every weakly fair execution of the reference's @main terminates, and every final state has each buffer at the fold of
    the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.LibReadFold.lean ====
/-
  Reading one buffer out of a fold of host operations.

  A line of host operations leaves every buffer at the fold of the operations' results over the contents it started
  from. Read at one buffer, the fold is a computation: an operation's result at its own buffer is its function's value
  of its operands' contents, and at any other buffer what was there. The library does this in one rewriting pass;
  two kinds of residue are left to finish here — reads that sit inside a `concatenate`'s list of (shape, array)
  pairs, which the pass does not enter, and the transports of a called function's values between a buffer's type and
  the value's type, which are identities (the two types are the same type).
-/
import Idealize.ShloMosaic.Lib.StableHlo.Run

namespace Cert.ReadFold

open Idealize.ShloMosaic Idealize.ShloMosaic.StableHlo

/-- After the one-pass reading of a fold of host operations, the reads left under a `concatenate`'s list of
    (shape, array) pairs: each operation's result at its own buffer is its function's value, at any other buffer
    what was there. -/
macro "finish_results" : tactic =>
  `(tactic| repeat (first
      | rw [StableHlo.nullary_result] | rw [StableHlo.unary_result] | rw [StableHlo.binary_result] | rw [StableHlo.ternary_result]
      | rw [StableHlo.reshape_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide)))

/-- Read a buffer out of a fold: the one-pass reading, then the reads left under a `concatenate`, then the identity
    transports. -/
macro "read_fold" : tactic =>
  `(tactic| (after_results_simp <;> finish_results <;> try simp only [StableHlo.TRef.toBuf, StableHlo.TRef.ofBuf, cast_eq]))

end Cert.ReadFold
-- ==== Proof.RefLayers.lean ====
/- The reference's operations cut after each block's output (five blocks, then the pooling and the head): the same list,
   and what each stretch leaves in its output buffer as the host forms of the block, of the pooling and of the head.
   (Written by scratch/gen_reflayers.mjs from the printed program: a table; the reads are by computation.) -/
import proofs.«169884_j31009663877671_1_alg».proof.Proof.RefOps
import proofs.«169884_j31009663877671_1_alg».proof.Proof.HostForms
import proofs.«169884_j31009663877671_1_alg».proof.Proof.LibReadFold

noncomputable section

namespace Cert.ReferenceIdeal.RefRun

open Cert.ReferenceIdeal Cert.ReferenceIdeal.Forms Idealize.ShloMosaic Idealize.ShloMosaic.TcCoe Idealize.SL.Sem Idealize.ShloMosaic.StableHlo Cert.ReadFold
open Facts₀ Facts

variable {F : FTy → Type} [FloatOps F]

/-- Stretch 1: 80 operations. -/
abbrev L1 : List (HloOp τ sig (Elt F)) :=
  [ StableHlo.unary main_arg11 main_v0 ((extractStridedSlice S1x64 ![0, 0] · slices_S5x64_S1x64_0_0) : (⟨S5x64, .f32⟩ : BufTy).Contents (Elt F) → (⟨S1x64, .f32⟩ : BufTy).Contents (Elt F)),
    StableHlo.reshape main_v0 main_v1 rfl shapeCasts_S1x64_S64,
    StableHlo.unary main_arg12 main_v2 ((extractStridedSlice S1x64 ![0, 0] · slices_S5x64_S1x64_0_0) : (⟨S5x64, .f32⟩ : BufTy).Contents (Elt F) → (⟨S1x64, .f32⟩ : BufTy).Contents (Elt F)),
    StableHlo.reshape main_v2 main_v3 rfl shapeCasts_S1x64_S64,
    StableHlo.unary main_arg1 main_v4 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v4 main_v5 rfl shapeCasts_S1x1600000_S1600000,
    StableHlo.nullary main_c (constantI S_ 32 0#32),
    StableHlo.unary main_c main_v6 (broadcastInDim S1600000 ![] bcast_S_S1600000 : (⟨S_, .i32⟩ : BufTy).Contents (Elt F) → (⟨S1600000, .i32⟩ : BufTy).Contents (Elt F)),
    StableHlo.binary main_v5 main_v6 main_v7 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v8 (broadcastInDim S1600000 ![] bcast_S_S1600000 : (⟨S_, .i32⟩ : BufTy).Contents (Elt F) → (⟨S1600000, .i32⟩ : BufTy).Contents (Elt F)),
    StableHlo.binary main_v5 main_v8 main_v9 (addi : (⟨S1600000, .i32⟩ : BufTy).Contents (Elt F) → (⟨S1600000, .i32⟩ : BufTy).Contents (Elt F) → (⟨S1600000, .i32⟩ : BufTy).Contents (Elt F)),
    StableHlo.ternary main_v7 main_v9 main_v5 main_v10 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v10 main_v11 (broadcastInDim S1600000x1 ![0] bcast_S1600000_S1600000x1_0 : (⟨S1600000, .i32⟩ : BufTy).Contents (Elt F) → (⟨S1600000x1, .i32⟩ : BufTy).Contents (Elt F)),
    StableHlo.binary main_arg0 main_v11 main_v12 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_arg1 main_v13 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v13 main_v14 rfl shapeCasts_S1x1600000_S1600000,
    StableHlo.nullary main_cst (constant S_ .f32 0x00000000#32),
    StableHlo.unary main_cst main_v15 (broadcastInDim S100000x128 ![] bcast_S_S100000x128 : (⟨S_, .f32⟩ : BufTy).Contents (Elt F) → (⟨S100000x128, .f32⟩ : BufTy).Contents (Elt F)),
    StableHlo.unary main_v14 main_v16 (broadcastInDim S1600000x1 ![0] bcast_S1600000_S1600000x1_0 : (⟨S1600000, .i32⟩ : BufTy).Contents (Elt F) → (⟨S1600000x1, .i32⟩ : BufTy).Contents (Elt F)),
    StableHlo.ternary main_v15 main_v16 main_v12 main_v17 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_arg0 main_v17 main_v18 (addf : (⟨S100000x128, .f32⟩ : BufTy).Contents (Elt F) → (⟨S100000x128, .f32⟩ : BufTy).Contents (Elt F) → (⟨S100000x128, .f32⟩ : BufTy).Contents (Elt F)),
    StableHlo.binary main_v18 main_arg3 main_v19 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg4 main_v20 (broadcastInDim S1x64 ![1] bcast_S64_S1x64_1 : (⟨S64, .f32⟩ : BufTy).Contents (Elt F) → (⟨S1x64, .f32⟩ : BufTy).Contents (Elt F)),
    StableHlo.unary main_v20 main_v21 (broadcastInDim S100000x64 ![0, 1] bcast_S1x64_S100000x64_0_1 : (⟨S1x64, .f32⟩ : BufTy).Contents (Elt F) → (⟨S100000x64, .f32⟩ : BufTy).Contents (Elt F)),
    StableHlo.binary main_v19 main_v21 main_v22 (addf : (⟨S100000x64, .f32⟩ : BufTy).Contents (Elt F) → (⟨S100000x64, .f32⟩ : BufTy).Contents (Elt F) → (⟨S100000x64, .f32⟩ : BufTy).Contents (Elt F)),
    StableHlo.nullary main_cst_1 (constant S_ .f32 0x00000000#32),
    StableHlo.unary main_cst_1 main_v23 (broadcastInDim S100000x64 ![] bcast_S_S100000x64 : (⟨S_, .f32⟩ : BufTy).Contents (Elt F) → (⟨S100000x64, .f32⟩ : BufTy).Contents (Elt F)),
    StableHlo.binary main_v22 main_v23 main_v24 (maximumf : (⟨S100000x64, .f32⟩ : BufTy).Contents (Elt F) → (⟨S100000x64, .f32⟩ : BufTy).Contents (Elt F) → (⟨S100000x64, .f32⟩ : BufTy).Contents (Elt F)),
    StableHlo.binary main_v24 main_arg5 main_v25 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg6 main_v26 (broadcastInDim S1x64 ![1] bcast_S64_S1x64_1 : (⟨S64, .f32⟩ : BufTy).Contents (Elt F) → (⟨S1x64, .f32⟩ : BufTy).Contents (Elt F)),
    StableHlo.unary main_v26 main_v27 (broadcastInDim S100000x64 ![0, 1] bcast_S1x64_S100000x64_0_1 : (⟨S1x64, .f32⟩ : BufTy).Contents (Elt F) → (⟨S100000x64, .f32⟩ : BufTy).Contents (Elt F)),
    StableHlo.binary main_v25 main_v27 main_v28 (addf : (⟨S100000x64, .f32⟩ : BufTy).Contents (Elt F) → (⟨S100000x64, .f32⟩ : BufTy).Contents (Elt F) → (⟨S100000x64, .f32⟩ : BufTy).Contents (Elt F)),
    StableHlo.nullary main_cst_2 (constant S_ .f32 0x00000000#32),
    StableHlo.unary main_cst_2 main_v29 (broadcastInDim S100000x64 ![] bcast_S_S100000x64 : (⟨S_, .f32⟩ : BufTy).Contents (Elt F) → (⟨S100000x64, .f32⟩ : BufTy).Contents (Elt F)),
    StableHlo.binary main_v28 main_v29 main_v30 (maximumf : (⟨S100000x64, .f32⟩ : BufTy).Contents (Elt F) → (⟨S100000x64, .f32⟩ : BufTy).Contents (Elt F) → (⟨S100000x64, .f32⟩ : BufTy).Contents (Elt F)),
    StableHlo.nullary main_cst_3 (constant S_ .f32 0x00000000#32),
    StableHlo.binary main_v30 main_cst_3 main_v31 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_4 (constant S_ .f32 0x47C35000#32),
    StableHlo.unary main_cst_4 main_v32 (broadcastInDim S64 ![] bcast_S_S64 : (⟨S_, .f32⟩ : BufTy).Contents (Elt F) → (⟨S64, .f32⟩ : BufTy).Contents (Elt F)),
    StableHlo.binary main_v31 main_v32 main_v33 (Host.divf : (⟨S64, .f32⟩ : BufTy).Contents (Elt F) → (⟨S64, .f32⟩ : BufTy).Contents (Elt F) → (⟨S64, .f32⟩ : BufTy).Contents (Elt F)),
    StableHlo.nullary main_c_5 (constantI S_ 32 0#32),
    StableHlo.TRef.nullary main_call0.cst (constant S_ .f32 0x00000000#32),
    StableHlo.TRef.binary (.of main_v30) main_call0.cst main_call0.v0 (fun x v => Host.reduceAdd x v reducesTo_S100000x64_S64_d0 h_S_),
    StableHlo.TRef.unary main_call0.v0 main_call0.v1 (broadcastInDim S1x64 ![1] bcast_S64_S1x64_1),
    StableHlo.TRef.nullary main_call0.cst_0 (constant S_ .f32 0x47C35000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S100000x64 ![0, 1] bcast_S1x64_S100000x64_0_1),
    StableHlo.TRef.binary (.of main_v30) main_call0.v4 main_call0.v5 subf,
    StableHlo.TRef.binary main_call0.v5 main_call0.v5 main_call0.v6 mulf,
    StableHlo.TRef.unary (.of main_c_5) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v33 main_v35 (broadcastInDim S1x64 ![1] bcast_S64_S1x64_1 : (⟨S64, .f32⟩ : BufTy).Contents (Elt F) → (⟨S1x64, .f32⟩ : BufTy).Contents (Elt F)),
    StableHlo.unary main_v35 main_v36 (broadcastInDim S100000x64 ![0, 1] bcast_S1x64_S100000x64_0_1 : (⟨S1x64, .f32⟩ : BufTy).Contents (Elt F) → (⟨S100000x64, .f32⟩ : BufTy).Contents (Elt F)),
    StableHlo.binary main_v30 main_v36 main_v37 (subf : (⟨S100000x64, .f32⟩ : BufTy).Contents (Elt F) → (⟨S100000x64, .f32⟩ : BufTy).Contents (Elt F) → (⟨S100000x64, .f32⟩ : BufTy).Contents (Elt F)),
    StableHlo.unary main_v1 main_v38 (broadcastInDim S1x64 ![1] bcast_S64_S1x64_1 : (⟨S64, .f32⟩ : BufTy).Contents (Elt F) → (⟨S1x64, .f32⟩ : BufTy).Contents (Elt F)),
    StableHlo.unary main_v38 main_v39 (broadcastInDim S100000x64 ![0, 1] bcast_S1x64_S100000x64_0_1 : (⟨S1x64, .f32⟩ : BufTy).Contents (Elt F) → (⟨S100000x64, .f32⟩ : BufTy).Contents (Elt F)),
    StableHlo.binary main_v39 main_v37 main_v40 (mulf : (⟨S100000x64, .f32⟩ : BufTy).Contents (Elt F) → (⟨S100000x64, .f32⟩ : BufTy).Contents (Elt F) → (⟨S100000x64, .f32⟩ : BufTy).Contents (Elt F)),
    StableHlo.nullary main_cst_6 (constant S_ .f32 0x3727C5AC#32),
    StableHlo.unary main_cst_6 main_v41 (broadcastInDim S64 ![] bcast_S_S64 : (⟨S_, .f32⟩ : BufTy).Contents (Elt F) → (⟨S64, .f32⟩ : BufTy).Contents (Elt F)),
    StableHlo.binary main_v34 main_v41 main_v42 (addf : (⟨S64, .f32⟩ : BufTy).Contents (Elt F) → (⟨S64, .f32⟩ : BufTy).Contents (Elt F) → (⟨S64, .f32⟩ : BufTy).Contents (Elt F)),
    StableHlo.unary main_v42 main_v43 (Host.rsqrt : (⟨S64, .f32⟩ : BufTy).Contents (Elt F) → (⟨S64, .f32⟩ : BufTy).Contents (Elt F)),
    StableHlo.unary main_v43 main_v44 (broadcastInDim S1x64 ![1] bcast_S64_S1x64_1 : (⟨S64, .f32⟩ : BufTy).Contents (Elt F) → (⟨S1x64, .f32⟩ : BufTy).Contents (Elt F)),
    StableHlo.unary main_v44 main_v45 (broadcastInDim S100000x64 ![0, 1] bcast_S1x64_S100000x64_0_1 : (⟨S1x64, .f32⟩ : BufTy).Contents (Elt F) → (⟨S100000x64, .f32⟩ : BufTy).Contents (Elt F)),
    StableHlo.binary main_v40 main_v45 main_v46 (mulf : (⟨S100000x64, .f32⟩ : BufTy).Contents (Elt F) → (⟨S100000x64, .f32⟩ : BufTy).Contents (Elt F) → (⟨S100000x64, .f32⟩ : BufTy).Contents (Elt F)),
    StableHlo.unary main_v3 main_v47 (broadcastInDim S1x64 ![1] bcast_S64_S1x64_1 : (⟨S64, .f32⟩ : BufTy).Contents (Elt F) → (⟨S1x64, .f32⟩ : BufTy).Contents (Elt F)),
    StableHlo.unary main_v47 main_v48 (broadcastInDim S100000x64 ![0, 1] bcast_S1x64_S100000x64_0_1 : (⟨S1x64, .f32⟩ : BufTy).Contents (Elt F) → (⟨S100000x64, .f32⟩ : BufTy).Contents (Elt F)),
    StableHlo.binary main_v46 main_v48 main_v49 (addf : (⟨S100000x64, .f32⟩ : BufTy).Contents (Elt F) → (⟨S100000x64, .f32⟩ : BufTy).Contents (Elt F) → (⟨S100000x64, .f32⟩ : BufTy).Contents (Elt F)) ]

/-- Stretch 2: 88 operations. -/
abbrev L2 : List (HloOp τ sig (Elt F)) :=
  [ StableHlo.unary main_arg7 main_v50 ((extractStridedSlice S1x64x64 ![0, 0, 0] · slices_S4x64x64_S1x64x64_0_0_0) : (⟨S4x64x64, .f32⟩ : BufTy).Contents (Elt F) → (⟨S1x64x64, .f32⟩ : BufTy).Contents (Elt F)),
    StableHlo.reshape main_v50 main_v51 rfl shapeCasts_S1x64x64_S64x64,
    StableHlo.unary main_arg8 main_v52 ((extractStridedSlice S1x64 ![0, 0] · slices_S4x64_S1x64_0_0) : (⟨S4x64, .f32⟩ : BufTy).Contents (Elt F) → (⟨S1x64, .f32⟩ : BufTy).Contents (Elt F)),
    StableHlo.reshape main_v52 main_v53 rfl shapeCasts_S1x64_S64,
    StableHlo.unary main_arg9 main_v54 ((extractStridedSlice S1x64x64 ![0, 0, 0] · slices_S4x64x64_S1x64x64_0_0_0) : (⟨S4x64x64, .f32⟩ : BufTy).Contents (Elt F) → (⟨S1x64x64, .f32⟩ : BufTy).Contents (Elt F)),
    StableHlo.reshape main_v54 main_v55 rfl shapeCasts_S1x64x64_S64x64,
    StableHlo.unary main_arg10 main_v56 ((extractStridedSlice S1x64 ![0, 0] · slices_S4x64_S1x64_0_0) : (⟨S4x64, .f32⟩ : BufTy).Contents (Elt F) → (⟨S1x64, .f32⟩ : BufTy).Contents (Elt F)),
    StableHlo.reshape main_v56 main_v57 rfl shapeCasts_S1x64_S64,
    StableHlo.unary main_arg11 main_v58 ((extractStridedSlice S1x64 ![1, 0] · slices_S5x64_S1x64_1_0) : (⟨S5x64, .f32⟩ : BufTy).Contents (Elt F) → (⟨S1x64, .f32⟩ : BufTy).Contents (Elt F)),
    StableHlo.reshape main_v58 main_v59 rfl shapeCasts_S1x64_S64,
    StableHlo.unary main_arg12 main_v60 ((extractStridedSlice S1x64 ![1, 0] · slices_S5x64_S1x64_1_0) : (⟨S5x64, .f32⟩ : BufTy).Contents (Elt F) → (⟨S1x64, .f32⟩ : BufTy).Contents (Elt F)),
    StableHlo.reshape main_v60 main_v61 rfl shapeCasts_S1x64_S64,
    StableHlo.unary main_arg1 main_v62 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v62 main_v63 rfl shapeCasts_S1x1600000_S1600000,
    StableHlo.nullary main_c_7 (constantI S_ 32 0#32),
    StableHlo.unary main_c_7 main_v64 (broadcastInDim S1600000 ![] bcast_S_S1600000 : (⟨S_, .i32⟩ : BufTy).Contents (Elt F) → (⟨S1600000, .i32⟩ : BufTy).Contents (Elt F)),
    StableHlo.binary main_v63 main_v64 main_v65 (cmpi .slt : (⟨S1600000, .i32⟩ : BufTy).Contents (Elt F) → (⟨S1600000, .i32⟩ : BufTy).Contents (Elt F) → (⟨S1600000, .i1⟩ : BufTy).Contents (Elt F)),
    StableHlo.nullary main_c_8 (constantI S_ 32 100000#32),
    StableHlo.unary main_c_8 main_v66 (broadcastInDim S1600000 ![] bcast_S_S1600000 : (⟨S_, .i32⟩ : BufTy).Contents (Elt F) → (⟨S1600000, .i32⟩ : BufTy).Contents (Elt F)),
    StableHlo.binary main_v63 main_v66 main_v67 (addi : (⟨S1600000, .i32⟩ : BufTy).Contents (Elt F) → (⟨S1600000, .i32⟩ : BufTy).Contents (Elt F) → (⟨S1600000, .i32⟩ : BufTy).Contents (Elt F)),
    StableHlo.ternary main_v65 main_v67 main_v63 main_v68 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v68 main_v69 (broadcastInDim S1600000x1 ![0] bcast_S1600000_S1600000x1_0 : (⟨S1600000, .i32⟩ : BufTy).Contents (Elt F) → (⟨S1600000x1, .i32⟩ : BufTy).Contents (Elt F)),
    StableHlo.binary main_v49 main_v69 main_v70 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_arg1 main_v71 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v71 main_v72 rfl shapeCasts_S1x1600000_S1600000,
    StableHlo.nullary main_cst_9 (constant S_ .f32 0x00000000#32),
    StableHlo.unary main_cst_9 main_v73 (broadcastInDim S100000x64 ![] bcast_S_S100000x64 : (⟨S_, .f32⟩ : BufTy).Contents (Elt F) → (⟨S100000x64, .f32⟩ : BufTy).Contents (Elt F)),
    StableHlo.unary main_v72 main_v74 (broadcastInDim S1600000x1 ![0] bcast_S1600000_S1600000x1_0 : (⟨S1600000, .i32⟩ : BufTy).Contents (Elt F) → (⟨S1600000x1, .i32⟩ : BufTy).Contents (Elt F)),
    StableHlo.ternary main_v73 main_v74 main_v70 main_v75 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v49 main_v75 main_v76 (addf : (⟨S100000x64, .f32⟩ : BufTy).Contents (Elt F) → (⟨S100000x64, .f32⟩ : BufTy).Contents (Elt F) → (⟨S100000x64, .f32⟩ : BufTy).Contents (Elt F)),
    StableHlo.binary main_v76 main_v51 main_v77 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v53 main_v78 (broadcastInDim S1x64 ![1] bcast_S64_S1x64_1 : (⟨S64, .f32⟩ : BufTy).Contents (Elt F) → (⟨S1x64, .f32⟩ : BufTy).Contents (Elt F)),
    StableHlo.unary main_v78 main_v79 (broadcastInDim S100000x64 ![0, 1] bcast_S1x64_S100000x64_0_1 : (⟨S1x64, .f32⟩ : BufTy).Contents (Elt F) → (⟨S100000x64, .f32⟩ : BufTy).Contents (Elt F)),
    StableHlo.binary main_v77 main_v79 main_v80 (addf : (⟨S100000x64, .f32⟩ : BufTy).Contents (Elt F) → (⟨S100000x64, .f32⟩ : BufTy).Contents (Elt F) → (⟨S100000x64, .f32⟩ : BufTy).Contents (Elt F)),
    StableHlo.nullary main_cst_10 (constant S_ .f32 0x00000000#32),
    StableHlo.unary main_cst_10 main_v81 (broadcastInDim S100000x64 ![] bcast_S_S100000x64 : (⟨S_, .f32⟩ : BufTy).Contents (Elt F) → (⟨S100000x64, .f32⟩ : BufTy).Contents (Elt F)),
    StableHlo.binary main_v80 main_v81 main_v82 (maximumf : (⟨S100000x64, .f32⟩ : BufTy).Contents (Elt F) → (⟨S100000x64, .f32⟩ : BufTy).Contents (Elt F) → (⟨S100000x64, .f32⟩ : BufTy).Contents (Elt F)),
    StableHlo.binary main_v82 main_v55 main_v83 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v57 main_v84 (broadcastInDim S1x64 ![1] bcast_S64_S1x64_1 : (⟨S64, .f32⟩ : BufTy).Contents (Elt F) → (⟨S1x64, .f32⟩ : BufTy).Contents (Elt F)),
    StableHlo.unary main_v84 main_v85 (broadcastInDim S100000x64 ![0, 1] bcast_S1x64_S100000x64_0_1 : (⟨S1x64, .f32⟩ : BufTy).Contents (Elt F) → (⟨S100000x64, .f32⟩ : BufTy).Contents (Elt F)),
    StableHlo.binary main_v83 main_v85 main_v86 (addf : (⟨S100000x64, .f32⟩ : BufTy).Contents (Elt F) → (⟨S100000x64, .f32⟩ : BufTy).Contents (Elt F) → (⟨S100000x64, .f32⟩ : BufTy).Contents (Elt F)),
    StableHlo.nullary main_cst_11 (constant S_ .f32 0x00000000#32),
    StableHlo.unary main_cst_11 main_v87 (broadcastInDim S100000x64 ![] bcast_S_S100000x64 : (⟨S_, .f32⟩ : BufTy).Contents (Elt F) → (⟨S100000x64, .f32⟩ : BufTy).Contents (Elt F)),
    StableHlo.binary main_v86 main_v87 main_v88 (maximumf : (⟨S100000x64, .f32⟩ : BufTy).Contents (Elt F) → (⟨S100000x64, .f32⟩ : BufTy).Contents (Elt F) → (⟨S100000x64, .f32⟩ : BufTy).Contents (Elt F)),
    StableHlo.nullary main_cst_12 (constant S_ .f32 0x00000000#32),
    StableHlo.binary main_v88 main_cst_12 main_v89 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_13 (constant S_ .f32 0x47C35000#32),
    StableHlo.unary main_cst_13 main_v90 (broadcastInDim S64 ![] bcast_S_S64 : (⟨S_, .f32⟩ : BufTy).Contents (Elt F) → (⟨S64, .f32⟩ : BufTy).Contents (Elt F)),
    StableHlo.binary main_v89 main_v90 main_v91 (Host.divf : (⟨S64, .f32⟩ : BufTy).Contents (Elt F) → (⟨S64, .f32⟩ : BufTy).Contents (Elt F) → (⟨S64, .f32⟩ : BufTy).Contents (Elt F)),
    StableHlo.nullary main_c_14 (constantI S_ 32 0#32),
    StableHlo.TRef.nullary main_call1.cst (constant S_ .f32 0x00000000#32),
    StableHlo.TRef.binary (.of main_v88) main_call1.cst main_call1.v0 (fun x v => Host.reduceAdd x v reducesTo_S100000x64_S64_d0 h_S_),
    StableHlo.TRef.unary main_call1.v0 main_call1.v1 (broadcastInDim S1x64 ![1] bcast_S64_S1x64_1),
    StableHlo.TRef.nullary main_call1.cst_0 (constant S_ .f32 0x47C35000#32),
    StableHlo.TRef.unary main_call1.cst_0 main_call1.v2 (broadcastInDim S1x64 ![] bcast_S_S1x64),
    StableHlo.TRef.binary main_call1.v1 main_call1.v2 main_call1.v3 Host.divf,
    StableHlo.TRef.unary main_call1.v3 main_call1.v4 (broadcastInDim S100000x64 ![0, 1] bcast_S1x64_S100000x64_0_1),
    StableHlo.TRef.binary (.of main_v88) main_call1.v4 main_call1.v5 subf,
    StableHlo.TRef.binary main_call1.v5 main_call1.v5 main_call1.v6 mulf,
    StableHlo.TRef.unary (.of main_c_14) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x64_S64_d0 h_S_),
    StableHlo.TRef.unary main_call1.v8 main_call1.v10 (broadcastInDim S64 ![] bcast_S_S64),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S64 ![] bcast_S_S64),
    StableHlo.TRef.ternary main_call1.v12 main_call1.v11 main_call1.call0.v1 main_call1.call0.v2 (fun p a b => select (broadcastInDim S64 ![] bcast_S_S64 p) a b),
    StableHlo.unary main_v91 main_v93 (broadcastInDim S1x64 ![1] bcast_S64_S1x64_1 : (⟨S64, .f32⟩ : BufTy).Contents (Elt F) → (⟨S1x64, .f32⟩ : BufTy).Contents (Elt F)),
    StableHlo.unary main_v93 main_v94 (broadcastInDim S100000x64 ![0, 1] bcast_S1x64_S100000x64_0_1 : (⟨S1x64, .f32⟩ : BufTy).Contents (Elt F) → (⟨S100000x64, .f32⟩ : BufTy).Contents (Elt F)),
    StableHlo.binary main_v88 main_v94 main_v95 (subf : (⟨S100000x64, .f32⟩ : BufTy).Contents (Elt F) → (⟨S100000x64, .f32⟩ : BufTy).Contents (Elt F) → (⟨S100000x64, .f32⟩ : BufTy).Contents (Elt F)),
    StableHlo.unary main_v59 main_v96 (broadcastInDim S1x64 ![1] bcast_S64_S1x64_1 : (⟨S64, .f32⟩ : BufTy).Contents (Elt F) → (⟨S1x64, .f32⟩ : BufTy).Contents (Elt F)),
    StableHlo.unary main_v96 main_v97 (broadcastInDim S100000x64 ![0, 1] bcast_S1x64_S100000x64_0_1 : (⟨S1x64, .f32⟩ : BufTy).Contents (Elt F) → (⟨S100000x64, .f32⟩ : BufTy).Contents (Elt F)),
    StableHlo.binary main_v97 main_v95 main_v98 (mulf : (⟨S100000x64, .f32⟩ : BufTy).Contents (Elt F) → (⟨S100000x64, .f32⟩ : BufTy).Contents (Elt F) → (⟨S100000x64, .f32⟩ : BufTy).Contents (Elt F)),
    StableHlo.nullary main_cst_15 (constant S_ .f32 0x3727C5AC#32),
    StableHlo.unary main_cst_15 main_v99 (broadcastInDim S64 ![] bcast_S_S64 : (⟨S_, .f32⟩ : BufTy).Contents (Elt F) → (⟨S64, .f32⟩ : BufTy).Contents (Elt F)),
    StableHlo.binary main_v92 main_v99 main_v100 (addf : (⟨S64, .f32⟩ : BufTy).Contents (Elt F) → (⟨S64, .f32⟩ : BufTy).Contents (Elt F) → (⟨S64, .f32⟩ : BufTy).Contents (Elt F)),
    StableHlo.unary main_v100 main_v101 (Host.rsqrt : (⟨S64, .f32⟩ : BufTy).Contents (Elt F) → (⟨S64, .f32⟩ : BufTy).Contents (Elt F)),
    StableHlo.unary main_v101 main_v102 (broadcastInDim S1x64 ![1] bcast_S64_S1x64_1 : (⟨S64, .f32⟩ : BufTy).Contents (Elt F) → (⟨S1x64, .f32⟩ : BufTy).Contents (Elt F)),
    StableHlo.unary main_v102 main_v103 (broadcastInDim S100000x64 ![0, 1] bcast_S1x64_S100000x64_0_1 : (⟨S1x64, .f32⟩ : BufTy).Contents (Elt F) → (⟨S100000x64, .f32⟩ : BufTy).Contents (Elt F)),
    StableHlo.binary main_v98 main_v103 main_v104 (mulf : (⟨S100000x64, .f32⟩ : BufTy).Contents (Elt F) → (⟨S100000x64, .f32⟩ : BufTy).Contents (Elt F) → (⟨S100000x64, .f32⟩ : BufTy).Contents (Elt F)),
    StableHlo.unary main_v61 main_v105 (broadcastInDim S1x64 ![1] bcast_S64_S1x64_1 : (⟨S64, .f32⟩ : BufTy).Contents (Elt F) → (⟨S1x64, .f32⟩ : BufTy).Contents (Elt F)),
    StableHlo.unary main_v105 main_v106 (broadcastInDim S100000x64 ![0, 1] bcast_S1x64_S100000x64_0_1 : (⟨S1x64, .f32⟩ : BufTy).Contents (Elt F) → (⟨S100000x64, .f32⟩ : BufTy).Contents (Elt F)),
    StableHlo.binary main_v104 main_v106 main_v107 (addf : (⟨S100000x64, .f32⟩ : BufTy).Contents (Elt F) → (⟨S100000x64, .f32⟩ : BufTy).Contents (Elt F) → (⟨S100000x64, .f32⟩ : BufTy).Contents (Elt F)) ]

/-- Stretch 3: 88 operations. -/
abbrev L3 : List (HloOp τ sig (Elt F)) :=
  [ StableHlo.unary main_arg7 main_v108 ((extractStridedSlice S1x64x64 ![1, 0, 0] · slices_S4x64x64_S1x64x64_1_0_0) : (⟨S4x64x64, .f32⟩ : BufTy).Contents (Elt F) → (⟨S1x64x64, .f32⟩ : BufTy).Contents (Elt F)),
    StableHlo.reshape main_v108 main_v109 rfl shapeCasts_S1x64x64_S64x64,
    StableHlo.unary main_arg8 main_v110 ((extractStridedSlice S1x64 ![1, 0] · slices_S4x64_S1x64_1_0) : (⟨S4x64, .f32⟩ : BufTy).Contents (Elt F) → (⟨S1x64, .f32⟩ : BufTy).Contents (Elt F)),
    StableHlo.reshape main_v110 main_v111 rfl shapeCasts_S1x64_S64,
    StableHlo.unary main_arg9 main_v112 ((extractStridedSlice S1x64x64 ![1, 0, 0] · slices_S4x64x64_S1x64x64_1_0_0) : (⟨S4x64x64, .f32⟩ : BufTy).Contents (Elt F) → (⟨S1x64x64, .f32⟩ : BufTy).Contents (Elt F)),
    StableHlo.reshape main_v112 main_v113 rfl shapeCasts_S1x64x64_S64x64,
    StableHlo.unary main_arg10 main_v114 ((extractStridedSlice S1x64 ![1, 0] · slices_S4x64_S1x64_1_0) : (⟨S4x64, .f32⟩ : BufTy).Contents (Elt F) → (⟨S1x64, .f32⟩ : BufTy).Contents (Elt F)),
    StableHlo.reshape main_v114 main_v115 rfl shapeCasts_S1x64_S64,
    StableHlo.unary main_arg11 main_v116 ((extractStridedSlice S1x64 ![2, 0] · slices_S5x64_S1x64_2_0) : (⟨S5x64, .f32⟩ : BufTy).Contents (Elt F) → (⟨S1x64, .f32⟩ : BufTy).Contents (Elt F)),
    StableHlo.reshape main_v116 main_v117 rfl shapeCasts_S1x64_S64,
    StableHlo.unary main_arg12 main_v118 ((extractStridedSlice S1x64 ![2, 0] · slices_S5x64_S1x64_2_0) : (⟨S5x64, .f32⟩ : BufTy).Contents (Elt F) → (⟨S1x64, .f32⟩ : BufTy).Contents (Elt F)),
    StableHlo.reshape main_v118 main_v119 rfl shapeCasts_S1x64_S64,
    StableHlo.unary main_arg1 main_v120 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v120 main_v121 rfl shapeCasts_S1x1600000_S1600000,
    StableHlo.nullary main_c_16 (constantI S_ 32 0#32),
    StableHlo.unary main_c_16 main_v122 (broadcastInDim S1600000 ![] bcast_S_S1600000 : (⟨S_, .i32⟩ : BufTy).Contents (Elt F) → (⟨S1600000, .i32⟩ : BufTy).Contents (Elt F)),
    StableHlo.binary main_v121 main_v122 main_v123 (cmpi .slt : (⟨S1600000, .i32⟩ : BufTy).Contents (Elt F) → (⟨S1600000, .i32⟩ : BufTy).Contents (Elt F) → (⟨S1600000, .i1⟩ : BufTy).Contents (Elt F)),
    StableHlo.nullary main_c_17 (constantI S_ 32 100000#32),
    StableHlo.unary main_c_17 main_v124 (broadcastInDim S1600000 ![] bcast_S_S1600000 : (⟨S_, .i32⟩ : BufTy).Contents (Elt F) → (⟨S1600000, .i32⟩ : BufTy).Contents (Elt F)),
    StableHlo.binary main_v121 main_v124 main_v125 (addi : (⟨S1600000, .i32⟩ : BufTy).Contents (Elt F) → (⟨S1600000, .i32⟩ : BufTy).Contents (Elt F) → (⟨S1600000, .i32⟩ : BufTy).Contents (Elt F)),
    StableHlo.ternary main_v123 main_v125 main_v121 main_v126 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v126 main_v127 (broadcastInDim S1600000x1 ![0] bcast_S1600000_S1600000x1_0 : (⟨S1600000, .i32⟩ : BufTy).Contents (Elt F) → (⟨S1600000x1, .i32⟩ : BufTy).Contents (Elt F)),
    StableHlo.binary main_v107 main_v127 main_v128 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_arg1 main_v129 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v129 main_v130 rfl shapeCasts_S1x1600000_S1600000,
    StableHlo.nullary main_cst_18 (constant S_ .f32 0x00000000#32),
    StableHlo.unary main_cst_18 main_v131 (broadcastInDim S100000x64 ![] bcast_S_S100000x64 : (⟨S_, .f32⟩ : BufTy).Contents (Elt F) → (⟨S100000x64, .f32⟩ : BufTy).Contents (Elt F)),
    StableHlo.unary main_v130 main_v132 (broadcastInDim S1600000x1 ![0] bcast_S1600000_S1600000x1_0 : (⟨S1600000, .i32⟩ : BufTy).Contents (Elt F) → (⟨S1600000x1, .i32⟩ : BufTy).Contents (Elt F)),
    StableHlo.ternary main_v131 main_v132 main_v128 main_v133 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v107 main_v133 main_v134 (addf : (⟨S100000x64, .f32⟩ : BufTy).Contents (Elt F) → (⟨S100000x64, .f32⟩ : BufTy).Contents (Elt F) → (⟨S100000x64, .f32⟩ : BufTy).Contents (Elt F)),
    StableHlo.binary main_v134 main_v109 main_v135 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v111 main_v136 (broadcastInDim S1x64 ![1] bcast_S64_S1x64_1 : (⟨S64, .f32⟩ : BufTy).Contents (Elt F) → (⟨S1x64, .f32⟩ : BufTy).Contents (Elt F)),
    StableHlo.unary main_v136 main_v137 (broadcastInDim S100000x64 ![0, 1] bcast_S1x64_S100000x64_0_1 : (⟨S1x64, .f32⟩ : BufTy).Contents (Elt F) → (⟨S100000x64, .f32⟩ : BufTy).Contents (Elt F)),
    StableHlo.binary main_v135 main_v137 main_v138 (addf : (⟨S100000x64, .f32⟩ : BufTy).Contents (Elt F) → (⟨S100000x64, .f32⟩ : BufTy).Contents (Elt F) → (⟨S100000x64, .f32⟩ : BufTy).Contents (Elt F)),
    StableHlo.nullary main_cst_19 (constant S_ .f32 0x00000000#32),
    StableHlo.unary main_cst_19 main_v139 (broadcastInDim S100000x64 ![] bcast_S_S100000x64 : (⟨S_, .f32⟩ : BufTy).Contents (Elt F) → (⟨S100000x64, .f32⟩ : BufTy).Contents (Elt F)),
    StableHlo.binary main_v138 main_v139 main_v140 (maximumf : (⟨S100000x64, .f32⟩ : BufTy).Contents (Elt F) → (⟨S100000x64, .f32⟩ : BufTy).Contents (Elt F) → (⟨S100000x64, .f32⟩ : BufTy).Contents (Elt F)),
    StableHlo.binary main_v140 main_v113 main_v141 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v115 main_v142 (broadcastInDim S1x64 ![1] bcast_S64_S1x64_1 : (⟨S64, .f32⟩ : BufTy).Contents (Elt F) → (⟨S1x64, .f32⟩ : BufTy).Contents (Elt F)),
    StableHlo.unary main_v142 main_v143 (broadcastInDim S100000x64 ![0, 1] bcast_S1x64_S100000x64_0_1 : (⟨S1x64, .f32⟩ : BufTy).Contents (Elt F) → (⟨S100000x64, .f32⟩ : BufTy).Contents (Elt F)),
    StableHlo.binary main_v141 main_v143 main_v144 (addf : (⟨S100000x64, .f32⟩ : BufTy).Contents (Elt F) → (⟨S100000x64, .f32⟩ : BufTy).Contents (Elt F) → (⟨S100000x64, .f32⟩ : BufTy).Contents (Elt F)),
    StableHlo.nullary main_cst_20 (constant S_ .f32 0x00000000#32),
    StableHlo.unary main_cst_20 main_v145 (broadcastInDim S100000x64 ![] bcast_S_S100000x64 : (⟨S_, .f32⟩ : BufTy).Contents (Elt F) → (⟨S100000x64, .f32⟩ : BufTy).Contents (Elt F)),
    StableHlo.binary main_v144 main_v145 main_v146 (maximumf : (⟨S100000x64, .f32⟩ : BufTy).Contents (Elt F) → (⟨S100000x64, .f32⟩ : BufTy).Contents (Elt F) → (⟨S100000x64, .f32⟩ : BufTy).Contents (Elt F)),
    StableHlo.nullary main_cst_21 (constant S_ .f32 0x00000000#32),
    StableHlo.binary main_v146 main_cst_21 main_v147 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_22 (constant S_ .f32 0x47C35000#32),
    StableHlo.unary main_cst_22 main_v148 (broadcastInDim S64 ![] bcast_S_S64 : (⟨S_, .f32⟩ : BufTy).Contents (Elt F) → (⟨S64, .f32⟩ : BufTy).Contents (Elt F)),
    StableHlo.binary main_v147 main_v148 main_v149 (Host.divf : (⟨S64, .f32⟩ : BufTy).Contents (Elt F) → (⟨S64, .f32⟩ : BufTy).Contents (Elt F) → (⟨S64, .f32⟩ : BufTy).Contents (Elt F)),
    StableHlo.nullary main_c_23 (constantI S_ 32 0#32),
    StableHlo.TRef.nullary main_call2.cst (constant S_ .f32 0x00000000#32),
    StableHlo.TRef.binary (.of main_v146) main_call2.cst main_call2.v0 (fun x v => Host.reduceAdd x v reducesTo_S100000x64_S64_d0 h_S_),
    StableHlo.TRef.unary main_call2.v0 main_call2.v1 (broadcastInDim S1x64 ![1] bcast_S64_S1x64_1),
    StableHlo.TRef.nullary main_call2.cst_0 (constant S_ .f32 0x47C35000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S100000x64 ![0, 1] bcast_S1x64_S100000x64_0_1),
    StableHlo.TRef.binary (.of main_v146) main_call2.v4 main_call2.v5 subf,
    StableHlo.TRef.binary main_call2.v5 main_call2.v5 main_call2.v6 mulf,
    StableHlo.TRef.unary (.of main_c_23) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v149 main_v151 (broadcastInDim S1x64 ![1] bcast_S64_S1x64_1 : (⟨S64, .f32⟩ : BufTy).Contents (Elt F) → (⟨S1x64, .f32⟩ : BufTy).Contents (Elt F)),
    StableHlo.unary main_v151 main_v152 (broadcastInDim S100000x64 ![0, 1] bcast_S1x64_S100000x64_0_1 : (⟨S1x64, .f32⟩ : BufTy).Contents (Elt F) → (⟨S100000x64, .f32⟩ : BufTy).Contents (Elt F)),
    StableHlo.binary main_v146 main_v152 main_v153 (subf : (⟨S100000x64, .f32⟩ : BufTy).Contents (Elt F) → (⟨S100000x64, .f32⟩ : BufTy).Contents (Elt F) → (⟨S100000x64, .f32⟩ : BufTy).Contents (Elt F)),
    StableHlo.unary main_v117 main_v154 (broadcastInDim S1x64 ![1] bcast_S64_S1x64_1 : (⟨S64, .f32⟩ : BufTy).Contents (Elt F) → (⟨S1x64, .f32⟩ : BufTy).Contents (Elt F)),
    StableHlo.unary main_v154 main_v155 (broadcastInDim S100000x64 ![0, 1] bcast_S1x64_S100000x64_0_1 : (⟨S1x64, .f32⟩ : BufTy).Contents (Elt F) → (⟨S100000x64, .f32⟩ : BufTy).Contents (Elt F)),
    StableHlo.binary main_v155 main_v153 main_v156 (mulf : (⟨S100000x64, .f32⟩ : BufTy).Contents (Elt F) → (⟨S100000x64, .f32⟩ : BufTy).Contents (Elt F) → (⟨S100000x64, .f32⟩ : BufTy).Contents (Elt F)),
    StableHlo.nullary main_cst_24 (constant S_ .f32 0x3727C5AC#32),
    StableHlo.unary main_cst_24 main_v157 (broadcastInDim S64 ![] bcast_S_S64 : (⟨S_, .f32⟩ : BufTy).Contents (Elt F) → (⟨S64, .f32⟩ : BufTy).Contents (Elt F)),
    StableHlo.binary main_v150 main_v157 main_v158 (addf : (⟨S64, .f32⟩ : BufTy).Contents (Elt F) → (⟨S64, .f32⟩ : BufTy).Contents (Elt F) → (⟨S64, .f32⟩ : BufTy).Contents (Elt F)),
    StableHlo.unary main_v158 main_v159 (Host.rsqrt : (⟨S64, .f32⟩ : BufTy).Contents (Elt F) → (⟨S64, .f32⟩ : BufTy).Contents (Elt F)),
    StableHlo.unary main_v159 main_v160 (broadcastInDim S1x64 ![1] bcast_S64_S1x64_1 : (⟨S64, .f32⟩ : BufTy).Contents (Elt F) → (⟨S1x64, .f32⟩ : BufTy).Contents (Elt F)),
    StableHlo.unary main_v160 main_v161 (broadcastInDim S100000x64 ![0, 1] bcast_S1x64_S100000x64_0_1 : (⟨S1x64, .f32⟩ : BufTy).Contents (Elt F) → (⟨S100000x64, .f32⟩ : BufTy).Contents (Elt F)),
    StableHlo.binary main_v156 main_v161 main_v162 (mulf : (⟨S100000x64, .f32⟩ : BufTy).Contents (Elt F) → (⟨S100000x64, .f32⟩ : BufTy).Contents (Elt F) → (⟨S100000x64, .f32⟩ : BufTy).Contents (Elt F)),
    StableHlo.unary main_v119 main_v163 (broadcastInDim S1x64 ![1] bcast_S64_S1x64_1 : (⟨S64, .f32⟩ : BufTy).Contents (Elt F) → (⟨S1x64, .f32⟩ : BufTy).Contents (Elt F)),
    StableHlo.unary main_v163 main_v164 (broadcastInDim S100000x64 ![0, 1] bcast_S1x64_S100000x64_0_1 : (⟨S1x64, .f32⟩ : BufTy).Contents (Elt F) → (⟨S100000x64, .f32⟩ : BufTy).Contents (Elt F)),
    StableHlo.binary main_v162 main_v164 main_v165 (addf : (⟨S100000x64, .f32⟩ : BufTy).Contents (Elt F) → (⟨S100000x64, .f32⟩ : BufTy).Contents (Elt F) → (⟨S100000x64, .f32⟩ : BufTy).Contents (Elt F)) ]

/-- Stretch 4: 88 operations. -/
abbrev L4 : List (HloOp τ sig (Elt F)) :=
  [ StableHlo.unary main_arg7 main_v166 ((extractStridedSlice S1x64x64 ![2, 0, 0] · slices_S4x64x64_S1x64x64_2_0_0) : (⟨S4x64x64, .f32⟩ : BufTy).Contents (Elt F) → (⟨S1x64x64, .f32⟩ : BufTy).Contents (Elt F)),
    StableHlo.reshape main_v166 main_v167 rfl shapeCasts_S1x64x64_S64x64,
    StableHlo.unary main_arg8 main_v168 ((extractStridedSlice S1x64 ![2, 0] · slices_S4x64_S1x64_2_0) : (⟨S4x64, .f32⟩ : BufTy).Contents (Elt F) → (⟨S1x64, .f32⟩ : BufTy).Contents (Elt F)),
    StableHlo.reshape main_v168 main_v169 rfl shapeCasts_S1x64_S64,
    StableHlo.unary main_arg9 main_v170 ((extractStridedSlice S1x64x64 ![2, 0, 0] · slices_S4x64x64_S1x64x64_2_0_0) : (⟨S4x64x64, .f32⟩ : BufTy).Contents (Elt F) → (⟨S1x64x64, .f32⟩ : BufTy).Contents (Elt F)),
    StableHlo.reshape main_v170 main_v171 rfl shapeCasts_S1x64x64_S64x64,
    StableHlo.unary main_arg10 main_v172 ((extractStridedSlice S1x64 ![2, 0] · slices_S4x64_S1x64_2_0) : (⟨S4x64, .f32⟩ : BufTy).Contents (Elt F) → (⟨S1x64, .f32⟩ : BufTy).Contents (Elt F)),
    StableHlo.reshape main_v172 main_v173 rfl shapeCasts_S1x64_S64,
    StableHlo.unary main_arg11 main_v174 ((extractStridedSlice S1x64 ![3, 0] · slices_S5x64_S1x64_3_0) : (⟨S5x64, .f32⟩ : BufTy).Contents (Elt F) → (⟨S1x64, .f32⟩ : BufTy).Contents (Elt F)),
    StableHlo.reshape main_v174 main_v175 rfl shapeCasts_S1x64_S64,
    StableHlo.unary main_arg12 main_v176 ((extractStridedSlice S1x64 ![3, 0] · slices_S5x64_S1x64_3_0) : (⟨S5x64, .f32⟩ : BufTy).Contents (Elt F) → (⟨S1x64, .f32⟩ : BufTy).Contents (Elt F)),
    StableHlo.reshape main_v176 main_v177 rfl shapeCasts_S1x64_S64,
    StableHlo.unary main_arg1 main_v178 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v178 main_v179 rfl shapeCasts_S1x1600000_S1600000,
    StableHlo.nullary main_c_25 (constantI S_ 32 0#32),
    StableHlo.unary main_c_25 main_v180 (broadcastInDim S1600000 ![] bcast_S_S1600000 : (⟨S_, .i32⟩ : BufTy).Contents (Elt F) → (⟨S1600000, .i32⟩ : BufTy).Contents (Elt F)),
    StableHlo.binary main_v179 main_v180 main_v181 (cmpi .slt : (⟨S1600000, .i32⟩ : BufTy).Contents (Elt F) → (⟨S1600000, .i32⟩ : BufTy).Contents (Elt F) → (⟨S1600000, .i1⟩ : BufTy).Contents (Elt F)),
    StableHlo.nullary main_c_26 (constantI S_ 32 100000#32),
    StableHlo.unary main_c_26 main_v182 (broadcastInDim S1600000 ![] bcast_S_S1600000 : (⟨S_, .i32⟩ : BufTy).Contents (Elt F) → (⟨S1600000, .i32⟩ : BufTy).Contents (Elt F)),
    StableHlo.binary main_v179 main_v182 main_v183 (addi : (⟨S1600000, .i32⟩ : BufTy).Contents (Elt F) → (⟨S1600000, .i32⟩ : BufTy).Contents (Elt F) → (⟨S1600000, .i32⟩ : BufTy).Contents (Elt F)),
    StableHlo.ternary main_v181 main_v183 main_v179 main_v184 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v184 main_v185 (broadcastInDim S1600000x1 ![0] bcast_S1600000_S1600000x1_0 : (⟨S1600000, .i32⟩ : BufTy).Contents (Elt F) → (⟨S1600000x1, .i32⟩ : BufTy).Contents (Elt F)),
    StableHlo.binary main_v165 main_v185 main_v186 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_arg1 main_v187 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v187 main_v188 rfl shapeCasts_S1x1600000_S1600000,
    StableHlo.nullary main_cst_27 (constant S_ .f32 0x00000000#32),
    StableHlo.unary main_cst_27 main_v189 (broadcastInDim S100000x64 ![] bcast_S_S100000x64 : (⟨S_, .f32⟩ : BufTy).Contents (Elt F) → (⟨S100000x64, .f32⟩ : BufTy).Contents (Elt F)),
    StableHlo.unary main_v188 main_v190 (broadcastInDim S1600000x1 ![0] bcast_S1600000_S1600000x1_0 : (⟨S1600000, .i32⟩ : BufTy).Contents (Elt F) → (⟨S1600000x1, .i32⟩ : BufTy).Contents (Elt F)),
    StableHlo.ternary main_v189 main_v190 main_v186 main_v191 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v165 main_v191 main_v192 (addf : (⟨S100000x64, .f32⟩ : BufTy).Contents (Elt F) → (⟨S100000x64, .f32⟩ : BufTy).Contents (Elt F) → (⟨S100000x64, .f32⟩ : BufTy).Contents (Elt F)),
    StableHlo.binary main_v192 main_v167 main_v193 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v169 main_v194 (broadcastInDim S1x64 ![1] bcast_S64_S1x64_1 : (⟨S64, .f32⟩ : BufTy).Contents (Elt F) → (⟨S1x64, .f32⟩ : BufTy).Contents (Elt F)),
    StableHlo.unary main_v194 main_v195 (broadcastInDim S100000x64 ![0, 1] bcast_S1x64_S100000x64_0_1 : (⟨S1x64, .f32⟩ : BufTy).Contents (Elt F) → (⟨S100000x64, .f32⟩ : BufTy).Contents (Elt F)),
    StableHlo.binary main_v193 main_v195 main_v196 (addf : (⟨S100000x64, .f32⟩ : BufTy).Contents (Elt F) → (⟨S100000x64, .f32⟩ : BufTy).Contents (Elt F) → (⟨S100000x64, .f32⟩ : BufTy).Contents (Elt F)),
    StableHlo.nullary main_cst_28 (constant S_ .f32 0x00000000#32),
    StableHlo.unary main_cst_28 main_v197 (broadcastInDim S100000x64 ![] bcast_S_S100000x64 : (⟨S_, .f32⟩ : BufTy).Contents (Elt F) → (⟨S100000x64, .f32⟩ : BufTy).Contents (Elt F)),
    StableHlo.binary main_v196 main_v197 main_v198 (maximumf : (⟨S100000x64, .f32⟩ : BufTy).Contents (Elt F) → (⟨S100000x64, .f32⟩ : BufTy).Contents (Elt F) → (⟨S100000x64, .f32⟩ : BufTy).Contents (Elt F)),
    StableHlo.binary main_v198 main_v171 main_v199 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v173 main_v200 (broadcastInDim S1x64 ![1] bcast_S64_S1x64_1 : (⟨S64, .f32⟩ : BufTy).Contents (Elt F) → (⟨S1x64, .f32⟩ : BufTy).Contents (Elt F)),
    StableHlo.unary main_v200 main_v201 (broadcastInDim S100000x64 ![0, 1] bcast_S1x64_S100000x64_0_1 : (⟨S1x64, .f32⟩ : BufTy).Contents (Elt F) → (⟨S100000x64, .f32⟩ : BufTy).Contents (Elt F)),
    StableHlo.binary main_v199 main_v201 main_v202 (addf : (⟨S100000x64, .f32⟩ : BufTy).Contents (Elt F) → (⟨S100000x64, .f32⟩ : BufTy).Contents (Elt F) → (⟨S100000x64, .f32⟩ : BufTy).Contents (Elt F)),
    StableHlo.nullary main_cst_29 (constant S_ .f32 0x00000000#32),
    StableHlo.unary main_cst_29 main_v203 (broadcastInDim S100000x64 ![] bcast_S_S100000x64 : (⟨S_, .f32⟩ : BufTy).Contents (Elt F) → (⟨S100000x64, .f32⟩ : BufTy).Contents (Elt F)),
    StableHlo.binary main_v202 main_v203 main_v204 (maximumf : (⟨S100000x64, .f32⟩ : BufTy).Contents (Elt F) → (⟨S100000x64, .f32⟩ : BufTy).Contents (Elt F) → (⟨S100000x64, .f32⟩ : BufTy).Contents (Elt F)),
    StableHlo.nullary main_cst_30 (constant S_ .f32 0x00000000#32),
    StableHlo.binary main_v204 main_cst_30 main_v205 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_31 (constant S_ .f32 0x47C35000#32),
    StableHlo.unary main_cst_31 main_v206 (broadcastInDim S64 ![] bcast_S_S64 : (⟨S_, .f32⟩ : BufTy).Contents (Elt F) → (⟨S64, .f32⟩ : BufTy).Contents (Elt F)),
    StableHlo.binary main_v205 main_v206 main_v207 (Host.divf : (⟨S64, .f32⟩ : BufTy).Contents (Elt F) → (⟨S64, .f32⟩ : BufTy).Contents (Elt F) → (⟨S64, .f32⟩ : BufTy).Contents (Elt F)),
    StableHlo.nullary main_c_32 (constantI S_ 32 0#32),
    StableHlo.TRef.nullary main_call3.cst (constant S_ .f32 0x00000000#32),
    StableHlo.TRef.binary (.of main_v204) main_call3.cst main_call3.v0 (fun x v => Host.reduceAdd x v reducesTo_S100000x64_S64_d0 h_S_),
    StableHlo.TRef.unary main_call3.v0 main_call3.v1 (broadcastInDim S1x64 ![1] bcast_S64_S1x64_1),
    StableHlo.TRef.nullary main_call3.cst_0 (constant S_ .f32 0x47C35000#32),
    StableHlo.TRef.unary main_call3.cst_0 main_call3.v2 (broadcastInDim S1x64 ![] bcast_S_S1x64),
    StableHlo.TRef.binary main_call3.v1 main_call3.v2 main_call3.v3 Host.divf,
    StableHlo.TRef.unary main_call3.v3 main_call3.v4 (broadcastInDim S100000x64 ![0, 1] bcast_S1x64_S100000x64_0_1),
    StableHlo.TRef.binary (.of main_v204) main_call3.v4 main_call3.v5 subf,
    StableHlo.TRef.binary main_call3.v5 main_call3.v5 main_call3.v6 mulf,
    StableHlo.TRef.unary (.of main_c_32) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x64_S64_d0 h_S_),
    StableHlo.TRef.unary main_call3.v8 main_call3.v10 (broadcastInDim S64 ![] bcast_S_S64),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S64 ![] bcast_S_S64),
    StableHlo.TRef.ternary main_call3.v12 main_call3.v11 main_call3.call0.v1 main_call3.call0.v2 (fun p a b => select (broadcastInDim S64 ![] bcast_S_S64 p) a b),
    StableHlo.unary main_v207 main_v209 (broadcastInDim S1x64 ![1] bcast_S64_S1x64_1 : (⟨S64, .f32⟩ : BufTy).Contents (Elt F) → (⟨S1x64, .f32⟩ : BufTy).Contents (Elt F)),
    StableHlo.unary main_v209 main_v210 (broadcastInDim S100000x64 ![0, 1] bcast_S1x64_S100000x64_0_1 : (⟨S1x64, .f32⟩ : BufTy).Contents (Elt F) → (⟨S100000x64, .f32⟩ : BufTy).Contents (Elt F)),
    StableHlo.binary main_v204 main_v210 main_v211 (subf : (⟨S100000x64, .f32⟩ : BufTy).Contents (Elt F) → (⟨S100000x64, .f32⟩ : BufTy).Contents (Elt F) → (⟨S100000x64, .f32⟩ : BufTy).Contents (Elt F)),
    StableHlo.unary main_v175 main_v212 (broadcastInDim S1x64 ![1] bcast_S64_S1x64_1 : (⟨S64, .f32⟩ : BufTy).Contents (Elt F) → (⟨S1x64, .f32⟩ : BufTy).Contents (Elt F)),
    StableHlo.unary main_v212 main_v213 (broadcastInDim S100000x64 ![0, 1] bcast_S1x64_S100000x64_0_1 : (⟨S1x64, .f32⟩ : BufTy).Contents (Elt F) → (⟨S100000x64, .f32⟩ : BufTy).Contents (Elt F)),
    StableHlo.binary main_v213 main_v211 main_v214 (mulf : (⟨S100000x64, .f32⟩ : BufTy).Contents (Elt F) → (⟨S100000x64, .f32⟩ : BufTy).Contents (Elt F) → (⟨S100000x64, .f32⟩ : BufTy).Contents (Elt F)),
    StableHlo.nullary main_cst_33 (constant S_ .f32 0x3727C5AC#32),
    StableHlo.unary main_cst_33 main_v215 (broadcastInDim S64 ![] bcast_S_S64 : (⟨S_, .f32⟩ : BufTy).Contents (Elt F) → (⟨S64, .f32⟩ : BufTy).Contents (Elt F)),
    StableHlo.binary main_v208 main_v215 main_v216 (addf : (⟨S64, .f32⟩ : BufTy).Contents (Elt F) → (⟨S64, .f32⟩ : BufTy).Contents (Elt F) → (⟨S64, .f32⟩ : BufTy).Contents (Elt F)),
    StableHlo.unary main_v216 main_v217 (Host.rsqrt : (⟨S64, .f32⟩ : BufTy).Contents (Elt F) → (⟨S64, .f32⟩ : BufTy).Contents (Elt F)),
    StableHlo.unary main_v217 main_v218 (broadcastInDim S1x64 ![1] bcast_S64_S1x64_1 : (⟨S64, .f32⟩ : BufTy).Contents (Elt F) → (⟨S1x64, .f32⟩ : BufTy).Contents (Elt F)),
    StableHlo.unary main_v218 main_v219 (broadcastInDim S100000x64 ![0, 1] bcast_S1x64_S100000x64_0_1 : (⟨S1x64, .f32⟩ : BufTy).Contents (Elt F) → (⟨S100000x64, .f32⟩ : BufTy).Contents (Elt F)),
    StableHlo.binary main_v214 main_v219 main_v220 (mulf : (⟨S100000x64, .f32⟩ : BufTy).Contents (Elt F) → (⟨S100000x64, .f32⟩ : BufTy).Contents (Elt F) → (⟨S100000x64, .f32⟩ : BufTy).Contents (Elt F)),
    StableHlo.unary main_v177 main_v221 (broadcastInDim S1x64 ![1] bcast_S64_S1x64_1 : (⟨S64, .f32⟩ : BufTy).Contents (Elt F) → (⟨S1x64, .f32⟩ : BufTy).Contents (Elt F)),
    StableHlo.unary main_v221 main_v222 (broadcastInDim S100000x64 ![0, 1] bcast_S1x64_S100000x64_0_1 : (⟨S1x64, .f32⟩ : BufTy).Contents (Elt F) → (⟨S100000x64, .f32⟩ : BufTy).Contents (Elt F)),
    StableHlo.binary main_v220 main_v222 main_v223 (addf : (⟨S100000x64, .f32⟩ : BufTy).Contents (Elt F) → (⟨S100000x64, .f32⟩ : BufTy).Contents (Elt F) → (⟨S100000x64, .f32⟩ : BufTy).Contents (Elt F)) ]

/-- Stretch 5: 88 operations. -/
abbrev L5 : List (HloOp τ sig (Elt F)) :=
  [ StableHlo.unary main_arg7 main_v224 ((extractStridedSlice S1x64x64 ![3, 0, 0] · slices_S4x64x64_S1x64x64_3_0_0) : (⟨S4x64x64, .f32⟩ : BufTy).Contents (Elt F) → (⟨S1x64x64, .f32⟩ : BufTy).Contents (Elt F)),
    StableHlo.reshape main_v224 main_v225 rfl shapeCasts_S1x64x64_S64x64,
    StableHlo.unary main_arg8 main_v226 ((extractStridedSlice S1x64 ![3, 0] · slices_S4x64_S1x64_3_0) : (⟨S4x64, .f32⟩ : BufTy).Contents (Elt F) → (⟨S1x64, .f32⟩ : BufTy).Contents (Elt F)),
    StableHlo.reshape main_v226 main_v227 rfl shapeCasts_S1x64_S64,
    StableHlo.unary main_arg9 main_v228 ((extractStridedSlice S1x64x64 ![3, 0, 0] · slices_S4x64x64_S1x64x64_3_0_0) : (⟨S4x64x64, .f32⟩ : BufTy).Contents (Elt F) → (⟨S1x64x64, .f32⟩ : BufTy).Contents (Elt F)),
    StableHlo.reshape main_v228 main_v229 rfl shapeCasts_S1x64x64_S64x64,
    StableHlo.unary main_arg10 main_v230 ((extractStridedSlice S1x64 ![3, 0] · slices_S4x64_S1x64_3_0) : (⟨S4x64, .f32⟩ : BufTy).Contents (Elt F) → (⟨S1x64, .f32⟩ : BufTy).Contents (Elt F)),
    StableHlo.reshape main_v230 main_v231 rfl shapeCasts_S1x64_S64,
    StableHlo.unary main_arg11 main_v232 ((extractStridedSlice S1x64 ![4, 0] · slices_S5x64_S1x64_4_0) : (⟨S5x64, .f32⟩ : BufTy).Contents (Elt F) → (⟨S1x64, .f32⟩ : BufTy).Contents (Elt F)),
    StableHlo.reshape main_v232 main_v233 rfl shapeCasts_S1x64_S64,
    StableHlo.unary main_arg12 main_v234 ((extractStridedSlice S1x64 ![4, 0] · slices_S5x64_S1x64_4_0) : (⟨S5x64, .f32⟩ : BufTy).Contents (Elt F) → (⟨S1x64, .f32⟩ : BufTy).Contents (Elt F)),
    StableHlo.reshape main_v234 main_v235 rfl shapeCasts_S1x64_S64,
    StableHlo.unary main_arg1 main_v236 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v236 main_v237 rfl shapeCasts_S1x1600000_S1600000,
    StableHlo.nullary main_c_34 (constantI S_ 32 0#32),
    StableHlo.unary main_c_34 main_v238 (broadcastInDim S1600000 ![] bcast_S_S1600000 : (⟨S_, .i32⟩ : BufTy).Contents (Elt F) → (⟨S1600000, .i32⟩ : BufTy).Contents (Elt F)),
    StableHlo.binary main_v237 main_v238 main_v239 (cmpi .slt : (⟨S1600000, .i32⟩ : BufTy).Contents (Elt F) → (⟨S1600000, .i32⟩ : BufTy).Contents (Elt F) → (⟨S1600000, .i1⟩ : BufTy).Contents (Elt F)),
    StableHlo.nullary main_c_35 (constantI S_ 32 100000#32),
    StableHlo.unary main_c_35 main_v240 (broadcastInDim S1600000 ![] bcast_S_S1600000 : (⟨S_, .i32⟩ : BufTy).Contents (Elt F) → (⟨S1600000, .i32⟩ : BufTy).Contents (Elt F)),
    StableHlo.binary main_v237 main_v240 main_v241 (addi : (⟨S1600000, .i32⟩ : BufTy).Contents (Elt F) → (⟨S1600000, .i32⟩ : BufTy).Contents (Elt F) → (⟨S1600000, .i32⟩ : BufTy).Contents (Elt F)),
    StableHlo.ternary main_v239 main_v241 main_v237 main_v242 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v242 main_v243 (broadcastInDim S1600000x1 ![0] bcast_S1600000_S1600000x1_0 : (⟨S1600000, .i32⟩ : BufTy).Contents (Elt F) → (⟨S1600000x1, .i32⟩ : BufTy).Contents (Elt F)),
    StableHlo.binary main_v223 main_v243 main_v244 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_arg1 main_v245 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v245 main_v246 rfl shapeCasts_S1x1600000_S1600000,
    StableHlo.nullary main_cst_36 (constant S_ .f32 0x00000000#32),
    StableHlo.unary main_cst_36 main_v247 (broadcastInDim S100000x64 ![] bcast_S_S100000x64 : (⟨S_, .f32⟩ : BufTy).Contents (Elt F) → (⟨S100000x64, .f32⟩ : BufTy).Contents (Elt F)),
    StableHlo.unary main_v246 main_v248 (broadcastInDim S1600000x1 ![0] bcast_S1600000_S1600000x1_0 : (⟨S1600000, .i32⟩ : BufTy).Contents (Elt F) → (⟨S1600000x1, .i32⟩ : BufTy).Contents (Elt F)),
    StableHlo.ternary main_v247 main_v248 main_v244 main_v249 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v223 main_v249 main_v250 (addf : (⟨S100000x64, .f32⟩ : BufTy).Contents (Elt F) → (⟨S100000x64, .f32⟩ : BufTy).Contents (Elt F) → (⟨S100000x64, .f32⟩ : BufTy).Contents (Elt F)),
    StableHlo.binary main_v250 main_v225 main_v251 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v227 main_v252 (broadcastInDim S1x64 ![1] bcast_S64_S1x64_1 : (⟨S64, .f32⟩ : BufTy).Contents (Elt F) → (⟨S1x64, .f32⟩ : BufTy).Contents (Elt F)),
    StableHlo.unary main_v252 main_v253 (broadcastInDim S100000x64 ![0, 1] bcast_S1x64_S100000x64_0_1 : (⟨S1x64, .f32⟩ : BufTy).Contents (Elt F) → (⟨S100000x64, .f32⟩ : BufTy).Contents (Elt F)),
    StableHlo.binary main_v251 main_v253 main_v254 (addf : (⟨S100000x64, .f32⟩ : BufTy).Contents (Elt F) → (⟨S100000x64, .f32⟩ : BufTy).Contents (Elt F) → (⟨S100000x64, .f32⟩ : BufTy).Contents (Elt F)),
    StableHlo.nullary main_cst_37 (constant S_ .f32 0x00000000#32),
    StableHlo.unary main_cst_37 main_v255 (broadcastInDim S100000x64 ![] bcast_S_S100000x64 : (⟨S_, .f32⟩ : BufTy).Contents (Elt F) → (⟨S100000x64, .f32⟩ : BufTy).Contents (Elt F)),
    StableHlo.binary main_v254 main_v255 main_v256 (maximumf : (⟨S100000x64, .f32⟩ : BufTy).Contents (Elt F) → (⟨S100000x64, .f32⟩ : BufTy).Contents (Elt F) → (⟨S100000x64, .f32⟩ : BufTy).Contents (Elt F)),
    StableHlo.binary main_v256 main_v229 main_v257 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v231 main_v258 (broadcastInDim S1x64 ![1] bcast_S64_S1x64_1 : (⟨S64, .f32⟩ : BufTy).Contents (Elt F) → (⟨S1x64, .f32⟩ : BufTy).Contents (Elt F)),
    StableHlo.unary main_v258 main_v259 (broadcastInDim S100000x64 ![0, 1] bcast_S1x64_S100000x64_0_1 : (⟨S1x64, .f32⟩ : BufTy).Contents (Elt F) → (⟨S100000x64, .f32⟩ : BufTy).Contents (Elt F)),
    StableHlo.binary main_v257 main_v259 main_v260 (addf : (⟨S100000x64, .f32⟩ : BufTy).Contents (Elt F) → (⟨S100000x64, .f32⟩ : BufTy).Contents (Elt F) → (⟨S100000x64, .f32⟩ : BufTy).Contents (Elt F)),
    StableHlo.nullary main_cst_38 (constant S_ .f32 0x00000000#32),
    StableHlo.unary main_cst_38 main_v261 (broadcastInDim S100000x64 ![] bcast_S_S100000x64 : (⟨S_, .f32⟩ : BufTy).Contents (Elt F) → (⟨S100000x64, .f32⟩ : BufTy).Contents (Elt F)),
    StableHlo.binary main_v260 main_v261 main_v262 (maximumf : (⟨S100000x64, .f32⟩ : BufTy).Contents (Elt F) → (⟨S100000x64, .f32⟩ : BufTy).Contents (Elt F) → (⟨S100000x64, .f32⟩ : BufTy).Contents (Elt F)),
    StableHlo.nullary main_cst_39 (constant S_ .f32 0x00000000#32),
    StableHlo.binary main_v262 main_cst_39 main_v263 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_40 (constant S_ .f32 0x47C35000#32),
    StableHlo.unary main_cst_40 main_v264 (broadcastInDim S64 ![] bcast_S_S64 : (⟨S_, .f32⟩ : BufTy).Contents (Elt F) → (⟨S64, .f32⟩ : BufTy).Contents (Elt F)),
    StableHlo.binary main_v263 main_v264 main_v265 (Host.divf : (⟨S64, .f32⟩ : BufTy).Contents (Elt F) → (⟨S64, .f32⟩ : BufTy).Contents (Elt F) → (⟨S64, .f32⟩ : BufTy).Contents (Elt F)),
    StableHlo.nullary main_c_41 (constantI S_ 32 0#32),
    StableHlo.TRef.nullary main_call4.cst (constant S_ .f32 0x00000000#32),
    StableHlo.TRef.binary (.of main_v262) main_call4.cst main_call4.v0 (fun x v => Host.reduceAdd x v reducesTo_S100000x64_S64_d0 h_S_),
    StableHlo.TRef.unary main_call4.v0 main_call4.v1 (broadcastInDim S1x64 ![1] bcast_S64_S1x64_1),
    StableHlo.TRef.nullary main_call4.cst_0 (constant S_ .f32 0x47C35000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S100000x64 ![0, 1] bcast_S1x64_S100000x64_0_1),
    StableHlo.TRef.binary (.of main_v262) main_call4.v4 main_call4.v5 subf,
    StableHlo.TRef.binary main_call4.v5 main_call4.v5 main_call4.v6 mulf,
    StableHlo.TRef.unary (.of main_c_41) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b),
    StableHlo.unary main_v265 main_v267 (broadcastInDim S1x64 ![1] bcast_S64_S1x64_1 : (⟨S64, .f32⟩ : BufTy).Contents (Elt F) → (⟨S1x64, .f32⟩ : BufTy).Contents (Elt F)),
    StableHlo.unary main_v267 main_v268 (broadcastInDim S100000x64 ![0, 1] bcast_S1x64_S100000x64_0_1 : (⟨S1x64, .f32⟩ : BufTy).Contents (Elt F) → (⟨S100000x64, .f32⟩ : BufTy).Contents (Elt F)),
    StableHlo.binary main_v262 main_v268 main_v269 (subf : (⟨S100000x64, .f32⟩ : BufTy).Contents (Elt F) → (⟨S100000x64, .f32⟩ : BufTy).Contents (Elt F) → (⟨S100000x64, .f32⟩ : BufTy).Contents (Elt F)),
    StableHlo.unary main_v233 main_v270 (broadcastInDim S1x64 ![1] bcast_S64_S1x64_1 : (⟨S64, .f32⟩ : BufTy).Contents (Elt F) → (⟨S1x64, .f32⟩ : BufTy).Contents (Elt F)),
    StableHlo.unary main_v270 main_v271 (broadcastInDim S100000x64 ![0, 1] bcast_S1x64_S100000x64_0_1 : (⟨S1x64, .f32⟩ : BufTy).Contents (Elt F) → (⟨S100000x64, .f32⟩ : BufTy).Contents (Elt F)),
    StableHlo.binary main_v271 main_v269 main_v272 (mulf : (⟨S100000x64, .f32⟩ : BufTy).Contents (Elt F) → (⟨S100000x64, .f32⟩ : BufTy).Contents (Elt F) → (⟨S100000x64, .f32⟩ : BufTy).Contents (Elt F)),
    StableHlo.nullary main_cst_42 (constant S_ .f32 0x3727C5AC#32),
    StableHlo.unary main_cst_42 main_v273 (broadcastInDim S64 ![] bcast_S_S64 : (⟨S_, .f32⟩ : BufTy).Contents (Elt F) → (⟨S64, .f32⟩ : BufTy).Contents (Elt F)),
    StableHlo.binary main_v266 main_v273 main_v274 (addf : (⟨S64, .f32⟩ : BufTy).Contents (Elt F) → (⟨S64, .f32⟩ : BufTy).Contents (Elt F) → (⟨S64, .f32⟩ : BufTy).Contents (Elt F)),
    StableHlo.unary main_v274 main_v275 (Host.rsqrt : (⟨S64, .f32⟩ : BufTy).Contents (Elt F) → (⟨S64, .f32⟩ : BufTy).Contents (Elt F)),
    StableHlo.unary main_v275 main_v276 (broadcastInDim S1x64 ![1] bcast_S64_S1x64_1 : (⟨S64, .f32⟩ : BufTy).Contents (Elt F) → (⟨S1x64, .f32⟩ : BufTy).Contents (Elt F)),
    StableHlo.unary main_v276 main_v277 (broadcastInDim S100000x64 ![0, 1] bcast_S1x64_S100000x64_0_1 : (⟨S1x64, .f32⟩ : BufTy).Contents (Elt F) → (⟨S100000x64, .f32⟩ : BufTy).Contents (Elt F)),
    StableHlo.binary main_v272 main_v277 main_v278 (mulf : (⟨S100000x64, .f32⟩ : BufTy).Contents (Elt F) → (⟨S100000x64, .f32⟩ : BufTy).Contents (Elt F) → (⟨S100000x64, .f32⟩ : BufTy).Contents (Elt F)),
    StableHlo.unary main_v235 main_v279 (broadcastInDim S1x64 ![1] bcast_S64_S1x64_1 : (⟨S64, .f32⟩ : BufTy).Contents (Elt F) → (⟨S1x64, .f32⟩ : BufTy).Contents (Elt F)),
    StableHlo.unary main_v279 main_v280 (broadcastInDim S100000x64 ![0, 1] bcast_S1x64_S100000x64_0_1 : (⟨S1x64, .f32⟩ : BufTy).Contents (Elt F) → (⟨S100000x64, .f32⟩ : BufTy).Contents (Elt F)),
    StableHlo.binary main_v278 main_v280 main_v281 (addf : (⟨S100000x64, .f32⟩ : BufTy).Contents (Elt F) → (⟨S100000x64, .f32⟩ : BufTy).Contents (Elt F) → (⟨S100000x64, .f32⟩ : BufTy).Contents (Elt F)) ]

/-- Stretch 6: 15 operations. -/
abbrev L6 : List (HloOp τ sig (Elt F)) :=
  [ StableHlo.nullary main_cst_43 (constant S_ .f32 0x00000000#32),
    StableHlo.unary main_cst_43 main_v282 (broadcastInDim S2048x64 ![] bcast_S_S2048x64 : (⟨S_, .f32⟩ : BufTy).Contents (Elt F) → (⟨S2048x64, .f32⟩ : BufTy).Contents (Elt F)),
    StableHlo.unary main_arg2 main_v283 (broadcastInDim S100000x1 ![0] bcast_S100000_S100000x1_0 : (⟨S100000, .i32⟩ : BufTy).Contents (Elt F) → (⟨S100000x1, .i32⟩ : BufTy).Contents (Elt F)),
    StableHlo.ternary main_v282 main_v283 main_v281 main_v284 ((fun x i u => Host.scatterAdd scatter_S2048x64_S100000x1_S100000x64_1_0_0_1 x i u) : (⟨S2048x64, .f32⟩ : BufTy).Contents (Elt F) → (⟨S100000x1, .i32⟩ : BufTy).Contents (Elt F) → (⟨S100000x64, .f32⟩ : BufTy).Contents (Elt F) → (⟨S2048x64, .f32⟩ : BufTy).Contents (Elt F)),
    StableHlo.binary main_v284 main_arg13 main_v285 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    StableHlo.unary main_arg14 main_v286 (broadcastInDim S1x64 ![1] bcast_S64_S1x64_1 : (⟨S64, .f32⟩ : BufTy).Contents (Elt F) → (⟨S1x64, .f32⟩ : BufTy).Contents (Elt F)),
    StableHlo.unary main_v286 main_v287 (broadcastInDim S2048x64 ![0, 1] bcast_S1x64_S2048x64_0_1 : (⟨S1x64, .f32⟩ : BufTy).Contents (Elt F) → (⟨S2048x64, .f32⟩ : BufTy).Contents (Elt F)),
    StableHlo.binary main_v285 main_v287 main_v288 (addf : (⟨S2048x64, .f32⟩ : BufTy).Contents (Elt F) → (⟨S2048x64, .f32⟩ : BufTy).Contents (Elt F) → (⟨S2048x64, .f32⟩ : BufTy).Contents (Elt F)),
    StableHlo.nullary main_cst_44 (constant S_ .f32 0x00000000#32),
    StableHlo.unary main_cst_44 main_v289 (broadcastInDim S2048x64 ![] bcast_S_S2048x64 : (⟨S_, .f32⟩ : BufTy).Contents (Elt F) → (⟨S2048x64, .f32⟩ : BufTy).Contents (Elt F)),
    StableHlo.binary main_v288 main_v289 main_v290 (maximumf : (⟨S2048x64, .f32⟩ : BufTy).Contents (Elt F) → (⟨S2048x64, .f32⟩ : BufTy).Contents (Elt F) → (⟨S2048x64, .f32⟩ : BufTy).Contents (Elt F)),
    StableHlo.binary main_v290 main_arg15 main_v291 ((fun l r => Host.dotGeneral dot_S2048x64_S64x32_S2048x32_1_0_0_1_n_n none l r) : (⟨S2048x64, .f32⟩ : BufTy).Contents (Elt F) → (⟨S64x32, .f32⟩ : BufTy).Contents (Elt F) → (⟨S2048x32, .f32⟩ : BufTy).Contents (Elt F)),
    StableHlo.unary main_arg16 main_v292 (broadcastInDim S1x32 ![1] bcast_S32_S1x32_1 : (⟨S32, .f32⟩ : BufTy).Contents (Elt F) → (⟨S1x32, .f32⟩ : BufTy).Contents (Elt F)),
    StableHlo.unary main_v292 main_v293 (broadcastInDim S2048x32 ![0, 1] bcast_S1x32_S2048x32_0_1 : (⟨S1x32, .f32⟩ : BufTy).Contents (Elt F) → (⟨S2048x32, .f32⟩ : BufTy).Contents (Elt F)),
    StableHlo.binary main_v291 main_v293 main_v294 (addf : (⟨S2048x32, .f32⟩ : BufTy).Contents (Elt F) → (⟨S2048x32, .f32⟩ : BufTy).Contents (Elt F) → (⟨S2048x32, .f32⟩ : BufTy).Contents (Elt F)) ]

/-- The stretches in order are @main's operations. -/
theorem ops_eq : (ops : List (HloOp τ sig (Elt F))) = L1 ++ (L2 ++ (L3 ++ (L4 ++ (L5 ++ (L6))))) := rfl

set_option maxRecDepth 65536 in
set_option maxHeartbeats 4000000 in
/-- Block 1's output after stretch 1. -/
theorem L1_out (V : Valuation τ sig (Elt Ideal)) :
    after (L1 (F := Ideal)) V (main_v49 : DevRef τ sig)
      = blk1 (V (main_arg0 : DevRef τ sig)) (V (main_arg1 : DevRef τ sig)) (V (main_arg3 : DevRef τ sig)) (V (main_arg4 : DevRef τ sig)) (V (main_arg5 : DevRef τ sig)) (V (main_arg6 : DevRef τ sig)) (V (main_arg11 : DevRef τ sig)) (V (main_arg12 : DevRef τ sig)) := by
  read_fold
  rfl

set_option maxRecDepth 65536 in
set_option maxHeartbeats 4000000 in
/-- Block 2's output after stretch 2. -/
theorem L2_out (V : Valuation τ sig (Elt Ideal)) :
    after (L2 (F := Ideal)) V (main_v107 : DevRef τ sig)
      = blkN (V (main_v49 : DevRef τ sig)) (V (main_arg1 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig))
        ![0, 0, 0] slices_S4x64x64_S1x64x64_0_0_0 ![0, 0] slices_S4x64_S1x64_0_0 ![1, 0] slices_S5x64_S1x64_1_0 := by
  read_fold
  rfl

set_option maxRecDepth 65536 in
set_option maxHeartbeats 4000000 in
/-- Block 3's output after stretch 3. -/
theorem L3_out (V : Valuation τ sig (Elt Ideal)) :
    after (L3 (F := Ideal)) V (main_v165 : DevRef τ sig)
      = blkN (V (main_v107 : DevRef τ sig)) (V (main_arg1 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig))
        ![1, 0, 0] slices_S4x64x64_S1x64x64_1_0_0 ![1, 0] slices_S4x64_S1x64_1_0 ![2, 0] slices_S5x64_S1x64_2_0 := by
  read_fold
  rfl

set_option maxRecDepth 65536 in
set_option maxHeartbeats 4000000 in
/-- Block 4's output after stretch 4. -/
theorem L4_out (V : Valuation τ sig (Elt Ideal)) :
    after (L4 (F := Ideal)) V (main_v223 : DevRef τ sig)
      = blkN (V (main_v165 : DevRef τ sig)) (V (main_arg1 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig))
        ![2, 0, 0] slices_S4x64x64_S1x64x64_2_0_0 ![2, 0] slices_S4x64_S1x64_2_0 ![3, 0] slices_S5x64_S1x64_3_0 := by
  read_fold
  rfl

set_option maxRecDepth 65536 in
set_option maxHeartbeats 4000000 in
/-- Block 5's output after stretch 5. -/
theorem L5_out (V : Valuation τ sig (Elt Ideal)) :
    after (L5 (F := Ideal)) V (main_v281 : DevRef τ sig)
      = blkN (V (main_v223 : DevRef τ sig)) (V (main_arg1 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig))
        ![3, 0, 0] slices_S4x64x64_S1x64x64_3_0_0 ![3, 0] slices_S4x64_S1x64_3_0 ![4, 0] slices_S5x64_S1x64_4_0 := by
  read_fold
  rfl

set_option maxRecDepth 65536 in
/-- The result after the last stretch: the head of the pooled features. -/
theorem L6_out (V : Valuation τ sig (Elt Ideal)) :
    after (L6 (F := Ideal)) V (main_v294 : DevRef τ sig)
      = headH (poolH (V (main_v281 : DevRef τ sig)) (V (main_arg2 : DevRef τ sig))) (V (main_arg13 : DevRef τ sig)) (V (main_arg14 : DevRef τ sig)) (V (main_arg15 : DevRef τ sig)) (V (main_arg16 : DevRef τ sig)) := by
  read_fold
  rfl

end Cert.ReferenceIdeal.RefRun

end
-- ==== Proof.RefChain.lean ====
/-
  The reference's result as one function of its arguments: the five blocks nested, pooled, then the head. Each stretch of
  host operations leaves the argument buffers as they were (no operation writes an argument), so the stretches compose.
-/
import proofs.«169884_j31009663877671_1_alg».proof.Proof.RefLayers

noncomputable section

namespace Cert.ReferenceIdeal.RefRun

open Cert.ReferenceIdeal Cert.ReferenceIdeal.Forms Idealize.ShloMosaic Idealize.ShloMosaic.TcCoe Idealize.SL.Sem Idealize.ShloMosaic.StableHlo
open Facts₀ Facts

/-- Two lines one after the other: the second from what the first leaves. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-- A buffer that no operation of a literal line writes keeps its contents: each operation's written buffer is another one. -/
macro "keeps_buf " L:ident : tactic =>
  `(tactic| exact StableHlo.after_of_forall_not_mem _ _ (List.forall_iff_forall_mem.mp (by
      simp only [$L:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

theorem keep1_main_arg1 (V : Valuation τ sig (Elt Ideal)) : after (L1 (F := Ideal)) V (main_arg1 : DevRef τ sig) = V (main_arg1 : DevRef τ sig) := by keeps_buf L1
theorem keep1_main_arg7 (V : Valuation τ sig (Elt Ideal)) : after (L1 (F := Ideal)) V (main_arg7 : DevRef τ sig) = V (main_arg7 : DevRef τ sig) := by keeps_buf L1
theorem keep1_main_arg8 (V : Valuation τ sig (Elt Ideal)) : after (L1 (F := Ideal)) V (main_arg8 : DevRef τ sig) = V (main_arg8 : DevRef τ sig) := by keeps_buf L1
theorem keep1_main_arg9 (V : Valuation τ sig (Elt Ideal)) : after (L1 (F := Ideal)) V (main_arg9 : DevRef τ sig) = V (main_arg9 : DevRef τ sig) := by keeps_buf L1
theorem keep1_main_arg10 (V : Valuation τ sig (Elt Ideal)) : after (L1 (F := Ideal)) V (main_arg10 : DevRef τ sig) = V (main_arg10 : DevRef τ sig) := by keeps_buf L1
theorem keep1_main_arg11 (V : Valuation τ sig (Elt Ideal)) : after (L1 (F := Ideal)) V (main_arg11 : DevRef τ sig) = V (main_arg11 : DevRef τ sig) := by keeps_buf L1
theorem keep1_main_arg12 (V : Valuation τ sig (Elt Ideal)) : after (L1 (F := Ideal)) V (main_arg12 : DevRef τ sig) = V (main_arg12 : DevRef τ sig) := by keeps_buf L1
theorem keep1_main_arg2 (V : Valuation τ sig (Elt Ideal)) : after (L1 (F := Ideal)) V (main_arg2 : DevRef τ sig) = V (main_arg2 : DevRef τ sig) := by keeps_buf L1
theorem keep1_main_arg13 (V : Valuation τ sig (Elt Ideal)) : after (L1 (F := Ideal)) V (main_arg13 : DevRef τ sig) = V (main_arg13 : DevRef τ sig) := by keeps_buf L1
theorem keep1_main_arg14 (V : Valuation τ sig (Elt Ideal)) : after (L1 (F := Ideal)) V (main_arg14 : DevRef τ sig) = V (main_arg14 : DevRef τ sig) := by keeps_buf L1
theorem keep1_main_arg15 (V : Valuation τ sig (Elt Ideal)) : after (L1 (F := Ideal)) V (main_arg15 : DevRef τ sig) = V (main_arg15 : DevRef τ sig) := by keeps_buf L1
theorem keep1_main_arg16 (V : Valuation τ sig (Elt Ideal)) : after (L1 (F := Ideal)) V (main_arg16 : DevRef τ sig) = V (main_arg16 : DevRef τ sig) := by keeps_buf L1
theorem keep2_main_arg1 (V : Valuation τ sig (Elt Ideal)) : after (L2 (F := Ideal)) V (main_arg1 : DevRef τ sig) = V (main_arg1 : DevRef τ sig) := by keeps_buf L2
theorem keep2_main_arg7 (V : Valuation τ sig (Elt Ideal)) : after (L2 (F := Ideal)) V (main_arg7 : DevRef τ sig) = V (main_arg7 : DevRef τ sig) := by keeps_buf L2
theorem keep2_main_arg8 (V : Valuation τ sig (Elt Ideal)) : after (L2 (F := Ideal)) V (main_arg8 : DevRef τ sig) = V (main_arg8 : DevRef τ sig) := by keeps_buf L2
theorem keep2_main_arg9 (V : Valuation τ sig (Elt Ideal)) : after (L2 (F := Ideal)) V (main_arg9 : DevRef τ sig) = V (main_arg9 : DevRef τ sig) := by keeps_buf L2
theorem keep2_main_arg10 (V : Valuation τ sig (Elt Ideal)) : after (L2 (F := Ideal)) V (main_arg10 : DevRef τ sig) = V (main_arg10 : DevRef τ sig) := by keeps_buf L2
theorem keep2_main_arg11 (V : Valuation τ sig (Elt Ideal)) : after (L2 (F := Ideal)) V (main_arg11 : DevRef τ sig) = V (main_arg11 : DevRef τ sig) := by keeps_buf L2
theorem keep2_main_arg12 (V : Valuation τ sig (Elt Ideal)) : after (L2 (F := Ideal)) V (main_arg12 : DevRef τ sig) = V (main_arg12 : DevRef τ sig) := by keeps_buf L2
theorem keep2_main_arg2 (V : Valuation τ sig (Elt Ideal)) : after (L2 (F := Ideal)) V (main_arg2 : DevRef τ sig) = V (main_arg2 : DevRef τ sig) := by keeps_buf L2
theorem keep2_main_arg13 (V : Valuation τ sig (Elt Ideal)) : after (L2 (F := Ideal)) V (main_arg13 : DevRef τ sig) = V (main_arg13 : DevRef τ sig) := by keeps_buf L2
theorem keep2_main_arg14 (V : Valuation τ sig (Elt Ideal)) : after (L2 (F := Ideal)) V (main_arg14 : DevRef τ sig) = V (main_arg14 : DevRef τ sig) := by keeps_buf L2
theorem keep2_main_arg15 (V : Valuation τ sig (Elt Ideal)) : after (L2 (F := Ideal)) V (main_arg15 : DevRef τ sig) = V (main_arg15 : DevRef τ sig) := by keeps_buf L2
theorem keep2_main_arg16 (V : Valuation τ sig (Elt Ideal)) : after (L2 (F := Ideal)) V (main_arg16 : DevRef τ sig) = V (main_arg16 : DevRef τ sig) := by keeps_buf L2
theorem keep3_main_arg1 (V : Valuation τ sig (Elt Ideal)) : after (L3 (F := Ideal)) V (main_arg1 : DevRef τ sig) = V (main_arg1 : DevRef τ sig) := by keeps_buf L3
theorem keep3_main_arg7 (V : Valuation τ sig (Elt Ideal)) : after (L3 (F := Ideal)) V (main_arg7 : DevRef τ sig) = V (main_arg7 : DevRef τ sig) := by keeps_buf L3
theorem keep3_main_arg8 (V : Valuation τ sig (Elt Ideal)) : after (L3 (F := Ideal)) V (main_arg8 : DevRef τ sig) = V (main_arg8 : DevRef τ sig) := by keeps_buf L3
theorem keep3_main_arg9 (V : Valuation τ sig (Elt Ideal)) : after (L3 (F := Ideal)) V (main_arg9 : DevRef τ sig) = V (main_arg9 : DevRef τ sig) := by keeps_buf L3
theorem keep3_main_arg10 (V : Valuation τ sig (Elt Ideal)) : after (L3 (F := Ideal)) V (main_arg10 : DevRef τ sig) = V (main_arg10 : DevRef τ sig) := by keeps_buf L3
theorem keep3_main_arg11 (V : Valuation τ sig (Elt Ideal)) : after (L3 (F := Ideal)) V (main_arg11 : DevRef τ sig) = V (main_arg11 : DevRef τ sig) := by keeps_buf L3
theorem keep3_main_arg12 (V : Valuation τ sig (Elt Ideal)) : after (L3 (F := Ideal)) V (main_arg12 : DevRef τ sig) = V (main_arg12 : DevRef τ sig) := by keeps_buf L3
theorem keep3_main_arg2 (V : Valuation τ sig (Elt Ideal)) : after (L3 (F := Ideal)) V (main_arg2 : DevRef τ sig) = V (main_arg2 : DevRef τ sig) := by keeps_buf L3
theorem keep3_main_arg13 (V : Valuation τ sig (Elt Ideal)) : after (L3 (F := Ideal)) V (main_arg13 : DevRef τ sig) = V (main_arg13 : DevRef τ sig) := by keeps_buf L3
theorem keep3_main_arg14 (V : Valuation τ sig (Elt Ideal)) : after (L3 (F := Ideal)) V (main_arg14 : DevRef τ sig) = V (main_arg14 : DevRef τ sig) := by keeps_buf L3
theorem keep3_main_arg15 (V : Valuation τ sig (Elt Ideal)) : after (L3 (F := Ideal)) V (main_arg15 : DevRef τ sig) = V (main_arg15 : DevRef τ sig) := by keeps_buf L3
theorem keep3_main_arg16 (V : Valuation τ sig (Elt Ideal)) : after (L3 (F := Ideal)) V (main_arg16 : DevRef τ sig) = V (main_arg16 : DevRef τ sig) := by keeps_buf L3
theorem keep4_main_arg1 (V : Valuation τ sig (Elt Ideal)) : after (L4 (F := Ideal)) V (main_arg1 : DevRef τ sig) = V (main_arg1 : DevRef τ sig) := by keeps_buf L4
theorem keep4_main_arg7 (V : Valuation τ sig (Elt Ideal)) : after (L4 (F := Ideal)) V (main_arg7 : DevRef τ sig) = V (main_arg7 : DevRef τ sig) := by keeps_buf L4
theorem keep4_main_arg8 (V : Valuation τ sig (Elt Ideal)) : after (L4 (F := Ideal)) V (main_arg8 : DevRef τ sig) = V (main_arg8 : DevRef τ sig) := by keeps_buf L4
theorem keep4_main_arg9 (V : Valuation τ sig (Elt Ideal)) : after (L4 (F := Ideal)) V (main_arg9 : DevRef τ sig) = V (main_arg9 : DevRef τ sig) := by keeps_buf L4
theorem keep4_main_arg10 (V : Valuation τ sig (Elt Ideal)) : after (L4 (F := Ideal)) V (main_arg10 : DevRef τ sig) = V (main_arg10 : DevRef τ sig) := by keeps_buf L4
theorem keep4_main_arg11 (V : Valuation τ sig (Elt Ideal)) : after (L4 (F := Ideal)) V (main_arg11 : DevRef τ sig) = V (main_arg11 : DevRef τ sig) := by keeps_buf L4
theorem keep4_main_arg12 (V : Valuation τ sig (Elt Ideal)) : after (L4 (F := Ideal)) V (main_arg12 : DevRef τ sig) = V (main_arg12 : DevRef τ sig) := by keeps_buf L4
theorem keep4_main_arg2 (V : Valuation τ sig (Elt Ideal)) : after (L4 (F := Ideal)) V (main_arg2 : DevRef τ sig) = V (main_arg2 : DevRef τ sig) := by keeps_buf L4
theorem keep4_main_arg13 (V : Valuation τ sig (Elt Ideal)) : after (L4 (F := Ideal)) V (main_arg13 : DevRef τ sig) = V (main_arg13 : DevRef τ sig) := by keeps_buf L4
theorem keep4_main_arg14 (V : Valuation τ sig (Elt Ideal)) : after (L4 (F := Ideal)) V (main_arg14 : DevRef τ sig) = V (main_arg14 : DevRef τ sig) := by keeps_buf L4
theorem keep4_main_arg15 (V : Valuation τ sig (Elt Ideal)) : after (L4 (F := Ideal)) V (main_arg15 : DevRef τ sig) = V (main_arg15 : DevRef τ sig) := by keeps_buf L4
theorem keep4_main_arg16 (V : Valuation τ sig (Elt Ideal)) : after (L4 (F := Ideal)) V (main_arg16 : DevRef τ sig) = V (main_arg16 : DevRef τ sig) := by keeps_buf L4
theorem keep5_main_arg2 (V : Valuation τ sig (Elt Ideal)) : after (L5 (F := Ideal)) V (main_arg2 : DevRef τ sig) = V (main_arg2 : DevRef τ sig) := by keeps_buf L5
theorem keep5_main_arg13 (V : Valuation τ sig (Elt Ideal)) : after (L5 (F := Ideal)) V (main_arg13 : DevRef τ sig) = V (main_arg13 : DevRef τ sig) := by keeps_buf L5
theorem keep5_main_arg14 (V : Valuation τ sig (Elt Ideal)) : after (L5 (F := Ideal)) V (main_arg14 : DevRef τ sig) = V (main_arg14 : DevRef τ sig) := by keeps_buf L5
theorem keep5_main_arg15 (V : Valuation τ sig (Elt Ideal)) : after (L5 (F := Ideal)) V (main_arg15 : DevRef τ sig) = V (main_arg15 : DevRef τ sig) := by keeps_buf L5
theorem keep5_main_arg16 (V : Valuation τ sig (Elt Ideal)) : after (L5 (F := Ideal)) V (main_arg16 : DevRef τ sig) = V (main_arg16 : DevRef τ sig) := by keeps_buf L5

/-- The five blocks nested over the arguments. -/
def net (x : FVec Ideal S100000x128 .f32) (ei : IVec S2x1600000 32) (w1 : FVec Ideal S128x64 .f32) (b1 : FVec Ideal S64 .f32)
    (w2 : FVec Ideal S64x64 .f32) (b2 : FVec Ideal S64 .f32) (W1s : FVec Ideal S4x64x64 .f32) (B1s : FVec Ideal S4x64 .f32)
    (W2s : FVec Ideal S4x64x64 .f32) (B2s : FVec Ideal S4x64 .f32) (G B : FVec Ideal S5x64 .f32) : FVec Ideal S100000x64 .f32 :=
  blkN (blkN (blkN (blkN (blk1 x ei w1 b1 w2 b2 G B) ei W1s B1s W2s B2s G B
          ![0, 0, 0] slices_S4x64x64_S1x64x64_0_0_0 ![0, 0] slices_S4x64_S1x64_0_0 ![1, 0] slices_S5x64_S1x64_1_0) ei W1s B1s W2s B2s G B
        ![1, 0, 0] slices_S4x64x64_S1x64x64_1_0_0 ![1, 0] slices_S4x64_S1x64_1_0 ![2, 0] slices_S5x64_S1x64_2_0) ei W1s B1s W2s B2s G B
      ![2, 0, 0] slices_S4x64x64_S1x64x64_2_0_0 ![2, 0] slices_S4x64_S1x64_2_0 ![3, 0] slices_S5x64_S1x64_3_0) ei W1s B1s W2s B2s G B
    ![3, 0, 0] slices_S4x64x64_S1x64x64_3_0_0 ![3, 0] slices_S4x64_S1x64_3_0 ![4, 0] slices_S5x64_S1x64_4_0

/-- The reference's result buffer after all its operations, from any starting contents. -/
theorem result_eq (V : Valuation τ sig (Elt Ideal)) :
    after (ops (F := Ideal)) V (main_v294 : DevRef τ sig)
      = headH (poolH (net (V (main_arg0 : DevRef τ sig)) (V (main_arg1 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig))) (V (main_arg2 : DevRef τ sig)))
          (V (main_arg13 : DevRef τ sig)) (V (main_arg14 : DevRef τ sig)) (V (main_arg15 : DevRef τ sig)) (V (main_arg16 : DevRef τ sig)) := by
  rw [ops_eq]
  simp only [after_append]
  rw [L6_out]
  rw [keep5_main_arg2, keep5_main_arg13, keep5_main_arg14, keep5_main_arg15, keep5_main_arg16]
  rw [L5_out]
  rw [keep4_main_arg1, keep4_main_arg7, keep4_main_arg8, keep4_main_arg9, keep4_main_arg10, keep4_main_arg11, keep4_main_arg12, keep4_main_arg2, keep4_main_arg13, keep4_main_arg14, keep4_main_arg15, keep4_main_arg16]
  rw [L4_out]
  rw [keep3_main_arg1, keep3_main_arg7, keep3_main_arg8, keep3_main_arg9, keep3_main_arg10, keep3_main_arg11, keep3_main_arg12, keep3_main_arg2, keep3_main_arg13, keep3_main_arg14, keep3_main_arg15, keep3_main_arg16]
  rw [L3_out]
  rw [keep2_main_arg1, keep2_main_arg7, keep2_main_arg8, keep2_main_arg9, keep2_main_arg10, keep2_main_arg11, keep2_main_arg12, keep2_main_arg2, keep2_main_arg13, keep2_main_arg14, keep2_main_arg15, keep2_main_arg16]
  rw [L2_out]
  rw [keep1_main_arg1, keep1_main_arg7, keep1_main_arg8, keep1_main_arg9, keep1_main_arg10, keep1_main_arg11, keep1_main_arg12, keep1_main_arg2, keep1_main_arg13, keep1_main_arg14, keep1_main_arg15, keep1_main_arg16]
  rw [L1_out]
  rfl

/-- No operation writes an argument: each argument buffer ends as it started. -/
theorem keepA1_main_arg0 (V : Valuation τ sig (Elt Ideal)) : after (L1 (F := Ideal)) V (main_arg0 : DevRef τ sig) = V (main_arg0 : DevRef τ sig) := by keeps_buf L1
theorem keepA1_main_arg1 (V : Valuation τ sig (Elt Ideal)) : after (L1 (F := Ideal)) V (main_arg1 : DevRef τ sig) = V (main_arg1 : DevRef τ sig) := keep1_main_arg1 V
theorem keepA1_main_arg2 (V : Valuation τ sig (Elt Ideal)) : after (L1 (F := Ideal)) V (main_arg2 : DevRef τ sig) = V (main_arg2 : DevRef τ sig) := keep1_main_arg2 V
theorem keepA1_main_arg3 (V : Valuation τ sig (Elt Ideal)) : after (L1 (F := Ideal)) V (main_arg3 : DevRef τ sig) = V (main_arg3 : DevRef τ sig) := by keeps_buf L1
theorem keepA1_main_arg4 (V : Valuation τ sig (Elt Ideal)) : after (L1 (F := Ideal)) V (main_arg4 : DevRef τ sig) = V (main_arg4 : DevRef τ sig) := by keeps_buf L1
theorem keepA1_main_arg5 (V : Valuation τ sig (Elt Ideal)) : after (L1 (F := Ideal)) V (main_arg5 : DevRef τ sig) = V (main_arg5 : DevRef τ sig) := by keeps_buf L1
theorem keepA1_main_arg6 (V : Valuation τ sig (Elt Ideal)) : after (L1 (F := Ideal)) V (main_arg6 : DevRef τ sig) = V (main_arg6 : DevRef τ sig) := by keeps_buf L1
theorem keepA1_main_arg7 (V : Valuation τ sig (Elt Ideal)) : after (L1 (F := Ideal)) V (main_arg7 : DevRef τ sig) = V (main_arg7 : DevRef τ sig) := keep1_main_arg7 V
theorem keepA1_main_arg8 (V : Valuation τ sig (Elt Ideal)) : after (L1 (F := Ideal)) V (main_arg8 : DevRef τ sig) = V (main_arg8 : DevRef τ sig) := keep1_main_arg8 V
theorem keepA1_main_arg9 (V : Valuation τ sig (Elt Ideal)) : after (L1 (F := Ideal)) V (main_arg9 : DevRef τ sig) = V (main_arg9 : DevRef τ sig) := keep1_main_arg9 V
theorem keepA1_main_arg10 (V : Valuation τ sig (Elt Ideal)) : after (L1 (F := Ideal)) V (main_arg10 : DevRef τ sig) = V (main_arg10 : DevRef τ sig) := keep1_main_arg10 V
theorem keepA1_main_arg11 (V : Valuation τ sig (Elt Ideal)) : after (L1 (F := Ideal)) V (main_arg11 : DevRef τ sig) = V (main_arg11 : DevRef τ sig) := keep1_main_arg11 V
theorem keepA1_main_arg12 (V : Valuation τ sig (Elt Ideal)) : after (L1 (F := Ideal)) V (main_arg12 : DevRef τ sig) = V (main_arg12 : DevRef τ sig) := keep1_main_arg12 V
theorem keepA1_main_arg13 (V : Valuation τ sig (Elt Ideal)) : after (L1 (F := Ideal)) V (main_arg13 : DevRef τ sig) = V (main_arg13 : DevRef τ sig) := keep1_main_arg13 V
theorem keepA1_main_arg14 (V : Valuation τ sig (Elt Ideal)) : after (L1 (F := Ideal)) V (main_arg14 : DevRef τ sig) = V (main_arg14 : DevRef τ sig) := keep1_main_arg14 V
theorem keepA1_main_arg15 (V : Valuation τ sig (Elt Ideal)) : after (L1 (F := Ideal)) V (main_arg15 : DevRef τ sig) = V (main_arg15 : DevRef τ sig) := keep1_main_arg15 V
theorem keepA1_main_arg16 (V : Valuation τ sig (Elt Ideal)) : after (L1 (F := Ideal)) V (main_arg16 : DevRef τ sig) = V (main_arg16 : DevRef τ sig) := keep1_main_arg16 V
theorem keepA2_main_arg0 (V : Valuation τ sig (Elt Ideal)) : after (L2 (F := Ideal)) V (main_arg0 : DevRef τ sig) = V (main_arg0 : DevRef τ sig) := by keeps_buf L2
theorem keepA2_main_arg1 (V : Valuation τ sig (Elt Ideal)) : after (L2 (F := Ideal)) V (main_arg1 : DevRef τ sig) = V (main_arg1 : DevRef τ sig) := keep2_main_arg1 V
theorem keepA2_main_arg2 (V : Valuation τ sig (Elt Ideal)) : after (L2 (F := Ideal)) V (main_arg2 : DevRef τ sig) = V (main_arg2 : DevRef τ sig) := keep2_main_arg2 V
theorem keepA2_main_arg3 (V : Valuation τ sig (Elt Ideal)) : after (L2 (F := Ideal)) V (main_arg3 : DevRef τ sig) = V (main_arg3 : DevRef τ sig) := by keeps_buf L2
theorem keepA2_main_arg4 (V : Valuation τ sig (Elt Ideal)) : after (L2 (F := Ideal)) V (main_arg4 : DevRef τ sig) = V (main_arg4 : DevRef τ sig) := by keeps_buf L2
theorem keepA2_main_arg5 (V : Valuation τ sig (Elt Ideal)) : after (L2 (F := Ideal)) V (main_arg5 : DevRef τ sig) = V (main_arg5 : DevRef τ sig) := by keeps_buf L2
theorem keepA2_main_arg6 (V : Valuation τ sig (Elt Ideal)) : after (L2 (F := Ideal)) V (main_arg6 : DevRef τ sig) = V (main_arg6 : DevRef τ sig) := by keeps_buf L2
theorem keepA2_main_arg7 (V : Valuation τ sig (Elt Ideal)) : after (L2 (F := Ideal)) V (main_arg7 : DevRef τ sig) = V (main_arg7 : DevRef τ sig) := keep2_main_arg7 V
theorem keepA2_main_arg8 (V : Valuation τ sig (Elt Ideal)) : after (L2 (F := Ideal)) V (main_arg8 : DevRef τ sig) = V (main_arg8 : DevRef τ sig) := keep2_main_arg8 V
theorem keepA2_main_arg9 (V : Valuation τ sig (Elt Ideal)) : after (L2 (F := Ideal)) V (main_arg9 : DevRef τ sig) = V (main_arg9 : DevRef τ sig) := keep2_main_arg9 V
theorem keepA2_main_arg10 (V : Valuation τ sig (Elt Ideal)) : after (L2 (F := Ideal)) V (main_arg10 : DevRef τ sig) = V (main_arg10 : DevRef τ sig) := keep2_main_arg10 V
theorem keepA2_main_arg11 (V : Valuation τ sig (Elt Ideal)) : after (L2 (F := Ideal)) V (main_arg11 : DevRef τ sig) = V (main_arg11 : DevRef τ sig) := keep2_main_arg11 V
theorem keepA2_main_arg12 (V : Valuation τ sig (Elt Ideal)) : after (L2 (F := Ideal)) V (main_arg12 : DevRef τ sig) = V (main_arg12 : DevRef τ sig) := keep2_main_arg12 V
theorem keepA2_main_arg13 (V : Valuation τ sig (Elt Ideal)) : after (L2 (F := Ideal)) V (main_arg13 : DevRef τ sig) = V (main_arg13 : DevRef τ sig) := keep2_main_arg13 V
theorem keepA2_main_arg14 (V : Valuation τ sig (Elt Ideal)) : after (L2 (F := Ideal)) V (main_arg14 : DevRef τ sig) = V (main_arg14 : DevRef τ sig) := keep2_main_arg14 V
theorem keepA2_main_arg15 (V : Valuation τ sig (Elt Ideal)) : after (L2 (F := Ideal)) V (main_arg15 : DevRef τ sig) = V (main_arg15 : DevRef τ sig) := keep2_main_arg15 V
theorem keepA2_main_arg16 (V : Valuation τ sig (Elt Ideal)) : after (L2 (F := Ideal)) V (main_arg16 : DevRef τ sig) = V (main_arg16 : DevRef τ sig) := keep2_main_arg16 V
theorem keepA3_main_arg0 (V : Valuation τ sig (Elt Ideal)) : after (L3 (F := Ideal)) V (main_arg0 : DevRef τ sig) = V (main_arg0 : DevRef τ sig) := by keeps_buf L3
theorem keepA3_main_arg1 (V : Valuation τ sig (Elt Ideal)) : after (L3 (F := Ideal)) V (main_arg1 : DevRef τ sig) = V (main_arg1 : DevRef τ sig) := keep3_main_arg1 V
theorem keepA3_main_arg2 (V : Valuation τ sig (Elt Ideal)) : after (L3 (F := Ideal)) V (main_arg2 : DevRef τ sig) = V (main_arg2 : DevRef τ sig) := keep3_main_arg2 V
theorem keepA3_main_arg3 (V : Valuation τ sig (Elt Ideal)) : after (L3 (F := Ideal)) V (main_arg3 : DevRef τ sig) = V (main_arg3 : DevRef τ sig) := by keeps_buf L3
theorem keepA3_main_arg4 (V : Valuation τ sig (Elt Ideal)) : after (L3 (F := Ideal)) V (main_arg4 : DevRef τ sig) = V (main_arg4 : DevRef τ sig) := by keeps_buf L3
theorem keepA3_main_arg5 (V : Valuation τ sig (Elt Ideal)) : after (L3 (F := Ideal)) V (main_arg5 : DevRef τ sig) = V (main_arg5 : DevRef τ sig) := by keeps_buf L3
theorem keepA3_main_arg6 (V : Valuation τ sig (Elt Ideal)) : after (L3 (F := Ideal)) V (main_arg6 : DevRef τ sig) = V (main_arg6 : DevRef τ sig) := by keeps_buf L3
theorem keepA3_main_arg7 (V : Valuation τ sig (Elt Ideal)) : after (L3 (F := Ideal)) V (main_arg7 : DevRef τ sig) = V (main_arg7 : DevRef τ sig) := keep3_main_arg7 V
theorem keepA3_main_arg8 (V : Valuation τ sig (Elt Ideal)) : after (L3 (F := Ideal)) V (main_arg8 : DevRef τ sig) = V (main_arg8 : DevRef τ sig) := keep3_main_arg8 V
theorem keepA3_main_arg9 (V : Valuation τ sig (Elt Ideal)) : after (L3 (F := Ideal)) V (main_arg9 : DevRef τ sig) = V (main_arg9 : DevRef τ sig) := keep3_main_arg9 V
theorem keepA3_main_arg10 (V : Valuation τ sig (Elt Ideal)) : after (L3 (F := Ideal)) V (main_arg10 : DevRef τ sig) = V (main_arg10 : DevRef τ sig) := keep3_main_arg10 V
theorem keepA3_main_arg11 (V : Valuation τ sig (Elt Ideal)) : after (L3 (F := Ideal)) V (main_arg11 : DevRef τ sig) = V (main_arg11 : DevRef τ sig) := keep3_main_arg11 V
theorem keepA3_main_arg12 (V : Valuation τ sig (Elt Ideal)) : after (L3 (F := Ideal)) V (main_arg12 : DevRef τ sig) = V (main_arg12 : DevRef τ sig) := keep3_main_arg12 V
theorem keepA3_main_arg13 (V : Valuation τ sig (Elt Ideal)) : after (L3 (F := Ideal)) V (main_arg13 : DevRef τ sig) = V (main_arg13 : DevRef τ sig) := keep3_main_arg13 V
theorem keepA3_main_arg14 (V : Valuation τ sig (Elt Ideal)) : after (L3 (F := Ideal)) V (main_arg14 : DevRef τ sig) = V (main_arg14 : DevRef τ sig) := keep3_main_arg14 V
theorem keepA3_main_arg15 (V : Valuation τ sig (Elt Ideal)) : after (L3 (F := Ideal)) V (main_arg15 : DevRef τ sig) = V (main_arg15 : DevRef τ sig) := keep3_main_arg15 V
theorem keepA3_main_arg16 (V : Valuation τ sig (Elt Ideal)) : after (L3 (F := Ideal)) V (main_arg16 : DevRef τ sig) = V (main_arg16 : DevRef τ sig) := keep3_main_arg16 V
theorem keepA4_main_arg0 (V : Valuation τ sig (Elt Ideal)) : after (L4 (F := Ideal)) V (main_arg0 : DevRef τ sig) = V (main_arg0 : DevRef τ sig) := by keeps_buf L4
theorem keepA4_main_arg1 (V : Valuation τ sig (Elt Ideal)) : after (L4 (F := Ideal)) V (main_arg1 : DevRef τ sig) = V (main_arg1 : DevRef τ sig) := keep4_main_arg1 V
theorem keepA4_main_arg2 (V : Valuation τ sig (Elt Ideal)) : after (L4 (F := Ideal)) V (main_arg2 : DevRef τ sig) = V (main_arg2 : DevRef τ sig) := keep4_main_arg2 V
theorem keepA4_main_arg3 (V : Valuation τ sig (Elt Ideal)) : after (L4 (F := Ideal)) V (main_arg3 : DevRef τ sig) = V (main_arg3 : DevRef τ sig) := by keeps_buf L4
theorem keepA4_main_arg4 (V : Valuation τ sig (Elt Ideal)) : after (L4 (F := Ideal)) V (main_arg4 : DevRef τ sig) = V (main_arg4 : DevRef τ sig) := by keeps_buf L4
theorem keepA4_main_arg5 (V : Valuation τ sig (Elt Ideal)) : after (L4 (F := Ideal)) V (main_arg5 : DevRef τ sig) = V (main_arg5 : DevRef τ sig) := by keeps_buf L4
theorem keepA4_main_arg6 (V : Valuation τ sig (Elt Ideal)) : after (L4 (F := Ideal)) V (main_arg6 : DevRef τ sig) = V (main_arg6 : DevRef τ sig) := by keeps_buf L4
theorem keepA4_main_arg7 (V : Valuation τ sig (Elt Ideal)) : after (L4 (F := Ideal)) V (main_arg7 : DevRef τ sig) = V (main_arg7 : DevRef τ sig) := keep4_main_arg7 V
theorem keepA4_main_arg8 (V : Valuation τ sig (Elt Ideal)) : after (L4 (F := Ideal)) V (main_arg8 : DevRef τ sig) = V (main_arg8 : DevRef τ sig) := keep4_main_arg8 V
theorem keepA4_main_arg9 (V : Valuation τ sig (Elt Ideal)) : after (L4 (F := Ideal)) V (main_arg9 : DevRef τ sig) = V (main_arg9 : DevRef τ sig) := keep4_main_arg9 V
theorem keepA4_main_arg10 (V : Valuation τ sig (Elt Ideal)) : after (L4 (F := Ideal)) V (main_arg10 : DevRef τ sig) = V (main_arg10 : DevRef τ sig) := keep4_main_arg10 V
theorem keepA4_main_arg11 (V : Valuation τ sig (Elt Ideal)) : after (L4 (F := Ideal)) V (main_arg11 : DevRef τ sig) = V (main_arg11 : DevRef τ sig) := keep4_main_arg11 V
theorem keepA4_main_arg12 (V : Valuation τ sig (Elt Ideal)) : after (L4 (F := Ideal)) V (main_arg12 : DevRef τ sig) = V (main_arg12 : DevRef τ sig) := keep4_main_arg12 V
theorem keepA4_main_arg13 (V : Valuation τ sig (Elt Ideal)) : after (L4 (F := Ideal)) V (main_arg13 : DevRef τ sig) = V (main_arg13 : DevRef τ sig) := keep4_main_arg13 V
theorem keepA4_main_arg14 (V : Valuation τ sig (Elt Ideal)) : after (L4 (F := Ideal)) V (main_arg14 : DevRef τ sig) = V (main_arg14 : DevRef τ sig) := keep4_main_arg14 V
theorem keepA4_main_arg15 (V : Valuation τ sig (Elt Ideal)) : after (L4 (F := Ideal)) V (main_arg15 : DevRef τ sig) = V (main_arg15 : DevRef τ sig) := keep4_main_arg15 V
theorem keepA4_main_arg16 (V : Valuation τ sig (Elt Ideal)) : after (L4 (F := Ideal)) V (main_arg16 : DevRef τ sig) = V (main_arg16 : DevRef τ sig) := keep4_main_arg16 V
theorem keepA5_main_arg0 (V : Valuation τ sig (Elt Ideal)) : after (L5 (F := Ideal)) V (main_arg0 : DevRef τ sig) = V (main_arg0 : DevRef τ sig) := by keeps_buf L5
theorem keepA5_main_arg1 (V : Valuation τ sig (Elt Ideal)) : after (L5 (F := Ideal)) V (main_arg1 : DevRef τ sig) = V (main_arg1 : DevRef τ sig) := by keeps_buf L5
theorem keepA5_main_arg2 (V : Valuation τ sig (Elt Ideal)) : after (L5 (F := Ideal)) V (main_arg2 : DevRef τ sig) = V (main_arg2 : DevRef τ sig) := keep5_main_arg2 V
theorem keepA5_main_arg3 (V : Valuation τ sig (Elt Ideal)) : after (L5 (F := Ideal)) V (main_arg3 : DevRef τ sig) = V (main_arg3 : DevRef τ sig) := by keeps_buf L5
theorem keepA5_main_arg4 (V : Valuation τ sig (Elt Ideal)) : after (L5 (F := Ideal)) V (main_arg4 : DevRef τ sig) = V (main_arg4 : DevRef τ sig) := by keeps_buf L5
theorem keepA5_main_arg5 (V : Valuation τ sig (Elt Ideal)) : after (L5 (F := Ideal)) V (main_arg5 : DevRef τ sig) = V (main_arg5 : DevRef τ sig) := by keeps_buf L5
theorem keepA5_main_arg6 (V : Valuation τ sig (Elt Ideal)) : after (L5 (F := Ideal)) V (main_arg6 : DevRef τ sig) = V (main_arg6 : DevRef τ sig) := by keeps_buf L5
theorem keepA5_main_arg7 (V : Valuation τ sig (Elt Ideal)) : after (L5 (F := Ideal)) V (main_arg7 : DevRef τ sig) = V (main_arg7 : DevRef τ sig) := by keeps_buf L5
theorem keepA5_main_arg8 (V : Valuation τ sig (Elt Ideal)) : after (L5 (F := Ideal)) V (main_arg8 : DevRef τ sig) = V (main_arg8 : DevRef τ sig) := by keeps_buf L5
theorem keepA5_main_arg9 (V : Valuation τ sig (Elt Ideal)) : after (L5 (F := Ideal)) V (main_arg9 : DevRef τ sig) = V (main_arg9 : DevRef τ sig) := by keeps_buf L5
theorem keepA5_main_arg10 (V : Valuation τ sig (Elt Ideal)) : after (L5 (F := Ideal)) V (main_arg10 : DevRef τ sig) = V (main_arg10 : DevRef τ sig) := by keeps_buf L5
theorem keepA5_main_arg11 (V : Valuation τ sig (Elt Ideal)) : after (L5 (F := Ideal)) V (main_arg11 : DevRef τ sig) = V (main_arg11 : DevRef τ sig) := by keeps_buf L5
theorem keepA5_main_arg12 (V : Valuation τ sig (Elt Ideal)) : after (L5 (F := Ideal)) V (main_arg12 : DevRef τ sig) = V (main_arg12 : DevRef τ sig) := by keeps_buf L5
theorem keepA5_main_arg13 (V : Valuation τ sig (Elt Ideal)) : after (L5 (F := Ideal)) V (main_arg13 : DevRef τ sig) = V (main_arg13 : DevRef τ sig) := keep5_main_arg13 V
theorem keepA5_main_arg14 (V : Valuation τ sig (Elt Ideal)) : after (L5 (F := Ideal)) V (main_arg14 : DevRef τ sig) = V (main_arg14 : DevRef τ sig) := keep5_main_arg14 V
theorem keepA5_main_arg15 (V : Valuation τ sig (Elt Ideal)) : after (L5 (F := Ideal)) V (main_arg15 : DevRef τ sig) = V (main_arg15 : DevRef τ sig) := keep5_main_arg15 V
theorem keepA5_main_arg16 (V : Valuation τ sig (Elt Ideal)) : after (L5 (F := Ideal)) V (main_arg16 : DevRef τ sig) = V (main_arg16 : DevRef τ sig) := keep5_main_arg16 V
theorem keepA6_main_arg0 (V : Valuation τ sig (Elt Ideal)) : after (L6 (F := Ideal)) V (main_arg0 : DevRef τ sig) = V (main_arg0 : DevRef τ sig) := by keeps_buf L6
theorem keepA6_main_arg1 (V : Valuation τ sig (Elt Ideal)) : after (L6 (F := Ideal)) V (main_arg1 : DevRef τ sig) = V (main_arg1 : DevRef τ sig) := by keeps_buf L6
theorem keepA6_main_arg2 (V : Valuation τ sig (Elt Ideal)) : after (L6 (F := Ideal)) V (main_arg2 : DevRef τ sig) = V (main_arg2 : DevRef τ sig) := by keeps_buf L6
theorem keepA6_main_arg3 (V : Valuation τ sig (Elt Ideal)) : after (L6 (F := Ideal)) V (main_arg3 : DevRef τ sig) = V (main_arg3 : DevRef τ sig) := by keeps_buf L6
theorem keepA6_main_arg4 (V : Valuation τ sig (Elt Ideal)) : after (L6 (F := Ideal)) V (main_arg4 : DevRef τ sig) = V (main_arg4 : DevRef τ sig) := by keeps_buf L6
theorem keepA6_main_arg5 (V : Valuation τ sig (Elt Ideal)) : after (L6 (F := Ideal)) V (main_arg5 : DevRef τ sig) = V (main_arg5 : DevRef τ sig) := by keeps_buf L6
theorem keepA6_main_arg6 (V : Valuation τ sig (Elt Ideal)) : after (L6 (F := Ideal)) V (main_arg6 : DevRef τ sig) = V (main_arg6 : DevRef τ sig) := by keeps_buf L6
theorem keepA6_main_arg7 (V : Valuation τ sig (Elt Ideal)) : after (L6 (F := Ideal)) V (main_arg7 : DevRef τ sig) = V (main_arg7 : DevRef τ sig) := by keeps_buf L6
theorem keepA6_main_arg8 (V : Valuation τ sig (Elt Ideal)) : after (L6 (F := Ideal)) V (main_arg8 : DevRef τ sig) = V (main_arg8 : DevRef τ sig) := by keeps_buf L6
theorem keepA6_main_arg9 (V : Valuation τ sig (Elt Ideal)) : after (L6 (F := Ideal)) V (main_arg9 : DevRef τ sig) = V (main_arg9 : DevRef τ sig) := by keeps_buf L6
theorem keepA6_main_arg10 (V : Valuation τ sig (Elt Ideal)) : after (L6 (F := Ideal)) V (main_arg10 : DevRef τ sig) = V (main_arg10 : DevRef τ sig) := by keeps_buf L6
theorem keepA6_main_arg11 (V : Valuation τ sig (Elt Ideal)) : after (L6 (F := Ideal)) V (main_arg11 : DevRef τ sig) = V (main_arg11 : DevRef τ sig) := by keeps_buf L6
theorem keepA6_main_arg12 (V : Valuation τ sig (Elt Ideal)) : after (L6 (F := Ideal)) V (main_arg12 : DevRef τ sig) = V (main_arg12 : DevRef τ sig) := by keeps_buf L6
theorem keepA6_main_arg13 (V : Valuation τ sig (Elt Ideal)) : after (L6 (F := Ideal)) V (main_arg13 : DevRef τ sig) = V (main_arg13 : DevRef τ sig) := by keeps_buf L6
theorem keepA6_main_arg14 (V : Valuation τ sig (Elt Ideal)) : after (L6 (F := Ideal)) V (main_arg14 : DevRef τ sig) = V (main_arg14 : DevRef τ sig) := by keeps_buf L6
theorem keepA6_main_arg15 (V : Valuation τ sig (Elt Ideal)) : after (L6 (F := Ideal)) V (main_arg15 : DevRef τ sig) = V (main_arg15 : DevRef τ sig) := by keeps_buf L6
theorem keepA6_main_arg16 (V : Valuation τ sig (Elt Ideal)) : after (L6 (F := Ideal)) V (main_arg16 : DevRef τ sig) = V (main_arg16 : DevRef τ sig) := by keeps_buf L6
theorem kept_main_arg0 (V : Valuation τ sig (Elt Ideal)) : after (ops (F := Ideal)) V (main_arg0 : DevRef τ sig) = V (main_arg0 : DevRef τ sig) := by
  rw [ops_eq]; simp only [after_append]; rw [keepA6_main_arg0, keepA5_main_arg0, keepA4_main_arg0, keepA3_main_arg0, keepA2_main_arg0, keepA1_main_arg0]
theorem kept_main_arg1 (V : Valuation τ sig (Elt Ideal)) : after (ops (F := Ideal)) V (main_arg1 : DevRef τ sig) = V (main_arg1 : DevRef τ sig) := by
  rw [ops_eq]; simp only [after_append]; rw [keepA6_main_arg1, keepA5_main_arg1, keepA4_main_arg1, keepA3_main_arg1, keepA2_main_arg1, keepA1_main_arg1]
theorem kept_main_arg2 (V : Valuation τ sig (Elt Ideal)) : after (ops (F := Ideal)) V (main_arg2 : DevRef τ sig) = V (main_arg2 : DevRef τ sig) := by
  rw [ops_eq]; simp only [after_append]; rw [keepA6_main_arg2, keepA5_main_arg2, keepA4_main_arg2, keepA3_main_arg2, keepA2_main_arg2, keepA1_main_arg2]
theorem kept_main_arg3 (V : Valuation τ sig (Elt Ideal)) : after (ops (F := Ideal)) V (main_arg3 : DevRef τ sig) = V (main_arg3 : DevRef τ sig) := by
  rw [ops_eq]; simp only [after_append]; rw [keepA6_main_arg3, keepA5_main_arg3, keepA4_main_arg3, keepA3_main_arg3, keepA2_main_arg3, keepA1_main_arg3]
theorem kept_main_arg4 (V : Valuation τ sig (Elt Ideal)) : after (ops (F := Ideal)) V (main_arg4 : DevRef τ sig) = V (main_arg4 : DevRef τ sig) := by
  rw [ops_eq]; simp only [after_append]; rw [keepA6_main_arg4, keepA5_main_arg4, keepA4_main_arg4, keepA3_main_arg4, keepA2_main_arg4, keepA1_main_arg4]
theorem kept_main_arg5 (V : Valuation τ sig (Elt Ideal)) : after (ops (F := Ideal)) V (main_arg5 : DevRef τ sig) = V (main_arg5 : DevRef τ sig) := by
  rw [ops_eq]; simp only [after_append]; rw [keepA6_main_arg5, keepA5_main_arg5, keepA4_main_arg5, keepA3_main_arg5, keepA2_main_arg5, keepA1_main_arg5]
theorem kept_main_arg6 (V : Valuation τ sig (Elt Ideal)) : after (ops (F := Ideal)) V (main_arg6 : DevRef τ sig) = V (main_arg6 : DevRef τ sig) := by
  rw [ops_eq]; simp only [after_append]; rw [keepA6_main_arg6, keepA5_main_arg6, keepA4_main_arg6, keepA3_main_arg6, keepA2_main_arg6, keepA1_main_arg6]
theorem kept_main_arg7 (V : Valuation τ sig (Elt Ideal)) : after (ops (F := Ideal)) V (main_arg7 : DevRef τ sig) = V (main_arg7 : DevRef τ sig) := by
  rw [ops_eq]; simp only [after_append]; rw [keepA6_main_arg7, keepA5_main_arg7, keepA4_main_arg7, keepA3_main_arg7, keepA2_main_arg7, keepA1_main_arg7]
theorem kept_main_arg8 (V : Valuation τ sig (Elt Ideal)) : after (ops (F := Ideal)) V (main_arg8 : DevRef τ sig) = V (main_arg8 : DevRef τ sig) := by
  rw [ops_eq]; simp only [after_append]; rw [keepA6_main_arg8, keepA5_main_arg8, keepA4_main_arg8, keepA3_main_arg8, keepA2_main_arg8, keepA1_main_arg8]
theorem kept_main_arg9 (V : Valuation τ sig (Elt Ideal)) : after (ops (F := Ideal)) V (main_arg9 : DevRef τ sig) = V (main_arg9 : DevRef τ sig) := by
  rw [ops_eq]; simp only [after_append]; rw [keepA6_main_arg9, keepA5_main_arg9, keepA4_main_arg9, keepA3_main_arg9, keepA2_main_arg9, keepA1_main_arg9]
theorem kept_main_arg10 (V : Valuation τ sig (Elt Ideal)) : after (ops (F := Ideal)) V (main_arg10 : DevRef τ sig) = V (main_arg10 : DevRef τ sig) := by
  rw [ops_eq]; simp only [after_append]; rw [keepA6_main_arg10, keepA5_main_arg10, keepA4_main_arg10, keepA3_main_arg10, keepA2_main_arg10, keepA1_main_arg10]
theorem kept_main_arg11 (V : Valuation τ sig (Elt Ideal)) : after (ops (F := Ideal)) V (main_arg11 : DevRef τ sig) = V (main_arg11 : DevRef τ sig) := by
  rw [ops_eq]; simp only [after_append]; rw [keepA6_main_arg11, keepA5_main_arg11, keepA4_main_arg11, keepA3_main_arg11, keepA2_main_arg11, keepA1_main_arg11]
theorem kept_main_arg12 (V : Valuation τ sig (Elt Ideal)) : after (ops (F := Ideal)) V (main_arg12 : DevRef τ sig) = V (main_arg12 : DevRef τ sig) := by
  rw [ops_eq]; simp only [after_append]; rw [keepA6_main_arg12, keepA5_main_arg12, keepA4_main_arg12, keepA3_main_arg12, keepA2_main_arg12, keepA1_main_arg12]
theorem kept_main_arg13 (V : Valuation τ sig (Elt Ideal)) : after (ops (F := Ideal)) V (main_arg13 : DevRef τ sig) = V (main_arg13 : DevRef τ sig) := by
  rw [ops_eq]; simp only [after_append]; rw [keepA6_main_arg13, keepA5_main_arg13, keepA4_main_arg13, keepA3_main_arg13, keepA2_main_arg13, keepA1_main_arg13]
theorem kept_main_arg14 (V : Valuation τ sig (Elt Ideal)) : after (ops (F := Ideal)) V (main_arg14 : DevRef τ sig) = V (main_arg14 : DevRef τ sig) := by
  rw [ops_eq]; simp only [after_append]; rw [keepA6_main_arg14, keepA5_main_arg14, keepA4_main_arg14, keepA3_main_arg14, keepA2_main_arg14, keepA1_main_arg14]
theorem kept_main_arg15 (V : Valuation τ sig (Elt Ideal)) : after (ops (F := Ideal)) V (main_arg15 : DevRef τ sig) = V (main_arg15 : DevRef τ sig) := by
  rw [ops_eq]; simp only [after_append]; rw [keepA6_main_arg15, keepA5_main_arg15, keepA4_main_arg15, keepA3_main_arg15, keepA2_main_arg15, keepA1_main_arg15]
theorem kept_main_arg16 (V : Valuation τ sig (Elt Ideal)) : after (ops (F := Ideal)) V (main_arg16 : DevRef τ sig) = V (main_arg16 : DevRef τ sig) := by
  rw [ops_eq]; simp only [after_append]; rw [keepA6_main_arg16, keepA5_main_arg16, keepA4_main_arg16, keepA3_main_arg16, keepA2_main_arg16, keepA1_main_arg16]

end Cert.ReferenceIdeal.RefRun

end
-- ==== Proof.LibHostColSum.lean ====
/-
  The host's sum over the FIRST axis of an [a, b] array, read at a column.

  `stablehlo.reduce` with an `add` body over axis 0 (a column statistic: jnp.sum(x, axis=0), the sums behind
  jnp.mean / jnp.var over a batch of rows), at the ideal values, holds at column u the initial value plus the sum
  over the column's entries: the reduced index u with the dropped coordinate k put back is (k, u). No finiteness is
  asked: this is how the exact sum is defined, with the summation index renamed.
-/
import Idealize.ShloMosaic.Lib.Pipeline.Value
import Idealize.ShloMosaic.Lib.ValueIdx
import Idealize.ShloMosaic.PureOps.Ideal.Laws

noncomputable section

open scoped BigOperators

namespace Cert.HostColSum

open Idealize.ShloMosaic Idealize.ShloMosaic.ValueIdx

/-- The reduced index u with the first-axis coordinate k put back is (k, u). -/
theorem lift_col {a b : ℕ} (h : (⟨2, ![a, b]⟩ : Shape).Reduces [0] (⟨1, ![b]⟩ : Shape)) (u : Fin b)
    (k : Fin ((⟨2, ![a, b]⟩ : Shape).size 0)) : h.lift (ix1 u) k = ix2 (⟨k.val, k.isLt⟩ : Fin a) u := by
  funext c; apply Fin.ext
  fin_cases c <;> rfl

/-- A shape fact of the host's reduction names the inserted index as well. -/
theorem reduces_of_reducesTo {a b : ℕ} (h' : (⟨2, ![a, b]⟩ : Shape).ReducesTo [0] (⟨1, ![b]⟩ : Shape)) :
    (⟨2, ![a, b]⟩ : Shape).Reduces [0] (⟨1, ![b]⟩ : Shape) :=
  let ⟨hr, hs⟩ := h'; ⟨hr, Nat.one_pos, hs⟩

/-- The host's sum over the first axis, at column u: the initial value plus the sum down the column. -/
theorem hostColSum_apply {a b : ℕ} (src : (⟨2, ![a, b]⟩ : Shape).Idx → EReal) (init : EReal)
    (h' : (⟨2, ![a, b]⟩ : Shape).ReducesTo [0] (⟨1, ![b]⟩ : Shape)) (u : Fin b) :
    Ideal.hostReduceAdd h' src init (ix1 u) = init + ∑ k : Fin a, src (ix2 k u) :=
  (Ideal.hostReduceAdd_single h' (reduces_of_reducesTo h') src init (ix1 u)).trans
    (congrArg (init + ·) (Finset.sum_congr rfl fun k _ => congrArg src (lift_col (reduces_of_reducesTo h') u k)))

/-- With the zero word as the initial value: the sum down the column. -/
theorem hostColSum_zero_apply {a b : ℕ} (src : (⟨2, ![a, b]⟩ : Shape).Idx → EReal)
    (h' : (⟨2, ![a, b]⟩ : Shape).ReducesTo [0] (⟨1, ![b]⟩ : Shape)) (u : Fin b) :
    Ideal.hostReduceAdd h' src (Ideal.ofBits .f32 0x00000000#32) (ix1 u) = ∑ k : Fin a, src (ix2 k u) := by
  rw [hostColSum_apply, Ideal.ofBits_zero_f32, zero_add]

end Cert.HostColSum

end
-- ==== Proof.LibStatLits.lean ====
/-
  Two float words of batch statistics as the extended reals they denote at the ideal instance:
  the f32 nearest to 1e-5 (the usual batch-normalisation epsilon), which is the positive dyadic 10995116 / 2^40,
  and 100000.0, which is the real 100000 exactly.
-/
import Idealize.ShloMosaic.PureOps.Ideal

noncomputable section

namespace Cert.Lib.StatLits

open Idealize.ShloMosaic

/-- The f32 word of 1e-5 denotes the dyadic rational 10995116 / 2^40. -/
theorem eps_word : Ideal.ofBits .f32 0x3727C5AC#32 = ((10995116 / 2 ^ 40 : ℝ) : EReal) := by
  simp [Ideal.ofBits, Ideal.ieee, -EReal.coe_mul]; norm_num

/-- That dyadic is positive. -/
theorem eps_pos : (0 : ℝ) < 10995116 / 2 ^ 40 := by norm_num

/-- The f32 word of 100000.0 denotes the real 100000. -/
theorem n_word : Ideal.ofBits .f32 0x47C35000#32 = ((100000 : ℝ) : EReal) := by
  simp [Ideal.ofBits, Ideal.ieee, -EReal.coe_mul]; norm_num

end Cert.Lib.StatLits

end
-- ==== Proof.BridgeReads.lean ====
/-
  The host forms and the kernel's forms of a block, read at an entry.

  The host's perceptron is the same array as the row-affine perceptron; the host's column sums, mean and jnp variance, and
  the kernel's mean and variance from the two rows of sums, are the quotients by the count 100000 of the column sums;
  so the host's block at (p, q) is the normalisation by the mean of squared deviations (normDevs), the kernel's the
  normalisation by mean of squares minus square of the mean (normSums), of one and the same feature array.
-/
import proofs.«169884_j31009663877671_1_alg».proof.Proof.KerForms
import proofs.«169884_j31009663877671_1_alg».proof.Proof.LibHostColSum
import proofs.«169884_j31009663877671_1_alg».proof.Proof.LibStatLits
import proofs.«169884_j31009663877671_1_alg».proof.Proof.LibRowInDim
import proofs.«169884_j31009663877671_1_alg».proof.Proof.LibRowOfVector

noncomputable section

namespace Cert.ReferenceIdeal.Forms

open Cert.ReferenceIdeal Idealize.ShloMosaic Idealize.ShloMosaic.ValueIdx Cert.Gin Cert.RowAffine Cert.Lib.BatchNorm
open Facts₀ Facts

/-- The count word is the real 100000. -/
theorem countW_apply (i : S_.Idx) : countW i = ((100000 : ℝ) : EReal) := Cert.Lib.StatLits.n_word

theorem zeroW_apply (i : S_.Idx) : zeroW i = 0 := Ideal.ofBits_zero_f32

/-- A scalar spread over a shape, at any index. -/
theorem splat_apply {α : Type} {s : Shape} (h : S_.BroadcastsInDim s (![] : Fin 0 → Fin s.rank)) (v : S_.Idx → α) (i : s.Idx) :
    broadcastInDim s ![] h v i = v (fun a => a.elim0) :=
  broadcastInDim_apply _ h v i (fun a => a.elim0) (fun a => a.elim0)

theorem zeros_apply (i : S100000x64.Idx) : zeros i = 0 := by
  unfold zeros
  rw [splat_apply, zeroW_apply]

theorem rows_apply (b : FVec Ideal S64 .f32) (p : Fin 100000) (q : Fin 64) : rows b (ix2 p q) = b (ix1 q) := by
  unfold rows
  rw [RowInDim.broadcastInDim_rows (by decide), RowOfVector.broadcastInDim_row (by decide)]

theorem asRow_apply (v : FVec Ideal S64 .f32) (q : Fin 64) : asRow v (ix2 0 q) = v (ix1 q) :=
  RowOfVector.shapeCast_row v _ 0 q

/-- The clamp in the host's spelling. -/
theorem relu_host (Y : FVec Ideal S100000x64 .f32) : maximumf Y zeros = relu Y :=
  funext fun i => by rw [maximumf_apply, relu_apply, zeros_apply]

/-- The host's perceptron on 64-lane inputs is the row-affine perceptron with the biases as rows. -/
theorem mlpH64_eq (a : FVec Ideal S100000x64 .f32) (W1 : FVec Ideal S64x64 .f32) (b1 : FVec Ideal S64 .f32)
    (W2 : FVec Ideal S64x64 .f32) (b2 : FVec Ideal S64 .f32) :
    mlpH64 a W1 b1 W2 b2 = mlp a W1 (asRow b1) W2 (asRow b2) := by
  unfold mlpH64 rows mlp
  rw [RowAffine.host_eq dot_S100000x64_S64x64_S100000x64_1_0_0_1_n_n rfl (by decide) none a W1 b1 sc64, relu_host,
    RowAffine.host_eq dot_S100000x64_S64x64_S100000x64_1_0_0_1_n_n rfl (by decide) none _ W2 b2 sc64, relu_host]

/-- The same on 128-lane inputs. -/
theorem mlpH128_eq (a : FVec Ideal S100000x128 .f32) (W1 : FVec Ideal S128x64 .f32) (b1 : FVec Ideal S64 .f32)
    (W2 : FVec Ideal S64x64 .f32) (b2 : FVec Ideal S64 .f32) :
    mlpH128 a W1 b1 W2 b2 = mlp a W1 (asRow b1) W2 (asRow b2) := by
  unfold mlpH128 rows mlp
  rw [RowAffine.host_eq dot_S100000x128_S128x64_S100000x64_1_0_0_1_n_n rfl (by decide) none a W1 b1 sc64, relu_host,
    RowAffine.host_eq dot_S100000x64_S64x64_S100000x64_1_0_0_1_n_n rfl (by decide) none _ W2 b2 sc64, relu_host]

/-- The host's column sums at a column. -/
theorem colSums_apply (T : FVec Ideal S100000x64 .f32) (q : Fin 64) :
    colSums T (ix1 q) = ∑ r : Fin 100000, T (ix2 r q) :=
  Cert.HostColSum.hostColSum_zero_apply T reducesTo_S100000x64_S64_d0 q

end Cert.ReferenceIdeal.Forms

end
-- ==== Proof.BridgeBlock.lean ====
/-
  A block read at an entry: the kernel's normalisation is normSums, the host's is normDevs, of the same feature array.
-/
import proofs.«169884_j31009663877671_1_alg».proof.Proof.BridgeReads

noncomputable section

namespace Cert.ReferenceIdeal.Forms

open Cert.ReferenceIdeal Idealize.ShloMosaic Idealize.ShloMosaic.ValueIdx Cert.Gin Cert.RowAffine Cert.Lib.BatchNorm
open Facts₀ Facts

/-- A 1×64 row viewed as a length-64 vector, at q. -/
theorem vec_of_row (S : FVec Ideal S1x64 .f32) (q : Fin 64) : shapeCast S64 S sc64' (ix1 q) = S (ix2 0 q) :=
  shapeCast_apply S sc64' (ix1 q) (ix2 0 q) (by
    rw [Shape.rowMajor_val_two, Shape.rowMajor_val_one]
    show (0 : ℕ) * 64 + q.val = q.val
    omega)

/-- The kernel's mean at a column. -/
theorem meanK_apply (T : FVec Ideal S100000x64 .f32) (q : Fin 64) :
    meanK (sumRow T) (ix1 q) = Ideal.div (∑ r : Fin 100000, T (ix2 r q)) ((100000 : ℝ) : EReal) := by
  show Ideal.div (shapeCast S64 (sumRow T) sc64' (ix1 q)) (broadcastInDim S64 ![] bcast_S_S64 countW (ix1 q)) = _
  rw [vec_of_row, splat_apply, countW_apply]
  rfl

/-- The kernel's variance at a column. -/
theorem varK_apply (T : FVec Ideal S100000x64 .f32) (q : Fin 64) :
    varK (sumRow T) (sqRow T) (ix1 q)
      = Ideal.div (∑ r : Fin 100000, T (ix2 r q) * T (ix2 r q)) ((100000 : ℝ) : EReal)
        - Ideal.div (∑ r : Fin 100000, T (ix2 r q)) ((100000 : ℝ) : EReal) * Ideal.div (∑ r : Fin 100000, T (ix2 r q)) ((100000 : ℝ) : EReal) := by
  show Ideal.div (shapeCast S64 (sqRow T) sc64' (ix1 q)) (broadcastInDim S64 ![] bcast_S_S64 countW (ix1 q))
      - meanK (sumRow T) (ix1 q) * meanK (sumRow T) (ix1 q) = _
  rw [vec_of_row, splat_apply, countW_apply, meanK_apply]
  rfl

/-- The kernel's block at an entry: the normalisation with "mean of squares minus square of the mean". -/
theorem normK_apply (T : FVec Ideal S100000x64 .f32) (γ β : FVec Ideal S64 .f32) (p : Fin 100000) (q : Fin 64) :
    normK T γ β (ix2 p q)
      = normSums (fun r j => T (ix2 r j)) (fun j => γ (ix1 j)) (fun j => β (ix1 j)) (Ideal.ofBits .f32 0x3727C5AC#32)
          ((100000 : ℝ) : EReal) p q := by
  unfold normK
  rw [normRows_apply, asRow_apply, asRow_apply, asRow_apply, asRow_apply, meanK_apply, varK_apply]
  rfl

/-- The host's mean at a column. -/
theorem meanH_apply (T : FVec Ideal S100000x64 .f32) (q : Fin 64) :
    meanH T (ix1 q) = Ideal.div (∑ r : Fin 100000, T (ix2 r q)) ((100000 : ℝ) : EReal) := by
  show Ideal.div (colSums T (ix1 q)) (broadcastInDim S64 ![] bcast_S_S64 countW (ix1 q)) = _
  rw [colSums_apply, splat_apply, countW_apply]

/-- The count jnp's variance divides by is the count. -/
theorem dofW_apply (i : S_.Idx) : dofW i = ((100000 : ℝ) : EReal) := by
  show countW i - (((0#32 : BitVec 32).toInt : ℝ) : EReal) = _
  rw [countW_apply]
  simp

/-- The host's variance at a column: the mean of the squared deviations from the mean. -/
theorem varH_apply (T : FVec Ideal S100000x64 .f32) (q : Fin 64) :
    varH T (ix1 q)
      = Ideal.div (∑ r : Fin 100000, (T (ix2 r q) - Ideal.div (∑ k : Fin 100000, T (ix2 k q)) ((100000 : ℝ) : EReal))
          * (T (ix2 r q) - Ideal.div (∑ k : Fin 100000, T (ix2 k q)) ((100000 : ℝ) : EReal))) ((100000 : ℝ) : EReal) := by
  unfold varH
  rw [select_apply]
  have hc : broadcastInDim S64 ![] bcast_S_S64 (cmpf (F := Ideal) .ogt dofW zeroW) (ix1 q) = 1#1 := by
    rw [splat_apply]
    show Ideal.cmp .ogt (dofW _) (zeroW _) = 1#1
    rw [dofW_apply, zeroW_apply]
    have hpos : (0 : EReal) < ((100000 : ℝ) : EReal) := by exact_mod_cast (by norm_num : (0 : ℝ) < 100000)
    show BitVec.ofBool (decide ((0 : EReal) < ((100000 : ℝ) : EReal))) = 1#1
    rw [decide_eq_true hpos]
    first | exact BitVec.ofBool_true | decide
  rw [hc]
  show Ideal.div (colSums _ (ix1 q)) (broadcastInDim S64 ![] bcast_S_S64 dofW (ix1 q)) = _
  rw [colSums_apply, splat_apply, dofW_apply]
  refine congrArg (fun z => Ideal.div z ((100000 : ℝ) : EReal)) ?_
  refine Finset.sum_congr rfl fun r _ => ?_
  have hcen : ∀ r : Fin 100000, subf T (broadcastInDim S100000x64 ![0, 1] bcast_S1x64_S100000x64_0_1
        (Host.divf (broadcastInDim S1x64 ![1] bcast_S64_S1x64_1 (colSums T)) (broadcastInDim S1x64 ![] bcast_S_S1x64 countW))) (ix2 r q)
      = T (ix2 r q) - Ideal.div (∑ k : Fin 100000, T (ix2 k q)) ((100000 : ℝ) : EReal) := fun r => by
    rw [subf_apply, RowInDim.broadcastInDim_rows (by decide)]
    show _ - Ideal.div (broadcastInDim S1x64 ![1] bcast_S64_S1x64_1 (colSums T) (ix2 0 q)) (broadcastInDim S1x64 ![] bcast_S_S1x64 countW (ix2 0 q)) = _
    rw [RowOfVector.broadcastInDim_row (by decide), colSums_apply, splat_apply, countW_apply]
  rw [mulf_apply, hcen]

/-- The host's block at an entry: the normalisation with the mean of squared deviations. -/
theorem bnOf_apply (T : FVec Ideal S100000x64 .f32) (γ β : FVec Ideal S64 .f32) (p : Fin 100000) (q : Fin 64) :
    bnOf T γ β (ix2 p q)
      = normDevs (fun r j => T (ix2 r j)) (fun j => γ (ix1 j)) (fun j => β (ix1 j)) (Ideal.ofBits .f32 0x3727C5AC#32)
          ((100000 : ℝ) : EReal) p q := by
  unfold bnOf normH
  rw [addf_apply, mulf_apply, mulf_apply, subf_apply, rows_apply, rows_apply, rows_apply, rows_apply]
  show _ * _ * Ideal.rsqrt (varH T (ix1 q) + broadcastInDim S64 ![] bcast_S_S64 (constant (F := Ideal) S_ .f32 0x3727C5AC#32) (ix1 q)) + _ = _
  rw [meanH_apply, varH_apply, splat_apply]
  rfl

end Cert.ReferenceIdeal.Forms

end
-- ==== Proof.LibScatterIdeal.lean ====
/-
  The host's accumulating scatter, read at the extended reals, is the exact sum: every operand element plus the
  updates that land on it, whatever the shapes and the dimension numbers.
-/
import Idealize.ShloMosaic.PureOps.Contract
import Idealize.ShloMosaic.PureOps.Ideal

noncomputable section

namespace Cert.LibScatter

open Idealize.ShloMosaic

/-- Over the extended reals the accumulating scatter is the operand plus the sum of the updates landing there. -/
theorem scatterAdd_ideal {s si u : Shape} {w : Nat} {φ : FTy} (d : ScatterDims s si u) (x : FVec Ideal s φ)
    (idx : IVec si w) (upd : FVec Ideal u φ) :
    Host.scatterAdd d x idx upd = Ideal.hostScatterAdd d x idx upd := rfl

end Cert.LibScatter

end
-- ==== Proof.Bridge.lean ====
/-
  The kernel's network and the reference's network are one function of real-valued arguments.

  Block by block: both normalise the same feature array (the perceptron of the aggregated features; the host's spelling of
  it is the row-affine one), the kernel with the variance as mean of squares minus square of the mean, the reference with
  the mean of squared deviations; on real features these agree, and the block's output is again real, so the next block
  starts from equal real features. The aggregation (a re-indexing and a sum over landing updates), the slices of the
  stacked parameters and the reshapes keep real data real. The pooling and the head are the same operations on both
  sides (no finiteness needed).
-/
import proofs.«169884_j31009663877671_1_alg».proof.Proof.BridgeBlock
import proofs.«169884_j31009663877671_1_alg».proof.Proof.LibScatterIdeal
import proofs.«169884_j31009663877671_1_alg».proof.Proof.RefChain

noncomputable section

namespace Cert.ReferenceIdeal.Forms

open Cert.ReferenceIdeal Idealize.ShloMosaic Idealize.ShloMosaic.ValueIdx Cert.Gin Cert.RowAffine Cert.Lib.BatchNorm
open Facts₀ Facts

theorem isReal_of_forall {α : Type} {X : α → EReal} (h : ∀ a, ∃ r : ℝ, X a = (r : EReal)) : IsRealArr X := by
  choose f hf using h
  exact ⟨f, funext hf⟩

theorem isReal_apply {α : Type} {X : α → EReal} (h : IsRealArr X) (a : α) : ∃ r : ℝ, X a = (r : EReal) := by
  obtain ⟨g, rfl⟩ := h; exact ⟨g a, rfl⟩

theorem isReal_shapeCast {s u : Shape} {x : FVec Ideal s .f32} (hx : IsRealArr x) (h : s.ShapeCasts u) :
    IsRealArr (shapeCast u x h) := by
  obtain ⟨g, rfl⟩ := hx; exact ⟨shapeCast u g h, rfl⟩

theorem isReal_slice {s u : Shape} {x : FVec Ideal s .f32} (hx : IsRealArr x) (off : Fin s.rank → Nat) (h : s.Slices off u) :
    IsRealArr (extractStridedSlice u off x h) := by
  obtain ⟨g, rfl⟩ := hx; exact ⟨extractStridedSlice u off g h, rfl⟩

theorem isReal_gather {s si so : Shape} {w : Nat} (d : GatherDims s si so) {x : FVec Ideal s .f32} (hx : IsRealArr x) (idx : IVec si w) :
    IsRealArr (Host.gather d x idx) := by
  obtain ⟨g, rfl⟩ := hx; exact ⟨Host.gather d g idx, rfl⟩

theorem isReal_scatterAdd {s si su : Shape} {w : Nat} (d : ScatterDims s si su) {x : FVec Ideal s .f32} {u : FVec Ideal su .f32}
    (hx : IsRealArr x) (hu : IsRealArr u) (idx : IVec si w) : IsRealArr (Host.scatterAdd d x idx u) := by
  rw [Cert.LibScatter.scatterAdd_ideal]
  unfold Ideal.hostScatterAdd
  exact isReal_add_sum hx hu _

theorem isReal_zeroSplat {s : Shape} (h : S_.BroadcastsInDim s (![] : Fin 0 → Fin s.rank)) : IsRealArr (broadcastInDim s ![] h zeroW) :=
  ⟨fun _ => 0, funext fun i => by rw [splat_apply, zeroW_apply, EReal.coe_zero]⟩

theorem isReal_agg64 {h : FVec Ideal S100000x64 .f32} (hh : IsRealArr h) (ei : IVec S2x1600000 32) : IsRealArr (agg64 h ei) := by
  unfold agg64
  exact isReal_add hh (isReal_scatterAdd _ (isReal_zeroSplat _) (isReal_gather _ hh _) _)

theorem isReal_agg128 {h : FVec Ideal S100000x128 .f32} (hh : IsRealArr h) (ei : IVec S2x1600000 32) : IsRealArr (agg128 h ei) := by
  unfold agg128
  exact isReal_add hh (isReal_scatterAdd _ (isReal_zeroSplat _) (isReal_gather _ hh _) _)

theorem isReal_slab {W : FVec Ideal S4x64x64 .f32} (hW : IsRealArr W) (off : Fin 3 → Nat) (h : S4x64x64.Slices off S1x64x64) :
    IsRealArr (slab W off h) := isReal_shapeCast (isReal_slice hW off h) _

theorem isReal_row4 {B : FVec Ideal S4x64 .f32} (hB : IsRealArr B) (off : Fin 2 → Nat) (h : S4x64.Slices off S1x64) :
    IsRealArr (row4 B off h) := isReal_shapeCast (isReal_slice hB off h) _

theorem isReal_row5 {B : FVec Ideal S5x64 .f32} (hB : IsRealArr B) (off : Fin 2 → Nat) (h : S5x64.Slices off S1x64) :
    IsRealArr (row5 B off h) := isReal_shapeCast (isReal_slice hB off h) _

theorem isReal_asRow {v : FVec Ideal S64 .f32} (hv : IsRealArr v) : IsRealArr (asRow v) := isReal_shapeCast hv _

/-- The core: on a real feature array with real scale and shift the kernel's and the host's normalisation agree, and the
    result is real. -/
theorem norm_agree {T : FVec Ideal S100000x64 .f32} (hT : IsRealArr T) {γ β : FVec Ideal S64 .f32} (hγ : IsRealArr γ)
    (hβ : IsRealArr β) : normK T γ β = bnOf T γ β ∧ IsRealArr (bnOf T γ β) := by
  obtain ⟨g, rfl⟩ := hT; obtain ⟨gγ, rfl⟩ := hγ; obtain ⟨gβ, rfl⟩ := hβ
  have hN : (100000 : ℝ) ≠ 0 := by norm_num
  have hcard : (Fintype.card (Fin 100000) : ℝ) = 100000 := by simp
  constructor
  · funext i
    obtain ⟨p, q, rfl⟩ : ∃ (p : Fin 100000) (q : Fin 64), i = ix2 p q := ⟨i 0, i 1, eq_ix2 i⟩
    rw [normK_apply, bnOf_apply]
    exact normSums_eq_normDevs 100000 hN hcard (fun r j => g (ix2 r j)) _ _ _ p q
  · refine isReal_of_forall fun i => ?_
    obtain ⟨p, q, rfl⟩ : ∃ (p : Fin 100000) (q : Fin 64), i = ix2 p q := ⟨i 0, i 1, eq_ix2 i⟩
    rw [bnOf_apply, Cert.Lib.StatLits.eps_word]
    exact ⟨_, normDevs_real 100000 (by norm_num) (fun r j => g (ix2 r j)) (fun j => gγ (ix1 j)) (fun j => gβ (ix1 j))
      Cert.Lib.StatLits.eps_pos p q⟩

/-- The first block. -/
theorem kblk1_eq {x : FVec Ideal S100000x128 .f32} (hx : IsRealArr x) (ei : IVec S2x1600000 32) {W1 : FVec Ideal S128x64 .f32}
    (hW1 : IsRealArr W1) {b1 : FVec Ideal S64 .f32} (hb1 : IsRealArr b1) {W2 : FVec Ideal S64x64 .f32} (hW2 : IsRealArr W2)
    {b2 : FVec Ideal S64 .f32} (hb2 : IsRealArr b2) {G B : FVec Ideal S5x64 .f32} (hG : IsRealArr G) (hB : IsRealArr B) :
    kblk1 x ei W1 b1 W2 b2 G B = blk1 x ei W1 b1 W2 b2 G B ∧ IsRealArr (blk1 x ei W1 b1 W2 b2 G B) := by
  unfold kblk1 blk1
  rw [mlpH128_eq]
  exact norm_agree (isReal_mlp (isReal_agg128 hx ei) hW1 (isReal_asRow hb1) hW2 (isReal_asRow hb2)) (isReal_row5 hG _ _) (isReal_row5 hB _ _)

/-- A later block. -/
theorem kblkN_eq {h : FVec Ideal S100000x64 .f32} (hh : IsRealArr h) (ei : IVec S2x1600000 32) {W1s : FVec Ideal S4x64x64 .f32}
    (hW1 : IsRealArr W1s) {B1s : FVec Ideal S4x64 .f32} (hB1 : IsRealArr B1s) {W2s : FVec Ideal S4x64x64 .f32} (hW2 : IsRealArr W2s)
    {B2s : FVec Ideal S4x64 .f32} (hB2 : IsRealArr B2s) {G B : FVec Ideal S5x64 .f32} (hG : IsRealArr G) (hB : IsRealArr B)
    (o3 : Fin 3 → Nat) (h3 : S4x64x64.Slices o3 S1x64x64) (o2 : Fin 2 → Nat) (h2 : S4x64.Slices o2 S1x64)
    (o5 : Fin 2 → Nat) (h5 : S5x64.Slices o5 S1x64) :
    kblkN h ei W1s B1s W2s B2s G B o3 h3 o2 h2 o5 h5 = blkN h ei W1s B1s W2s B2s G B o3 h3 o2 h2 o5 h5
      ∧ IsRealArr (blkN h ei W1s B1s W2s B2s G B o3 h3 o2 h2 o5 h5) := by
  unfold kblkN blkN
  rw [mlpH64_eq]
  exact norm_agree (isReal_mlp (isReal_agg64 hh ei) (isReal_slab hW1 _ _) (isReal_asRow (isReal_row4 hB1 _ _)) (isReal_slab hW2 _ _)
    (isReal_asRow (isReal_row4 hB2 _ _))) (isReal_row5 hG _ _) (isReal_row5 hB _ _)

/-- The five blocks. -/
theorem knet_eq {x : FVec Ideal S100000x128 .f32} (hx : IsRealArr x) (ei : IVec S2x1600000 32) {w1 : FVec Ideal S128x64 .f32}
    (hw1 : IsRealArr w1) {b1 : FVec Ideal S64 .f32} (hb1 : IsRealArr b1) {w2 : FVec Ideal S64x64 .f32} (hw2 : IsRealArr w2)
    {b2 : FVec Ideal S64 .f32} (hb2 : IsRealArr b2) {W1s : FVec Ideal S4x64x64 .f32} (hW1 : IsRealArr W1s)
    {B1s : FVec Ideal S4x64 .f32} (hB1 : IsRealArr B1s) {W2s : FVec Ideal S4x64x64 .f32} (hW2 : IsRealArr W2s)
    {B2s : FVec Ideal S4x64 .f32} (hB2 : IsRealArr B2s) {G B : FVec Ideal S5x64 .f32} (hG : IsRealArr G) (hB : IsRealArr B) :
    knet x ei w1 b1 w2 b2 W1s B1s W2s B2s G B = Cert.ReferenceIdeal.RefRun.net x ei w1 b1 w2 b2 W1s B1s W2s B2s G B := by
  obtain ⟨e1, r1⟩ := kblk1_eq hx ei hw1 hb1 hw2 hb2 hG hB
  obtain ⟨e2, r2⟩ := kblkN_eq r1 ei hW1 hB1 hW2 hB2 hG hB ![0, 0, 0] slices_S4x64x64_S1x64x64_0_0_0 ![0, 0] slices_S4x64_S1x64_0_0 ![1, 0] slices_S5x64_S1x64_1_0
  obtain ⟨e3, r3⟩ := kblkN_eq r2 ei hW1 hB1 hW2 hB2 hG hB ![1, 0, 0] slices_S4x64x64_S1x64x64_1_0_0 ![1, 0] slices_S4x64_S1x64_1_0 ![2, 0] slices_S5x64_S1x64_2_0
  obtain ⟨e4, r4⟩ := kblkN_eq r3 ei hW1 hB1 hW2 hB2 hG hB ![2, 0, 0] slices_S4x64x64_S1x64x64_2_0_0 ![2, 0] slices_S4x64_S1x64_2_0 ![3, 0] slices_S5x64_S1x64_3_0
  obtain ⟨e5, -⟩ := kblkN_eq r4 ei hW1 hB1 hW2 hB2 hG hB ![3, 0, 0] slices_S4x64x64_S1x64x64_3_0_0 ![3, 0] slices_S4x64_S1x64_3_0 ![4, 0] slices_S5x64_S1x64_4_0
  unfold knet Cert.ReferenceIdeal.RefRun.net
  rw [e1, e2, e3, e4, e5]

/-- The head: the kernel's and the host's spelling are one array, with no finiteness. -/
theorem khead_eq (g : FVec Ideal S2048x64 .f32) (W1 : FVec Ideal S64x64 .f32) (b1 : FVec Ideal S64 .f32)
    (W2 : FVec Ideal S64x32 .f32) (b2 : FVec Ideal S32 .f32) : khead g W1 b1 W2 b2 = headH g W1 b1 W2 b2 := by
  unfold khead headH head
  have hrelu : ∀ Y : FVec Ideal S2048x64 .f32, maximumf Y (broadcastInDim S2048x64 ![] bcast_S_S2048x64 zeroW) = relu Y :=
    fun Y => funext fun i => by rw [maximumf_apply, relu_apply, splat_apply, zeroW_apply]
  rw [RowAffine.host_eq dot_S2048x64_S64x64_S2048x64_1_0_0_1_n_n rfl (by decide) none g W1 b1 sc64, hrelu,
    RowAffine.host_eq dot_S2048x64_S64x32_S2048x32_1_0_0_1_n_n rfl (by decide) none _ W2 b2 sc32]

end Cert.ReferenceIdeal.Forms

end
-- ==== Proof.LibFiniteArrays.lean ====
/-
  Arrays all of whose entries are finite.  A program states "every entry of `x` is finite" as: the absolute
  value of every entry is below plus infinity, all these comparisons reduced by "and" into one bit that is 1.
  On the extended reals, `|x| < +∞` excludes both infinities, so such an array is the entrywise coercion of an
  array of real numbers.
-/
import Idealize.ShloMosaic.Lib.ReduceAll
import Idealize.ShloMosaic.Lib.ValueIdx
import Idealize.ShloMosaic.PureOps.Ideal

noncomputable section

namespace Cert.FiniteArrays

open Idealize.ShloMosaic

/-- The scalar shape has one index. -/
instance : Subsingleton (⟨0, ![]⟩ : Shape).Idx := ⟨fun a b => funext fun d => d.elim0⟩

/-- The pattern of plus infinity denotes the top of the extended reals. -/
theorem pos_inf : Ideal.ofBits .f32 0x7F800000#32 = (⊤ : EReal) := by
  simp [Ideal.ofBits, Ideal.ieee]

/-- An extended real whose absolute value compares below plus infinity is a real number. -/
theorem real_of_abs_lt_top (x : EReal)
    (h : FloatOps.cmpf (F := Ideal) (φ := .f32) .olt (FloatOps.hostAbsf x) (FloatOps.ofBits .f32 0x7F800000#32) = 1#1) :
    ∃ r : ℝ, x = (r : EReal) := by
  have h' : Ideal.cmp .olt (max x (-x)) (⊤ : EReal) = 1#1 := by rw [← pos_inf]; exact h
  induction x using EReal.rec with
  | bot => simp [Ideal.cmp] at h'
  | coe r => exact ⟨r, rfl⟩
  | top => simp [Ideal.cmp] at h'

/-- An array whose finiteness test — every `|x i| < +∞`, reduced by "and" from 1 into one bit — answers 1 is the
    entrywise coercion of a real array. -/
theorem exists_real {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi (cmpf .olt (Host.absf x) (broadcastInDim s ![] hb (constant ⟨0, ![]⟩ .f32 0x7F800000#32)))
      (constantI ⟨0, ![]⟩ 1 1#1) hr hu ValueIdx.ix0 = 1#1) :
    ∃ f : s.Idx → ℝ, x = fun i => ((f i : ℝ) : EReal) := by
  have h : ∀ i, ∃ r : ℝ, x i = (r : EReal) := fun i =>
    real_of_abs_lt_top (x i) (Host.reduce_andi_all _ _ hr hu _ e i)
  choose f hf using h
  exact ⟨f, funext hf⟩

end Cert.FiniteArrays

end
-- ==== Proof.PreReal.lean ====
/-
  The precondition says every float argument passes the finiteness test; an array that passes it is the entrywise
  coercion of a real array. So under the precondition the fifteen float arguments are real-valued.
-/
import proofs.«169884_j31009663877671_1_alg».proof.Proof.Gen.Pre_finite_inputs
import proofs.«169884_j31009663877671_1_alg».proof.Proof.LibFiniteArrays
import proofs.«169884_j31009663877671_1_alg».proof.Proof.LibBatchNorm
import Idealize.ShloMosaic.Lib.Affine

noncomputable section

namespace Cert.PreReal

open Cert.Pre_finite_inputs Idealize.ShloMosaic Cert.Lib.BatchNorm
open Facts

theorem reals_of_pre (x0 : FVec Ideal S100000x128 .f32) (x1 : IVec S2x1600000 32) (x2 : IVec S100000 32) (x3 : FVec Ideal S128x64 .f32) (x4 : FVec Ideal S64 .f32) (x5 : FVec Ideal S64x64 .f32) (x6 : FVec Ideal S64 .f32) (x7 : FVec Ideal S4x64x64 .f32) (x8 : FVec Ideal S4x64 .f32) (x9 : FVec Ideal S4x64x64 .f32) (x10 : FVec Ideal S4x64 .f32) (x11 : FVec Ideal S5x64 .f32) (x12 : FVec Ideal S5x64 .f32) (x13 : FVec Ideal S64x64 .f32) (x14 : FVec Ideal S64 .f32) (x15 : FVec Ideal S64x32 .f32) (x16 : FVec Ideal S32 .f32)
    (h : fn (F := Ideal) x0 x1 x2 x3 x4 x5 x6 x7 x8 x9 x10 x11 x12 x13 x14 x15 x16 = fun _ => 1#1) :
    IsRealArr x0 ∧ IsRealArr x3 ∧ IsRealArr x4 ∧ IsRealArr x5 ∧ IsRealArr x6 ∧ IsRealArr x7 ∧ IsRealArr x8 ∧ IsRealArr x9 ∧ IsRealArr x10 ∧ IsRealArr x11 ∧ IsRealArr x12 ∧ IsRealArr x13 ∧ IsRealArr x14 ∧ IsRealArr x15 ∧ IsRealArr x16 := by
  have h0 := congrFun h ValueIdx.ix0
  unfold fn fn_part1 fn_part2 fn_part3 fn_part4 at h0
  dsimp only at h0
  simp only [show ∀ (a b : IVec S_ 1) (i : S_.Idx), andi a b i = IntOp.andi (a i) (b i) from fun _ _ _ => rfl, IntOp.andi_eq_one] at h0
  obtain ⟨⟨⟨⟨⟨⟨⟨⟨⟨⟨⟨⟨⟨⟨e_x0, e_x3⟩, e_x4⟩, e_x5⟩, e_x6⟩, e_x7⟩, e_x8⟩, e_x9⟩, e_x10⟩, e_x11⟩, e_x12⟩, e_x13⟩, e_x14⟩, e_x15⟩, e_x16⟩ := h0
  exact ⟨Cert.FiniteArrays.exists_real x0 _ _ _ e_x0, Cert.FiniteArrays.exists_real x3 _ _ _ e_x3, Cert.FiniteArrays.exists_real x4 _ _ _ e_x4, Cert.FiniteArrays.exists_real x5 _ _ _ e_x5, Cert.FiniteArrays.exists_real x6 _ _ _ e_x6, Cert.FiniteArrays.exists_real x7 _ _ _ e_x7, Cert.FiniteArrays.exists_real x8 _ _ _ e_x8, Cert.FiniteArrays.exists_real x9 _ _ _ e_x9, Cert.FiniteArrays.exists_real x10 _ _ _ e_x10, Cert.FiniteArrays.exists_real x11 _ _ _ e_x11, Cert.FiniteArrays.exists_real x12 _ _ _ e_x12, Cert.FiniteArrays.exists_real x13 _ _ _ e_x13, Cert.FiniteArrays.exists_real x14 _ _ _ e_x14, Cert.FiniteArrays.exists_real x15 _ _ _ e_x15, Cert.FiniteArrays.exists_real x16 _ _ _ e_x16⟩

end Cert.PreReal

end
-- ==== Proof.lean ====
/-
  Equivalence over the extended reals of a five-block graph-isomorphism network (aggregate neighbours, two-layer
  perceptron, batch normalisation over the 100000 nodes; then a pooling over graphs and a two-layer head) written with
  fused kernels, against its plain reference.

  The two programs do the same arithmetic except for the variance inside each batch normalisation: the kernels accumulate
  the column sums of the features and of their squares over twenty row blocks and use "mean of squares minus square of
  the mean"; the reference uses the mean of the squared deviations from the mean. On real numbers these are one number
  (expand the square), and the precondition makes every float argument real-valued; sums, products, clamps, quotients by
  the count and the reciprocal square root of a nonnegative variance plus a positive epsilon keep real data real, so the
  five blocks agree one after the other. The pooling and the head are the same operations on both sides.

  The kernel side is read off the frame run boundary by boundary (each region's arrays from its write-backs, the two
  accumulated rows by induction over the grid points); the reference side from its host operations run in order.
  The idealization rewrote nothing, so the preservation claim is trivial.
-/
import proofs.«169884_j31009663877671_1_alg».proof.Defs
import proofs.«169884_j31009663877671_1_alg».proof.Proof.Gen.Kernel.Frame
import proofs.«169884_j31009663877671_1_alg».proof.Proof.Gen.KernelIdeal.Frame
import proofs.«169884_j31009663877671_1_alg».proof.Proof.Gen.ReferenceIdeal
import proofs.«169884_j31009663877671_1_alg».proof.Proof.Gen.Pre_finite_inputs
import proofs.«169884_j31009663877671_1_alg».proof.Proof.KernelOut
import proofs.«169884_j31009663877671_1_alg».proof.Proof.KChain
import proofs.«169884_j31009663877671_1_alg».proof.Proof.RefChain
import proofs.«169884_j31009663877671_1_alg».proof.Proof.Bridge
import proofs.«169884_j31009663877671_1_alg».proof.Proof.PreReal
import Idealize.ShloMosaic.Adequacy
import Idealize.ShloMosaic.Init

set_option maxRecDepth 16384

noncomputable section

namespace Cert.Proof

open Idealize.ShloMosaic Idealize.SL.Sem Idealize.ShloMosaic.TcCoe
open Cert.ReferenceIdeal.Forms Cert.ReferenceIdeal.RefRun

theorem frame_k : Cert.frame_Kernel := fun m ρ _ => Cert.Kernel.Gen.frame m ρ

theorem frame_ki : Cert.frame_KernelIdeal := fun m ρ _ => Cert.KernelIdeal.Gen.frame m ρ

/-- The reference runs to the end with its arguments unchanged: its operations in order, none of which writes an argument. -/
theorem frame_ri : Cert.frame_ReferenceIdeal := fun m ρ _ =>
  (θ_run (Cert.ReferenceIdeal.defs (F := Ideal)) _ _).mono
    (fun r h c => ⟨(h c Cert.ReferenceIdeal.main_arg0).trans (kept_main_arg0 _),
      (h c Cert.ReferenceIdeal.main_arg1).trans (kept_main_arg1 _),
      (h c Cert.ReferenceIdeal.main_arg2).trans (kept_main_arg2 _),
      (h c Cert.ReferenceIdeal.main_arg3).trans (kept_main_arg3 _),
      (h c Cert.ReferenceIdeal.main_arg4).trans (kept_main_arg4 _),
      (h c Cert.ReferenceIdeal.main_arg5).trans (kept_main_arg5 _),
      (h c Cert.ReferenceIdeal.main_arg6).trans (kept_main_arg6 _),
      (h c Cert.ReferenceIdeal.main_arg7).trans (kept_main_arg7 _),
      (h c Cert.ReferenceIdeal.main_arg8).trans (kept_main_arg8 _),
      (h c Cert.ReferenceIdeal.main_arg9).trans (kept_main_arg9 _),
      (h c Cert.ReferenceIdeal.main_arg10).trans (kept_main_arg10 _),
      (h c Cert.ReferenceIdeal.main_arg11).trans (kept_main_arg11 _),
      (h c Cert.ReferenceIdeal.main_arg12).trans (kept_main_arg12 _),
      (h c Cert.ReferenceIdeal.main_arg13).trans (kept_main_arg13 _),
      (h c Cert.ReferenceIdeal.main_arg14).trans (kept_main_arg14 _),
      (h c Cert.ReferenceIdeal.main_arg15).trans (kept_main_arg15 _),
      (h c Cert.ReferenceIdeal.main_arg16).trans (kept_main_arg16 _)⟩)
    (run_main (F := Ideal) m ρ)

theorem preserves : Cert.preserves_Kernel_KernelIdeal := trivial

/-- Both idealized programs end, with equal results: the kernel's network of its arguments and the reference's network of
    agreeing arguments, equal because the arguments are real-valued. -/
theorem algebraic : Cert.algebraic_KernelIdeal_ReferenceIdeal := by
  intro m g m' g' hpre hagree
  refine ⟨fun c => Cert.KernelIdeal.Gen.W22 m g c (Proc.devRef .tc Cert.KernelIdeal.main_v212), Cert.KernelIdeal.Out.run_out m g, ?_⟩
  refine (θ_run (Cert.ReferenceIdeal.defs (F := Ideal)) _ _).mono (fun r h c => ⟨?_,
      (h c Cert.ReferenceIdeal.main_arg0).trans (kept_main_arg0 _),
      (h c Cert.ReferenceIdeal.main_arg1).trans (kept_main_arg1 _),
      (h c Cert.ReferenceIdeal.main_arg2).trans (kept_main_arg2 _),
      (h c Cert.ReferenceIdeal.main_arg3).trans (kept_main_arg3 _),
      (h c Cert.ReferenceIdeal.main_arg4).trans (kept_main_arg4 _),
      (h c Cert.ReferenceIdeal.main_arg5).trans (kept_main_arg5 _),
      (h c Cert.ReferenceIdeal.main_arg6).trans (kept_main_arg6 _),
      (h c Cert.ReferenceIdeal.main_arg7).trans (kept_main_arg7 _),
      (h c Cert.ReferenceIdeal.main_arg8).trans (kept_main_arg8 _),
      (h c Cert.ReferenceIdeal.main_arg9).trans (kept_main_arg9 _),
      (h c Cert.ReferenceIdeal.main_arg10).trans (kept_main_arg10 _),
      (h c Cert.ReferenceIdeal.main_arg11).trans (kept_main_arg11 _),
      (h c Cert.ReferenceIdeal.main_arg12).trans (kept_main_arg12 _),
      (h c Cert.ReferenceIdeal.main_arg13).trans (kept_main_arg13 _),
      (h c Cert.ReferenceIdeal.main_arg14).trans (kept_main_arg14 _),
      (h c Cert.ReferenceIdeal.main_arg15).trans (kept_main_arg15 _),
      (h c Cert.ReferenceIdeal.main_arg16).trans (kept_main_arg16 _)⟩)
    (run_main (F := Ideal) m' g')
  obtain ⟨a0, a1, a2, a3, a4, a5, a6, a7, a8, a9, a10, a11, a12, a13, a14, a15, a16⟩ := hagree c
  obtain ⟨r0, r3, r4, r5, r6, r7, r8, r9, r10, r11, r12, r13, r14, r15, r16⟩ := Cert.PreReal.reals_of_pre _ _ _ _ _ _ _ _ _ _ _ _ _ _ _ _ _ (hpre c)
  have b0 : StableHlo.launchContents m' c (Proc.devRef .tc Cert.ReferenceIdeal.main_arg0) = m ((c.tc : Thread Cert.KernelIdeal.nD Cert.KernelIdeal.τ).loc Cert.KernelIdeal.main_arg0) := a0
  have b1 : StableHlo.launchContents m' c (Proc.devRef .tc Cert.ReferenceIdeal.main_arg1) = m ((c.tc : Thread Cert.KernelIdeal.nD Cert.KernelIdeal.τ).loc Cert.KernelIdeal.main_arg1) := a1
  have b2 : StableHlo.launchContents m' c (Proc.devRef .tc Cert.ReferenceIdeal.main_arg2) = m ((c.tc : Thread Cert.KernelIdeal.nD Cert.KernelIdeal.τ).loc Cert.KernelIdeal.main_arg2) := a2
  have b3 : StableHlo.launchContents m' c (Proc.devRef .tc Cert.ReferenceIdeal.main_arg3) = m ((c.tc : Thread Cert.KernelIdeal.nD Cert.KernelIdeal.τ).loc Cert.KernelIdeal.main_arg3) := a3
  have b4 : StableHlo.launchContents m' c (Proc.devRef .tc Cert.ReferenceIdeal.main_arg4) = m ((c.tc : Thread Cert.KernelIdeal.nD Cert.KernelIdeal.τ).loc Cert.KernelIdeal.main_arg4) := a4
  have b5 : StableHlo.launchContents m' c (Proc.devRef .tc Cert.ReferenceIdeal.main_arg5) = m ((c.tc : Thread Cert.KernelIdeal.nD Cert.KernelIdeal.τ).loc Cert.KernelIdeal.main_arg5) := a5
  have b6 : StableHlo.launchContents m' c (Proc.devRef .tc Cert.ReferenceIdeal.main_arg6) = m ((c.tc : Thread Cert.KernelIdeal.nD Cert.KernelIdeal.τ).loc Cert.KernelIdeal.main_arg6) := a6
  have b7 : StableHlo.launchContents m' c (Proc.devRef .tc Cert.ReferenceIdeal.main_arg7) = m ((c.tc : Thread Cert.KernelIdeal.nD Cert.KernelIdeal.τ).loc Cert.KernelIdeal.main_arg7) := a7
  have b8 : StableHlo.launchContents m' c (Proc.devRef .tc Cert.ReferenceIdeal.main_arg8) = m ((c.tc : Thread Cert.KernelIdeal.nD Cert.KernelIdeal.τ).loc Cert.KernelIdeal.main_arg8) := a8
  have b9 : StableHlo.launchContents m' c (Proc.devRef .tc Cert.ReferenceIdeal.main_arg9) = m ((c.tc : Thread Cert.KernelIdeal.nD Cert.KernelIdeal.τ).loc Cert.KernelIdeal.main_arg9) := a9
  have b10 : StableHlo.launchContents m' c (Proc.devRef .tc Cert.ReferenceIdeal.main_arg10) = m ((c.tc : Thread Cert.KernelIdeal.nD Cert.KernelIdeal.τ).loc Cert.KernelIdeal.main_arg10) := a10
  have b11 : StableHlo.launchContents m' c (Proc.devRef .tc Cert.ReferenceIdeal.main_arg11) = m ((c.tc : Thread Cert.KernelIdeal.nD Cert.KernelIdeal.τ).loc Cert.KernelIdeal.main_arg11) := a11
  have b12 : StableHlo.launchContents m' c (Proc.devRef .tc Cert.ReferenceIdeal.main_arg12) = m ((c.tc : Thread Cert.KernelIdeal.nD Cert.KernelIdeal.τ).loc Cert.KernelIdeal.main_arg12) := a12
  have b13 : StableHlo.launchContents m' c (Proc.devRef .tc Cert.ReferenceIdeal.main_arg13) = m ((c.tc : Thread Cert.KernelIdeal.nD Cert.KernelIdeal.τ).loc Cert.KernelIdeal.main_arg13) := a13
  have b14 : StableHlo.launchContents m' c (Proc.devRef .tc Cert.ReferenceIdeal.main_arg14) = m ((c.tc : Thread Cert.KernelIdeal.nD Cert.KernelIdeal.τ).loc Cert.KernelIdeal.main_arg14) := a14
  have b15 : StableHlo.launchContents m' c (Proc.devRef .tc Cert.ReferenceIdeal.main_arg15) = m ((c.tc : Thread Cert.KernelIdeal.nD Cert.KernelIdeal.τ).loc Cert.KernelIdeal.main_arg15) := a15
  have b16 : StableHlo.launchContents m' c (Proc.devRef .tc Cert.ReferenceIdeal.main_arg16) = m ((c.tc : Thread Cert.KernelIdeal.nD Cert.KernelIdeal.τ).loc Cert.KernelIdeal.main_arg16) := a16
  refine (h c Cert.ReferenceIdeal.main_v294).trans ?_
  show _ = Cert.KernelIdeal.Gen.W22 m g c (Proc.devRef .tc Cert.KernelIdeal.main_v212)
  rw [result_eq, Cert.KernelIdeal.Chain.kernel_value, b0, b1, b2, b3, b4, b5, b6, b7, b8, b9, b10, b11, b12, b13, b14, b15, b16]
  rw [knet_eq r0 _ r3 r4 r5 r6 r7 r8 r9 r10 r11 r12, khead_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
